-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v147)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v147) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S800000 : Shape := ⟨1, ![800000]⟩
abbrev S64x64 : Shape := ⟨2, ![64, 64]⟩
abbrev S5x64x67 : Shape := ⟨3, ![5, 64, 67]⟩
abbrev S5x64x128 : Shape := ⟨3, ![5, 64, 128]⟩
abbrev S5x64 : Shape := ⟨2, ![5, 64]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S800000 : S_.BroadcastsInDim S800000 (![] : Fin 0 → Fin S800000.rank)
  reducesTo_S800000_S_d0 : S800000.ReducesTo [0] S_
  h_S_ : 0 < S_.numel
  bcast_S_S64x64 : S_.BroadcastsInDim S64x64 (![] : Fin 0 → Fin S64x64.rank)
  reducesTo_S64x64_S_d0_1 : S64x64.ReducesTo [0, 1] S_
  bcast_S_S5x64x67 : S_.BroadcastsInDim S5x64x67 (![] : Fin 0 → Fin S5x64x67.rank)
  reducesTo_S5x64x67_S_d0_1_2 : S5x64x67.ReducesTo [0, 1, 2] S_
  bcast_S_S5x64x128 : S_.BroadcastsInDim S5x64x128 (![] : Fin 0 → Fin S5x64x128.rank)
  reducesTo_S5x64x128_S_d0_1_2 : S5x64x128.ReducesTo [0, 1, 2] S_
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  main_v53

def fn_part2 {F : FTy → Type} [FloatOps F] (main_arg10 : FVec F S64x64 .f32) (main_arg11 : FVec F S64 .f32) (main_arg12 : FVec F S32x64 .f32) (main_arg13 : FVec F S32 .f32) (main_v33 : IVec S_ 1) : IVec S_ 1 :=
  let main_v34 : FVec F S64x64 .f32 := Host.absf main_arg10
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S32x64 .f32 := Host.absf main_arg12
  let main_cst_16 : FVec F S_ .f32 := constant S_ .f32 0x7F800000#32
  let main_v45 : FVec F S32x64 .f32 := broadcastInDim S32x64 ![] bcast_S_S32x64 main_cst_16
  let main_v46 : IVec S32x64 1 := cmpf .olt main_v44 main_v45
  let main_c_17 : IVec S_ 1 := constantI S_ 1 1#1
  let main_v47 : IVec S_ 1 := (fun x v => Host.reduce IntOp.andi x v reducesTo_S32x64_S_d0_1 h_S_) main_v46 main_c_17
  let main_v48 : IVec S_ 1 := andi main_v43 main_v47
  let main_v49 : FVec F S32 .f32 := Host.absf main_arg13
  let main_cst_18 : FVec F S_ .f32 := constant S_ .f32 0x7F800000#32
  let main_v50 : FVec F S32 .f32 := broadcastInDim S32 ![] bcast_S_S32 main_cst_18
  fn_part3 (F := F) main_v48 main_v49 main_v50

def fn_part1 {F : FTy → Type} [FloatOps F] (main_arg7 : FVec F S5x64x67 .f32) (main_arg8 : FVec F S5x64x128 .f32) (main_arg9 : FVec F S5x64 .f32) (main_arg10 : FVec F S64x64 .f32) (main_arg11 : FVec F S64 .f32) (main_arg12 : FVec F S32x64 .f32) (main_arg13 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S5x64x67 .f32 := Host.absf main_arg7
  let main_cst_6 : FVec F S_ .f32 := constant S_ .f32 0x7F800000#32
  let main_v20 : FVec F S5x64x67 .f32 := broadcastInDim S5x64x67 ![] bcast_S_S5x64x67 main_cst_6
  let main_v21 : IVec S5x64x67 1 := cmpf .olt main_v19 main_v20
  let main_c_7 : IVec S_ 1 := constantI S_ 1 1#1
  let main_v22 : IVec S_ 1 := (fun x v => Host.reduce IntOp.andi x v reducesTo_S5x64x67_S_d0_1_2 h_S_) main_v21 main_c_7
  let main_v23 : IVec S_ 1 := andi main_v18 main_v22
  let main_v24 : FVec F S5x64x128 .f32 := Host.absf main_arg8
  let main_cst_8 : FVec F S_ .f32 := constant S_ .f32 0x7F800000#32
  let main_v25 : FVec F S5x64x128 .f32 := broadcastInDim S5x64x128 ![] bcast_S_S5x64x128 main_cst_8
  let main_v26 : IVec S5x64x128 1 := cmpf .olt main_v24 main_v25
  let main_c_9 : IVec S_ 1 := constantI S_ 1 1#1
  let main_v27 : IVec S_ 1 := (fun x v => Host.reduce IntOp.andi x v reducesTo_S5x64x128_S_d0_1_2 h_S_) main_v26 main_c_9
  let main_v28 : IVec S_ 1 := andi main_v23 main_v27
  let main_v29 : FVec F S5x64 .f32 := Host.absf main_arg9
  let main_cst_10 : FVec F S_ .f32 := constant S_ .f32 0x7F800000#32
  let main_v30 : FVec F S5x64 .f32 := broadcastInDim S5x64 ![] bcast_S_S5x64 main_cst_10
  let main_v31 : IVec S5x64 1 := cmpf .olt main_v29 main_v30
  let main_c_11 : IVec S_ 1 := constantI S_ 1 1#1
  let main_v32 : IVec S_ 1 := (fun x v => Host.reduce IntOp.andi x v reducesTo_S5x64_S_d0_1 h_S_) main_v31 main_c_11
  let main_v33 : IVec S_ 1 := andi main_v28 main_v32
  fn_part2 (F := F) main_arg10 main_arg11 main_arg12 main_arg13 main_v33

def fn {F : FTy → Type} [FloatOps F] (main_arg0 : IVec S100000 32) (main_arg1 : IVec S800000 32) (main_arg2 : IVec S800000 32) (main_arg3 : FVec F S800000 .f32) (main_arg4 : FVec F S800000 .f32) (main_arg5 : FVec F S800000 .f32) (main_arg6 : FVec F S64x64 .f32) (main_arg7 : FVec F S5x64x67 .f32) (main_arg8 : FVec F S5x64x128 .f32) (main_arg9 : FVec F S5x64 .f32) (main_arg10 : FVec F S64x64 .f32) (main_arg11 : FVec F S64 .f32) (main_arg12 : FVec F S32x64 .f32) (main_arg13 : FVec F S32 .f32) : IVec S_ 1 :=
  let main_v0 : FVec F S800000 .f32 := Host.absf main_arg3
  let main_cst : FVec F S_ .f32 := constant S_ .f32 0x7F800000#32
  let main_v1 : FVec F S800000 .f32 := broadcastInDim S800000 ![] bcast_S_S800000 main_cst
  let main_v2 : IVec S800000 1 := cmpf .olt main_v0 main_v1
  let main_c : IVec S_ 1 := constantI S_ 1 1#1
  let main_v3 : IVec S_ 1 := (fun x v => Host.reduce IntOp.andi x v reducesTo_S800000_S_d0 h_S_) main_v2 main_c
  let main_v4 : FVec F S800000 .f32 := Host.absf main_arg4
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S800000 .f32 := Host.absf main_arg5
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_arg8 main_arg9 main_arg10 main_arg11 main_arg12 main_arg13 main_v13 main_v16
-- ==== Kernel.lean ====
abbrev S100000 : Shape := ⟨1, ![100000]⟩
abbrev S800000 : Shape := ⟨1, ![800000]⟩
abbrev S64x64 : Shape := ⟨2, ![64, 64]⟩
abbrev S5x64x67 : Shape := ⟨3, ![5, 64, 67]⟩
abbrev S5x64x128 : Shape := ⟨3, ![5, 64, 128]⟩
abbrev S5x64 : Shape := ⟨2, ![5, 64]⟩
abbrev S64 : Shape := ⟨1, ![64]⟩
abbrev S32x64 : Shape := ⟨2, ![32, 64]⟩
abbrev S32 : Shape := ⟨1, ![32]⟩
abbrev S800000x1 : Shape := ⟨2, ![800000, 1]⟩
abbrev S800000x3 : Shape := ⟨2, ![800000, 3]⟩
abbrev S_ : Shape := ⟨0, ![]⟩
abbrev S100000x1 : Shape := ⟨2, ![100000, 1]⟩
abbrev S100000x64 : Shape := ⟨2, ![100000, 64]⟩
abbrev S5x64x64 : Shape := ⟨3, ![5, 64, 64]⟩
abbrev S5x64x3 : Shape := ⟨3, ![5, 64, 3]⟩
abbrev S1x64 : Shape := ⟨2, ![1, 64]⟩
abbrev S1x32 : Shape := ⟨2, ![1, 32]⟩
abbrev S800000x64 : Shape := ⟨2, ![800000, 64]⟩
abbrev S1x64x64 : Shape := ⟨3, ![1, 64, 64]⟩
abbrev S1x64x3 : Shape := ⟨3, ![1, 64, 3]⟩
abbrev S64x3 : Shape := ⟨2, ![64, 3]⟩
abbrev S8000x64 : Shape := ⟨2, ![8000, 64]⟩
abbrev S8000x3 : Shape := ⟨2, ![8000, 3]⟩
abbrev S3x64 : Shape := ⟨2, ![3, 64]⟩
abbrev S5000x64 : Shape := ⟨2, ![5000, 64]⟩
abbrev S5000x1 : Shape := ⟨2, ![5000, 1]⟩
abbrev S100000x32 : Shape := ⟨2, ![100000, 32]⟩
abbrev S5000x32 : Shape := ⟨2, ![5000, 32]⟩
abbrev S64x32 : Shape := ⟨2, ![64, 32]⟩

abbrev nBuf : Space → Nat
  | .hbm => 183
  | .vmem => 103
  | .smem => 0
  | _ => 0

abbrev hbmTy0_0 (i : Nat) : BufTy := match i % 128 with
  | 0 => ⟨S100000, .i32⟩
  | 1 => ⟨S800000, .i32⟩
  | 2 => ⟨S800000, .i32⟩
  | 3 => ⟨S800000, .f32⟩
  | 4 => ⟨S800000, .f32⟩
  | 5 => ⟨S800000, .f32⟩
  | 6 => ⟨S64x64, .f32⟩
  | 7 => ⟨S5x64x67, .f32⟩
  | 8 => ⟨S5x64x128, .f32⟩
  | 9 => ⟨S5x64, .f32⟩
  | 10 => ⟨S64x64, .f32⟩
  | 11 => ⟨S64, .f32⟩
  | 12 => ⟨S32x64, .f32⟩
  | 13 => ⟨S32, .f32⟩
  | 14 => ⟨S800000x1, .f32⟩
  | 15 => ⟨S800000x1, .f32⟩
  | 16 => ⟨S800000x1, .f32⟩
  | 17 => ⟨S800000x3, .f32⟩
  | 18 => ⟨S_, .f32⟩
  | 19 => ⟨S800000, .f32⟩
  | 20 => ⟨S_, .f32⟩
  | 21 => ⟨S100000, .f32⟩
  | 22 => ⟨S800000x1, .i32⟩
  | 23 => ⟨S100000, .f32⟩
  | 24 => ⟨S_, .f32⟩
  | 25 => ⟨S100000, .f32⟩
  | 26 => ⟨S100000, .f32⟩
  | 27 => ⟨S_, .f32⟩
  | 28 => ⟨S100000, .f32⟩
  | 29 => ⟨S100000, .f32⟩
  | 30 => ⟨S100000x1, .f32⟩
  | 31 => ⟨S_, .i32⟩
  | 32 => ⟨S100000, .i32⟩
  | 33 => ⟨S100000, .i1⟩
  | 34 => ⟨S_, .i32⟩
  | 35 => ⟨S100000, .i32⟩
  | 36 => ⟨S100000, .i32⟩
  | 37 => ⟨S100000, .i32⟩
  | 38 => ⟨S100000x1, .i32⟩
  | 39 => ⟨S100000x64, .f32⟩
  | 40 => ⟨S100000x64, .bf16⟩
  | 41 => ⟨S5x64x64, .f32⟩
  | 42 => ⟨S5x64x3, .f32⟩
  | 43 => ⟨S5x64x64, .f32⟩
  | 44 => ⟨S5x64x64, .f32⟩
  | 45 => ⟨S1x64, .f32⟩
  | 46 => ⟨S1x32, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x64, .bf16⟩
  | 56 => ⟨S1x64x64, .f32⟩
  | 57 => ⟨S64x64, .f32⟩
  | 58 => ⟨S1x64x3, .f32⟩
  | 59 => ⟨S64x3, .f32⟩
  | 60 => ⟨S800000x64, .bf16⟩
  | 61 => ⟨S800000x64, .f32⟩
  | 62 => ⟨S_, .f32⟩
  | 63 => ⟨S100000x64, .f32⟩
  | 64 => ⟨S800000x1, .i32⟩
  | 65 => ⟨S100000x64, .f32⟩
  | 66 => ⟨S1x64, .f32⟩
  | 67 => ⟨S64, .f32⟩
  | 68 => ⟨S1x64, .f32⟩
  | 69 => ⟨S1x64x64, .f32⟩
  | 70 => ⟨S64x64, .f32⟩
  | 71 => ⟨S1x64x64, .f32⟩
  | 72 => ⟨S64x64, .f32⟩
  | 73 => ⟨S100000x64, .bf16⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x64, .bf16⟩
  | 83 => ⟨S1x64x64, .f32⟩
  | 84 => ⟨S64x64, .f32⟩
  | 85 => ⟨S1x64x3, .f32⟩
  | 86 => ⟨S64x3, .f32⟩
  | 87 => ⟨S800000x64, .bf16⟩
  | 88 => ⟨S800000x64, .f32⟩
  | 89 => ⟨S_, .f32⟩
  | 90 => ⟨S100000x64, .f32⟩
  | 91 => ⟨S800000x1, .i32⟩
  | 92 => ⟨S100000x64, .f32⟩
  | 93 => ⟨S1x64, .f32⟩
  | 94 => ⟨S64, .f32⟩
  | 95 => ⟨S1x64, .f32⟩
  | 96 => ⟨S1x64x64, .f32⟩
  | 97 => ⟨S64x64, .f32⟩
  | 98 => ⟨S1x64x64, .f32⟩
  | 99 => ⟨S64x64, .f32⟩
  | 100 => ⟨S100000x64, .bf16⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x64, .bf16⟩
  | 110 => ⟨S1x64x64, .f32⟩
  | 111 => ⟨S64x64, .f32⟩
  | 112 => ⟨S1x64x3, .f32⟩
  | 113 => ⟨S64x3, .f32⟩
  | 114 => ⟨S800000x64, .bf16⟩
  | 115 => ⟨S800000x64, .f32⟩
  | 116 => ⟨S_, .f32⟩
  | 117 => ⟨S100000x64, .f32⟩
  | 118 => ⟨S800000x1, .i32⟩
  | 119 => ⟨S100000x64, .f32⟩
  | 120 => ⟨S1x64, .f32⟩
  | 121 => ⟨S64, .f32⟩
  | 122 => ⟨S1x64, .f32⟩
  | 123 => ⟨S1x64x64, .f32⟩
  | 124 => ⟨S64x64, .f32⟩
  | 125 => ⟨S1x64x64, .f32⟩
  | 126 => ⟨S64x64, .f32⟩
  | 127 => ⟨S100000x64, .bf16⟩
  | _ => ⟨S100000, .i32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x64, .bf16⟩
  | 9 => ⟨S1x64x64, .f32⟩
  | 10 => ⟨S64x64, .f32⟩
  | 11 => ⟨S1x64x3, .f32⟩
  | 12 => ⟨S64x3, .f32⟩
  | 13 => ⟨S800000x64, .bf16⟩
  | 14 => ⟨S800000x64, .f32⟩
  | 15 => ⟨S_, .f32⟩
  | 16 => ⟨S100000x64, .f32⟩
  | 17 => ⟨S800000x1, .i32⟩
  | 18 => ⟨S100000x64, .f32⟩
  | 19 => ⟨S1x64, .f32⟩
  | 20 => ⟨S64, .f32⟩
  | 21 => ⟨S1x64, .f32⟩
  | 22 => ⟨S1x64x64, .f32⟩
  | 23 => ⟨S64x64, .f32⟩
  | 24 => ⟨S1x64x64, .f32⟩
  | 25 => ⟨S64x64, .f32⟩
  | 26 => ⟨S100000x64, .bf16⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x64, .bf16⟩
  | 36 => ⟨S1x64x64, .f32⟩
  | 37 => ⟨S64x64, .f32⟩
  | 38 => ⟨S1x64x3, .f32⟩
  | 39 => ⟨S64x3, .f32⟩
  | 40 => ⟨S800000x64, .bf16⟩
  | 41 => ⟨S800000x64, .f32⟩
  | 42 => ⟨S_, .f32⟩
  | 43 => ⟨S100000x64, .f32⟩
  | 44 => ⟨S800000x1, .i32⟩
  | 45 => ⟨S100000x64, .f32⟩
  | 46 => ⟨S1x64, .f32⟩
  | 47 => ⟨S64, .f32⟩
  | 48 => ⟨S1x64, .f32⟩
  | 49 => ⟨S1x64x64, .f32⟩
  | 50 => ⟨S64x64, .f32⟩
  | 51 => ⟨S1x64x64, .f32⟩
  | 52 => ⟨S64x64, .f32⟩
  | 53 => ⟨S100000x64, .bf16⟩
  | 54 => ⟨S100000x32, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S8000x64, .bf16⟩
  | .local _ .vmem, ⟨1, _⟩ => ⟨S8000x64, .bf16⟩
  | .local _ .vmem, ⟨2, _⟩ => ⟨S8000x3, .f32⟩
  | .local _ .vmem, ⟨3, _⟩ => ⟨S8000x3, .f32⟩
  | .local _ .vmem, ⟨4, _⟩ => ⟨S64x64, .f32⟩
  | .local _ .vmem, ⟨5, _⟩ => ⟨S64x3, .f32⟩
  | .local _ .vmem, ⟨6, _⟩ => ⟨S8000x64, .bf16⟩
  | .local _ .vmem, ⟨7, _⟩ => ⟨S8000x64, .bf16⟩
  | .local _ .vmem, ⟨8, _⟩ => ⟨S5000x64, .bf16⟩
  | .local _ .vmem, ⟨9, _⟩ => ⟨S5000x64, .bf16⟩
  | .local _ .vmem, ⟨10, _⟩ => ⟨S5000x64, .f32⟩
  | .local _ .vmem, ⟨11, _⟩ => ⟨S5000x64, .f32⟩
  | .local _ .vmem, ⟨12, _⟩ => ⟨S5000x1, .f32⟩
  | .local _ .vmem, ⟨13, _⟩ => ⟨S5000x1, .f32⟩
  | .local _ .vmem, ⟨14, _⟩ => ⟨S64x64, .f32⟩
  | .local _ .vmem, ⟨15, _⟩ => ⟨S64x64, .f32⟩
  | .local _ .vmem, ⟨16, _⟩ => ⟨S1x64, .f32⟩
  | .local _ .vmem, ⟨17, _⟩ => ⟨S5000x64, .bf16⟩
  | .local _ .vmem, ⟨18, _⟩ => ⟨S5000x64, .bf16⟩
  | .local _ .vmem, ⟨19, _⟩ => ⟨S8000x64, .bf16⟩
  | .local _ .vmem, ⟨20, _⟩ => ⟨S8000x64, .bf16⟩
  | .local _ .vmem, ⟨21, _⟩ => ⟨S8000x3, .f32⟩
  | .local _ .vmem, ⟨22, _⟩ => ⟨S8000x3, .f32⟩
  | .local _ .vmem, ⟨23, _⟩ => ⟨S64x64, .f32⟩
  | .local _ .vmem, ⟨24, _⟩ => ⟨S64x3, .f32⟩
  | .local _ .vmem, ⟨25, _⟩ => ⟨S8000x64, .bf16⟩
  | .local _ .vmem, ⟨26, _⟩ => ⟨S8000x64, .bf16⟩
  | .local _ .vmem, ⟨27, _⟩ => ⟨S5000x64, .bf16⟩
  | .local _ .vmem, ⟨28, _⟩ => ⟨S5000x64, .bf16⟩
  | .local _ .vmem, ⟨29, _⟩ => ⟨S5000x64, .f32⟩
  | .local _ .vmem, ⟨30, _⟩ => ⟨S5000x64, .f32⟩
  | .local _ .vmem, ⟨31, _⟩ => ⟨S5000x1, .f32⟩
  | .local _ .vmem, ⟨32, _⟩ => ⟨S5000x1, .f32⟩
  | .local _ .vmem, ⟨33, _⟩ => ⟨S64x64, .f32⟩
  | .local _ .vmem, ⟨34, _⟩ => ⟨S64x64, .f32⟩
  | .local _ .vmem, ⟨35, _⟩ => ⟨S1x64, .f32⟩
  | .local _ .vmem, ⟨36, _⟩ => ⟨S5000x64, .bf16⟩
  | .local _ .vmem, ⟨37, _⟩ => ⟨S5000x64, .bf16⟩
  | .local _ .vmem, ⟨38, _⟩ => ⟨S8000x64, .bf16⟩
  | .local _ .vmem, ⟨39, _⟩ => ⟨S8000x64, .bf16⟩
  | .local _ .vmem, ⟨40, _⟩ => ⟨S8000x3, .f32⟩
  | .local _ .vmem, ⟨41, _⟩ => ⟨S8000x3, .f32⟩
  | .local _ .vmem, ⟨42, _⟩ => ⟨S64x64, .f32⟩
  | .local _ .vmem, ⟨43, _⟩ => ⟨S64x3, .f32⟩
  | .local _ .vmem, ⟨44, _⟩ => ⟨S8000x64, .bf16⟩
  | .local _ .vmem, ⟨45, _⟩ => ⟨S8000x64, .bf16⟩
  | .local _ .vmem, ⟨46, _⟩ => ⟨S5000x64, .bf16⟩
  | .local _ .vmem, ⟨47, _⟩ => ⟨S5000x64, .bf16⟩
  | .local _ .vmem, ⟨48, _⟩ => ⟨S5000x64, .f32⟩
  | .local _ .vmem, ⟨49, _⟩ => ⟨S5000x64, .f32⟩
  | .local _ .vmem, ⟨50, _⟩ => ⟨S5000x1, .f32⟩
  | .local _ .vmem, ⟨51, _⟩ => ⟨S5000x1, .f32⟩
  | .local _ .vmem, ⟨52, _⟩ => ⟨S64x64, .f32⟩
  | .local _ .vmem, ⟨53, _⟩ => ⟨S64x64, .f32⟩
  | .local _ .vmem, ⟨54, _⟩ => ⟨S1x64, .f32⟩
  | .local _ .vmem, ⟨55, _⟩ => ⟨S5000x64, .bf16⟩
  | .local _ .vmem, ⟨56, _⟩ => ⟨S5000x64, .bf16⟩
  | .local _ .vmem, ⟨57, _⟩ => ⟨S8000x64, .bf16⟩
  | .local _ .vmem, ⟨58, _⟩ => ⟨S8000x64, .bf16⟩
  | .local _ .vmem, ⟨59, _⟩ => ⟨S8000x3, .f32⟩
  | .local _ .vmem, ⟨60, _⟩ => ⟨S8000x3, .f32⟩
  | .local _ .vmem, ⟨61, _⟩ => ⟨S64x64, .f32⟩
  | .local _ .vmem, ⟨62, _⟩ => ⟨S64x3, .f32⟩
  | .local _ .vmem, ⟨63, _⟩ => ⟨S8000x64, .bf16⟩
  | .local _ .vmem, ⟨64, _⟩ => ⟨S8000x64, .bf16⟩
  | .local _ .vmem, ⟨65, _⟩ => ⟨S5000x64, .bf16⟩
  | .local _ .vmem, ⟨66, _⟩ => ⟨S5000x64, .bf16⟩
  | .local _ .vmem, ⟨67, _⟩ => ⟨S5000x64, .f32⟩
  | .local _ .vmem, ⟨68, _⟩ => ⟨S5000x64, .f32⟩
  | .local _ .vmem, ⟨69, _⟩ => ⟨S5000x1, .f32⟩
  | .local _ .vmem, ⟨70, _⟩ => ⟨S5000x1, .f32⟩
  | .local _ .vmem, ⟨71, _⟩ => ⟨S64x64, .f32⟩
  | .local _ .vmem, ⟨72, _⟩ => ⟨S64x64, .f32⟩
  | .local _ .vmem, ⟨73, _⟩ => ⟨S1x64, .f32⟩
  | .local _ .vmem, ⟨74, _⟩ => ⟨S5000x64, .bf16⟩
  | .local _ .vmem, ⟨75, _⟩ => ⟨S5000x64, .bf16⟩
  | .local _ .vmem, ⟨76, _⟩ => ⟨S8000x64, .bf16⟩
  | .local _ .vmem, ⟨77, _⟩ => ⟨S8000x64, .bf16⟩
  | .local _ .vmem, ⟨78, _⟩ => ⟨S8000x3, .f32⟩
  | .local _ .vmem, ⟨79, _⟩ => ⟨S8000x3, .f32⟩
  | .local _ .vmem, ⟨80, _⟩ => ⟨S64x64, .f32⟩
  | .local _ .vmem, ⟨81, _⟩ => ⟨S64x3, .f32⟩
  | .local _ .vmem, ⟨82, _⟩ => ⟨S8000x64, .bf16⟩
  | .local _ .vmem, ⟨83, _⟩ => ⟨S8000x64, .bf16⟩
  | .local _ .vmem, ⟨84, _⟩ => ⟨S5000x64, .bf16⟩
  | .local _ .vmem, ⟨85, _⟩ => ⟨S5000x64, .bf16⟩
  | .local _ .vmem, ⟨86, _⟩ => ⟨S5000x64, .f32⟩
  | .local _ .vmem, ⟨87, _⟩ => ⟨S5000x64, .f32⟩
  | .local _ .vmem, ⟨88, _⟩ => ⟨S5000x1, .f32⟩
  | .local _ .vmem, ⟨89, _⟩ => ⟨S5000x1, .f32⟩
  | .local _ .vmem, ⟨90, _⟩ => ⟨S64x64, .f32⟩
  | .local _ .vmem, ⟨91, _⟩ => ⟨S64x64, .f32⟩
  | .local _ .vmem, ⟨92, _⟩ => ⟨S1x64, .f32⟩
  | .local _ .vmem, ⟨93, _⟩ => ⟨S5000x64, .bf16⟩
  | .local _ .vmem, ⟨94, _⟩ => ⟨S5000x64, .bf16⟩
  | .local _ .vmem, ⟨95, _⟩ => ⟨S5000x64, .bf16⟩
  | .local _ .vmem, ⟨96, _⟩ => ⟨S5000x64, .bf16⟩
  | .local _ .vmem, ⟨97, _⟩ => ⟨S64x64, .f32⟩
  | .local _ .vmem, ⟨98, _⟩ => ⟨S1x64, .f32⟩
  | .local _ .vmem, ⟨99, _⟩ => ⟨S32x64, .f32⟩
  | .local _ .vmem, ⟨100, _⟩ => ⟨S1x32, .f32⟩
  | .local _ .vmem, ⟨101, _⟩ => ⟨S5000x32, .f32⟩
  | .local _ .vmem, ⟨102, _⟩ => ⟨S5000x32, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | _, _ => false

abbrev semScoped : Fin 0 → Bool
  | ⟨_, h⟩ => absurd h (Nat.not_lt_zero _)

abbrev dmaSemScoped : Fin 103 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | _ => false

abbrev sig : RefSig :=
  ofTc nBuf bufTy 0 103 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_7 : Ref sig .tc := ⟨.hbm, 74, rfl⟩
abbrev main_v51 : Ref sig .tc := ⟨.hbm, 75, rfl⟩
abbrev main_v52 : Ref sig .tc := ⟨.hbm, 76, rfl⟩
abbrev main_c_8 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_9 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_10 : Ref sig .tc := ⟨.hbm, 101, rfl⟩
abbrev main_v75 : Ref sig .tc := ⟨.hbm, 102, rfl⟩
abbrev main_v76 : Ref sig .tc := ⟨.hbm, 103, rfl⟩
abbrev main_c_11 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_12 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_c_13 : Ref sig .tc := ⟨.hbm, 128, rfl⟩
abbrev main_v99 : Ref sig .tc := ⟨.hbm, 129, rfl⟩
abbrev main_v100 : Ref sig .tc := ⟨.hbm, 130, rfl⟩
abbrev main_c_14 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_15 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_c_16 : Ref sig .tc := ⟨.hbm, 155, rfl⟩
abbrev main_v123 : Ref sig .tc := ⟨.hbm, 156, rfl⟩
abbrev main_v124 : Ref sig .tc := ⟨.hbm, 157, rfl⟩
abbrev main_c_17 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_cst_18 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg4_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg4_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg2_1 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg6_0 : Ref sig .tc := ⟨.vmem, 55, rfl⟩
abbrev cc5_stg6_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg1_1 : Ref sig .tc := ⟨.vmem, 60, rfl⟩
abbrev cc6_stg2_0 : Ref sig .tc := ⟨.vmem, 61, rfl⟩
abbrev cc6_stg3_0 : Ref sig .tc := ⟨.vmem, 62, rfl⟩
abbrev cc6_stg4_0 : Ref sig .tc := ⟨.vmem, 63, rfl⟩
abbrev cc6_stg4_1 : Ref sig .tc := ⟨.vmem, 64, rfl⟩
abbrev cc7_stg0_0 : Ref sig .tc := ⟨.vmem, 65, rfl⟩
abbrev cc7_stg0_1 : Ref sig .tc := ⟨.vmem, 66, rfl⟩
abbrev cc7_stg1_0 : Ref sig .tc := ⟨.vmem, 67, rfl⟩
abbrev cc7_stg1_1 : Ref sig .tc := ⟨.vmem, 68, rfl⟩
abbrev cc7_stg2_0 : Ref sig .tc := ⟨.vmem, 69, rfl⟩
abbrev cc7_stg2_1 : Ref sig .tc := ⟨.vmem, 70, rfl⟩
abbrev cc7_stg3_0 : Ref sig .tc := ⟨.vmem, 71, rfl⟩
abbrev cc7_stg4_0 : Ref sig .tc := ⟨.vmem, 72, rfl⟩
abbrev cc7_stg5_0 : Ref sig .tc := ⟨.vmem, 73, rfl⟩
abbrev cc7_stg6_0 : Ref sig .tc := ⟨.vmem, 74, rfl⟩
abbrev cc7_stg6_1 : Ref sig .tc := ⟨.vmem, 75, rfl⟩
abbrev cc8_stg0_0 : Ref sig .tc := ⟨.vmem, 76, rfl⟩
abbrev cc8_stg0_1 : Ref sig .tc := ⟨.vmem, 77, rfl⟩
abbrev cc8_stg1_0 : Ref sig .tc := ⟨.vmem, 78, rfl⟩
abbrev cc8_stg1_1 : Ref sig .tc := ⟨.vmem, 79, rfl⟩
abbrev cc8_stg2_0 : Ref sig .tc := ⟨.vmem, 80, rfl⟩
abbrev cc8_stg3_0 : Ref sig .tc := ⟨.vmem, 81, rfl⟩
abbrev cc8_stg4_0 : Ref sig .tc := ⟨.vmem, 82, rfl⟩
abbrev cc8_stg4_1 : Ref sig .tc := ⟨.vmem, 83, rfl⟩
abbrev cc9_stg0_0 : Ref sig .tc := ⟨.vmem, 84, rfl⟩
abbrev cc9_stg0_1 : Ref sig .tc := ⟨.vmem, 85, rfl⟩
abbrev cc9_stg1_0 : Ref sig .tc := ⟨.vmem, 86, rfl⟩
abbrev cc9_stg1_1 : Ref sig .tc := ⟨.vmem, 87, rfl⟩
abbrev cc9_stg2_0 : Ref sig .tc := ⟨.vmem, 88, rfl⟩
abbrev cc9_stg2_1 : Ref sig .tc := ⟨.vmem, 89, rfl⟩
abbrev cc9_stg3_0 : Ref sig .tc := ⟨.vmem, 90, rfl⟩
abbrev cc9_stg4_0 : Ref sig .tc := ⟨.vmem, 91, rfl⟩
abbrev cc9_stg5_0 : Ref sig .tc := ⟨.vmem, 92, rfl⟩
abbrev cc9_stg6_0 : Ref sig .tc := ⟨.vmem, 93, rfl⟩
abbrev cc9_stg6_1 : Ref sig .tc := ⟨.vmem, 94, rfl⟩
abbrev cc10_stg0_0 : Ref sig .tc := ⟨.vmem, 95, rfl⟩
abbrev cc10_stg0_1 : Ref sig .tc := ⟨.vmem, 96, rfl⟩
abbrev cc10_stg1_0 : Ref sig .tc := ⟨.vmem, 97, rfl⟩
abbrev cc10_stg2_0 : Ref sig .tc := ⟨.vmem, 98, rfl⟩
abbrev cc10_stg3_0 : Ref sig .tc := ⟨.vmem, 99, rfl⟩
abbrev cc10_stg4_0 : Ref sig .tc := ⟨.vmem, 100, rfl⟩
abbrev cc10_stg5_0 : Ref sig .tc := ⟨.vmem, 101, rfl⟩
abbrev cc10_stg5_1 : Ref sig .tc := ⟨.vmem, 102, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem4_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem4_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem2_1 : DmaSem sig := 51
abbrev cc5_sem3_0 : DmaSem sig := 52
abbrev cc5_sem4_0 : DmaSem sig := 53
abbrev cc5_sem5_0 : DmaSem sig := 54
abbrev cc5_sem6_0 : DmaSem sig := 55
abbrev cc5_sem6_1 : DmaSem sig := 56
abbrev cc6_sem0_0 : DmaSem sig := 57
abbrev cc6_sem0_1 : DmaSem sig := 58
abbrev cc6_sem1_0 : DmaSem sig := 59
abbrev cc6_sem1_1 : DmaSem sig := 60
abbrev cc6_sem2_0 : DmaSem sig := 61
abbrev cc6_sem3_0 : DmaSem sig := 62
abbrev cc6_sem4_0 : DmaSem sig := 63
abbrev cc6_sem4_1 : DmaSem sig := 64
abbrev cc7_sem0_0 : DmaSem sig := 65
abbrev cc7_sem0_1 : DmaSem sig := 66
abbrev cc7_sem1_0 : DmaSem sig := 67
abbrev cc7_sem1_1 : DmaSem sig := 68
abbrev cc7_sem2_0 : DmaSem sig := 69
abbrev cc7_sem2_1 : DmaSem sig := 70
abbrev cc7_sem3_0 : DmaSem sig := 71
abbrev cc7_sem4_0 : DmaSem sig := 72
abbrev cc7_sem5_0 : DmaSem sig := 73
abbrev cc7_sem6_0 : DmaSem sig := 74
abbrev cc7_sem6_1 : DmaSem sig := 75
abbrev cc8_sem0_0 : DmaSem sig := 76
abbrev cc8_sem0_1 : DmaSem sig := 77
abbrev cc8_sem1_0 : DmaSem sig := 78
abbrev cc8_sem1_1 : DmaSem sig := 79
abbrev cc8_sem2_0 : DmaSem sig := 80
abbrev cc8_sem3_0 : DmaSem sig := 81
abbrev cc8_sem4_0 : DmaSem sig := 82
abbrev cc8_sem4_1 : DmaSem sig := 83
abbrev cc9_sem0_0 : DmaSem sig := 84
abbrev cc9_sem0_1 : DmaSem sig := 85
abbrev cc9_sem1_0 : DmaSem sig := 86
abbrev cc9_sem1_1 : DmaSem sig := 87
abbrev cc9_sem2_0 : DmaSem sig := 88
abbrev cc9_sem2_1 : DmaSem sig := 89
abbrev cc9_sem3_0 : DmaSem sig := 90
abbrev cc9_sem4_0 : DmaSem sig := 91
abbrev cc9_sem5_0 : DmaSem sig := 92
abbrev cc9_sem6_0 : DmaSem sig := 93
abbrev cc9_sem6_1 : DmaSem sig := 94
abbrev cc10_sem0_0 : DmaSem sig := 95
abbrev cc10_sem0_1 : DmaSem sig := 96
abbrev cc10_sem1_0 : DmaSem sig := 97
abbrev cc10_sem2_0 : DmaSem sig := 98
abbrev cc10_sem3_0 : DmaSem sig := 99
abbrev cc10_sem4_0 : DmaSem sig := 100
abbrev cc10_sem5_0 : DmaSem sig := 101
abbrev cc10_sem5_1 : DmaSem sig := 102

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x3 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8000x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x3 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x3 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S8000x64 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x64 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8000x3 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x3 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S8000x64 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S64x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x64 .bf16 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![100], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8000x64 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S8000x3 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x3 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S8000x64 .bf16 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S64x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S64x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x64 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S5000x64 .bf16 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S32x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x32 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S5000x32 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

class Facts₀ : Prop where
  bcast_S800000_S800000x1_0 : S800000.BroadcastsInDim S800000x1 (![0] : Fin 1 → Fin S800000x1.rank)
  concatenates_S800000x1_S800000x1_S800000x1_S800000x3_d1 : Shape.Concatenates [S800000x1, S800000x1, S800000x1] S800000x3 1
  bcast_S_S800000 : S_.BroadcastsInDim S800000 (![] : Fin 0 → Fin S800000.rank)
  bcast_S_S100000 : S_.BroadcastsInDim S100000 (![] : Fin 0 → Fin S100000.rank)
  bcast_S100000_S100000x1_0 : S100000.BroadcastsInDim S100000x1 (![0] : Fin 1 → Fin S100000x1.rank)
  bitsLt_bf16_f32 : FTy.bits .bf16 < FTy.bits .f32
  slices_S5x64x67_S5x64x64_0_0_0 : S5x64x67.Slices ![0, 0, 0] S5x64x64
  slices_S5x64x67_S5x64x3_0_0_64 : S5x64x67.Slices ![0, 0, 64] S5x64x3
  slices_S5x64x128_S5x64x64_0_0_0 : S5x64x128.Slices ![0, 0, 0] S5x64x64
  slices_S5x64x128_S5x64x64_0_0_64 : S5x64x128.Slices ![0, 0, 64] S5x64x64
  shapeCasts_S64_S1x64 : S64.ShapeCasts S1x64
  shapeCasts_S32_S1x32 : S32.ShapeCasts S1x32
  slices_S5x64x64_S1x64x64_0_0_0 : S5x64x64.Slices ![0, 0, 0] S1x64x64
  shapeCasts_S1x64x64_S64x64 : S1x64x64.ShapeCasts S64x64
  slices_S5x64x3_S1x64x3_0_0_0 : S5x64x3.Slices ![0, 0, 0] S1x64x3
  shapeCasts_S1x64x3_S64x3 : S1x64x3.ShapeCasts S64x3
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x3_S8000x3_0_0 : ∀ a, (![0, 0] : Fin 2 → Nat) a + S8000x3.size a ≤ S8000x3.size a
  h_S8000x3 : 0 < S8000x3.numel
  shapeCasts_S8000x3_S8000x3 : S8000x3.ShapeCasts S8000x3
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x3_S64x3_0_0 : ∀ a, (![0, 0] : Fin 2 → Nat) a + S64x3.size a ≤ S64x3.size a
  h_S64x3 : 0 < S64x3.numel
  shapeCasts_S64x3_S64x3 : S64x3.ShapeCasts S64x3
  transposes_S64x64_p1_0_S64x64 : S64x64.Transposes [1, 0] S64x64
  transposes_S64x3_p1_0_S3x64 : S64x3.Transposes [1, 0] S3x64
  packedbf16_S8000x64_S8000x64_0_0 : (Rect.unit (s := S8000x64) ![0, 0] S8000x64.size inb_S8000x64_S8000x64_0_0).PackedRows (EltTy.packing .bf16)
  bcast_S_S100000x64 : S_.BroadcastsInDim S100000x64 (![] : Fin 0 → Fin S100000x64.rank)
  slices_S5x64_S1x64_0_0 : S5x64.Slices ![0, 0] S1x64
  shapeCasts_S1x64_S64 : S1x64.ShapeCasts S64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  packedbf16_S5000x64_S5000x64_0_0 : (Rect.unit (s := S5000x64) ![0, 0] S5000x64.size inb_S5000x64_S5000x64_0_0).PackedRows (EltTy.packing .bf16)
  slices_S5x64x64_S1x64x64_1_0_0 : S5x64x64.Slices ![1, 0, 0] S1x64x64
  slices_S5x64x3_S1x64x3_1_0_0 : S5x64x3.Slices ![1, 0, 0] S1x64x3
  slices_S5x64_S1x64_1_0 : S5x64.Slices ![1, 0] S1x64
  slices_S5x64x64_S1x64x64_2_0_0 : S5x64x64.Slices ![2, 0, 0] S1x64x64
  slices_S5x64x3_S1x64x3_2_0_0 : S5x64x3.Slices ![2, 0, 0] S1x64x3
  slices_S5x64_S1x64_2_0 : S5x64.Slices ![2, 0] S1x64
  slices_S5x64x64_S1x64x64_3_0_0 : S5x64x64.Slices ![3, 0, 0] S1x64x64
  slices_S5x64x3_S1x64x3_3_0_0 : S5x64x3.Slices ![3, 0, 0] S1x64x3
  slices_S5x64_S1x64_3_0 : S5x64.Slices ![3, 0] S1x64
  slices_S5x64x64_S1x64x64_4_0_0 : S5x64x64.Slices ![4, 0, 0] S1x64x64
  slices_S5x64x3_S1x64x3_4_0_0 : S5x64x3.Slices ![4, 0, 0] S1x64x3
  slices_S5x64_S1x64_4_0 : S5x64.Slices ![4, 0] S1x64
  inb_S32x64_S32x64_0_0 : ∀ a, (![0, 0] : Fin 2 → Nat) a + S32x64.size a ≤ S32x64.size a
  h_S32x64 : 0 < S32x64.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  transposes_S32x64_p1_0_S64x32 : S32x64.Transposes [1, 0] S64x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S100000_S800000x1_S800000_n_0_0_1_wf : ScatterDims.WF S100000 S800000x1 S800000 [] [0] [0] 1
  gather_S64x64_S100000x1_S100000x64_1_0_n_n_0_1_164_wf : GatherDims.WF S64x64 S100000x1 S100000x64 [1] [0] [] [0] [] 1 ![1, 64]
  gather_S100000x64_S800000x1_S800000x64_1_0_n_n_0_1_164_wf : GatherDims.WF S100000x64 S800000x1 S800000x64 [1] [0] [] [0] [] 1 ![1, 64]
  dot_S8000x64_S64x64_S8000x64_1_0_0_1_n_n_wf : DotDims.WF S8000x64 S64x64 S8000x64 [1] [0] [0] [1] [] []
  dot_S8000x3_S3x64_S8000x64_1_0_0_1_n_n_wf : DotDims.WF S8000x3 S3x64 S8000x64 [1] [0] [0] [1] [] []
  scatter_S100000x64_S800000x1_S800000x64_1_0_0_1_wf : ScatterDims.WF S100000x64 S800000x1 S800000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .bf16 = 32 ∨ (Rect.block (s := S800000x64) S8000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x3.size a ≤ S800000x3.size a
  hwx0_1 : ∀ i : grid0.Coords, EltTy.bits .f32 = 32 ∨ (Rect.block (s := S800000x3) S8000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x3.size a ≤ S64x3.size a
  hwx0_3 : ∀ i : grid0.Coords, EltTy.bits .f32 = 32 ∨ (Rect.block (s := S64x3) S64x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x64.size a ≤ S800000x64.size a
  hwx0_4 : ∀ i : grid0.Coords, EltTy.bits .bf16 = 32 ∨ (Rect.block (s := S800000x64) S8000x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .bf16 = 32 ∨ (Rect.block (s := S100000x64) S5000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .bf16 = 32 ∨ (Rect.block (s := S100000x64) S5000x64.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S800000x64.size a
  hwx2_0 : ∀ i : grid2.Coords, EltTy.bits .bf16 = 32 ∨ (Rect.block (s := S800000x64) S8000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x3.size a ≤ S800000x3.size a
  hwx2_1 : ∀ i : grid2.Coords, EltTy.bits .f32 = 32 ∨ (Rect.block (s := S800000x3) S8000x3.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x3.size a ≤ S64x3.size a
  hwx2_3 : ∀ i : grid2.Coords, EltTy.bits .f32 = 32 ∨ (Rect.block (s := S64x3) S64x3.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x64.size a ≤ S800000x64.size a
  hwx2_4 : ∀ i : grid2.Coords, EltTy.bits .bf16 = 32 ∨ (Rect.block (s := S800000x64) S8000x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .bf16 = 32 ∨ (Rect.block (s := S100000x64) S5000x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .bf16 = 32 ∨ (Rect.block (s := S100000x64) S5000x64.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S800000x64.size a
  hwx4_0 : ∀ i : grid4.Coords, EltTy.bits .bf16 = 32 ∨ (Rect.block (s := S800000x64) S8000x64.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x3.size a ≤ S800000x3.size a
  hwx4_1 : ∀ i : grid4.Coords, EltTy.bits .f32 = 32 ∨ (Rect.block (s := S800000x3) S8000x3.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x3.size a ≤ S64x3.size a
  hwx4_3 : ∀ i : grid4.Coords, EltTy.bits .f32 = 32 ∨ (Rect.block (s := S64x3) S64x3.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S8000x64.size a ≤ S800000x64.size a
  hwx4_4 : ∀ i : grid4.Coords, EltTy.bits .bf16 = 32 ∨ (Rect.block (s := S800000x64) S8000x64.size (cc4_transform_4 i) (hinb4_4 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .bf16 = 32 ∨ (Rect.block (s := S100000x64) S5000x64.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S100000x64.size a
  hwx5_6 : ∀ i : grid5.Coords, EltTy.bits .bf16 = 32 ∨ (Rect.block (s := S100000x64) S5000x64.size (cc5_transform_6 i) (hinb5_6 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x64.size a ≤ S800000x64.size a
  hwx6_0 : ∀ i : grid6.Coords, EltTy.bits .bf16 = 32 ∨ (Rect.block (s := S800000x64) S8000x64.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8000x3.size a ≤ S800000x3.size a
  hwx6_1 : ∀ i : grid6.Coords, EltTy.bits .f32 = 32 ∨ (Rect.block (s := S800000x3) S8000x3.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x3.size a ≤ S64x3.size a
  hwx6_3 : ∀ i : grid6.Coords, EltTy.bits .f32 = 32 ∨ (Rect.block (s := S64x3) S64x3.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S8000x64.size a ≤ S800000x64.size a
  hwx6_4 : ∀ i : grid6.Coords, EltTy.bits .bf16 = 32 ∨ (Rect.block (s := S800000x64) S8000x64.size (cc6_transform_4 i) (hinb6_4 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .bf16 = 32 ∨ (Rect.block (s := S100000x64) S5000x64.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S100000x64.size a
  hwx7_1 : ∀ i : grid7.Coords, EltTy.bits .f32 = 32 ∨ (Rect.block (s := S100000x64) S5000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64x64.size a ≤ S64x64.size a
  hwx7_4 : ∀ i : grid7.Coords, EltTy.bits .f32 = 32 ∨ (Rect.block (s := S64x64) S64x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x64.size a ≤ S100000x64.size a
  hwx7_6 : ∀ i : grid7.Coords, EltTy.bits .bf16 = 32 ∨ (Rect.block (s := S100000x64) S5000x64.size (cc7_transform_6 i) (hinb7_6 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8000x64.size a ≤ S800000x64.size a
  hwx8_0 : ∀ i : grid8.Coords, EltTy.bits .bf16 = 32 ∨ (Rect.block (s := S800000x64) S8000x64.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S8000x3.size a ≤ S800000x3.size a
  hwx8_1 : ∀ i : grid8.Coords, EltTy.bits .f32 = 32 ∨ (Rect.block (s := S800000x3) S8000x3.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .f32 = 32 ∨ (Rect.block (s := S64x64) S64x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x3.size a ≤ S64x3.size a
  hwx8_3 : ∀ i : grid8.Coords, EltTy.bits .f32 = 32 ∨ (Rect.block (s := S64x3) S64x3.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S8000x64.size a ≤ S800000x64.size a
  hwx8_4 : ∀ i : grid8.Coords, EltTy.bits .bf16 = 32 ∨ (Rect.block (s := S800000x64) S8000x64.size (cc8_transform_4 i) (hinb8_4 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .bf16 = 32 ∨ (Rect.block (s := S100000x64) S5000x64.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x64.size a ≤ S100000x64.size a
  hwx9_1 : ∀ i : grid9.Coords, EltTy.bits .f32 = 32 ∨ (Rect.block (s := S100000x64) S5000x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x1.size a ≤ S100000x1.size a
  hwx9_2 : ∀ i : grid9.Coords, EltTy.bits .f32 = 32 ∨ (Rect.block (s := S100000x1) S5000x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x64.size a ≤ S64x64.size a
  hwx9_3 : ∀ i : grid9.Coords, EltTy.bits .f32 = 32 ∨ (Rect.block (s := S64x64) S64x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S64x64.size a ≤ S64x64.size a
  hwx9_4 : ∀ i : grid9.Coords, EltTy.bits .f32 = 32 ∨ (Rect.block (s := S64x64) S64x64.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x64.size a ≤ S1x64.size a
  hwx9_5 : ∀ i : grid9.Coords, EltTy.bits .f32 = 32 ∨ (Rect.block (s := S1x64) S1x64.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S5000x64.size a ≤ S100000x64.size a
  hwx9_6 : ∀ i : grid9.Coords, EltTy.bits .bf16 = 32 ∨ (Rect.block (s := S100000x64) S5000x64.size (cc9_transform_6 i) (hinb9_6 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S100000x64.size a
  hwx10_0 : ∀ i : grid10.Coords, EltTy.bits .bf16 = 32 ∨ (Rect.block (s := S100000x64) S5000x64.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x64.size a ≤ S64x64.size a
  hwx10_1 : ∀ i : grid10.Coords, EltTy.bits .f32 = 32 ∨ (Rect.block (s := S64x64) S64x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S32x64.size a ≤ S32x64.size a
  hwx10_3 : ∀ i : grid10.Coords, EltTy.bits .f32 = 32 ∨ (Rect.block (s := S32x64) S32x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x32.size a ≤ S1x32.size a
  hwx10_4 : ∀ i : grid10.Coords, EltTy.bits .f32 = 32 ∨ (Rect.block (s := S1x32) S1x32.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S5000x32.size a ≤ S100000x32.size a
  hwx10_5 : ∀ i : grid10.Coords, EltTy.bits .f32 = 32 ∨ (Rect.block (s := S100000x32) S5000x32.size (cc10_transform_5 i) (hinb10_5 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S64x64_S100000x1_S100000x64_1_0_n_n_0_1_164 : GatherDims S64x64 S100000x1 S100000x64 where
  offsetDims := [1]
  collapsedSliceDims := [0]
  operandBatchingDims := []
  startIndicesBatchingDims := []
  startIndexMap := [0]
  indexVectorDim := 1
  sliceSizes := ![1, 64]
  wf := gather_S64x64_S100000x1_S100000x64_1_0_n_n_0_1_164_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x3_S3x64_S8000x64_1_0_0_1_n_n : DotDims S8000x3 S3x64 S8000x64 where
  lhsContracting := [1]
  rhsContracting := [0]
  lhsNonContracting := [0]
  rhsNonContracting := [1]
  lhsBatch := []
  rhsBatch := []
  wf := dot_S8000x3_S3x64_S8000x64_1_0_0_1_n_n_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v33) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S64x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S8000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v20) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v57) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S8000x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S64x3.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S8000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v50) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v71) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v73) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v74) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v81) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3) S8000x3.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v83) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v85) S64x3.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v86) S8000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v74) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v90) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v95) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v97) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v93) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v98) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v105) S8000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v3) S8000x3.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v107) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v109) S64x3.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v110) S8000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v98) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v114) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v12) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v119) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v121) S64x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v117) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v122) S5000x64.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v129) S8000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v3) S8000x3.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v131) S64x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v133) S64x3.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v134) S8000x64.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v122) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v138) S5000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v12) S5000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v143) S64x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v145) S64x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v141) S1x64.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v146) S5000x64.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v146) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg10) S64x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v25) S1x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg12) S32x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v26) S1x32.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v147) S5000x32.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S100000 : Shape := ⟨1, ![100000]⟩
abbrev S800000 : Shape := ⟨1, ![800000]⟩
abbrev S64x64 : Shape := ⟨2, ![64, 64]⟩
abbrev S5x64x67 : Shape := ⟨3, ![5, 64, 67]⟩
abbrev S5x64x128 : Shape := ⟨3, ![5, 64, 128]⟩
abbrev S5x64 : Shape := ⟨2, ![5, 64]⟩
abbrev S64 : Shape := ⟨1, ![64]⟩
abbrev S32x64 : Shape := ⟨2, ![32, 64]⟩
abbrev S32 : Shape := ⟨1, ![32]⟩
abbrev S800000x1 : Shape := ⟨2, ![800000, 1]⟩
abbrev S800000x3 : Shape := ⟨2, ![800000, 3]⟩
abbrev S_ : Shape := ⟨0, ![]⟩
abbrev S100000x1 : Shape := ⟨2, ![100000, 1]⟩
abbrev S100000x64 : Shape := ⟨2, ![100000, 64]⟩
abbrev S800000x64 : Shape := ⟨2, ![800000, 64]⟩
abbrev S800000x67 : Shape := ⟨2, ![800000, 67]⟩
abbrev S1x64x67 : Shape := ⟨3, ![1, 64, 67]⟩
abbrev S64x67 : Shape := ⟨2, ![64, 67]⟩
abbrev S67x64 : Shape := ⟨2, ![67, 64]⟩
abbrev S100000x128 : Shape := ⟨2, ![100000, 128]⟩
abbrev S1x64x128 : Shape := ⟨3, ![1, 64, 128]⟩
abbrev S64x128 : Shape := ⟨2, ![64, 128]⟩
abbrev S128x64 : Shape := ⟨2, ![128, 64]⟩
abbrev S1x64 : Shape := ⟨2, ![1, 64]⟩
abbrev S64x32 : Shape := ⟨2, ![64, 32]⟩
abbrev S100000x32 : Shape := ⟨2, ![100000, 32]⟩
abbrev S1x32 : Shape := ⟨2, ![1, 32]⟩

abbrev nBuf : Space → Nat
  | .hbm => 253
  | .vmem => 0
  | .smem => 0
  | _ => 0

abbrev hbmTy0_0 (i : Nat) : BufTy := match i % 128 with
  | 0 => ⟨S100000, .i32⟩
  | 1 => ⟨S800000, .i32⟩
  | 2 => ⟨S800000, .i32⟩
  | 3 => ⟨S800000, .f32⟩
  | 4 => ⟨S800000, .f32⟩
  | 5 => ⟨S800000, .f32⟩
  | 6 => ⟨S64x64, .f32⟩
  | 7 => ⟨S5x64x67, .f32⟩
  | 8 => ⟨S5x64x128, .f32⟩
  | 9 => ⟨S5x64, .f32⟩
  | 10 => ⟨S64x64, .f32⟩
  | 11 => ⟨S64, .f32⟩
  | 12 => ⟨S32x64, .f32⟩
  | 13 => ⟨S32, .f32⟩
  | 14 => ⟨S800000x1, .f32⟩
  | 15 => ⟨S800000x1, .f32⟩
  | 16 => ⟨S800000x1, .f32⟩
  | 17 => ⟨S800000x3, .f32⟩
  | 18 => ⟨S_, .f32⟩
  | 19 => ⟨S800000, .f32⟩
  | 20 => ⟨S_, .f32⟩
  | 21 => ⟨S100000, .f32⟩
  | 22 => ⟨S800000x1, .i32⟩
  | 23 => ⟨S100000, .f32⟩
  | 24 => ⟨S_, .f32⟩
  | 25 => ⟨S100000, .f32⟩
  | 26 => ⟨S100000, .f32⟩
  | 27 => ⟨S_, .f32⟩
  | 28 => ⟨S100000, .f32⟩
  | 29 => ⟨S100000, .f32⟩
  | 30 => ⟨S100000x1, .f32⟩
  | 31 => ⟨S_, .i32⟩
  | 32 => ⟨S100000, .i32⟩
  | 33 => ⟨S100000, .i1⟩
  | 34 => ⟨S_, .i32⟩
  | 35 => ⟨S100000, .i32⟩
  | 36 => ⟨S100000, .i32⟩
  | 37 => ⟨S100000, .i32⟩
  | 38 => ⟨S100000x1, .i32⟩
  | 39 => ⟨S100000x64, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x64, .f32⟩
  | 49 => ⟨S800000x67, .f32⟩
  | 50 => ⟨S1x64x67, .f32⟩
  | 51 => ⟨S64x67, .f32⟩
  | 52 => ⟨S67x64, .f32⟩
  | 53 => ⟨S800000x64, .f32⟩
  | 54 => ⟨S_, .f32⟩
  | 55 => ⟨S800000x64, .f32⟩
  | 56 => ⟨S800000x64, .i1⟩
  | 57 => ⟨S_, .f32⟩
  | 58 => ⟨S800000x64, .f32⟩
  | 59 => ⟨S800000x64, .f32⟩
  | 60 => ⟨S800000x64, .f32⟩
  | 61 => ⟨S_, .f32⟩
  | 62 => ⟨S100000x64, .f32⟩
  | 63 => ⟨S800000x1, .i32⟩
  | 64 => ⟨S100000x64, .f32⟩
  | 65 => ⟨S100000x64, .f32⟩
  | 66 => ⟨S100000x64, .f32⟩
  | 67 => ⟨S100000x128, .f32⟩
  | 68 => ⟨S1x64x128, .f32⟩
  | 69 => ⟨S64x128, .f32⟩
  | 70 => ⟨S128x64, .f32⟩
  | 71 => ⟨S100000x64, .f32⟩
  | 72 => ⟨S1x64, .f32⟩
  | 73 => ⟨S64, .f32⟩
  | 74 => ⟨S1x64, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x64, .f32⟩
  | 89 => ⟨S800000x67, .f32⟩
  | 90 => ⟨S1x64x67, .f32⟩
  | 91 => ⟨S64x67, .f32⟩
  | 92 => ⟨S67x64, .f32⟩
  | 93 => ⟨S800000x64, .f32⟩
  | 94 => ⟨S_, .f32⟩
  | 95 => ⟨S800000x64, .f32⟩
  | 96 => ⟨S800000x64, .i1⟩
  | 97 => ⟨S_, .f32⟩
  | 98 => ⟨S800000x64, .f32⟩
  | 99 => ⟨S800000x64, .f32⟩
  | 100 => ⟨S800000x64, .f32⟩
  | 101 => ⟨S_, .f32⟩
  | 102 => ⟨S100000x64, .f32⟩
  | 103 => ⟨S800000x1, .i32⟩
  | 104 => ⟨S100000x64, .f32⟩
  | 105 => ⟨S100000x64, .f32⟩
  | 106 => ⟨S100000x64, .f32⟩
  | 107 => ⟨S100000x128, .f32⟩
  | 108 => ⟨S1x64x128, .f32⟩
  | 109 => ⟨S64x128, .f32⟩
  | 110 => ⟨S128x64, .f32⟩
  | 111 => ⟨S100000x64, .f32⟩
  | 112 => ⟨S1x64, .f32⟩
  | 113 => ⟨S64, .f32⟩
  | 114 => ⟨S1x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S100000, .i32⟩

abbrev hbmTy0_1 (i : Nat) : BufTy := match i % 128 with
  | 0 => ⟨S800000x64, .f32⟩
  | 1 => ⟨S800000x67, .f32⟩
  | 2 => ⟨S1x64x67, .f32⟩
  | 3 => ⟨S64x67, .f32⟩
  | 4 => ⟨S67x64, .f32⟩
  | 5 => ⟨S800000x64, .f32⟩
  | 6 => ⟨S_, .f32⟩
  | 7 => ⟨S800000x64, .f32⟩
  | 8 => ⟨S800000x64, .i1⟩
  | 9 => ⟨S_, .f32⟩
  | 10 => ⟨S800000x64, .f32⟩
  | 11 => ⟨S800000x64, .f32⟩
  | 12 => ⟨S800000x64, .f32⟩
  | 13 => ⟨S_, .f32⟩
  | 14 => ⟨S100000x64, .f32⟩
  | 15 => ⟨S800000x1, .i32⟩
  | 16 => ⟨S100000x64, .f32⟩
  | 17 => ⟨S100000x64, .f32⟩
  | 18 => ⟨S100000x64, .f32⟩
  | 19 => ⟨S100000x128, .f32⟩
  | 20 => ⟨S1x64x128, .f32⟩
  | 21 => ⟨S64x128, .f32⟩
  | 22 => ⟨S128x64, .f32⟩
  | 23 => ⟨S100000x64, .f32⟩
  | 24 => ⟨S1x64, .f32⟩
  | 25 => ⟨S64, .f32⟩
  | 26 => ⟨S1x64, .f32⟩
  | 27 => ⟨S100000x64, .f32⟩
  | 28 => ⟨S100000x64, .f32⟩
  | 29 => ⟨S_, .f32⟩
  | 30 => ⟨S100000x64, .f32⟩
  | 31 => ⟨S100000x64, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x64, .f32⟩
  | 41 => ⟨S800000x67, .f32⟩
  | 42 => ⟨S1x64x67, .f32⟩
  | 43 => ⟨S64x67, .f32⟩
  | 44 => ⟨S67x64, .f32⟩
  | 45 => ⟨S800000x64, .f32⟩
  | 46 => ⟨S_, .f32⟩
  | 47 => ⟨S800000x64, .f32⟩
  | 48 => ⟨S800000x64, .i1⟩
  | 49 => ⟨S_, .f32⟩
  | 50 => ⟨S800000x64, .f32⟩
  | 51 => ⟨S800000x64, .f32⟩
  | 52 => ⟨S800000x64, .f32⟩
  | 53 => ⟨S_, .f32⟩
  | 54 => ⟨S100000x64, .f32⟩
  | 55 => ⟨S800000x1, .i32⟩
  | 56 => ⟨S100000x64, .f32⟩
  | 57 => ⟨S100000x64, .f32⟩
  | 58 => ⟨S100000x64, .f32⟩
  | 59 => ⟨S100000x128, .f32⟩
  | 60 => ⟨S1x64x128, .f32⟩
  | 61 => ⟨S64x128, .f32⟩
  | 62 => ⟨S128x64, .f32⟩
  | 63 => ⟨S100000x64, .f32⟩
  | 64 => ⟨S1x64, .f32⟩
  | 65 => ⟨S64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x64, .f32⟩
  | 81 => ⟨S800000x67, .f32⟩
  | 82 => ⟨S1x64x67, .f32⟩
  | 83 => ⟨S64x67, .f32⟩
  | 84 => ⟨S67x64, .f32⟩
  | 85 => ⟨S800000x64, .f32⟩
  | 86 => ⟨S_, .f32⟩
  | 87 => ⟨S800000x64, .f32⟩
  | 88 => ⟨S800000x64, .i1⟩
  | 89 => ⟨S_, .f32⟩
  | 90 => ⟨S800000x64, .f32⟩
  | 91 => ⟨S800000x64, .f32⟩
  | 92 => ⟨S800000x64, .f32⟩
  | 93 => ⟨S_, .f32⟩
  | 94 => ⟨S100000x64, .f32⟩
  | 95 => ⟨S800000x1, .i32⟩
  | 96 => ⟨S100000x64, .f32⟩
  | 97 => ⟨S100000x64, .f32⟩
  | 98 => ⟨S100000x64, .f32⟩
  | 99 => ⟨S100000x128, .f32⟩
  | 100 => ⟨S1x64x128, .f32⟩
  | 101 => ⟨S64x128, .f32⟩
  | 102 => ⟨S128x64, .f32⟩
  | 103 => ⟨S100000x64, .f32⟩
  | 104 => ⟨S1x64, .f32⟩
  | 105 => ⟨S64, .f32⟩
  | 106 => ⟨S1x64, .f32⟩
  | 107 => ⟨S100000x64, .f32⟩
  | 108 => ⟨S100000x64, .f32⟩
  | 109 => ⟨S_, .f32⟩
  | 110 => ⟨S100000x64, .f32⟩
  | 111 => ⟨S100000x64, .f32⟩
  | 112 => ⟨S64x64, .f32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S64x32, .f32⟩
  | 121 => ⟨S100000x32, .f32⟩
  | 122 => ⟨S1x32, .f32⟩
  | 123 => ⟨S100000x32, .f32⟩
  | 124 => ⟨S100000x32, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call1_cst : Ref sig .tc := ⟨.hbm, 77, rfl⟩
abbrev main_call1_v0 : Ref sig .tc := ⟨.hbm, 78, rfl⟩
abbrev main_v52 : Ref sig .tc := ⟨.hbm, 79, rfl⟩
abbrev main_c_9 : Ref sig .tc := ⟨.hbm, 80, rfl⟩
abbrev main_v53 : Ref sig .tc := ⟨.hbm, 81, rfl⟩
abbrev main_v54 : Ref sig .tc := ⟨.hbm, 82, rfl⟩
abbrev main_c_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_11 : Ref sig .tc := ⟨.hbm, 94, rfl⟩
abbrev main_v65 : Ref sig .tc := ⟨.hbm, 95, rfl⟩
abbrev main_v66 : Ref sig .tc := ⟨.hbm, 96, rfl⟩
abbrev main_cst_12 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_13 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call3_cst : Ref sig .tc := ⟨.hbm, 117, rfl⟩
abbrev main_call3_v0 : Ref sig .tc := ⟨.hbm, 118, rfl⟩
abbrev main_v85 : Ref sig .tc := ⟨.hbm, 119, rfl⟩
abbrev main_c_14 : Ref sig .tc := ⟨.hbm, 120, rfl⟩
abbrev main_v86 : Ref sig .tc := ⟨.hbm, 121, rfl⟩
abbrev main_v87 : Ref sig .tc := ⟨.hbm, 122, rfl⟩
abbrev main_c_15 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_16 : Ref sig .tc := ⟨.hbm, 134, rfl⟩
abbrev main_v98 : Ref sig .tc := ⟨.hbm, 135, rfl⟩
abbrev main_v99 : Ref sig .tc := ⟨.hbm, 136, rfl⟩
abbrev main_cst_17 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_18 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_call5_cst : Ref sig .tc := ⟨.hbm, 157, rfl⟩
abbrev main_call5_v0 : Ref sig .tc := ⟨.hbm, 158, rfl⟩
abbrev main_v118 : Ref sig .tc := ⟨.hbm, 159, rfl⟩
abbrev main_c_19 : Ref sig .tc := ⟨.hbm, 160, rfl⟩
abbrev main_v119 : Ref sig .tc := ⟨.hbm, 161, rfl⟩
abbrev main_v120 : Ref sig .tc := ⟨.hbm, 162, rfl⟩
abbrev main_c_20 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_cst_21 : Ref sig .tc := ⟨.hbm, 174, rfl⟩
abbrev main_v131 : Ref sig .tc := ⟨.hbm, 175, rfl⟩
abbrev main_v132 : Ref sig .tc := ⟨.hbm, 176, rfl⟩
abbrev main_cst_22 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_cst_23 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_call7_cst : Ref sig .tc := ⟨.hbm, 197, rfl⟩
abbrev main_call7_v0 : Ref sig .tc := ⟨.hbm, 198, rfl⟩
abbrev main_v151 : Ref sig .tc := ⟨.hbm, 199, rfl⟩
abbrev main_c_24 : Ref sig .tc := ⟨.hbm, 200, rfl⟩
abbrev main_v152 : Ref sig .tc := ⟨.hbm, 201, rfl⟩
abbrev main_v153 : Ref sig .tc := ⟨.hbm, 202, rfl⟩
abbrev main_c_25 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_cst_26 : Ref sig .tc := ⟨.hbm, 214, rfl⟩
abbrev main_v164 : Ref sig .tc := ⟨.hbm, 215, rfl⟩
abbrev main_v165 : Ref sig .tc := ⟨.hbm, 216, rfl⟩
abbrev main_cst_27 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_cst_28 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_call9_cst : Ref sig .tc := ⟨.hbm, 237, rfl⟩
abbrev main_call9_v0 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_call10_cst : Ref sig .tc := ⟨.hbm, 245, rfl⟩
abbrev main_call10_v0 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  concatenates_S800000x1_S800000x1_S800000x1_S800000x3_d1 : Shape.Concatenates [S800000x1, S800000x1, S800000x1] S800000x3 1
  bcast_S_S800000 : S_.BroadcastsInDim S800000 (![] : Fin 0 → Fin S800000.rank)
  bcast_S_S100000 : S_.BroadcastsInDim S100000 (![] : Fin 0 → Fin S100000.rank)
  bcast_S100000_S100000x1_0 : S100000.BroadcastsInDim S100000x1 (![0] : Fin 1 → Fin S100000x1.rank)
  concatenates_S800000x64_S800000x3_S800000x67_d1 : Shape.Concatenates [S800000x64, S800000x3] S800000x67 1
  slices_S5x64x67_S1x64x67_0_0_0 : S5x64x67.Slices ![0, 0, 0] S1x64x67
  shapeCasts_S1x64x67_S64x67 : S1x64x67.ShapeCasts S64x67
  transposes_S64x67_S67x64_1_0 : S64x67.Transposes [1, 0] S67x64
  bcast_S_S800000x64 : S_.BroadcastsInDim S800000x64 (![] : Fin 0 → Fin S800000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  slices_S5x64x128_S1x64x128_0_0_0 : S5x64x128.Slices ![0, 0, 0] S1x64x128
  shapeCasts_S1x64x128_S64x128 : S1x64x128.ShapeCasts S64x128
  transposes_S64x128_S128x64_1_0 : S64x128.Transposes [1, 0] S128x64
  slices_S5x64_S1x64_0_0 : S5x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S5x64x67_S1x64x67_1_0_0 : S5x64x67.Slices ![1, 0, 0] S1x64x67
  slices_S5x64x128_S1x64x128_1_0_0 : S5x64x128.Slices ![1, 0, 0] S1x64x128
  slices_S5x64_S1x64_1_0 : S5x64.Slices ![1, 0] S1x64
  slices_S5x64x67_S1x64x67_2_0_0 : S5x64x67.Slices ![2, 0, 0] S1x64x67
  slices_S5x64x128_S1x64x128_2_0_0 : S5x64x128.Slices ![2, 0, 0] S1x64x128
  slices_S5x64_S1x64_2_0 : S5x64.Slices ![2, 0] S1x64
  slices_S5x64x67_S1x64x67_3_0_0 : S5x64x67.Slices ![3, 0, 0] S1x64x67
  slices_S5x64x128_S1x64x128_3_0_0 : S5x64x128.Slices ![3, 0, 0] S1x64x128
  slices_S5x64_S1x64_3_0 : S5x64.Slices ![3, 0] S1x64
  slices_S5x64x67_S1x64x67_4_0_0 : S5x64x67.Slices ![4, 0, 0] S1x64x67
  slices_S5x64x128_S1x64x128_4_0_0 : S5x64x128.Slices ![4, 0, 0] S1x64x128
  slices_S5x64_S1x64_4_0 : S5x64.Slices ![4, 0] S1x64
  transposes_S64x64_S64x64_1_0 : S64x64.Transposes [1, 0] S64x64
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S800000x1_S800000_n_0_0_1_wf : ScatterDims.WF S100000 S800000x1 S800000 [] [0] [0] 1
  gather_S64x64_S100000x1_S100000x64_1_0_n_n_0_1_164_wf : GatherDims.WF S64x64 S100000x1 S100000x64 [1] [0] [] [0] [] 1 ![1, 64]
  gather_S100000x64_S800000x1_S800000x64_1_0_n_n_0_1_164_wf : GatherDims.WF S100000x64 S800000x1 S800000x64 [1] [0] [] [0] [] 1 ![1, 64]
  dot_S800000x67_S67x64_S800000x64_1_0_0_1_n_n_wf : DotDims.WF S800000x67 S67x64 S800000x64 [1] [0] [0] [1] [] []
  scatter_S100000x64_S800000x1_S800000x64_1_0_0_1_wf : ScatterDims.WF S100000x64 S800000x1 S800000x64 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S64x64_S100000x1_S100000x64_1_0_n_n_0_1_164 : GatherDims S64x64 S100000x1 S100000x64 where
  offsetDims := [1]
  collapsedSliceDims := [0]
  operandBatchingDims := []
  startIndicesBatchingDims := []
  startIndexMap := [0]
  indexVectorDim := 1
  sliceSizes := ![1, 64]
  wf := gather_S64x64_S100000x1_S100000x64_1_0_n_n_0_1_164_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S800000x67_S67x64_S800000x64_1_0_0_1_n_n : DotDims S800000x67 S67x64 S800000x64 where
  lhsContracting := [1]
  rhsContracting := [0]
  lhsNonContracting := [0]
  rhsNonContracting := [1]
  lhsBatch := []
  rhsBatch := []
  wf := dot_S800000x67_S67x64_S800000x64_1_0_0_1_n_n_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KW.R0.lean ====
/-
  Pipeline 0 of the program (edge kernel), at the buffer contents `V` its region is entered with: what each
  window's block holds at a grid point, what the body leaves in its output block as a function of the input
  blocks (its one store's value, the stored rectangle covering the block), the body's run on whole staging
  buffers, and the pipeline's proof data with the body obligation at every grid point.
-/
import proofs.«149571_j25649544692292_2_alg».proof.Proof.Gen.Kernel.Launch
import proofs.«149571_j25649544692292_2_alg».proof.Proof.Gen.Kernel.Skeleton
import proofs.«149571_j25649544692292_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the point fetched it or kept it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the point fetched it or kept it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the point fetched it or kept it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether the point fetched it or kept it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S8000x64 := (Rect.unit (s := S8000x64) ![0, 0] S8000x64.size inb_S8000x64_S8000x64_0_0)
abbrev r0_1 : Rect S8000x3 := (Rect.unit (s := S8000x3) ![0, 0] S8000x3.size inb_S8000x3_S8000x3_0_0)
abbrev r0_2 : Rect S64x64 := (Rect.unit (s := S64x64) ![0, 0] S64x64.size inb_S64x64_S64x64_0_0)
abbrev r0_3 : Rect S64x3 := (Rect.unit (s := S64x3) ![0, 0] S64x3.size inb_S64x3_S64x3_0_0)
abbrev r0_o : Rect S8000x64 := (Rect.unit (s := S8000x64) ![0, 0] S8000x64.size inb_S8000x64_S8000x64_0_0)

/-- The output block after the body, from the input blocks: the one store's value over the whole block. -/
def out0_4 (x0 : Vec F S8000x64 .bf16) (x1 : Vec F S8000x3 .f32) (x2 : Vec F S64x64 .f32) (x3 : Vec F S64x3 .f32) : Vec F S8000x64 .bf16 :=
  View.canon [⟨r0_o, k0_pay1 (View.ld x0 r0_0) (View.ld x1 r0_1) (View.ld x2 r0_2) (View.ld x3 r0_3)⟩]

/-- The store's rectangle is the whole block. -/
theorem cover0_4 (p0 : Vec F S8000x64 .bf16) (y : S8000x64.Idx) :
    ∃ pc ∈ ([⟨r0_o, p0⟩] : List (View.Piece (Elt F) S8000x64 .bf16)), y ∈ pc.1.set :=
  View.cover_of_tiled [⟨r0_o, p0⟩] S8000x64.size (by rfl) y

set_option maxHeartbeats 4000000 in
/-- The body on whole staging buffers: the inputs come back as they were, the output holds `out0_4` of them. -/
theorem sound_kernel0 (c : Dev nD) (E : Set ℕ) (i : grid0.Coords) (arg0 : Memref sig .tc .vmem S8000x64 .bf16) (harg0 : arg0.IsWhole) (arg1 : Memref sig .tc .vmem S8000x3 .f32) (harg1 : arg1.IsWhole) (arg2 : Memref sig .tc .vmem S64x64 .f32) (harg2 : arg2.IsWhole) (arg3 : Memref sig .tc .vmem S64x3 .f32) (harg3 : arg3.IsWhole) (arg4 : Memref sig .tc .vmem S8000x64 .bf16) (harg4 : arg4.IsWhole)
    (x0 : Vec F S8000x64 .bf16) (x1 : Vec F S8000x3 .f32) (x2 : Vec F S64x64 .f32) (x3 : Vec F S64x3 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out0_4 x0 x1 x2 x3)) -∗ K ⟨⟩))
      ⊢ wp frame (wpE (defs₀ (F := F)) Variants.none c none) E (cc0__edge_kernel i arg0 harg0 arg1 harg1 arg2 harg2 arg3 harg3 arg4 harg4) K := by
  simp only [cc0__edge_kernel_eq_skeleton]; unfold cc0__edge_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The proof data of pipeline 0: arrays as the region finds them; after the body each input buffer at its block and
    the output buffer at `out0_4` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every grid point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KW.R1.lean ====
/-
  Pipeline 1 of the program (node kernel), at the buffer contents `V` its region is entered with: what each
  window's block holds at a grid point, what the body leaves in its output block as a function of the input
  blocks (its one store's value, the stored rectangle covering the block), the body's run on whole staging
  buffers, and the pipeline's proof data with the body obligation at every grid point.
-/
import proofs.«149571_j25649544692292_2_alg».proof.Proof.Gen.Kernel.Launch
import proofs.«149571_j25649544692292_2_alg».proof.Proof.Gen.Kernel.Skeleton
import proofs.«149571_j25649544692292_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetched it or kept it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the point fetched it or kept it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the point fetched it or kept it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether the point fetched it or kept it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether the point fetched it or kept it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, whether the point fetched it or kept it. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S5000x64 := (Rect.unit (s := S5000x64) ![0, 0] S5000x64.size inb_S5000x64_S5000x64_0_0)
abbrev r1_1 : Rect S5000x64 := (Rect.unit (s := S5000x64) ![0, 0] S5000x64.size inb_S5000x64_S5000x64_0_0)
abbrev r1_2 : Rect S5000x1 := (Rect.unit (s := S5000x1) ![0, 0] S5000x1.size inb_S5000x1_S5000x1_0_0)
abbrev r1_3 : Rect S64x64 := (Rect.unit (s := S64x64) ![0, 0] S64x64.size inb_S64x64_S64x64_0_0)
abbrev r1_4 : Rect S64x64 := (Rect.unit (s := S64x64) ![0, 0] S64x64.size inb_S64x64_S64x64_0_0)
abbrev r1_5 : Rect S1x64 := (Rect.unit (s := S1x64) ![0, 0] S1x64.size inb_S1x64_S1x64_0_0)
abbrev r1_o : Rect S5000x64 := (Rect.unit (s := S5000x64) ![0, 0] S5000x64.size inb_S5000x64_S5000x64_0_0)

/-- The output block after the body, from the input blocks: the one store's value over the whole block. -/
def out1_6 (x0 : Vec F S5000x64 .bf16) (x1 : Vec F S5000x64 .f32) (x2 : Vec F S5000x1 .f32) (x3 : Vec F S64x64 .f32) (x4 : Vec F S64x64 .f32) (x5 : Vec F S1x64 .f32) : Vec F S5000x64 .bf16 :=
  View.canon [⟨r1_o, k1_pay1 (View.ld x0 r1_0) (View.ld x1 r1_1) (View.ld x2 r1_2) (View.ld x3 r1_3) (View.ld x4 r1_4) (View.ld x5 r1_5)⟩]

/-- The store's rectangle is the whole block. -/
theorem cover1_6 (p0 : Vec F S5000x64 .bf16) (y : S5000x64.Idx) :
    ∃ pc ∈ ([⟨r1_o, p0⟩] : List (View.Piece (Elt F) S5000x64 .bf16)), y ∈ pc.1.set :=
  View.cover_of_tiled [⟨r1_o, p0⟩] S5000x64.size (by rfl) y

set_option maxHeartbeats 4000000 in
/-- The body on whole staging buffers: the inputs come back as they were, the output holds `out1_6` of them. -/
theorem sound_kernel1 (c : Dev nD) (E : Set ℕ) (i : grid1.Coords) (arg0 : Memref sig .tc .vmem S5000x64 .bf16) (harg0 : arg0.IsWhole) (arg1 : Memref sig .tc .vmem S5000x64 .f32) (harg1 : arg1.IsWhole) (arg2 : Memref sig .tc .vmem S5000x1 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .bf16) (harg6 : arg6.IsWhole)
    (x0 : Vec F S5000x64 .bf16) (x1 : Vec F S5000x64 .f32) (x2 : Vec F S5000x1 .f32) (x3 : Vec F S64x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out1_6 x0 x1 x2 x3 x4 x5)) -∗ K ⟨⟩))
      ⊢ wp frame (wpE (defs₀ (F := F)) Variants.none c none) E (cc1__node_kernel i arg0 harg0 arg1 harg1 arg2 harg2 arg3 harg3 arg4 harg4 arg5 harg5 arg6 harg6) K := by
  simp only [cc1__node_kernel_eq_skeleton]; unfold cc1__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of pipeline 1: arrays as the region finds them; after the body each input buffer at its block and
    the output buffer at `out1_6` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every grid point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KW.R2.lean ====
/-
  Pipeline 2 of the program (edge kernel), at the buffer contents `V` its region is entered with: what each
  window's block holds at a grid point, what the body leaves in its output block as a function of the input
  blocks (its one store's value, the stored rectangle covering the block), the body's run on whole staging
  buffers, and the pipeline's proof data with the body obligation at every grid point.
-/
import proofs.«149571_j25649544692292_2_alg».proof.Proof.Gen.Kernel.Launch
import proofs.«149571_j25649544692292_2_alg».proof.Proof.Gen.Kernel.Skeleton
import proofs.«149571_j25649544692292_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the point fetched it or kept it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the point fetched it or kept it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether the point fetched it or kept it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, whether the point fetched it or kept it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S8000x64 := (Rect.unit (s := S8000x64) ![0, 0] S8000x64.size inb_S8000x64_S8000x64_0_0)
abbrev r2_1 : Rect S8000x3 := (Rect.unit (s := S8000x3) ![0, 0] S8000x3.size inb_S8000x3_S8000x3_0_0)
abbrev r2_2 : Rect S64x64 := (Rect.unit (s := S64x64) ![0, 0] S64x64.size inb_S64x64_S64x64_0_0)
abbrev r2_3 : Rect S64x3 := (Rect.unit (s := S64x3) ![0, 0] S64x3.size inb_S64x3_S64x3_0_0)
abbrev r2_o : Rect S8000x64 := (Rect.unit (s := S8000x64) ![0, 0] S8000x64.size inb_S8000x64_S8000x64_0_0)

/-- The output block after the body, from the input blocks: the one store's value over the whole block. -/
def out2_4 (x0 : Vec F S8000x64 .bf16) (x1 : Vec F S8000x3 .f32) (x2 : Vec F S64x64 .f32) (x3 : Vec F S64x3 .f32) : Vec F S8000x64 .bf16 :=
  View.canon [⟨r2_o, k2_pay1 (View.ld x0 r2_0) (View.ld x1 r2_1) (View.ld x2 r2_2) (View.ld x3 r2_3)⟩]

/-- The store's rectangle is the whole block. -/
theorem cover2_4 (p0 : Vec F S8000x64 .bf16) (y : S8000x64.Idx) :
    ∃ pc ∈ ([⟨r2_o, p0⟩] : List (View.Piece (Elt F) S8000x64 .bf16)), y ∈ pc.1.set :=
  View.cover_of_tiled [⟨r2_o, p0⟩] S8000x64.size (by rfl) y

set_option maxHeartbeats 4000000 in
/-- The body on whole staging buffers: the inputs come back as they were, the output holds `out2_4` of them. -/
theorem sound_kernel2 (c : Dev nD) (E : Set ℕ) (i : grid2.Coords) (arg0 : Memref sig .tc .vmem S8000x64 .bf16) (harg0 : arg0.IsWhole) (arg1 : Memref sig .tc .vmem S8000x3 .f32) (harg1 : arg1.IsWhole) (arg2 : Memref sig .tc .vmem S64x64 .f32) (harg2 : arg2.IsWhole) (arg3 : Memref sig .tc .vmem S64x3 .f32) (harg3 : arg3.IsWhole) (arg4 : Memref sig .tc .vmem S8000x64 .bf16) (harg4 : arg4.IsWhole)
    (x0 : Vec F S8000x64 .bf16) (x1 : Vec F S8000x3 .f32) (x2 : Vec F S64x64 .f32) (x3 : Vec F S64x3 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out2_4 x0 x1 x2 x3)) -∗ K ⟨⟩))
      ⊢ wp frame (wpE (defs₀ (F := F)) Variants.none c none) E (cc2__edge_kernel i arg0 harg0 arg1 harg1 arg2 harg2 arg3 harg3 arg4 harg4) K := by
  simp only [cc2__edge_kernel_eq_skeleton]; unfold cc2__edge_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of pipeline 2: arrays as the region finds them; after the body each input buffer at its block and
    the output buffer at `out2_4` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every grid point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KW.R3.lean ====
/-
  Pipeline 3 of the program (node kernel), at the buffer contents `V` its region is entered with: what each
  window's block holds at a grid point, what the body leaves in its output block as a function of the input
  blocks (its one store's value, the stored rectangle covering the block), the body's run on whole staging
  buffers, and the pipeline's proof data with the body obligation at every grid point.
-/
import proofs.«149571_j25649544692292_2_alg».proof.Proof.Gen.Kernel.Launch
import proofs.«149571_j25649544692292_2_alg».proof.Proof.Gen.Kernel.Skeleton
import proofs.«149571_j25649544692292_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether the point fetched it or kept it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether the point fetched it or kept it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether the point fetched it or kept it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, whether the point fetched it or kept it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, whether the point fetched it or kept it. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at every point, whether the point fetched it or kept it. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S5000x64 := (Rect.unit (s := S5000x64) ![0, 0] S5000x64.size inb_S5000x64_S5000x64_0_0)
abbrev r3_1 : Rect S5000x64 := (Rect.unit (s := S5000x64) ![0, 0] S5000x64.size inb_S5000x64_S5000x64_0_0)
abbrev r3_2 : Rect S5000x1 := (Rect.unit (s := S5000x1) ![0, 0] S5000x1.size inb_S5000x1_S5000x1_0_0)
abbrev r3_3 : Rect S64x64 := (Rect.unit (s := S64x64) ![0, 0] S64x64.size inb_S64x64_S64x64_0_0)
abbrev r3_4 : Rect S64x64 := (Rect.unit (s := S64x64) ![0, 0] S64x64.size inb_S64x64_S64x64_0_0)
abbrev r3_5 : Rect S1x64 := (Rect.unit (s := S1x64) ![0, 0] S1x64.size inb_S1x64_S1x64_0_0)
abbrev r3_o : Rect S5000x64 := (Rect.unit (s := S5000x64) ![0, 0] S5000x64.size inb_S5000x64_S5000x64_0_0)

/-- The output block after the body, from the input blocks: the one store's value over the whole block. -/
def out3_6 (x0 : Vec F S5000x64 .bf16) (x1 : Vec F S5000x64 .f32) (x2 : Vec F S5000x1 .f32) (x3 : Vec F S64x64 .f32) (x4 : Vec F S64x64 .f32) (x5 : Vec F S1x64 .f32) : Vec F S5000x64 .bf16 :=
  View.canon [⟨r3_o, k3_pay1 (View.ld x0 r3_0) (View.ld x1 r3_1) (View.ld x2 r3_2) (View.ld x3 r3_3) (View.ld x4 r3_4) (View.ld x5 r3_5)⟩]

/-- The store's rectangle is the whole block. -/
theorem cover3_6 (p0 : Vec F S5000x64 .bf16) (y : S5000x64.Idx) :
    ∃ pc ∈ ([⟨r3_o, p0⟩] : List (View.Piece (Elt F) S5000x64 .bf16)), y ∈ pc.1.set :=
  View.cover_of_tiled [⟨r3_o, p0⟩] S5000x64.size (by rfl) y

set_option maxHeartbeats 4000000 in
/-- The body on whole staging buffers: the inputs come back as they were, the output holds `out3_6` of them. -/
theorem sound_kernel3 (c : Dev nD) (E : Set ℕ) (i : grid3.Coords) (arg0 : Memref sig .tc .vmem S5000x64 .bf16) (harg0 : arg0.IsWhole) (arg1 : Memref sig .tc .vmem S5000x64 .f32) (harg1 : arg1.IsWhole) (arg2 : Memref sig .tc .vmem S5000x1 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .bf16) (harg6 : arg6.IsWhole)
    (x0 : Vec F S5000x64 .bf16) (x1 : Vec F S5000x64 .f32) (x2 : Vec F S5000x1 .f32) (x3 : Vec F S64x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out3_6 x0 x1 x2 x3 x4 x5)) -∗ K ⟨⟩))
      ⊢ wp frame (wpE (defs₀ (F := F)) Variants.none c none) E (cc3__node_kernel i arg0 harg0 arg1 harg1 arg2 harg2 arg3 harg3 arg4 harg4 arg5 harg5 arg6 harg6) K := by
  simp only [cc3__node_kernel_eq_skeleton]; unfold cc3__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-- The proof data of pipeline 3: arrays as the region finds them; after the body each input buffer at its block and
    the output buffer at `out3_6` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every grid point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KW.R4.lean ====
/-
  Pipeline 4 of the program (edge kernel), at the buffer contents `V` its region is entered with: what each
  window's block holds at a grid point, what the body leaves in its output block as a function of the input
  blocks (its one store's value, the stored rectangle covering the block), the body's run on whole staging
  buffers, and the pipeline's proof data with the body obligation at every grid point.
-/
import proofs.«149571_j25649544692292_2_alg».proof.Proof.Gen.Kernel.Launch
import proofs.«149571_j25649544692292_2_alg».proof.Proof.Gen.Kernel.Skeleton
import proofs.«149571_j25649544692292_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, whether the point fetched it or kept it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, whether the point fetched it or kept it. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, whether the point fetched it or kept it. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, whether the point fetched it or kept it. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S8000x64 := (Rect.unit (s := S8000x64) ![0, 0] S8000x64.size inb_S8000x64_S8000x64_0_0)
abbrev r4_1 : Rect S8000x3 := (Rect.unit (s := S8000x3) ![0, 0] S8000x3.size inb_S8000x3_S8000x3_0_0)
abbrev r4_2 : Rect S64x64 := (Rect.unit (s := S64x64) ![0, 0] S64x64.size inb_S64x64_S64x64_0_0)
abbrev r4_3 : Rect S64x3 := (Rect.unit (s := S64x3) ![0, 0] S64x3.size inb_S64x3_S64x3_0_0)
abbrev r4_o : Rect S8000x64 := (Rect.unit (s := S8000x64) ![0, 0] S8000x64.size inb_S8000x64_S8000x64_0_0)

/-- The output block after the body, from the input blocks: the one store's value over the whole block. -/
def out4_4 (x0 : Vec F S8000x64 .bf16) (x1 : Vec F S8000x3 .f32) (x2 : Vec F S64x64 .f32) (x3 : Vec F S64x3 .f32) : Vec F S8000x64 .bf16 :=
  View.canon [⟨r4_o, k4_pay1 (View.ld x0 r4_0) (View.ld x1 r4_1) (View.ld x2 r4_2) (View.ld x3 r4_3)⟩]

/-- The store's rectangle is the whole block. -/
theorem cover4_4 (p0 : Vec F S8000x64 .bf16) (y : S8000x64.Idx) :
    ∃ pc ∈ ([⟨r4_o, p0⟩] : List (View.Piece (Elt F) S8000x64 .bf16)), y ∈ pc.1.set :=
  View.cover_of_tiled [⟨r4_o, p0⟩] S8000x64.size (by rfl) y

set_option maxHeartbeats 4000000 in
/-- The body on whole staging buffers: the inputs come back as they were, the output holds `out4_4` of them. -/
theorem sound_kernel4 (c : Dev nD) (E : Set ℕ) (i : grid4.Coords) (arg0 : Memref sig .tc .vmem S8000x64 .bf16) (harg0 : arg0.IsWhole) (arg1 : Memref sig .tc .vmem S8000x3 .f32) (harg1 : arg1.IsWhole) (arg2 : Memref sig .tc .vmem S64x64 .f32) (harg2 : arg2.IsWhole) (arg3 : Memref sig .tc .vmem S64x3 .f32) (harg3 : arg3.IsWhole) (arg4 : Memref sig .tc .vmem S8000x64 .bf16) (harg4 : arg4.IsWhole)
    (x0 : Vec F S8000x64 .bf16) (x1 : Vec F S8000x3 .f32) (x2 : Vec F S64x64 .f32) (x3 : Vec F S64x3 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out4_4 x0 x1 x2 x3)) -∗ K ⟨⟩))
      ⊢ wp frame (wpE (defs₀ (F := F)) Variants.none c none) E (cc4__edge_kernel i arg0 harg0 arg1 harg1 arg2 harg2 arg3 harg3 arg4 harg4) K := by
  simp only [cc4__edge_kernel_eq_skeleton]; unfold cc4__edge_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-- The proof data of pipeline 4: arrays as the region finds them; after the body each input buffer at its block and
    the output buffer at `out4_4` of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every grid point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.KW.R5.lean ====
/-
  Pipeline 5 of the program (node kernel), at the buffer contents `V` its region is entered with: what each
  window's block holds at a grid point, what the body leaves in its output block as a function of the input
  blocks (its one store's value, the stored rectangle covering the block), the body's run on whole staging
  buffers, and the pipeline's proof data with the body obligation at every grid point.
-/
import proofs.«149571_j25649544692292_2_alg».proof.Proof.Gen.Kernel.Launch
import proofs.«149571_j25649544692292_2_alg».proof.Proof.Gen.Kernel.Skeleton
import proofs.«149571_j25649544692292_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, whether the point fetched it or kept it. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, whether the point fetched it or kept it. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, whether the point fetched it or kept it. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, whether the point fetched it or kept it. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, whether the point fetched it or kept it. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's staging buffer holds its block at every point, whether the point fetched it or kept it. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S5000x64 := (Rect.unit (s := S5000x64) ![0, 0] S5000x64.size inb_S5000x64_S5000x64_0_0)
abbrev r5_1 : Rect S5000x64 := (Rect.unit (s := S5000x64) ![0, 0] S5000x64.size inb_S5000x64_S5000x64_0_0)
abbrev r5_2 : Rect S5000x1 := (Rect.unit (s := S5000x1) ![0, 0] S5000x1.size inb_S5000x1_S5000x1_0_0)
abbrev r5_3 : Rect S64x64 := (Rect.unit (s := S64x64) ![0, 0] S64x64.size inb_S64x64_S64x64_0_0)
abbrev r5_4 : Rect S64x64 := (Rect.unit (s := S64x64) ![0, 0] S64x64.size inb_S64x64_S64x64_0_0)
abbrev r5_5 : Rect S1x64 := (Rect.unit (s := S1x64) ![0, 0] S1x64.size inb_S1x64_S1x64_0_0)
abbrev r5_o : Rect S5000x64 := (Rect.unit (s := S5000x64) ![0, 0] S5000x64.size inb_S5000x64_S5000x64_0_0)

/-- The output block after the body, from the input blocks: the one store's value over the whole block. -/
def out5_6 (x0 : Vec F S5000x64 .bf16) (x1 : Vec F S5000x64 .f32) (x2 : Vec F S5000x1 .f32) (x3 : Vec F S64x64 .f32) (x4 : Vec F S64x64 .f32) (x5 : Vec F S1x64 .f32) : Vec F S5000x64 .bf16 :=
  View.canon [⟨r5_o, k5_pay1 (View.ld x0 r5_0) (View.ld x1 r5_1) (View.ld x2 r5_2) (View.ld x3 r5_3) (View.ld x4 r5_4) (View.ld x5 r5_5)⟩]

/-- The store's rectangle is the whole block. -/
theorem cover5_6 (p0 : Vec F S5000x64 .bf16) (y : S5000x64.Idx) :
    ∃ pc ∈ ([⟨r5_o, p0⟩] : List (View.Piece (Elt F) S5000x64 .bf16)), y ∈ pc.1.set :=
  View.cover_of_tiled [⟨r5_o, p0⟩] S5000x64.size (by rfl) y

set_option maxHeartbeats 4000000 in
/-- The body on whole staging buffers: the inputs come back as they were, the output holds `out5_6` of them. -/
theorem sound_kernel5 (c : Dev nD) (E : Set ℕ) (i : grid5.Coords) (arg0 : Memref sig .tc .vmem S5000x64 .bf16) (harg0 : arg0.IsWhole) (arg1 : Memref sig .tc .vmem S5000x64 .f32) (harg1 : arg1.IsWhole) (arg2 : Memref sig .tc .vmem S5000x1 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .bf16) (harg6 : arg6.IsWhole)
    (x0 : Vec F S5000x64 .bf16) (x1 : Vec F S5000x64 .f32) (x2 : Vec F S5000x1 .f32) (x3 : Vec F S64x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out5_6 x0 x1 x2 x3 x4 x5)) -∗ K ⟨⟩))
      ⊢ wp frame (wpE (defs₀ (F := F)) Variants.none c none) E (cc5__node_kernel i arg0 harg0 arg1 harg1 arg2 harg2 arg3 harg3 arg4 harg4 arg5 harg5 arg6 harg6) K := by
  simp only [cc5__node_kernel_eq_skeleton]; unfold cc5__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-- The proof data of pipeline 5: arrays as the region finds them; after the body each input buffer at its block and
    the output buffer at `out5_6` of the input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every grid point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.KW.R6.lean ====
/-
  Pipeline 6 of the program (edge kernel), at the buffer contents `V` its region is entered with: what each
  window's block holds at a grid point, what the body leaves in its output block as a function of the input
  blocks (its one store's value, the stored rectangle covering the block), the body's run on whole staging
  buffers, and the pipeline's proof data with the body obligation at every grid point.
-/
import proofs.«149571_j25649544692292_2_alg».proof.Proof.Gen.Kernel.Launch
import proofs.«149571_j25649544692292_2_alg».proof.Proof.Gen.Kernel.Skeleton
import proofs.«149571_j25649544692292_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, whether the point fetched it or kept it. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, whether the point fetched it or kept it. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, whether the point fetched it or kept it. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds its block at every point, whether the point fetched it or kept it. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S8000x64 := (Rect.unit (s := S8000x64) ![0, 0] S8000x64.size inb_S8000x64_S8000x64_0_0)
abbrev r6_1 : Rect S8000x3 := (Rect.unit (s := S8000x3) ![0, 0] S8000x3.size inb_S8000x3_S8000x3_0_0)
abbrev r6_2 : Rect S64x64 := (Rect.unit (s := S64x64) ![0, 0] S64x64.size inb_S64x64_S64x64_0_0)
abbrev r6_3 : Rect S64x3 := (Rect.unit (s := S64x3) ![0, 0] S64x3.size inb_S64x3_S64x3_0_0)
abbrev r6_o : Rect S8000x64 := (Rect.unit (s := S8000x64) ![0, 0] S8000x64.size inb_S8000x64_S8000x64_0_0)

/-- The output block after the body, from the input blocks: the one store's value over the whole block. -/
def out6_4 (x0 : Vec F S8000x64 .bf16) (x1 : Vec F S8000x3 .f32) (x2 : Vec F S64x64 .f32) (x3 : Vec F S64x3 .f32) : Vec F S8000x64 .bf16 :=
  View.canon [⟨r6_o, k6_pay1 (View.ld x0 r6_0) (View.ld x1 r6_1) (View.ld x2 r6_2) (View.ld x3 r6_3)⟩]

/-- The store's rectangle is the whole block. -/
theorem cover6_4 (p0 : Vec F S8000x64 .bf16) (y : S8000x64.Idx) :
    ∃ pc ∈ ([⟨r6_o, p0⟩] : List (View.Piece (Elt F) S8000x64 .bf16)), y ∈ pc.1.set :=
  View.cover_of_tiled [⟨r6_o, p0⟩] S8000x64.size (by rfl) y

set_option maxHeartbeats 4000000 in
/-- The body on whole staging buffers: the inputs come back as they were, the output holds `out6_4` of them. -/
theorem sound_kernel6 (c : Dev nD) (E : Set ℕ) (i : grid6.Coords) (arg0 : Memref sig .tc .vmem S8000x64 .bf16) (harg0 : arg0.IsWhole) (arg1 : Memref sig .tc .vmem S8000x3 .f32) (harg1 : arg1.IsWhole) (arg2 : Memref sig .tc .vmem S64x64 .f32) (harg2 : arg2.IsWhole) (arg3 : Memref sig .tc .vmem S64x3 .f32) (harg3 : arg3.IsWhole) (arg4 : Memref sig .tc .vmem S8000x64 .bf16) (harg4 : arg4.IsWhole)
    (x0 : Vec F S8000x64 .bf16) (x1 : Vec F S8000x3 .f32) (x2 : Vec F S64x64 .f32) (x3 : Vec F S64x3 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out6_4 x0 x1 x2 x3)) -∗ K ⟨⟩))
      ⊢ wp frame (wpE (defs₀ (F := F)) Variants.none c none) E (cc6__edge_kernel i arg0 harg0 arg1 harg1 arg2 harg2 arg3 harg3 arg4 harg4) K := by
  simp only [cc6__edge_kernel_eq_skeleton]; unfold cc6__edge_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

/-- The proof data of pipeline 6: arrays as the region finds them; after the body each input buffer at its block and
    the output buffer at `out6_4` of the input blocks; nothing owed, full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every grid point. -/
theorem body_obligation6 (c : Dev nD) : BodyObligation (dat6 (F := F) V c) (defs₀ (F := F)) Variants.none () Set.univ := fun t => by
  rw [bigSep_W6, bigSep_W6]
  exact sound_body6 V c t

end Cert.Kernel.Fr

end
-- ==== Proof.KW.R7.lean ====
/-
  Pipeline 7 of the program (node kernel), at the buffer contents `V` its region is entered with: what each
  window's block holds at a grid point, what the body leaves in its output block as a function of the input
  blocks (its one store's value, the stored rectangle covering the block), the body's run on whole staging
  buffers, and the pipeline's proof data with the body obligation at every grid point.
-/
import proofs.«149571_j25649544692292_2_alg».proof.Proof.Gen.Kernel.Launch
import proofs.«149571_j25649544692292_2_alg».proof.Proof.Gen.Kernel.Skeleton
import proofs.«149571_j25649544692292_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, whether the point fetched it or kept it. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, whether the point fetched it or kept it. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, whether the point fetched it or kept it. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds its block at every point, whether the point fetched it or kept it. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds its block at every point, whether the point fetched it or kept it. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's staging buffer holds its block at every point, whether the point fetched it or kept it. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S5000x64 := (Rect.unit (s := S5000x64) ![0, 0] S5000x64.size inb_S5000x64_S5000x64_0_0)
abbrev r7_1 : Rect S5000x64 := (Rect.unit (s := S5000x64) ![0, 0] S5000x64.size inb_S5000x64_S5000x64_0_0)
abbrev r7_2 : Rect S5000x1 := (Rect.unit (s := S5000x1) ![0, 0] S5000x1.size inb_S5000x1_S5000x1_0_0)
abbrev r7_3 : Rect S64x64 := (Rect.unit (s := S64x64) ![0, 0] S64x64.size inb_S64x64_S64x64_0_0)
abbrev r7_4 : Rect S64x64 := (Rect.unit (s := S64x64) ![0, 0] S64x64.size inb_S64x64_S64x64_0_0)
abbrev r7_5 : Rect S1x64 := (Rect.unit (s := S1x64) ![0, 0] S1x64.size inb_S1x64_S1x64_0_0)
abbrev r7_o : Rect S5000x64 := (Rect.unit (s := S5000x64) ![0, 0] S5000x64.size inb_S5000x64_S5000x64_0_0)

/-- The output block after the body, from the input blocks: the one store's value over the whole block. -/
def out7_6 (x0 : Vec F S5000x64 .bf16) (x1 : Vec F S5000x64 .f32) (x2 : Vec F S5000x1 .f32) (x3 : Vec F S64x64 .f32) (x4 : Vec F S64x64 .f32) (x5 : Vec F S1x64 .f32) : Vec F S5000x64 .bf16 :=
  View.canon [⟨r7_o, k7_pay1 (View.ld x0 r7_0) (View.ld x1 r7_1) (View.ld x2 r7_2) (View.ld x3 r7_3) (View.ld x4 r7_4) (View.ld x5 r7_5)⟩]

/-- The store's rectangle is the whole block. -/
theorem cover7_6 (p0 : Vec F S5000x64 .bf16) (y : S5000x64.Idx) :
    ∃ pc ∈ ([⟨r7_o, p0⟩] : List (View.Piece (Elt F) S5000x64 .bf16)), y ∈ pc.1.set :=
  View.cover_of_tiled [⟨r7_o, p0⟩] S5000x64.size (by rfl) y

set_option maxHeartbeats 4000000 in
/-- The body on whole staging buffers: the inputs come back as they were, the output holds `out7_6` of them. -/
theorem sound_kernel7 (c : Dev nD) (E : Set ℕ) (i : grid7.Coords) (arg0 : Memref sig .tc .vmem S5000x64 .bf16) (harg0 : arg0.IsWhole) (arg1 : Memref sig .tc .vmem S5000x64 .f32) (harg1 : arg1.IsWhole) (arg2 : Memref sig .tc .vmem S5000x1 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .bf16) (harg6 : arg6.IsWhole)
    (x0 : Vec F S5000x64 .bf16) (x1 : Vec F S5000x64 .f32) (x2 : Vec F S5000x1 .f32) (x3 : Vec F S64x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out7_6 x0 x1 x2 x3 x4 x5)) -∗ K ⟨⟩))
      ⊢ wp frame (wpE (defs₀ (F := F)) Variants.none c none) E (cc7__node_kernel i arg0 harg0 arg1 harg1 arg2 harg2 arg3 harg3 arg4 harg4 arg5 harg5 arg6 harg6) K := by
  simp only [cc7__node_kernel_eq_skeleton]; unfold cc7__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_6 _)

/-- The proof data of pipeline 7: arrays as the region finds them; after the body each input buffer at its block and
    the output buffer at `out7_6` of the input blocks; nothing owed, full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ _ _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every grid point. -/
theorem body_obligation7 (c : Dev nD) : BodyObligation (dat7 (F := F) V c) (defs₀ (F := F)) Variants.none () Set.univ := fun t => by
  rw [bigSep_W7, bigSep_W7]
  exact sound_body7 V c t

end Cert.Kernel.Fr

end
-- ==== Proof.KW.R8.lean ====
/-
  Pipeline 8 of the program (edge kernel), at the buffer contents `V` its region is entered with: what each
  window's block holds at a grid point, what the body leaves in its output block as a function of the input
  blocks (its one store's value, the stored rectangle covering the block), the body's run on whole staging
  buffers, and the pipeline's proof data with the body obligation at every grid point.
-/
import proofs.«149571_j25649544692292_2_alg».proof.Proof.Gen.Kernel.Launch
import proofs.«149571_j25649544692292_2_alg».proof.Proof.Gen.Kernel.Skeleton
import proofs.«149571_j25649544692292_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, whether the point fetched it or kept it. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds its block at every point, whether the point fetched it or kept it. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds its block at every point, whether the point fetched it or kept it. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's staging buffer holds its block at every point, whether the point fetched it or kept it. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

abbrev r8_0 : Rect S8000x64 := (Rect.unit (s := S8000x64) ![0, 0] S8000x64.size inb_S8000x64_S8000x64_0_0)
abbrev r8_1 : Rect S8000x3 := (Rect.unit (s := S8000x3) ![0, 0] S8000x3.size inb_S8000x3_S8000x3_0_0)
abbrev r8_2 : Rect S64x64 := (Rect.unit (s := S64x64) ![0, 0] S64x64.size inb_S64x64_S64x64_0_0)
abbrev r8_3 : Rect S64x3 := (Rect.unit (s := S64x3) ![0, 0] S64x3.size inb_S64x3_S64x3_0_0)
abbrev r8_o : Rect S8000x64 := (Rect.unit (s := S8000x64) ![0, 0] S8000x64.size inb_S8000x64_S8000x64_0_0)

/-- The output block after the body, from the input blocks: the one store's value over the whole block. -/
def out8_4 (x0 : Vec F S8000x64 .bf16) (x1 : Vec F S8000x3 .f32) (x2 : Vec F S64x64 .f32) (x3 : Vec F S64x3 .f32) : Vec F S8000x64 .bf16 :=
  View.canon [⟨r8_o, k8_pay1 (View.ld x0 r8_0) (View.ld x1 r8_1) (View.ld x2 r8_2) (View.ld x3 r8_3)⟩]

/-- The store's rectangle is the whole block. -/
theorem cover8_4 (p0 : Vec F S8000x64 .bf16) (y : S8000x64.Idx) :
    ∃ pc ∈ ([⟨r8_o, p0⟩] : List (View.Piece (Elt F) S8000x64 .bf16)), y ∈ pc.1.set :=
  View.cover_of_tiled [⟨r8_o, p0⟩] S8000x64.size (by rfl) y

set_option maxHeartbeats 4000000 in
/-- The body on whole staging buffers: the inputs come back as they were, the output holds `out8_4` of them. -/
theorem sound_kernel8 (c : Dev nD) (E : Set ℕ) (i : grid8.Coords) (arg0 : Memref sig .tc .vmem S8000x64 .bf16) (harg0 : arg0.IsWhole) (arg1 : Memref sig .tc .vmem S8000x3 .f32) (harg1 : arg1.IsWhole) (arg2 : Memref sig .tc .vmem S64x64 .f32) (harg2 : arg2.IsWhole) (arg3 : Memref sig .tc .vmem S64x3 .f32) (harg3 : arg3.IsWhole) (arg4 : Memref sig .tc .vmem S8000x64 .bf16) (harg4 : arg4.IsWhole)
    (x0 : Vec F S8000x64 .bf16) (x1 : Vec F S8000x3 .f32) (x2 : Vec F S64x64 .f32) (x3 : Vec F S64x3 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out8_4 x0 x1 x2 x3)) -∗ K ⟨⟩))
      ⊢ wp frame (wpE (defs₀ (F := F)) Variants.none c none) E (cc8__edge_kernel i arg0 harg0 arg1 harg1 arg2 harg2 arg3 harg3 arg4 harg4) K := by
  simp only [cc8__edge_kernel_eq_skeleton]; unfold cc8__edge_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover8_4 _)

/-- The proof data of pipeline 8: arrays as the region finds them; after the body each input buffer at its block and
    the output buffer at `out8_4` of the input blocks; nothing owed, full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t) (iblk8 V c 3 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = out8_4 (iblk8 V c 0 t) (iblk8 V c 1 t) (iblk8 V c 2 t) (iblk8 V c 3 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ (iblk8 V c 0 t) (iblk8 V c 1 t) (iblk8 V c 2 t) (iblk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every grid point. -/
theorem body_obligation8 (c : Dev nD) : BodyObligation (dat8 (F := F) V c) (defs₀ (F := F)) Variants.none () Set.univ := fun t => by
  rw [bigSep_W8, bigSep_W8]
  exact sound_body8 V c t

end Cert.Kernel.Fr

end
-- ==== Proof.KW.R9.lean ====
/-
  Pipeline 9 of the program (node kernel), at the buffer contents `V` its region is entered with: what each
  window's block holds at a grid point, what the body leaves in its output block as a function of the input
  blocks (its one store's value, the stored rectangle covering the block), the body's run on whole staging
  buffers, and the pipeline's proof data with the body obligation at every grid point.
-/
import proofs.«149571_j25649544692292_2_alg».proof.Proof.Gen.Kernel.Launch
import proofs.«149571_j25649544692292_2_alg».proof.Proof.Gen.Kernel.Skeleton
import proofs.«149571_j25649544692292_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds its block at every point, whether the point fetched it or kept it. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer holds its block at every point, whether the point fetched it or kept it. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's staging buffer holds its block at every point, whether the point fetched it or kept it. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's staging buffer holds its block at every point, whether the point fetched it or kept it. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's staging buffer holds its block at every point, whether the point fetched it or kept it. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Input window 5's staging buffer holds its block at every point, whether the point fetched it or kept it. -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

abbrev r9_0 : Rect S5000x64 := (Rect.unit (s := S5000x64) ![0, 0] S5000x64.size inb_S5000x64_S5000x64_0_0)
abbrev r9_1 : Rect S5000x64 := (Rect.unit (s := S5000x64) ![0, 0] S5000x64.size inb_S5000x64_S5000x64_0_0)
abbrev r9_2 : Rect S5000x1 := (Rect.unit (s := S5000x1) ![0, 0] S5000x1.size inb_S5000x1_S5000x1_0_0)
abbrev r9_3 : Rect S64x64 := (Rect.unit (s := S64x64) ![0, 0] S64x64.size inb_S64x64_S64x64_0_0)
abbrev r9_4 : Rect S64x64 := (Rect.unit (s := S64x64) ![0, 0] S64x64.size inb_S64x64_S64x64_0_0)
abbrev r9_5 : Rect S1x64 := (Rect.unit (s := S1x64) ![0, 0] S1x64.size inb_S1x64_S1x64_0_0)
abbrev r9_o : Rect S5000x64 := (Rect.unit (s := S5000x64) ![0, 0] S5000x64.size inb_S5000x64_S5000x64_0_0)

/-- The output block after the body, from the input blocks: the one store's value over the whole block. -/
def out9_6 (x0 : Vec F S5000x64 .bf16) (x1 : Vec F S5000x64 .f32) (x2 : Vec F S5000x1 .f32) (x3 : Vec F S64x64 .f32) (x4 : Vec F S64x64 .f32) (x5 : Vec F S1x64 .f32) : Vec F S5000x64 .bf16 :=
  View.canon [⟨r9_o, k9_pay1 (View.ld x0 r9_0) (View.ld x1 r9_1) (View.ld x2 r9_2) (View.ld x3 r9_3) (View.ld x4 r9_4) (View.ld x5 r9_5)⟩]

/-- The store's rectangle is the whole block. -/
theorem cover9_6 (p0 : Vec F S5000x64 .bf16) (y : S5000x64.Idx) :
    ∃ pc ∈ ([⟨r9_o, p0⟩] : List (View.Piece (Elt F) S5000x64 .bf16)), y ∈ pc.1.set :=
  View.cover_of_tiled [⟨r9_o, p0⟩] S5000x64.size (by rfl) y

set_option maxHeartbeats 4000000 in
/-- The body on whole staging buffers: the inputs come back as they were, the output holds `out9_6` of them. -/
theorem sound_kernel9 (c : Dev nD) (E : Set ℕ) (i : grid9.Coords) (arg0 : Memref sig .tc .vmem S5000x64 .bf16) (harg0 : arg0.IsWhole) (arg1 : Memref sig .tc .vmem S5000x64 .f32) (harg1 : arg1.IsWhole) (arg2 : Memref sig .tc .vmem S5000x1 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .bf16) (harg6 : arg6.IsWhole)
    (x0 : Vec F S5000x64 .bf16) (x1 : Vec F S5000x64 .f32) (x2 : Vec F S5000x1 .f32) (x3 : Vec F S64x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out9_6 x0 x1 x2 x3 x4 x5)) -∗ K ⟨⟩))
      ⊢ wp frame (wpE (defs₀ (F := F)) Variants.none c none) E (cc9__node_kernel i arg0 harg0 arg1 harg1 arg2 harg2 arg3 harg3 arg4 harg4 arg5 harg5 arg6 harg6) K := by
  simp only [cc9__node_kernel_eq_skeleton]; unfold cc9__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover9_6 _)

/-- The proof data of pipeline 9: arrays as the region finds them; after the body each input buffer at its block and
    the output buffer at `out9_6` of the input blocks; nothing owed, full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => out9_6 (iblk9 V c 0 t) (iblk9 V c 1 t) (iblk9 V c 2 t) (iblk9 V c 3 t) (iblk9 V c 4 t) (iblk9 V c 5 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = out9_6 (iblk9 V c 0 t) (iblk9 V c 1 t) (iblk9 V c 2 t) (iblk9 V c 3 t) (iblk9 V c 4 t) (iblk9 V c 5 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel9 c Set.univ _ _ _ _ _ _ _ _ _ _ _ _ _ _ _ (iblk9 V c 0 t) (iblk9 V c 1 t) (iblk9 V c 2 t) (iblk9 V c 3 t) (iblk9 V c 4 t) (iblk9 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every grid point. -/
theorem body_obligation9 (c : Dev nD) : BodyObligation (dat9 (F := F) V c) (defs₀ (F := F)) Variants.none () Set.univ := fun t => by
  rw [bigSep_W9, bigSep_W9]
  exact sound_body9 V c t

end Cert.Kernel.Fr

end
-- ==== Proof.KW.R10.lean ====
/-
  Pipeline 10 of the program (final kernel), at the buffer contents `V` its region is entered with: what each
  window's block holds at a grid point, what the body leaves in its output block as a function of the input
  blocks (its one store's value, the stored rectangle covering the block), the body's run on whole staging
  buffers, and the pipeline's proof data with the body obligation at every grid point.
-/
import proofs.«149571_j25649544692292_2_alg».proof.Proof.Gen.Kernel.Launch
import proofs.«149571_j25649544692292_2_alg».proof.Proof.Gen.Kernel.Skeleton
import proofs.«149571_j25649544692292_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's staging buffer holds its block at every point, whether the point fetched it or kept it. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's staging buffer holds its block at every point, whether the point fetched it or kept it. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's staging buffer holds its block at every point, whether the point fetched it or kept it. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's staging buffer holds its block at every point, whether the point fetched it or kept it. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's staging buffer holds its block at every point, whether the point fetched it or kept it. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

abbrev r10_0 : Rect S5000x64 := (Rect.unit (s := S5000x64) ![0, 0] S5000x64.size inb_S5000x64_S5000x64_0_0)
abbrev r10_1 : Rect S64x64 := (Rect.unit (s := S64x64) ![0, 0] S64x64.size inb_S64x64_S64x64_0_0)
abbrev r10_2 : Rect S1x64 := (Rect.unit (s := S1x64) ![0, 0] S1x64.size inb_S1x64_S1x64_0_0)
abbrev r10_3 : Rect S32x64 := (Rect.unit (s := S32x64) ![0, 0] S32x64.size inb_S32x64_S32x64_0_0)
abbrev r10_4 : Rect S1x32 := (Rect.unit (s := S1x32) ![0, 0] S1x32.size inb_S1x32_S1x32_0_0)
abbrev r10_o : Rect S5000x32 := (Rect.unit (s := S5000x32) ![0, 0] S5000x32.size inb_S5000x32_S5000x32_0_0)

/-- The output block after the body, from the input blocks: the one store's value over the whole block. -/
def out10_5 (x0 : Vec F S5000x64 .bf16) (x1 : Vec F S64x64 .f32) (x2 : Vec F S1x64 .f32) (x3 : Vec F S32x64 .f32) (x4 : Vec F S1x32 .f32) : Vec F S5000x32 .f32 :=
  View.canon [⟨r10_o, k10_pay1 (View.ld x0 r10_0) (View.ld x1 r10_1) (View.ld x2 r10_2) (View.ld x3 r10_3) (View.ld x4 r10_4)⟩]

/-- The store's rectangle is the whole block. -/
theorem cover10_5 (p0 : Vec F S5000x32 .f32) (y : S5000x32.Idx) :
    ∃ pc ∈ ([⟨r10_o, p0⟩] : List (View.Piece (Elt F) S5000x32 .f32)), y ∈ pc.1.set :=
  View.cover_of_tiled [⟨r10_o, p0⟩] S5000x32.size (by rfl) y

set_option maxHeartbeats 4000000 in
/-- The body on whole staging buffers: the inputs come back as they were, the output holds `out10_5` of them. -/
theorem sound_kernel10 (c : Dev nD) (E : Set ℕ) (i : grid10.Coords) (arg0 : Memref sig .tc .vmem S5000x64 .bf16) (harg0 : arg0.IsWhole) (arg1 : Memref sig .tc .vmem S64x64 .f32) (harg1 : arg1.IsWhole) (arg2 : Memref sig .tc .vmem S1x64 .f32) (harg2 : arg2.IsWhole) (arg3 : Memref sig .tc .vmem S32x64 .f32) (harg3 : arg3.IsWhole) (arg4 : Memref sig .tc .vmem S1x32 .f32) (harg4 : arg4.IsWhole) (arg5 : Memref sig .tc .vmem S5000x32 .f32) (harg5 : arg5.IsWhole)
    (x0 : Vec F S5000x64 .bf16) (x1 : Vec F S64x64 .f32) (x2 : Vec F S1x64 .f32) (x3 : Vec F S32x64 .f32) (x4 : Vec F S1x32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out10_5 x0 x1 x2 x3 x4)) -∗ K ⟨⟩))
      ⊢ wp frame (wpE (defs₀ (F := F)) Variants.none c none) E (cc10__final_kernel i arg0 harg0 arg1 harg1 arg2 harg2 arg3 harg3 arg4 harg4 arg5 harg5) K := by
  simp only [cc10__final_kernel_eq_skeleton]; unfold cc10__final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover10_5 _)

/-- The proof data of pipeline 10: arrays as the region finds them; after the body each input buffer at its block and
    the output buffer at `out10_5` of the input blocks; nothing owed, full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10_5 (iblk10 V c 0 t) (iblk10 V c 1 t) (iblk10 V c 2 t) (iblk10 V c 3 t) (iblk10 V c 4 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = out10_5 (iblk10 V c 0 t) (iblk10 V c 1 t) (iblk10 V c 2 t) (iblk10 V c 3 t) (iblk10 V c 4 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel10 c Set.univ _ _ _ _ _ _ _ _ _ _ _ _ _ (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every grid point. -/
theorem body_obligation10 (c : Dev nD) : BodyObligation (dat10 (F := F) V c) (defs₀ (F := F)) Variants.none () Set.univ := fun t => by
  rw [bigSep_W10, bigSep_W10]
  exact sound_body10 V c t

end Cert.Kernel.Fr

end
-- ==== Proof.KW.Data.lean ====
/-
  The proof data of all eleven pipelines, each at the buffer contents its region is entered with. Between two items
  of the program every unscoped buffer is held whole: at launch the memory, after a stretch of host operations their
  results, after a region its output array at contents `outs` names (an unknown here; the run fixes it to what the
  region's write-backs leave). Beside the buffers ride the core's generator register and its empty debt.
-/
import proofs.«149571_j25649544692292_2_alg».proof.Proof.KW.R0
import proofs.«149571_j25649544692292_2_alg».proof.Proof.KW.R1
import proofs.«149571_j25649544692292_2_alg».proof.Proof.KW.R2
import proofs.«149571_j25649544692292_2_alg».proof.Proof.KW.R3
import proofs.«149571_j25649544692292_2_alg».proof.Proof.KW.R4
import proofs.«149571_j25649544692292_2_alg».proof.Proof.KW.R5
import proofs.«149571_j25649544692292_2_alg».proof.Proof.KW.R6
import proofs.«149571_j25649544692292_2_alg».proof.Proof.KW.R7
import proofs.«149571_j25649544692292_2_alg».proof.Proof.KW.R8
import proofs.«149571_j25649544692292_2_alg».proof.Proof.KW.R9
import proofs.«149571_j25649544692292_2_alg».proof.Proof.KW.R10
import proofs.«149571_j25649544692292_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- The TensorCore's buffers as region 0 finds them, and as it leaves them. -/
abbrev ent0 : (c : Dev nD) → (b : Ref sig .tc) → Buf (Elt F) ((c : Thread nD τ).loc b) := fun c b => V1 m c b
abbrev ext0 : (c : Dev nD) → (b : Ref sig .tc) → Buf (Elt F) ((c : Thread nD τ).loc b) := fun c b => V2 m outs c b
/-- The TensorCore's buffers as region 1 finds them, and as it leaves them. -/
abbrev ent1 : (c : Dev nD) → (b : Ref sig .tc) → Buf (Elt F) ((c : Thread nD τ).loc b) := fun c b => V3 m outs c b
abbrev ext1 : (c : Dev nD) → (b : Ref sig .tc) → Buf (Elt F) ((c : Thread nD τ).loc b) := fun c b => V4 m outs c b
/-- The TensorCore's buffers as region 2 finds them, and as it leaves them. -/
abbrev ent2 : (c : Dev nD) → (b : Ref sig .tc) → Buf (Elt F) ((c : Thread nD τ).loc b) := fun c b => V5 m outs c b
abbrev ext2 : (c : Dev nD) → (b : Ref sig .tc) → Buf (Elt F) ((c : Thread nD τ).loc b) := fun c b => V6 m outs c b
/-- The TensorCore's buffers as region 3 finds them, and as it leaves them. -/
abbrev ent3 : (c : Dev nD) → (b : Ref sig .tc) → Buf (Elt F) ((c : Thread nD τ).loc b) := fun c b => V7 m outs c b
abbrev ext3 : (c : Dev nD) → (b : Ref sig .tc) → Buf (Elt F) ((c : Thread nD τ).loc b) := fun c b => V8 m outs c b
/-- The TensorCore's buffers as region 4 finds them, and as it leaves them. -/
abbrev ent4 : (c : Dev nD) → (b : Ref sig .tc) → Buf (Elt F) ((c : Thread nD τ).loc b) := fun c b => V9 m outs c b
abbrev ext4 : (c : Dev nD) → (b : Ref sig .tc) → Buf (Elt F) ((c : Thread nD τ).loc b) := fun c b => V10 m outs c b
/-- The TensorCore's buffers as region 5 finds them, and as it leaves them. -/
abbrev ent5 : (c : Dev nD) → (b : Ref sig .tc) → Buf (Elt F) ((c : Thread nD τ).loc b) := fun c b => V11 m outs c b
abbrev ext5 : (c : Dev nD) → (b : Ref sig .tc) → Buf (Elt F) ((c : Thread nD τ).loc b) := fun c b => V12 m outs c b
/-- The TensorCore's buffers as region 6 finds them, and as it leaves them. -/
abbrev ent6 : (c : Dev nD) → (b : Ref sig .tc) → Buf (Elt F) ((c : Thread nD τ).loc b) := fun c b => V13 m outs c b
abbrev ext6 : (c : Dev nD) → (b : Ref sig .tc) → Buf (Elt F) ((c : Thread nD τ).loc b) := fun c b => V14 m outs c b
/-- The TensorCore's buffers as region 7 finds them, and as it leaves them. -/
abbrev ent7 : (c : Dev nD) → (b : Ref sig .tc) → Buf (Elt F) ((c : Thread nD τ).loc b) := fun c b => V15 m outs c b
abbrev ext7 : (c : Dev nD) → (b : Ref sig .tc) → Buf (Elt F) ((c : Thread nD τ).loc b) := fun c b => V16 m outs c b
/-- The TensorCore's buffers as region 8 finds them, and as it leaves them. -/
abbrev ent8 : (c : Dev nD) → (b : Ref sig .tc) → Buf (Elt F) ((c : Thread nD τ).loc b) := fun c b => V17 m outs c b
abbrev ext8 : (c : Dev nD) → (b : Ref sig .tc) → Buf (Elt F) ((c : Thread nD τ).loc b) := fun c b => V18 m outs c b
/-- The TensorCore's buffers as region 9 finds them, and as it leaves them. -/
abbrev ent9 : (c : Dev nD) → (b : Ref sig .tc) → Buf (Elt F) ((c : Thread nD τ).loc b) := fun c b => V19 m outs c b
abbrev ext9 : (c : Dev nD) → (b : Ref sig .tc) → Buf (Elt F) ((c : Thread nD τ).loc b) := fun c b => V20 m outs c b
/-- The TensorCore's buffers as region 10 finds them, and as it leaves them. -/
abbrev ent10 : (c : Dev nD) → (b : Ref sig .tc) → Buf (Elt F) ((c : Thread nD τ).loc b) := fun c b => V20 m outs c b
abbrev ext10 : (c : Dev nD) → (b : Ref sig .tc) → Buf (Elt F) ((c : Thread nD τ).loc b) := fun c b => V21 m outs c b

/-- Every pipeline's proof data, each at its region's entry contents. -/
def pdats : (p : Fin 11) → (c : Dev nD) → Dat τ (Elt F) Unit ℕ (UR sig nD τ) ℕ (cfgs p) c
  | ⟨0, _⟩ => fun c => dat0 (ent0 m) c
  | ⟨1, _⟩ => fun c => dat1 (ent1 m outs) c
  | ⟨2, _⟩ => fun c => dat2 (ent2 m outs) c
  | ⟨3, _⟩ => fun c => dat3 (ent3 m outs) c
  | ⟨4, _⟩ => fun c => dat4 (ent4 m outs) c
  | ⟨5, _⟩ => fun c => dat5 (ent5 m outs) c
  | ⟨6, _⟩ => fun c => dat6 (ent6 m outs) c
  | ⟨7, _⟩ => fun c => dat7 (ent7 m outs) c
  | ⟨8, _⟩ => fun c => dat8 (ent8 m outs) c
  | ⟨9, _⟩ => fun c => dat9 (ent9 m outs) c
  | ⟨10, _⟩ => fun c => dat10 (ent10 m outs) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and an empty debt. -/
abbrev R (c : Dev nD) : sProp 𝕄 := iprop((∃ r, prngReg c r) ∗ ∃ W, owes (c : Thread nD τ) (0 : CellTallies nD τ sig Unit) W)

end Cert.Kernel.Fr

end
-- ==== Proof.KW.Seg0.lean ====
/-
  Region 0 as one item of the program: entered with every unscoped buffer held at the contents before it, left
  with them held at the contents after it, PROVIDED `outs` names, for the region's output array, what the
  pipeline's write-backs leave there. The region's arrays are split out of the held buffers on entry and put back
  on exit; its inputs' arrays end as they were; the generator register passes through the pipeline's invariant.
-/
import proofs.«149571_j25649544692292_2_alg».proof.Proof.KW.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Input array 0 is at the exit what it was at the entry. -/
theorem hF0_0 (c : Dev nD) : (dat0 (ent0 m) c).arrAt 0 cfg0.N = ext0 m outs c (Pipeline.arrRef spec0 0) :=
  (((dat0 (ent0 m) c).arrAt_in 0 rfl _).trans (A_eq0 (ent0 m) c 0)).trans (V2_of m outs c _ (by decide)).symm
/-- Input array 1 is at the exit what it was at the entry. -/
theorem hF0_1 (c : Dev nD) : (dat0 (ent0 m) c).arrAt 1 cfg0.N = ext0 m outs c (Pipeline.arrRef spec0 1) :=
  (((dat0 (ent0 m) c).arrAt_in 1 rfl _).trans (A_eq0 (ent0 m) c 1)).trans (V2_of m outs c _ (by decide)).symm
/-- Input array 2 is at the exit what it was at the entry. -/
theorem hF0_2 (c : Dev nD) : (dat0 (ent0 m) c).arrAt 2 cfg0.N = ext0 m outs c (Pipeline.arrRef spec0 2) :=
  (((dat0 (ent0 m) c).arrAt_in 2 rfl _).trans (A_eq0 (ent0 m) c 2)).trans (V2_of m outs c _ (by decide)).symm
/-- Input array 3 is at the exit what it was at the entry. -/
theorem hF0_3 (c : Dev nD) : (dat0 (ent0 m) c).arrAt 3 cfg0.N = ext0 m outs c (Pipeline.arrRef spec0 3) :=
  (((dat0 (ent0 m) c).arrAt_in 3 rfl _).trans (A_eq0 (ent0 m) c 3)).trans (V2_of m outs c _ (by decide)).symm
/-- The output array is at the exit what `outs` names. -/
theorem hF0_4 (h : ∀ c, outs 2 main_v38 c = (dat0 (ent0 m) c).arrAt 4 cfg0.N) (c : Dev nD) :
    (dat0 (ent0 m) c).arrAt 4 cfg0.N = ext0 m outs c (Pipeline.arrRef spec0 4) :=
  (h c).symm.trans (by
    show outs 2 main_v38 c = Function.update (V1 m c) main_v38 (outs 2 main_v38 c) main_v38
    rw [Function.update_self])

/-- Each of the region's arrays at its exit contents. -/
theorem hF0 (h : ∀ c, outs 2 main_v38 c = (dat0 (ent0 m) c).arrAt 4 cfg0.N) (c : Dev nD) (w : Fin cfg0.W) :
    (dat0 (ent0 m) c).arrAt w cfg0.N = ext0 m outs c (Pipeline.arrRef spec0 w) := by
  fin_cases w
  · exact hF0_0 m outs c
  · exact hF0_1 m outs c
  · exact hF0_2 m outs c
  · exact hF0_3 m outs c
  · exact hF0_4 m outs h c

/-- Every other buffer is as it was. -/
theorem hrest0 (c : Dev nD) : ∀ b, b ∉ Finset.univ.image (Pipeline.arrRef spec0) → ext0 m outs c b = ent0 m c b :=
  fun b hb => V2_of m outs c b (fun hmem => hb (by
    rw [List.mem_singleton] at hmem; subst hmem
    exact Finset.mem_image.mpr ⟨4, Finset.mem_univ _, rfl⟩))

set_option backward.isDefEq.respectTransparency.types false in
/-- Region 0 over the thread state. -/
def reg0 (h : ∀ c, outs 2 main_v38 c = (dat0 (ent0 m) c).arrAt 4 cfg0.N) :
    Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (ent0 m c) (ext0 m outs c) ((pdats m outs 0 c).arrAt · cfg0.N) (hF0 m outs h c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KW.Seg1.lean ====
/-
  Region 1 as one item of the program: entered with every unscoped buffer held at the contents before it, left
  with them held at the contents after it, PROVIDED `outs` names, for the region's output array, what the
  pipeline's write-backs leave there. The region's arrays are split out of the held buffers on entry and put back
  on exit; its inputs' arrays end as they were; the generator register passes through the pipeline's invariant.
-/
import proofs.«149571_j25649544692292_2_alg».proof.Proof.KW.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Input array 0 is at the exit what it was at the entry. -/
theorem hF1_0 (c : Dev nD) : (dat1 (ent1 m outs) c).arrAt 0 cfg1.N = ext1 m outs c (Pipeline.arrRef spec1 0) :=
  (((dat1 (ent1 m outs) c).arrAt_in 0 rfl _).trans (A_eq1 (ent1 m outs) c 0)).trans (V4_of m outs c _ (by decide)).symm
/-- Input array 1 is at the exit what it was at the entry. -/
theorem hF1_1 (c : Dev nD) : (dat1 (ent1 m outs) c).arrAt 1 cfg1.N = ext1 m outs c (Pipeline.arrRef spec1 1) :=
  (((dat1 (ent1 m outs) c).arrAt_in 1 rfl _).trans (A_eq1 (ent1 m outs) c 1)).trans (V4_of m outs c _ (by decide)).symm
/-- Input array 2 is at the exit what it was at the entry. -/
theorem hF1_2 (c : Dev nD) : (dat1 (ent1 m outs) c).arrAt 2 cfg1.N = ext1 m outs c (Pipeline.arrRef spec1 2) :=
  (((dat1 (ent1 m outs) c).arrAt_in 2 rfl _).trans (A_eq1 (ent1 m outs) c 2)).trans (V4_of m outs c _ (by decide)).symm
/-- Input array 3 is at the exit what it was at the entry. -/
theorem hF1_3 (c : Dev nD) : (dat1 (ent1 m outs) c).arrAt 3 cfg1.N = ext1 m outs c (Pipeline.arrRef spec1 3) :=
  (((dat1 (ent1 m outs) c).arrAt_in 3 rfl _).trans (A_eq1 (ent1 m outs) c 3)).trans (V4_of m outs c _ (by decide)).symm
/-- Input array 4 is at the exit what it was at the entry. -/
theorem hF1_4 (c : Dev nD) : (dat1 (ent1 m outs) c).arrAt 4 cfg1.N = ext1 m outs c (Pipeline.arrRef spec1 4) :=
  (((dat1 (ent1 m outs) c).arrAt_in 4 rfl _).trans (A_eq1 (ent1 m outs) c 4)).trans (V4_of m outs c _ (by decide)).symm
/-- Input array 5 is at the exit what it was at the entry. -/
theorem hF1_5 (c : Dev nD) : (dat1 (ent1 m outs) c).arrAt 5 cfg1.N = ext1 m outs c (Pipeline.arrRef spec1 5) :=
  (((dat1 (ent1 m outs) c).arrAt_in 5 rfl _).trans (A_eq1 (ent1 m outs) c 5)).trans (V4_of m outs c _ (by decide)).symm
/-- The output array is at the exit what `outs` names. -/
theorem hF1_6 (h : ∀ c, outs 4 main_v50 c = (dat1 (ent1 m outs) c).arrAt 6 cfg1.N) (c : Dev nD) :
    (dat1 (ent1 m outs) c).arrAt 6 cfg1.N = ext1 m outs c (Pipeline.arrRef spec1 6) :=
  (h c).symm.trans (by
    show outs 4 main_v50 c = Function.update (V3 m outs c) main_v50 (outs 4 main_v50 c) main_v50
    rw [Function.update_self])

/-- Each of the region's arrays at its exit contents. -/
theorem hF1 (h : ∀ c, outs 4 main_v50 c = (dat1 (ent1 m outs) c).arrAt 6 cfg1.N) (c : Dev nD) (w : Fin cfg1.W) :
    (dat1 (ent1 m outs) c).arrAt w cfg1.N = ext1 m outs c (Pipeline.arrRef spec1 w) := by
  fin_cases w
  · exact hF1_0 m outs c
  · exact hF1_1 m outs c
  · exact hF1_2 m outs c
  · exact hF1_3 m outs c
  · exact hF1_4 m outs c
  · exact hF1_5 m outs c
  · exact hF1_6 m outs h c

/-- Every other buffer is as it was. -/
theorem hrest1 (c : Dev nD) : ∀ b, b ∉ Finset.univ.image (Pipeline.arrRef spec1) → ext1 m outs c b = ent1 m outs c b :=
  fun b hb => V4_of m outs c b (fun hmem => hb (by
    rw [List.mem_singleton] at hmem; subst hmem
    exact Finset.mem_image.mpr ⟨6, Finset.mem_univ _, rfl⟩))

set_option backward.isDefEq.respectTransparency.types false in
/-- Region 1 over the thread state. -/
def reg1 (h : ∀ c, outs 4 main_v50 c = (dat1 (ent1 m outs) c).arrAt 6 cfg1.N) :
    Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (ent1 m outs) c).loose
  hwaits := Pipeline.hwaits_of_owed_zero _ _ _ _ L lv 1 fun _ _ => rfl
  pre c := iprop(StableHlo.held (c : Thread nD τ) (Pipeline.ucRefs τ sig) (V3 m outs c) ∗ R c)
  post c := iprop(StableHlo.held (c : Thread nD τ) (Pipeline.ucRefs τ sig) (V4 m outs c) ∗ R c)
  X c := iprop(∃ r, prngReg c r)
  Y c := iprop(∃ r, prngReg c r)
  Z c := Pipeline.unscopedRest (Ix := Unit) (Name := ℕ) (U := UR sig nD τ) (Lvl := ℕ) spec1 c (ent1 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (ent1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (ent1 m outs c) (ext1 m outs c) ((pdats m outs 1 c).arrAt · cfg1.N) (hF1 m outs h c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KW.Seg2.lean ====
/-
  Region 2 as one item of the program: entered with every unscoped buffer held at the contents before it, left
  with them held at the contents after it, PROVIDED `outs` names, for the region's output array, what the
  pipeline's write-backs leave there. The region's arrays are split out of the held buffers on entry and put back
  on exit; its inputs' arrays end as they were; the generator register passes through the pipeline's invariant.
-/
import proofs.«149571_j25649544692292_2_alg».proof.Proof.KW.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Input array 0 is at the exit what it was at the entry. -/
theorem hF2_0 (c : Dev nD) : (dat2 (ent2 m outs) c).arrAt 0 cfg2.N = ext2 m outs c (Pipeline.arrRef spec2 0) :=
  (((dat2 (ent2 m outs) c).arrAt_in 0 rfl _).trans (A_eq2 (ent2 m outs) c 0)).trans (V6_of m outs c _ (by decide)).symm
/-- Input array 1 is at the exit what it was at the entry. -/
theorem hF2_1 (c : Dev nD) : (dat2 (ent2 m outs) c).arrAt 1 cfg2.N = ext2 m outs c (Pipeline.arrRef spec2 1) :=
  (((dat2 (ent2 m outs) c).arrAt_in 1 rfl _).trans (A_eq2 (ent2 m outs) c 1)).trans (V6_of m outs c _ (by decide)).symm
/-- Input array 2 is at the exit what it was at the entry. -/
theorem hF2_2 (c : Dev nD) : (dat2 (ent2 m outs) c).arrAt 2 cfg2.N = ext2 m outs c (Pipeline.arrRef spec2 2) :=
  (((dat2 (ent2 m outs) c).arrAt_in 2 rfl _).trans (A_eq2 (ent2 m outs) c 2)).trans (V6_of m outs c _ (by decide)).symm
/-- Input array 3 is at the exit what it was at the entry. -/
theorem hF2_3 (c : Dev nD) : (dat2 (ent2 m outs) c).arrAt 3 cfg2.N = ext2 m outs c (Pipeline.arrRef spec2 3) :=
  (((dat2 (ent2 m outs) c).arrAt_in 3 rfl _).trans (A_eq2 (ent2 m outs) c 3)).trans (V6_of m outs c _ (by decide)).symm
/-- The output array is at the exit what `outs` names. -/
theorem hF2_4 (h : ∀ c, outs 6 main_v62 c = (dat2 (ent2 m outs) c).arrAt 4 cfg2.N) (c : Dev nD) :
    (dat2 (ent2 m outs) c).arrAt 4 cfg2.N = ext2 m outs c (Pipeline.arrRef spec2 4) :=
  (h c).symm.trans (by
    show outs 6 main_v62 c = Function.update (V5 m outs c) main_v62 (outs 6 main_v62 c) main_v62
    rw [Function.update_self])

/-- Each of the region's arrays at its exit contents. -/
theorem hF2 (h : ∀ c, outs 6 main_v62 c = (dat2 (ent2 m outs) c).arrAt 4 cfg2.N) (c : Dev nD) (w : Fin cfg2.W) :
    (dat2 (ent2 m outs) c).arrAt w cfg2.N = ext2 m outs c (Pipeline.arrRef spec2 w) := by
  fin_cases w
  · exact hF2_0 m outs c
  · exact hF2_1 m outs c
  · exact hF2_2 m outs c
  · exact hF2_3 m outs c
  · exact hF2_4 m outs h c

/-- Every other buffer is as it was. -/
theorem hrest2 (c : Dev nD) : ∀ b, b ∉ Finset.univ.image (Pipeline.arrRef spec2) → ext2 m outs c b = ent2 m outs c b :=
  fun b hb => V6_of m outs c b (fun hmem => hb (by
    rw [List.mem_singleton] at hmem; subst hmem
    exact Finset.mem_image.mpr ⟨4, Finset.mem_univ _, rfl⟩))

set_option backward.isDefEq.respectTransparency.types false in
/-- Region 2 over the thread state. -/
def reg2 (h : ∀ c, outs 6 main_v62 c = (dat2 (ent2 m outs) c).arrAt 4 cfg2.N) :
    Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (ent2 m outs) c).loose
  hwaits := Pipeline.hwaits_of_owed_zero _ _ _ _ L lv 2 fun _ _ => rfl
  pre c := iprop(StableHlo.held (c : Thread nD τ) (Pipeline.ucRefs τ sig) (V5 m outs c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec2 c (ent2 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (ent2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (ent2 m outs c) (ext2 m outs c) ((pdats m outs 2 c).arrAt · cfg2.N) (hF2 m outs h c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KW.Seg3.lean ====
/-
  Region 3 as one item of the program: entered with every unscoped buffer held at the contents before it, left
  with them held at the contents after it, PROVIDED `outs` names, for the region's output array, what the
  pipeline's write-backs leave there. The region's arrays are split out of the held buffers on entry and put back
  on exit; its inputs' arrays end as they were; the generator register passes through the pipeline's invariant.
-/
import proofs.«149571_j25649544692292_2_alg».proof.Proof.KW.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Input array 0 is at the exit what it was at the entry. -/
theorem hF3_0 (c : Dev nD) : (dat3 (ent3 m outs) c).arrAt 0 cfg3.N = ext3 m outs c (Pipeline.arrRef spec3 0) :=
  (((dat3 (ent3 m outs) c).arrAt_in 0 rfl _).trans (A_eq3 (ent3 m outs) c 0)).trans (V8_of m outs c _ (by decide)).symm
/-- Input array 1 is at the exit what it was at the entry. -/
theorem hF3_1 (c : Dev nD) : (dat3 (ent3 m outs) c).arrAt 1 cfg3.N = ext3 m outs c (Pipeline.arrRef spec3 1) :=
  (((dat3 (ent3 m outs) c).arrAt_in 1 rfl _).trans (A_eq3 (ent3 m outs) c 1)).trans (V8_of m outs c _ (by decide)).symm
/-- Input array 2 is at the exit what it was at the entry. -/
theorem hF3_2 (c : Dev nD) : (dat3 (ent3 m outs) c).arrAt 2 cfg3.N = ext3 m outs c (Pipeline.arrRef spec3 2) :=
  (((dat3 (ent3 m outs) c).arrAt_in 2 rfl _).trans (A_eq3 (ent3 m outs) c 2)).trans (V8_of m outs c _ (by decide)).symm
/-- Input array 3 is at the exit what it was at the entry. -/
theorem hF3_3 (c : Dev nD) : (dat3 (ent3 m outs) c).arrAt 3 cfg3.N = ext3 m outs c (Pipeline.arrRef spec3 3) :=
  (((dat3 (ent3 m outs) c).arrAt_in 3 rfl _).trans (A_eq3 (ent3 m outs) c 3)).trans (V8_of m outs c _ (by decide)).symm
/-- Input array 4 is at the exit what it was at the entry. -/
theorem hF3_4 (c : Dev nD) : (dat3 (ent3 m outs) c).arrAt 4 cfg3.N = ext3 m outs c (Pipeline.arrRef spec3 4) :=
  (((dat3 (ent3 m outs) c).arrAt_in 4 rfl _).trans (A_eq3 (ent3 m outs) c 4)).trans (V8_of m outs c _ (by decide)).symm
/-- Input array 5 is at the exit what it was at the entry. -/
theorem hF3_5 (c : Dev nD) : (dat3 (ent3 m outs) c).arrAt 5 cfg3.N = ext3 m outs c (Pipeline.arrRef spec3 5) :=
  (((dat3 (ent3 m outs) c).arrAt_in 5 rfl _).trans (A_eq3 (ent3 m outs) c 5)).trans (V8_of m outs c _ (by decide)).symm
/-- The output array is at the exit what `outs` names. -/
theorem hF3_6 (h : ∀ c, outs 8 main_v74 c = (dat3 (ent3 m outs) c).arrAt 6 cfg3.N) (c : Dev nD) :
    (dat3 (ent3 m outs) c).arrAt 6 cfg3.N = ext3 m outs c (Pipeline.arrRef spec3 6) :=
  (h c).symm.trans (by
    show outs 8 main_v74 c = Function.update (V7 m outs c) main_v74 (outs 8 main_v74 c) main_v74
    rw [Function.update_self])

/-- Each of the region's arrays at its exit contents. -/
theorem hF3 (h : ∀ c, outs 8 main_v74 c = (dat3 (ent3 m outs) c).arrAt 6 cfg3.N) (c : Dev nD) (w : Fin cfg3.W) :
    (dat3 (ent3 m outs) c).arrAt w cfg3.N = ext3 m outs c (Pipeline.arrRef spec3 w) := by
  fin_cases w
  · exact hF3_0 m outs c
  · exact hF3_1 m outs c
  · exact hF3_2 m outs c
  · exact hF3_3 m outs c
  · exact hF3_4 m outs c
  · exact hF3_5 m outs c
  · exact hF3_6 m outs h c

/-- Every other buffer is as it was. -/
theorem hrest3 (c : Dev nD) : ∀ b, b ∉ Finset.univ.image (Pipeline.arrRef spec3) → ext3 m outs c b = ent3 m outs c b :=
  fun b hb => V8_of m outs c b (fun hmem => hb (by
    rw [List.mem_singleton] at hmem; subst hmem
    exact Finset.mem_image.mpr ⟨6, Finset.mem_univ _, rfl⟩))

set_option backward.isDefEq.respectTransparency.types false in
/-- Region 3 over the thread state. -/
def reg3 (h : ∀ c, outs 8 main_v74 c = (dat3 (ent3 m outs) c).arrAt 6 cfg3.N) :
    Pipeline.RegionSeg (pcfgs (F := F)) adm (pdats m outs) () defs₀ 𝒱₀ L lv 3 where
  win := launch3.win.to₀
  block_pos := launch3.block_pos
  stage_whole := launch3.stage_whole
  K := PEmpty
  osem k := k.elim
  ho := Pipeline.OwnSemFacts.none _
  hbody c := (body_obligation3 (ent3 m outs) c).loose
  hwaits := Pipeline.hwaits_of_owed_zero _ _ _ _ L lv 3 fun _ _ => rfl
  pre c := iprop(StableHlo.held (c : Thread nD τ) (Pipeline.ucRefs τ sig) (V7 m outs c) ∗ R c)
  post c := iprop(StableHlo.held (c : Thread nD τ) (Pipeline.ucRefs τ sig) (V8 m outs c) ∗ R c)
  X c := iprop(∃ r, prngReg c r)
  Y c := iprop(∃ r, prngReg c r)
  Z c := Pipeline.unscopedRest (Ix := Unit) (Name := ℕ) (U := UR sig nD τ) (Lvl := ℕ) spec3 c (ent3 m outs c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (ent3 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (ent3 m outs c) (ext3 m outs c) ((pdats m outs 3 c).arrAt · cfg3.N) (hF3 m outs h c) (hrest3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KW.Seg4.lean ====
/-
  Region 4 as one item of the program: entered with every unscoped buffer held at the contents before it, left
  with them held at the contents after it, PROVIDED `outs` names, for the region's output array, what the
  pipeline's write-backs leave there. The region's arrays are split out of the held buffers on entry and put back
  on exit; its inputs' arrays end as they were; the generator register passes through the pipeline's invariant.
-/
import proofs.«149571_j25649544692292_2_alg».proof.Proof.KW.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Input array 0 is at the exit what it was at the entry. -/
theorem hF4_0 (c : Dev nD) : (dat4 (ent4 m outs) c).arrAt 0 cfg4.N = ext4 m outs c (Pipeline.arrRef spec4 0) :=
  (((dat4 (ent4 m outs) c).arrAt_in 0 rfl _).trans (A_eq4 (ent4 m outs) c 0)).trans (V10_of m outs c _ (by decide)).symm
/-- Input array 1 is at the exit what it was at the entry. -/
theorem hF4_1 (c : Dev nD) : (dat4 (ent4 m outs) c).arrAt 1 cfg4.N = ext4 m outs c (Pipeline.arrRef spec4 1) :=
  (((dat4 (ent4 m outs) c).arrAt_in 1 rfl _).trans (A_eq4 (ent4 m outs) c 1)).trans (V10_of m outs c _ (by decide)).symm
/-- Input array 2 is at the exit what it was at the entry. -/
theorem hF4_2 (c : Dev nD) : (dat4 (ent4 m outs) c).arrAt 2 cfg4.N = ext4 m outs c (Pipeline.arrRef spec4 2) :=
  (((dat4 (ent4 m outs) c).arrAt_in 2 rfl _).trans (A_eq4 (ent4 m outs) c 2)).trans (V10_of m outs c _ (by decide)).symm
/-- Input array 3 is at the exit what it was at the entry. -/
theorem hF4_3 (c : Dev nD) : (dat4 (ent4 m outs) c).arrAt 3 cfg4.N = ext4 m outs c (Pipeline.arrRef spec4 3) :=
  (((dat4 (ent4 m outs) c).arrAt_in 3 rfl _).trans (A_eq4 (ent4 m outs) c 3)).trans (V10_of m outs c _ (by decide)).symm
/-- The output array is at the exit what `outs` names. -/
theorem hF4_4 (h : ∀ c, outs 10 main_v86 c = (dat4 (ent4 m outs) c).arrAt 4 cfg4.N) (c : Dev nD) :
    (dat4 (ent4 m outs) c).arrAt 4 cfg4.N = ext4 m outs c (Pipeline.arrRef spec4 4) :=
  (h c).symm.trans (by
    show outs 10 main_v86 c = Function.update (V9 m outs c) main_v86 (outs 10 main_v86 c) main_v86
    rw [Function.update_self])

/-- Each of the region's arrays at its exit contents. -/
theorem hF4 (h : ∀ c, outs 10 main_v86 c = (dat4 (ent4 m outs) c).arrAt 4 cfg4.N) (c : Dev nD) (w : Fin cfg4.W) :
    (dat4 (ent4 m outs) c).arrAt w cfg4.N = ext4 m outs c (Pipeline.arrRef spec4 w) := by
  fin_cases w
  · exact hF4_0 m outs c
  · exact hF4_1 m outs c
  · exact hF4_2 m outs c
  · exact hF4_3 m outs c
  · exact hF4_4 m outs h c

/-- Every other buffer is as it was. -/
theorem hrest4 (c : Dev nD) : ∀ b, b ∉ Finset.univ.image (Pipeline.arrRef spec4) → ext4 m outs c b = ent4 m outs c b :=
  fun b hb => V10_of m outs c b (fun hmem => hb (by
    rw [List.mem_singleton] at hmem; subst hmem
    exact Finset.mem_image.mpr ⟨4, Finset.mem_univ _, rfl⟩))

set_option backward.isDefEq.respectTransparency.types false in
/-- Region 4 over the thread state. -/
def reg4 (h : ∀ c, outs 10 main_v86 c = (dat4 (ent4 m outs) c).arrAt 4 cfg4.N) :
    Pipeline.RegionSeg (pcfgs (F := F)) adm (pdats m outs) () defs₀ 𝒱₀ L lv 4 where
  win := launch4.win.to₀
  block_pos := launch4.block_pos
  stage_whole := launch4.stage_whole
  K := PEmpty
  osem k := k.elim
  ho := Pipeline.OwnSemFacts.none _
  hbody c := (body_obligation4 (ent4 m outs) c).loose
  hwaits := Pipeline.hwaits_of_owed_zero _ _ _ _ L lv 4 fun _ _ => rfl
  pre c := iprop(StableHlo.held (c : Thread nD τ) (Pipeline.ucRefs τ sig) (V9 m outs c) ∗ R c)
  post c := iprop(StableHlo.held (c : Thread nD τ) (Pipeline.ucRefs τ sig) (V10 m outs c) ∗ R c)
  X c := iprop(∃ r, prngReg c r)
  Y c := iprop(∃ r, prngReg c r)
  Z c := Pipeline.unscopedRest (Ix := Unit) (Name := ℕ) (U := UR sig nD τ) (Lvl := ℕ) spec4 c (ent4 m outs c)
  hentry c := by
    rw [Pipeline.ownSems0_none]
    have hsplit := Pipeline.arrays_of_unscopedBufs (p := 4) (pcfgs (F := F)) adm (pdats m outs) launch4.win launch4.arr_whole c
      ((pdats m outs 4 c).share_full fun _ => rfl) (ent4 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m outs 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m outs) ((pdats m outs 4 c).share_full fun _ => rfl)
      (ent4 m outs c) (ext4 m outs c) ((pdats m outs 4 c).arrAt · cfg4.N) (hF4 m outs h c) (hrest4 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KW.Seg5.lean ====
/-
  Region 5 as one item of the program: entered with every unscoped buffer held at the contents before it, left
  with them held at the contents after it, PROVIDED `outs` names, for the region's output array, what the
  pipeline's write-backs leave there. The region's arrays are split out of the held buffers on entry and put back
  on exit; its inputs' arrays end as they were; the generator register passes through the pipeline's invariant.
-/
import proofs.«149571_j25649544692292_2_alg».proof.Proof.KW.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Input array 0 is at the exit what it was at the entry. -/
theorem hF5_0 (c : Dev nD) : (dat5 (ent5 m outs) c).arrAt 0 cfg5.N = ext5 m outs c (Pipeline.arrRef spec5 0) :=
  (((dat5 (ent5 m outs) c).arrAt_in 0 rfl _).trans (A_eq5 (ent5 m outs) c 0)).trans (V12_of m outs c _ (by decide)).symm
/-- Input array 1 is at the exit what it was at the entry. -/
theorem hF5_1 (c : Dev nD) : (dat5 (ent5 m outs) c).arrAt 1 cfg5.N = ext5 m outs c (Pipeline.arrRef spec5 1) :=
  (((dat5 (ent5 m outs) c).arrAt_in 1 rfl _).trans (A_eq5 (ent5 m outs) c 1)).trans (V12_of m outs c _ (by decide)).symm
/-- Input array 2 is at the exit what it was at the entry. -/
theorem hF5_2 (c : Dev nD) : (dat5 (ent5 m outs) c).arrAt 2 cfg5.N = ext5 m outs c (Pipeline.arrRef spec5 2) :=
  (((dat5 (ent5 m outs) c).arrAt_in 2 rfl _).trans (A_eq5 (ent5 m outs) c 2)).trans (V12_of m outs c _ (by decide)).symm
/-- Input array 3 is at the exit what it was at the entry. -/
theorem hF5_3 (c : Dev nD) : (dat5 (ent5 m outs) c).arrAt 3 cfg5.N = ext5 m outs c (Pipeline.arrRef spec5 3) :=
  (((dat5 (ent5 m outs) c).arrAt_in 3 rfl _).trans (A_eq5 (ent5 m outs) c 3)).trans (V12_of m outs c _ (by decide)).symm
/-- Input array 4 is at the exit what it was at the entry. -/
theorem hF5_4 (c : Dev nD) : (dat5 (ent5 m outs) c).arrAt 4 cfg5.N = ext5 m outs c (Pipeline.arrRef spec5 4) :=
  (((dat5 (ent5 m outs) c).arrAt_in 4 rfl _).trans (A_eq5 (ent5 m outs) c 4)).trans (V12_of m outs c _ (by decide)).symm
/-- Input array 5 is at the exit what it was at the entry. -/
theorem hF5_5 (c : Dev nD) : (dat5 (ent5 m outs) c).arrAt 5 cfg5.N = ext5 m outs c (Pipeline.arrRef spec5 5) :=
  (((dat5 (ent5 m outs) c).arrAt_in 5 rfl _).trans (A_eq5 (ent5 m outs) c 5)).trans (V12_of m outs c _ (by decide)).symm
/-- The output array is at the exit what `outs` names. -/
theorem hF5_6 (h : ∀ c, outs 12 main_v98 c = (dat5 (ent5 m outs) c).arrAt 6 cfg5.N) (c : Dev nD) :
    (dat5 (ent5 m outs) c).arrAt 6 cfg5.N = ext5 m outs c (Pipeline.arrRef spec5 6) :=
  (h c).symm.trans (by
    show outs 12 main_v98 c = Function.update (V11 m outs c) main_v98 (outs 12 main_v98 c) main_v98
    rw [Function.update_self])

/-- Each of the region's arrays at its exit contents. -/
theorem hF5 (h : ∀ c, outs 12 main_v98 c = (dat5 (ent5 m outs) c).arrAt 6 cfg5.N) (c : Dev nD) (w : Fin cfg5.W) :
    (dat5 (ent5 m outs) c).arrAt w cfg5.N = ext5 m outs c (Pipeline.arrRef spec5 w) := by
  fin_cases w
  · exact hF5_0 m outs c
  · exact hF5_1 m outs c
  · exact hF5_2 m outs c
  · exact hF5_3 m outs c
  · exact hF5_4 m outs c
  · exact hF5_5 m outs c
  · exact hF5_6 m outs h c

/-- Every other buffer is as it was. -/
theorem hrest5 (c : Dev nD) : ∀ b, b ∉ Finset.univ.image (Pipeline.arrRef spec5) → ext5 m outs c b = ent5 m outs c b :=
  fun b hb => V12_of m outs c b (fun hmem => hb (by
    rw [List.mem_singleton] at hmem; subst hmem
    exact Finset.mem_image.mpr ⟨6, Finset.mem_univ _, rfl⟩))

set_option backward.isDefEq.respectTransparency.types false in
/-- Region 5 over the thread state. -/
def reg5 (h : ∀ c, outs 12 main_v98 c = (dat5 (ent5 m outs) c).arrAt 6 cfg5.N) :
    Pipeline.RegionSeg (pcfgs (F := F)) adm (pdats m outs) () defs₀ 𝒱₀ L lv 5 where
  win := launch5.win.to₀
  block_pos := launch5.block_pos
  stage_whole := launch5.stage_whole
  K := PEmpty
  osem k := k.elim
  ho := Pipeline.OwnSemFacts.none _
  hbody c := (body_obligation5 (ent5 m outs) c).loose
  hwaits := Pipeline.hwaits_of_owed_zero _ _ _ _ L lv 5 fun _ _ => rfl
  pre c := iprop(StableHlo.held (c : Thread nD τ) (Pipeline.ucRefs τ sig) (V11 m outs c) ∗ R c)
  post c := iprop(StableHlo.held (c : Thread nD τ) (Pipeline.ucRefs τ sig) (V12 m outs c) ∗ R c)
  X c := iprop(∃ r, prngReg c r)
  Y c := iprop(∃ r, prngReg c r)
  Z c := Pipeline.unscopedRest (Ix := Unit) (Name := ℕ) (U := UR sig nD τ) (Lvl := ℕ) spec5 c (ent5 m outs c)
  hentry c := by
    rw [Pipeline.ownSems0_none]
    have hsplit := Pipeline.arrays_of_unscopedBufs (p := 5) (pcfgs (F := F)) adm (pdats m outs) launch5.win launch5.arr_whole c
      ((pdats m outs 5 c).share_full fun _ => rfl) (ent5 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m outs 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m outs) ((pdats m outs 5 c).share_full fun _ => rfl)
      (ent5 m outs c) (ext5 m outs c) ((pdats m outs 5 c).arrAt · cfg5.N) (hF5 m outs h c) (hrest5 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KW.Seg6.lean ====
/-
  Region 6 as one item of the program: entered with every unscoped buffer held at the contents before it, left
  with them held at the contents after it, PROVIDED `outs` names, for the region's output array, what the
  pipeline's write-backs leave there. The region's arrays are split out of the held buffers on entry and put back
  on exit; its inputs' arrays end as they were; the generator register passes through the pipeline's invariant.
-/
import proofs.«149571_j25649544692292_2_alg».proof.Proof.KW.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Input array 0 is at the exit what it was at the entry. -/
theorem hF6_0 (c : Dev nD) : (dat6 (ent6 m outs) c).arrAt 0 cfg6.N = ext6 m outs c (Pipeline.arrRef spec6 0) :=
  (((dat6 (ent6 m outs) c).arrAt_in 0 rfl _).trans (A_eq6 (ent6 m outs) c 0)).trans (V14_of m outs c _ (by decide)).symm
/-- Input array 1 is at the exit what it was at the entry. -/
theorem hF6_1 (c : Dev nD) : (dat6 (ent6 m outs) c).arrAt 1 cfg6.N = ext6 m outs c (Pipeline.arrRef spec6 1) :=
  (((dat6 (ent6 m outs) c).arrAt_in 1 rfl _).trans (A_eq6 (ent6 m outs) c 1)).trans (V14_of m outs c _ (by decide)).symm
/-- Input array 2 is at the exit what it was at the entry. -/
theorem hF6_2 (c : Dev nD) : (dat6 (ent6 m outs) c).arrAt 2 cfg6.N = ext6 m outs c (Pipeline.arrRef spec6 2) :=
  (((dat6 (ent6 m outs) c).arrAt_in 2 rfl _).trans (A_eq6 (ent6 m outs) c 2)).trans (V14_of m outs c _ (by decide)).symm
/-- Input array 3 is at the exit what it was at the entry. -/
theorem hF6_3 (c : Dev nD) : (dat6 (ent6 m outs) c).arrAt 3 cfg6.N = ext6 m outs c (Pipeline.arrRef spec6 3) :=
  (((dat6 (ent6 m outs) c).arrAt_in 3 rfl _).trans (A_eq6 (ent6 m outs) c 3)).trans (V14_of m outs c _ (by decide)).symm
/-- The output array is at the exit what `outs` names. -/
theorem hF6_4 (h : ∀ c, outs 14 main_v110 c = (dat6 (ent6 m outs) c).arrAt 4 cfg6.N) (c : Dev nD) :
    (dat6 (ent6 m outs) c).arrAt 4 cfg6.N = ext6 m outs c (Pipeline.arrRef spec6 4) :=
  (h c).symm.trans (by
    show outs 14 main_v110 c = Function.update (V13 m outs c) main_v110 (outs 14 main_v110 c) main_v110
    rw [Function.update_self])

/-- Each of the region's arrays at its exit contents. -/
theorem hF6 (h : ∀ c, outs 14 main_v110 c = (dat6 (ent6 m outs) c).arrAt 4 cfg6.N) (c : Dev nD) (w : Fin cfg6.W) :
    (dat6 (ent6 m outs) c).arrAt w cfg6.N = ext6 m outs c (Pipeline.arrRef spec6 w) := by
  fin_cases w
  · exact hF6_0 m outs c
  · exact hF6_1 m outs c
  · exact hF6_2 m outs c
  · exact hF6_3 m outs c
  · exact hF6_4 m outs h c

/-- Every other buffer is as it was. -/
theorem hrest6 (c : Dev nD) : ∀ b, b ∉ Finset.univ.image (Pipeline.arrRef spec6) → ext6 m outs c b = ent6 m outs c b :=
  fun b hb => V14_of m outs c b (fun hmem => hb (by
    rw [List.mem_singleton] at hmem; subst hmem
    exact Finset.mem_image.mpr ⟨4, Finset.mem_univ _, rfl⟩))

set_option backward.isDefEq.respectTransparency.types false in
/-- Region 6 over the thread state. -/
def reg6 (h : ∀ c, outs 14 main_v110 c = (dat6 (ent6 m outs) c).arrAt 4 cfg6.N) :
    Pipeline.RegionSeg (pcfgs (F := F)) adm (pdats m outs) () defs₀ 𝒱₀ L lv 6 where
  win := launch6.win.to₀
  block_pos := launch6.block_pos
  stage_whole := launch6.stage_whole
  K := PEmpty
  osem k := k.elim
  ho := Pipeline.OwnSemFacts.none _
  hbody c := (body_obligation6 (ent6 m outs) c).loose
  hwaits := Pipeline.hwaits_of_owed_zero _ _ _ _ L lv 6 fun _ _ => rfl
  pre c := iprop(StableHlo.held (c : Thread nD τ) (Pipeline.ucRefs τ sig) (V13 m outs c) ∗ R c)
  post c := iprop(StableHlo.held (c : Thread nD τ) (Pipeline.ucRefs τ sig) (V14 m outs c) ∗ R c)
  X c := iprop(∃ r, prngReg c r)
  Y c := iprop(∃ r, prngReg c r)
  Z c := Pipeline.unscopedRest (Ix := Unit) (Name := ℕ) (U := UR sig nD τ) (Lvl := ℕ) spec6 c (ent6 m outs c)
  hentry c := by
    rw [Pipeline.ownSems0_none]
    have hsplit := Pipeline.arrays_of_unscopedBufs (p := 6) (pcfgs (F := F)) adm (pdats m outs) launch6.win launch6.arr_whole c
      ((pdats m outs 6 c).share_full fun _ => rfl) (ent6 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m outs 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m outs) ((pdats m outs 6 c).share_full fun _ => rfl)
      (ent6 m outs c) (ext6 m outs c) ((pdats m outs 6 c).arrAt · cfg6.N) (hF6 m outs h c) (hrest6 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KW.Seg7.lean ====
/-
  Region 7 as one item of the program: entered with every unscoped buffer held at the contents before it, left
  with them held at the contents after it, PROVIDED `outs` names, for the region's output array, what the
  pipeline's write-backs leave there. The region's arrays are split out of the held buffers on entry and put back
  on exit; its inputs' arrays end as they were; the generator register passes through the pipeline's invariant.
-/
import proofs.«149571_j25649544692292_2_alg».proof.Proof.KW.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Input array 0 is at the exit what it was at the entry. -/
theorem hF7_0 (c : Dev nD) : (dat7 (ent7 m outs) c).arrAt 0 cfg7.N = ext7 m outs c (Pipeline.arrRef spec7 0) :=
  (((dat7 (ent7 m outs) c).arrAt_in 0 rfl _).trans (A_eq7 (ent7 m outs) c 0)).trans (V16_of m outs c _ (by decide)).symm
/-- Input array 1 is at the exit what it was at the entry. -/
theorem hF7_1 (c : Dev nD) : (dat7 (ent7 m outs) c).arrAt 1 cfg7.N = ext7 m outs c (Pipeline.arrRef spec7 1) :=
  (((dat7 (ent7 m outs) c).arrAt_in 1 rfl _).trans (A_eq7 (ent7 m outs) c 1)).trans (V16_of m outs c _ (by decide)).symm
/-- Input array 2 is at the exit what it was at the entry. -/
theorem hF7_2 (c : Dev nD) : (dat7 (ent7 m outs) c).arrAt 2 cfg7.N = ext7 m outs c (Pipeline.arrRef spec7 2) :=
  (((dat7 (ent7 m outs) c).arrAt_in 2 rfl _).trans (A_eq7 (ent7 m outs) c 2)).trans (V16_of m outs c _ (by decide)).symm
/-- Input array 3 is at the exit what it was at the entry. -/
theorem hF7_3 (c : Dev nD) : (dat7 (ent7 m outs) c).arrAt 3 cfg7.N = ext7 m outs c (Pipeline.arrRef spec7 3) :=
  (((dat7 (ent7 m outs) c).arrAt_in 3 rfl _).trans (A_eq7 (ent7 m outs) c 3)).trans (V16_of m outs c _ (by decide)).symm
/-- Input array 4 is at the exit what it was at the entry. -/
theorem hF7_4 (c : Dev nD) : (dat7 (ent7 m outs) c).arrAt 4 cfg7.N = ext7 m outs c (Pipeline.arrRef spec7 4) :=
  (((dat7 (ent7 m outs) c).arrAt_in 4 rfl _).trans (A_eq7 (ent7 m outs) c 4)).trans (V16_of m outs c _ (by decide)).symm
/-- Input array 5 is at the exit what it was at the entry. -/
theorem hF7_5 (c : Dev nD) : (dat7 (ent7 m outs) c).arrAt 5 cfg7.N = ext7 m outs c (Pipeline.arrRef spec7 5) :=
  (((dat7 (ent7 m outs) c).arrAt_in 5 rfl _).trans (A_eq7 (ent7 m outs) c 5)).trans (V16_of m outs c _ (by decide)).symm
/-- The output array is at the exit what `outs` names. -/
theorem hF7_6 (h : ∀ c, outs 16 main_v122 c = (dat7 (ent7 m outs) c).arrAt 6 cfg7.N) (c : Dev nD) :
    (dat7 (ent7 m outs) c).arrAt 6 cfg7.N = ext7 m outs c (Pipeline.arrRef spec7 6) :=
  (h c).symm.trans (by
    show outs 16 main_v122 c = Function.update (V15 m outs c) main_v122 (outs 16 main_v122 c) main_v122
    rw [Function.update_self])

/-- Each of the region's arrays at its exit contents. -/
theorem hF7 (h : ∀ c, outs 16 main_v122 c = (dat7 (ent7 m outs) c).arrAt 6 cfg7.N) (c : Dev nD) (w : Fin cfg7.W) :
    (dat7 (ent7 m outs) c).arrAt w cfg7.N = ext7 m outs c (Pipeline.arrRef spec7 w) := by
  fin_cases w
  · exact hF7_0 m outs c
  · exact hF7_1 m outs c
  · exact hF7_2 m outs c
  · exact hF7_3 m outs c
  · exact hF7_4 m outs c
  · exact hF7_5 m outs c
  · exact hF7_6 m outs h c

/-- Every other buffer is as it was. -/
theorem hrest7 (c : Dev nD) : ∀ b, b ∉ Finset.univ.image (Pipeline.arrRef spec7) → ext7 m outs c b = ent7 m outs c b :=
  fun b hb => V16_of m outs c b (fun hmem => hb (by
    rw [List.mem_singleton] at hmem; subst hmem
    exact Finset.mem_image.mpr ⟨6, Finset.mem_univ _, rfl⟩))

set_option backward.isDefEq.respectTransparency.types false in
/-- Region 7 over the thread state. -/
def reg7 (h : ∀ c, outs 16 main_v122 c = (dat7 (ent7 m outs) c).arrAt 6 cfg7.N) :
    Pipeline.RegionSeg (pcfgs (F := F)) adm (pdats m outs) () defs₀ 𝒱₀ L lv 7 where
  win := launch7.win.to₀
  block_pos := launch7.block_pos
  stage_whole := launch7.stage_whole
  K := PEmpty
  osem k := k.elim
  ho := Pipeline.OwnSemFacts.none _
  hbody c := (body_obligation7 (ent7 m outs) c).loose
  hwaits := Pipeline.hwaits_of_owed_zero _ _ _ _ L lv 7 fun _ _ => rfl
  pre c := iprop(StableHlo.held (c : Thread nD τ) (Pipeline.ucRefs τ sig) (V15 m outs c) ∗ R c)
  post c := iprop(StableHlo.held (c : Thread nD τ) (Pipeline.ucRefs τ sig) (V16 m outs c) ∗ R c)
  X c := iprop(∃ r, prngReg c r)
  Y c := iprop(∃ r, prngReg c r)
  Z c := Pipeline.unscopedRest (Ix := Unit) (Name := ℕ) (U := UR sig nD τ) (Lvl := ℕ) spec7 c (ent7 m outs c)
  hentry c := by
    rw [Pipeline.ownSems0_none]
    have hsplit := Pipeline.arrays_of_unscopedBufs (p := 7) (pcfgs (F := F)) adm (pdats m outs) launch7.win launch7.arr_whole c
      ((pdats m outs 7 c).share_full fun _ => rfl) (ent7 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m outs 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m outs) ((pdats m outs 7 c).share_full fun _ => rfl)
      (ent7 m outs c) (ext7 m outs c) ((pdats m outs 7 c).arrAt · cfg7.N) (hF7 m outs h c) (hrest7 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KW.Seg8.lean ====
/-
  Region 8 as one item of the program: entered with every unscoped buffer held at the contents before it, left
  with them held at the contents after it, PROVIDED `outs` names, for the region's output array, what the
  pipeline's write-backs leave there. The region's arrays are split out of the held buffers on entry and put back
  on exit; its inputs' arrays end as they were; the generator register passes through the pipeline's invariant.
-/
import proofs.«149571_j25649544692292_2_alg».proof.Proof.KW.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Input array 0 is at the exit what it was at the entry. -/
theorem hF8_0 (c : Dev nD) : (dat8 (ent8 m outs) c).arrAt 0 cfg8.N = ext8 m outs c (Pipeline.arrRef spec8 0) :=
  (((dat8 (ent8 m outs) c).arrAt_in 0 rfl _).trans (A_eq8 (ent8 m outs) c 0)).trans (V18_of m outs c _ (by decide)).symm
/-- Input array 1 is at the exit what it was at the entry. -/
theorem hF8_1 (c : Dev nD) : (dat8 (ent8 m outs) c).arrAt 1 cfg8.N = ext8 m outs c (Pipeline.arrRef spec8 1) :=
  (((dat8 (ent8 m outs) c).arrAt_in 1 rfl _).trans (A_eq8 (ent8 m outs) c 1)).trans (V18_of m outs c _ (by decide)).symm
/-- Input array 2 is at the exit what it was at the entry. -/
theorem hF8_2 (c : Dev nD) : (dat8 (ent8 m outs) c).arrAt 2 cfg8.N = ext8 m outs c (Pipeline.arrRef spec8 2) :=
  (((dat8 (ent8 m outs) c).arrAt_in 2 rfl _).trans (A_eq8 (ent8 m outs) c 2)).trans (V18_of m outs c _ (by decide)).symm
/-- Input array 3 is at the exit what it was at the entry. -/
theorem hF8_3 (c : Dev nD) : (dat8 (ent8 m outs) c).arrAt 3 cfg8.N = ext8 m outs c (Pipeline.arrRef spec8 3) :=
  (((dat8 (ent8 m outs) c).arrAt_in 3 rfl _).trans (A_eq8 (ent8 m outs) c 3)).trans (V18_of m outs c _ (by decide)).symm
/-- The output array is at the exit what `outs` names. -/
theorem hF8_4 (h : ∀ c, outs 18 main_v134 c = (dat8 (ent8 m outs) c).arrAt 4 cfg8.N) (c : Dev nD) :
    (dat8 (ent8 m outs) c).arrAt 4 cfg8.N = ext8 m outs c (Pipeline.arrRef spec8 4) :=
  (h c).symm.trans (by
    show outs 18 main_v134 c = Function.update (V17 m outs c) main_v134 (outs 18 main_v134 c) main_v134
    rw [Function.update_self])

/-- Each of the region's arrays at its exit contents. -/
theorem hF8 (h : ∀ c, outs 18 main_v134 c = (dat8 (ent8 m outs) c).arrAt 4 cfg8.N) (c : Dev nD) (w : Fin cfg8.W) :
    (dat8 (ent8 m outs) c).arrAt w cfg8.N = ext8 m outs c (Pipeline.arrRef spec8 w) := by
  fin_cases w
  · exact hF8_0 m outs c
  · exact hF8_1 m outs c
  · exact hF8_2 m outs c
  · exact hF8_3 m outs c
  · exact hF8_4 m outs h c

/-- Every other buffer is as it was. -/
theorem hrest8 (c : Dev nD) : ∀ b, b ∉ Finset.univ.image (Pipeline.arrRef spec8) → ext8 m outs c b = ent8 m outs c b :=
  fun b hb => V18_of m outs c b (fun hmem => hb (by
    rw [List.mem_singleton] at hmem; subst hmem
    exact Finset.mem_image.mpr ⟨4, Finset.mem_univ _, rfl⟩))

set_option backward.isDefEq.respectTransparency.types false in
/-- Region 8 over the thread state. -/
def reg8 (h : ∀ c, outs 18 main_v134 c = (dat8 (ent8 m outs) c).arrAt 4 cfg8.N) :
    Pipeline.RegionSeg (pcfgs (F := F)) adm (pdats m outs) () defs₀ 𝒱₀ L lv 8 where
  win := launch8.win.to₀
  block_pos := launch8.block_pos
  stage_whole := launch8.stage_whole
  K := PEmpty
  osem k := k.elim
  ho := Pipeline.OwnSemFacts.none _
  hbody c := (body_obligation8 (ent8 m outs) c).loose
  hwaits := Pipeline.hwaits_of_owed_zero _ _ _ _ L lv 8 fun _ _ => rfl
  pre c := iprop(StableHlo.held (c : Thread nD τ) (Pipeline.ucRefs τ sig) (V17 m outs c) ∗ R c)
  post c := iprop(StableHlo.held (c : Thread nD τ) (Pipeline.ucRefs τ sig) (V18 m outs c) ∗ R c)
  X c := iprop(∃ r, prngReg c r)
  Y c := iprop(∃ r, prngReg c r)
  Z c := Pipeline.unscopedRest (Ix := Unit) (Name := ℕ) (U := UR sig nD τ) (Lvl := ℕ) spec8 c (ent8 m outs c)
  hentry c := by
    rw [Pipeline.ownSems0_none]
    have hsplit := Pipeline.arrays_of_unscopedBufs (p := 8) (pcfgs (F := F)) adm (pdats m outs) launch8.win launch8.arr_whole c
      ((pdats m outs 8 c).share_full fun _ => rfl) (ent8 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m outs 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m outs) ((pdats m outs 8 c).share_full fun _ => rfl)
      (ent8 m outs c) (ext8 m outs c) ((pdats m outs 8 c).arrAt · cfg8.N) (hF8 m outs h c) (hrest8 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KW.Seg9.lean ====
/-
  Region 9 as one item of the program: entered with every unscoped buffer held at the contents before it, left
  with them held at the contents after it, PROVIDED `outs` names, for the region's output array, what the
  pipeline's write-backs leave there. The region's arrays are split out of the held buffers on entry and put back
  on exit; its inputs' arrays end as they were; the generator register passes through the pipeline's invariant.
-/
import proofs.«149571_j25649544692292_2_alg».proof.Proof.KW.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Input array 0 is at the exit what it was at the entry. -/
theorem hF9_0 (c : Dev nD) : (dat9 (ent9 m outs) c).arrAt 0 cfg9.N = ext9 m outs c (Pipeline.arrRef spec9 0) :=
  (((dat9 (ent9 m outs) c).arrAt_in 0 rfl _).trans (A_eq9 (ent9 m outs) c 0)).trans (V20_of m outs c _ (by decide)).symm
/-- Input array 1 is at the exit what it was at the entry. -/
theorem hF9_1 (c : Dev nD) : (dat9 (ent9 m outs) c).arrAt 1 cfg9.N = ext9 m outs c (Pipeline.arrRef spec9 1) :=
  (((dat9 (ent9 m outs) c).arrAt_in 1 rfl _).trans (A_eq9 (ent9 m outs) c 1)).trans (V20_of m outs c _ (by decide)).symm
/-- Input array 2 is at the exit what it was at the entry. -/
theorem hF9_2 (c : Dev nD) : (dat9 (ent9 m outs) c).arrAt 2 cfg9.N = ext9 m outs c (Pipeline.arrRef spec9 2) :=
  (((dat9 (ent9 m outs) c).arrAt_in 2 rfl _).trans (A_eq9 (ent9 m outs) c 2)).trans (V20_of m outs c _ (by decide)).symm
/-- Input array 3 is at the exit what it was at the entry. -/
theorem hF9_3 (c : Dev nD) : (dat9 (ent9 m outs) c).arrAt 3 cfg9.N = ext9 m outs c (Pipeline.arrRef spec9 3) :=
  (((dat9 (ent9 m outs) c).arrAt_in 3 rfl _).trans (A_eq9 (ent9 m outs) c 3)).trans (V20_of m outs c _ (by decide)).symm
/-- Input array 4 is at the exit what it was at the entry. -/
theorem hF9_4 (c : Dev nD) : (dat9 (ent9 m outs) c).arrAt 4 cfg9.N = ext9 m outs c (Pipeline.arrRef spec9 4) :=
  (((dat9 (ent9 m outs) c).arrAt_in 4 rfl _).trans (A_eq9 (ent9 m outs) c 4)).trans (V20_of m outs c _ (by decide)).symm
/-- Input array 5 is at the exit what it was at the entry. -/
theorem hF9_5 (c : Dev nD) : (dat9 (ent9 m outs) c).arrAt 5 cfg9.N = ext9 m outs c (Pipeline.arrRef spec9 5) :=
  (((dat9 (ent9 m outs) c).arrAt_in 5 rfl _).trans (A_eq9 (ent9 m outs) c 5)).trans (V20_of m outs c _ (by decide)).symm
/-- The output array is at the exit what `outs` names. -/
theorem hF9_6 (h : ∀ c, outs 20 main_v146 c = (dat9 (ent9 m outs) c).arrAt 6 cfg9.N) (c : Dev nD) :
    (dat9 (ent9 m outs) c).arrAt 6 cfg9.N = ext9 m outs c (Pipeline.arrRef spec9 6) :=
  (h c).symm.trans (by
    show outs 20 main_v146 c = Function.update (V19 m outs c) main_v146 (outs 20 main_v146 c) main_v146
    rw [Function.update_self])

/-- Each of the region's arrays at its exit contents. -/
theorem hF9 (h : ∀ c, outs 20 main_v146 c = (dat9 (ent9 m outs) c).arrAt 6 cfg9.N) (c : Dev nD) (w : Fin cfg9.W) :
    (dat9 (ent9 m outs) c).arrAt w cfg9.N = ext9 m outs c (Pipeline.arrRef spec9 w) := by
  fin_cases w
  · exact hF9_0 m outs c
  · exact hF9_1 m outs c
  · exact hF9_2 m outs c
  · exact hF9_3 m outs c
  · exact hF9_4 m outs c
  · exact hF9_5 m outs c
  · exact hF9_6 m outs h c

/-- Every other buffer is as it was. -/
theorem hrest9 (c : Dev nD) : ∀ b, b ∉ Finset.univ.image (Pipeline.arrRef spec9) → ext9 m outs c b = ent9 m outs c b :=
  fun b hb => V20_of m outs c b (fun hmem => hb (by
    rw [List.mem_singleton] at hmem; subst hmem
    exact Finset.mem_image.mpr ⟨6, Finset.mem_univ _, rfl⟩))

set_option backward.isDefEq.respectTransparency.types false in
/-- Region 9 over the thread state. -/
def reg9 (h : ∀ c, outs 20 main_v146 c = (dat9 (ent9 m outs) c).arrAt 6 cfg9.N) :
    Pipeline.RegionSeg (pcfgs (F := F)) adm (pdats m outs) () defs₀ 𝒱₀ L lv 9 where
  win := launch9.win.to₀
  block_pos := launch9.block_pos
  stage_whole := launch9.stage_whole
  K := PEmpty
  osem k := k.elim
  ho := Pipeline.OwnSemFacts.none _
  hbody c := (body_obligation9 (ent9 m outs) c).loose
  hwaits := Pipeline.hwaits_of_owed_zero _ _ _ _ L lv 9 fun _ _ => rfl
  pre c := iprop(StableHlo.held (c : Thread nD τ) (Pipeline.ucRefs τ sig) (V19 m outs c) ∗ R c)
  post c := iprop(StableHlo.held (c : Thread nD τ) (Pipeline.ucRefs τ sig) (V20 m outs c) ∗ R c)
  X c := iprop(∃ r, prngReg c r)
  Y c := iprop(∃ r, prngReg c r)
  Z c := Pipeline.unscopedRest (Ix := Unit) (Name := ℕ) (U := UR sig nD τ) (Lvl := ℕ) spec9 c (ent9 m outs c)
  hentry c := by
    rw [Pipeline.ownSems0_none]
    have hsplit := Pipeline.arrays_of_unscopedBufs (p := 9) (pcfgs (F := F)) adm (pdats m outs) launch9.win launch9.arr_whole c
      ((pdats m outs 9 c).share_full fun _ => rfl) (ent9 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m outs 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m outs) ((pdats m outs 9 c).share_full fun _ => rfl)
      (ent9 m outs c) (ext9 m outs c) ((pdats m outs 9 c).arrAt · cfg9.N) (hF9 m outs h c) (hrest9 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KW.Seg10.lean ====
/-
  Region 10 as one item of the program: entered with every unscoped buffer held at the contents before it, left
  with them held at the contents after it, PROVIDED `outs` names, for the region's output array, what the
  pipeline's write-backs leave there. The region's arrays are split out of the held buffers on entry and put back
  on exit; its inputs' arrays end as they were; the generator register passes through the pipeline's invariant.
-/
import proofs.«149571_j25649544692292_2_alg».proof.Proof.KW.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Input array 0 is at the exit what it was at the entry. -/
theorem hF10_0 (c : Dev nD) : (dat10 (ent10 m outs) c).arrAt 0 cfg10.N = ext10 m outs c (Pipeline.arrRef spec10 0) :=
  (((dat10 (ent10 m outs) c).arrAt_in 0 rfl _).trans (A_eq10 (ent10 m outs) c 0)).trans (V21_of m outs c _ (by decide)).symm
/-- Input array 1 is at the exit what it was at the entry. -/
theorem hF10_1 (c : Dev nD) : (dat10 (ent10 m outs) c).arrAt 1 cfg10.N = ext10 m outs c (Pipeline.arrRef spec10 1) :=
  (((dat10 (ent10 m outs) c).arrAt_in 1 rfl _).trans (A_eq10 (ent10 m outs) c 1)).trans (V21_of m outs c _ (by decide)).symm
/-- Input array 2 is at the exit what it was at the entry. -/
theorem hF10_2 (c : Dev nD) : (dat10 (ent10 m outs) c).arrAt 2 cfg10.N = ext10 m outs c (Pipeline.arrRef spec10 2) :=
  (((dat10 (ent10 m outs) c).arrAt_in 2 rfl _).trans (A_eq10 (ent10 m outs) c 2)).trans (V21_of m outs c _ (by decide)).symm
/-- Input array 3 is at the exit what it was at the entry. -/
theorem hF10_3 (c : Dev nD) : (dat10 (ent10 m outs) c).arrAt 3 cfg10.N = ext10 m outs c (Pipeline.arrRef spec10 3) :=
  (((dat10 (ent10 m outs) c).arrAt_in 3 rfl _).trans (A_eq10 (ent10 m outs) c 3)).trans (V21_of m outs c _ (by decide)).symm
/-- Input array 4 is at the exit what it was at the entry. -/
theorem hF10_4 (c : Dev nD) : (dat10 (ent10 m outs) c).arrAt 4 cfg10.N = ext10 m outs c (Pipeline.arrRef spec10 4) :=
  (((dat10 (ent10 m outs) c).arrAt_in 4 rfl _).trans (A_eq10 (ent10 m outs) c 4)).trans (V21_of m outs c _ (by decide)).symm
/-- The output array is at the exit what `outs` names. -/
theorem hF10_5 (h : ∀ c, outs 21 main_v147 c = (dat10 (ent10 m outs) c).arrAt 5 cfg10.N) (c : Dev nD) :
    (dat10 (ent10 m outs) c).arrAt 5 cfg10.N = ext10 m outs c (Pipeline.arrRef spec10 5) :=
  (h c).symm.trans (by
    show outs 21 main_v147 c = Function.update (V20 m outs c) main_v147 (outs 21 main_v147 c) main_v147
    rw [Function.update_self])

/-- Each of the region's arrays at its exit contents. -/
theorem hF10 (h : ∀ c, outs 21 main_v147 c = (dat10 (ent10 m outs) c).arrAt 5 cfg10.N) (c : Dev nD) (w : Fin cfg10.W) :
    (dat10 (ent10 m outs) c).arrAt w cfg10.N = ext10 m outs c (Pipeline.arrRef spec10 w) := by
  fin_cases w
  · exact hF10_0 m outs c
  · exact hF10_1 m outs c
  · exact hF10_2 m outs c
  · exact hF10_3 m outs c
  · exact hF10_4 m outs c
  · exact hF10_5 m outs h c

/-- Every other buffer is as it was. -/
theorem hrest10 (c : Dev nD) : ∀ b, b ∉ Finset.univ.image (Pipeline.arrRef spec10) → ext10 m outs c b = ent10 m outs c b :=
  fun b hb => V21_of m outs c b (fun hmem => hb (by
    rw [List.mem_singleton] at hmem; subst hmem
    exact Finset.mem_image.mpr ⟨5, Finset.mem_univ _, rfl⟩))

set_option backward.isDefEq.respectTransparency.types false in
/-- Region 10 over the thread state. -/
def reg10 (h : ∀ c, outs 21 main_v147 c = (dat10 (ent10 m outs) c).arrAt 5 cfg10.N) :
    Pipeline.RegionSeg (pcfgs (F := F)) adm (pdats m outs) () defs₀ 𝒱₀ L lv 10 where
  win := launch10.win.to₀
  block_pos := launch10.block_pos
  stage_whole := launch10.stage_whole
  K := PEmpty
  osem k := k.elim
  ho := Pipeline.OwnSemFacts.none _
  hbody c := (body_obligation10 (ent10 m outs) c).loose
  hwaits := Pipeline.hwaits_of_owed_zero _ _ _ _ L lv 10 fun _ _ => rfl
  pre c := iprop(StableHlo.held (c : Thread nD τ) (Pipeline.ucRefs τ sig) (V20 m outs c) ∗ R c)
  post c := iprop(StableHlo.held (c : Thread nD τ) (Pipeline.ucRefs τ sig) (V21 m outs c) ∗ R c)
  X c := iprop(∃ r, prngReg c r)
  Y c := iprop(∃ r, prngReg c r)
  Z c := Pipeline.unscopedRest (Ix := Unit) (Name := ℕ) (U := UR sig nD τ) (Lvl := ℕ) spec10 c (ent10 m outs c)
  hentry c := by
    rw [Pipeline.ownSems0_none]
    have hsplit := Pipeline.arrays_of_unscopedBufs (p := 10) (pcfgs (F := F)) adm (pdats m outs) launch10.win launch10.arr_whole c
      ((pdats m outs 10 c).share_full fun _ => rfl) (ent10 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m outs 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m outs) ((pdats m outs 10 c).share_full fun _ => rfl)
      (ent10 m outs c) (ext10 m outs c) ((pdats m outs 10 c).arrAt · cfg10.N) (hF10 m outs h c) (hrest10 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KW.Run.lean ====
/-
  The program's run. Its eleven regions and the stretches of host operations between them are chained from the
  launch memory: every weakly fair execution terminates, faulting nowhere, and in the final memory every unscoped
  buffer holds the last boundary's contents — in particular each argument array what it was launched with and the
  result array what the last region's write-backs leave — PROVIDED `outs` names what each region's write-backs
  leave in its output array.
-/
import proofs.«149571_j25649544692292_2_alg».proof.Proof.KW.Seg0
import proofs.«149571_j25649544692292_2_alg».proof.Proof.KW.Seg1
import proofs.«149571_j25649544692292_2_alg».proof.Proof.KW.Seg2
import proofs.«149571_j25649544692292_2_alg».proof.Proof.KW.Seg3
import proofs.«149571_j25649544692292_2_alg».proof.Proof.KW.Seg4
import proofs.«149571_j25649544692292_2_alg».proof.Proof.KW.Seg5
import proofs.«149571_j25649544692292_2_alg».proof.Proof.KW.Seg6
import proofs.«149571_j25649544692292_2_alg».proof.Proof.KW.Seg7
import proofs.«149571_j25649544692292_2_alg».proof.Proof.KW.Seg8
import proofs.«149571_j25649544692292_2_alg».proof.Proof.KW.Seg9
import proofs.«149571_j25649544692292_2_alg».proof.Proof.KW.Seg10

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg) (outs : Outs (F := F))

/-- The rest that rides beside the buffers between any two items. -/
abbrev E : Fin 12 → Dev nD → sProp 𝕄 := fun _ c => R c

set_option backward.isDefEq.respectTransparency.types false in
theorem run_all (h0 : ∀ c, outs 2 main_v38 c = (dat0 (ent0 m) c).arrAt 4 cfg0.N)
    (h1 : ∀ c, outs 4 main_v50 c = (dat1 (ent1 m outs) c).arrAt 6 cfg1.N)
    (h2 : ∀ c, outs 6 main_v62 c = (dat2 (ent2 m outs) c).arrAt 4 cfg2.N)
    (h3 : ∀ c, outs 8 main_v74 c = (dat3 (ent3 m outs) c).arrAt 6 cfg3.N)
    (h4 : ∀ c, outs 10 main_v86 c = (dat4 (ent4 m outs) c).arrAt 4 cfg4.N)
    (h5 : ∀ c, outs 12 main_v98 c = (dat5 (ent5 m outs) c).arrAt 6 cfg5.N)
    (h6 : ∀ c, outs 14 main_v110 c = (dat6 (ent6 m outs) c).arrAt 4 cfg6.N)
    (h7 : ∀ c, outs 16 main_v122 c = (dat7 (ent7 m outs) c).arrAt 6 cfg7.N)
    (h8 : ∀ c, outs 18 main_v134 c = (dat8 (ent8 m outs) c).arrAt 4 cfg8.N)
    (h9 : ∀ c, outs 20 main_v146 c = (dat9 (ent9 m outs) c).arrAt 6 cfg9.N)
    (h10 : ∀ c, outs 21 main_v147 c = (dat10 (ent10 m outs) c).arrAt 5 cfg10.N) :
    θ_run defs (onTc (τ := τ) (main (F := F))) ⟨m, fun _ => 0, ρ⟩ (fun r => ∀ c : Dev nD,
      ∀ b ∈ Pipeline.ucRefs τ sig, r.2.mem (((c : Thread nD τ)).1, b) = V21 m outs c b) := by
  refine Pipeline.θ_run_regions_kit_dev (pcfgs (F := F)) adm (pdats m outs) () cellOf_inj emb₁ defs₀ 𝒱₀ L lv m ρ main
    (segs m outs 𝒱₀ L lv E () (pdats m outs) (reg0 m outs h0) (reg1 m outs h1) (reg2 m outs h2) (reg3 m outs h3) (reg4 m outs h4) (reg5 m outs h5) (reg6 m outs h6) (reg7 m outs h7) (reg8 m outs h8) (reg9 m outs h9) (reg10 m outs h10))
    (fun c Q => by
      rewrite [main_chain c, Seg.run_eq_chain,
        show (segs m outs 𝒱₀ L lv E () (pdats m outs) (reg0 m outs h0) (reg1 m outs h1) (reg2 m outs h2) (reg3 m outs h3) (reg4 m outs h4) (reg5 m outs h5) (reg6 m outs h6) (reg7 m outs h7) (reg8 m outs h8) (reg9 m outs h9) (reg10 m outs h10) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          Prog.lift (.customCall (Pipeline.entry 10) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V21 m outs c))
    (hch := fun c => ⟨.rfl, .rfl, .rfl, .rfl, .rfl, .rfl, .rfl, .rfl, .rfl, .rfl, .rfl, .rfl, .rfl, .rfl, .rfl, .rfl, .rfl, .rfl, .rfl, .rfl, .rfl,
      (sep_mono .rfl (show R c ⊢ (iprop(∃ W, owes (c : Thread nD τ) (0 : CellTallies nD τ sig Unit) W) : sProp 𝕄) from by
        iintro ⟨-, HO⟩; iexact HO))⟩)
    (hinit := ?_)
    (QY := fun c s => ∀ b ∈ Pipeline.ucRefs τ sig, s.mem (((c : Thread nD τ)).1, b) = V21 m outs c b)
    (hfin := fun c s' => ?_) (hQ := fun _ h => h)
  · -- the launch: the unscoped buffers are held at the launch memory; the register and the empty debt ride
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last boundary's contents
    iintro ⟨Hh, HSI⟩
    unfold StableHlo.held
    imodintro
    iapply (pointsTo_read_all (Pipeline.ucRefs τ sig) (fun b => (((c : Thread nD τ)).1, b)) (V21 m outs c) s')
    isplitl [Hh] <;> iassumption

end Cert.Kernel.Fr

end
-- ==== Proof.KW.Outs.lean ====
/-
  What the regions leave, fixed. The buffer contents at the boundaries are folded from the launch memory: a stretch
  of host operations applies them; a region replaces its output array by what its pipeline's write-backs leave
  there, computed from the contents the region was entered with. With `outs` naming exactly these arrays, the
  boundary contents of the generated fold are this fold's, and the run's hypotheses hold.
-/
import proofs.«149571_j25649544692292_2_alg».proof.Proof.KW.Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s unscoped buffers after the first stretch of host operations. -/
abbrev U1 (c : Dev nD) : Valuation τ sig (Elt F) := V1 m c
/-- What region 0's write-backs leave in its output array. -/
abbrev Ur1 : (c : Dev nD) → (b : Ref sig .tc) → Buf (Elt F) ((c : Thread nD τ).loc b) := fun c b => U1 m c b
def o2 (c : Dev nD) : Buf (Elt F) ((c : Thread nD τ).loc main_v38) := (dat0 (Ur1 m) c).arrAt 4 cfg0.N
/-- … and the buffers after region 0. -/
def U2 (c : Dev nD) : Valuation τ sig (Elt F) := Function.update (U1 m c) main_v38 (o2 m c)
abbrev U3 (c : Dev nD) : Valuation τ sig (Elt F) := StableHlo.after hostOps1 (U2 m c)
/-- What region 1's write-backs leave in its output array. -/
abbrev Ur3 : (c : Dev nD) → (b : Ref sig .tc) → Buf (Elt F) ((c : Thread nD τ).loc b) := fun c b => U3 m c b
def o4 (c : Dev nD) : Buf (Elt F) ((c : Thread nD τ).loc main_v50) := (dat1 (Ur3 m) c).arrAt 6 cfg1.N
/-- … and the buffers after region 1. -/
def U4 (c : Dev nD) : Valuation τ sig (Elt F) := Function.update (U3 m c) main_v50 (o4 m c)
abbrev U5 (c : Dev nD) : Valuation τ sig (Elt F) := StableHlo.after hostOps2 (U4 m c)
/-- What region 2's write-backs leave in its output array. -/
abbrev Ur5 : (c : Dev nD) → (b : Ref sig .tc) → Buf (Elt F) ((c : Thread nD τ).loc b) := fun c b => U5 m c b
def o6 (c : Dev nD) : Buf (Elt F) ((c : Thread nD τ).loc main_v62) := (dat2 (Ur5 m) c).arrAt 4 cfg2.N
/-- … and the buffers after region 2. -/
def U6 (c : Dev nD) : Valuation τ sig (Elt F) := Function.update (U5 m c) main_v62 (o6 m c)
abbrev U7 (c : Dev nD) : Valuation τ sig (Elt F) := StableHlo.after hostOps3 (U6 m c)
/-- What region 3's write-backs leave in its output array. -/
abbrev Ur7 : (c : Dev nD) → (b : Ref sig .tc) → Buf (Elt F) ((c : Thread nD τ).loc b) := fun c b => U7 m c b
def o8 (c : Dev nD) : Buf (Elt F) ((c : Thread nD τ).loc main_v74) := (dat3 (Ur7 m) c).arrAt 6 cfg3.N
/-- … and the buffers after region 3. -/
def U8 (c : Dev nD) : Valuation τ sig (Elt F) := Function.update (U7 m c) main_v74 (o8 m c)
abbrev U9 (c : Dev nD) : Valuation τ sig (Elt F) := StableHlo.after hostOps4 (U8 m c)
/-- What region 4's write-backs leave in its output array. -/
abbrev Ur9 : (c : Dev nD) → (b : Ref sig .tc) → Buf (Elt F) ((c : Thread nD τ).loc b) := fun c b => U9 m c b
def o10 (c : Dev nD) : Buf (Elt F) ((c : Thread nD τ).loc main_v86) := (dat4 (Ur9 m) c).arrAt 4 cfg4.N
/-- … and the buffers after region 4. -/
def U10 (c : Dev nD) : Valuation τ sig (Elt F) := Function.update (U9 m c) main_v86 (o10 m c)
abbrev U11 (c : Dev nD) : Valuation τ sig (Elt F) := StableHlo.after hostOps5 (U10 m c)
/-- What region 5's write-backs leave in its output array. -/
abbrev Ur11 : (c : Dev nD) → (b : Ref sig .tc) → Buf (Elt F) ((c : Thread nD τ).loc b) := fun c b => U11 m c b
def o12 (c : Dev nD) : Buf (Elt F) ((c : Thread nD τ).loc main_v98) := (dat5 (Ur11 m) c).arrAt 6 cfg5.N
/-- … and the buffers after region 5. -/
def U12 (c : Dev nD) : Valuation τ sig (Elt F) := Function.update (U11 m c) main_v98 (o12 m c)
abbrev U13 (c : Dev nD) : Valuation τ sig (Elt F) := StableHlo.after hostOps6 (U12 m c)
/-- What region 6's write-backs leave in its output array. -/
abbrev Ur13 : (c : Dev nD) → (b : Ref sig .tc) → Buf (Elt F) ((c : Thread nD τ).loc b) := fun c b => U13 m c b
def o14 (c : Dev nD) : Buf (Elt F) ((c : Thread nD τ).loc main_v110) := (dat6 (Ur13 m) c).arrAt 4 cfg6.N
/-- … and the buffers after region 6. -/
def U14 (c : Dev nD) : Valuation τ sig (Elt F) := Function.update (U13 m c) main_v110 (o14 m c)
abbrev U15 (c : Dev nD) : Valuation τ sig (Elt F) := StableHlo.after hostOps7 (U14 m c)
/-- What region 7's write-backs leave in its output array. -/
abbrev Ur15 : (c : Dev nD) → (b : Ref sig .tc) → Buf (Elt F) ((c : Thread nD τ).loc b) := fun c b => U15 m c b
def o16 (c : Dev nD) : Buf (Elt F) ((c : Thread nD τ).loc main_v122) := (dat7 (Ur15 m) c).arrAt 6 cfg7.N
/-- … and the buffers after region 7. -/
def U16 (c : Dev nD) : Valuation τ sig (Elt F) := Function.update (U15 m c) main_v122 (o16 m c)
abbrev U17 (c : Dev nD) : Valuation τ sig (Elt F) := StableHlo.after hostOps8 (U16 m c)
/-- What region 8's write-backs leave in its output array. -/
abbrev Ur17 : (c : Dev nD) → (b : Ref sig .tc) → Buf (Elt F) ((c : Thread nD τ).loc b) := fun c b => U17 m c b
def o18 (c : Dev nD) : Buf (Elt F) ((c : Thread nD τ).loc main_v134) := (dat8 (Ur17 m) c).arrAt 4 cfg8.N
/-- … and the buffers after region 8. -/
def U18 (c : Dev nD) : Valuation τ sig (Elt F) := Function.update (U17 m c) main_v134 (o18 m c)
abbrev U19 (c : Dev nD) : Valuation τ sig (Elt F) := StableHlo.after hostOps9 (U18 m c)
/-- What region 9's write-backs leave in its output array. -/
abbrev Ur19 : (c : Dev nD) → (b : Ref sig .tc) → Buf (Elt F) ((c : Thread nD τ).loc b) := fun c b => U19 m c b
def o20 (c : Dev nD) : Buf (Elt F) ((c : Thread nD τ).loc main_v146) := (dat9 (Ur19 m) c).arrAt 6 cfg9.N
/-- … and the buffers after region 9. -/
def U20 (c : Dev nD) : Valuation τ sig (Elt F) := Function.update (U19 m c) main_v146 (o20 m c)
/-- What region 10's write-backs leave in its output array. -/
abbrev Ur20 : (c : Dev nD) → (b : Ref sig .tc) → Buf (Elt F) ((c : Thread nD τ).loc b) := fun c b => U20 m c b
def o21 (c : Dev nD) : Buf (Elt F) ((c : Thread nD τ).loc main_v147) := (dat10 (Ur20 m) c).arrAt 5 cfg10.N
/-- … and the buffers after region 10. -/
def U21 (c : Dev nD) : Valuation τ sig (Elt F) := Function.update (U20 m c) main_v147 (o21 m c)

/-- The regions' outputs by name: after item J−1 the buffer `r` holds what this fold holds there. -/
def outsF : Outs (F := F) := fun J r c =>
  match J with
  | 2 => U2 m c r
  | 4 => U4 m c r
  | 6 => U6 m c r
  | 8 => U8 m c r
  | 10 => U10 m c r
  | 12 => U12 m c r
  | 14 => U14 m c r
  | 16 => U16 m c r
  | 18 => U18 m c r
  | 20 => U20 m c r
  | 21 => U21 m c r
  | _ => U1 m c r

theorem V2_eq (c : Dev nD) : V2 m (outsF m) c = U2 m c := by
  show Function.update (V1 m c) main_v38 (Function.update (U1 m c) main_v38 (o2 m c) main_v38) = Function.update (U1 m c) main_v38 (o2 m c)
  rw [Function.update_self]
theorem V3_eq (c : Dev nD) : V3 m (outsF m) c = U3 m c :=
  congrArg (StableHlo.after hostOps1) (V2_eq m c)
theorem V4_eq (c : Dev nD) : V4 m (outsF m) c = U4 m c := by
  show Function.update (V3 m (outsF m) c) main_v50 (Function.update (U3 m c) main_v50 (o4 m c) main_v50) = Function.update (U3 m c) main_v50 (o4 m c)
  rw [Function.update_self, V3_eq m c]
theorem V5_eq (c : Dev nD) : V5 m (outsF m) c = U5 m c :=
  congrArg (StableHlo.after hostOps2) (V4_eq m c)
theorem V6_eq (c : Dev nD) : V6 m (outsF m) c = U6 m c := by
  show Function.update (V5 m (outsF m) c) main_v62 (Function.update (U5 m c) main_v62 (o6 m c) main_v62) = Function.update (U5 m c) main_v62 (o6 m c)
  rw [Function.update_self, V5_eq m c]
theorem V7_eq (c : Dev nD) : V7 m (outsF m) c = U7 m c :=
  congrArg (StableHlo.after hostOps3) (V6_eq m c)
theorem V8_eq (c : Dev nD) : V8 m (outsF m) c = U8 m c := by
  show Function.update (V7 m (outsF m) c) main_v74 (Function.update (U7 m c) main_v74 (o8 m c) main_v74) = Function.update (U7 m c) main_v74 (o8 m c)
  rw [Function.update_self, V7_eq m c]
theorem V9_eq (c : Dev nD) : V9 m (outsF m) c = U9 m c :=
  congrArg (StableHlo.after hostOps4) (V8_eq m c)
theorem V10_eq (c : Dev nD) : V10 m (outsF m) c = U10 m c := by
  show Function.update (V9 m (outsF m) c) main_v86 (Function.update (U9 m c) main_v86 (o10 m c) main_v86) = Function.update (U9 m c) main_v86 (o10 m c)
  rw [Function.update_self, V9_eq m c]
theorem V11_eq (c : Dev nD) : V11 m (outsF m) c = U11 m c :=
  congrArg (StableHlo.after hostOps5) (V10_eq m c)
theorem V12_eq (c : Dev nD) : V12 m (outsF m) c = U12 m c := by
  show Function.update (V11 m (outsF m) c) main_v98 (Function.update (U11 m c) main_v98 (o12 m c) main_v98) = Function.update (U11 m c) main_v98 (o12 m c)
  rw [Function.update_self, V11_eq m c]
theorem V13_eq (c : Dev nD) : V13 m (outsF m) c = U13 m c :=
  congrArg (StableHlo.after hostOps6) (V12_eq m c)
theorem V14_eq (c : Dev nD) : V14 m (outsF m) c = U14 m c := by
  show Function.update (V13 m (outsF m) c) main_v110 (Function.update (U13 m c) main_v110 (o14 m c) main_v110) = Function.update (U13 m c) main_v110 (o14 m c)
  rw [Function.update_self, V13_eq m c]
theorem V15_eq (c : Dev nD) : V15 m (outsF m) c = U15 m c :=
  congrArg (StableHlo.after hostOps7) (V14_eq m c)
theorem V16_eq (c : Dev nD) : V16 m (outsF m) c = U16 m c := by
  show Function.update (V15 m (outsF m) c) main_v122 (Function.update (U15 m c) main_v122 (o16 m c) main_v122) = Function.update (U15 m c) main_v122 (o16 m c)
  rw [Function.update_self, V15_eq m c]
theorem V17_eq (c : Dev nD) : V17 m (outsF m) c = U17 m c :=
  congrArg (StableHlo.after hostOps8) (V16_eq m c)
theorem V18_eq (c : Dev nD) : V18 m (outsF m) c = U18 m c := by
  show Function.update (V17 m (outsF m) c) main_v134 (Function.update (U17 m c) main_v134 (o18 m c) main_v134) = Function.update (U17 m c) main_v134 (o18 m c)
  rw [Function.update_self, V17_eq m c]
theorem V19_eq (c : Dev nD) : V19 m (outsF m) c = U19 m c :=
  congrArg (StableHlo.after hostOps9) (V18_eq m c)
theorem V20_eq (c : Dev nD) : V20 m (outsF m) c = U20 m c := by
  show Function.update (V19 m (outsF m) c) main_v146 (Function.update (U19 m c) main_v146 (o20 m c) main_v146) = Function.update (U19 m c) main_v146 (o20 m c)
  rw [Function.update_self, V19_eq m c]
theorem V21_eq (c : Dev nD) : V21 m (outsF m) c = U21 m c := by
  show Function.update (V20 m (outsF m) c) main_v147 (Function.update (U20 m c) main_v147 (o21 m c) main_v147) = Function.update (U20 m c) main_v147 (o21 m c)
  rw [Function.update_self, V20_eq m c]

theorem ent0_eq : ent0 m = Ur1 m := rfl
theorem hyp0 : ∀ c, outsF m 2 main_v38 c = (dat0 (ent0 m) c).arrAt 4 cfg0.N := fun c => by
  rw [ent0_eq]
  show Function.update (U1 m c) main_v38 (o2 m c) main_v38 = _
  rw [Function.update_self]; rfl
theorem ent1_eq : ent1 m (outsF m) = Ur3 m := funext fun c => funext fun b => congrFun (V3_eq m c) b
theorem hyp1 : ∀ c, outsF m 4 main_v50 c = (dat1 (ent1 m (outsF m)) c).arrAt 6 cfg1.N := fun c => by
  rw [ent1_eq]
  show Function.update (U3 m c) main_v50 (o4 m c) main_v50 = _
  rw [Function.update_self]; rfl
theorem ent2_eq : ent2 m (outsF m) = Ur5 m := funext fun c => funext fun b => congrFun (V5_eq m c) b
theorem hyp2 : ∀ c, outsF m 6 main_v62 c = (dat2 (ent2 m (outsF m)) c).arrAt 4 cfg2.N := fun c => by
  rw [ent2_eq]
  show Function.update (U5 m c) main_v62 (o6 m c) main_v62 = _
  rw [Function.update_self]; rfl
theorem ent3_eq : ent3 m (outsF m) = Ur7 m := funext fun c => funext fun b => congrFun (V7_eq m c) b
theorem hyp3 : ∀ c, outsF m 8 main_v74 c = (dat3 (ent3 m (outsF m)) c).arrAt 6 cfg3.N := fun c => by
  rw [ent3_eq]
  show Function.update (U7 m c) main_v74 (o8 m c) main_v74 = _
  rw [Function.update_self]; rfl
theorem ent4_eq : ent4 m (outsF m) = Ur9 m := funext fun c => funext fun b => congrFun (V9_eq m c) b
theorem hyp4 : ∀ c, outsF m 10 main_v86 c = (dat4 (ent4 m (outsF m)) c).arrAt 4 cfg4.N := fun c => by
  rw [ent4_eq]
  show Function.update (U9 m c) main_v86 (o10 m c) main_v86 = _
  rw [Function.update_self]; rfl
theorem ent5_eq : ent5 m (outsF m) = Ur11 m := funext fun c => funext fun b => congrFun (V11_eq m c) b
theorem hyp5 : ∀ c, outsF m 12 main_v98 c = (dat5 (ent5 m (outsF m)) c).arrAt 6 cfg5.N := fun c => by
  rw [ent5_eq]
  show Function.update (U11 m c) main_v98 (o12 m c) main_v98 = _
  rw [Function.update_self]; rfl
theorem ent6_eq : ent6 m (outsF m) = Ur13 m := funext fun c => funext fun b => congrFun (V13_eq m c) b
theorem hyp6 : ∀ c, outsF m 14 main_v110 c = (dat6 (ent6 m (outsF m)) c).arrAt 4 cfg6.N := fun c => by
  rw [ent6_eq]
  show Function.update (U13 m c) main_v110 (o14 m c) main_v110 = _
  rw [Function.update_self]; rfl
theorem ent7_eq : ent7 m (outsF m) = Ur15 m := funext fun c => funext fun b => congrFun (V15_eq m c) b
theorem hyp7 : ∀ c, outsF m 16 main_v122 c = (dat7 (ent7 m (outsF m)) c).arrAt 6 cfg7.N := fun c => by
  rw [ent7_eq]
  show Function.update (U15 m c) main_v122 (o16 m c) main_v122 = _
  rw [Function.update_self]; rfl
theorem ent8_eq : ent8 m (outsF m) = Ur17 m := funext fun c => funext fun b => congrFun (V17_eq m c) b
theorem hyp8 : ∀ c, outsF m 18 main_v134 c = (dat8 (ent8 m (outsF m)) c).arrAt 4 cfg8.N := fun c => by
  rw [ent8_eq]
  show Function.update (U17 m c) main_v134 (o18 m c) main_v134 = _
  rw [Function.update_self]; rfl
theorem ent9_eq : ent9 m (outsF m) = Ur19 m := funext fun c => funext fun b => congrFun (V19_eq m c) b
theorem hyp9 : ∀ c, outsF m 20 main_v146 c = (dat9 (ent9 m (outsF m)) c).arrAt 6 cfg9.N := fun c => by
  rw [ent9_eq]
  show Function.update (U19 m c) main_v146 (o20 m c) main_v146 = _
  rw [Function.update_self]; rfl
theorem ent10_eq : ent10 m (outsF m) = Ur20 m := funext fun c => funext fun b => congrFun (V20_eq m c) b
theorem hyp10 : ∀ c, outsF m 21 main_v147 c = (dat10 (ent10 m (outsF m)) c).arrAt 5 cfg10.N := fun c => by
  rw [ent10_eq]
  show Function.update (U20 m c) main_v147 (o21 m c) main_v147 = _
  rw [Function.update_self]; rfl

theorem outs_at2 (c : Dev nD) : outsF m 2 main_v38 c = o2 m c := by
  show Function.update (U1 m c) main_v38 (o2 m c) main_v38 = _
  rw [Function.update_self]
theorem outs_at4 (c : Dev nD) : outsF m 4 main_v50 c = o4 m c := by
  show Function.update (U3 m c) main_v50 (o4 m c) main_v50 = _
  rw [Function.update_self]
theorem outs_at6 (c : Dev nD) : outsF m 6 main_v62 c = o6 m c := by
  show Function.update (U5 m c) main_v62 (o6 m c) main_v62 = _
  rw [Function.update_self]
theorem outs_at8 (c : Dev nD) : outsF m 8 main_v74 c = o8 m c := by
  show Function.update (U7 m c) main_v74 (o8 m c) main_v74 = _
  rw [Function.update_self]
theorem outs_at10 (c : Dev nD) : outsF m 10 main_v86 c = o10 m c := by
  show Function.update (U9 m c) main_v86 (o10 m c) main_v86 = _
  rw [Function.update_self]
theorem outs_at12 (c : Dev nD) : outsF m 12 main_v98 c = o12 m c := by
  show Function.update (U11 m c) main_v98 (o12 m c) main_v98 = _
  rw [Function.update_self]
theorem outs_at14 (c : Dev nD) : outsF m 14 main_v110 c = o14 m c := by
  show Function.update (U13 m c) main_v110 (o14 m c) main_v110 = _
  rw [Function.update_self]
theorem outs_at16 (c : Dev nD) : outsF m 16 main_v122 c = o16 m c := by
  show Function.update (U15 m c) main_v122 (o16 m c) main_v122 = _
  rw [Function.update_self]
theorem outs_at18 (c : Dev nD) : outsF m 18 main_v134 c = o18 m c := by
  show Function.update (U17 m c) main_v134 (o18 m c) main_v134 = _
  rw [Function.update_self]
theorem outs_at20 (c : Dev nD) : outsF m 20 main_v146 c = o20 m c := by
  show Function.update (U19 m c) main_v146 (o20 m c) main_v146 = _
  rw [Function.update_self]
theorem outs_at21 (c : Dev nD) : outsF m 21 main_v147 c = o21 m c := by
  show Function.update (U20 m c) main_v147 (o21 m c) main_v147 = _
  rw [Function.update_self]

/-- The program's run: every unscoped buffer ends at this fold's last contents. -/
theorem run_fold (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = U21 m c b) :=
  (θ_run defs _ _).mono (fun _ h c b hb => (h c b hb).trans (congrFun (V21_eq m c) b))
    (run_all m ρ (outsF m) (hyp0 m) (hyp1 m) (hyp2 m) (hyp3 m) (hyp4 m) (hyp5 m) (hyp6 m) (hyp7 m) (hyp8 m) (hyp9 m) (hyp10 m))

/-- An unscoped TensorCore reference is among those the run holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program runs to the end and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c _ (mem_uc main_arg0 (by decide))).trans (V21_main_arg0 m (outsF m) c),
      (h c _ (mem_uc main_arg1 (by decide))).trans (V21_main_arg1 m (outsF m) c),
      (h c _ (mem_uc main_arg2 (by decide))).trans (V21_main_arg2 m (outsF m) c),
      (h c _ (mem_uc main_arg3 (by decide))).trans (V21_main_arg3 m (outsF m) c),
      (h c _ (mem_uc main_arg4 (by decide))).trans (V21_main_arg4 m (outsF m) c),
      (h c _ (mem_uc main_arg5 (by decide))).trans (V21_main_arg5 m (outsF m) c),
      (h c _ (mem_uc main_arg6 (by decide))).trans (V21_main_arg6 m (outsF m) c),
      (h c _ (mem_uc main_arg7 (by decide))).trans (V21_main_arg7 m (outsF m) c),
      (h c _ (mem_uc main_arg8 (by decide))).trans (V21_main_arg8 m (outsF m) c),
      (h c _ (mem_uc main_arg9 (by decide))).trans (V21_main_arg9 m (outsF m) c),
      (h c _ (mem_uc main_arg10 (by decide))).trans (V21_main_arg10 m (outsF m) c),
      (h c _ (mem_uc main_arg11 (by decide))).trans (V21_main_arg11 m (outsF m) c),
      (h c _ (mem_uc main_arg12 (by decide))).trans (V21_main_arg12 m (outsF m) c),
      (h c _ (mem_uc main_arg13 (by decide))).trans (V21_main_arg13 m (outsF m) c)⟩)
    (run_all m ρ (outsF m) (hyp0 m) (hyp1 m) (hyp2 m) (hyp3 m) (hyp4 m) (hyp5 m) (hyp6 m) (hyp7 m) (hyp8 m) (hyp9 m) (hyp10 m))

end Cert.Kernel.Fr

end
-- ==== Proof.KI.R0.lean ====
/-
  Pipeline 0 of the program (edge kernel), at the buffer contents `V` its region is entered with: what each
  window's block holds at a grid point, what the body leaves in its output block as a function of the input
  blocks (its one store's value, the stored rectangle covering the block), the body's run on whole staging
  buffers, and the pipeline's proof data with the body obligation at every grid point.
-/
import proofs.«149571_j25649544692292_2_alg».proof.Proof.Gen.KernelIdeal.Launch
import proofs.«149571_j25649544692292_2_alg».proof.Proof.Gen.KernelIdeal.Skeleton
import proofs.«149571_j25649544692292_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the point fetched it or kept it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the point fetched it or kept it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the point fetched it or kept it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether the point fetched it or kept it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S8000x64 := (Rect.unit (s := S8000x64) ![0, 0] S8000x64.size inb_S8000x64_S8000x64_0_0)
abbrev r0_1 : Rect S8000x3 := (Rect.unit (s := S8000x3) ![0, 0] S8000x3.size inb_S8000x3_S8000x3_0_0)
abbrev r0_2 : Rect S64x64 := (Rect.unit (s := S64x64) ![0, 0] S64x64.size inb_S64x64_S64x64_0_0)
abbrev r0_3 : Rect S64x3 := (Rect.unit (s := S64x3) ![0, 0] S64x3.size inb_S64x3_S64x3_0_0)
abbrev r0_o : Rect S8000x64 := (Rect.unit (s := S8000x64) ![0, 0] S8000x64.size inb_S8000x64_S8000x64_0_0)

/-- The output block after the body, from the input blocks: the one store's value over the whole block. -/
def out0_4 (x0 : Vec F S8000x64 .bf16) (x1 : Vec F S8000x3 .f32) (x2 : Vec F S64x64 .f32) (x3 : Vec F S64x3 .f32) : Vec F S8000x64 .bf16 :=
  View.canon [⟨r0_o, k0_pay1 (View.ld x0 r0_0) (View.ld x1 r0_1) (View.ld x2 r0_2) (View.ld x3 r0_3)⟩]

/-- The store's rectangle is the whole block. -/
theorem cover0_4 (p0 : Vec F S8000x64 .bf16) (y : S8000x64.Idx) :
    ∃ pc ∈ ([⟨r0_o, p0⟩] : List (View.Piece (Elt F) S8000x64 .bf16)), y ∈ pc.1.set :=
  View.cover_of_tiled [⟨r0_o, p0⟩] S8000x64.size (by rfl) y

set_option maxHeartbeats 4000000 in
/-- The body on whole staging buffers: the inputs come back as they were, the output holds `out0_4` of them. -/
theorem sound_kernel0 (c : Dev nD) (E : Set ℕ) (i : grid0.Coords) (arg0 : Memref sig .tc .vmem S8000x64 .bf16) (harg0 : arg0.IsWhole) (arg1 : Memref sig .tc .vmem S8000x3 .f32) (harg1 : arg1.IsWhole) (arg2 : Memref sig .tc .vmem S64x64 .f32) (harg2 : arg2.IsWhole) (arg3 : Memref sig .tc .vmem S64x3 .f32) (harg3 : arg3.IsWhole) (arg4 : Memref sig .tc .vmem S8000x64 .bf16) (harg4 : arg4.IsWhole)
    (x0 : Vec F S8000x64 .bf16) (x1 : Vec F S8000x3 .f32) (x2 : Vec F S64x64 .f32) (x3 : Vec F S64x3 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out0_4 x0 x1 x2 x3)) -∗ K ⟨⟩))
      ⊢ wp frame (wpE (defs₀ (F := F)) Variants.none c none) E (cc0__edge_kernel i arg0 harg0 arg1 harg1 arg2 harg2 arg3 harg3 arg4 harg4) K := by
  simp only [cc0__edge_kernel_eq_skeleton]; unfold cc0__edge_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The proof data of pipeline 0: arrays as the region finds them; after the body each input buffer at its block and
    the output buffer at `out0_4` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.R1.lean ====
/-
  Pipeline 1 of the program (node kernel), at the buffer contents `V` its region is entered with: what each
  window's block holds at a grid point, what the body leaves in its output block as a function of the input
  blocks (its one store's value, the stored rectangle covering the block), the body's run on whole staging
  buffers, and the pipeline's proof data with the body obligation at every grid point.
-/
import proofs.«149571_j25649544692292_2_alg».proof.Proof.Gen.KernelIdeal.Launch
import proofs.«149571_j25649544692292_2_alg».proof.Proof.Gen.KernelIdeal.Skeleton
import proofs.«149571_j25649544692292_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetched it or kept it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the point fetched it or kept it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the point fetched it or kept it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether the point fetched it or kept it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether the point fetched it or kept it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, whether the point fetched it or kept it. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S5000x64 := (Rect.unit (s := S5000x64) ![0, 0] S5000x64.size inb_S5000x64_S5000x64_0_0)
abbrev r1_1 : Rect S5000x64 := (Rect.unit (s := S5000x64) ![0, 0] S5000x64.size inb_S5000x64_S5000x64_0_0)
abbrev r1_2 : Rect S5000x1 := (Rect.unit (s := S5000x1) ![0, 0] S5000x1.size inb_S5000x1_S5000x1_0_0)
abbrev r1_3 : Rect S64x64 := (Rect.unit (s := S64x64) ![0, 0] S64x64.size inb_S64x64_S64x64_0_0)
abbrev r1_4 : Rect S64x64 := (Rect.unit (s := S64x64) ![0, 0] S64x64.size inb_S64x64_S64x64_0_0)
abbrev r1_5 : Rect S1x64 := (Rect.unit (s := S1x64) ![0, 0] S1x64.size inb_S1x64_S1x64_0_0)
abbrev r1_o : Rect S5000x64 := (Rect.unit (s := S5000x64) ![0, 0] S5000x64.size inb_S5000x64_S5000x64_0_0)

/-- The output block after the body, from the input blocks: the one store's value over the whole block. -/
def out1_6 (x0 : Vec F S5000x64 .bf16) (x1 : Vec F S5000x64 .f32) (x2 : Vec F S5000x1 .f32) (x3 : Vec F S64x64 .f32) (x4 : Vec F S64x64 .f32) (x5 : Vec F S1x64 .f32) : Vec F S5000x64 .bf16 :=
  View.canon [⟨r1_o, k1_pay1 (View.ld x0 r1_0) (View.ld x1 r1_1) (View.ld x2 r1_2) (View.ld x3 r1_3) (View.ld x4 r1_4) (View.ld x5 r1_5)⟩]

/-- The store's rectangle is the whole block. -/
theorem cover1_6 (p0 : Vec F S5000x64 .bf16) (y : S5000x64.Idx) :
    ∃ pc ∈ ([⟨r1_o, p0⟩] : List (View.Piece (Elt F) S5000x64 .bf16)), y ∈ pc.1.set :=
  View.cover_of_tiled [⟨r1_o, p0⟩] S5000x64.size (by rfl) y

set_option maxHeartbeats 4000000 in
/-- The body on whole staging buffers: the inputs come back as they were, the output holds `out1_6` of them. -/
theorem sound_kernel1 (c : Dev nD) (E : Set ℕ) (i : grid1.Coords) (arg0 : Memref sig .tc .vmem S5000x64 .bf16) (harg0 : arg0.IsWhole) (arg1 : Memref sig .tc .vmem S5000x64 .f32) (harg1 : arg1.IsWhole) (arg2 : Memref sig .tc .vmem S5000x1 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .bf16) (harg6 : arg6.IsWhole)
    (x0 : Vec F S5000x64 .bf16) (x1 : Vec F S5000x64 .f32) (x2 : Vec F S5000x1 .f32) (x3 : Vec F S64x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out1_6 x0 x1 x2 x3 x4 x5)) -∗ K ⟨⟩))
      ⊢ wp frame (wpE (defs₀ (F := F)) Variants.none c none) E (cc1__node_kernel i arg0 harg0 arg1 harg1 arg2 harg2 arg3 harg3 arg4 harg4 arg5 harg5 arg6 harg6) K := by
  simp only [cc1__node_kernel_eq_skeleton]; unfold cc1__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of pipeline 1: arrays as the region finds them; after the body each input buffer at its block and
    the output buffer at `out1_6` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.R2.lean ====
/-
  Pipeline 2 of the program (edge kernel), at the buffer contents `V` its region is entered with: what each
  window's block holds at a grid point, what the body leaves in its output block as a function of the input
  blocks (its one store's value, the stored rectangle covering the block), the body's run on whole staging
  buffers, and the pipeline's proof data with the body obligation at every grid point.
-/
import proofs.«149571_j25649544692292_2_alg».proof.Proof.Gen.KernelIdeal.Launch
import proofs.«149571_j25649544692292_2_alg».proof.Proof.Gen.KernelIdeal.Skeleton
import proofs.«149571_j25649544692292_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the point fetched it or kept it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the point fetched it or kept it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether the point fetched it or kept it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, whether the point fetched it or kept it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S8000x64 := (Rect.unit (s := S8000x64) ![0, 0] S8000x64.size inb_S8000x64_S8000x64_0_0)
abbrev r2_1 : Rect S8000x3 := (Rect.unit (s := S8000x3) ![0, 0] S8000x3.size inb_S8000x3_S8000x3_0_0)
abbrev r2_2 : Rect S64x64 := (Rect.unit (s := S64x64) ![0, 0] S64x64.size inb_S64x64_S64x64_0_0)
abbrev r2_3 : Rect S64x3 := (Rect.unit (s := S64x3) ![0, 0] S64x3.size inb_S64x3_S64x3_0_0)
abbrev r2_o : Rect S8000x64 := (Rect.unit (s := S8000x64) ![0, 0] S8000x64.size inb_S8000x64_S8000x64_0_0)

/-- The output block after the body, from the input blocks: the one store's value over the whole block. -/
def out2_4 (x0 : Vec F S8000x64 .bf16) (x1 : Vec F S8000x3 .f32) (x2 : Vec F S64x64 .f32) (x3 : Vec F S64x3 .f32) : Vec F S8000x64 .bf16 :=
  View.canon [⟨r2_o, k2_pay1 (View.ld x0 r2_0) (View.ld x1 r2_1) (View.ld x2 r2_2) (View.ld x3 r2_3)⟩]

/-- The store's rectangle is the whole block. -/
theorem cover2_4 (p0 : Vec F S8000x64 .bf16) (y : S8000x64.Idx) :
    ∃ pc ∈ ([⟨r2_o, p0⟩] : List (View.Piece (Elt F) S8000x64 .bf16)), y ∈ pc.1.set :=
  View.cover_of_tiled [⟨r2_o, p0⟩] S8000x64.size (by rfl) y

set_option maxHeartbeats 4000000 in
/-- The body on whole staging buffers: the inputs come back as they were, the output holds `out2_4` of them. -/
theorem sound_kernel2 (c : Dev nD) (E : Set ℕ) (i : grid2.Coords) (arg0 : Memref sig .tc .vmem S8000x64 .bf16) (harg0 : arg0.IsWhole) (arg1 : Memref sig .tc .vmem S8000x3 .f32) (harg1 : arg1.IsWhole) (arg2 : Memref sig .tc .vmem S64x64 .f32) (harg2 : arg2.IsWhole) (arg3 : Memref sig .tc .vmem S64x3 .f32) (harg3 : arg3.IsWhole) (arg4 : Memref sig .tc .vmem S8000x64 .bf16) (harg4 : arg4.IsWhole)
    (x0 : Vec F S8000x64 .bf16) (x1 : Vec F S8000x3 .f32) (x2 : Vec F S64x64 .f32) (x3 : Vec F S64x3 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out2_4 x0 x1 x2 x3)) -∗ K ⟨⟩))
      ⊢ wp frame (wpE (defs₀ (F := F)) Variants.none c none) E (cc2__edge_kernel i arg0 harg0 arg1 harg1 arg2 harg2 arg3 harg3 arg4 harg4) K := by
  simp only [cc2__edge_kernel_eq_skeleton]; unfold cc2__edge_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of pipeline 2: arrays as the region finds them; after the body each input buffer at its block and
    the output buffer at `out2_4` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.R3.lean ====
/-
  Pipeline 3 of the program (node kernel), at the buffer contents `V` its region is entered with: what each
  window's block holds at a grid point, what the body leaves in its output block as a function of the input
  blocks (its one store's value, the stored rectangle covering the block), the body's run on whole staging
  buffers, and the pipeline's proof data with the body obligation at every grid point.
-/
import proofs.«149571_j25649544692292_2_alg».proof.Proof.Gen.KernelIdeal.Launch
import proofs.«149571_j25649544692292_2_alg».proof.Proof.Gen.KernelIdeal.Skeleton
import proofs.«149571_j25649544692292_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether the point fetched it or kept it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether the point fetched it or kept it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether the point fetched it or kept it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, whether the point fetched it or kept it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, whether the point fetched it or kept it. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at every point, whether the point fetched it or kept it. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S5000x64 := (Rect.unit (s := S5000x64) ![0, 0] S5000x64.size inb_S5000x64_S5000x64_0_0)
abbrev r3_1 : Rect S5000x64 := (Rect.unit (s := S5000x64) ![0, 0] S5000x64.size inb_S5000x64_S5000x64_0_0)
abbrev r3_2 : Rect S5000x1 := (Rect.unit (s := S5000x1) ![0, 0] S5000x1.size inb_S5000x1_S5000x1_0_0)
abbrev r3_3 : Rect S64x64 := (Rect.unit (s := S64x64) ![0, 0] S64x64.size inb_S64x64_S64x64_0_0)
abbrev r3_4 : Rect S64x64 := (Rect.unit (s := S64x64) ![0, 0] S64x64.size inb_S64x64_S64x64_0_0)
abbrev r3_5 : Rect S1x64 := (Rect.unit (s := S1x64) ![0, 0] S1x64.size inb_S1x64_S1x64_0_0)
abbrev r3_o : Rect S5000x64 := (Rect.unit (s := S5000x64) ![0, 0] S5000x64.size inb_S5000x64_S5000x64_0_0)

/-- The output block after the body, from the input blocks: the one store's value over the whole block. -/
def out3_6 (x0 : Vec F S5000x64 .bf16) (x1 : Vec F S5000x64 .f32) (x2 : Vec F S5000x1 .f32) (x3 : Vec F S64x64 .f32) (x4 : Vec F S64x64 .f32) (x5 : Vec F S1x64 .f32) : Vec F S5000x64 .bf16 :=
  View.canon [⟨r3_o, k3_pay1 (View.ld x0 r3_0) (View.ld x1 r3_1) (View.ld x2 r3_2) (View.ld x3 r3_3) (View.ld x4 r3_4) (View.ld x5 r3_5)⟩]

/-- The store's rectangle is the whole block. -/
theorem cover3_6 (p0 : Vec F S5000x64 .bf16) (y : S5000x64.Idx) :
    ∃ pc ∈ ([⟨r3_o, p0⟩] : List (View.Piece (Elt F) S5000x64 .bf16)), y ∈ pc.1.set :=
  View.cover_of_tiled [⟨r3_o, p0⟩] S5000x64.size (by rfl) y

set_option maxHeartbeats 4000000 in
/-- The body on whole staging buffers: the inputs come back as they were, the output holds `out3_6` of them. -/
theorem sound_kernel3 (c : Dev nD) (E : Set ℕ) (i : grid3.Coords) (arg0 : Memref sig .tc .vmem S5000x64 .bf16) (harg0 : arg0.IsWhole) (arg1 : Memref sig .tc .vmem S5000x64 .f32) (harg1 : arg1.IsWhole) (arg2 : Memref sig .tc .vmem S5000x1 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .bf16) (harg6 : arg6.IsWhole)
    (x0 : Vec F S5000x64 .bf16) (x1 : Vec F S5000x64 .f32) (x2 : Vec F S5000x1 .f32) (x3 : Vec F S64x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out3_6 x0 x1 x2 x3 x4 x5)) -∗ K ⟨⟩))
      ⊢ wp frame (wpE (defs₀ (F := F)) Variants.none c none) E (cc3__node_kernel i arg0 harg0 arg1 harg1 arg2 harg2 arg3 harg3 arg4 harg4 arg5 harg5 arg6 harg6) K := by
  simp only [cc3__node_kernel_eq_skeleton]; unfold cc3__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-- The proof data of pipeline 3: arrays as the region finds them; after the body each input buffer at its block and
    the output buffer at `out3_6` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every grid point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.R4.lean ====
/-
  Pipeline 4 of the program (edge kernel), at the buffer contents `V` its region is entered with: what each
  window's block holds at a grid point, what the body leaves in its output block as a function of the input
  blocks (its one store's value, the stored rectangle covering the block), the body's run on whole staging
  buffers, and the pipeline's proof data with the body obligation at every grid point.
-/
import proofs.«149571_j25649544692292_2_alg».proof.Proof.Gen.KernelIdeal.Launch
import proofs.«149571_j25649544692292_2_alg».proof.Proof.Gen.KernelIdeal.Skeleton
import proofs.«149571_j25649544692292_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, whether the point fetched it or kept it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, whether the point fetched it or kept it. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, whether the point fetched it or kept it. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, whether the point fetched it or kept it. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S8000x64 := (Rect.unit (s := S8000x64) ![0, 0] S8000x64.size inb_S8000x64_S8000x64_0_0)
abbrev r4_1 : Rect S8000x3 := (Rect.unit (s := S8000x3) ![0, 0] S8000x3.size inb_S8000x3_S8000x3_0_0)
abbrev r4_2 : Rect S64x64 := (Rect.unit (s := S64x64) ![0, 0] S64x64.size inb_S64x64_S64x64_0_0)
abbrev r4_3 : Rect S64x3 := (Rect.unit (s := S64x3) ![0, 0] S64x3.size inb_S64x3_S64x3_0_0)
abbrev r4_o : Rect S8000x64 := (Rect.unit (s := S8000x64) ![0, 0] S8000x64.size inb_S8000x64_S8000x64_0_0)

/-- The output block after the body, from the input blocks: the one store's value over the whole block. -/
def out4_4 (x0 : Vec F S8000x64 .bf16) (x1 : Vec F S8000x3 .f32) (x2 : Vec F S64x64 .f32) (x3 : Vec F S64x3 .f32) : Vec F S8000x64 .bf16 :=
  View.canon [⟨r4_o, k4_pay1 (View.ld x0 r4_0) (View.ld x1 r4_1) (View.ld x2 r4_2) (View.ld x3 r4_3)⟩]

/-- The store's rectangle is the whole block. -/
theorem cover4_4 (p0 : Vec F S8000x64 .bf16) (y : S8000x64.Idx) :
    ∃ pc ∈ ([⟨r4_o, p0⟩] : List (View.Piece (Elt F) S8000x64 .bf16)), y ∈ pc.1.set :=
  View.cover_of_tiled [⟨r4_o, p0⟩] S8000x64.size (by rfl) y

set_option maxHeartbeats 4000000 in
/-- The body on whole staging buffers: the inputs come back as they were, the output holds `out4_4` of them. -/
theorem sound_kernel4 (c : Dev nD) (E : Set ℕ) (i : grid4.Coords) (arg0 : Memref sig .tc .vmem S8000x64 .bf16) (harg0 : arg0.IsWhole) (arg1 : Memref sig .tc .vmem S8000x3 .f32) (harg1 : arg1.IsWhole) (arg2 : Memref sig .tc .vmem S64x64 .f32) (harg2 : arg2.IsWhole) (arg3 : Memref sig .tc .vmem S64x3 .f32) (harg3 : arg3.IsWhole) (arg4 : Memref sig .tc .vmem S8000x64 .bf16) (harg4 : arg4.IsWhole)
    (x0 : Vec F S8000x64 .bf16) (x1 : Vec F S8000x3 .f32) (x2 : Vec F S64x64 .f32) (x3 : Vec F S64x3 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out4_4 x0 x1 x2 x3)) -∗ K ⟨⟩))
      ⊢ wp frame (wpE (defs₀ (F := F)) Variants.none c none) E (cc4__edge_kernel i arg0 harg0 arg1 harg1 arg2 harg2 arg3 harg3 arg4 harg4) K := by
  simp only [cc4__edge_kernel_eq_skeleton]; unfold cc4__edge_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-- The proof data of pipeline 4: arrays as the region finds them; after the body each input buffer at its block and
    the output buffer at `out4_4` of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every grid point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KI.R5.lean ====
/-
  Pipeline 5 of the program (node kernel), at the buffer contents `V` its region is entered with: what each
  window's block holds at a grid point, what the body leaves in its output block as a function of the input
  blocks (its one store's value, the stored rectangle covering the block), the body's run on whole staging
  buffers, and the pipeline's proof data with the body obligation at every grid point.
-/
import proofs.«149571_j25649544692292_2_alg».proof.Proof.Gen.KernelIdeal.Launch
import proofs.«149571_j25649544692292_2_alg».proof.Proof.Gen.KernelIdeal.Skeleton
import proofs.«149571_j25649544692292_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, whether the point fetched it or kept it. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, whether the point fetched it or kept it. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, whether the point fetched it or kept it. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, whether the point fetched it or kept it. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, whether the point fetched it or kept it. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's staging buffer holds its block at every point, whether the point fetched it or kept it. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S5000x64 := (Rect.unit (s := S5000x64) ![0, 0] S5000x64.size inb_S5000x64_S5000x64_0_0)
abbrev r5_1 : Rect S5000x64 := (Rect.unit (s := S5000x64) ![0, 0] S5000x64.size inb_S5000x64_S5000x64_0_0)
abbrev r5_2 : Rect S5000x1 := (Rect.unit (s := S5000x1) ![0, 0] S5000x1.size inb_S5000x1_S5000x1_0_0)
abbrev r5_3 : Rect S64x64 := (Rect.unit (s := S64x64) ![0, 0] S64x64.size inb_S64x64_S64x64_0_0)
abbrev r5_4 : Rect S64x64 := (Rect.unit (s := S64x64) ![0, 0] S64x64.size inb_S64x64_S64x64_0_0)
abbrev r5_5 : Rect S1x64 := (Rect.unit (s := S1x64) ![0, 0] S1x64.size inb_S1x64_S1x64_0_0)
abbrev r5_o : Rect S5000x64 := (Rect.unit (s := S5000x64) ![0, 0] S5000x64.size inb_S5000x64_S5000x64_0_0)

/-- The output block after the body, from the input blocks: the one store's value over the whole block. -/
def out5_6 (x0 : Vec F S5000x64 .bf16) (x1 : Vec F S5000x64 .f32) (x2 : Vec F S5000x1 .f32) (x3 : Vec F S64x64 .f32) (x4 : Vec F S64x64 .f32) (x5 : Vec F S1x64 .f32) : Vec F S5000x64 .bf16 :=
  View.canon [⟨r5_o, k5_pay1 (View.ld x0 r5_0) (View.ld x1 r5_1) (View.ld x2 r5_2) (View.ld x3 r5_3) (View.ld x4 r5_4) (View.ld x5 r5_5)⟩]

/-- The store's rectangle is the whole block. -/
theorem cover5_6 (p0 : Vec F S5000x64 .bf16) (y : S5000x64.Idx) :
    ∃ pc ∈ ([⟨r5_o, p0⟩] : List (View.Piece (Elt F) S5000x64 .bf16)), y ∈ pc.1.set :=
  View.cover_of_tiled [⟨r5_o, p0⟩] S5000x64.size (by rfl) y

set_option maxHeartbeats 4000000 in
/-- The body on whole staging buffers: the inputs come back as they were, the output holds `out5_6` of them. -/
theorem sound_kernel5 (c : Dev nD) (E : Set ℕ) (i : grid5.Coords) (arg0 : Memref sig .tc .vmem S5000x64 .bf16) (harg0 : arg0.IsWhole) (arg1 : Memref sig .tc .vmem S5000x64 .f32) (harg1 : arg1.IsWhole) (arg2 : Memref sig .tc .vmem S5000x1 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .bf16) (harg6 : arg6.IsWhole)
    (x0 : Vec F S5000x64 .bf16) (x1 : Vec F S5000x64 .f32) (x2 : Vec F S5000x1 .f32) (x3 : Vec F S64x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out5_6 x0 x1 x2 x3 x4 x5)) -∗ K ⟨⟩))
      ⊢ wp frame (wpE (defs₀ (F := F)) Variants.none c none) E (cc5__node_kernel i arg0 harg0 arg1 harg1 arg2 harg2 arg3 harg3 arg4 harg4 arg5 harg5 arg6 harg6) K := by
  simp only [cc5__node_kernel_eq_skeleton]; unfold cc5__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-- The proof data of pipeline 5: arrays as the region finds them; after the body each input buffer at its block and
    the output buffer at `out5_6` of the input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every grid point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KI.R6.lean ====
/-
  Pipeline 6 of the program (edge kernel), at the buffer contents `V` its region is entered with: what each
  window's block holds at a grid point, what the body leaves in its output block as a function of the input
  blocks (its one store's value, the stored rectangle covering the block), the body's run on whole staging
  buffers, and the pipeline's proof data with the body obligation at every grid point.
-/
import proofs.«149571_j25649544692292_2_alg».proof.Proof.Gen.KernelIdeal.Launch
import proofs.«149571_j25649544692292_2_alg».proof.Proof.Gen.KernelIdeal.Skeleton
import proofs.«149571_j25649544692292_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, whether the point fetched it or kept it. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, whether the point fetched it or kept it. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, whether the point fetched it or kept it. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds its block at every point, whether the point fetched it or kept it. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S8000x64 := (Rect.unit (s := S8000x64) ![0, 0] S8000x64.size inb_S8000x64_S8000x64_0_0)
abbrev r6_1 : Rect S8000x3 := (Rect.unit (s := S8000x3) ![0, 0] S8000x3.size inb_S8000x3_S8000x3_0_0)
abbrev r6_2 : Rect S64x64 := (Rect.unit (s := S64x64) ![0, 0] S64x64.size inb_S64x64_S64x64_0_0)
abbrev r6_3 : Rect S64x3 := (Rect.unit (s := S64x3) ![0, 0] S64x3.size inb_S64x3_S64x3_0_0)
abbrev r6_o : Rect S8000x64 := (Rect.unit (s := S8000x64) ![0, 0] S8000x64.size inb_S8000x64_S8000x64_0_0)

/-- The output block after the body, from the input blocks: the one store's value over the whole block. -/
def out6_4 (x0 : Vec F S8000x64 .bf16) (x1 : Vec F S8000x3 .f32) (x2 : Vec F S64x64 .f32) (x3 : Vec F S64x3 .f32) : Vec F S8000x64 .bf16 :=
  View.canon [⟨r6_o, k6_pay1 (View.ld x0 r6_0) (View.ld x1 r6_1) (View.ld x2 r6_2) (View.ld x3 r6_3)⟩]

/-- The store's rectangle is the whole block. -/
theorem cover6_4 (p0 : Vec F S8000x64 .bf16) (y : S8000x64.Idx) :
    ∃ pc ∈ ([⟨r6_o, p0⟩] : List (View.Piece (Elt F) S8000x64 .bf16)), y ∈ pc.1.set :=
  View.cover_of_tiled [⟨r6_o, p0⟩] S8000x64.size (by rfl) y

set_option maxHeartbeats 4000000 in
/-- The body on whole staging buffers: the inputs come back as they were, the output holds `out6_4` of them. -/
theorem sound_kernel6 (c : Dev nD) (E : Set ℕ) (i : grid6.Coords) (arg0 : Memref sig .tc .vmem S8000x64 .bf16) (harg0 : arg0.IsWhole) (arg1 : Memref sig .tc .vmem S8000x3 .f32) (harg1 : arg1.IsWhole) (arg2 : Memref sig .tc .vmem S64x64 .f32) (harg2 : arg2.IsWhole) (arg3 : Memref sig .tc .vmem S64x3 .f32) (harg3 : arg3.IsWhole) (arg4 : Memref sig .tc .vmem S8000x64 .bf16) (harg4 : arg4.IsWhole)
    (x0 : Vec F S8000x64 .bf16) (x1 : Vec F S8000x3 .f32) (x2 : Vec F S64x64 .f32) (x3 : Vec F S64x3 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out6_4 x0 x1 x2 x3)) -∗ K ⟨⟩))
      ⊢ wp frame (wpE (defs₀ (F := F)) Variants.none c none) E (cc6__edge_kernel i arg0 harg0 arg1 harg1 arg2 harg2 arg3 harg3 arg4 harg4) K := by
  simp only [cc6__edge_kernel_eq_skeleton]; unfold cc6__edge_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

/-- The proof data of pipeline 6: arrays as the region finds them; after the body each input buffer at its block and
    the output buffer at `out6_4` of the input blocks; nothing owed, full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every grid point. -/
theorem body_obligation6 (c : Dev nD) : BodyObligation (dat6 (F := F) V c) (defs₀ (F := F)) Variants.none () Set.univ := fun t => by
  rw [bigSep_W6, bigSep_W6]
  exact sound_body6 V c t

end Cert.KernelIdeal.Fr

end
-- ==== Proof.KI.R7.lean ====
/-
  Pipeline 7 of the program (node kernel), at the buffer contents `V` its region is entered with: what each
  window's block holds at a grid point, what the body leaves in its output block as a function of the input
  blocks (its one store's value, the stored rectangle covering the block), the body's run on whole staging
  buffers, and the pipeline's proof data with the body obligation at every grid point.
-/
import proofs.«149571_j25649544692292_2_alg».proof.Proof.Gen.KernelIdeal.Launch
import proofs.«149571_j25649544692292_2_alg».proof.Proof.Gen.KernelIdeal.Skeleton
import proofs.«149571_j25649544692292_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, whether the point fetched it or kept it. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, whether the point fetched it or kept it. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, whether the point fetched it or kept it. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds its block at every point, whether the point fetched it or kept it. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds its block at every point, whether the point fetched it or kept it. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's staging buffer holds its block at every point, whether the point fetched it or kept it. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S5000x64 := (Rect.unit (s := S5000x64) ![0, 0] S5000x64.size inb_S5000x64_S5000x64_0_0)
abbrev r7_1 : Rect S5000x64 := (Rect.unit (s := S5000x64) ![0, 0] S5000x64.size inb_S5000x64_S5000x64_0_0)
abbrev r7_2 : Rect S5000x1 := (Rect.unit (s := S5000x1) ![0, 0] S5000x1.size inb_S5000x1_S5000x1_0_0)
abbrev r7_3 : Rect S64x64 := (Rect.unit (s := S64x64) ![0, 0] S64x64.size inb_S64x64_S64x64_0_0)
abbrev r7_4 : Rect S64x64 := (Rect.unit (s := S64x64) ![0, 0] S64x64.size inb_S64x64_S64x64_0_0)
abbrev r7_5 : Rect S1x64 := (Rect.unit (s := S1x64) ![0, 0] S1x64.size inb_S1x64_S1x64_0_0)
abbrev r7_o : Rect S5000x64 := (Rect.unit (s := S5000x64) ![0, 0] S5000x64.size inb_S5000x64_S5000x64_0_0)

/-- The output block after the body, from the input blocks: the one store's value over the whole block. -/
def out7_6 (x0 : Vec F S5000x64 .bf16) (x1 : Vec F S5000x64 .f32) (x2 : Vec F S5000x1 .f32) (x3 : Vec F S64x64 .f32) (x4 : Vec F S64x64 .f32) (x5 : Vec F S1x64 .f32) : Vec F S5000x64 .bf16 :=
  View.canon [⟨r7_o, k7_pay1 (View.ld x0 r7_0) (View.ld x1 r7_1) (View.ld x2 r7_2) (View.ld x3 r7_3) (View.ld x4 r7_4) (View.ld x5 r7_5)⟩]

/-- The store's rectangle is the whole block. -/
theorem cover7_6 (p0 : Vec F S5000x64 .bf16) (y : S5000x64.Idx) :
    ∃ pc ∈ ([⟨r7_o, p0⟩] : List (View.Piece (Elt F) S5000x64 .bf16)), y ∈ pc.1.set :=
  View.cover_of_tiled [⟨r7_o, p0⟩] S5000x64.size (by rfl) y

set_option maxHeartbeats 4000000 in
/-- The body on whole staging buffers: the inputs come back as they were, the output holds `out7_6` of them. -/
theorem sound_kernel7 (c : Dev nD) (E : Set ℕ) (i : grid7.Coords) (arg0 : Memref sig .tc .vmem S5000x64 .bf16) (harg0 : arg0.IsWhole) (arg1 : Memref sig .tc .vmem S5000x64 .f32) (harg1 : arg1.IsWhole) (arg2 : Memref sig .tc .vmem S5000x1 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .bf16) (harg6 : arg6.IsWhole)
    (x0 : Vec F S5000x64 .bf16) (x1 : Vec F S5000x64 .f32) (x2 : Vec F S5000x1 .f32) (x3 : Vec F S64x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out7_6 x0 x1 x2 x3 x4 x5)) -∗ K ⟨⟩))
      ⊢ wp frame (wpE (defs₀ (F := F)) Variants.none c none) E (cc7__node_kernel i arg0 harg0 arg1 harg1 arg2 harg2 arg3 harg3 arg4 harg4 arg5 harg5 arg6 harg6) K := by
  simp only [cc7__node_kernel_eq_skeleton]; unfold cc7__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_6 _)

/-- The proof data of pipeline 7: arrays as the region finds them; after the body each input buffer at its block and
    the output buffer at `out7_6` of the input blocks; nothing owed, full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ _ _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every grid point. -/
theorem body_obligation7 (c : Dev nD) : BodyObligation (dat7 (F := F) V c) (defs₀ (F := F)) Variants.none () Set.univ := fun t => by
  rw [bigSep_W7, bigSep_W7]
  exact sound_body7 V c t

end Cert.KernelIdeal.Fr

end
-- ==== Proof.KI.R8.lean ====
/-
  Pipeline 8 of the program (edge kernel), at the buffer contents `V` its region is entered with: what each
  window's block holds at a grid point, what the body leaves in its output block as a function of the input
  blocks (its one store's value, the stored rectangle covering the block), the body's run on whole staging
  buffers, and the pipeline's proof data with the body obligation at every grid point.
-/
import proofs.«149571_j25649544692292_2_alg».proof.Proof.Gen.KernelIdeal.Launch
import proofs.«149571_j25649544692292_2_alg».proof.Proof.Gen.KernelIdeal.Skeleton
import proofs.«149571_j25649544692292_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, whether the point fetched it or kept it. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds its block at every point, whether the point fetched it or kept it. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds its block at every point, whether the point fetched it or kept it. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's staging buffer holds its block at every point, whether the point fetched it or kept it. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

abbrev r8_0 : Rect S8000x64 := (Rect.unit (s := S8000x64) ![0, 0] S8000x64.size inb_S8000x64_S8000x64_0_0)
abbrev r8_1 : Rect S8000x3 := (Rect.unit (s := S8000x3) ![0, 0] S8000x3.size inb_S8000x3_S8000x3_0_0)
abbrev r8_2 : Rect S64x64 := (Rect.unit (s := S64x64) ![0, 0] S64x64.size inb_S64x64_S64x64_0_0)
abbrev r8_3 : Rect S64x3 := (Rect.unit (s := S64x3) ![0, 0] S64x3.size inb_S64x3_S64x3_0_0)
abbrev r8_o : Rect S8000x64 := (Rect.unit (s := S8000x64) ![0, 0] S8000x64.size inb_S8000x64_S8000x64_0_0)

/-- The output block after the body, from the input blocks: the one store's value over the whole block. -/
def out8_4 (x0 : Vec F S8000x64 .bf16) (x1 : Vec F S8000x3 .f32) (x2 : Vec F S64x64 .f32) (x3 : Vec F S64x3 .f32) : Vec F S8000x64 .bf16 :=
  View.canon [⟨r8_o, k8_pay1 (View.ld x0 r8_0) (View.ld x1 r8_1) (View.ld x2 r8_2) (View.ld x3 r8_3)⟩]

/-- The store's rectangle is the whole block. -/
theorem cover8_4 (p0 : Vec F S8000x64 .bf16) (y : S8000x64.Idx) :
    ∃ pc ∈ ([⟨r8_o, p0⟩] : List (View.Piece (Elt F) S8000x64 .bf16)), y ∈ pc.1.set :=
  View.cover_of_tiled [⟨r8_o, p0⟩] S8000x64.size (by rfl) y

set_option maxHeartbeats 4000000 in
/-- The body on whole staging buffers: the inputs come back as they were, the output holds `out8_4` of them. -/
theorem sound_kernel8 (c : Dev nD) (E : Set ℕ) (i : grid8.Coords) (arg0 : Memref sig .tc .vmem S8000x64 .bf16) (harg0 : arg0.IsWhole) (arg1 : Memref sig .tc .vmem S8000x3 .f32) (harg1 : arg1.IsWhole) (arg2 : Memref sig .tc .vmem S64x64 .f32) (harg2 : arg2.IsWhole) (arg3 : Memref sig .tc .vmem S64x3 .f32) (harg3 : arg3.IsWhole) (arg4 : Memref sig .tc .vmem S8000x64 .bf16) (harg4 : arg4.IsWhole)
    (x0 : Vec F S8000x64 .bf16) (x1 : Vec F S8000x3 .f32) (x2 : Vec F S64x64 .f32) (x3 : Vec F S64x3 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out8_4 x0 x1 x2 x3)) -∗ K ⟨⟩))
      ⊢ wp frame (wpE (defs₀ (F := F)) Variants.none c none) E (cc8__edge_kernel i arg0 harg0 arg1 harg1 arg2 harg2 arg3 harg3 arg4 harg4) K := by
  simp only [cc8__edge_kernel_eq_skeleton]; unfold cc8__edge_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover8_4 _)

/-- The proof data of pipeline 8: arrays as the region finds them; after the body each input buffer at its block and
    the output buffer at `out8_4` of the input blocks; nothing owed, full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t) (iblk8 V c 3 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = out8_4 (iblk8 V c 0 t) (iblk8 V c 1 t) (iblk8 V c 2 t) (iblk8 V c 3 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ (iblk8 V c 0 t) (iblk8 V c 1 t) (iblk8 V c 2 t) (iblk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every grid point. -/
theorem body_obligation8 (c : Dev nD) : BodyObligation (dat8 (F := F) V c) (defs₀ (F := F)) Variants.none () Set.univ := fun t => by
  rw [bigSep_W8, bigSep_W8]
  exact sound_body8 V c t

end Cert.KernelIdeal.Fr

end
-- ==== Proof.KI.R9.lean ====
/-
  Pipeline 9 of the program (node kernel), at the buffer contents `V` its region is entered with: what each
  window's block holds at a grid point, what the body leaves in its output block as a function of the input
  blocks (its one store's value, the stored rectangle covering the block), the body's run on whole staging
  buffers, and the pipeline's proof data with the body obligation at every grid point.
-/
import proofs.«149571_j25649544692292_2_alg».proof.Proof.Gen.KernelIdeal.Launch
import proofs.«149571_j25649544692292_2_alg».proof.Proof.Gen.KernelIdeal.Skeleton
import proofs.«149571_j25649544692292_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds its block at every point, whether the point fetched it or kept it. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer holds its block at every point, whether the point fetched it or kept it. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's staging buffer holds its block at every point, whether the point fetched it or kept it. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's staging buffer holds its block at every point, whether the point fetched it or kept it. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's staging buffer holds its block at every point, whether the point fetched it or kept it. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Input window 5's staging buffer holds its block at every point, whether the point fetched it or kept it. -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

abbrev r9_0 : Rect S5000x64 := (Rect.unit (s := S5000x64) ![0, 0] S5000x64.size inb_S5000x64_S5000x64_0_0)
abbrev r9_1 : Rect S5000x64 := (Rect.unit (s := S5000x64) ![0, 0] S5000x64.size inb_S5000x64_S5000x64_0_0)
abbrev r9_2 : Rect S5000x1 := (Rect.unit (s := S5000x1) ![0, 0] S5000x1.size inb_S5000x1_S5000x1_0_0)
abbrev r9_3 : Rect S64x64 := (Rect.unit (s := S64x64) ![0, 0] S64x64.size inb_S64x64_S64x64_0_0)
abbrev r9_4 : Rect S64x64 := (Rect.unit (s := S64x64) ![0, 0] S64x64.size inb_S64x64_S64x64_0_0)
abbrev r9_5 : Rect S1x64 := (Rect.unit (s := S1x64) ![0, 0] S1x64.size inb_S1x64_S1x64_0_0)
abbrev r9_o : Rect S5000x64 := (Rect.unit (s := S5000x64) ![0, 0] S5000x64.size inb_S5000x64_S5000x64_0_0)

/-- The output block after the body, from the input blocks: the one store's value over the whole block. -/
def out9_6 (x0 : Vec F S5000x64 .bf16) (x1 : Vec F S5000x64 .f32) (x2 : Vec F S5000x1 .f32) (x3 : Vec F S64x64 .f32) (x4 : Vec F S64x64 .f32) (x5 : Vec F S1x64 .f32) : Vec F S5000x64 .bf16 :=
  View.canon [⟨r9_o, k9_pay1 (View.ld x0 r9_0) (View.ld x1 r9_1) (View.ld x2 r9_2) (View.ld x3 r9_3) (View.ld x4 r9_4) (View.ld x5 r9_5)⟩]

/-- The store's rectangle is the whole block. -/
theorem cover9_6 (p0 : Vec F S5000x64 .bf16) (y : S5000x64.Idx) :
    ∃ pc ∈ ([⟨r9_o, p0⟩] : List (View.Piece (Elt F) S5000x64 .bf16)), y ∈ pc.1.set :=
  View.cover_of_tiled [⟨r9_o, p0⟩] S5000x64.size (by rfl) y

set_option maxHeartbeats 4000000 in
/-- The body on whole staging buffers: the inputs come back as they were, the output holds `out9_6` of them. -/
theorem sound_kernel9 (c : Dev nD) (E : Set ℕ) (i : grid9.Coords) (arg0 : Memref sig .tc .vmem S5000x64 .bf16) (harg0 : arg0.IsWhole) (arg1 : Memref sig .tc .vmem S5000x64 .f32) (harg1 : arg1.IsWhole) (arg2 : Memref sig .tc .vmem S5000x1 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .bf16) (harg6 : arg6.IsWhole)
    (x0 : Vec F S5000x64 .bf16) (x1 : Vec F S5000x64 .f32) (x2 : Vec F S5000x1 .f32) (x3 : Vec F S64x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out9_6 x0 x1 x2 x3 x4 x5)) -∗ K ⟨⟩))
      ⊢ wp frame (wpE (defs₀ (F := F)) Variants.none c none) E (cc9__node_kernel i arg0 harg0 arg1 harg1 arg2 harg2 arg3 harg3 arg4 harg4 arg5 harg5 arg6 harg6) K := by
  simp only [cc9__node_kernel_eq_skeleton]; unfold cc9__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover9_6 _)

/-- The proof data of pipeline 9: arrays as the region finds them; after the body each input buffer at its block and
    the output buffer at `out9_6` of the input blocks; nothing owed, full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => out9_6 (iblk9 V c 0 t) (iblk9 V c 1 t) (iblk9 V c 2 t) (iblk9 V c 3 t) (iblk9 V c 4 t) (iblk9 V c 5 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = out9_6 (iblk9 V c 0 t) (iblk9 V c 1 t) (iblk9 V c 2 t) (iblk9 V c 3 t) (iblk9 V c 4 t) (iblk9 V c 5 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel9 c Set.univ _ _ _ _ _ _ _ _ _ _ _ _ _ _ _ (iblk9 V c 0 t) (iblk9 V c 1 t) (iblk9 V c 2 t) (iblk9 V c 3 t) (iblk9 V c 4 t) (iblk9 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every grid point. -/
theorem body_obligation9 (c : Dev nD) : BodyObligation (dat9 (F := F) V c) (defs₀ (F := F)) Variants.none () Set.univ := fun t => by
  rw [bigSep_W9, bigSep_W9]
  exact sound_body9 V c t

end Cert.KernelIdeal.Fr

end
-- ==== Proof.KI.R10.lean ====
/-
  Pipeline 10 of the program (final kernel), at the buffer contents `V` its region is entered with: what each
  window's block holds at a grid point, what the body leaves in its output block as a function of the input
  blocks (its one store's value, the stored rectangle covering the block), the body's run on whole staging
  buffers, and the pipeline's proof data with the body obligation at every grid point.
-/
import proofs.«149571_j25649544692292_2_alg».proof.Proof.Gen.KernelIdeal.Launch
import proofs.«149571_j25649544692292_2_alg».proof.Proof.Gen.KernelIdeal.Skeleton
import proofs.«149571_j25649544692292_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's staging buffer holds its block at every point, whether the point fetched it or kept it. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's staging buffer holds its block at every point, whether the point fetched it or kept it. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's staging buffer holds its block at every point, whether the point fetched it or kept it. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's staging buffer holds its block at every point, whether the point fetched it or kept it. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's staging buffer holds its block at every point, whether the point fetched it or kept it. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

abbrev r10_0 : Rect S5000x64 := (Rect.unit (s := S5000x64) ![0, 0] S5000x64.size inb_S5000x64_S5000x64_0_0)
abbrev r10_1 : Rect S64x64 := (Rect.unit (s := S64x64) ![0, 0] S64x64.size inb_S64x64_S64x64_0_0)
abbrev r10_2 : Rect S1x64 := (Rect.unit (s := S1x64) ![0, 0] S1x64.size inb_S1x64_S1x64_0_0)
abbrev r10_3 : Rect S32x64 := (Rect.unit (s := S32x64) ![0, 0] S32x64.size inb_S32x64_S32x64_0_0)
abbrev r10_4 : Rect S1x32 := (Rect.unit (s := S1x32) ![0, 0] S1x32.size inb_S1x32_S1x32_0_0)
abbrev r10_o : Rect S5000x32 := (Rect.unit (s := S5000x32) ![0, 0] S5000x32.size inb_S5000x32_S5000x32_0_0)

/-- The output block after the body, from the input blocks: the one store's value over the whole block. -/
def out10_5 (x0 : Vec F S5000x64 .bf16) (x1 : Vec F S64x64 .f32) (x2 : Vec F S1x64 .f32) (x3 : Vec F S32x64 .f32) (x4 : Vec F S1x32 .f32) : Vec F S5000x32 .f32 :=
  View.canon [⟨r10_o, k10_pay1 (View.ld x0 r10_0) (View.ld x1 r10_1) (View.ld x2 r10_2) (View.ld x3 r10_3) (View.ld x4 r10_4)⟩]

/-- The store's rectangle is the whole block. -/
theorem cover10_5 (p0 : Vec F S5000x32 .f32) (y : S5000x32.Idx) :
    ∃ pc ∈ ([⟨r10_o, p0⟩] : List (View.Piece (Elt F) S5000x32 .f32)), y ∈ pc.1.set :=
  View.cover_of_tiled [⟨r10_o, p0⟩] S5000x32.size (by rfl) y

set_option maxHeartbeats 4000000 in
/-- The body on whole staging buffers: the inputs come back as they were, the output holds `out10_5` of them. -/
theorem sound_kernel10 (c : Dev nD) (E : Set ℕ) (i : grid10.Coords) (arg0 : Memref sig .tc .vmem S5000x64 .bf16) (harg0 : arg0.IsWhole) (arg1 : Memref sig .tc .vmem S64x64 .f32) (harg1 : arg1.IsWhole) (arg2 : Memref sig .tc .vmem S1x64 .f32) (harg2 : arg2.IsWhole) (arg3 : Memref sig .tc .vmem S32x64 .f32) (harg3 : arg3.IsWhole) (arg4 : Memref sig .tc .vmem S1x32 .f32) (harg4 : arg4.IsWhole) (arg5 : Memref sig .tc .vmem S5000x32 .f32) (harg5 : arg5.IsWhole)
    (x0 : Vec F S5000x64 .bf16) (x1 : Vec F S64x64 .f32) (x2 : Vec F S1x64 .f32) (x3 : Vec F S32x64 .f32) (x4 : Vec F S1x32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out10_5 x0 x1 x2 x3 x4)) -∗ K ⟨⟩))
      ⊢ wp frame (wpE (defs₀ (F := F)) Variants.none c none) E (cc10__final_kernel i arg0 harg0 arg1 harg1 arg2 harg2 arg3 harg3 arg4 harg4 arg5 harg5) K := by
  simp only [cc10__final_kernel_eq_skeleton]; unfold cc10__final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover10_5 _)

/-- The proof data of pipeline 10: arrays as the region finds them; after the body each input buffer at its block and
    the output buffer at `out10_5` of the input blocks; nothing owed, full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10_5 (iblk10 V c 0 t) (iblk10 V c 1 t) (iblk10 V c 2 t) (iblk10 V c 3 t) (iblk10 V c 4 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = out10_5 (iblk10 V c 0 t) (iblk10 V c 1 t) (iblk10 V c 2 t) (iblk10 V c 3 t) (iblk10 V c 4 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel10 c Set.univ _ _ _ _ _ _ _ _ _ _ _ _ _ (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every grid point. -/
theorem body_obligation10 (c : Dev nD) : BodyObligation (dat10 (F := F) V c) (defs₀ (F := F)) Variants.none () Set.univ := fun t => by
  rw [bigSep_W10, bigSep_W10]
  exact sound_body10 V c t

end Cert.KernelIdeal.Fr

end
-- ==== Proof.KI.Data.lean ====
/-
  The proof data of all eleven pipelines, each at the buffer contents its region is entered with. Between two items
  of the program every unscoped buffer is held whole: at launch the memory, after a stretch of host operations their
  results, after a region its output array at contents `outs` names (an unknown here; the run fixes it to what the
  region's write-backs leave). Beside the buffers ride the core's generator register and its empty debt.
-/
import proofs.«149571_j25649544692292_2_alg».proof.Proof.KI.R0
import proofs.«149571_j25649544692292_2_alg».proof.Proof.KI.R1
import proofs.«149571_j25649544692292_2_alg».proof.Proof.KI.R2
import proofs.«149571_j25649544692292_2_alg».proof.Proof.KI.R3
import proofs.«149571_j25649544692292_2_alg».proof.Proof.KI.R4
import proofs.«149571_j25649544692292_2_alg».proof.Proof.KI.R5
import proofs.«149571_j25649544692292_2_alg».proof.Proof.KI.R6
import proofs.«149571_j25649544692292_2_alg».proof.Proof.KI.R7
import proofs.«149571_j25649544692292_2_alg».proof.Proof.KI.R8
import proofs.«149571_j25649544692292_2_alg».proof.Proof.KI.R9
import proofs.«149571_j25649544692292_2_alg».proof.Proof.KI.R10
import proofs.«149571_j25649544692292_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- The TensorCore's buffers as region 0 finds them, and as it leaves them. -/
abbrev ent0 : (c : Dev nD) → (b : Ref sig .tc) → Buf (Elt F) ((c : Thread nD τ).loc b) := fun c b => V1 m c b
abbrev ext0 : (c : Dev nD) → (b : Ref sig .tc) → Buf (Elt F) ((c : Thread nD τ).loc b) := fun c b => V2 m outs c b
/-- The TensorCore's buffers as region 1 finds them, and as it leaves them. -/
abbrev ent1 : (c : Dev nD) → (b : Ref sig .tc) → Buf (Elt F) ((c : Thread nD τ).loc b) := fun c b => V3 m outs c b
abbrev ext1 : (c : Dev nD) → (b : Ref sig .tc) → Buf (Elt F) ((c : Thread nD τ).loc b) := fun c b => V4 m outs c b
/-- The TensorCore's buffers as region 2 finds them, and as it leaves them. -/
abbrev ent2 : (c : Dev nD) → (b : Ref sig .tc) → Buf (Elt F) ((c : Thread nD τ).loc b) := fun c b => V5 m outs c b
abbrev ext2 : (c : Dev nD) → (b : Ref sig .tc) → Buf (Elt F) ((c : Thread nD τ).loc b) := fun c b => V6 m outs c b
/-- The TensorCore's buffers as region 3 finds them, and as it leaves them. -/
abbrev ent3 : (c : Dev nD) → (b : Ref sig .tc) → Buf (Elt F) ((c : Thread nD τ).loc b) := fun c b => V7 m outs c b
abbrev ext3 : (c : Dev nD) → (b : Ref sig .tc) → Buf (Elt F) ((c : Thread nD τ).loc b) := fun c b => V8 m outs c b
/-- The TensorCore's buffers as region 4 finds them, and as it leaves them. -/
abbrev ent4 : (c : Dev nD) → (b : Ref sig .tc) → Buf (Elt F) ((c : Thread nD τ).loc b) := fun c b => V9 m outs c b
abbrev ext4 : (c : Dev nD) → (b : Ref sig .tc) → Buf (Elt F) ((c : Thread nD τ).loc b) := fun c b => V10 m outs c b
/-- The TensorCore's buffers as region 5 finds them, and as it leaves them. -/
abbrev ent5 : (c : Dev nD) → (b : Ref sig .tc) → Buf (Elt F) ((c : Thread nD τ).loc b) := fun c b => V11 m outs c b
abbrev ext5 : (c : Dev nD) → (b : Ref sig .tc) → Buf (Elt F) ((c : Thread nD τ).loc b) := fun c b => V12 m outs c b
/-- The TensorCore's buffers as region 6 finds them, and as it leaves them. -/
abbrev ent6 : (c : Dev nD) → (b : Ref sig .tc) → Buf (Elt F) ((c : Thread nD τ).loc b) := fun c b => V13 m outs c b
abbrev ext6 : (c : Dev nD) → (b : Ref sig .tc) → Buf (Elt F) ((c : Thread nD τ).loc b) := fun c b => V14 m outs c b
/-- The TensorCore's buffers as region 7 finds them, and as it leaves them. -/
abbrev ent7 : (c : Dev nD) → (b : Ref sig .tc) → Buf (Elt F) ((c : Thread nD τ).loc b) := fun c b => V15 m outs c b
abbrev ext7 : (c : Dev nD) → (b : Ref sig .tc) → Buf (Elt F) ((c : Thread nD τ).loc b) := fun c b => V16 m outs c b
/-- The TensorCore's buffers as region 8 finds them, and as it leaves them. -/
abbrev ent8 : (c : Dev nD) → (b : Ref sig .tc) → Buf (Elt F) ((c : Thread nD τ).loc b) := fun c b => V17 m outs c b
abbrev ext8 : (c : Dev nD) → (b : Ref sig .tc) → Buf (Elt F) ((c : Thread nD τ).loc b) := fun c b => V18 m outs c b
/-- The TensorCore's buffers as region 9 finds them, and as it leaves them. -/
abbrev ent9 : (c : Dev nD) → (b : Ref sig .tc) → Buf (Elt F) ((c : Thread nD τ).loc b) := fun c b => V19 m outs c b
abbrev ext9 : (c : Dev nD) → (b : Ref sig .tc) → Buf (Elt F) ((c : Thread nD τ).loc b) := fun c b => V20 m outs c b
/-- The TensorCore's buffers as region 10 finds them, and as it leaves them. -/
abbrev ent10 : (c : Dev nD) → (b : Ref sig .tc) → Buf (Elt F) ((c : Thread nD τ).loc b) := fun c b => V20 m outs c b
abbrev ext10 : (c : Dev nD) → (b : Ref sig .tc) → Buf (Elt F) ((c : Thread nD τ).loc b) := fun c b => V21 m outs c b

/-- Every pipeline's proof data, each at its region's entry contents. -/
def pdats : (p : Fin 11) → (c : Dev nD) → Dat τ (Elt F) Unit ℕ (UR sig nD τ) ℕ (cfgs p) c
  | ⟨0, _⟩ => fun c => dat0 (ent0 m) c
  | ⟨1, _⟩ => fun c => dat1 (ent1 m outs) c
  | ⟨2, _⟩ => fun c => dat2 (ent2 m outs) c
  | ⟨3, _⟩ => fun c => dat3 (ent3 m outs) c
  | ⟨4, _⟩ => fun c => dat4 (ent4 m outs) c
  | ⟨5, _⟩ => fun c => dat5 (ent5 m outs) c
  | ⟨6, _⟩ => fun c => dat6 (ent6 m outs) c
  | ⟨7, _⟩ => fun c => dat7 (ent7 m outs) c
  | ⟨8, _⟩ => fun c => dat8 (ent8 m outs) c
  | ⟨9, _⟩ => fun c => dat9 (ent9 m outs) c
  | ⟨10, _⟩ => fun c => dat10 (ent10 m outs) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and an empty debt. -/
abbrev R (c : Dev nD) : sProp 𝕄 := iprop((∃ r, prngReg c r) ∗ ∃ W, owes (c : Thread nD τ) (0 : CellTallies nD τ sig Unit) W)

end Cert.KernelIdeal.Fr

end
-- ==== Proof.KI.Seg0.lean ====
/-
  Region 0 as one item of the program: entered with every unscoped buffer held at the contents before it, left
  with them held at the contents after it, PROVIDED `outs` names, for the region's output array, what the
  pipeline's write-backs leave there. The region's arrays are split out of the held buffers on entry and put back
  on exit; its inputs' arrays end as they were; the generator register passes through the pipeline's invariant.
-/
import proofs.«149571_j25649544692292_2_alg».proof.Proof.KI.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Input array 0 is at the exit what it was at the entry. -/
theorem hF0_0 (c : Dev nD) : (dat0 (ent0 m) c).arrAt 0 cfg0.N = ext0 m outs c (Pipeline.arrRef spec0 0) :=
  (((dat0 (ent0 m) c).arrAt_in 0 rfl _).trans (A_eq0 (ent0 m) c 0)).trans (V2_of m outs c _ (by decide)).symm
/-- Input array 1 is at the exit what it was at the entry. -/
theorem hF0_1 (c : Dev nD) : (dat0 (ent0 m) c).arrAt 1 cfg0.N = ext0 m outs c (Pipeline.arrRef spec0 1) :=
  (((dat0 (ent0 m) c).arrAt_in 1 rfl _).trans (A_eq0 (ent0 m) c 1)).trans (V2_of m outs c _ (by decide)).symm
/-- Input array 2 is at the exit what it was at the entry. -/
theorem hF0_2 (c : Dev nD) : (dat0 (ent0 m) c).arrAt 2 cfg0.N = ext0 m outs c (Pipeline.arrRef spec0 2) :=
  (((dat0 (ent0 m) c).arrAt_in 2 rfl _).trans (A_eq0 (ent0 m) c 2)).trans (V2_of m outs c _ (by decide)).symm
/-- Input array 3 is at the exit what it was at the entry. -/
theorem hF0_3 (c : Dev nD) : (dat0 (ent0 m) c).arrAt 3 cfg0.N = ext0 m outs c (Pipeline.arrRef spec0 3) :=
  (((dat0 (ent0 m) c).arrAt_in 3 rfl _).trans (A_eq0 (ent0 m) c 3)).trans (V2_of m outs c _ (by decide)).symm
/-- The output array is at the exit what `outs` names. -/
theorem hF0_4 (h : ∀ c, outs 2 main_v38 c = (dat0 (ent0 m) c).arrAt 4 cfg0.N) (c : Dev nD) :
    (dat0 (ent0 m) c).arrAt 4 cfg0.N = ext0 m outs c (Pipeline.arrRef spec0 4) :=
  (h c).symm.trans (by
    show outs 2 main_v38 c = Function.update (V1 m c) main_v38 (outs 2 main_v38 c) main_v38
    rw [Function.update_self])

/-- Each of the region's arrays at its exit contents. -/
theorem hF0 (h : ∀ c, outs 2 main_v38 c = (dat0 (ent0 m) c).arrAt 4 cfg0.N) (c : Dev nD) (w : Fin cfg0.W) :
    (dat0 (ent0 m) c).arrAt w cfg0.N = ext0 m outs c (Pipeline.arrRef spec0 w) := by
  fin_cases w
  · exact hF0_0 m outs c
  · exact hF0_1 m outs c
  · exact hF0_2 m outs c
  · exact hF0_3 m outs c
  · exact hF0_4 m outs h c

/-- Every other buffer is as it was. -/
theorem hrest0 (c : Dev nD) : ∀ b, b ∉ Finset.univ.image (Pipeline.arrRef spec0) → ext0 m outs c b = ent0 m c b :=
  fun b hb => V2_of m outs c b (fun hmem => hb (by
    rw [List.mem_singleton] at hmem; subst hmem
    exact Finset.mem_image.mpr ⟨4, Finset.mem_univ _, rfl⟩))

set_option backward.isDefEq.respectTransparency.types false in
/-- Region 0 over the thread state. -/
def reg0 (h : ∀ c, outs 2 main_v38 c = (dat0 (ent0 m) c).arrAt 4 cfg0.N) :
    Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (ent0 m c) (ext0 m outs c) ((pdats m outs 0 c).arrAt · cfg0.N) (hF0 m outs h c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg1.lean ====
/-
  Region 1 as one item of the program: entered with every unscoped buffer held at the contents before it, left
  with them held at the contents after it, PROVIDED `outs` names, for the region's output array, what the
  pipeline's write-backs leave there. The region's arrays are split out of the held buffers on entry and put back
  on exit; its inputs' arrays end as they were; the generator register passes through the pipeline's invariant.
-/
import proofs.«149571_j25649544692292_2_alg».proof.Proof.KI.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Input array 0 is at the exit what it was at the entry. -/
theorem hF1_0 (c : Dev nD) : (dat1 (ent1 m outs) c).arrAt 0 cfg1.N = ext1 m outs c (Pipeline.arrRef spec1 0) :=
  (((dat1 (ent1 m outs) c).arrAt_in 0 rfl _).trans (A_eq1 (ent1 m outs) c 0)).trans (V4_of m outs c _ (by decide)).symm
/-- Input array 1 is at the exit what it was at the entry. -/
theorem hF1_1 (c : Dev nD) : (dat1 (ent1 m outs) c).arrAt 1 cfg1.N = ext1 m outs c (Pipeline.arrRef spec1 1) :=
  (((dat1 (ent1 m outs) c).arrAt_in 1 rfl _).trans (A_eq1 (ent1 m outs) c 1)).trans (V4_of m outs c _ (by decide)).symm
/-- Input array 2 is at the exit what it was at the entry. -/
theorem hF1_2 (c : Dev nD) : (dat1 (ent1 m outs) c).arrAt 2 cfg1.N = ext1 m outs c (Pipeline.arrRef spec1 2) :=
  (((dat1 (ent1 m outs) c).arrAt_in 2 rfl _).trans (A_eq1 (ent1 m outs) c 2)).trans (V4_of m outs c _ (by decide)).symm
/-- Input array 3 is at the exit what it was at the entry. -/
theorem hF1_3 (c : Dev nD) : (dat1 (ent1 m outs) c).arrAt 3 cfg1.N = ext1 m outs c (Pipeline.arrRef spec1 3) :=
  (((dat1 (ent1 m outs) c).arrAt_in 3 rfl _).trans (A_eq1 (ent1 m outs) c 3)).trans (V4_of m outs c _ (by decide)).symm
/-- Input array 4 is at the exit what it was at the entry. -/
theorem hF1_4 (c : Dev nD) : (dat1 (ent1 m outs) c).arrAt 4 cfg1.N = ext1 m outs c (Pipeline.arrRef spec1 4) :=
  (((dat1 (ent1 m outs) c).arrAt_in 4 rfl _).trans (A_eq1 (ent1 m outs) c 4)).trans (V4_of m outs c _ (by decide)).symm
/-- Input array 5 is at the exit what it was at the entry. -/
theorem hF1_5 (c : Dev nD) : (dat1 (ent1 m outs) c).arrAt 5 cfg1.N = ext1 m outs c (Pipeline.arrRef spec1 5) :=
  (((dat1 (ent1 m outs) c).arrAt_in 5 rfl _).trans (A_eq1 (ent1 m outs) c 5)).trans (V4_of m outs c _ (by decide)).symm
/-- The output array is at the exit what `outs` names. -/
theorem hF1_6 (h : ∀ c, outs 4 main_v50 c = (dat1 (ent1 m outs) c).arrAt 6 cfg1.N) (c : Dev nD) :
    (dat1 (ent1 m outs) c).arrAt 6 cfg1.N = ext1 m outs c (Pipeline.arrRef spec1 6) :=
  (h c).symm.trans (by
    show outs 4 main_v50 c = Function.update (V3 m outs c) main_v50 (outs 4 main_v50 c) main_v50
    rw [Function.update_self])

/-- Each of the region's arrays at its exit contents. -/
theorem hF1 (h : ∀ c, outs 4 main_v50 c = (dat1 (ent1 m outs) c).arrAt 6 cfg1.N) (c : Dev nD) (w : Fin cfg1.W) :
    (dat1 (ent1 m outs) c).arrAt w cfg1.N = ext1 m outs c (Pipeline.arrRef spec1 w) := by
  fin_cases w
  · exact hF1_0 m outs c
  · exact hF1_1 m outs c
  · exact hF1_2 m outs c
  · exact hF1_3 m outs c
  · exact hF1_4 m outs c
  · exact hF1_5 m outs c
  · exact hF1_6 m outs h c

/-- Every other buffer is as it was. -/
theorem hrest1 (c : Dev nD) : ∀ b, b ∉ Finset.univ.image (Pipeline.arrRef spec1) → ext1 m outs c b = ent1 m outs c b :=
  fun b hb => V4_of m outs c b (fun hmem => hb (by
    rw [List.mem_singleton] at hmem; subst hmem
    exact Finset.mem_image.mpr ⟨6, Finset.mem_univ _, rfl⟩))

set_option backward.isDefEq.respectTransparency.types false in
/-- Region 1 over the thread state. -/
def reg1 (h : ∀ c, outs 4 main_v50 c = (dat1 (ent1 m outs) c).arrAt 6 cfg1.N) :
    Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (ent1 m outs) c).loose
  hwaits := Pipeline.hwaits_of_owed_zero _ _ _ _ L lv 1 fun _ _ => rfl
  pre c := iprop(StableHlo.held (c : Thread nD τ) (Pipeline.ucRefs τ sig) (V3 m outs c) ∗ R c)
  post c := iprop(StableHlo.held (c : Thread nD τ) (Pipeline.ucRefs τ sig) (V4 m outs c) ∗ R c)
  X c := iprop(∃ r, prngReg c r)
  Y c := iprop(∃ r, prngReg c r)
  Z c := Pipeline.unscopedRest (Ix := Unit) (Name := ℕ) (U := UR sig nD τ) (Lvl := ℕ) spec1 c (ent1 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (ent1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (ent1 m outs c) (ext1 m outs c) ((pdats m outs 1 c).arrAt · cfg1.N) (hF1 m outs h c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg2.lean ====
/-
  Region 2 as one item of the program: entered with every unscoped buffer held at the contents before it, left
  with them held at the contents after it, PROVIDED `outs` names, for the region's output array, what the
  pipeline's write-backs leave there. The region's arrays are split out of the held buffers on entry and put back
  on exit; its inputs' arrays end as they were; the generator register passes through the pipeline's invariant.
-/
import proofs.«149571_j25649544692292_2_alg».proof.Proof.KI.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Input array 0 is at the exit what it was at the entry. -/
theorem hF2_0 (c : Dev nD) : (dat2 (ent2 m outs) c).arrAt 0 cfg2.N = ext2 m outs c (Pipeline.arrRef spec2 0) :=
  (((dat2 (ent2 m outs) c).arrAt_in 0 rfl _).trans (A_eq2 (ent2 m outs) c 0)).trans (V6_of m outs c _ (by decide)).symm
/-- Input array 1 is at the exit what it was at the entry. -/
theorem hF2_1 (c : Dev nD) : (dat2 (ent2 m outs) c).arrAt 1 cfg2.N = ext2 m outs c (Pipeline.arrRef spec2 1) :=
  (((dat2 (ent2 m outs) c).arrAt_in 1 rfl _).trans (A_eq2 (ent2 m outs) c 1)).trans (V6_of m outs c _ (by decide)).symm
/-- Input array 2 is at the exit what it was at the entry. -/
theorem hF2_2 (c : Dev nD) : (dat2 (ent2 m outs) c).arrAt 2 cfg2.N = ext2 m outs c (Pipeline.arrRef spec2 2) :=
  (((dat2 (ent2 m outs) c).arrAt_in 2 rfl _).trans (A_eq2 (ent2 m outs) c 2)).trans (V6_of m outs c _ (by decide)).symm
/-- Input array 3 is at the exit what it was at the entry. -/
theorem hF2_3 (c : Dev nD) : (dat2 (ent2 m outs) c).arrAt 3 cfg2.N = ext2 m outs c (Pipeline.arrRef spec2 3) :=
  (((dat2 (ent2 m outs) c).arrAt_in 3 rfl _).trans (A_eq2 (ent2 m outs) c 3)).trans (V6_of m outs c _ (by decide)).symm
/-- The output array is at the exit what `outs` names. -/
theorem hF2_4 (h : ∀ c, outs 6 main_v62 c = (dat2 (ent2 m outs) c).arrAt 4 cfg2.N) (c : Dev nD) :
    (dat2 (ent2 m outs) c).arrAt 4 cfg2.N = ext2 m outs c (Pipeline.arrRef spec2 4) :=
  (h c).symm.trans (by
    show outs 6 main_v62 c = Function.update (V5 m outs c) main_v62 (outs 6 main_v62 c) main_v62
    rw [Function.update_self])

/-- Each of the region's arrays at its exit contents. -/
theorem hF2 (h : ∀ c, outs 6 main_v62 c = (dat2 (ent2 m outs) c).arrAt 4 cfg2.N) (c : Dev nD) (w : Fin cfg2.W) :
    (dat2 (ent2 m outs) c).arrAt w cfg2.N = ext2 m outs c (Pipeline.arrRef spec2 w) := by
  fin_cases w
  · exact hF2_0 m outs c
  · exact hF2_1 m outs c
  · exact hF2_2 m outs c
  · exact hF2_3 m outs c
  · exact hF2_4 m outs h c

/-- Every other buffer is as it was. -/
theorem hrest2 (c : Dev nD) : ∀ b, b ∉ Finset.univ.image (Pipeline.arrRef spec2) → ext2 m outs c b = ent2 m outs c b :=
  fun b hb => V6_of m outs c b (fun hmem => hb (by
    rw [List.mem_singleton] at hmem; subst hmem
    exact Finset.mem_image.mpr ⟨4, Finset.mem_univ _, rfl⟩))

set_option backward.isDefEq.respectTransparency.types false in
/-- Region 2 over the thread state. -/
def reg2 (h : ∀ c, outs 6 main_v62 c = (dat2 (ent2 m outs) c).arrAt 4 cfg2.N) :
    Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (ent2 m outs) c).loose
  hwaits := Pipeline.hwaits_of_owed_zero _ _ _ _ L lv 2 fun _ _ => rfl
  pre c := iprop(StableHlo.held (c : Thread nD τ) (Pipeline.ucRefs τ sig) (V5 m outs c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec2 c (ent2 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (ent2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (ent2 m outs c) (ext2 m outs c) ((pdats m outs 2 c).arrAt · cfg2.N) (hF2 m outs h c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg3.lean ====
/-
  Region 3 as one item of the program: entered with every unscoped buffer held at the contents before it, left
  with them held at the contents after it, PROVIDED `outs` names, for the region's output array, what the
  pipeline's write-backs leave there. The region's arrays are split out of the held buffers on entry and put back
  on exit; its inputs' arrays end as they were; the generator register passes through the pipeline's invariant.
-/
import proofs.«149571_j25649544692292_2_alg».proof.Proof.KI.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Input array 0 is at the exit what it was at the entry. -/
theorem hF3_0 (c : Dev nD) : (dat3 (ent3 m outs) c).arrAt 0 cfg3.N = ext3 m outs c (Pipeline.arrRef spec3 0) :=
  (((dat3 (ent3 m outs) c).arrAt_in 0 rfl _).trans (A_eq3 (ent3 m outs) c 0)).trans (V8_of m outs c _ (by decide)).symm
/-- Input array 1 is at the exit what it was at the entry. -/
theorem hF3_1 (c : Dev nD) : (dat3 (ent3 m outs) c).arrAt 1 cfg3.N = ext3 m outs c (Pipeline.arrRef spec3 1) :=
  (((dat3 (ent3 m outs) c).arrAt_in 1 rfl _).trans (A_eq3 (ent3 m outs) c 1)).trans (V8_of m outs c _ (by decide)).symm
/-- Input array 2 is at the exit what it was at the entry. -/
theorem hF3_2 (c : Dev nD) : (dat3 (ent3 m outs) c).arrAt 2 cfg3.N = ext3 m outs c (Pipeline.arrRef spec3 2) :=
  (((dat3 (ent3 m outs) c).arrAt_in 2 rfl _).trans (A_eq3 (ent3 m outs) c 2)).trans (V8_of m outs c _ (by decide)).symm
/-- Input array 3 is at the exit what it was at the entry. -/
theorem hF3_3 (c : Dev nD) : (dat3 (ent3 m outs) c).arrAt 3 cfg3.N = ext3 m outs c (Pipeline.arrRef spec3 3) :=
  (((dat3 (ent3 m outs) c).arrAt_in 3 rfl _).trans (A_eq3 (ent3 m outs) c 3)).trans (V8_of m outs c _ (by decide)).symm
/-- Input array 4 is at the exit what it was at the entry. -/
theorem hF3_4 (c : Dev nD) : (dat3 (ent3 m outs) c).arrAt 4 cfg3.N = ext3 m outs c (Pipeline.arrRef spec3 4) :=
  (((dat3 (ent3 m outs) c).arrAt_in 4 rfl _).trans (A_eq3 (ent3 m outs) c 4)).trans (V8_of m outs c _ (by decide)).symm
/-- Input array 5 is at the exit what it was at the entry. -/
theorem hF3_5 (c : Dev nD) : (dat3 (ent3 m outs) c).arrAt 5 cfg3.N = ext3 m outs c (Pipeline.arrRef spec3 5) :=
  (((dat3 (ent3 m outs) c).arrAt_in 5 rfl _).trans (A_eq3 (ent3 m outs) c 5)).trans (V8_of m outs c _ (by decide)).symm
/-- The output array is at the exit what `outs` names. -/
theorem hF3_6 (h : ∀ c, outs 8 main_v74 c = (dat3 (ent3 m outs) c).arrAt 6 cfg3.N) (c : Dev nD) :
    (dat3 (ent3 m outs) c).arrAt 6 cfg3.N = ext3 m outs c (Pipeline.arrRef spec3 6) :=
  (h c).symm.trans (by
    show outs 8 main_v74 c = Function.update (V7 m outs c) main_v74 (outs 8 main_v74 c) main_v74
    rw [Function.update_self])

/-- Each of the region's arrays at its exit contents. -/
theorem hF3 (h : ∀ c, outs 8 main_v74 c = (dat3 (ent3 m outs) c).arrAt 6 cfg3.N) (c : Dev nD) (w : Fin cfg3.W) :
    (dat3 (ent3 m outs) c).arrAt w cfg3.N = ext3 m outs c (Pipeline.arrRef spec3 w) := by
  fin_cases w
  · exact hF3_0 m outs c
  · exact hF3_1 m outs c
  · exact hF3_2 m outs c
  · exact hF3_3 m outs c
  · exact hF3_4 m outs c
  · exact hF3_5 m outs c
  · exact hF3_6 m outs h c

/-- Every other buffer is as it was. -/
theorem hrest3 (c : Dev nD) : ∀ b, b ∉ Finset.univ.image (Pipeline.arrRef spec3) → ext3 m outs c b = ent3 m outs c b :=
  fun b hb => V8_of m outs c b (fun hmem => hb (by
    rw [List.mem_singleton] at hmem; subst hmem
    exact Finset.mem_image.mpr ⟨6, Finset.mem_univ _, rfl⟩))

set_option backward.isDefEq.respectTransparency.types false in
/-- Region 3 over the thread state. -/
def reg3 (h : ∀ c, outs 8 main_v74 c = (dat3 (ent3 m outs) c).arrAt 6 cfg3.N) :
    Pipeline.RegionSeg (pcfgs (F := F)) adm (pdats m outs) () defs₀ 𝒱₀ L lv 3 where
  win := launch3.win.to₀
  block_pos := launch3.block_pos
  stage_whole := launch3.stage_whole
  K := PEmpty
  osem k := k.elim
  ho := Pipeline.OwnSemFacts.none _
  hbody c := (body_obligation3 (ent3 m outs) c).loose
  hwaits := Pipeline.hwaits_of_owed_zero _ _ _ _ L lv 3 fun _ _ => rfl
  pre c := iprop(StableHlo.held (c : Thread nD τ) (Pipeline.ucRefs τ sig) (V7 m outs c) ∗ R c)
  post c := iprop(StableHlo.held (c : Thread nD τ) (Pipeline.ucRefs τ sig) (V8 m outs c) ∗ R c)
  X c := iprop(∃ r, prngReg c r)
  Y c := iprop(∃ r, prngReg c r)
  Z c := Pipeline.unscopedRest (Ix := Unit) (Name := ℕ) (U := UR sig nD τ) (Lvl := ℕ) spec3 c (ent3 m outs c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (ent3 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (ent3 m outs c) (ext3 m outs c) ((pdats m outs 3 c).arrAt · cfg3.N) (hF3 m outs h c) (hrest3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg4.lean ====
/-
  Region 4 as one item of the program: entered with every unscoped buffer held at the contents before it, left
  with them held at the contents after it, PROVIDED `outs` names, for the region's output array, what the
  pipeline's write-backs leave there. The region's arrays are split out of the held buffers on entry and put back
  on exit; its inputs' arrays end as they were; the generator register passes through the pipeline's invariant.
-/
import proofs.«149571_j25649544692292_2_alg».proof.Proof.KI.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Input array 0 is at the exit what it was at the entry. -/
theorem hF4_0 (c : Dev nD) : (dat4 (ent4 m outs) c).arrAt 0 cfg4.N = ext4 m outs c (Pipeline.arrRef spec4 0) :=
  (((dat4 (ent4 m outs) c).arrAt_in 0 rfl _).trans (A_eq4 (ent4 m outs) c 0)).trans (V10_of m outs c _ (by decide)).symm
/-- Input array 1 is at the exit what it was at the entry. -/
theorem hF4_1 (c : Dev nD) : (dat4 (ent4 m outs) c).arrAt 1 cfg4.N = ext4 m outs c (Pipeline.arrRef spec4 1) :=
  (((dat4 (ent4 m outs) c).arrAt_in 1 rfl _).trans (A_eq4 (ent4 m outs) c 1)).trans (V10_of m outs c _ (by decide)).symm
/-- Input array 2 is at the exit what it was at the entry. -/
theorem hF4_2 (c : Dev nD) : (dat4 (ent4 m outs) c).arrAt 2 cfg4.N = ext4 m outs c (Pipeline.arrRef spec4 2) :=
  (((dat4 (ent4 m outs) c).arrAt_in 2 rfl _).trans (A_eq4 (ent4 m outs) c 2)).trans (V10_of m outs c _ (by decide)).symm
/-- Input array 3 is at the exit what it was at the entry. -/
theorem hF4_3 (c : Dev nD) : (dat4 (ent4 m outs) c).arrAt 3 cfg4.N = ext4 m outs c (Pipeline.arrRef spec4 3) :=
  (((dat4 (ent4 m outs) c).arrAt_in 3 rfl _).trans (A_eq4 (ent4 m outs) c 3)).trans (V10_of m outs c _ (by decide)).symm
/-- The output array is at the exit what `outs` names. -/
theorem hF4_4 (h : ∀ c, outs 10 main_v86 c = (dat4 (ent4 m outs) c).arrAt 4 cfg4.N) (c : Dev nD) :
    (dat4 (ent4 m outs) c).arrAt 4 cfg4.N = ext4 m outs c (Pipeline.arrRef spec4 4) :=
  (h c).symm.trans (by
    show outs 10 main_v86 c = Function.update (V9 m outs c) main_v86 (outs 10 main_v86 c) main_v86
    rw [Function.update_self])

/-- Each of the region's arrays at its exit contents. -/
theorem hF4 (h : ∀ c, outs 10 main_v86 c = (dat4 (ent4 m outs) c).arrAt 4 cfg4.N) (c : Dev nD) (w : Fin cfg4.W) :
    (dat4 (ent4 m outs) c).arrAt w cfg4.N = ext4 m outs c (Pipeline.arrRef spec4 w) := by
  fin_cases w
  · exact hF4_0 m outs c
  · exact hF4_1 m outs c
  · exact hF4_2 m outs c
  · exact hF4_3 m outs c
  · exact hF4_4 m outs h c

/-- Every other buffer is as it was. -/
theorem hrest4 (c : Dev nD) : ∀ b, b ∉ Finset.univ.image (Pipeline.arrRef spec4) → ext4 m outs c b = ent4 m outs c b :=
  fun b hb => V10_of m outs c b (fun hmem => hb (by
    rw [List.mem_singleton] at hmem; subst hmem
    exact Finset.mem_image.mpr ⟨4, Finset.mem_univ _, rfl⟩))

set_option backward.isDefEq.respectTransparency.types false in
/-- Region 4 over the thread state. -/
def reg4 (h : ∀ c, outs 10 main_v86 c = (dat4 (ent4 m outs) c).arrAt 4 cfg4.N) :
    Pipeline.RegionSeg (pcfgs (F := F)) adm (pdats m outs) () defs₀ 𝒱₀ L lv 4 where
  win := launch4.win.to₀
  block_pos := launch4.block_pos
  stage_whole := launch4.stage_whole
  K := PEmpty
  osem k := k.elim
  ho := Pipeline.OwnSemFacts.none _
  hbody c := (body_obligation4 (ent4 m outs) c).loose
  hwaits := Pipeline.hwaits_of_owed_zero _ _ _ _ L lv 4 fun _ _ => rfl
  pre c := iprop(StableHlo.held (c : Thread nD τ) (Pipeline.ucRefs τ sig) (V9 m outs c) ∗ R c)
  post c := iprop(StableHlo.held (c : Thread nD τ) (Pipeline.ucRefs τ sig) (V10 m outs c) ∗ R c)
  X c := iprop(∃ r, prngReg c r)
  Y c := iprop(∃ r, prngReg c r)
  Z c := Pipeline.unscopedRest (Ix := Unit) (Name := ℕ) (U := UR sig nD τ) (Lvl := ℕ) spec4 c (ent4 m outs c)
  hentry c := by
    rw [Pipeline.ownSems0_none]
    have hsplit := Pipeline.arrays_of_unscopedBufs (p := 4) (pcfgs (F := F)) adm (pdats m outs) launch4.win launch4.arr_whole c
      ((pdats m outs 4 c).share_full fun _ => rfl) (ent4 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m outs 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m outs) ((pdats m outs 4 c).share_full fun _ => rfl)
      (ent4 m outs c) (ext4 m outs c) ((pdats m outs 4 c).arrAt · cfg4.N) (hF4 m outs h c) (hrest4 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg5.lean ====
/-
  Region 5 as one item of the program: entered with every unscoped buffer held at the contents before it, left
  with them held at the contents after it, PROVIDED `outs` names, for the region's output array, what the
  pipeline's write-backs leave there. The region's arrays are split out of the held buffers on entry and put back
  on exit; its inputs' arrays end as they were; the generator register passes through the pipeline's invariant.
-/
import proofs.«149571_j25649544692292_2_alg».proof.Proof.KI.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Input array 0 is at the exit what it was at the entry. -/
theorem hF5_0 (c : Dev nD) : (dat5 (ent5 m outs) c).arrAt 0 cfg5.N = ext5 m outs c (Pipeline.arrRef spec5 0) :=
  (((dat5 (ent5 m outs) c).arrAt_in 0 rfl _).trans (A_eq5 (ent5 m outs) c 0)).trans (V12_of m outs c _ (by decide)).symm
/-- Input array 1 is at the exit what it was at the entry. -/
theorem hF5_1 (c : Dev nD) : (dat5 (ent5 m outs) c).arrAt 1 cfg5.N = ext5 m outs c (Pipeline.arrRef spec5 1) :=
  (((dat5 (ent5 m outs) c).arrAt_in 1 rfl _).trans (A_eq5 (ent5 m outs) c 1)).trans (V12_of m outs c _ (by decide)).symm
/-- Input array 2 is at the exit what it was at the entry. -/
theorem hF5_2 (c : Dev nD) : (dat5 (ent5 m outs) c).arrAt 2 cfg5.N = ext5 m outs c (Pipeline.arrRef spec5 2) :=
  (((dat5 (ent5 m outs) c).arrAt_in 2 rfl _).trans (A_eq5 (ent5 m outs) c 2)).trans (V12_of m outs c _ (by decide)).symm
/-- Input array 3 is at the exit what it was at the entry. -/
theorem hF5_3 (c : Dev nD) : (dat5 (ent5 m outs) c).arrAt 3 cfg5.N = ext5 m outs c (Pipeline.arrRef spec5 3) :=
  (((dat5 (ent5 m outs) c).arrAt_in 3 rfl _).trans (A_eq5 (ent5 m outs) c 3)).trans (V12_of m outs c _ (by decide)).symm
/-- Input array 4 is at the exit what it was at the entry. -/
theorem hF5_4 (c : Dev nD) : (dat5 (ent5 m outs) c).arrAt 4 cfg5.N = ext5 m outs c (Pipeline.arrRef spec5 4) :=
  (((dat5 (ent5 m outs) c).arrAt_in 4 rfl _).trans (A_eq5 (ent5 m outs) c 4)).trans (V12_of m outs c _ (by decide)).symm
/-- Input array 5 is at the exit what it was at the entry. -/
theorem hF5_5 (c : Dev nD) : (dat5 (ent5 m outs) c).arrAt 5 cfg5.N = ext5 m outs c (Pipeline.arrRef spec5 5) :=
  (((dat5 (ent5 m outs) c).arrAt_in 5 rfl _).trans (A_eq5 (ent5 m outs) c 5)).trans (V12_of m outs c _ (by decide)).symm
/-- The output array is at the exit what `outs` names. -/
theorem hF5_6 (h : ∀ c, outs 12 main_v98 c = (dat5 (ent5 m outs) c).arrAt 6 cfg5.N) (c : Dev nD) :
    (dat5 (ent5 m outs) c).arrAt 6 cfg5.N = ext5 m outs c (Pipeline.arrRef spec5 6) :=
  (h c).symm.trans (by
    show outs 12 main_v98 c = Function.update (V11 m outs c) main_v98 (outs 12 main_v98 c) main_v98
    rw [Function.update_self])

/-- Each of the region's arrays at its exit contents. -/
theorem hF5 (h : ∀ c, outs 12 main_v98 c = (dat5 (ent5 m outs) c).arrAt 6 cfg5.N) (c : Dev nD) (w : Fin cfg5.W) :
    (dat5 (ent5 m outs) c).arrAt w cfg5.N = ext5 m outs c (Pipeline.arrRef spec5 w) := by
  fin_cases w
  · exact hF5_0 m outs c
  · exact hF5_1 m outs c
  · exact hF5_2 m outs c
  · exact hF5_3 m outs c
  · exact hF5_4 m outs c
  · exact hF5_5 m outs c
  · exact hF5_6 m outs h c

/-- Every other buffer is as it was. -/
theorem hrest5 (c : Dev nD) : ∀ b, b ∉ Finset.univ.image (Pipeline.arrRef spec5) → ext5 m outs c b = ent5 m outs c b :=
  fun b hb => V12_of m outs c b (fun hmem => hb (by
    rw [List.mem_singleton] at hmem; subst hmem
    exact Finset.mem_image.mpr ⟨6, Finset.mem_univ _, rfl⟩))

set_option backward.isDefEq.respectTransparency.types false in
/-- Region 5 over the thread state. -/
def reg5 (h : ∀ c, outs 12 main_v98 c = (dat5 (ent5 m outs) c).arrAt 6 cfg5.N) :
    Pipeline.RegionSeg (pcfgs (F := F)) adm (pdats m outs) () defs₀ 𝒱₀ L lv 5 where
  win := launch5.win.to₀
  block_pos := launch5.block_pos
  stage_whole := launch5.stage_whole
  K := PEmpty
  osem k := k.elim
  ho := Pipeline.OwnSemFacts.none _
  hbody c := (body_obligation5 (ent5 m outs) c).loose
  hwaits := Pipeline.hwaits_of_owed_zero _ _ _ _ L lv 5 fun _ _ => rfl
  pre c := iprop(StableHlo.held (c : Thread nD τ) (Pipeline.ucRefs τ sig) (V11 m outs c) ∗ R c)
  post c := iprop(StableHlo.held (c : Thread nD τ) (Pipeline.ucRefs τ sig) (V12 m outs c) ∗ R c)
  X c := iprop(∃ r, prngReg c r)
  Y c := iprop(∃ r, prngReg c r)
  Z c := Pipeline.unscopedRest (Ix := Unit) (Name := ℕ) (U := UR sig nD τ) (Lvl := ℕ) spec5 c (ent5 m outs c)
  hentry c := by
    rw [Pipeline.ownSems0_none]
    have hsplit := Pipeline.arrays_of_unscopedBufs (p := 5) (pcfgs (F := F)) adm (pdats m outs) launch5.win launch5.arr_whole c
      ((pdats m outs 5 c).share_full fun _ => rfl) (ent5 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m outs 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m outs) ((pdats m outs 5 c).share_full fun _ => rfl)
      (ent5 m outs c) (ext5 m outs c) ((pdats m outs 5 c).arrAt · cfg5.N) (hF5 m outs h c) (hrest5 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg6.lean ====
/-
  Region 6 as one item of the program: entered with every unscoped buffer held at the contents before it, left
  with them held at the contents after it, PROVIDED `outs` names, for the region's output array, what the
  pipeline's write-backs leave there. The region's arrays are split out of the held buffers on entry and put back
  on exit; its inputs' arrays end as they were; the generator register passes through the pipeline's invariant.
-/
import proofs.«149571_j25649544692292_2_alg».proof.Proof.KI.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Input array 0 is at the exit what it was at the entry. -/
theorem hF6_0 (c : Dev nD) : (dat6 (ent6 m outs) c).arrAt 0 cfg6.N = ext6 m outs c (Pipeline.arrRef spec6 0) :=
  (((dat6 (ent6 m outs) c).arrAt_in 0 rfl _).trans (A_eq6 (ent6 m outs) c 0)).trans (V14_of m outs c _ (by decide)).symm
/-- Input array 1 is at the exit what it was at the entry. -/
theorem hF6_1 (c : Dev nD) : (dat6 (ent6 m outs) c).arrAt 1 cfg6.N = ext6 m outs c (Pipeline.arrRef spec6 1) :=
  (((dat6 (ent6 m outs) c).arrAt_in 1 rfl _).trans (A_eq6 (ent6 m outs) c 1)).trans (V14_of m outs c _ (by decide)).symm
/-- Input array 2 is at the exit what it was at the entry. -/
theorem hF6_2 (c : Dev nD) : (dat6 (ent6 m outs) c).arrAt 2 cfg6.N = ext6 m outs c (Pipeline.arrRef spec6 2) :=
  (((dat6 (ent6 m outs) c).arrAt_in 2 rfl _).trans (A_eq6 (ent6 m outs) c 2)).trans (V14_of m outs c _ (by decide)).symm
/-- Input array 3 is at the exit what it was at the entry. -/
theorem hF6_3 (c : Dev nD) : (dat6 (ent6 m outs) c).arrAt 3 cfg6.N = ext6 m outs c (Pipeline.arrRef spec6 3) :=
  (((dat6 (ent6 m outs) c).arrAt_in 3 rfl _).trans (A_eq6 (ent6 m outs) c 3)).trans (V14_of m outs c _ (by decide)).symm
/-- The output array is at the exit what `outs` names. -/
theorem hF6_4 (h : ∀ c, outs 14 main_v110 c = (dat6 (ent6 m outs) c).arrAt 4 cfg6.N) (c : Dev nD) :
    (dat6 (ent6 m outs) c).arrAt 4 cfg6.N = ext6 m outs c (Pipeline.arrRef spec6 4) :=
  (h c).symm.trans (by
    show outs 14 main_v110 c = Function.update (V13 m outs c) main_v110 (outs 14 main_v110 c) main_v110
    rw [Function.update_self])

/-- Each of the region's arrays at its exit contents. -/
theorem hF6 (h : ∀ c, outs 14 main_v110 c = (dat6 (ent6 m outs) c).arrAt 4 cfg6.N) (c : Dev nD) (w : Fin cfg6.W) :
    (dat6 (ent6 m outs) c).arrAt w cfg6.N = ext6 m outs c (Pipeline.arrRef spec6 w) := by
  fin_cases w
  · exact hF6_0 m outs c
  · exact hF6_1 m outs c
  · exact hF6_2 m outs c
  · exact hF6_3 m outs c
  · exact hF6_4 m outs h c

/-- Every other buffer is as it was. -/
theorem hrest6 (c : Dev nD) : ∀ b, b ∉ Finset.univ.image (Pipeline.arrRef spec6) → ext6 m outs c b = ent6 m outs c b :=
  fun b hb => V14_of m outs c b (fun hmem => hb (by
    rw [List.mem_singleton] at hmem; subst hmem
    exact Finset.mem_image.mpr ⟨4, Finset.mem_univ _, rfl⟩))

set_option backward.isDefEq.respectTransparency.types false in
/-- Region 6 over the thread state. -/
def reg6 (h : ∀ c, outs 14 main_v110 c = (dat6 (ent6 m outs) c).arrAt 4 cfg6.N) :
    Pipeline.RegionSeg (pcfgs (F := F)) adm (pdats m outs) () defs₀ 𝒱₀ L lv 6 where
  win := launch6.win.to₀
  block_pos := launch6.block_pos
  stage_whole := launch6.stage_whole
  K := PEmpty
  osem k := k.elim
  ho := Pipeline.OwnSemFacts.none _
  hbody c := (body_obligation6 (ent6 m outs) c).loose
  hwaits := Pipeline.hwaits_of_owed_zero _ _ _ _ L lv 6 fun _ _ => rfl
  pre c := iprop(StableHlo.held (c : Thread nD τ) (Pipeline.ucRefs τ sig) (V13 m outs c) ∗ R c)
  post c := iprop(StableHlo.held (c : Thread nD τ) (Pipeline.ucRefs τ sig) (V14 m outs c) ∗ R c)
  X c := iprop(∃ r, prngReg c r)
  Y c := iprop(∃ r, prngReg c r)
  Z c := Pipeline.unscopedRest (Ix := Unit) (Name := ℕ) (U := UR sig nD τ) (Lvl := ℕ) spec6 c (ent6 m outs c)
  hentry c := by
    rw [Pipeline.ownSems0_none]
    have hsplit := Pipeline.arrays_of_unscopedBufs (p := 6) (pcfgs (F := F)) adm (pdats m outs) launch6.win launch6.arr_whole c
      ((pdats m outs 6 c).share_full fun _ => rfl) (ent6 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m outs 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m outs) ((pdats m outs 6 c).share_full fun _ => rfl)
      (ent6 m outs c) (ext6 m outs c) ((pdats m outs 6 c).arrAt · cfg6.N) (hF6 m outs h c) (hrest6 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg7.lean ====
/-
  Region 7 as one item of the program: entered with every unscoped buffer held at the contents before it, left
  with them held at the contents after it, PROVIDED `outs` names, for the region's output array, what the
  pipeline's write-backs leave there. The region's arrays are split out of the held buffers on entry and put back
  on exit; its inputs' arrays end as they were; the generator register passes through the pipeline's invariant.
-/
import proofs.«149571_j25649544692292_2_alg».proof.Proof.KI.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Input array 0 is at the exit what it was at the entry. -/
theorem hF7_0 (c : Dev nD) : (dat7 (ent7 m outs) c).arrAt 0 cfg7.N = ext7 m outs c (Pipeline.arrRef spec7 0) :=
  (((dat7 (ent7 m outs) c).arrAt_in 0 rfl _).trans (A_eq7 (ent7 m outs) c 0)).trans (V16_of m outs c _ (by decide)).symm
/-- Input array 1 is at the exit what it was at the entry. -/
theorem hF7_1 (c : Dev nD) : (dat7 (ent7 m outs) c).arrAt 1 cfg7.N = ext7 m outs c (Pipeline.arrRef spec7 1) :=
  (((dat7 (ent7 m outs) c).arrAt_in 1 rfl _).trans (A_eq7 (ent7 m outs) c 1)).trans (V16_of m outs c _ (by decide)).symm
/-- Input array 2 is at the exit what it was at the entry. -/
theorem hF7_2 (c : Dev nD) : (dat7 (ent7 m outs) c).arrAt 2 cfg7.N = ext7 m outs c (Pipeline.arrRef spec7 2) :=
  (((dat7 (ent7 m outs) c).arrAt_in 2 rfl _).trans (A_eq7 (ent7 m outs) c 2)).trans (V16_of m outs c _ (by decide)).symm
/-- Input array 3 is at the exit what it was at the entry. -/
theorem hF7_3 (c : Dev nD) : (dat7 (ent7 m outs) c).arrAt 3 cfg7.N = ext7 m outs c (Pipeline.arrRef spec7 3) :=
  (((dat7 (ent7 m outs) c).arrAt_in 3 rfl _).trans (A_eq7 (ent7 m outs) c 3)).trans (V16_of m outs c _ (by decide)).symm
/-- Input array 4 is at the exit what it was at the entry. -/
theorem hF7_4 (c : Dev nD) : (dat7 (ent7 m outs) c).arrAt 4 cfg7.N = ext7 m outs c (Pipeline.arrRef spec7 4) :=
  (((dat7 (ent7 m outs) c).arrAt_in 4 rfl _).trans (A_eq7 (ent7 m outs) c 4)).trans (V16_of m outs c _ (by decide)).symm
/-- Input array 5 is at the exit what it was at the entry. -/
theorem hF7_5 (c : Dev nD) : (dat7 (ent7 m outs) c).arrAt 5 cfg7.N = ext7 m outs c (Pipeline.arrRef spec7 5) :=
  (((dat7 (ent7 m outs) c).arrAt_in 5 rfl _).trans (A_eq7 (ent7 m outs) c 5)).trans (V16_of m outs c _ (by decide)).symm
/-- The output array is at the exit what `outs` names. -/
theorem hF7_6 (h : ∀ c, outs 16 main_v122 c = (dat7 (ent7 m outs) c).arrAt 6 cfg7.N) (c : Dev nD) :
    (dat7 (ent7 m outs) c).arrAt 6 cfg7.N = ext7 m outs c (Pipeline.arrRef spec7 6) :=
  (h c).symm.trans (by
    show outs 16 main_v122 c = Function.update (V15 m outs c) main_v122 (outs 16 main_v122 c) main_v122
    rw [Function.update_self])

/-- Each of the region's arrays at its exit contents. -/
theorem hF7 (h : ∀ c, outs 16 main_v122 c = (dat7 (ent7 m outs) c).arrAt 6 cfg7.N) (c : Dev nD) (w : Fin cfg7.W) :
    (dat7 (ent7 m outs) c).arrAt w cfg7.N = ext7 m outs c (Pipeline.arrRef spec7 w) := by
  fin_cases w
  · exact hF7_0 m outs c
  · exact hF7_1 m outs c
  · exact hF7_2 m outs c
  · exact hF7_3 m outs c
  · exact hF7_4 m outs c
  · exact hF7_5 m outs c
  · exact hF7_6 m outs h c

/-- Every other buffer is as it was. -/
theorem hrest7 (c : Dev nD) : ∀ b, b ∉ Finset.univ.image (Pipeline.arrRef spec7) → ext7 m outs c b = ent7 m outs c b :=
  fun b hb => V16_of m outs c b (fun hmem => hb (by
    rw [List.mem_singleton] at hmem; subst hmem
    exact Finset.mem_image.mpr ⟨6, Finset.mem_univ _, rfl⟩))

set_option backward.isDefEq.respectTransparency.types false in
/-- Region 7 over the thread state. -/
def reg7 (h : ∀ c, outs 16 main_v122 c = (dat7 (ent7 m outs) c).arrAt 6 cfg7.N) :
    Pipeline.RegionSeg (pcfgs (F := F)) adm (pdats m outs) () defs₀ 𝒱₀ L lv 7 where
  win := launch7.win.to₀
  block_pos := launch7.block_pos
  stage_whole := launch7.stage_whole
  K := PEmpty
  osem k := k.elim
  ho := Pipeline.OwnSemFacts.none _
  hbody c := (body_obligation7 (ent7 m outs) c).loose
  hwaits := Pipeline.hwaits_of_owed_zero _ _ _ _ L lv 7 fun _ _ => rfl
  pre c := iprop(StableHlo.held (c : Thread nD τ) (Pipeline.ucRefs τ sig) (V15 m outs c) ∗ R c)
  post c := iprop(StableHlo.held (c : Thread nD τ) (Pipeline.ucRefs τ sig) (V16 m outs c) ∗ R c)
  X c := iprop(∃ r, prngReg c r)
  Y c := iprop(∃ r, prngReg c r)
  Z c := Pipeline.unscopedRest (Ix := Unit) (Name := ℕ) (U := UR sig nD τ) (Lvl := ℕ) spec7 c (ent7 m outs c)
  hentry c := by
    rw [Pipeline.ownSems0_none]
    have hsplit := Pipeline.arrays_of_unscopedBufs (p := 7) (pcfgs (F := F)) adm (pdats m outs) launch7.win launch7.arr_whole c
      ((pdats m outs 7 c).share_full fun _ => rfl) (ent7 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m outs 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m outs) ((pdats m outs 7 c).share_full fun _ => rfl)
      (ent7 m outs c) (ext7 m outs c) ((pdats m outs 7 c).arrAt · cfg7.N) (hF7 m outs h c) (hrest7 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg8.lean ====
/-
  Region 8 as one item of the program: entered with every unscoped buffer held at the contents before it, left
  with them held at the contents after it, PROVIDED `outs` names, for the region's output array, what the
  pipeline's write-backs leave there. The region's arrays are split out of the held buffers on entry and put back
  on exit; its inputs' arrays end as they were; the generator register passes through the pipeline's invariant.
-/
import proofs.«149571_j25649544692292_2_alg».proof.Proof.KI.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Input array 0 is at the exit what it was at the entry. -/
theorem hF8_0 (c : Dev nD) : (dat8 (ent8 m outs) c).arrAt 0 cfg8.N = ext8 m outs c (Pipeline.arrRef spec8 0) :=
  (((dat8 (ent8 m outs) c).arrAt_in 0 rfl _).trans (A_eq8 (ent8 m outs) c 0)).trans (V18_of m outs c _ (by decide)).symm
/-- Input array 1 is at the exit what it was at the entry. -/
theorem hF8_1 (c : Dev nD) : (dat8 (ent8 m outs) c).arrAt 1 cfg8.N = ext8 m outs c (Pipeline.arrRef spec8 1) :=
  (((dat8 (ent8 m outs) c).arrAt_in 1 rfl _).trans (A_eq8 (ent8 m outs) c 1)).trans (V18_of m outs c _ (by decide)).symm
/-- Input array 2 is at the exit what it was at the entry. -/
theorem hF8_2 (c : Dev nD) : (dat8 (ent8 m outs) c).arrAt 2 cfg8.N = ext8 m outs c (Pipeline.arrRef spec8 2) :=
  (((dat8 (ent8 m outs) c).arrAt_in 2 rfl _).trans (A_eq8 (ent8 m outs) c 2)).trans (V18_of m outs c _ (by decide)).symm
/-- Input array 3 is at the exit what it was at the entry. -/
theorem hF8_3 (c : Dev nD) : (dat8 (ent8 m outs) c).arrAt 3 cfg8.N = ext8 m outs c (Pipeline.arrRef spec8 3) :=
  (((dat8 (ent8 m outs) c).arrAt_in 3 rfl _).trans (A_eq8 (ent8 m outs) c 3)).trans (V18_of m outs c _ (by decide)).symm
/-- The output array is at the exit what `outs` names. -/
theorem hF8_4 (h : ∀ c, outs 18 main_v134 c = (dat8 (ent8 m outs) c).arrAt 4 cfg8.N) (c : Dev nD) :
    (dat8 (ent8 m outs) c).arrAt 4 cfg8.N = ext8 m outs c (Pipeline.arrRef spec8 4) :=
  (h c).symm.trans (by
    show outs 18 main_v134 c = Function.update (V17 m outs c) main_v134 (outs 18 main_v134 c) main_v134
    rw [Function.update_self])

/-- Each of the region's arrays at its exit contents. -/
theorem hF8 (h : ∀ c, outs 18 main_v134 c = (dat8 (ent8 m outs) c).arrAt 4 cfg8.N) (c : Dev nD) (w : Fin cfg8.W) :
    (dat8 (ent8 m outs) c).arrAt w cfg8.N = ext8 m outs c (Pipeline.arrRef spec8 w) := by
  fin_cases w
  · exact hF8_0 m outs c
  · exact hF8_1 m outs c
  · exact hF8_2 m outs c
  · exact hF8_3 m outs c
  · exact hF8_4 m outs h c

/-- Every other buffer is as it was. -/
theorem hrest8 (c : Dev nD) : ∀ b, b ∉ Finset.univ.image (Pipeline.arrRef spec8) → ext8 m outs c b = ent8 m outs c b :=
  fun b hb => V18_of m outs c b (fun hmem => hb (by
    rw [List.mem_singleton] at hmem; subst hmem
    exact Finset.mem_image.mpr ⟨4, Finset.mem_univ _, rfl⟩))

set_option backward.isDefEq.respectTransparency.types false in
/-- Region 8 over the thread state. -/
def reg8 (h : ∀ c, outs 18 main_v134 c = (dat8 (ent8 m outs) c).arrAt 4 cfg8.N) :
    Pipeline.RegionSeg (pcfgs (F := F)) adm (pdats m outs) () defs₀ 𝒱₀ L lv 8 where
  win := launch8.win.to₀
  block_pos := launch8.block_pos
  stage_whole := launch8.stage_whole
  K := PEmpty
  osem k := k.elim
  ho := Pipeline.OwnSemFacts.none _
  hbody c := (body_obligation8 (ent8 m outs) c).loose
  hwaits := Pipeline.hwaits_of_owed_zero _ _ _ _ L lv 8 fun _ _ => rfl
  pre c := iprop(StableHlo.held (c : Thread nD τ) (Pipeline.ucRefs τ sig) (V17 m outs c) ∗ R c)
  post c := iprop(StableHlo.held (c : Thread nD τ) (Pipeline.ucRefs τ sig) (V18 m outs c) ∗ R c)
  X c := iprop(∃ r, prngReg c r)
  Y c := iprop(∃ r, prngReg c r)
  Z c := Pipeline.unscopedRest (Ix := Unit) (Name := ℕ) (U := UR sig nD τ) (Lvl := ℕ) spec8 c (ent8 m outs c)
  hentry c := by
    rw [Pipeline.ownSems0_none]
    have hsplit := Pipeline.arrays_of_unscopedBufs (p := 8) (pcfgs (F := F)) adm (pdats m outs) launch8.win launch8.arr_whole c
      ((pdats m outs 8 c).share_full fun _ => rfl) (ent8 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m outs 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m outs) ((pdats m outs 8 c).share_full fun _ => rfl)
      (ent8 m outs c) (ext8 m outs c) ((pdats m outs 8 c).arrAt · cfg8.N) (hF8 m outs h c) (hrest8 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg9.lean ====
/-
  Region 9 as one item of the program: entered with every unscoped buffer held at the contents before it, left
  with them held at the contents after it, PROVIDED `outs` names, for the region's output array, what the
  pipeline's write-backs leave there. The region's arrays are split out of the held buffers on entry and put back
  on exit; its inputs' arrays end as they were; the generator register passes through the pipeline's invariant.
-/
import proofs.«149571_j25649544692292_2_alg».proof.Proof.KI.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Input array 0 is at the exit what it was at the entry. -/
theorem hF9_0 (c : Dev nD) : (dat9 (ent9 m outs) c).arrAt 0 cfg9.N = ext9 m outs c (Pipeline.arrRef spec9 0) :=
  (((dat9 (ent9 m outs) c).arrAt_in 0 rfl _).trans (A_eq9 (ent9 m outs) c 0)).trans (V20_of m outs c _ (by decide)).symm
/-- Input array 1 is at the exit what it was at the entry. -/
theorem hF9_1 (c : Dev nD) : (dat9 (ent9 m outs) c).arrAt 1 cfg9.N = ext9 m outs c (Pipeline.arrRef spec9 1) :=
  (((dat9 (ent9 m outs) c).arrAt_in 1 rfl _).trans (A_eq9 (ent9 m outs) c 1)).trans (V20_of m outs c _ (by decide)).symm
/-- Input array 2 is at the exit what it was at the entry. -/
theorem hF9_2 (c : Dev nD) : (dat9 (ent9 m outs) c).arrAt 2 cfg9.N = ext9 m outs c (Pipeline.arrRef spec9 2) :=
  (((dat9 (ent9 m outs) c).arrAt_in 2 rfl _).trans (A_eq9 (ent9 m outs) c 2)).trans (V20_of m outs c _ (by decide)).symm
/-- Input array 3 is at the exit what it was at the entry. -/
theorem hF9_3 (c : Dev nD) : (dat9 (ent9 m outs) c).arrAt 3 cfg9.N = ext9 m outs c (Pipeline.arrRef spec9 3) :=
  (((dat9 (ent9 m outs) c).arrAt_in 3 rfl _).trans (A_eq9 (ent9 m outs) c 3)).trans (V20_of m outs c _ (by decide)).symm
/-- Input array 4 is at the exit what it was at the entry. -/
theorem hF9_4 (c : Dev nD) : (dat9 (ent9 m outs) c).arrAt 4 cfg9.N = ext9 m outs c (Pipeline.arrRef spec9 4) :=
  (((dat9 (ent9 m outs) c).arrAt_in 4 rfl _).trans (A_eq9 (ent9 m outs) c 4)).trans (V20_of m outs c _ (by decide)).symm
/-- Input array 5 is at the exit what it was at the entry. -/
theorem hF9_5 (c : Dev nD) : (dat9 (ent9 m outs) c).arrAt 5 cfg9.N = ext9 m outs c (Pipeline.arrRef spec9 5) :=
  (((dat9 (ent9 m outs) c).arrAt_in 5 rfl _).trans (A_eq9 (ent9 m outs) c 5)).trans (V20_of m outs c _ (by decide)).symm
/-- The output array is at the exit what `outs` names. -/
theorem hF9_6 (h : ∀ c, outs 20 main_v146 c = (dat9 (ent9 m outs) c).arrAt 6 cfg9.N) (c : Dev nD) :
    (dat9 (ent9 m outs) c).arrAt 6 cfg9.N = ext9 m outs c (Pipeline.arrRef spec9 6) :=
  (h c).symm.trans (by
    show outs 20 main_v146 c = Function.update (V19 m outs c) main_v146 (outs 20 main_v146 c) main_v146
    rw [Function.update_self])

/-- Each of the region's arrays at its exit contents. -/
theorem hF9 (h : ∀ c, outs 20 main_v146 c = (dat9 (ent9 m outs) c).arrAt 6 cfg9.N) (c : Dev nD) (w : Fin cfg9.W) :
    (dat9 (ent9 m outs) c).arrAt w cfg9.N = ext9 m outs c (Pipeline.arrRef spec9 w) := by
  fin_cases w
  · exact hF9_0 m outs c
  · exact hF9_1 m outs c
  · exact hF9_2 m outs c
  · exact hF9_3 m outs c
  · exact hF9_4 m outs c
  · exact hF9_5 m outs c
  · exact hF9_6 m outs h c

/-- Every other buffer is as it was. -/
theorem hrest9 (c : Dev nD) : ∀ b, b ∉ Finset.univ.image (Pipeline.arrRef spec9) → ext9 m outs c b = ent9 m outs c b :=
  fun b hb => V20_of m outs c b (fun hmem => hb (by
    rw [List.mem_singleton] at hmem; subst hmem
    exact Finset.mem_image.mpr ⟨6, Finset.mem_univ _, rfl⟩))

set_option backward.isDefEq.respectTransparency.types false in
/-- Region 9 over the thread state. -/
def reg9 (h : ∀ c, outs 20 main_v146 c = (dat9 (ent9 m outs) c).arrAt 6 cfg9.N) :
    Pipeline.RegionSeg (pcfgs (F := F)) adm (pdats m outs) () defs₀ 𝒱₀ L lv 9 where
  win := launch9.win.to₀
  block_pos := launch9.block_pos
  stage_whole := launch9.stage_whole
  K := PEmpty
  osem k := k.elim
  ho := Pipeline.OwnSemFacts.none _
  hbody c := (body_obligation9 (ent9 m outs) c).loose
  hwaits := Pipeline.hwaits_of_owed_zero _ _ _ _ L lv 9 fun _ _ => rfl
  pre c := iprop(StableHlo.held (c : Thread nD τ) (Pipeline.ucRefs τ sig) (V19 m outs c) ∗ R c)
  post c := iprop(StableHlo.held (c : Thread nD τ) (Pipeline.ucRefs τ sig) (V20 m outs c) ∗ R c)
  X c := iprop(∃ r, prngReg c r)
  Y c := iprop(∃ r, prngReg c r)
  Z c := Pipeline.unscopedRest (Ix := Unit) (Name := ℕ) (U := UR sig nD τ) (Lvl := ℕ) spec9 c (ent9 m outs c)
  hentry c := by
    rw [Pipeline.ownSems0_none]
    have hsplit := Pipeline.arrays_of_unscopedBufs (p := 9) (pcfgs (F := F)) adm (pdats m outs) launch9.win launch9.arr_whole c
      ((pdats m outs 9 c).share_full fun _ => rfl) (ent9 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m outs 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m outs) ((pdats m outs 9 c).share_full fun _ => rfl)
      (ent9 m outs c) (ext9 m outs c) ((pdats m outs 9 c).arrAt · cfg9.N) (hF9 m outs h c) (hrest9 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg10.lean ====
/-
  Region 10 as one item of the program: entered with every unscoped buffer held at the contents before it, left
  with them held at the contents after it, PROVIDED `outs` names, for the region's output array, what the
  pipeline's write-backs leave there. The region's arrays are split out of the held buffers on entry and put back
  on exit; its inputs' arrays end as they were; the generator register passes through the pipeline's invariant.
-/
import proofs.«149571_j25649544692292_2_alg».proof.Proof.KI.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Input array 0 is at the exit what it was at the entry. -/
theorem hF10_0 (c : Dev nD) : (dat10 (ent10 m outs) c).arrAt 0 cfg10.N = ext10 m outs c (Pipeline.arrRef spec10 0) :=
  (((dat10 (ent10 m outs) c).arrAt_in 0 rfl _).trans (A_eq10 (ent10 m outs) c 0)).trans (V21_of m outs c _ (by decide)).symm
/-- Input array 1 is at the exit what it was at the entry. -/
theorem hF10_1 (c : Dev nD) : (dat10 (ent10 m outs) c).arrAt 1 cfg10.N = ext10 m outs c (Pipeline.arrRef spec10 1) :=
  (((dat10 (ent10 m outs) c).arrAt_in 1 rfl _).trans (A_eq10 (ent10 m outs) c 1)).trans (V21_of m outs c _ (by decide)).symm
/-- Input array 2 is at the exit what it was at the entry. -/
theorem hF10_2 (c : Dev nD) : (dat10 (ent10 m outs) c).arrAt 2 cfg10.N = ext10 m outs c (Pipeline.arrRef spec10 2) :=
  (((dat10 (ent10 m outs) c).arrAt_in 2 rfl _).trans (A_eq10 (ent10 m outs) c 2)).trans (V21_of m outs c _ (by decide)).symm
/-- Input array 3 is at the exit what it was at the entry. -/
theorem hF10_3 (c : Dev nD) : (dat10 (ent10 m outs) c).arrAt 3 cfg10.N = ext10 m outs c (Pipeline.arrRef spec10 3) :=
  (((dat10 (ent10 m outs) c).arrAt_in 3 rfl _).trans (A_eq10 (ent10 m outs) c 3)).trans (V21_of m outs c _ (by decide)).symm
/-- Input array 4 is at the exit what it was at the entry. -/
theorem hF10_4 (c : Dev nD) : (dat10 (ent10 m outs) c).arrAt 4 cfg10.N = ext10 m outs c (Pipeline.arrRef spec10 4) :=
  (((dat10 (ent10 m outs) c).arrAt_in 4 rfl _).trans (A_eq10 (ent10 m outs) c 4)).trans (V21_of m outs c _ (by decide)).symm
/-- The output array is at the exit what `outs` names. -/
theorem hF10_5 (h : ∀ c, outs 21 main_v147 c = (dat10 (ent10 m outs) c).arrAt 5 cfg10.N) (c : Dev nD) :
    (dat10 (ent10 m outs) c).arrAt 5 cfg10.N = ext10 m outs c (Pipeline.arrRef spec10 5) :=
  (h c).symm.trans (by
    show outs 21 main_v147 c = Function.update (V20 m outs c) main_v147 (outs 21 main_v147 c) main_v147
    rw [Function.update_self])

/-- Each of the region's arrays at its exit contents. -/
theorem hF10 (h : ∀ c, outs 21 main_v147 c = (dat10 (ent10 m outs) c).arrAt 5 cfg10.N) (c : Dev nD) (w : Fin cfg10.W) :
    (dat10 (ent10 m outs) c).arrAt w cfg10.N = ext10 m outs c (Pipeline.arrRef spec10 w) := by
  fin_cases w
  · exact hF10_0 m outs c
  · exact hF10_1 m outs c
  · exact hF10_2 m outs c
  · exact hF10_3 m outs c
  · exact hF10_4 m outs c
  · exact hF10_5 m outs h c

/-- Every other buffer is as it was. -/
theorem hrest10 (c : Dev nD) : ∀ b, b ∉ Finset.univ.image (Pipeline.arrRef spec10) → ext10 m outs c b = ent10 m outs c b :=
  fun b hb => V21_of m outs c b (fun hmem => hb (by
    rw [List.mem_singleton] at hmem; subst hmem
    exact Finset.mem_image.mpr ⟨5, Finset.mem_univ _, rfl⟩))

set_option backward.isDefEq.respectTransparency.types false in
/-- Region 10 over the thread state. -/
def reg10 (h : ∀ c, outs 21 main_v147 c = (dat10 (ent10 m outs) c).arrAt 5 cfg10.N) :
    Pipeline.RegionSeg (pcfgs (F := F)) adm (pdats m outs) () defs₀ 𝒱₀ L lv 10 where
  win := launch10.win.to₀
  block_pos := launch10.block_pos
  stage_whole := launch10.stage_whole
  K := PEmpty
  osem k := k.elim
  ho := Pipeline.OwnSemFacts.none _
  hbody c := (body_obligation10 (ent10 m outs) c).loose
  hwaits := Pipeline.hwaits_of_owed_zero _ _ _ _ L lv 10 fun _ _ => rfl
  pre c := iprop(StableHlo.held (c : Thread nD τ) (Pipeline.ucRefs τ sig) (V20 m outs c) ∗ R c)
  post c := iprop(StableHlo.held (c : Thread nD τ) (Pipeline.ucRefs τ sig) (V21 m outs c) ∗ R c)
  X c := iprop(∃ r, prngReg c r)
  Y c := iprop(∃ r, prngReg c r)
  Z c := Pipeline.unscopedRest (Ix := Unit) (Name := ℕ) (U := UR sig nD τ) (Lvl := ℕ) spec10 c (ent10 m outs c)
  hentry c := by
    rw [Pipeline.ownSems0_none]
    have hsplit := Pipeline.arrays_of_unscopedBufs (p := 10) (pcfgs (F := F)) adm (pdats m outs) launch10.win launch10.arr_whole c
      ((pdats m outs 10 c).share_full fun _ => rfl) (ent10 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m outs 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m outs) ((pdats m outs 10 c).share_full fun _ => rfl)
      (ent10 m outs c) (ext10 m outs c) ((pdats m outs 10 c).arrAt · cfg10.N) (hF10 m outs h c) (hrest10 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Run.lean ====
/-
  The program's run. Its eleven regions and the stretches of host operations between them are chained from the
  launch memory: every weakly fair execution terminates, faulting nowhere, and in the final memory every unscoped
  buffer holds the last boundary's contents — in particular each argument array what it was launched with and the
  result array what the last region's write-backs leave — PROVIDED `outs` names what each region's write-backs
  leave in its output array.
-/
import proofs.«149571_j25649544692292_2_alg».proof.Proof.KI.Seg0
import proofs.«149571_j25649544692292_2_alg».proof.Proof.KI.Seg1
import proofs.«149571_j25649544692292_2_alg».proof.Proof.KI.Seg2
import proofs.«149571_j25649544692292_2_alg».proof.Proof.KI.Seg3
import proofs.«149571_j25649544692292_2_alg».proof.Proof.KI.Seg4
import proofs.«149571_j25649544692292_2_alg».proof.Proof.KI.Seg5
import proofs.«149571_j25649544692292_2_alg».proof.Proof.KI.Seg6
import proofs.«149571_j25649544692292_2_alg».proof.Proof.KI.Seg7
import proofs.«149571_j25649544692292_2_alg».proof.Proof.KI.Seg8
import proofs.«149571_j25649544692292_2_alg».proof.Proof.KI.Seg9
import proofs.«149571_j25649544692292_2_alg».proof.Proof.KI.Seg10

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg) (outs : Outs (F := F))

/-- The rest that rides beside the buffers between any two items. -/
abbrev E : Fin 12 → Dev nD → sProp 𝕄 := fun _ c => R c

set_option backward.isDefEq.respectTransparency.types false in
theorem run_all (h0 : ∀ c, outs 2 main_v38 c = (dat0 (ent0 m) c).arrAt 4 cfg0.N)
    (h1 : ∀ c, outs 4 main_v50 c = (dat1 (ent1 m outs) c).arrAt 6 cfg1.N)
    (h2 : ∀ c, outs 6 main_v62 c = (dat2 (ent2 m outs) c).arrAt 4 cfg2.N)
    (h3 : ∀ c, outs 8 main_v74 c = (dat3 (ent3 m outs) c).arrAt 6 cfg3.N)
    (h4 : ∀ c, outs 10 main_v86 c = (dat4 (ent4 m outs) c).arrAt 4 cfg4.N)
    (h5 : ∀ c, outs 12 main_v98 c = (dat5 (ent5 m outs) c).arrAt 6 cfg5.N)
    (h6 : ∀ c, outs 14 main_v110 c = (dat6 (ent6 m outs) c).arrAt 4 cfg6.N)
    (h7 : ∀ c, outs 16 main_v122 c = (dat7 (ent7 m outs) c).arrAt 6 cfg7.N)
    (h8 : ∀ c, outs 18 main_v134 c = (dat8 (ent8 m outs) c).arrAt 4 cfg8.N)
    (h9 : ∀ c, outs 20 main_v146 c = (dat9 (ent9 m outs) c).arrAt 6 cfg9.N)
    (h10 : ∀ c, outs 21 main_v147 c = (dat10 (ent10 m outs) c).arrAt 5 cfg10.N) :
    θ_run defs (onTc (τ := τ) (main (F := F))) ⟨m, fun _ => 0, ρ⟩ (fun r => ∀ c : Dev nD,
      ∀ b ∈ Pipeline.ucRefs τ sig, r.2.mem (((c : Thread nD τ)).1, b) = V21 m outs c b) := by
  refine Pipeline.θ_run_regions_kit_dev (pcfgs (F := F)) adm (pdats m outs) () cellOf_inj emb₁ defs₀ 𝒱₀ L lv m ρ main
    (segs m outs 𝒱₀ L lv E () (pdats m outs) (reg0 m outs h0) (reg1 m outs h1) (reg2 m outs h2) (reg3 m outs h3) (reg4 m outs h4) (reg5 m outs h5) (reg6 m outs h6) (reg7 m outs h7) (reg8 m outs h8) (reg9 m outs h9) (reg10 m outs h10))
    (fun c Q => by
      rewrite [main_chain c, Seg.run_eq_chain,
        show (segs m outs 𝒱₀ L lv E () (pdats m outs) (reg0 m outs h0) (reg1 m outs h1) (reg2 m outs h2) (reg3 m outs h3) (reg4 m outs h4) (reg5 m outs h5) (reg6 m outs h6) (reg7 m outs h7) (reg8 m outs h8) (reg9 m outs h9) (reg10 m outs h10) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          Prog.lift (.customCall (Pipeline.entry 10) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V21 m outs c))
    (hch := fun c => ⟨.rfl, .rfl, .rfl, .rfl, .rfl, .rfl, .rfl, .rfl, .rfl, .rfl, .rfl, .rfl, .rfl, .rfl, .rfl, .rfl, .rfl, .rfl, .rfl, .rfl, .rfl,
      (sep_mono .rfl (show R c ⊢ (iprop(∃ W, owes (c : Thread nD τ) (0 : CellTallies nD τ sig Unit) W) : sProp 𝕄) from by
        iintro ⟨-, HO⟩; iexact HO))⟩)
    (hinit := ?_)
    (QY := fun c s => ∀ b ∈ Pipeline.ucRefs τ sig, s.mem (((c : Thread nD τ)).1, b) = V21 m outs c b)
    (hfin := fun c s' => ?_) (hQ := fun _ h => h)
  · -- the launch: the unscoped buffers are held at the launch memory; the register and the empty debt ride
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last boundary's contents
    iintro ⟨Hh, HSI⟩
    unfold StableHlo.held
    imodintro
    iapply (pointsTo_read_all (Pipeline.ucRefs τ sig) (fun b => (((c : Thread nD τ)).1, b)) (V21 m outs c) s')
    isplitl [Hh] <;> iassumption

end Cert.KernelIdeal.Fr

end
-- ==== Proof.KI.Outs.lean ====
/-
  What the regions leave, fixed. The buffer contents at the boundaries are folded from the launch memory: a stretch
  of host operations applies them; a region replaces its output array by what its pipeline's write-backs leave
  there, computed from the contents the region was entered with. With `outs` naming exactly these arrays, the
  boundary contents of the generated fold are this fold's, and the run's hypotheses hold.
-/
import proofs.«149571_j25649544692292_2_alg».proof.Proof.KI.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s unscoped buffers after the first stretch of host operations. -/
abbrev U1 (c : Dev nD) : Valuation τ sig (Elt F) := V1 m c
/-- What region 0's write-backs leave in its output array. -/
abbrev Ur1 : (c : Dev nD) → (b : Ref sig .tc) → Buf (Elt F) ((c : Thread nD τ).loc b) := fun c b => U1 m c b
def o2 (c : Dev nD) : Buf (Elt F) ((c : Thread nD τ).loc main_v38) := (dat0 (Ur1 m) c).arrAt 4 cfg0.N
/-- … and the buffers after region 0. -/
def U2 (c : Dev nD) : Valuation τ sig (Elt F) := Function.update (U1 m c) main_v38 (o2 m c)
abbrev U3 (c : Dev nD) : Valuation τ sig (Elt F) := StableHlo.after hostOps1 (U2 m c)
/-- What region 1's write-backs leave in its output array. -/
abbrev Ur3 : (c : Dev nD) → (b : Ref sig .tc) → Buf (Elt F) ((c : Thread nD τ).loc b) := fun c b => U3 m c b
def o4 (c : Dev nD) : Buf (Elt F) ((c : Thread nD τ).loc main_v50) := (dat1 (Ur3 m) c).arrAt 6 cfg1.N
/-- … and the buffers after region 1. -/
def U4 (c : Dev nD) : Valuation τ sig (Elt F) := Function.update (U3 m c) main_v50 (o4 m c)
abbrev U5 (c : Dev nD) : Valuation τ sig (Elt F) := StableHlo.after hostOps2 (U4 m c)
/-- What region 2's write-backs leave in its output array. -/
abbrev Ur5 : (c : Dev nD) → (b : Ref sig .tc) → Buf (Elt F) ((c : Thread nD τ).loc b) := fun c b => U5 m c b
def o6 (c : Dev nD) : Buf (Elt F) ((c : Thread nD τ).loc main_v62) := (dat2 (Ur5 m) c).arrAt 4 cfg2.N
/-- … and the buffers after region 2. -/
def U6 (c : Dev nD) : Valuation τ sig (Elt F) := Function.update (U5 m c) main_v62 (o6 m c)
abbrev U7 (c : Dev nD) : Valuation τ sig (Elt F) := StableHlo.after hostOps3 (U6 m c)
/-- What region 3's write-backs leave in its output array. -/
abbrev Ur7 : (c : Dev nD) → (b : Ref sig .tc) → Buf (Elt F) ((c : Thread nD τ).loc b) := fun c b => U7 m c b
def o8 (c : Dev nD) : Buf (Elt F) ((c : Thread nD τ).loc main_v74) := (dat3 (Ur7 m) c).arrAt 6 cfg3.N
/-- … and the buffers after region 3. -/
def U8 (c : Dev nD) : Valuation τ sig (Elt F) := Function.update (U7 m c) main_v74 (o8 m c)
abbrev U9 (c : Dev nD) : Valuation τ sig (Elt F) := StableHlo.after hostOps4 (U8 m c)
/-- What region 4's write-backs leave in its output array. -/
abbrev Ur9 : (c : Dev nD) → (b : Ref sig .tc) → Buf (Elt F) ((c : Thread nD τ).loc b) := fun c b => U9 m c b
def o10 (c : Dev nD) : Buf (Elt F) ((c : Thread nD τ).loc main_v86) := (dat4 (Ur9 m) c).arrAt 4 cfg4.N
/-- … and the buffers after region 4. -/
def U10 (c : Dev nD) : Valuation τ sig (Elt F) := Function.update (U9 m c) main_v86 (o10 m c)
abbrev U11 (c : Dev nD) : Valuation τ sig (Elt F) := StableHlo.after hostOps5 (U10 m c)
/-- What region 5's write-backs leave in its output array. -/
abbrev Ur11 : (c : Dev nD) → (b : Ref sig .tc) → Buf (Elt F) ((c : Thread nD τ).loc b) := fun c b => U11 m c b
def o12 (c : Dev nD) : Buf (Elt F) ((c : Thread nD τ).loc main_v98) := (dat5 (Ur11 m) c).arrAt 6 cfg5.N
/-- … and the buffers after region 5. -/
def U12 (c : Dev nD) : Valuation τ sig (Elt F) := Function.update (U11 m c) main_v98 (o12 m c)
abbrev U13 (c : Dev nD) : Valuation τ sig (Elt F) := StableHlo.after hostOps6 (U12 m c)
/-- What region 6's write-backs leave in its output array. -/
abbrev Ur13 : (c : Dev nD) → (b : Ref sig .tc) → Buf (Elt F) ((c : Thread nD τ).loc b) := fun c b => U13 m c b
def o14 (c : Dev nD) : Buf (Elt F) ((c : Thread nD τ).loc main_v110) := (dat6 (Ur13 m) c).arrAt 4 cfg6.N
/-- … and the buffers after region 6. -/
def U14 (c : Dev nD) : Valuation τ sig (Elt F) := Function.update (U13 m c) main_v110 (o14 m c)
abbrev U15 (c : Dev nD) : Valuation τ sig (Elt F) := StableHlo.after hostOps7 (U14 m c)
/-- What region 7's write-backs leave in its output array. -/
abbrev Ur15 : (c : Dev nD) → (b : Ref sig .tc) → Buf (Elt F) ((c : Thread nD τ).loc b) := fun c b => U15 m c b
def o16 (c : Dev nD) : Buf (Elt F) ((c : Thread nD τ).loc main_v122) := (dat7 (Ur15 m) c).arrAt 6 cfg7.N
/-- … and the buffers after region 7. -/
def U16 (c : Dev nD) : Valuation τ sig (Elt F) := Function.update (U15 m c) main_v122 (o16 m c)
abbrev U17 (c : Dev nD) : Valuation τ sig (Elt F) := StableHlo.after hostOps8 (U16 m c)
/-- What region 8's write-backs leave in its output array. -/
abbrev Ur17 : (c : Dev nD) → (b : Ref sig .tc) → Buf (Elt F) ((c : Thread nD τ).loc b) := fun c b => U17 m c b
def o18 (c : Dev nD) : Buf (Elt F) ((c : Thread nD τ).loc main_v134) := (dat8 (Ur17 m) c).arrAt 4 cfg8.N
/-- … and the buffers after region 8. -/
def U18 (c : Dev nD) : Valuation τ sig (Elt F) := Function.update (U17 m c) main_v134 (o18 m c)
abbrev U19 (c : Dev nD) : Valuation τ sig (Elt F) := StableHlo.after hostOps9 (U18 m c)
/-- What region 9's write-backs leave in its output array. -/
abbrev Ur19 : (c : Dev nD) → (b : Ref sig .tc) → Buf (Elt F) ((c : Thread nD τ).loc b) := fun c b => U19 m c b
def o20 (c : Dev nD) : Buf (Elt F) ((c : Thread nD τ).loc main_v146) := (dat9 (Ur19 m) c).arrAt 6 cfg9.N
/-- … and the buffers after region 9. -/
def U20 (c : Dev nD) : Valuation τ sig (Elt F) := Function.update (U19 m c) main_v146 (o20 m c)
/-- What region 10's write-backs leave in its output array. -/
abbrev Ur20 : (c : Dev nD) → (b : Ref sig .tc) → Buf (Elt F) ((c : Thread nD τ).loc b) := fun c b => U20 m c b
def o21 (c : Dev nD) : Buf (Elt F) ((c : Thread nD τ).loc main_v147) := (dat10 (Ur20 m) c).arrAt 5 cfg10.N
/-- … and the buffers after region 10. -/
def U21 (c : Dev nD) : Valuation τ sig (Elt F) := Function.update (U20 m c) main_v147 (o21 m c)

/-- The regions' outputs by name: after item J−1 the buffer `r` holds what this fold holds there. -/
def outsF : Outs (F := F) := fun J r c =>
  match J with
  | 2 => U2 m c r
  | 4 => U4 m c r
  | 6 => U6 m c r
  | 8 => U8 m c r
  | 10 => U10 m c r
  | 12 => U12 m c r
  | 14 => U14 m c r
  | 16 => U16 m c r
  | 18 => U18 m c r
  | 20 => U20 m c r
  | 21 => U21 m c r
  | _ => U1 m c r

theorem V2_eq (c : Dev nD) : V2 m (outsF m) c = U2 m c := by
  show Function.update (V1 m c) main_v38 (Function.update (U1 m c) main_v38 (o2 m c) main_v38) = Function.update (U1 m c) main_v38 (o2 m c)
  rw [Function.update_self]
theorem V3_eq (c : Dev nD) : V3 m (outsF m) c = U3 m c :=
  congrArg (StableHlo.after hostOps1) (V2_eq m c)
theorem V4_eq (c : Dev nD) : V4 m (outsF m) c = U4 m c := by
  show Function.update (V3 m (outsF m) c) main_v50 (Function.update (U3 m c) main_v50 (o4 m c) main_v50) = Function.update (U3 m c) main_v50 (o4 m c)
  rw [Function.update_self, V3_eq m c]
theorem V5_eq (c : Dev nD) : V5 m (outsF m) c = U5 m c :=
  congrArg (StableHlo.after hostOps2) (V4_eq m c)
theorem V6_eq (c : Dev nD) : V6 m (outsF m) c = U6 m c := by
  show Function.update (V5 m (outsF m) c) main_v62 (Function.update (U5 m c) main_v62 (o6 m c) main_v62) = Function.update (U5 m c) main_v62 (o6 m c)
  rw [Function.update_self, V5_eq m c]
theorem V7_eq (c : Dev nD) : V7 m (outsF m) c = U7 m c :=
  congrArg (StableHlo.after hostOps3) (V6_eq m c)
theorem V8_eq (c : Dev nD) : V8 m (outsF m) c = U8 m c := by
  show Function.update (V7 m (outsF m) c) main_v74 (Function.update (U7 m c) main_v74 (o8 m c) main_v74) = Function.update (U7 m c) main_v74 (o8 m c)
  rw [Function.update_self, V7_eq m c]
theorem V9_eq (c : Dev nD) : V9 m (outsF m) c = U9 m c :=
  congrArg (StableHlo.after hostOps4) (V8_eq m c)
theorem V10_eq (c : Dev nD) : V10 m (outsF m) c = U10 m c := by
  show Function.update (V9 m (outsF m) c) main_v86 (Function.update (U9 m c) main_v86 (o10 m c) main_v86) = Function.update (U9 m c) main_v86 (o10 m c)
  rw [Function.update_self, V9_eq m c]
theorem V11_eq (c : Dev nD) : V11 m (outsF m) c = U11 m c :=
  congrArg (StableHlo.after hostOps5) (V10_eq m c)
theorem V12_eq (c : Dev nD) : V12 m (outsF m) c = U12 m c := by
  show Function.update (V11 m (outsF m) c) main_v98 (Function.update (U11 m c) main_v98 (o12 m c) main_v98) = Function.update (U11 m c) main_v98 (o12 m c)
  rw [Function.update_self, V11_eq m c]
theorem V13_eq (c : Dev nD) : V13 m (outsF m) c = U13 m c :=
  congrArg (StableHlo.after hostOps6) (V12_eq m c)
theorem V14_eq (c : Dev nD) : V14 m (outsF m) c = U14 m c := by
  show Function.update (V13 m (outsF m) c) main_v110 (Function.update (U13 m c) main_v110 (o14 m c) main_v110) = Function.update (U13 m c) main_v110 (o14 m c)
  rw [Function.update_self, V13_eq m c]
theorem V15_eq (c : Dev nD) : V15 m (outsF m) c = U15 m c :=
  congrArg (StableHlo.after hostOps7) (V14_eq m c)
theorem V16_eq (c : Dev nD) : V16 m (outsF m) c = U16 m c := by
  show Function.update (V15 m (outsF m) c) main_v122 (Function.update (U15 m c) main_v122 (o16 m c) main_v122) = Function.update (U15 m c) main_v122 (o16 m c)
  rw [Function.update_self, V15_eq m c]
theorem V17_eq (c : Dev nD) : V17 m (outsF m) c = U17 m c :=
  congrArg (StableHlo.after hostOps8) (V16_eq m c)
theorem V18_eq (c : Dev nD) : V18 m (outsF m) c = U18 m c := by
  show Function.update (V17 m (outsF m) c) main_v134 (Function.update (U17 m c) main_v134 (o18 m c) main_v134) = Function.update (U17 m c) main_v134 (o18 m c)
  rw [Function.update_self, V17_eq m c]
theorem V19_eq (c : Dev nD) : V19 m (outsF m) c = U19 m c :=
  congrArg (StableHlo.after hostOps9) (V18_eq m c)
theorem V20_eq (c : Dev nD) : V20 m (outsF m) c = U20 m c := by
  show Function.update (V19 m (outsF m) c) main_v146 (Function.update (U19 m c) main_v146 (o20 m c) main_v146) = Function.update (U19 m c) main_v146 (o20 m c)
  rw [Function.update_self, V19_eq m c]
theorem V21_eq (c : Dev nD) : V21 m (outsF m) c = U21 m c := by
  show Function.update (V20 m (outsF m) c) main_v147 (Function.update (U20 m c) main_v147 (o21 m c) main_v147) = Function.update (U20 m c) main_v147 (o21 m c)
  rw [Function.update_self, V20_eq m c]

theorem ent0_eq : ent0 m = Ur1 m := rfl
theorem hyp0 : ∀ c, outsF m 2 main_v38 c = (dat0 (ent0 m) c).arrAt 4 cfg0.N := fun c => by
  rw [ent0_eq]
  show Function.update (U1 m c) main_v38 (o2 m c) main_v38 = _
  rw [Function.update_self]; rfl
theorem ent1_eq : ent1 m (outsF m) = Ur3 m := funext fun c => funext fun b => congrFun (V3_eq m c) b
theorem hyp1 : ∀ c, outsF m 4 main_v50 c = (dat1 (ent1 m (outsF m)) c).arrAt 6 cfg1.N := fun c => by
  rw [ent1_eq]
  show Function.update (U3 m c) main_v50 (o4 m c) main_v50 = _
  rw [Function.update_self]; rfl
theorem ent2_eq : ent2 m (outsF m) = Ur5 m := funext fun c => funext fun b => congrFun (V5_eq m c) b
theorem hyp2 : ∀ c, outsF m 6 main_v62 c = (dat2 (ent2 m (outsF m)) c).arrAt 4 cfg2.N := fun c => by
  rw [ent2_eq]
  show Function.update (U5 m c) main_v62 (o6 m c) main_v62 = _
  rw [Function.update_self]; rfl
theorem ent3_eq : ent3 m (outsF m) = Ur7 m := funext fun c => funext fun b => congrFun (V7_eq m c) b
theorem hyp3 : ∀ c, outsF m 8 main_v74 c = (dat3 (ent3 m (outsF m)) c).arrAt 6 cfg3.N := fun c => by
  rw [ent3_eq]
  show Function.update (U7 m c) main_v74 (o8 m c) main_v74 = _
  rw [Function.update_self]; rfl
theorem ent4_eq : ent4 m (outsF m) = Ur9 m := funext fun c => funext fun b => congrFun (V9_eq m c) b
theorem hyp4 : ∀ c, outsF m 10 main_v86 c = (dat4 (ent4 m (outsF m)) c).arrAt 4 cfg4.N := fun c => by
  rw [ent4_eq]
  show Function.update (U9 m c) main_v86 (o10 m c) main_v86 = _
  rw [Function.update_self]; rfl
theorem ent5_eq : ent5 m (outsF m) = Ur11 m := funext fun c => funext fun b => congrFun (V11_eq m c) b
theorem hyp5 : ∀ c, outsF m 12 main_v98 c = (dat5 (ent5 m (outsF m)) c).arrAt 6 cfg5.N := fun c => by
  rw [ent5_eq]
  show Function.update (U11 m c) main_v98 (o12 m c) main_v98 = _
  rw [Function.update_self]; rfl
theorem ent6_eq : ent6 m (outsF m) = Ur13 m := funext fun c => funext fun b => congrFun (V13_eq m c) b
theorem hyp6 : ∀ c, outsF m 14 main_v110 c = (dat6 (ent6 m (outsF m)) c).arrAt 4 cfg6.N := fun c => by
  rw [ent6_eq]
  show Function.update (U13 m c) main_v110 (o14 m c) main_v110 = _
  rw [Function.update_self]; rfl
theorem ent7_eq : ent7 m (outsF m) = Ur15 m := funext fun c => funext fun b => congrFun (V15_eq m c) b
theorem hyp7 : ∀ c, outsF m 16 main_v122 c = (dat7 (ent7 m (outsF m)) c).arrAt 6 cfg7.N := fun c => by
  rw [ent7_eq]
  show Function.update (U15 m c) main_v122 (o16 m c) main_v122 = _
  rw [Function.update_self]; rfl
theorem ent8_eq : ent8 m (outsF m) = Ur17 m := funext fun c => funext fun b => congrFun (V17_eq m c) b
theorem hyp8 : ∀ c, outsF m 18 main_v134 c = (dat8 (ent8 m (outsF m)) c).arrAt 4 cfg8.N := fun c => by
  rw [ent8_eq]
  show Function.update (U17 m c) main_v134 (o18 m c) main_v134 = _
  rw [Function.update_self]; rfl
theorem ent9_eq : ent9 m (outsF m) = Ur19 m := funext fun c => funext fun b => congrFun (V19_eq m c) b
theorem hyp9 : ∀ c, outsF m 20 main_v146 c = (dat9 (ent9 m (outsF m)) c).arrAt 6 cfg9.N := fun c => by
  rw [ent9_eq]
  show Function.update (U19 m c) main_v146 (o20 m c) main_v146 = _
  rw [Function.update_self]; rfl
theorem ent10_eq : ent10 m (outsF m) = Ur20 m := funext fun c => funext fun b => congrFun (V20_eq m c) b
theorem hyp10 : ∀ c, outsF m 21 main_v147 c = (dat10 (ent10 m (outsF m)) c).arrAt 5 cfg10.N := fun c => by
  rw [ent10_eq]
  show Function.update (U20 m c) main_v147 (o21 m c) main_v147 = _
  rw [Function.update_self]; rfl

theorem outs_at2 (c : Dev nD) : outsF m 2 main_v38 c = o2 m c := by
  show Function.update (U1 m c) main_v38 (o2 m c) main_v38 = _
  rw [Function.update_self]
theorem outs_at4 (c : Dev nD) : outsF m 4 main_v50 c = o4 m c := by
  show Function.update (U3 m c) main_v50 (o4 m c) main_v50 = _
  rw [Function.update_self]
theorem outs_at6 (c : Dev nD) : outsF m 6 main_v62 c = o6 m c := by
  show Function.update (U5 m c) main_v62 (o6 m c) main_v62 = _
  rw [Function.update_self]
theorem outs_at8 (c : Dev nD) : outsF m 8 main_v74 c = o8 m c := by
  show Function.update (U7 m c) main_v74 (o8 m c) main_v74 = _
  rw [Function.update_self]
theorem outs_at10 (c : Dev nD) : outsF m 10 main_v86 c = o10 m c := by
  show Function.update (U9 m c) main_v86 (o10 m c) main_v86 = _
  rw [Function.update_self]
theorem outs_at12 (c : Dev nD) : outsF m 12 main_v98 c = o12 m c := by
  show Function.update (U11 m c) main_v98 (o12 m c) main_v98 = _
  rw [Function.update_self]
theorem outs_at14 (c : Dev nD) : outsF m 14 main_v110 c = o14 m c := by
  show Function.update (U13 m c) main_v110 (o14 m c) main_v110 = _
  rw [Function.update_self]
theorem outs_at16 (c : Dev nD) : outsF m 16 main_v122 c = o16 m c := by
  show Function.update (U15 m c) main_v122 (o16 m c) main_v122 = _
  rw [Function.update_self]
theorem outs_at18 (c : Dev nD) : outsF m 18 main_v134 c = o18 m c := by
  show Function.update (U17 m c) main_v134 (o18 m c) main_v134 = _
  rw [Function.update_self]
theorem outs_at20 (c : Dev nD) : outsF m 20 main_v146 c = o20 m c := by
  show Function.update (U19 m c) main_v146 (o20 m c) main_v146 = _
  rw [Function.update_self]
theorem outs_at21 (c : Dev nD) : outsF m 21 main_v147 c = o21 m c := by
  show Function.update (U20 m c) main_v147 (o21 m c) main_v147 = _
  rw [Function.update_self]

/-- The program's run: every unscoped buffer ends at this fold's last contents. -/
theorem run_fold (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = U21 m c b) :=
  (θ_run defs _ _).mono (fun _ h c b hb => (h c b hb).trans (congrFun (V21_eq m c) b))
    (run_all m ρ (outsF m) (hyp0 m) (hyp1 m) (hyp2 m) (hyp3 m) (hyp4 m) (hyp5 m) (hyp6 m) (hyp7 m) (hyp8 m) (hyp9 m) (hyp10 m))

/-- An unscoped TensorCore reference is among those the run holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program runs to the end and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c _ (mem_uc main_arg0 (by decide))).trans (V21_main_arg0 m (outsF m) c),
      (h c _ (mem_uc main_arg1 (by decide))).trans (V21_main_arg1 m (outsF m) c),
      (h c _ (mem_uc main_arg2 (by decide))).trans (V21_main_arg2 m (outsF m) c),
      (h c _ (mem_uc main_arg3 (by decide))).trans (V21_main_arg3 m (outsF m) c),
      (h c _ (mem_uc main_arg4 (by decide))).trans (V21_main_arg4 m (outsF m) c),
      (h c _ (mem_uc main_arg5 (by decide))).trans (V21_main_arg5 m (outsF m) c),
      (h c _ (mem_uc main_arg6 (by decide))).trans (V21_main_arg6 m (outsF m) c),
      (h c _ (mem_uc main_arg7 (by decide))).trans (V21_main_arg7 m (outsF m) c),
      (h c _ (mem_uc main_arg8 (by decide))).trans (V21_main_arg8 m (outsF m) c),
      (h c _ (mem_uc main_arg9 (by decide))).trans (V21_main_arg9 m (outsF m) c),
      (h c _ (mem_uc main_arg10 (by decide))).trans (V21_main_arg10 m (outsF m) c),
      (h c _ (mem_uc main_arg11 (by decide))).trans (V21_main_arg11 m (outsF m) c),
      (h c _ (mem_uc main_arg12 (by decide))).trans (V21_main_arg12 m (outsF m) c),
      (h c _ (mem_uc main_arg13 (by decide))).trans (V21_main_arg13 m (outsF m) c)⟩)
    (run_all m ρ (outsF m) (hyp0 m) (hyp1 m) (hyp2 m) (hyp3 m) (hyp4 m) (hyp5 m) (hyp6 m) (hyp7 m) (hyp8 m) (hyp9 m) (hyp10 m))

end Cert.KernelIdeal.Fr

end
-- ==== Proof.Spec.lean ====
/-
  The arithmetic of one output element of each of the three kernels, as a function of the rows it reads,
  over the extended reals.  An edge's message entry is the leaky rectifier of a 64-term inner product of the
  source node's features with a weight row plus a 3-term inner product of the edge's features with the rest
  of that row; a node's new feature is the rectifier of two 64-term inner products (its own features, and its
  mailbox sum scaled by the reciprocal in-degree) plus a bias; a class score is a 64-term inner product of
  rectified hidden units (each a 64-term inner product plus a bias) plus a bias.  Both programs compute these
  numbers; they differ only in how the 67- and 128-term contractions are grouped, and sums of extended reals
  may be regrouped freely.
-/
import Idealize.ShloMosaic.PureOps.Ideal
import Idealize.ShloMosaic.PureOps.Ideal.Laws

noncomputable section

namespace Cert.Net

open Idealize.ShloMosaic

/-- The literal zero both programs compare with and rectify against. -/
abbrev zeroLit : EReal := Ideal.ofBits .f32 0x00000000#32
/-- The leaky rectifier's slope, the binary value of the f32 nearest to 0.01 (the same word in both programs). -/
abbrev slopeLit : EReal := Ideal.ofBits .f32 0x3C23D70A#32

/-- The leaky rectifier as both programs spell it: keep `s` where `s ≥ 0`, else `slope · s`. -/
def leaky (s : EReal) : EReal :=
  Scalar.select (FloatOps.cmpf (F := Ideal) (φ := .f32) .oge s zeroLit) s (slopeLit * s)

/-- One entry of an edge's message: rows `a` (source features) and `b` (edge features) against the two parts
    `wa`, `wb` of one weight row. -/
def edgeCell (a : Fin 64 → EReal) (b : Fin 3 → EReal) (wa : Fin 64 → EReal) (wb : Fin 3 → EReal) : EReal :=
  leaky ((∑ k : Fin 64, a k * wa k) + ∑ k : Fin 3, b k * wb k)

/-- One entry of a node's update: its features `h`, its mailbox sum `n` scaled by `inv`, the two halves `wa`,
    `wb` of one weight row, the bias `b`. -/
def nodeCell (h n : Fin 64 → EReal) (inv : EReal) (wa wb : Fin 64 → EReal) (b : EReal) : EReal :=
  max (((∑ k : Fin 64, h k * wa k) + ∑ k : Fin 64, (n k * inv) * wb k) + b) zeroLit

/-- One hidden unit of the head: `max (h · w + b) 0`. -/
def hidden (h w : Fin 64 → EReal) (b : EReal) : EReal :=
  max ((∑ k : Fin 64, h k * w k) + b) zeroLit

/-- One class score: the hidden units (rows `w1 j`, biases `b1 j`) against the class's weight row `w2`, plus `b2`. -/
def finalCell (h : Fin 64 → EReal) (w1 : Fin 64 → Fin 64 → EReal) (b1 : Fin 64 → EReal) (w2 : Fin 64 → EReal) (b2 : EReal) : EReal :=
  (∑ j : Fin 64, hidden h (w1 j) (b1 j) * w2 j) + b2

end Cert.Net

end
-- ==== Proof.PayEdge.lean ====
/-
  The edge kernel's stored value, read at one entry: the leaky rectifier of a 64-term inner product of the
  source row with a weight row plus a 3-term inner product of the edge's features with the rest of that row.
  At the ideal values a narrowing cast is the identity, a cast to the same shape is the identity, a matrix
  product into a zero accumulator is the plain sum over the contracted axis, and a transposed operand is read
  with its two coordinates exchanged.
-/
import proofs.«149571_j25649544692292_2_alg».proof.Proof.Gen.KernelIdeal.Skeleton
import proofs.«149571_j25649544692292_2_alg».proof.Proof.Spec
import Idealize.ShloMosaic.Lib.ValueIdx
import Idealize.ShloMosaic.Lib.Pipeline.Value
import Idealize.ShloMosaic.PureOps.Ideal.Laws

noncomputable section

namespace Cert.Net.Pay

open Idealize.ShloMosaic Idealize.SL.Sem Idealize.ShloMosaic.ValueIdx Cert.KernelIdeal Cert.KernelIdeal.Gen

/-- The transpose of a matrix read at `(k, q)` is the matrix at `(q, k)`. -/
private theorem tr_64x64 {α : Type} (x : S64x64.Idx → α) (k : Fin 64) (q : Fin 64) :
    transpose S64x64 [1, 0] x transposes_S64x64_p1_0_S64x64 (ix2 k q) = x (ix2 q k) := by
  refine transpose_apply _ x _ _ (ix2 q k) ?_
  intro b
  match b with
  | ⟨0, _⟩ => rfl
  | ⟨1, _⟩ => rfl

/-- The transpose of a matrix read at `(k, q)` is the matrix at `(q, k)`. -/
private theorem tr_64x3 {α : Type} (x : S64x3.Idx → α) (k : Fin 3) (q : Fin 64) :
    transpose S3x64 [1, 0] x transposes_S64x3_p1_0_S3x64 (ix2 k q) = x (ix2 q k) := by
  refine transpose_apply _ x _ _ (ix2 q k) ?_
  intro b
  match b with
  | ⟨0, _⟩ => rfl
  | ⟨1, _⟩ => rfl

private theorem mm_8000x64_64x64_l0 (i : S8000x64.Idx) (c : dot_S8000x64_S64x64_S8000x64_1_0_0_1_n_n.contr.Idx) : (dot_S8000x64_S64x64_S8000x64_1_0_0_1_n_n.lhsIdx i c 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
private theorem mm_8000x64_64x64_r1 (i : S8000x64.Idx) (c : dot_S8000x64_S64x64_S8000x64_1_0_0_1_n_n.contr.Idx) : (dot_S8000x64_S64x64_S8000x64_1_0_0_1_n_n.rhsIdx i c 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- A matrix product into the zero accumulator, read at row `p`, column `q`: the sum over the contracted axis. -/
private theorem mm_8000x64_64x64 {φ₁ φ₂ : FTy} (a : FVec Ideal S8000x64 φ₁) (w : FVec Ideal S64x64 φ₂) (p : Fin 8000) (q : Fin 64) :
    matmul dot_S8000x64_S64x64_S8000x64_1_0_0_1_n_n none a w (constant S8000x64 .f32 0x00000000#32) (ix2 p q)
      = ∑ k : Fin 64, a (ix2 p k) * w (ix2 k q) := by
  refine (Ideal.matmul_constant_zero_apply _ _ a w _).trans ?_
  rw [← Equiv.sum_comp (contrEquiv1 dot_S8000x64_S64x64_S8000x64_1_0_0_1_n_n 64 rfl rfl).symm]
  refine Finset.sum_congr rfl fun k _ => ?_
  have hk := contrEquiv1_symm_val dot_S8000x64_S64x64_S8000x64_1_0_0_1_n_n 64 rfl rfl k
  have el : dot_S8000x64_S64x64_S8000x64_1_0_0_1_n_n.lhsIdx (ix2 p q) ((contrEquiv1 dot_S8000x64_S64x64_S8000x64_1_0_0_1_n_n 64 rfl rfl).symm k) = ix2 p k := funext fun a => Fin.ext (by
    match a with
    | ⟨0, _⟩ => exact mm_8000x64_64x64_l0 _ _
    | ⟨1, _⟩ => exact (dot_S8000x64_S64x64_S8000x64_1_0_0_1_n_n.lhsIdx_val_of_single rfl _ _).trans hk)
  have er : dot_S8000x64_S64x64_S8000x64_1_0_0_1_n_n.rhsIdx (ix2 p q) ((contrEquiv1 dot_S8000x64_S64x64_S8000x64_1_0_0_1_n_n 64 rfl rfl).symm k) = ix2 k q := funext fun a => Fin.ext (by
    match a with
    | ⟨0, _⟩ => exact (dot_S8000x64_S64x64_S8000x64_1_0_0_1_n_n.rhsIdx_val_of_single rfl _ _).trans hk
    | ⟨1, _⟩ => exact mm_8000x64_64x64_r1 _ _)
  rw [el, er]

private theorem mm_8000x3_3x64_l0 (i : S8000x64.Idx) (c : dot_S8000x3_S3x64_S8000x64_1_0_0_1_n_n.contr.Idx) : (dot_S8000x3_S3x64_S8000x64_1_0_0_1_n_n.lhsIdx i c 0).val = (i 0).val := by
  unfold DotDims.lhsIdx
  rw [dif_neg (show ¬(0 : Fin S8000x3.rank) ∈ dot_S8000x3_S3x64_S8000x64_1_0_0_1_n_n.lhsBatch by decide), dif_pos (show (0 : Fin S8000x3.rank) ∈ dot_S8000x3_S3x64_S8000x64_1_0_0_1_n_n.lhsNonContracting by decide)]
  rfl
private theorem mm_8000x3_3x64_r1 (i : S8000x64.Idx) (c : dot_S8000x3_S3x64_S8000x64_1_0_0_1_n_n.contr.Idx) : (dot_S8000x3_S3x64_S8000x64_1_0_0_1_n_n.rhsIdx i c 1).val = (i 1).val := by
  unfold DotDims.rhsIdx
  rw [dif_neg (show ¬(1 : Fin S3x64.rank) ∈ dot_S8000x3_S3x64_S8000x64_1_0_0_1_n_n.rhsBatch by decide), dif_pos (show (1 : Fin S3x64.rank) ∈ dot_S8000x3_S3x64_S8000x64_1_0_0_1_n_n.rhsNonContracting by decide)]
  rfl

/-- A matrix product into the zero accumulator, read at row `p`, column `q`: the sum over the contracted axis. -/
private theorem mm_8000x3_3x64 {φ₁ φ₂ : FTy} (a : FVec Ideal S8000x3 φ₁) (w : FVec Ideal S3x64 φ₂) (p : Fin 8000) (q : Fin 64) :
    matmul dot_S8000x3_S3x64_S8000x64_1_0_0_1_n_n none a w (constant S8000x64 .f32 0x00000000#32) (ix2 p q)
      = ∑ k : Fin 3, a (ix2 p k) * w (ix2 k q) := by
  refine (Ideal.matmul_constant_zero_apply _ _ a w _).trans ?_
  rw [← Equiv.sum_comp (contrEquiv1 dot_S8000x3_S3x64_S8000x64_1_0_0_1_n_n 3 rfl rfl).symm]
  refine Finset.sum_congr rfl fun k _ => ?_
  have hk := contrEquiv1_symm_val dot_S8000x3_S3x64_S8000x64_1_0_0_1_n_n 3 rfl rfl k
  have el : dot_S8000x3_S3x64_S8000x64_1_0_0_1_n_n.lhsIdx (ix2 p q) ((contrEquiv1 dot_S8000x3_S3x64_S8000x64_1_0_0_1_n_n 3 rfl rfl).symm k) = ix2 p k := funext fun a => Fin.ext (by
    match a with
    | ⟨0, _⟩ => exact mm_8000x3_3x64_l0 _ _
    | ⟨1, _⟩ => exact (dot_S8000x3_S3x64_S8000x64_1_0_0_1_n_n.lhsIdx_val_of_single rfl _ _).trans hk)
  have er : dot_S8000x3_S3x64_S8000x64_1_0_0_1_n_n.rhsIdx (ix2 p q) ((contrEquiv1 dot_S8000x3_S3x64_S8000x64_1_0_0_1_n_n 3 rfl rfl).symm k) = ix2 k q := funext fun a => Fin.ext (by
    match a with
    | ⟨0, _⟩ => exact (dot_S8000x3_S3x64_S8000x64_1_0_0_1_n_n.rhsIdx_val_of_single rfl _ _).trans hk
    | ⟨1, _⟩ => exact mm_8000x3_3x64_r1 _ _)
  rw [el, er]

/-- The same product against a transposed right operand: row `p` of the left against row `q` of the untransposed right. -/
private theorem mmT_8000x64_64x64 {φ₁ φ₂ : FTy} (a : FVec Ideal S8000x64 φ₁) (w : FVec Ideal S64x64 φ₂) (p : Fin 8000) (q : Fin 64) :
    matmul dot_S8000x64_S64x64_S8000x64_1_0_0_1_n_n none a (transpose S64x64 [1, 0] w transposes_S64x64_p1_0_S64x64) (constant S8000x64 .f32 0x00000000#32) (ix2 p q)
      = ∑ k : Fin 64, a (ix2 p k) * w (ix2 q k) :=
  (mm_8000x64_64x64 a _ p q).trans (Finset.sum_congr rfl fun k _ => congrArg (a (ix2 p k) * ·) (tr_64x64 w k q))

/-- The same product against a transposed right operand: row `p` of the left against row `q` of the untransposed right. -/
private theorem mmT_8000x3_64x3 {φ₁ φ₂ : FTy} (a : FVec Ideal S8000x3 φ₁) (w : FVec Ideal S64x3 φ₂) (p : Fin 8000) (q : Fin 64) :
    matmul dot_S8000x3_S3x64_S8000x64_1_0_0_1_n_n none a (transpose S3x64 [1, 0] w transposes_S64x3_p1_0_S3x64) (constant S8000x64 .f32 0x00000000#32) (ix2 p q)
      = ∑ k : Fin 3, a (ix2 p k) * w (ix2 q k) :=
  (mm_8000x3_3x64 a _ p q).trans (Finset.sum_congr rfl fun k _ => congrArg (a (ix2 p k) * ·) (tr_64x3 w k q))

/-- One entry of the edge kernel's stored value is the specification's edge cell of the rows it reads. -/
theorem edge_pay (v0 : Vec Ideal S8000x64 .bf16) (v2 : Vec Ideal S8000x3 .f32) (v5 : Vec Ideal S64x64 .f32) (v8 : Vec Ideal S64x3 .f32) (p : Fin 8000) (q : Fin 64) :
    k0_pay1 (F := Ideal) v0 v2 v5 v8 (ix2 p q) = Cert.Net.edgeCell (fun k => v0 (ix2 p k)) (fun k => v2 (ix2 p k)) (fun k => v5 (ix2 q k)) (fun k => v8 (ix2 q k)) := by
  unfold k0_pay1
  simp only [shapeCast_self]
  rw [truncf_apply, select_apply, cmpf_apply, mulf_apply, addf_apply, broadcast_apply, broadcast_apply]
  rw [mmT_8000x64_64x64, mmT_8000x3_64x3]
  rfl

/-- The later edge layers store the same term. -/
theorem k2_eq : @k2_pay1 = @k0_pay1 := rfl
theorem k4_eq : @k4_pay1 = @k0_pay1 := rfl
theorem k6_eq : @k6_pay1 = @k0_pay1 := rfl
theorem k8_eq : @k8_pay1 = @k0_pay1 := rfl

end Cert.Net.Pay
end
-- ==== Proof.KI.Val0.lean ====
/-
  What pipeline 0 (an edge kernel) leaves in its output array, over the extended reals, as one function of
  its input arrays entry by entry: grid point t writes block t (rows 8000·t … 8000·t + 7999) from the same rows of the
  row-blocked inputs and from the whole weight and bias blocks, and the 100 blocks tile the array.
-/
import proofs.«149571_j25649544692292_2_alg».proof.Proof.KI.R0
import proofs.«149571_j25649544692292_2_alg».proof.Proof.PayEdge
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The output array as one function of the input arrays, entry by entry. -/
def G0 (a0 : S800000x64.Idx → Elt Ideal .bf16) (a1 : S800000x3.Idx → Elt Ideal .f32) (a2 : S64x64.Idx → Elt Ideal .f32) (a3 : S64x3.Idx → Elt Ideal .f32) :
    S800000x64.Idx → Elt Ideal .bf16 := fun i =>
  Cert.Net.edgeCell (fun k => a0 (ix2 (i 0) k)) (fun k => a1 (ix2 (i 0) k)) (fun k => a2 (ix2 (i 1) k)) (fun k => a3 (ix2 (i 1) k))

/-- The printed index maps over the grid: the row-blocked windows move with the point, the others stay. -/
theorem idx_facts0 : ∀ t : Fin cfg0.N, win0_4.index t (0 : Fin 2) = t.val
    ∧ win0_4.index t (1 : Fin 2) = 0
    ∧ win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0 :=
  (by decide +kernel : ∀ t : Fin grid0.N, _)

set_option maxHeartbeats 8000000 in
/-- What grid point `t` writes back is block `t` of `G0` of the arrays as the region finds them. -/
theorem flushed0_eq (c : Dev nD) (t : Fin cfg0.N) :
    (dat0 V c).flushed 4 t = ((cfg0.win 4).blk t).view.read (Elt Ideal)
      (G0 (V c (Pipeline.arrRef spec0 0)) (V c (Pipeline.arrRef spec0 1)) (V c (Pipeline.arrRef spec0 2)) (V c (Pipeline.arrRef spec0 3))) := by
  show (cfg0.win 4).cut (grid0.coords t) ((dat0 V c).after 4 t) = _
  rw [after0_4]
  unfold out0_4
  rw [View.canon_unit_zero hz0]
  simp only [View.ld_unit_zero (S := S8000x64) hz0, View.ld_unit_zero (S := S8000x3) hz0, View.ld_unit_zero (S := S64x64) hz0, View.ld_unit_zero (S := S64x3) hz0]
  obtain ⟨eo0, eo1, e00, e01, e10, e11, e20, e21, e30, e31⟩ := idx_facts0 t
  funext j
  obtain ⟨p, q, rfl⟩ : ∃ (p : Fin 8000) (q : Fin 64), j = ix2 p q := ⟨j 0, j 1, eq_ix2 j⟩
  refine (Cert.Net.Pay.edge_pay _ _ _ _ p q).trans ?_
  show Cert.Net.edgeCell _ _ _ _ = G0 _ _ _ _ (((cfg0.win 4).blk t).view.emb (ix2 p q))
  unfold G0
  have hb0 : ∀ k : Fin 64, ((cfg0.win 0).blk t).view.emb (ix2 p k) = (ix2 ((((cfg0.win 4).blk t).view.emb (ix2 p q)) 0) k : S800000x64.Idx) := fun k => by
    funext a; apply Fin.ext
    match a with
    | ⟨0, _⟩ => show win0_0.index t (0 : Fin 2) * 8000 + 1 * p.val = win0_4.index t (0 : Fin 2) * 8000 + 1 * p.val; omega
    | ⟨1, _⟩ => show win0_0.index t (1 : Fin 2) * 64 + 1 * k.val = k.val; omega
  have hb1 : ∀ k : Fin 3, ((cfg0.win 1).blk t).view.emb (ix2 p k) = (ix2 ((((cfg0.win 4).blk t).view.emb (ix2 p q)) 0) k : S800000x3.Idx) := fun k => by
    funext a; apply Fin.ext
    match a with
    | ⟨0, _⟩ => show win0_1.index t (0 : Fin 2) * 8000 + 1 * p.val = win0_4.index t (0 : Fin 2) * 8000 + 1 * p.val; omega
    | ⟨1, _⟩ => show win0_1.index t (1 : Fin 2) * 3 + 1 * k.val = k.val; omega
  have hb2 : ∀ k : Fin 64, ((cfg0.win 2).blk t).view.emb (ix2 q k) = (ix2 ((((cfg0.win 4).blk t).view.emb (ix2 p q)) 1) k : S64x64.Idx) := fun k => by
    funext a; apply Fin.ext
    match a with
    | ⟨0, _⟩ => show win0_2.index t (0 : Fin 2) * 64 + 1 * q.val = win0_4.index t (1 : Fin 2) * 64 + 1 * q.val; omega
    | ⟨1, _⟩ => show win0_2.index t (1 : Fin 2) * 64 + 1 * k.val = k.val; omega
  have hb3 : ∀ k : Fin 3, ((cfg0.win 3).blk t).view.emb (ix2 q k) = (ix2 ((((cfg0.win 4).blk t).view.emb (ix2 p q)) 1) k : S64x3.Idx) := fun k => by
    funext a; apply Fin.ext
    match a with
    | ⟨0, _⟩ => show win0_3.index t (0 : Fin 2) * 64 + 1 * q.val = win0_4.index t (1 : Fin 2) * 64 + 1 * q.val; omega
    | ⟨1, _⟩ => show win0_3.index t (1 : Fin 2) * 3 + 1 * k.val = k.val; omega
  refine congr (congr (congr (congrArg Cert.Net.edgeCell ?_) ?_) ?_) ?_
  · funext k; exact congrArg (V c (Pipeline.arrRef spec0 0)) (hb0 k)
  · funext k; exact congrArg (V c (Pipeline.arrRef spec0 1)) (hb1 k)
  · funext k; exact congrArg (V c (Pipeline.arrRef spec0 2)) (hb2 k)
  · funext k; exact congrArg (V c (Pipeline.arrRef spec0 3)) (hb3 k)

/-- An index of the output array lies in point `t`'s block iff each coordinate lies in the block's range. -/
theorem mem_blk0 (t : Fin cfg0.N) (i : S800000x64.Idx) :
    i ∈ ((cfg0.win 4).blk t).view.set ↔ ∀ a : Fin 2, win0_4.index t a * S8000x64.size a ≤ (i a).val ∧ (i a).val < win0_4.index t a * S8000x64.size a + S8000x64.size a := by
  show i ∈ ((View.whole main_v38).slice (win0_4.rect t)).set ↔ _
  rw [View.set_slice_whole, Rect.mem_set_unit]
  exact Iff.rfl

/-- The output array after the region: `G0` of the input arrays, everywhere (the blocks tile it). -/
theorem final0 (c : Dev nD) : (dat0 V c).arrAt 4 cfg0.N =
    G0 (V c (Pipeline.arrRef spec0 0)) (V c (Pipeline.arrRef spec0 1)) (V c (Pipeline.arrRef spec0 2)) (V c (Pipeline.arrRef spec0 3)) :=
  (dat0 V c).arrAt_eq_of_cover 4 _ (fun t _ => flushed0_eq V c t) fun i => by
    have hi0 : (i 0).val < 800000 := (i 0).isLt
    have hi1 : (i 1).val < 64 := (i 1).isLt
    have hN : grid0.N = 100 := N_0
    have hlt : (i 0).val / 8000 < grid0.N := by omega
    refine ⟨⟨(i 0).val / 8000, hlt⟩, flush0_4 _, ?_⟩
    rw [mem_blk0]
    obtain ⟨eo0, eo1, -⟩ := idx_facts0 ⟨(i 0).val / 8000, hlt⟩
    intro a
    match a with
    | ⟨0, _⟩ => show win0_4.index _ (0 : Fin 2) * 8000 ≤ (i 0).val ∧ (i 0).val < win0_4.index _ (0 : Fin 2) * 8000 + 8000; rw [eo0]; show (i 0).val / 8000 * 8000 ≤ (i 0).val ∧ (i 0).val < (i 0).val / 8000 * 8000 + 8000; omega
    | ⟨1, _⟩ => show win0_4.index _ (1 : Fin 2) * 64 ≤ (i 1).val ∧ (i 1).val < win0_4.index _ (1 : Fin 2) * 64 + 64; rw [eo1]; omega

end Cert.KernelIdeal.Fr

end
-- ==== Proof.PayNode.lean ====
/-
  The node kernel's stored value, read at one entry: the rectifier of two 64-term inner products (the node's
  own row against the first half of a weight row, its mailbox row scaled by the reciprocal in-degree against the
  second half) plus the bias.  A broadcast column is read at the row's index, a broadcast row at the column's.
-/
import proofs.«149571_j25649544692292_2_alg».proof.Proof.Gen.KernelIdeal.Skeleton
import proofs.«149571_j25649544692292_2_alg».proof.Proof.Spec
import Idealize.ShloMosaic.Lib.ValueIdx
import Idealize.ShloMosaic.Lib.Pipeline.Value
import Idealize.ShloMosaic.PureOps.Ideal.Laws

noncomputable section

namespace Cert.Net.Pay

open Idealize.ShloMosaic Idealize.SL.Sem Idealize.ShloMosaic.ValueIdx Cert.KernelIdeal Cert.KernelIdeal.Gen

/-- The transpose of a matrix read at `(k, q)` is the matrix at `(q, k)`. -/
private theorem tr_64x64 {α : Type} (x : S64x64.Idx → α) (k : Fin 64) (q : Fin 64) :
    transpose S64x64 [1, 0] x transposes_S64x64_p1_0_S64x64 (ix2 k q) = x (ix2 q k) := by
  refine transpose_apply _ x _ _ (ix2 q k) ?_
  intro b
  match b with
  | ⟨0, _⟩ => rfl
  | ⟨1, _⟩ => rfl

private theorem mm_5000x64_64x64_l0 (i : S5000x64.Idx) (c : dot_S5000x64_S64x64_S5000x64_1_0_0_1_n_n.contr.Idx) : (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
private theorem mm_5000x64_64x64_r1 (i : S5000x64.Idx) (c : dot_S5000x64_S64x64_S5000x64_1_0_0_1_n_n.contr.Idx) : (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A matrix product into the zero accumulator, read at row `p`, column `q`: the sum over the contracted axis. -/
private theorem mm_5000x64_64x64 {φ₁ φ₂ : FTy} (a : FVec Ideal S5000x64 φ₁) (w : FVec Ideal S64x64 φ₂) (p : Fin 5000) (q : Fin 64) :
    matmul dot_S5000x64_S64x64_S5000x64_1_0_0_1_n_n none a w (constant S5000x64 .f32 0x00000000#32) (ix2 p q)
      = ∑ k : Fin 64, a (ix2 p k) * w (ix2 k q) := by
  refine (Ideal.matmul_constant_zero_apply _ _ a w _).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact mm_5000x64_64x64_l0 _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dot_S5000x64_S64x64_S5000x64_1_0_0_1_n_n.rhsIdx_val_of_single rfl _ _).trans hk
    | ⟨1, _⟩ => exact mm_5000x64_64x64_r1 _ _)
  rw [el, er]

/-- The same product against a transposed right operand: row `p` of the left against row `q` of the untransposed right. -/
private theorem mmT_5000x64_64x64 {φ₁ φ₂ : FTy} (a : FVec Ideal S5000x64 φ₁) (w : FVec Ideal S64x64 φ₂) (p : Fin 5000) (q : Fin 64) :
    matmul dot_S5000x64_S64x64_S5000x64_1_0_0_1_n_n none a (transpose S64x64 [1, 0] w transposes_S64x64_p1_0_S64x64) (constant S5000x64 .f32 0x00000000#32) (ix2 p q)
      = ∑ k : Fin 64, a (ix2 p k) * w (ix2 q k) :=
  (mm_5000x64_64x64 a _ p q).trans (Finset.sum_congr rfl fun k _ => congrArg (a (ix2 p k) * ·) (tr_64x64 w k q))

/-- A column broadcast along the rows' entries: every entry of row `p` reads the column's entry `p`. -/
private theorem bc_col {α : Type} (x : S5000x1.Idx → α) (p : Fin 5000) (k : Fin 64) :
    broadcastTo S5000x64 x broadcasts_S5000x1_S5000x64 (ix2 p k) = x (ix2 p 0) := by
  refine broadcastTo_apply x _ _ (ix2 p 0) ?_
  intro a
  match a with
  | ⟨0, _⟩ => rfl
  | ⟨1, _⟩ => rfl

/-- A row broadcast down the rows: every row reads the row's entry of its column. -/
private theorem bc_row {α : Type} (x : S1x64.Idx → α) (p : Fin 5000) (q : Fin 64) :
    broadcastTo S5000x64 x broadcasts_S1x64_S5000x64 (ix2 p q) = x (ix2 0 q) := by
  refine broadcastTo_apply x _ _ (ix2 0 q) ?_
  intro a
  match a with
  | ⟨0, _⟩ => rfl
  | ⟨1, _⟩ => rfl

/-- The mailbox's contraction: each entry of the scaled row is the mailbox entry times the row's reciprocal in-degree. -/
private theorem nb_sum (v2 : Vec Ideal S5000x64 .f32) (v4 : Vec Ideal S5000x1 .f32) (v12 : Vec Ideal S64x64 .f32) (p : Fin 5000) (q : Fin 64) :
    ∑ k : Fin 64, (truncf .bf16 (mulf v2 (broadcastTo S5000x64 v4 broadcasts_S5000x1_S5000x64)) bitsLt_bf16_f32 : FVec Ideal S5000x64 .bf16) (ix2 p k) * (truncf .bf16 v12 bitsLt_bf16_f32 : FVec Ideal S64x64 .bf16) (ix2 q k)
      = ∑ k : Fin 64, (v2 (ix2 p k) * v4 (ix2 p 0)) * v12 (ix2 q k) :=
  Finset.sum_congr rfl fun k _ => congrArg (· * v12 (ix2 q k)) (congrArg (v2 (ix2 p k) * ·) (bc_col v4 p k))

/-- One entry of the node kernel's stored value is the specification's node cell of the rows it reads. -/
theorem node_pay (v0 : Vec Ideal S5000x64 .bf16) (v2 : Vec Ideal S5000x64 .f32) (v4 : Vec Ideal S5000x1 .f32) (v9 : Vec Ideal S64x64 .f32) (v12 : Vec Ideal S64x64 .f32) (v15 : Vec Ideal S1x64 .f32) (p : Fin 5000) (q : Fin 64) :
    k1_pay1 (F := Ideal) v0 v2 v4 v9 v12 v15 (ix2 p q) = Cert.Net.nodeCell (fun k => v0 (ix2 p k)) (fun k => v2 (ix2 p k)) (v4 (ix2 p 0)) (fun k => v9 (ix2 q k)) (fun k => v12 (ix2 q k)) (v15 (ix2 0 q)) := by
  unfold k1_pay1
  simp only [shapeCast_self]
  rw [truncf_apply, maximumf_apply, addf_apply, addf_apply, broadcast_apply, bc_row, mmT_5000x64_64x64, mmT_5000x64_64x64]
  rw [nb_sum]
  rfl

/-- The later node layers store the same term. -/
theorem k3_eq : @k3_pay1 = @k1_pay1 := rfl
theorem k5_eq : @k5_pay1 = @k1_pay1 := rfl
theorem k7_eq : @k7_pay1 = @k1_pay1 := rfl
theorem k9_eq : @k9_pay1 = @k1_pay1 := rfl

end Cert.Net.Pay
end
-- ==== Proof.KI.Val1.lean ====
/-
  What pipeline 1 (a node kernel) leaves in its output array, over the extended reals, as one function of
  its input arrays entry by entry: grid point t writes block t (rows 5000·t … 5000·t + 4999) from the same rows of the
  row-blocked inputs and from the whole weight and bias blocks, and the 20 blocks tile the array.
-/
import proofs.«149571_j25649544692292_2_alg».proof.Proof.KI.R1
import proofs.«149571_j25649544692292_2_alg».proof.Proof.PayNode
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The output array as one function of the input arrays, entry by entry. -/
def G1 (a0 : S100000x64.Idx → Elt Ideal .bf16) (a1 : S100000x64.Idx → Elt Ideal .f32) (a2 : S100000x1.Idx → Elt Ideal .f32) (a3 : S64x64.Idx → Elt Ideal .f32) (a4 : S64x64.Idx → Elt Ideal .f32) (a5 : S1x64.Idx → Elt Ideal .f32) :
    S100000x64.Idx → Elt Ideal .bf16 := fun i =>
  Cert.Net.nodeCell (fun k => a0 (ix2 (i 0) k)) (fun k => a1 (ix2 (i 0) k)) (a2 (ix2 (i 0) 0)) (fun k => a3 (ix2 (i 1) k)) (fun k => a4 (ix2 (i 1) k)) (a5 (ix2 0 (i 1)))

/-- The printed index maps over the grid: the row-blocked windows move with the point, the others stay. -/
theorem idx_facts1 : ∀ t : Fin cfg1.N, win1_6.index t (0 : Fin 2) = t.val
    ∧ win1_6.index t (1 : Fin 2) = 0
    ∧ win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0 :=
  (by decide +kernel : ∀ t : Fin grid1.N, _)

set_option maxHeartbeats 8000000 in
/-- What grid point `t` writes back is block `t` of `G1` of the arrays as the region finds them. -/
theorem flushed1_eq (c : Dev nD) (t : Fin cfg1.N) :
    (dat1 V c).flushed 6 t = ((cfg1.win 6).blk t).view.read (Elt Ideal)
      (G1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero hz1]
  simp only [View.ld_unit_zero (S := S5000x64) hz1, View.ld_unit_zero (S := S5000x1) hz1, View.ld_unit_zero (S := S64x64) hz1, View.ld_unit_zero (S := S1x64) hz1]
  obtain ⟨eo0, eo1, e00, e01, e10, e11, e20, e21, e30, e31, e40, e41, e50, e51⟩ := idx_facts1 t
  funext j
  obtain ⟨p, q, rfl⟩ : ∃ (p : Fin 5000) (q : Fin 64), j = ix2 p q := ⟨j 0, j 1, eq_ix2 j⟩
  refine (Cert.Net.Pay.node_pay _ _ _ _ _ _ p q).trans ?_
  show Cert.Net.nodeCell _ _ _ _ _ _ = G1 _ _ _ _ _ _ (((cfg1.win 6).blk t).view.emb (ix2 p q))
  unfold G1
  have hb0 : ∀ k : Fin 64, ((cfg1.win 0).blk t).view.emb (ix2 p k) = (ix2 ((((cfg1.win 6).blk t).view.emb (ix2 p q)) 0) k : S100000x64.Idx) := fun k => by
    funext a; apply Fin.ext
    match a with
    | ⟨0, _⟩ => show win1_0.index t (0 : Fin 2) * 5000 + 1 * p.val = win1_6.index t (0 : Fin 2) * 5000 + 1 * p.val; omega
    | ⟨1, _⟩ => show win1_0.index t (1 : Fin 2) * 64 + 1 * k.val = k.val; omega
  have hb1 : ∀ k : Fin 64, ((cfg1.win 1).blk t).view.emb (ix2 p k) = (ix2 ((((cfg1.win 6).blk t).view.emb (ix2 p q)) 0) k : S100000x64.Idx) := fun k => by
    funext a; apply Fin.ext
    match a with
    | ⟨0, _⟩ => show win1_1.index t (0 : Fin 2) * 5000 + 1 * p.val = win1_6.index t (0 : Fin 2) * 5000 + 1 * p.val; omega
    | ⟨1, _⟩ => show win1_1.index t (1 : Fin 2) * 64 + 1 * k.val = k.val; omega
  have hb2 : ((cfg1.win 2).blk t).view.emb (ix2 p (0 : Fin 1)) = (ix2 ((((cfg1.win 6).blk t).view.emb (ix2 p q)) 0) (0 : Fin 1) : S100000x1.Idx) := by
    funext a; apply Fin.ext
    match a with
    | ⟨0, _⟩ => show win1_2.index t (0 : Fin 2) * 5000 + 1 * p.val = win1_6.index t (0 : Fin 2) * 5000 + 1 * p.val; omega
    | ⟨1, _⟩ => show win1_2.index t (1 : Fin 2) * 1 + 1 * 0 = 0; omega
  have hb3 : ∀ k : Fin 64, ((cfg1.win 3).blk t).view.emb (ix2 q k) = (ix2 ((((cfg1.win 6).blk t).view.emb (ix2 p q)) 1) k : S64x64.Idx) := fun k => by
    funext a; apply Fin.ext
    match a with
    | ⟨0, _⟩ => show win1_3.index t (0 : Fin 2) * 64 + 1 * q.val = win1_6.index t (1 : Fin 2) * 64 + 1 * q.val; omega
    | ⟨1, _⟩ => show win1_3.index t (1 : Fin 2) * 64 + 1 * k.val = k.val; omega
  have hb4 : ∀ k : Fin 64, ((cfg1.win 4).blk t).view.emb (ix2 q k) = (ix2 ((((cfg1.win 6).blk t).view.emb (ix2 p q)) 1) k : S64x64.Idx) := fun k => by
    funext a; apply Fin.ext
    match a with
    | ⟨0, _⟩ => show win1_4.index t (0 : Fin 2) * 64 + 1 * q.val = win1_6.index t (1 : Fin 2) * 64 + 1 * q.val; omega
    | ⟨1, _⟩ => show win1_4.index t (1 : Fin 2) * 64 + 1 * k.val = k.val; omega
  have hb5 : ((cfg1.win 5).blk t).view.emb (ix2 (0 : Fin 1) q) = (ix2 (0 : Fin 1) ((((cfg1.win 6).blk t).view.emb (ix2 p q)) 1) : S1x64.Idx) := by
    funext a; apply Fin.ext
    match a with
    | ⟨0, _⟩ => show win1_5.index t (0 : Fin 2) * 1 + 1 * 0 = 0; omega
    | ⟨1, _⟩ => show win1_5.index t (1 : Fin 2) * 64 + 1 * q.val = win1_6.index t (1 : Fin 2) * 64 + 1 * q.val; omega
  refine congr (congr (congr (congr (congr (congrArg Cert.Net.nodeCell ?_) ?_) ?_) ?_) ?_) ?_
  · funext k; exact congrArg (V c (Pipeline.arrRef spec1 0)) (hb0 k)
  · funext k; exact congrArg (V c (Pipeline.arrRef spec1 1)) (hb1 k)
  · exact congrArg (V c (Pipeline.arrRef spec1 2)) (hb2)
  · funext k; exact congrArg (V c (Pipeline.arrRef spec1 3)) (hb3 k)
  · funext k; exact congrArg (V c (Pipeline.arrRef spec1 4)) (hb4 k)
  · exact congrArg (V c (Pipeline.arrRef spec1 5)) (hb5)

/-- An index of the output array lies in point `t`'s block iff each coordinate lies in the block's range. -/
theorem mem_blk1 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v50).slice (win1_6.rect t)).set ↔ _
  rw [View.set_slice_whole, Rect.mem_set_unit]
  exact Iff.rfl

/-- The output array after the region: `G1` of the input arrays, everywhere (the blocks tile it). -/
theorem final1 (c : Dev nD) : (dat1 V c).arrAt 6 cfg1.N =
    G1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (dat1 V c).arrAt_eq_of_cover 6 _ (fun t _ => flushed1_eq V c t) fun i => by
    have hi0 : (i 0).val < 100000 := (i 0).isLt
    have hi1 : (i 1).val < 64 := (i 1).isLt
    have hN : grid1.N = 20 := N_1
    have hlt : (i 0).val / 5000 < grid1.N := by omega
    refine ⟨⟨(i 0).val / 5000, hlt⟩, flush1_6 _, ?_⟩
    rw [mem_blk1]
    obtain ⟨eo0, eo1, -⟩ := idx_facts1 ⟨(i 0).val / 5000, hlt⟩
    intro a
    match a with
    | ⟨0, _⟩ => show win1_6.index _ (0 : Fin 2) * 5000 ≤ (i 0).val ∧ (i 0).val < win1_6.index _ (0 : Fin 2) * 5000 + 5000; rw [eo0]; show (i 0).val / 5000 * 5000 ≤ (i 0).val ∧ (i 0).val < (i 0).val / 5000 * 5000 + 5000; omega
    | ⟨1, _⟩ => show win1_6.index _ (1 : Fin 2) * 64 ≤ (i 1).val ∧ (i 1).val < win1_6.index _ (1 : Fin 2) * 64 + 64; rw [eo1]; omega

end Cert.KernelIdeal.Fr

end
-- ==== Proof.KI.Val2.lean ====
/-
  What pipeline 2 (an edge kernel) leaves in its output array, over the extended reals, as one function of
  its input arrays entry by entry: grid point t writes block t (rows 8000·t … 8000·t + 7999) from the same rows of the
  row-blocked inputs and from the whole weight and bias blocks, and the 100 blocks tile the array.
-/
import proofs.«149571_j25649544692292_2_alg».proof.Proof.KI.R2
import proofs.«149571_j25649544692292_2_alg».proof.Proof.PayEdge
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The output array as one function of the input arrays, entry by entry. -/
def G2 (a0 : S800000x64.Idx → Elt Ideal .bf16) (a1 : S800000x3.Idx → Elt Ideal .f32) (a2 : S64x64.Idx → Elt Ideal .f32) (a3 : S64x3.Idx → Elt Ideal .f32) :
    S800000x64.Idx → Elt Ideal .bf16 := fun i =>
  Cert.Net.edgeCell (fun k => a0 (ix2 (i 0) k)) (fun k => a1 (ix2 (i 0) k)) (fun k => a2 (ix2 (i 1) k)) (fun k => a3 (ix2 (i 1) k))

/-- The printed index maps over the grid: the row-blocked windows move with the point, the others stay. -/
theorem idx_facts2 : ∀ t : Fin cfg2.N, win2_4.index t (0 : Fin 2) = t.val
    ∧ win2_4.index t (1 : Fin 2) = 0
    ∧ win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0 :=
  (by decide +kernel : ∀ t : Fin grid2.N, _)

set_option maxHeartbeats 8000000 in
/-- What grid point `t` writes back is block `t` of `G2` of the arrays as the region finds them. -/
theorem flushed2_eq (c : Dev nD) (t : Fin cfg2.N) :
    (dat2 V c).flushed 4 t = ((cfg2.win 4).blk t).view.read (Elt Ideal)
      (G2 (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  unfold out2_4
  rw [View.canon_unit_zero hz2]
  simp only [View.ld_unit_zero (S := S8000x64) hz2, View.ld_unit_zero (S := S8000x3) hz2, View.ld_unit_zero (S := S64x64) hz2, View.ld_unit_zero (S := S64x3) hz2]
  obtain ⟨eo0, eo1, e00, e01, e10, e11, e20, e21, e30, e31⟩ := idx_facts2 t
  funext j
  obtain ⟨p, q, rfl⟩ : ∃ (p : Fin 8000) (q : Fin 64), j = ix2 p q := ⟨j 0, j 1, eq_ix2 j⟩
  rw [show @k2_pay1 = @k0_pay1 from rfl]
  refine (Cert.Net.Pay.edge_pay _ _ _ _ p q).trans ?_
  show Cert.Net.edgeCell _ _ _ _ = G2 _ _ _ _ (((cfg2.win 4).blk t).view.emb (ix2 p q))
  unfold G2
  have hb0 : ∀ k : Fin 64, ((cfg2.win 0).blk t).view.emb (ix2 p k) = (ix2 ((((cfg2.win 4).blk t).view.emb (ix2 p q)) 0) k : S800000x64.Idx) := fun k => by
    funext a; apply Fin.ext
    match a with
    | ⟨0, _⟩ => show win2_0.index t (0 : Fin 2) * 8000 + 1 * p.val = win2_4.index t (0 : Fin 2) * 8000 + 1 * p.val; omega
    | ⟨1, _⟩ => show win2_0.index t (1 : Fin 2) * 64 + 1 * k.val = k.val; omega
  have hb1 : ∀ k : Fin 3, ((cfg2.win 1).blk t).view.emb (ix2 p k) = (ix2 ((((cfg2.win 4).blk t).view.emb (ix2 p q)) 0) k : S800000x3.Idx) := fun k => by
    funext a; apply Fin.ext
    match a with
    | ⟨0, _⟩ => show win2_1.index t (0 : Fin 2) * 8000 + 1 * p.val = win2_4.index t (0 : Fin 2) * 8000 + 1 * p.val; omega
    | ⟨1, _⟩ => show win2_1.index t (1 : Fin 2) * 3 + 1 * k.val = k.val; omega
  have hb2 : ∀ k : Fin 64, ((cfg2.win 2).blk t).view.emb (ix2 q k) = (ix2 ((((cfg2.win 4).blk t).view.emb (ix2 p q)) 1) k : S64x64.Idx) := fun k => by
    funext a; apply Fin.ext
    match a with
    | ⟨0, _⟩ => show win2_2.index t (0 : Fin 2) * 64 + 1 * q.val = win2_4.index t (1 : Fin 2) * 64 + 1 * q.val; omega
    | ⟨1, _⟩ => show win2_2.index t (1 : Fin 2) * 64 + 1 * k.val = k.val; omega
  have hb3 : ∀ k : Fin 3, ((cfg2.win 3).blk t).view.emb (ix2 q k) = (ix2 ((((cfg2.win 4).blk t).view.emb (ix2 p q)) 1) k : S64x3.Idx) := fun k => by
    funext a; apply Fin.ext
    match a with
    | ⟨0, _⟩ => show win2_3.index t (0 : Fin 2) * 64 + 1 * q.val = win2_4.index t (1 : Fin 2) * 64 + 1 * q.val; omega
    | ⟨1, _⟩ => show win2_3.index t (1 : Fin 2) * 3 + 1 * k.val = k.val; omega
  refine congr (congr (congr (congrArg Cert.Net.edgeCell ?_) ?_) ?_) ?_
  · funext k; exact congrArg (V c (Pipeline.arrRef spec2 0)) (hb0 k)
  · funext k; exact congrArg (V c (Pipeline.arrRef spec2 1)) (hb1 k)
  · funext k; exact congrArg (V c (Pipeline.arrRef spec2 2)) (hb2 k)
  · funext k; exact congrArg (V c (Pipeline.arrRef spec2 3)) (hb3 k)

/-- An index of the output array lies in point `t`'s block iff each coordinate lies in the block's range. -/
theorem mem_blk2 (t : Fin cfg2.N) (i : S800000x64.Idx) :
    i ∈ ((cfg2.win 4).blk t).view.set ↔ ∀ a : Fin 2, win2_4.index t a * S8000x64.size a ≤ (i a).val ∧ (i a).val < win2_4.index t a * S8000x64.size a + S8000x64.size a := by
  show i ∈ ((View.whole main_v62).slice (win2_4.rect t)).set ↔ _
  rw [View.set_slice_whole, Rect.mem_set_unit]
  exact Iff.rfl

/-- The output array after the region: `G2` of the input arrays, everywhere (the blocks tile it). -/
theorem final2 (c : Dev nD) : (dat2 V c).arrAt 4 cfg2.N =
    G2 (V c (Pipeline.arrRef spec2 0)) (V c (Pipeline.arrRef spec2 1)) (V c (Pipeline.arrRef spec2 2)) (V c (Pipeline.arrRef spec2 3)) :=
  (dat2 V c).arrAt_eq_of_cover 4 _ (fun t _ => flushed2_eq V c t) fun i => by
    have hi0 : (i 0).val < 800000 := (i 0).isLt
    have hi1 : (i 1).val < 64 := (i 1).isLt
    have hN : grid2.N = 100 := N_2
    have hlt : (i 0).val / 8000 < grid2.N := by omega
    refine ⟨⟨(i 0).val / 8000, hlt⟩, flush2_4 _, ?_⟩
    rw [mem_blk2]
    obtain ⟨eo0, eo1, -⟩ := idx_facts2 ⟨(i 0).val / 8000, hlt⟩
    intro a
    match a with
    | ⟨0, _⟩ => show win2_4.index _ (0 : Fin 2) * 8000 ≤ (i 0).val ∧ (i 0).val < win2_4.index _ (0 : Fin 2) * 8000 + 8000; rw [eo0]; show (i 0).val / 8000 * 8000 ≤ (i 0).val ∧ (i 0).val < (i 0).val / 8000 * 8000 + 8000; omega
    | ⟨1, _⟩ => show win2_4.index _ (1 : Fin 2) * 64 ≤ (i 1).val ∧ (i 1).val < win2_4.index _ (1 : Fin 2) * 64 + 64; rw [eo1]; omega

end Cert.KernelIdeal.Fr

end
-- ==== Proof.KI.Val3.lean ====
/-
  What pipeline 3 (a node kernel) leaves in its output array, over the extended reals, as one function of
  its input arrays entry by entry: grid point t writes block t (rows 5000·t … 5000·t + 4999) from the same rows of the
  row-blocked inputs and from the whole weight and bias blocks, and the 20 blocks tile the array.
-/
import proofs.«149571_j25649544692292_2_alg».proof.Proof.KI.R3
import proofs.«149571_j25649544692292_2_alg».proof.Proof.PayNode
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

/-- The output array as one function of the input arrays, entry by entry. -/
def G3 (a0 : S100000x64.Idx → Elt Ideal .bf16) (a1 : S100000x64.Idx → Elt Ideal .f32) (a2 : S100000x1.Idx → Elt Ideal .f32) (a3 : S64x64.Idx → Elt Ideal .f32) (a4 : S64x64.Idx → Elt Ideal .f32) (a5 : S1x64.Idx → Elt Ideal .f32) :
    S100000x64.Idx → Elt Ideal .bf16 := fun i =>
  Cert.Net.nodeCell (fun k => a0 (ix2 (i 0) k)) (fun k => a1 (ix2 (i 0) k)) (a2 (ix2 (i 0) 0)) (fun k => a3 (ix2 (i 1) k)) (fun k => a4 (ix2 (i 1) k)) (a5 (ix2 0 (i 1)))

/-- The printed index maps over the grid: the row-blocked windows move with the point, the others stay. -/
theorem idx_facts3 : ∀ t : Fin cfg3.N, win3_6.index t (0 : Fin 2) = t.val
    ∧ win3_6.index t (1 : Fin 2) = 0
    ∧ win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0 :=
  (by decide +kernel : ∀ t : Fin grid3.N, _)

set_option maxHeartbeats 8000000 in
/-- What grid point `t` writes back is block `t` of `G3` of the arrays as the region finds them. -/
theorem flushed3_eq (c : Dev nD) (t : Fin cfg3.N) :
    (dat3 V c).flushed 6 t = ((cfg3.win 6).blk t).view.read (Elt Ideal)
      (G3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero hz3]
  simp only [View.ld_unit_zero (S := S5000x64) hz3, View.ld_unit_zero (S := S5000x1) hz3, View.ld_unit_zero (S := S64x64) hz3, View.ld_unit_zero (S := S1x64) hz3]
  obtain ⟨eo0, eo1, e00, e01, e10, e11, e20, e21, e30, e31, e40, e41, e50, e51⟩ := idx_facts3 t
  funext j
  obtain ⟨p, q, rfl⟩ : ∃ (p : Fin 5000) (q : Fin 64), j = ix2 p q := ⟨j 0, j 1, eq_ix2 j⟩
  rw [show @k3_pay1 = @k1_pay1 from rfl]
  refine (Cert.Net.Pay.node_pay _ _ _ _ _ _ p q).trans ?_
  show Cert.Net.nodeCell _ _ _ _ _ _ = G3 _ _ _ _ _ _ (((cfg3.win 6).blk t).view.emb (ix2 p q))
  unfold G3
  have hb0 : ∀ k : Fin 64, ((cfg3.win 0).blk t).view.emb (ix2 p k) = (ix2 ((((cfg3.win 6).blk t).view.emb (ix2 p q)) 0) k : S100000x64.Idx) := fun k => by
    funext a; apply Fin.ext
    match a with
    | ⟨0, _⟩ => show win3_0.index t (0 : Fin 2) * 5000 + 1 * p.val = win3_6.index t (0 : Fin 2) * 5000 + 1 * p.val; omega
    | ⟨1, _⟩ => show win3_0.index t (1 : Fin 2) * 64 + 1 * k.val = k.val; omega
  have hb1 : ∀ k : Fin 64, ((cfg3.win 1).blk t).view.emb (ix2 p k) = (ix2 ((((cfg3.win 6).blk t).view.emb (ix2 p q)) 0) k : S100000x64.Idx) := fun k => by
    funext a; apply Fin.ext
    match a with
    | ⟨0, _⟩ => show win3_1.index t (0 : Fin 2) * 5000 + 1 * p.val = win3_6.index t (0 : Fin 2) * 5000 + 1 * p.val; omega
    | ⟨1, _⟩ => show win3_1.index t (1 : Fin 2) * 64 + 1 * k.val = k.val; omega
  have hb2 : ((cfg3.win 2).blk t).view.emb (ix2 p (0 : Fin 1)) = (ix2 ((((cfg3.win 6).blk t).view.emb (ix2 p q)) 0) (0 : Fin 1) : S100000x1.Idx) := by
    funext a; apply Fin.ext
    match a with
    | ⟨0, _⟩ => show win3_2.index t (0 : Fin 2) * 5000 + 1 * p.val = win3_6.index t (0 : Fin 2) * 5000 + 1 * p.val; omega
    | ⟨1, _⟩ => show win3_2.index t (1 : Fin 2) * 1 + 1 * 0 = 0; omega
  have hb3 : ∀ k : Fin 64, ((cfg3.win 3).blk t).view.emb (ix2 q k) = (ix2 ((((cfg3.win 6).blk t).view.emb (ix2 p q)) 1) k : S64x64.Idx) := fun k => by
    funext a; apply Fin.ext
    match a with
    | ⟨0, _⟩ => show win3_3.index t (0 : Fin 2) * 64 + 1 * q.val = win3_6.index t (1 : Fin 2) * 64 + 1 * q.val; omega
    | ⟨1, _⟩ => show win3_3.index t (1 : Fin 2) * 64 + 1 * k.val = k.val; omega
  have hb4 : ∀ k : Fin 64, ((cfg3.win 4).blk t).view.emb (ix2 q k) = (ix2 ((((cfg3.win 6).blk t).view.emb (ix2 p q)) 1) k : S64x64.Idx) := fun k => by
    funext a; apply Fin.ext
    match a with
    | ⟨0, _⟩ => show win3_4.index t (0 : Fin 2) * 64 + 1 * q.val = win3_6.index t (1 : Fin 2) * 64 + 1 * q.val; omega
    | ⟨1, _⟩ => show win3_4.index t (1 : Fin 2) * 64 + 1 * k.val = k.val; omega
  have hb5 : ((cfg3.win 5).blk t).view.emb (ix2 (0 : Fin 1) q) = (ix2 (0 : Fin 1) ((((cfg3.win 6).blk t).view.emb (ix2 p q)) 1) : S1x64.Idx) := by
    funext a; apply Fin.ext
    match a with
    | ⟨0, _⟩ => show win3_5.index t (0 : Fin 2) * 1 + 1 * 0 = 0; omega
    | ⟨1, _⟩ => show win3_5.index t (1 : Fin 2) * 64 + 1 * q.val = win3_6.index t (1 : Fin 2) * 64 + 1 * q.val; omega
  refine congr (congr (congr (congr (congr (congrArg Cert.Net.nodeCell ?_) ?_) ?_) ?_) ?_) ?_
  · funext k; exact congrArg (V c (Pipeline.arrRef spec3 0)) (hb0 k)
  · funext k; exact congrArg (V c (Pipeline.arrRef spec3 1)) (hb1 k)
  · exact congrArg (V c (Pipeline.arrRef spec3 2)) (hb2)
  · funext k; exact congrArg (V c (Pipeline.arrRef spec3 3)) (hb3 k)
  · funext k; exact congrArg (V c (Pipeline.arrRef spec3 4)) (hb4 k)
  · exact congrArg (V c (Pipeline.arrRef spec3 5)) (hb5)

/-- An index of the output array lies in point `t`'s block iff each coordinate lies in the block's range. -/
theorem mem_blk3 (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v74).slice (win3_6.rect t)).set ↔ _
  rw [View.set_slice_whole, Rect.mem_set_unit]
  exact Iff.rfl

/-- The output array after the region: `G3` of the input arrays, everywhere (the blocks tile it). -/
theorem final3 (c : Dev nD) : (dat3 V c).arrAt 6 cfg3.N =
    G3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 V c).arrAt_eq_of_cover 6 _ (fun t _ => flushed3_eq V c t) fun i => by
    have hi0 : (i 0).val < 100000 := (i 0).isLt
    have hi1 : (i 1).val < 64 := (i 1).isLt
    have hN : grid3.N = 20 := N_3
    have hlt : (i 0).val / 5000 < grid3.N := by omega
    refine ⟨⟨(i 0).val / 5000, hlt⟩, flush3_6 _, ?_⟩
    rw [mem_blk3]
    obtain ⟨eo0, eo1, -⟩ := idx_facts3 ⟨(i 0).val / 5000, hlt⟩
    intro a
    match a with
    | ⟨0, _⟩ => show win3_6.index _ (0 : Fin 2) * 5000 ≤ (i 0).val ∧ (i 0).val < win3_6.index _ (0 : Fin 2) * 5000 + 5000; rw [eo0]; show (i 0).val / 5000 * 5000 ≤ (i 0).val ∧ (i 0).val < (i 0).val / 5000 * 5000 + 5000; omega
    | ⟨1, _⟩ => show win3_6.index _ (1 : Fin 2) * 64 ≤ (i 1).val ∧ (i 1).val < win3_6.index _ (1 : Fin 2) * 64 + 64; rw [eo1]; omega

end Cert.KernelIdeal.Fr

end
-- ==== Proof.KI.Val4.lean ====
/-
  What pipeline 4 (an edge kernel) leaves in its output array, over the extended reals, as one function of
  its input arrays entry by entry: grid point t writes block t (rows 8000·t … 8000·t + 7999) from the same rows of the
  row-blocked inputs and from the whole weight and bias blocks, and the 100 blocks tile the array.
-/
import proofs.«149571_j25649544692292_2_alg».proof.Proof.KI.R4
import proofs.«149571_j25649544692292_2_alg».proof.Proof.PayEdge
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz4 : (![0, 0] : Fin 2 → Nat) = fun _ => 0 := funext fun a => by fin_cases a <;> rfl

/-- The output array as one function of the input arrays, entry by entry. -/
def G4 (a0 : S800000x64.Idx → Elt Ideal .bf16) (a1 : S800000x3.Idx → Elt Ideal .f32) (a2 : S64x64.Idx → Elt Ideal .f32) (a3 : S64x3.Idx → Elt Ideal .f32) :
    S800000x64.Idx → Elt Ideal .bf16 := fun i =>
  Cert.Net.edgeCell (fun k => a0 (ix2 (i 0) k)) (fun k => a1 (ix2 (i 0) k)) (fun k => a2 (ix2 (i 1) k)) (fun k => a3 (ix2 (i 1) k))

/-- The printed index maps over the grid: the row-blocked windows move with the point, the others stay. -/
theorem idx_facts4 : ∀ t : Fin cfg4.N, win4_4.index t (0 : Fin 2) = t.val
    ∧ win4_4.index t (1 : Fin 2) = 0
    ∧ win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0 :=
  (by decide +kernel : ∀ t : Fin grid4.N, _)

set_option maxHeartbeats 8000000 in
/-- What grid point `t` writes back is block `t` of `G4` of the arrays as the region finds them. -/
theorem flushed4_eq (c : Dev nD) (t : Fin cfg4.N) :
    (dat4 V c).flushed 4 t = ((cfg4.win 4).blk t).view.read (Elt Ideal)
      (G4 (V c (Pipeline.arrRef spec4 0)) (V c (Pipeline.arrRef spec4 1)) (V c (Pipeline.arrRef spec4 2)) (V c (Pipeline.arrRef spec4 3))) := by
  show (cfg4.win 4).cut (grid4.coords t) ((dat4 V c).after 4 t) = _
  rw [after4_4]
  unfold out4_4
  rw [View.canon_unit_zero hz4]
  simp only [View.ld_unit_zero (S := S8000x64) hz4, View.ld_unit_zero (S := S8000x3) hz4, View.ld_unit_zero (S := S64x64) hz4, View.ld_unit_zero (S := S64x3) hz4]
  obtain ⟨eo0, eo1, e00, e01, e10, e11, e20, e21, e30, e31⟩ := idx_facts4 t
  funext j
  obtain ⟨p, q, rfl⟩ : ∃ (p : Fin 8000) (q : Fin 64), j = ix2 p q := ⟨j 0, j 1, eq_ix2 j⟩
  rw [show @k4_pay1 = @k0_pay1 from rfl]
  refine (Cert.Net.Pay.edge_pay _ _ _ _ p q).trans ?_
  show Cert.Net.edgeCell _ _ _ _ = G4 _ _ _ _ (((cfg4.win 4).blk t).view.emb (ix2 p q))
  unfold G4
  have hb0 : ∀ k : Fin 64, ((cfg4.win 0).blk t).view.emb (ix2 p k) = (ix2 ((((cfg4.win 4).blk t).view.emb (ix2 p q)) 0) k : S800000x64.Idx) := fun k => by
    funext a; apply Fin.ext
    match a with
    | ⟨0, _⟩ => show win4_0.index t (0 : Fin 2) * 8000 + 1 * p.val = win4_4.index t (0 : Fin 2) * 8000 + 1 * p.val; omega
    | ⟨1, _⟩ => show win4_0.index t (1 : Fin 2) * 64 + 1 * k.val = k.val; omega
  have hb1 : ∀ k : Fin 3, ((cfg4.win 1).blk t).view.emb (ix2 p k) = (ix2 ((((cfg4.win 4).blk t).view.emb (ix2 p q)) 0) k : S800000x3.Idx) := fun k => by
    funext a; apply Fin.ext
    match a with
    | ⟨0, _⟩ => show win4_1.index t (0 : Fin 2) * 8000 + 1 * p.val = win4_4.index t (0 : Fin 2) * 8000 + 1 * p.val; omega
    | ⟨1, _⟩ => show win4_1.index t (1 : Fin 2) * 3 + 1 * k.val = k.val; omega
  have hb2 : ∀ k : Fin 64, ((cfg4.win 2).blk t).view.emb (ix2 q k) = (ix2 ((((cfg4.win 4).blk t).view.emb (ix2 p q)) 1) k : S64x64.Idx) := fun k => by
    funext a; apply Fin.ext
    match a with
    | ⟨0, _⟩ => show win4_2.index t (0 : Fin 2) * 64 + 1 * q.val = win4_4.index t (1 : Fin 2) * 64 + 1 * q.val; omega
    | ⟨1, _⟩ => show win4_2.index t (1 : Fin 2) * 64 + 1 * k.val = k.val; omega
  have hb3 : ∀ k : Fin 3, ((cfg4.win 3).blk t).view.emb (ix2 q k) = (ix2 ((((cfg4.win 4).blk t).view.emb (ix2 p q)) 1) k : S64x3.Idx) := fun k => by
    funext a; apply Fin.ext
    match a with
    | ⟨0, _⟩ => show win4_3.index t (0 : Fin 2) * 64 + 1 * q.val = win4_4.index t (1 : Fin 2) * 64 + 1 * q.val; omega
    | ⟨1, _⟩ => show win4_3.index t (1 : Fin 2) * 3 + 1 * k.val = k.val; omega
  refine congr (congr (congr (congrArg Cert.Net.edgeCell ?_) ?_) ?_) ?_
  · funext k; exact congrArg (V c (Pipeline.arrRef spec4 0)) (hb0 k)
  · funext k; exact congrArg (V c (Pipeline.arrRef spec4 1)) (hb1 k)
  · funext k; exact congrArg (V c (Pipeline.arrRef spec4 2)) (hb2 k)
  · funext k; exact congrArg (V c (Pipeline.arrRef spec4 3)) (hb3 k)

/-- An index of the output array lies in point `t`'s block iff each coordinate lies in the block's range. -/
theorem mem_blk4 (t : Fin cfg4.N) (i : S800000x64.Idx) :
    i ∈ ((cfg4.win 4).blk t).view.set ↔ ∀ a : Fin 2, win4_4.index t a * S8000x64.size a ≤ (i a).val ∧ (i a).val < win4_4.index t a * S8000x64.size a + S8000x64.size a := by
  show i ∈ ((View.whole main_v86).slice (win4_4.rect t)).set ↔ _
  rw [View.set_slice_whole, Rect.mem_set_unit]
  exact Iff.rfl

/-- The output array after the region: `G4` of the input arrays, everywhere (the blocks tile it). -/
theorem final4 (c : Dev nD) : (dat4 V c).arrAt 4 cfg4.N =
    G4 (V c (Pipeline.arrRef spec4 0)) (V c (Pipeline.arrRef spec4 1)) (V c (Pipeline.arrRef spec4 2)) (V c (Pipeline.arrRef spec4 3)) :=
  (dat4 V c).arrAt_eq_of_cover 4 _ (fun t _ => flushed4_eq V c t) fun i => by
    have hi0 : (i 0).val < 800000 := (i 0).isLt
    have hi1 : (i 1).val < 64 := (i 1).isLt
    have hN : grid4.N = 100 := N_4
    have hlt : (i 0).val / 8000 < grid4.N := by omega
    refine ⟨⟨(i 0).val / 8000, hlt⟩, flush4_4 _, ?_⟩
    rw [mem_blk4]
    obtain ⟨eo0, eo1, -⟩ := idx_facts4 ⟨(i 0).val / 8000, hlt⟩
    intro a
    match a with
    | ⟨0, _⟩ => show win4_4.index _ (0 : Fin 2) * 8000 ≤ (i 0).val ∧ (i 0).val < win4_4.index _ (0 : Fin 2) * 8000 + 8000; rw [eo0]; show (i 0).val / 8000 * 8000 ≤ (i 0).val ∧ (i 0).val < (i 0).val / 8000 * 8000 + 8000; omega
    | ⟨1, _⟩ => show win4_4.index _ (1 : Fin 2) * 64 ≤ (i 1).val ∧ (i 1).val < win4_4.index _ (1 : Fin 2) * 64 + 64; rw [eo1]; omega

end Cert.KernelIdeal.Fr

end
-- ==== Proof.KI.Val5.lean ====
/-
  What pipeline 5 (a node kernel) leaves in its output array, over the extended reals, as one function of
  its input arrays entry by entry: grid point t writes block t (rows 5000·t … 5000·t + 4999) from the same rows of the
  row-blocked inputs and from the whole weight and bias blocks, and the 20 blocks tile the array.
-/
import proofs.«149571_j25649544692292_2_alg».proof.Proof.KI.R5
import proofs.«149571_j25649544692292_2_alg».proof.Proof.PayNode
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz5 : (![0, 0] : Fin 2 → Nat) = fun _ => 0 := funext fun a => by fin_cases a <;> rfl

/-- The output array as one function of the input arrays, entry by entry. -/
def G5 (a0 : S100000x64.Idx → Elt Ideal .bf16) (a1 : S100000x64.Idx → Elt Ideal .f32) (a2 : S100000x1.Idx → Elt Ideal .f32) (a3 : S64x64.Idx → Elt Ideal .f32) (a4 : S64x64.Idx → Elt Ideal .f32) (a5 : S1x64.Idx → Elt Ideal .f32) :
    S100000x64.Idx → Elt Ideal .bf16 := fun i =>
  Cert.Net.nodeCell (fun k => a0 (ix2 (i 0) k)) (fun k => a1 (ix2 (i 0) k)) (a2 (ix2 (i 0) 0)) (fun k => a3 (ix2 (i 1) k)) (fun k => a4 (ix2 (i 1) k)) (a5 (ix2 0 (i 1)))

/-- The printed index maps over the grid: the row-blocked windows move with the point, the others stay. -/
theorem idx_facts5 : ∀ t : Fin cfg5.N, win5_6.index t (0 : Fin 2) = t.val
    ∧ win5_6.index t (1 : Fin 2) = 0
    ∧ win5_0.index t (0 : Fin 2) = t.val
    ∧ win5_0.index t (1 : Fin 2) = 0
    ∧ win5_1.index t (0 : Fin 2) = t.val
    ∧ win5_1.index t (1 : Fin 2) = 0
    ∧ win5_2.index t (0 : Fin 2) = t.val
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0 :=
  (by decide +kernel : ∀ t : Fin grid5.N, _)

set_option maxHeartbeats 8000000 in
/-- What grid point `t` writes back is block `t` of `G5` of the arrays as the region finds them. -/
theorem flushed5_eq (c : Dev nD) (t : Fin cfg5.N) :
    (dat5 V c).flushed 6 t = ((cfg5.win 6).blk t).view.read (Elt Ideal)
      (G5 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))) := by
  show (cfg5.win 6).cut (grid5.coords t) ((dat5 V c).after 6 t) = _
  rw [after5_6]
  unfold out5_6
  rw [View.canon_unit_zero hz5]
  simp only [View.ld_unit_zero (S := S5000x64) hz5, View.ld_unit_zero (S := S5000x1) hz5, View.ld_unit_zero (S := S64x64) hz5, View.ld_unit_zero (S := S1x64) hz5]
  obtain ⟨eo0, eo1, e00, e01, e10, e11, e20, e21, e30, e31, e40, e41, e50, e51⟩ := idx_facts5 t
  funext j
  obtain ⟨p, q, rfl⟩ : ∃ (p : Fin 5000) (q : Fin 64), j = ix2 p q := ⟨j 0, j 1, eq_ix2 j⟩
  rw [show @k5_pay1 = @k1_pay1 from rfl]
  refine (Cert.Net.Pay.node_pay _ _ _ _ _ _ p q).trans ?_
  show Cert.Net.nodeCell _ _ _ _ _ _ = G5 _ _ _ _ _ _ (((cfg5.win 6).blk t).view.emb (ix2 p q))
  unfold G5
  have hb0 : ∀ k : Fin 64, ((cfg5.win 0).blk t).view.emb (ix2 p k) = (ix2 ((((cfg5.win 6).blk t).view.emb (ix2 p q)) 0) k : S100000x64.Idx) := fun k => by
    funext a; apply Fin.ext
    match a with
    | ⟨0, _⟩ => show win5_0.index t (0 : Fin 2) * 5000 + 1 * p.val = win5_6.index t (0 : Fin 2) * 5000 + 1 * p.val; omega
    | ⟨1, _⟩ => show win5_0.index t (1 : Fin 2) * 64 + 1 * k.val = k.val; omega
  have hb1 : ∀ k : Fin 64, ((cfg5.win 1).blk t).view.emb (ix2 p k) = (ix2 ((((cfg5.win 6).blk t).view.emb (ix2 p q)) 0) k : S100000x64.Idx) := fun k => by
    funext a; apply Fin.ext
    match a with
    | ⟨0, _⟩ => show win5_1.index t (0 : Fin 2) * 5000 + 1 * p.val = win5_6.index t (0 : Fin 2) * 5000 + 1 * p.val; omega
    | ⟨1, _⟩ => show win5_1.index t (1 : Fin 2) * 64 + 1 * k.val = k.val; omega
  have hb2 : ((cfg5.win 2).blk t).view.emb (ix2 p (0 : Fin 1)) = (ix2 ((((cfg5.win 6).blk t).view.emb (ix2 p q)) 0) (0 : Fin 1) : S100000x1.Idx) := by
    funext a; apply Fin.ext
    match a with
    | ⟨0, _⟩ => show win5_2.index t (0 : Fin 2) * 5000 + 1 * p.val = win5_6.index t (0 : Fin 2) * 5000 + 1 * p.val; omega
    | ⟨1, _⟩ => show win5_2.index t (1 : Fin 2) * 1 + 1 * 0 = 0; omega
  have hb3 : ∀ k : Fin 64, ((cfg5.win 3).blk t).view.emb (ix2 q k) = (ix2 ((((cfg5.win 6).blk t).view.emb (ix2 p q)) 1) k : S64x64.Idx) := fun k => by
    funext a; apply Fin.ext
    match a with
    | ⟨0, _⟩ => show win5_3.index t (0 : Fin 2) * 64 + 1 * q.val = win5_6.index t (1 : Fin 2) * 64 + 1 * q.val; omega
    | ⟨1, _⟩ => show win5_3.index t (1 : Fin 2) * 64 + 1 * k.val = k.val; omega
  have hb4 : ∀ k : Fin 64, ((cfg5.win 4).blk t).view.emb (ix2 q k) = (ix2 ((((cfg5.win 6).blk t).view.emb (ix2 p q)) 1) k : S64x64.Idx) := fun k => by
    funext a; apply Fin.ext
    match a with
    | ⟨0, _⟩ => show win5_4.index t (0 : Fin 2) * 64 + 1 * q.val = win5_6.index t (1 : Fin 2) * 64 + 1 * q.val; omega
    | ⟨1, _⟩ => show win5_4.index t (1 : Fin 2) * 64 + 1 * k.val = k.val; omega
  have hb5 : ((cfg5.win 5).blk t).view.emb (ix2 (0 : Fin 1) q) = (ix2 (0 : Fin 1) ((((cfg5.win 6).blk t).view.emb (ix2 p q)) 1) : S1x64.Idx) := by
    funext a; apply Fin.ext
    match a with
    | ⟨0, _⟩ => show win5_5.index t (0 : Fin 2) * 1 + 1 * 0 = 0; omega
    | ⟨1, _⟩ => show win5_5.index t (1 : Fin 2) * 64 + 1 * q.val = win5_6.index t (1 : Fin 2) * 64 + 1 * q.val; omega
  refine congr (congr (congr (congr (congr (congrArg Cert.Net.nodeCell ?_) ?_) ?_) ?_) ?_) ?_
  · funext k; exact congrArg (V c (Pipeline.arrRef spec5 0)) (hb0 k)
  · funext k; exact congrArg (V c (Pipeline.arrRef spec5 1)) (hb1 k)
  · exact congrArg (V c (Pipeline.arrRef spec5 2)) (hb2)
  · funext k; exact congrArg (V c (Pipeline.arrRef spec5 3)) (hb3 k)
  · funext k; exact congrArg (V c (Pipeline.arrRef spec5 4)) (hb4 k)
  · exact congrArg (V c (Pipeline.arrRef spec5 5)) (hb5)

/-- An index of the output array lies in point `t`'s block iff each coordinate lies in the block's range. -/
theorem mem_blk5 (t : Fin cfg5.N) (i : S100000x64.Idx) :
    i ∈ ((cfg5.win 6).blk t).view.set ↔ ∀ a : Fin 2, win5_6.index t a * S5000x64.size a ≤ (i a).val ∧ (i a).val < win5_6.index t a * S5000x64.size a + S5000x64.size a := by
  show i ∈ ((View.whole main_v98).slice (win5_6.rect t)).set ↔ _
  rw [View.set_slice_whole, Rect.mem_set_unit]
  exact Iff.rfl

/-- The output array after the region: `G5` of the input arrays, everywhere (the blocks tile it). -/
theorem final5 (c : Dev nD) : (dat5 V c).arrAt 6 cfg5.N =
    G5 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) :=
  (dat5 V c).arrAt_eq_of_cover 6 _ (fun t _ => flushed5_eq V c t) fun i => by
    have hi0 : (i 0).val < 100000 := (i 0).isLt
    have hi1 : (i 1).val < 64 := (i 1).isLt
    have hN : grid5.N = 20 := N_5
    have hlt : (i 0).val / 5000 < grid5.N := by omega
    refine ⟨⟨(i 0).val / 5000, hlt⟩, flush5_6 _, ?_⟩
    rw [mem_blk5]
    obtain ⟨eo0, eo1, -⟩ := idx_facts5 ⟨(i 0).val / 5000, hlt⟩
    intro a
    match a with
    | ⟨0, _⟩ => show win5_6.index _ (0 : Fin 2) * 5000 ≤ (i 0).val ∧ (i 0).val < win5_6.index _ (0 : Fin 2) * 5000 + 5000; rw [eo0]; show (i 0).val / 5000 * 5000 ≤ (i 0).val ∧ (i 0).val < (i 0).val / 5000 * 5000 + 5000; omega
    | ⟨1, _⟩ => show win5_6.index _ (1 : Fin 2) * 64 ≤ (i 1).val ∧ (i 1).val < win5_6.index _ (1 : Fin 2) * 64 + 64; rw [eo1]; omega

end Cert.KernelIdeal.Fr

end
-- ==== Proof.KI.Val6.lean ====
/-
  What pipeline 6 (an edge kernel) leaves in its output array, over the extended reals, as one function of
  its input arrays entry by entry: grid point t writes block t (rows 8000·t … 8000·t + 7999) from the same rows of the
  row-blocked inputs and from the whole weight and bias blocks, and the 100 blocks tile the array.
-/
import proofs.«149571_j25649544692292_2_alg».proof.Proof.KI.R6
import proofs.«149571_j25649544692292_2_alg».proof.Proof.PayEdge
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz6 : (![0, 0] : Fin 2 → Nat) = fun _ => 0 := funext fun a => by fin_cases a <;> rfl

/-- The output array as one function of the input arrays, entry by entry. -/
def G6 (a0 : S800000x64.Idx → Elt Ideal .bf16) (a1 : S800000x3.Idx → Elt Ideal .f32) (a2 : S64x64.Idx → Elt Ideal .f32) (a3 : S64x3.Idx → Elt Ideal .f32) :
    S800000x64.Idx → Elt Ideal .bf16 := fun i =>
  Cert.Net.edgeCell (fun k => a0 (ix2 (i 0) k)) (fun k => a1 (ix2 (i 0) k)) (fun k => a2 (ix2 (i 1) k)) (fun k => a3 (ix2 (i 1) k))

/-- The printed index maps over the grid: the row-blocked windows move with the point, the others stay. -/
theorem idx_facts6 : ∀ t : Fin cfg6.N, win6_4.index t (0 : Fin 2) = t.val
    ∧ win6_4.index t (1 : Fin 2) = 0
    ∧ win6_0.index t (0 : Fin 2) = t.val
    ∧ win6_0.index t (1 : Fin 2) = 0
    ∧ win6_1.index t (0 : Fin 2) = t.val
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0 :=
  (by decide +kernel : ∀ t : Fin grid6.N, _)

set_option maxHeartbeats 8000000 in
/-- What grid point `t` writes back is block `t` of `G6` of the arrays as the region finds them. -/
theorem flushed6_eq (c : Dev nD) (t : Fin cfg6.N) :
    (dat6 V c).flushed 4 t = ((cfg6.win 4).blk t).view.read (Elt Ideal)
      (G6 (V c (Pipeline.arrRef spec6 0)) (V c (Pipeline.arrRef spec6 1)) (V c (Pipeline.arrRef spec6 2)) (V c (Pipeline.arrRef spec6 3))) := by
  show (cfg6.win 4).cut (grid6.coords t) ((dat6 V c).after 4 t) = _
  rw [after6_4]
  unfold out6_4
  rw [View.canon_unit_zero hz6]
  simp only [View.ld_unit_zero (S := S8000x64) hz6, View.ld_unit_zero (S := S8000x3) hz6, View.ld_unit_zero (S := S64x64) hz6, View.ld_unit_zero (S := S64x3) hz6]
  obtain ⟨eo0, eo1, e00, e01, e10, e11, e20, e21, e30, e31⟩ := idx_facts6 t
  funext j
  obtain ⟨p, q, rfl⟩ : ∃ (p : Fin 8000) (q : Fin 64), j = ix2 p q := ⟨j 0, j 1, eq_ix2 j⟩
  rw [show @k6_pay1 = @k0_pay1 from rfl]
  refine (Cert.Net.Pay.edge_pay _ _ _ _ p q).trans ?_
  show Cert.Net.edgeCell _ _ _ _ = G6 _ _ _ _ (((cfg6.win 4).blk t).view.emb (ix2 p q))
  unfold G6
  have hb0 : ∀ k : Fin 64, ((cfg6.win 0).blk t).view.emb (ix2 p k) = (ix2 ((((cfg6.win 4).blk t).view.emb (ix2 p q)) 0) k : S800000x64.Idx) := fun k => by
    funext a; apply Fin.ext
    match a with
    | ⟨0, _⟩ => show win6_0.index t (0 : Fin 2) * 8000 + 1 * p.val = win6_4.index t (0 : Fin 2) * 8000 + 1 * p.val; omega
    | ⟨1, _⟩ => show win6_0.index t (1 : Fin 2) * 64 + 1 * k.val = k.val; omega
  have hb1 : ∀ k : Fin 3, ((cfg6.win 1).blk t).view.emb (ix2 p k) = (ix2 ((((cfg6.win 4).blk t).view.emb (ix2 p q)) 0) k : S800000x3.Idx) := fun k => by
    funext a; apply Fin.ext
    match a with
    | ⟨0, _⟩ => show win6_1.index t (0 : Fin 2) * 8000 + 1 * p.val = win6_4.index t (0 : Fin 2) * 8000 + 1 * p.val; omega
    | ⟨1, _⟩ => show win6_1.index t (1 : Fin 2) * 3 + 1 * k.val = k.val; omega
  have hb2 : ∀ k : Fin 64, ((cfg6.win 2).blk t).view.emb (ix2 q k) = (ix2 ((((cfg6.win 4).blk t).view.emb (ix2 p q)) 1) k : S64x64.Idx) := fun k => by
    funext a; apply Fin.ext
    match a with
    | ⟨0, _⟩ => show win6_2.index t (0 : Fin 2) * 64 + 1 * q.val = win6_4.index t (1 : Fin 2) * 64 + 1 * q.val; omega
    | ⟨1, _⟩ => show win6_2.index t (1 : Fin 2) * 64 + 1 * k.val = k.val; omega
  have hb3 : ∀ k : Fin 3, ((cfg6.win 3).blk t).view.emb (ix2 q k) = (ix2 ((((cfg6.win 4).blk t).view.emb (ix2 p q)) 1) k : S64x3.Idx) := fun k => by
    funext a; apply Fin.ext
    match a with
    | ⟨0, _⟩ => show win6_3.index t (0 : Fin 2) * 64 + 1 * q.val = win6_4.index t (1 : Fin 2) * 64 + 1 * q.val; omega
    | ⟨1, _⟩ => show win6_3.index t (1 : Fin 2) * 3 + 1 * k.val = k.val; omega
  refine congr (congr (congr (congrArg Cert.Net.edgeCell ?_) ?_) ?_) ?_
  · funext k; exact congrArg (V c (Pipeline.arrRef spec6 0)) (hb0 k)
  · funext k; exact congrArg (V c (Pipeline.arrRef spec6 1)) (hb1 k)
  · funext k; exact congrArg (V c (Pipeline.arrRef spec6 2)) (hb2 k)
  · funext k; exact congrArg (V c (Pipeline.arrRef spec6 3)) (hb3 k)

/-- An index of the output array lies in point `t`'s block iff each coordinate lies in the block's range. -/
theorem mem_blk6 (t : Fin cfg6.N) (i : S800000x64.Idx) :
    i ∈ ((cfg6.win 4).blk t).view.set ↔ ∀ a : Fin 2, win6_4.index t a * S8000x64.size a ≤ (i a).val ∧ (i a).val < win6_4.index t a * S8000x64.size a + S8000x64.size a := by
  show i ∈ ((View.whole main_v110).slice (win6_4.rect t)).set ↔ _
  rw [View.set_slice_whole, Rect.mem_set_unit]
  exact Iff.rfl

/-- The output array after the region: `G6` of the input arrays, everywhere (the blocks tile it). -/
theorem final6 (c : Dev nD) : (dat6 V c).arrAt 4 cfg6.N =
    G6 (V c (Pipeline.arrRef spec6 0)) (V c (Pipeline.arrRef spec6 1)) (V c (Pipeline.arrRef spec6 2)) (V c (Pipeline.arrRef spec6 3)) :=
  (dat6 V c).arrAt_eq_of_cover 4 _ (fun t _ => flushed6_eq V c t) fun i => by
    have hi0 : (i 0).val < 800000 := (i 0).isLt
    have hi1 : (i 1).val < 64 := (i 1).isLt
    have hN : grid6.N = 100 := N_6
    have hlt : (i 0).val / 8000 < grid6.N := by omega
    refine ⟨⟨(i 0).val / 8000, hlt⟩, flush6_4 _, ?_⟩
    rw [mem_blk6]
    obtain ⟨eo0, eo1, -⟩ := idx_facts6 ⟨(i 0).val / 8000, hlt⟩
    intro a
    match a with
    | ⟨0, _⟩ => show win6_4.index _ (0 : Fin 2) * 8000 ≤ (i 0).val ∧ (i 0).val < win6_4.index _ (0 : Fin 2) * 8000 + 8000; rw [eo0]; show (i 0).val / 8000 * 8000 ≤ (i 0).val ∧ (i 0).val < (i 0).val / 8000 * 8000 + 8000; omega
    | ⟨1, _⟩ => show win6_4.index _ (1 : Fin 2) * 64 ≤ (i 1).val ∧ (i 1).val < win6_4.index _ (1 : Fin 2) * 64 + 64; rw [eo1]; omega

end Cert.KernelIdeal.Fr

end
-- ==== Proof.KI.Val7.lean ====
/-
  What pipeline 7 (a node kernel) leaves in its output array, over the extended reals, as one function of
  its input arrays entry by entry: grid point t writes block t (rows 5000·t … 5000·t + 4999) from the same rows of the
  row-blocked inputs and from the whole weight and bias blocks, and the 20 blocks tile the array.
-/
import proofs.«149571_j25649544692292_2_alg».proof.Proof.KI.R7
import proofs.«149571_j25649544692292_2_alg».proof.Proof.PayNode
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz7 : (![0, 0] : Fin 2 → Nat) = fun _ => 0 := funext fun a => by fin_cases a <;> rfl

/-- The output array as one function of the input arrays, entry by entry. -/
def G7 (a0 : S100000x64.Idx → Elt Ideal .bf16) (a1 : S100000x64.Idx → Elt Ideal .f32) (a2 : S100000x1.Idx → Elt Ideal .f32) (a3 : S64x64.Idx → Elt Ideal .f32) (a4 : S64x64.Idx → Elt Ideal .f32) (a5 : S1x64.Idx → Elt Ideal .f32) :
    S100000x64.Idx → Elt Ideal .bf16 := fun i =>
  Cert.Net.nodeCell (fun k => a0 (ix2 (i 0) k)) (fun k => a1 (ix2 (i 0) k)) (a2 (ix2 (i 0) 0)) (fun k => a3 (ix2 (i 1) k)) (fun k => a4 (ix2 (i 1) k)) (a5 (ix2 0 (i 1)))

/-- The printed index maps over the grid: the row-blocked windows move with the point, the others stay. -/
theorem idx_facts7 : ∀ t : Fin cfg7.N, win7_6.index t (0 : Fin 2) = t.val
    ∧ win7_6.index t (1 : Fin 2) = 0
    ∧ win7_0.index t (0 : Fin 2) = t.val
    ∧ win7_0.index t (1 : Fin 2) = 0
    ∧ win7_1.index t (0 : Fin 2) = t.val
    ∧ win7_1.index t (1 : Fin 2) = 0
    ∧ win7_2.index t (0 : Fin 2) = t.val
    ∧ win7_2.index t (1 : Fin 2) = 0
    ∧ win7_3.index t (0 : Fin 2) = 0
    ∧ win7_3.index t (1 : Fin 2) = 0
    ∧ win7_4.index t (0 : Fin 2) = 0
    ∧ win7_4.index t (1 : Fin 2) = 0
    ∧ win7_5.index t (0 : Fin 2) = 0
    ∧ win7_5.index t (1 : Fin 2) = 0 :=
  (by decide +kernel : ∀ t : Fin grid7.N, _)

set_option maxHeartbeats 8000000 in
/-- What grid point `t` writes back is block `t` of `G7` of the arrays as the region finds them. -/
theorem flushed7_eq (c : Dev nD) (t : Fin cfg7.N) :
    (dat7 V c).flushed 6 t = ((cfg7.win 6).blk t).view.read (Elt Ideal)
      (G7 (V c (Pipeline.arrRef spec7 0)) (V c (Pipeline.arrRef spec7 1)) (V c (Pipeline.arrRef spec7 2)) (V c (Pipeline.arrRef spec7 3)) (V c (Pipeline.arrRef spec7 4)) (V c (Pipeline.arrRef spec7 5))) := by
  show (cfg7.win 6).cut (grid7.coords t) ((dat7 V c).after 6 t) = _
  rw [after7_6]
  unfold out7_6
  rw [View.canon_unit_zero hz7]
  simp only [View.ld_unit_zero (S := S5000x64) hz7, View.ld_unit_zero (S := S5000x1) hz7, View.ld_unit_zero (S := S64x64) hz7, View.ld_unit_zero (S := S1x64) hz7]
  obtain ⟨eo0, eo1, e00, e01, e10, e11, e20, e21, e30, e31, e40, e41, e50, e51⟩ := idx_facts7 t
  funext j
  obtain ⟨p, q, rfl⟩ : ∃ (p : Fin 5000) (q : Fin 64), j = ix2 p q := ⟨j 0, j 1, eq_ix2 j⟩
  rw [show @k7_pay1 = @k1_pay1 from rfl]
  refine (Cert.Net.Pay.node_pay _ _ _ _ _ _ p q).trans ?_
  show Cert.Net.nodeCell _ _ _ _ _ _ = G7 _ _ _ _ _ _ (((cfg7.win 6).blk t).view.emb (ix2 p q))
  unfold G7
  have hb0 : ∀ k : Fin 64, ((cfg7.win 0).blk t).view.emb (ix2 p k) = (ix2 ((((cfg7.win 6).blk t).view.emb (ix2 p q)) 0) k : S100000x64.Idx) := fun k => by
    funext a; apply Fin.ext
    match a with
    | ⟨0, _⟩ => show win7_0.index t (0 : Fin 2) * 5000 + 1 * p.val = win7_6.index t (0 : Fin 2) * 5000 + 1 * p.val; omega
    | ⟨1, _⟩ => show win7_0.index t (1 : Fin 2) * 64 + 1 * k.val = k.val; omega
  have hb1 : ∀ k : Fin 64, ((cfg7.win 1).blk t).view.emb (ix2 p k) = (ix2 ((((cfg7.win 6).blk t).view.emb (ix2 p q)) 0) k : S100000x64.Idx) := fun k => by
    funext a; apply Fin.ext
    match a with
    | ⟨0, _⟩ => show win7_1.index t (0 : Fin 2) * 5000 + 1 * p.val = win7_6.index t (0 : Fin 2) * 5000 + 1 * p.val; omega
    | ⟨1, _⟩ => show win7_1.index t (1 : Fin 2) * 64 + 1 * k.val = k.val; omega
  have hb2 : ((cfg7.win 2).blk t).view.emb (ix2 p (0 : Fin 1)) = (ix2 ((((cfg7.win 6).blk t).view.emb (ix2 p q)) 0) (0 : Fin 1) : S100000x1.Idx) := by
    funext a; apply Fin.ext
    match a with
    | ⟨0, _⟩ => show win7_2.index t (0 : Fin 2) * 5000 + 1 * p.val = win7_6.index t (0 : Fin 2) * 5000 + 1 * p.val; omega
    | ⟨1, _⟩ => show win7_2.index t (1 : Fin 2) * 1 + 1 * 0 = 0; omega
  have hb3 : ∀ k : Fin 64, ((cfg7.win 3).blk t).view.emb (ix2 q k) = (ix2 ((((cfg7.win 6).blk t).view.emb (ix2 p q)) 1) k : S64x64.Idx) := fun k => by
    funext a; apply Fin.ext
    match a with
    | ⟨0, _⟩ => show win7_3.index t (0 : Fin 2) * 64 + 1 * q.val = win7_6.index t (1 : Fin 2) * 64 + 1 * q.val; omega
    | ⟨1, _⟩ => show win7_3.index t (1 : Fin 2) * 64 + 1 * k.val = k.val; omega
  have hb4 : ∀ k : Fin 64, ((cfg7.win 4).blk t).view.emb (ix2 q k) = (ix2 ((((cfg7.win 6).blk t).view.emb (ix2 p q)) 1) k : S64x64.Idx) := fun k => by
    funext a; apply Fin.ext
    match a with
    | ⟨0, _⟩ => show win7_4.index t (0 : Fin 2) * 64 + 1 * q.val = win7_6.index t (1 : Fin 2) * 64 + 1 * q.val; omega
    | ⟨1, _⟩ => show win7_4.index t (1 : Fin 2) * 64 + 1 * k.val = k.val; omega
  have hb5 : ((cfg7.win 5).blk t).view.emb (ix2 (0 : Fin 1) q) = (ix2 (0 : Fin 1) ((((cfg7.win 6).blk t).view.emb (ix2 p q)) 1) : S1x64.Idx) := by
    funext a; apply Fin.ext
    match a with
    | ⟨0, _⟩ => show win7_5.index t (0 : Fin 2) * 1 + 1 * 0 = 0; omega
    | ⟨1, _⟩ => show win7_5.index t (1 : Fin 2) * 64 + 1 * q.val = win7_6.index t (1 : Fin 2) * 64 + 1 * q.val; omega
  refine congr (congr (congr (congr (congr (congrArg Cert.Net.nodeCell ?_) ?_) ?_) ?_) ?_) ?_
  · funext k; exact congrArg (V c (Pipeline.arrRef spec7 0)) (hb0 k)
  · funext k; exact congrArg (V c (Pipeline.arrRef spec7 1)) (hb1 k)
  · exact congrArg (V c (Pipeline.arrRef spec7 2)) (hb2)
  · funext k; exact congrArg (V c (Pipeline.arrRef spec7 3)) (hb3 k)
  · funext k; exact congrArg (V c (Pipeline.arrRef spec7 4)) (hb4 k)
  · exact congrArg (V c (Pipeline.arrRef spec7 5)) (hb5)

/-- An index of the output array lies in point `t`'s block iff each coordinate lies in the block's range. -/
theorem mem_blk7 (t : Fin cfg7.N) (i : S100000x64.Idx) :
    i ∈ ((cfg7.win 6).blk t).view.set ↔ ∀ a : Fin 2, win7_6.index t a * S5000x64.size a ≤ (i a).val ∧ (i a).val < win7_6.index t a * S5000x64.size a + S5000x64.size a := by
  show i ∈ ((View.whole main_v122).slice (win7_6.rect t)).set ↔ _
  rw [View.set_slice_whole, Rect.mem_set_unit]
  exact Iff.rfl

/-- The output array after the region: `G7` of the input arrays, everywhere (the blocks tile it). -/
theorem final7 (c : Dev nD) : (dat7 V c).arrAt 6 cfg7.N =
    G7 (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) :=
  (dat7 V c).arrAt_eq_of_cover 6 _ (fun t _ => flushed7_eq V c t) fun i => by
    have hi0 : (i 0).val < 100000 := (i 0).isLt
    have hi1 : (i 1).val < 64 := (i 1).isLt
    have hN : grid7.N = 20 := N_7
    have hlt : (i 0).val / 5000 < grid7.N := by omega
    refine ⟨⟨(i 0).val / 5000, hlt⟩, flush7_6 _, ?_⟩
    rw [mem_blk7]
    obtain ⟨eo0, eo1, -⟩ := idx_facts7 ⟨(i 0).val / 5000, hlt⟩
    intro a
    match a with
    | ⟨0, _⟩ => show win7_6.index _ (0 : Fin 2) * 5000 ≤ (i 0).val ∧ (i 0).val < win7_6.index _ (0 : Fin 2) * 5000 + 5000; rw [eo0]; show (i 0).val / 5000 * 5000 ≤ (i 0).val ∧ (i 0).val < (i 0).val / 5000 * 5000 + 5000; omega
    | ⟨1, _⟩ => show win7_6.index _ (1 : Fin 2) * 64 ≤ (i 1).val ∧ (i 1).val < win7_6.index _ (1 : Fin 2) * 64 + 64; rw [eo1]; omega

end Cert.KernelIdeal.Fr

end
-- ==== Proof.KI.Val8.lean ====
/-
  What pipeline 8 (an edge kernel) leaves in its output array, over the extended reals, as one function of
  its input arrays entry by entry: grid point t writes block t (rows 8000·t … 8000·t + 7999) from the same rows of the
  row-blocked inputs and from the whole weight and bias blocks, and the 100 blocks tile the array.
-/
import proofs.«149571_j25649544692292_2_alg».proof.Proof.KI.R8
import proofs.«149571_j25649544692292_2_alg».proof.Proof.PayEdge
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz8 : (![0, 0] : Fin 2 → Nat) = fun _ => 0 := funext fun a => by fin_cases a <;> rfl

/-- The output array as one function of the input arrays, entry by entry. -/
def G8 (a0 : S800000x64.Idx → Elt Ideal .bf16) (a1 : S800000x3.Idx → Elt Ideal .f32) (a2 : S64x64.Idx → Elt Ideal .f32) (a3 : S64x3.Idx → Elt Ideal .f32) :
    S800000x64.Idx → Elt Ideal .bf16 := fun i =>
  Cert.Net.edgeCell (fun k => a0 (ix2 (i 0) k)) (fun k => a1 (ix2 (i 0) k)) (fun k => a2 (ix2 (i 1) k)) (fun k => a3 (ix2 (i 1) k))

/-- The printed index maps over the grid: the row-blocked windows move with the point, the others stay. -/
theorem idx_facts8 : ∀ t : Fin cfg8.N, win8_4.index t (0 : Fin 2) = t.val
    ∧ win8_4.index t (1 : Fin 2) = 0
    ∧ win8_0.index t (0 : Fin 2) = t.val
    ∧ win8_0.index t (1 : Fin 2) = 0
    ∧ win8_1.index t (0 : Fin 2) = t.val
    ∧ win8_1.index t (1 : Fin 2) = 0
    ∧ win8_2.index t (0 : Fin 2) = 0
    ∧ win8_2.index t (1 : Fin 2) = 0
    ∧ win8_3.index t (0 : Fin 2) = 0
    ∧ win8_3.index t (1 : Fin 2) = 0 :=
  (by decide +kernel : ∀ t : Fin grid8.N, _)

set_option maxHeartbeats 8000000 in
/-- What grid point `t` writes back is block `t` of `G8` of the arrays as the region finds them. -/
theorem flushed8_eq (c : Dev nD) (t : Fin cfg8.N) :
    (dat8 V c).flushed 4 t = ((cfg8.win 4).blk t).view.read (Elt Ideal)
      (G8 (V c (Pipeline.arrRef spec8 0)) (V c (Pipeline.arrRef spec8 1)) (V c (Pipeline.arrRef spec8 2)) (V c (Pipeline.arrRef spec8 3))) := by
  show (cfg8.win 4).cut (grid8.coords t) ((dat8 V c).after 4 t) = _
  rw [after8_4]
  unfold out8_4
  rw [View.canon_unit_zero hz8]
  simp only [View.ld_unit_zero (S := S8000x64) hz8, View.ld_unit_zero (S := S8000x3) hz8, View.ld_unit_zero (S := S64x64) hz8, View.ld_unit_zero (S := S64x3) hz8]
  obtain ⟨eo0, eo1, e00, e01, e10, e11, e20, e21, e30, e31⟩ := idx_facts8 t
  funext j
  obtain ⟨p, q, rfl⟩ : ∃ (p : Fin 8000) (q : Fin 64), j = ix2 p q := ⟨j 0, j 1, eq_ix2 j⟩
  rw [show @k8_pay1 = @k0_pay1 from rfl]
  refine (Cert.Net.Pay.edge_pay _ _ _ _ p q).trans ?_
  show Cert.Net.edgeCell _ _ _ _ = G8 _ _ _ _ (((cfg8.win 4).blk t).view.emb (ix2 p q))
  unfold G8
  have hb0 : ∀ k : Fin 64, ((cfg8.win 0).blk t).view.emb (ix2 p k) = (ix2 ((((cfg8.win 4).blk t).view.emb (ix2 p q)) 0) k : S800000x64.Idx) := fun k => by
    funext a; apply Fin.ext
    match a with
    | ⟨0, _⟩ => show win8_0.index t (0 : Fin 2) * 8000 + 1 * p.val = win8_4.index t (0 : Fin 2) * 8000 + 1 * p.val; omega
    | ⟨1, _⟩ => show win8_0.index t (1 : Fin 2) * 64 + 1 * k.val = k.val; omega
  have hb1 : ∀ k : Fin 3, ((cfg8.win 1).blk t).view.emb (ix2 p k) = (ix2 ((((cfg8.win 4).blk t).view.emb (ix2 p q)) 0) k : S800000x3.Idx) := fun k => by
    funext a; apply Fin.ext
    match a with
    | ⟨0, _⟩ => show win8_1.index t (0 : Fin 2) * 8000 + 1 * p.val = win8_4.index t (0 : Fin 2) * 8000 + 1 * p.val; omega
    | ⟨1, _⟩ => show win8_1.index t (1 : Fin 2) * 3 + 1 * k.val = k.val; omega
  have hb2 : ∀ k : Fin 64, ((cfg8.win 2).blk t).view.emb (ix2 q k) = (ix2 ((((cfg8.win 4).blk t).view.emb (ix2 p q)) 1) k : S64x64.Idx) := fun k => by
    funext a; apply Fin.ext
    match a with
    | ⟨0, _⟩ => show win8_2.index t (0 : Fin 2) * 64 + 1 * q.val = win8_4.index t (1 : Fin 2) * 64 + 1 * q.val; omega
    | ⟨1, _⟩ => show win8_2.index t (1 : Fin 2) * 64 + 1 * k.val = k.val; omega
  have hb3 : ∀ k : Fin 3, ((cfg8.win 3).blk t).view.emb (ix2 q k) = (ix2 ((((cfg8.win 4).blk t).view.emb (ix2 p q)) 1) k : S64x3.Idx) := fun k => by
    funext a; apply Fin.ext
    match a with
    | ⟨0, _⟩ => show win8_3.index t (0 : Fin 2) * 64 + 1 * q.val = win8_4.index t (1 : Fin 2) * 64 + 1 * q.val; omega
    | ⟨1, _⟩ => show win8_3.index t (1 : Fin 2) * 3 + 1 * k.val = k.val; omega
  refine congr (congr (congr (congrArg Cert.Net.edgeCell ?_) ?_) ?_) ?_
  · funext k; exact congrArg (V c (Pipeline.arrRef spec8 0)) (hb0 k)
  · funext k; exact congrArg (V c (Pipeline.arrRef spec8 1)) (hb1 k)
  · funext k; exact congrArg (V c (Pipeline.arrRef spec8 2)) (hb2 k)
  · funext k; exact congrArg (V c (Pipeline.arrRef spec8 3)) (hb3 k)

/-- An index of the output array lies in point `t`'s block iff each coordinate lies in the block's range. -/
theorem mem_blk8 (t : Fin cfg8.N) (i : S800000x64.Idx) :
    i ∈ ((cfg8.win 4).blk t).view.set ↔ ∀ a : Fin 2, win8_4.index t a * S8000x64.size a ≤ (i a).val ∧ (i a).val < win8_4.index t a * S8000x64.size a + S8000x64.size a := by
  show i ∈ ((View.whole main_v134).slice (win8_4.rect t)).set ↔ _
  rw [View.set_slice_whole, Rect.mem_set_unit]
  exact Iff.rfl

/-- The output array after the region: `G8` of the input arrays, everywhere (the blocks tile it). -/
theorem final8 (c : Dev nD) : (dat8 V c).arrAt 4 cfg8.N =
    G8 (V c (Pipeline.arrRef spec8 0)) (V c (Pipeline.arrRef spec8 1)) (V c (Pipeline.arrRef spec8 2)) (V c (Pipeline.arrRef spec8 3)) :=
  (dat8 V c).arrAt_eq_of_cover 4 _ (fun t _ => flushed8_eq V c t) fun i => by
    have hi0 : (i 0).val < 800000 := (i 0).isLt
    have hi1 : (i 1).val < 64 := (i 1).isLt
    have hN : grid8.N = 100 := N_8
    have hlt : (i 0).val / 8000 < grid8.N := by omega
    refine ⟨⟨(i 0).val / 8000, hlt⟩, flush8_4 _, ?_⟩
    rw [mem_blk8]
    obtain ⟨eo0, eo1, -⟩ := idx_facts8 ⟨(i 0).val / 8000, hlt⟩
    intro a
    match a with
    | ⟨0, _⟩ => show win8_4.index _ (0 : Fin 2) * 8000 ≤ (i 0).val ∧ (i 0).val < win8_4.index _ (0 : Fin 2) * 8000 + 8000; rw [eo0]; show (i 0).val / 8000 * 8000 ≤ (i 0).val ∧ (i 0).val < (i 0).val / 8000 * 8000 + 8000; omega
    | ⟨1, _⟩ => show win8_4.index _ (1 : Fin 2) * 64 ≤ (i 1).val ∧ (i 1).val < win8_4.index _ (1 : Fin 2) * 64 + 64; rw [eo1]; omega

end Cert.KernelIdeal.Fr

end
-- ==== Proof.KI.Val9.lean ====
/-
  What pipeline 9 (a node kernel) leaves in its output array, over the extended reals, as one function of
  its input arrays entry by entry: grid point t writes block t (rows 5000·t … 5000·t + 4999) from the same rows of the
  row-blocked inputs and from the whole weight and bias blocks, and the 20 blocks tile the array.
-/
import proofs.«149571_j25649544692292_2_alg».proof.Proof.KI.R9
import proofs.«149571_j25649544692292_2_alg».proof.Proof.PayNode
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz9 : (![0, 0] : Fin 2 → Nat) = fun _ => 0 := funext fun a => by fin_cases a <;> rfl

/-- The output array as one function of the input arrays, entry by entry. -/
def G9 (a0 : S100000x64.Idx → Elt Ideal .bf16) (a1 : S100000x64.Idx → Elt Ideal .f32) (a2 : S100000x1.Idx → Elt Ideal .f32) (a3 : S64x64.Idx → Elt Ideal .f32) (a4 : S64x64.Idx → Elt Ideal .f32) (a5 : S1x64.Idx → Elt Ideal .f32) :
    S100000x64.Idx → Elt Ideal .bf16 := fun i =>
  Cert.Net.nodeCell (fun k => a0 (ix2 (i 0) k)) (fun k => a1 (ix2 (i 0) k)) (a2 (ix2 (i 0) 0)) (fun k => a3 (ix2 (i 1) k)) (fun k => a4 (ix2 (i 1) k)) (a5 (ix2 0 (i 1)))

/-- The printed index maps over the grid: the row-blocked windows move with the point, the others stay. -/
theorem idx_facts9 : ∀ t : Fin cfg9.N, win9_6.index t (0 : Fin 2) = t.val
    ∧ win9_6.index t (1 : Fin 2) = 0
    ∧ win9_0.index t (0 : Fin 2) = t.val
    ∧ win9_0.index t (1 : Fin 2) = 0
    ∧ win9_1.index t (0 : Fin 2) = t.val
    ∧ win9_1.index t (1 : Fin 2) = 0
    ∧ win9_2.index t (0 : Fin 2) = t.val
    ∧ win9_2.index t (1 : Fin 2) = 0
    ∧ win9_3.index t (0 : Fin 2) = 0
    ∧ win9_3.index t (1 : Fin 2) = 0
    ∧ win9_4.index t (0 : Fin 2) = 0
    ∧ win9_4.index t (1 : Fin 2) = 0
    ∧ win9_5.index t (0 : Fin 2) = 0
    ∧ win9_5.index t (1 : Fin 2) = 0 :=
  (by decide +kernel : ∀ t : Fin grid9.N, _)

set_option maxHeartbeats 8000000 in
/-- What grid point `t` writes back is block `t` of `G9` of the arrays as the region finds them. -/
theorem flushed9_eq (c : Dev nD) (t : Fin cfg9.N) :
    (dat9 V c).flushed 6 t = ((cfg9.win 6).blk t).view.read (Elt Ideal)
      (G9 (V c (Pipeline.arrRef spec9 0)) (V c (Pipeline.arrRef spec9 1)) (V c (Pipeline.arrRef spec9 2)) (V c (Pipeline.arrRef spec9 3)) (V c (Pipeline.arrRef spec9 4)) (V c (Pipeline.arrRef spec9 5))) := by
  show (cfg9.win 6).cut (grid9.coords t) ((dat9 V c).after 6 t) = _
  rw [after9_6]
  unfold out9_6
  rw [View.canon_unit_zero hz9]
  simp only [View.ld_unit_zero (S := S5000x64) hz9, View.ld_unit_zero (S := S5000x1) hz9, View.ld_unit_zero (S := S64x64) hz9, View.ld_unit_zero (S := S1x64) hz9]
  obtain ⟨eo0, eo1, e00, e01, e10, e11, e20, e21, e30, e31, e40, e41, e50, e51⟩ := idx_facts9 t
  funext j
  obtain ⟨p, q, rfl⟩ : ∃ (p : Fin 5000) (q : Fin 64), j = ix2 p q := ⟨j 0, j 1, eq_ix2 j⟩
  rw [show @k9_pay1 = @k1_pay1 from rfl]
  refine (Cert.Net.Pay.node_pay _ _ _ _ _ _ p q).trans ?_
  show Cert.Net.nodeCell _ _ _ _ _ _ = G9 _ _ _ _ _ _ (((cfg9.win 6).blk t).view.emb (ix2 p q))
  unfold G9
  have hb0 : ∀ k : Fin 64, ((cfg9.win 0).blk t).view.emb (ix2 p k) = (ix2 ((((cfg9.win 6).blk t).view.emb (ix2 p q)) 0) k : S100000x64.Idx) := fun k => by
    funext a; apply Fin.ext
    match a with
    | ⟨0, _⟩ => show win9_0.index t (0 : Fin 2) * 5000 + 1 * p.val = win9_6.index t (0 : Fin 2) * 5000 + 1 * p.val; omega
    | ⟨1, _⟩ => show win9_0.index t (1 : Fin 2) * 64 + 1 * k.val = k.val; omega
  have hb1 : ∀ k : Fin 64, ((cfg9.win 1).blk t).view.emb (ix2 p k) = (ix2 ((((cfg9.win 6).blk t).view.emb (ix2 p q)) 0) k : S100000x64.Idx) := fun k => by
    funext a; apply Fin.ext
    match a with
    | ⟨0, _⟩ => show win9_1.index t (0 : Fin 2) * 5000 + 1 * p.val = win9_6.index t (0 : Fin 2) * 5000 + 1 * p.val; omega
    | ⟨1, _⟩ => show win9_1.index t (1 : Fin 2) * 64 + 1 * k.val = k.val; omega
  have hb2 : ((cfg9.win 2).blk t).view.emb (ix2 p (0 : Fin 1)) = (ix2 ((((cfg9.win 6).blk t).view.emb (ix2 p q)) 0) (0 : Fin 1) : S100000x1.Idx) := by
    funext a; apply Fin.ext
    match a with
    | ⟨0, _⟩ => show win9_2.index t (0 : Fin 2) * 5000 + 1 * p.val = win9_6.index t (0 : Fin 2) * 5000 + 1 * p.val; omega
    | ⟨1, _⟩ => show win9_2.index t (1 : Fin 2) * 1 + 1 * 0 = 0; omega
  have hb3 : ∀ k : Fin 64, ((cfg9.win 3).blk t).view.emb (ix2 q k) = (ix2 ((((cfg9.win 6).blk t).view.emb (ix2 p q)) 1) k : S64x64.Idx) := fun k => by
    funext a; apply Fin.ext
    match a with
    | ⟨0, _⟩ => show win9_3.index t (0 : Fin 2) * 64 + 1 * q.val = win9_6.index t (1 : Fin 2) * 64 + 1 * q.val; omega
    | ⟨1, _⟩ => show win9_3.index t (1 : Fin 2) * 64 + 1 * k.val = k.val; omega
  have hb4 : ∀ k : Fin 64, ((cfg9.win 4).blk t).view.emb (ix2 q k) = (ix2 ((((cfg9.win 6).blk t).view.emb (ix2 p q)) 1) k : S64x64.Idx) := fun k => by
    funext a; apply Fin.ext
    match a with
    | ⟨0, _⟩ => show win9_4.index t (0 : Fin 2) * 64 + 1 * q.val = win9_6.index t (1 : Fin 2) * 64 + 1 * q.val; omega
    | ⟨1, _⟩ => show win9_4.index t (1 : Fin 2) * 64 + 1 * k.val = k.val; omega
  have hb5 : ((cfg9.win 5).blk t).view.emb (ix2 (0 : Fin 1) q) = (ix2 (0 : Fin 1) ((((cfg9.win 6).blk t).view.emb (ix2 p q)) 1) : S1x64.Idx) := by
    funext a; apply Fin.ext
    match a with
    | ⟨0, _⟩ => show win9_5.index t (0 : Fin 2) * 1 + 1 * 0 = 0; omega
    | ⟨1, _⟩ => show win9_5.index t (1 : Fin 2) * 64 + 1 * q.val = win9_6.index t (1 : Fin 2) * 64 + 1 * q.val; omega
  refine congr (congr (congr (congr (congr (congrArg Cert.Net.nodeCell ?_) ?_) ?_) ?_) ?_) ?_
  · funext k; exact congrArg (V c (Pipeline.arrRef spec9 0)) (hb0 k)
  · funext k; exact congrArg (V c (Pipeline.arrRef spec9 1)) (hb1 k)
  · exact congrArg (V c (Pipeline.arrRef spec9 2)) (hb2)
  · funext k; exact congrArg (V c (Pipeline.arrRef spec9 3)) (hb3 k)
  · funext k; exact congrArg (V c (Pipeline.arrRef spec9 4)) (hb4 k)
  · exact congrArg (V c (Pipeline.arrRef spec9 5)) (hb5)

/-- An index of the output array lies in point `t`'s block iff each coordinate lies in the block's range. -/
theorem mem_blk9 (t : Fin cfg9.N) (i : S100000x64.Idx) :
    i ∈ ((cfg9.win 6).blk t).view.set ↔ ∀ a : Fin 2, win9_6.index t a * S5000x64.size a ≤ (i a).val ∧ (i a).val < win9_6.index t a * S5000x64.size a + S5000x64.size a := by
  show i ∈ ((View.whole main_v146).slice (win9_6.rect t)).set ↔ _
  rw [View.set_slice_whole, Rect.mem_set_unit]
  exact Iff.rfl

/-- The output array after the region: `G9` of the input arrays, everywhere (the blocks tile it). -/
theorem final9 (c : Dev nD) : (dat9 V c).arrAt 6 cfg9.N =
    G9 (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) :=
  (dat9 V c).arrAt_eq_of_cover 6 _ (fun t _ => flushed9_eq V c t) fun i => by
    have hi0 : (i 0).val < 100000 := (i 0).isLt
    have hi1 : (i 1).val < 64 := (i 1).isLt
    have hN : grid9.N = 20 := N_9
    have hlt : (i 0).val / 5000 < grid9.N := by omega
    refine ⟨⟨(i 0).val / 5000, hlt⟩, flush9_6 _, ?_⟩
    rw [mem_blk9]
    obtain ⟨eo0, eo1, -⟩ := idx_facts9 ⟨(i 0).val / 5000, hlt⟩
    intro a
    match a with
    | ⟨0, _⟩ => show win9_6.index _ (0 : Fin 2) * 5000 ≤ (i 0).val ∧ (i 0).val < win9_6.index _ (0 : Fin 2) * 5000 + 5000; rw [eo0]; show (i 0).val / 5000 * 5000 ≤ (i 0).val ∧ (i 0).val < (i 0).val / 5000 * 5000 + 5000; omega
    | ⟨1, _⟩ => show win9_6.index _ (1 : Fin 2) * 64 ≤ (i 1).val ∧ (i 1).val < win9_6.index _ (1 : Fin 2) * 64 + 64; rw [eo1]; omega

end Cert.KernelIdeal.Fr

end
-- ==== Proof.PayFinal.lean ====
/-
  The head kernel's stored value, read at one entry: a 64-term inner product of rectified hidden units (each a
  64-term inner product of the node's row with a weight row, plus a bias) with the class's weight row, plus the
  class's bias.
-/
import proofs.«149571_j25649544692292_2_alg».proof.Proof.Gen.KernelIdeal.Skeleton
import proofs.«149571_j25649544692292_2_alg».proof.Proof.Spec
import Idealize.ShloMosaic.Lib.ValueIdx
import Idealize.ShloMosaic.Lib.Pipeline.Value
import Idealize.ShloMosaic.PureOps.Ideal.Laws

noncomputable section

namespace Cert.Net.Pay

open Idealize.ShloMosaic Idealize.SL.Sem Idealize.ShloMosaic.ValueIdx Cert.KernelIdeal Cert.KernelIdeal.Gen

/-- The transpose of a matrix read at `(k, q)` is the matrix at `(q, k)`. -/
private theorem tr_64x64 {α : Type} (x : S64x64.Idx → α) (k : Fin 64) (q : Fin 64) :
    transpose S64x64 [1, 0] x transposes_S64x64_p1_0_S64x64 (ix2 k q) = x (ix2 q k) := by
  refine transpose_apply _ x _ _ (ix2 q k) ?_
  intro b
  match b with
  | ⟨0, _⟩ => rfl
  | ⟨1, _⟩ => rfl

/-- The transpose of a matrix read at `(k, q)` is the matrix at `(q, k)`. -/
private theorem tr_32x64 {α : Type} (x : S32x64.Idx → α) (k : Fin 64) (q : Fin 32) :
    transpose S64x32 [1, 0] x transposes_S32x64_p1_0_S64x32 (ix2 k q) = x (ix2 q k) := by
  refine transpose_apply _ x _ _ (ix2 q k) ?_
  intro b
  match b with
  | ⟨0, _⟩ => rfl
  | ⟨1, _⟩ => rfl

private theorem mm_5000x64_64x64_l0 (i : S5000x64.Idx) (c : dot_S5000x64_S64x64_S5000x64_1_0_0_1_n_n.contr.Idx) : (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
private theorem mm_5000x64_64x64_r1 (i : S5000x64.Idx) (c : dot_S5000x64_S64x64_S5000x64_1_0_0_1_n_n.contr.Idx) : (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A matrix product into the zero accumulator, read at row `p`, column `q`: the sum over the contracted axis. -/
private theorem mm_5000x64_64x64 {φ₁ φ₂ : FTy} (a : FVec Ideal S5000x64 φ₁) (w : FVec Ideal S64x64 φ₂) (p : Fin 5000) (q : Fin 64) :
    matmul dot_S5000x64_S64x64_S5000x64_1_0_0_1_n_n none a w (constant S5000x64 .f32 0x00000000#32) (ix2 p q)
      = ∑ k : Fin 64, a (ix2 p k) * w (ix2 k q) := by
  refine (Ideal.matmul_constant_zero_apply _ _ a w _).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact mm_5000x64_64x64_l0 _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dot_S5000x64_S64x64_S5000x64_1_0_0_1_n_n.rhsIdx_val_of_single rfl _ _).trans hk
    | ⟨1, _⟩ => exact mm_5000x64_64x64_r1 _ _)
  rw [el, er]

/-- The same product against a transposed right operand: row `p` of the left against row `q` of the untransposed right. -/
private theorem mmT_5000x64_64x64 {φ₁ φ₂ : FTy} (a : FVec Ideal S5000x64 φ₁) (w : FVec Ideal S64x64 φ₂) (p : Fin 5000) (q : Fin 64) :
    matmul dot_S5000x64_S64x64_S5000x64_1_0_0_1_n_n none a (transpose S64x64 [1, 0] w transposes_S64x64_p1_0_S64x64) (constant S5000x64 .f32 0x00000000#32) (ix2 p q)
      = ∑ k : Fin 64, a (ix2 p k) * w (ix2 q k) :=
  (mm_5000x64_64x64 a _ p q).trans (Finset.sum_congr rfl fun k _ => congrArg (a (ix2 p k) * ·) (tr_64x64 w k q))

private theorem mm_5000x64_64x32_l0 (i : S5000x32.Idx) (c : dot_S5000x64_S64x32_S5000x32_1_0_0_1_n_n.contr.Idx) : (dot_S5000x64_S64x32_S5000x32_1_0_0_1_n_n.lhsIdx i c 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
private theorem mm_5000x64_64x32_r1 (i : S5000x32.Idx) (c : dot_S5000x64_S64x32_S5000x32_1_0_0_1_n_n.contr.Idx) : (dot_S5000x64_S64x32_S5000x32_1_0_0_1_n_n.rhsIdx i c 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- A matrix product into the zero accumulator, read at row `p`, column `q`: the sum over the contracted axis. -/
private theorem mm_5000x64_64x32 {φ₁ φ₂ : FTy} (a : FVec Ideal S5000x64 φ₁) (w : FVec Ideal S64x32 φ₂) (p : Fin 5000) (q : Fin 32) :
    matmul dot_S5000x64_S64x32_S5000x32_1_0_0_1_n_n none a w (constant S5000x32 .f32 0x00000000#32) (ix2 p q)
      = ∑ k : Fin 64, a (ix2 p k) * w (ix2 k q) := by
  refine (Ideal.matmul_constant_zero_apply _ _ a w _).trans ?_
  rw [← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 p q) ((contrEquiv1 dot_S5000x64_S64x32_S5000x32_1_0_0_1_n_n 64 rfl rfl).symm k) = ix2 p k := funext fun a => Fin.ext (by
    match a with
    | ⟨0, _⟩ => exact mm_5000x64_64x32_l0 _ _
    | ⟨1, _⟩ => exact (dot_S5000x64_S64x32_S5000x32_1_0_0_1_n_n.lhsIdx_val_of_single rfl _ _).trans hk)
  have er : dot_S5000x64_S64x32_S5000x32_1_0_0_1_n_n.rhsIdx (ix2 p q) ((contrEquiv1 dot_S5000x64_S64x32_S5000x32_1_0_0_1_n_n 64 rfl rfl).symm k) = ix2 k q := funext fun a => Fin.ext (by
    match a with
    | ⟨0, _⟩ => exact (dot_S5000x64_S64x32_S5000x32_1_0_0_1_n_n.rhsIdx_val_of_single rfl _ _).trans hk
    | ⟨1, _⟩ => exact mm_5000x64_64x32_r1 _ _)
  rw [el, er]

/-- The same product against a transposed right operand: row `p` of the left against row `q` of the untransposed right. -/
private theorem mmT_5000x64_32x64 {φ₁ φ₂ : FTy} (a : FVec Ideal S5000x64 φ₁) (w : FVec Ideal S32x64 φ₂) (p : Fin 5000) (q : Fin 32) :
    matmul dot_S5000x64_S64x32_S5000x32_1_0_0_1_n_n none a (transpose S64x32 [1, 0] w transposes_S32x64_p1_0_S64x32) (constant S5000x32 .f32 0x00000000#32) (ix2 p q)
      = ∑ k : Fin 64, a (ix2 p k) * w (ix2 q k) :=
  (mm_5000x64_64x32 a _ p q).trans (Finset.sum_congr rfl fun k _ => congrArg (a (ix2 p k) * ·) (tr_32x64 w k q))

/-- A row broadcast down the rows: every row reads the row's entry of its column. -/
private theorem bc_row64 {α : Type} (x : S1x64.Idx → α) (p : Fin 5000) (q : Fin 64) :
    broadcastTo S5000x64 x broadcasts_S1x64_S5000x64 (ix2 p q) = x (ix2 0 q) := by
  refine broadcastTo_apply x _ _ (ix2 0 q) ?_
  intro a
  match a with
  | ⟨0, _⟩ => rfl
  | ⟨1, _⟩ => rfl

/-- A row broadcast down the rows: every row reads the row's entry of its column. -/
private theorem bc_row32 {α : Type} (x : S1x32.Idx → α) (p : Fin 5000) (q : Fin 32) :
    broadcastTo S5000x32 x broadcasts_S1x32_S5000x32 (ix2 p q) = x (ix2 0 q) := by
  refine broadcastTo_apply x _ _ (ix2 0 q) ?_
  intro a
  match a with
  | ⟨0, _⟩ => rfl
  | ⟨1, _⟩ => rfl

/-- One entry of the head kernel's stored value is the specification's class score of the rows it reads. -/
theorem final_pay (v0 : Vec Ideal S5000x64 .bf16) (v2 : Vec Ideal S64x64 .f32) (v4 : Vec Ideal S1x64 .f32) (v6 : Vec Ideal S32x64 .f32) (v8 : Vec Ideal S1x32 .f32) (p : Fin 5000) (q : Fin 32) :
    k10_pay1 (F := Ideal) v0 v2 v4 v6 v8 (ix2 p q) = Cert.Net.finalCell (fun k => v0 (ix2 p k)) (fun j k => v2 (ix2 j k)) (fun j => v4 (ix2 0 j)) (fun j => v6 (ix2 q j)) (v8 (ix2 0 q)) := by
  unfold k10_pay1
  simp only [shapeCast_self]
  rw [addf_apply, bc_row32, mmT_5000x64_32x64]
  unfold Cert.Net.finalCell
  refine congrArg (· + v8 (ix2 0 q)) (Finset.sum_congr rfl fun j _ => congrArg (· * v6 (ix2 q j)) ?_)
  rw [truncf_apply, maximumf_apply, addf_apply, broadcast_apply, bc_row64, mmT_5000x64_64x64]
  rfl

end Cert.Net.Pay
end
-- ==== Proof.KI.Val10.lean ====
/-
  What pipeline 10 (the head kernel) leaves in its output array, over the extended reals, as one function of
  its input arrays entry by entry: grid point t writes block t (rows 5000·t … 5000·t + 4999) from the same rows of the
  row-blocked inputs and from the whole weight and bias blocks, and the 20 blocks tile the array.
-/
import proofs.«149571_j25649544692292_2_alg».proof.Proof.KI.R10
import proofs.«149571_j25649544692292_2_alg».proof.Proof.PayFinal
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz10 : (![0, 0] : Fin 2 → Nat) = fun _ => 0 := funext fun a => by fin_cases a <;> rfl

/-- The output array as one function of the input arrays, entry by entry. -/
def G10 (a0 : S100000x64.Idx → Elt Ideal .bf16) (a1 : S64x64.Idx → Elt Ideal .f32) (a2 : S1x64.Idx → Elt Ideal .f32) (a3 : S32x64.Idx → Elt Ideal .f32) (a4 : S1x32.Idx → Elt Ideal .f32) :
    S100000x32.Idx → Elt Ideal .f32 := fun i =>
  Cert.Net.finalCell (fun k => a0 (ix2 (i 0) k)) (fun j k => a1 (ix2 j k)) (fun j => a2 (ix2 0 j)) (fun j => a3 (ix2 (i 1) j)) (a4 (ix2 0 (i 1)))

/-- The printed index maps over the grid: the row-blocked windows move with the point, the others stay. -/
theorem idx_facts10 : ∀ t : Fin cfg10.N, win10_5.index t (0 : Fin 2) = t.val
    ∧ win10_5.index t (1 : Fin 2) = 0
    ∧ win10_0.index t (0 : Fin 2) = t.val
    ∧ win10_0.index t (1 : Fin 2) = 0
    ∧ win10_1.index t (0 : Fin 2) = 0
    ∧ win10_1.index t (1 : Fin 2) = 0
    ∧ win10_2.index t (0 : Fin 2) = 0
    ∧ win10_2.index t (1 : Fin 2) = 0
    ∧ win10_3.index t (0 : Fin 2) = 0
    ∧ win10_3.index t (1 : Fin 2) = 0
    ∧ win10_4.index t (0 : Fin 2) = 0
    ∧ win10_4.index t (1 : Fin 2) = 0 :=
  (by decide +kernel : ∀ t : Fin grid10.N, _)

set_option maxHeartbeats 8000000 in
/-- What grid point `t` writes back is block `t` of `G10` of the arrays as the region finds them. -/
theorem flushed10_eq (c : Dev nD) (t : Fin cfg10.N) :
    (dat10 V c).flushed 5 t = ((cfg10.win 5).blk t).view.read (Elt Ideal)
      (G10 (V c (Pipeline.arrRef spec10 0)) (V c (Pipeline.arrRef spec10 1)) (V c (Pipeline.arrRef spec10 2)) (V c (Pipeline.arrRef spec10 3)) (V c (Pipeline.arrRef spec10 4))) := by
  show (cfg10.win 5).cut (grid10.coords t) ((dat10 V c).after 5 t) = _
  rw [after10_5]
  unfold out10_5
  rw [View.canon_unit_zero hz10]
  simp only [View.ld_unit_zero (S := S5000x64) hz10, View.ld_unit_zero (S := S64x64) hz10, View.ld_unit_zero (S := S1x64) hz10, View.ld_unit_zero (S := S32x64) hz10, View.ld_unit_zero (S := S1x32) hz10]
  obtain ⟨eo0, eo1, e00, e01, e10, e11, e20, e21, e30, e31, e40, e41⟩ := idx_facts10 t
  funext j
  obtain ⟨p, q, rfl⟩ : ∃ (p : Fin 5000) (q : Fin 32), j = ix2 p q := ⟨j 0, j 1, eq_ix2 j⟩
  refine (Cert.Net.Pay.final_pay _ _ _ _ _ p q).trans ?_
  show Cert.Net.finalCell _ _ _ _ _ = G10 _ _ _ _ _ (((cfg10.win 5).blk t).view.emb (ix2 p q))
  unfold G10
  have hb0 : ∀ k : Fin 64, ((cfg10.win 0).blk t).view.emb (ix2 p k) = (ix2 ((((cfg10.win 5).blk t).view.emb (ix2 p q)) 0) k : S100000x64.Idx) := fun k => by
    funext a; apply Fin.ext
    match a with
    | ⟨0, _⟩ => show win10_0.index t (0 : Fin 2) * 5000 + 1 * p.val = win10_5.index t (0 : Fin 2) * 5000 + 1 * p.val; omega
    | ⟨1, _⟩ => show win10_0.index t (1 : Fin 2) * 64 + 1 * k.val = k.val; omega
  have hb1 : ∀ (j : Fin 64) (k : Fin 64), ((cfg10.win 1).blk t).view.emb (ix2 j k) = (ix2 j k : S64x64.Idx) := fun j k => by
    funext a; apply Fin.ext
    match a with
    | ⟨0, _⟩ => show win10_1.index t (0 : Fin 2) * 64 + 1 * j.val = j.val; omega
    | ⟨1, _⟩ => show win10_1.index t (1 : Fin 2) * 64 + 1 * k.val = k.val; omega
  have hb2 : ∀ j : Fin 64, ((cfg10.win 2).blk t).view.emb (ix2 (0 : Fin 1) j) = (ix2 (0 : Fin 1) j : S1x64.Idx) := fun j => by
    funext a; apply Fin.ext
    match a with
    | ⟨0, _⟩ => show win10_2.index t (0 : Fin 2) * 1 + 1 * 0 = 0; omega
    | ⟨1, _⟩ => show win10_2.index t (1 : Fin 2) * 64 + 1 * j.val = j.val; omega
  have hb3 : ∀ j : Fin 64, ((cfg10.win 3).blk t).view.emb (ix2 q j) = (ix2 ((((cfg10.win 5).blk t).view.emb (ix2 p q)) 1) j : S32x64.Idx) := fun j => by
    funext a; apply Fin.ext
    match a with
    | ⟨0, _⟩ => show win10_3.index t (0 : Fin 2) * 32 + 1 * q.val = win10_5.index t (1 : Fin 2) * 32 + 1 * q.val; omega
    | ⟨1, _⟩ => show win10_3.index t (1 : Fin 2) * 64 + 1 * j.val = j.val; omega
  have hb4 : ((cfg10.win 4).blk t).view.emb (ix2 (0 : Fin 1) q) = (ix2 (0 : Fin 1) ((((cfg10.win 5).blk t).view.emb (ix2 p q)) 1) : S1x32.Idx) := by
    funext a; apply Fin.ext
    match a with
    | ⟨0, _⟩ => show win10_4.index t (0 : Fin 2) * 1 + 1 * 0 = 0; omega
    | ⟨1, _⟩ => show win10_4.index t (1 : Fin 2) * 32 + 1 * q.val = win10_5.index t (1 : Fin 2) * 32 + 1 * q.val; omega
  refine congr (congr (congr (congr (congrArg Cert.Net.finalCell ?_) ?_) ?_) ?_) ?_
  · funext k; exact congrArg (V c (Pipeline.arrRef spec10 0)) (hb0 k)
  · funext j k; exact congrArg (V c (Pipeline.arrRef spec10 1)) (hb1 j k)
  · funext j; exact congrArg (V c (Pipeline.arrRef spec10 2)) (hb2 j)
  · funext j; exact congrArg (V c (Pipeline.arrRef spec10 3)) (hb3 j)
  · exact congrArg (V c (Pipeline.arrRef spec10 4)) (hb4)

/-- An index of the output array lies in point `t`'s block iff each coordinate lies in the block's range. -/
theorem mem_blk10 (t : Fin cfg10.N) (i : S100000x32.Idx) :
    i ∈ ((cfg10.win 5).blk t).view.set ↔ ∀ a : Fin 2, win10_5.index t a * S5000x32.size a ≤ (i a).val ∧ (i a).val < win10_5.index t a * S5000x32.size a + S5000x32.size a := by
  show i ∈ ((View.whole main_v147).slice (win10_5.rect t)).set ↔ _
  rw [View.set_slice_whole, Rect.mem_set_unit]
  exact Iff.rfl

/-- The output array after the region: `G10` of the input arrays, everywhere (the blocks tile it). -/
theorem final10 (c : Dev nD) : (dat10 V c).arrAt 5 cfg10.N =
    G10 (V c (Pipeline.arrRef spec10 0)) (V c (Pipeline.arrRef spec10 1)) (V c (Pipeline.arrRef spec10 2)) (V c (Pipeline.arrRef spec10 3)) (V c (Pipeline.arrRef spec10 4)) :=
  (dat10 V c).arrAt_eq_of_cover 5 _ (fun t _ => flushed10_eq V c t) fun i => by
    have hi0 : (i 0).val < 100000 := (i 0).isLt
    have hi1 : (i 1).val < 32 := (i 1).isLt
    have hN : grid10.N = 20 := N_10
    have hlt : (i 0).val / 5000 < grid10.N := by omega
    refine ⟨⟨(i 0).val / 5000, hlt⟩, flush10_5 _, ?_⟩
    rw [mem_blk10]
    obtain ⟨eo0, eo1, -⟩ := idx_facts10 ⟨(i 0).val / 5000, hlt⟩
    intro a
    match a with
    | ⟨0, _⟩ => show win10_5.index _ (0 : Fin 2) * 5000 ≤ (i 0).val ∧ (i 0).val < win10_5.index _ (0 : Fin 2) * 5000 + 5000; rw [eo0]; show (i 0).val / 5000 * 5000 ≤ (i 0).val ∧ (i 0).val < (i 0).val / 5000 * 5000 + 5000; omega
    | ⟨1, _⟩ => show win10_5.index _ (1 : Fin 2) * 32 ≤ (i 1).val ∧ (i 1).val < win10_5.index _ (1 : Fin 2) * 32 + 32; rw [eo1]; omega

end Cert.KernelIdeal.Fr

end
-- ==== Proof.RefGen.lean ====
/-
  The reference program's stages read into the cell functions of the specification: the general steps.
  A concatenation along the second axis read at an index of either piece; a 67-term sum as a 64-term sum plus a
  3-term sum and a 128-term sum as two 64-term sums; and, for an edge stage and a node stage whose operands are
  VARIABLES known only at an index, the stage's element as the specification's cell function.
-/
import proofs.«149571_j25649544692292_2_alg».proof.Proof.Gen.ReferenceIdeal
import Idealize.ShloMosaic.Lib.Pipeline.Value
import Idealize.ShloMosaic.Lib.ValueIdx
import Idealize.ShloMosaic.PureOps.Ideal.Laws
import proofs.«149571_j25649544692292_2_alg».proof.Proof.Spec

noncomputable section

namespace Cert.Net.Ref

open Cert.ReferenceIdeal Cert.ReferenceIdeal.Gen Idealize.ShloMosaic Idealize.ShloMosaic.ValueIdx
open scoped BigOperators

/-- A float array of the ideal instance over a literal shape. -/
abbrev V (s : Shape) : Type := (⟨s, .f32⟩ : BufTy).Contents (Elt Ideal)
/-- An array of the ideal instance over a literal shape and element type. -/
abbrev V' (s : Shape) (e : EltTy) : Type := (⟨s, e⟩ : BufTy).Contents (Elt Ideal)

/-! ## A concatenation along axis 1 at an index -/

/-- [800000, 64] ++ [800000, 3] at a column below 64: the first piece. -/
theorem cat67_left (a : V S800000x64) (b : V S800000x3) (i : S800000x67.Idx) (e : Fin 800000) (k : Fin 64)
    (h0 : (i 0).val = e.val) (h1 : (i 1).val = k.val) :
    concatenate S800000x67 1 [⟨S800000x64, a⟩, ⟨S800000x3, b⟩] concatenates_S800000x64_S800000x3_S800000x67_d1 i = a (ix2 e k) :=
  concatenate_pair_apply_left 1 a b concatenates_S800000x64_S800000x3_S800000x67_d1 i rfl (ix2 e k)
    (fun c => match c with
      | ⟨0, _⟩ => h0.symm
      | ⟨1, _⟩ => h1.symm)

/-- [800000, 64] ++ [800000, 3] at column 64 + k: the second piece at column k. -/
theorem cat67_right (a : V S800000x64) (b : V S800000x3) (i : S800000x67.Idx) (e : Fin 800000) (k : Fin 3)
    (h0 : (i 0).val = e.val) (h1 : (i 1).val = 64 + k.val) :
    concatenate S800000x67 1 [⟨S800000x64, a⟩, ⟨S800000x3, b⟩] concatenates_S800000x64_S800000x3_S800000x67_d1 i = b (ix2 e k) :=
  concatenate_pair_apply_right 1 a b concatenates_S800000x64_S800000x3_S800000x67_d1 i rfl rfl (ix2 e k)
    (fun c => match c with
      | ⟨0, _⟩ => fun _ => h0.symm
      | ⟨1, _⟩ => fun hne => absurd rfl hne)
    (by show k.val + 64 = (i 1).val; omega)

/-- [100000, 64] ++ [100000, 64] at a column below 64: the first piece. -/
theorem cat128_left (a b : V S100000x64) (i : S100000x128.Idx) (n : Fin 100000) (k : Fin 64)
    (h0 : (i 0).val = n.val) (h1 : (i 1).val = k.val) :
    concatenate S100000x128 1 [⟨S100000x64, a⟩, ⟨S100000x64, b⟩] concatenates_S100000x64_S100000x64_S100000x128_d1 i = a (ix2 n k) :=
  concatenate_pair_apply_left 1 a b concatenates_S100000x64_S100000x64_S100000x128_d1 i rfl (ix2 n k)
    (fun c => match c with
      | ⟨0, _⟩ => h0.symm
      | ⟨1, _⟩ => h1.symm)

/-- [100000, 64] ++ [100000, 64] at column 64 + k: the second piece at column k. -/
theorem cat128_right (a b : V S100000x64) (i : S100000x128.Idx) (n : Fin 100000) (k : Fin 64)
    (h0 : (i 0).val = n.val) (h1 : (i 1).val = 64 + k.val) :
    concatenate S100000x128 1 [⟨S100000x64, a⟩, ⟨S100000x64, b⟩] concatenates_S100000x64_S100000x64_S100000x128_d1 i = b (ix2 n k) :=
  concatenate_pair_apply_right 1 a b concatenates_S100000x64_S100000x64_S100000x128_d1 i rfl rfl (ix2 n k)
    (fun c => match c with
      | ⟨0, _⟩ => fun _ => h0.symm
      | ⟨1, _⟩ => fun hne => absurd rfl hne)
    (by show k.val + 64 = (i 1).val; omega)

/-! ## Splitting the contraction sums -/

/-- A 67-term sum is the sum of its first 64 terms plus the sum of its last 3. -/
theorem sum67 (f : Fin 67 → EReal) :
    ∑ k : Fin 67, f k = (∑ k : Fin 64, f ⟨k.val, by omega⟩) + ∑ k : Fin 3, f ⟨64 + k.val, by omega⟩ :=
  Fin.sum_univ_add (a := 64) (b := 3) f

/-- A 128-term sum is the sum of its first 64 terms plus the sum of its last 64. -/
theorem sum128 (f : Fin 128 → EReal) :
    ∑ k : Fin 128, f k = (∑ k : Fin 64, f ⟨k.val, by omega⟩) + ∑ k : Fin 64, f ⟨64 + k.val, by omega⟩ :=
  Fin.sum_univ_add (a := 64) (b := 64) f

/-! ## An edge stage over variables -/

/-- The leaky rectifier as the reference spells it, on a number. -/
theorem leaky_eq (s : EReal) :
    Scalar.select (FloatOps.cmpf (F := Ideal) (φ := .f32) .oge s (FloatOps.ofBits (F := Ideal) .f32 0x00000000#32)) s
      (FloatOps.mulf (F := Ideal) (φ := .f32) (FloatOps.ofBits (F := Ideal) .f32 0x3C23D70A#32) s) = leaky s := rfl

/-- An edge stage's contraction: a 67-term contraction of `g ++ b3` (along axis 1) against `R`, where `R` at
    (k, j) is row `j`, column `k` of layer `l`'s weights, is the two inner products of the edge cell. The operand
    indices `li`, `ri` of the contraction are known by their coordinates. -/
theorem edge_dot (g : V S800000x64) (b3 : V S800000x3) (R : V S67x64) (x7 : V S5x64x67) (l : Fin 5) (D : V S800000x64)
    (li : S800000x64.Idx → Fin 67 → S800000x67.Idx) (ri : S800000x64.Idx → Fin 67 → S67x64.Idx)
    (hl0 : ∀ i k, ((li i k) 0).val = (i 0).val) (hl1 : ∀ i k, ((li i k) 1).val = k.val)
    (hr0 : ∀ i k, ((ri i k) 0).val = k.val) (hr1 : ∀ i k, ((ri i k) 1).val = (i 1).val)
    (hR : ∀ (i : S67x64.Idx) (k : Fin 67) (j : Fin 64), (i 0).val = k.val → (i 1).val = j.val → R i = x7 (ix3 l j k))
    (hD : ∀ i : S800000x64.Idx, D i = ∑ k : Fin 67,
      concatenate S800000x67 1 [⟨S800000x64, g⟩, ⟨S800000x3, b3⟩] concatenates_S800000x64_S800000x3_S800000x67_d1 (li i k) * R (ri i k))
    (e : Fin 800000) (j : Fin 64) :
    D (ix2 e j) = (∑ k : Fin 64, g (ix2 e k) * x7 (ix3 l j ⟨k.val, by omega⟩))
      + ∑ k : Fin 3, b3 (ix2 e k) * x7 (ix3 l j ⟨64 + k.val, by omega⟩) := by
  refine (hD _).trans ((sum67 _).trans ?_)
  refine congrArg₂ (· + ·) (Finset.sum_congr rfl fun k _ => ?_) (Finset.sum_congr rfl fun k _ => ?_)
  · exact congrArg₂ (· * ·) (cat67_left g b3 _ e k (hl0 _ _) (hl1 _ _)) (hR _ _ j (hr0 _ _) (hr1 _ _))
  · exact congrArg₂ (· * ·) (cat67_right g b3 _ e k (hl0 _ _) (hl1 _ _)) (hR _ _ j (hr0 _ _) (hr1 _ _))

/-- An edge stage: the leaky rectifier of that contraction is the edge cell. -/
theorem edge_gen (g : V S800000x64) (b3 : V S800000x3) (R : V S67x64) (x7 : V S5x64x67) (l : Fin 5) (D : V S800000x64)
    (li : S800000x64.Idx → Fin 67 → S800000x67.Idx) (ri : S800000x64.Idx → Fin 67 → S67x64.Idx)
    (hl0 : ∀ i k, ((li i k) 0).val = (i 0).val) (hl1 : ∀ i k, ((li i k) 1).val = k.val)
    (hr0 : ∀ i k, ((ri i k) 0).val = k.val) (hr1 : ∀ i k, ((ri i k) 1).val = (i 1).val)
    (hR : ∀ (i : S67x64.Idx) (k : Fin 67) (j : Fin 64), (i 0).val = k.val → (i 1).val = j.val → R i = x7 (ix3 l j k))
    (hD : ∀ i : S800000x64.Idx, D i = ∑ k : Fin 67,
      concatenate S800000x67 1 [⟨S800000x64, g⟩, ⟨S800000x3, b3⟩] concatenates_S800000x64_S800000x3_S800000x67_d1 (li i k) * R (ri i k))
    (e : Fin 800000) (j : Fin 64) :
    Scalar.select (FloatOps.cmpf (F := Ideal) (φ := .f32) .oge (D (ix2 e j)) (FloatOps.ofBits (F := Ideal) .f32 0x00000000#32)) (D (ix2 e j))
      (FloatOps.mulf (F := Ideal) (φ := .f32) (FloatOps.ofBits (F := Ideal) .f32 0x3C23D70A#32) (D (ix2 e j)))
      = edgeCell (fun k => g (ix2 e k)) (fun k => b3 (ix2 e k)) (fun k => x7 (ix3 l j ⟨k.val, by omega⟩))
          (fun k => x7 (ix3 l j ⟨64 + k.val, by omega⟩)) :=
  (leaky_eq _).trans (congrArg leaky (edge_dot g b3 R x7 l D li ri hl0 hl1 hr0 hr1 hR hD e j))

/-! ## A node stage over variables -/

/-- A node stage: a 128-term contraction of `h ++ m` against `R` (row `j`, column `k` of layer `l`'s
    weights at (k, j)), where `m` is the mailbox sum `sc` times the broadcast `Iv` of the reciprocal in-degree,
    plus the broadcast bias `B`, rectified: the node cell. -/
theorem node_gen (h sc m Iv B D : V S100000x64) (inv : V S100000x1) (R : V S128x64) (x8 : V S5x64x128) (x9 : V S5x64) (l : Fin 5)
    (li : S100000x64.Idx → Fin 128 → S100000x128.Idx) (ri : S100000x64.Idx → Fin 128 → S128x64.Idx)
    (hl0 : ∀ i k, ((li i k) 0).val = (i 0).val) (hl1 : ∀ i k, ((li i k) 1).val = k.val)
    (hr0 : ∀ i k, ((ri i k) 0).val = k.val) (hr1 : ∀ i k, ((ri i k) 1).val = (i 1).val)
    (hm : ∀ i, m i = sc i * Iv i)
    (hIv : ∀ (i : S100000x64.Idx) (n : Fin 100000), (i 0).val = n.val → Iv i = inv (ix2 n 0))
    (hR : ∀ (i : S128x64.Idx) (k : Fin 128) (j : Fin 64), (i 0).val = k.val → (i 1).val = j.val → R i = x8 (ix3 l j k))
    (hB : ∀ (i : S100000x64.Idx) (j : Fin 64), (i 1).val = j.val → B i = x9 (ix2 l j))
    (hD : ∀ i : S100000x64.Idx, D i = ∑ k : Fin 128,
      concatenate S100000x128 1 [⟨S100000x64, h⟩, ⟨S100000x64, m⟩] concatenates_S100000x64_S100000x64_S100000x128_d1 (li i k) * R (ri i k))
    (n : Fin 100000) (j : Fin 64) :
    FloatOps.maximumf (F := Ideal) (φ := .f32) (FloatOps.addf (F := Ideal) (φ := .f32) (D (ix2 n j)) (B (ix2 n j))) (FloatOps.ofBits (F := Ideal) .f32 0x00000000#32)
      = nodeCell (fun k => h (ix2 n k)) (fun k => sc (ix2 n k)) (inv (ix2 n 0)) (fun k => x8 (ix3 l j ⟨k.val, by omega⟩))
          (fun k => x8 (ix3 l j ⟨64 + k.val, by omega⟩)) (x9 (ix2 l j)) := by
  have hd : D (ix2 n j) = (∑ k : Fin 64, h (ix2 n k) * x8 (ix3 l j ⟨k.val, by omega⟩))
      + ∑ k : Fin 64, (sc (ix2 n k) * inv (ix2 n 0)) * x8 (ix3 l j ⟨64 + k.val, by omega⟩) := by
    refine (hD _).trans ((sum128 _).trans ?_)
    refine congrArg₂ (· + ·) (Finset.sum_congr rfl fun k _ => ?_) (Finset.sum_congr rfl fun k _ => ?_)
    · exact congrArg₂ (· * ·) (cat128_left h m _ n k (hl0 _ _) (hl1 _ _)) (hR _ _ j (hr0 _ _) (hr1 _ _))
    · refine congrArg₂ (· * ·) ((cat128_right h m _ n k (hl0 _ _) (hl1 _ _)).trans ((hm _).trans ?_)) (hR _ _ j (hr0 _ _) (hr1 _ _))
      exact congrArg (sc (ix2 n k) * ·) (hIv _ n rfl)
  show max (D (ix2 n j) + B (ix2 n j)) zeroLit = _
  rw [hd, hB _ j rfl]
  rfl

end Cert.Net.Ref

end
-- ==== Proof.RefEdge.lean ====
/-
  The reference's five edge stages (gather, concatenate, contraction against a slice of the edge weights, leaky
  rectifier), each read at an index into the specification's edge cell.
-/
import proofs.«149571_j25649544692292_2_alg».proof.Proof.RefReadP
import proofs.«149571_j25649544692292_2_alg».proof.Proof.RefGen

noncomputable section

namespace Cert.Net.Ref

open Cert.ReferenceIdeal Cert.ReferenceIdeal.Gen Cert.ReferenceIdeal.Read Idealize.ShloMosaic Idealize.ShloMosaic.ValueIdx
open scoped BigOperators

/-- Layer 0's edge weights as the reference reads them (a slice of layer 0, reshaped, transposed): at (k, j), row `j`,
    column `k` of the layer's weight matrix. -/
theorem w7_0 (x7 : V S5x64x67) (i : S67x64.Idx) (k : Fin 67) (j : Fin 64) (h0 : (i 0).val = k.val) (h1 : (i 1).val = j.val) :
    val_main_v30 (F := Ideal) x7 i = x7 (ix3 0 j k) := by
  rw [val_main_v30_apply, val_main_v29_apply, val_main_v28_apply]
  refine congrArg x7 (funext fun a => ?_)
  have hj := j.isLt; have hk := k.isLt
  match a with
  | ⟨0, _⟩ => exact Fin.ext (by show (0 : Nat) = 0; rfl)
  | ⟨1, _⟩ => exact Fin.ext (by show ((i 1).val * 67 + (i 0).val) / 67 % 64 = j.val; omega)
  | ⟨2, _⟩ => exact Fin.ext (by show ((i 1).val * 67 + (i 0).val) % 67 = k.val; omega)

/-- Layer 0's message entry (e, j) is the edge cell of the gathered source row, the edge's features and row `j` of
    the layer's weights. -/
theorem edge_0 (x0 : V' S100000 .i32) (x1 : V' S800000 .i32) (x3 : V S800000) (x4 : V S800000) (x5 : V S800000) (x6 : V S64x64) (x7 : V S5x64x67) (e : Fin 800000) (j : Fin 64) :
    val_main_v36 (F := Ideal) x0 x1 x3 x4 x5 x6 x7 (ix2 e j)
      = Cert.Net.edgeCell (fun k => val_main_v26 (F := Ideal) x0 x1 x6 (ix2 e k)) (fun k => val_main_v3 (F := Ideal) x3 x4 x5 (ix2 e k))
          (fun k => x7 (ix3 0 j ⟨k.val, by omega⟩)) (fun k => x7 (ix3 0 j ⟨64 + k.val, by omega⟩)) := by
  rw [val_main_v36_apply, val_main_v33_apply, val_main_v35_apply, val_main_v32_apply, val_main_v34_apply, val_main_cst_6_apply, val_main_cst_7_apply]
  exact edge_gen (val_main_v26 (F := Ideal) x0 x1 x6) (val_main_v3 (F := Ideal) x3 x4 x5) (val_main_v30 (F := Ideal) x7) x7 0 (val_main_v31 (F := Ideal) x0 x1 x3 x4 x5 x6 x7) lidx_main_v31 ridx_main_v31
    (fun _ _ => rfl) (fun _ _ => rfl) (fun _ _ => rfl) (fun _ _ => rfl) (w7_0 x7) (val_main_v31_apply x0 x1 x3 x4 x5 x6 x7) e j

/-- Layer 1's edge weights as the reference reads them (a slice of layer 1, reshaped, transposed): at (k, j), row `j`,
    column `k` of the layer's weight matrix. -/
theorem w7_1 (x7 : V S5x64x67) (i : S67x64.Idx) (k : Fin 67) (j : Fin 64) (h0 : (i 0).val = k.val) (h1 : (i 1).val = j.val) :
    val_main_v63 (F := Ideal) x7 i = x7 (ix3 1 j k) := by
  rw [val_main_v63_apply, val_main_v62_apply, val_main_v61_apply]
  refine congrArg x7 (funext fun a => ?_)
  have hj := j.isLt; have hk := k.isLt
  match a with
  | ⟨0, _⟩ => exact Fin.ext (by show 1 + 0 = 1; rfl)
  | ⟨1, _⟩ => exact Fin.ext (by show ((i 1).val * 67 + (i 0).val) / 67 % 64 = j.val; omega)
  | ⟨2, _⟩ => exact Fin.ext (by show ((i 1).val * 67 + (i 0).val) % 67 = k.val; omega)

/-- Layer 1's message entry (e, j) is the edge cell of the gathered source row, the edge's features and row `j` of
    the layer's weights. -/
theorem edge_1 (x0 : V' S100000 .i32) (x1 : V' S800000 .i32) (x2 : V' S800000 .i32) (x3 : V S800000) (x4 : V S800000) (x5 : V S800000) (x6 : V S64x64) (x7 : V S5x64x67) (x8 : V S5x64x128) (x9 : V S5x64) (e : Fin 800000) (j : Fin 64) :
    val_main_v69 (F := Ideal) x0 x1 x2 x3 x4 x5 x6 x7 x8 x9 (ix2 e j)
      = Cert.Net.edgeCell (fun k => val_main_v59 (F := Ideal) x0 x1 x2 x3 x4 x5 x6 x7 x8 x9 (ix2 e k)) (fun k => val_main_v3 (F := Ideal) x3 x4 x5 (ix2 e k))
          (fun k => x7 (ix3 1 j ⟨k.val, by omega⟩)) (fun k => x7 (ix3 1 j ⟨64 + k.val, by omega⟩)) := by
  rw [val_main_v69_apply, val_main_v66_apply, val_main_v68_apply, val_main_v65_apply, val_main_v67_apply, val_main_cst_11_apply, val_main_cst_12_apply]
  exact edge_gen (val_main_v59 (F := Ideal) x0 x1 x2 x3 x4 x5 x6 x7 x8 x9) (val_main_v3 (F := Ideal) x3 x4 x5) (val_main_v63 (F := Ideal) x7) x7 1 (val_main_v64 (F := Ideal) x0 x1 x2 x3 x4 x5 x6 x7 x8 x9) lidx_main_v64 ridx_main_v64
    (fun _ _ => rfl) (fun _ _ => rfl) (fun _ _ => rfl) (fun _ _ => rfl) (w7_1 x7) (val_main_v64_apply x0 x1 x2 x3 x4 x5 x6 x7 x8 x9) e j

/-- Layer 2's edge weights as the reference reads them (a slice of layer 2, reshaped, transposed): at (k, j), row `j`,
    column `k` of the layer's weight matrix. -/
theorem w7_2 (x7 : V S5x64x67) (i : S67x64.Idx) (k : Fin 67) (j : Fin 64) (h0 : (i 0).val = k.val) (h1 : (i 1).val = j.val) :
    val_main_v96 (F := Ideal) x7 i = x7 (ix3 2 j k) := by
  rw [val_main_v96_apply, val_main_v95_apply, val_main_v94_apply]
  refine congrArg x7 (funext fun a => ?_)
  have hj := j.isLt; have hk := k.isLt
  match a with
  | ⟨0, _⟩ => exact Fin.ext (by show 2 + 0 = 2; rfl)
  | ⟨1, _⟩ => exact Fin.ext (by show ((i 1).val * 67 + (i 0).val) / 67 % 64 = j.val; omega)
  | ⟨2, _⟩ => exact Fin.ext (by show ((i 1).val * 67 + (i 0).val) % 67 = k.val; omega)

/-- Layer 2's message entry (e, j) is the edge cell of the gathered source row, the edge's features and row `j` of
    the layer's weights. -/
theorem edge_2 (x0 : V' S100000 .i32) (x1 : V' S800000 .i32) (x2 : V' S800000 .i32) (x3 : V S800000) (x4 : V S800000) (x5 : V S800000) (x6 : V S64x64) (x7 : V S5x64x67) (x8 : V S5x64x128) (x9 : V S5x64) (e : Fin 800000) (j : Fin 64) :
    val_main_v102 (F := Ideal) x0 x1 x2 x3 x4 x5 x6 x7 x8 x9 (ix2 e j)
      = Cert.Net.edgeCell (fun k => val_main_v92 (F := Ideal) x0 x1 x2 x3 x4 x5 x6 x7 x8 x9 (ix2 e k)) (fun k => val_main_v3 (F := Ideal) x3 x4 x5 (ix2 e k))
          (fun k => x7 (ix3 2 j ⟨k.val, by omega⟩)) (fun k => x7 (ix3 2 j ⟨64 + k.val, by omega⟩)) := by
  rw [val_main_v102_apply, val_main_v99_apply, val_main_v101_apply, val_main_v98_apply, val_main_v100_apply, val_main_cst_16_apply, val_main_cst_17_apply]
  exact edge_gen (val_main_v92 (F := Ideal) x0 x1 x2 x3 x4 x5 x6 x7 x8 x9) (val_main_v3 (F := Ideal) x3 x4 x5) (val_main_v96 (F := Ideal) x7) x7 2 (val_main_v97 (F := Ideal) x0 x1 x2 x3 x4 x5 x6 x7 x8 x9) lidx_main_v97 ridx_main_v97
    (fun _ _ => rfl) (fun _ _ => rfl) (fun _ _ => rfl) (fun _ _ => rfl) (w7_2 x7) (val_main_v97_apply x0 x1 x2 x3 x4 x5 x6 x7 x8 x9) e j

/-- Layer 3's edge weights as the reference reads them (a slice of layer 3, reshaped, transposed): at (k, j), row `j`,
    column `k` of the layer's weight matrix. -/
theorem w7_3 (x7 : V S5x64x67) (i : S67x64.Idx) (k : Fin 67) (j : Fin 64) (h0 : (i 0).val = k.val) (h1 : (i 1).val = j.val) :
    val_main_v129 (F := Ideal) x7 i = x7 (ix3 3 j k) := by
  rw [val_main_v129_apply, val_main_v128_apply, val_main_v127_apply]
  refine congrArg x7 (funext fun a => ?_)
  have hj := j.isLt; have hk := k.isLt
  match a with
  | ⟨0, _⟩ => exact Fin.ext (by show 3 + 0 = 3; rfl)
  | ⟨1, _⟩ => exact Fin.ext (by show ((i 1).val * 67 + (i 0).val) / 67 % 64 = j.val; omega)
  | ⟨2, _⟩ => exact Fin.ext (by show ((i 1).val * 67 + (i 0).val) % 67 = k.val; omega)

/-- Layer 3's message entry (e, j) is the edge cell of the gathered source row, the edge's features and row `j` of
    the layer's weights. -/
theorem edge_3 (x0 : V' S100000 .i32) (x1 : V' S800000 .i32) (x2 : V' S800000 .i32) (x3 : V S800000) (x4 : V S800000) (x5 : V S800000) (x6 : V S64x64) (x7 : V S5x64x67) (x8 : V S5x64x128) (x9 : V S5x64) (e : Fin 800000) (j : Fin 64) :
    val_main_v135 (F := Ideal) x0 x1 x2 x3 x4 x5 x6 x7 x8 x9 (ix2 e j)
      = Cert.Net.edgeCell (fun k => val_main_v125 (F := Ideal) x0 x1 x2 x3 x4 x5 x6 x7 x8 x9 (ix2 e k)) (fun k => val_main_v3 (F := Ideal) x3 x4 x5 (ix2 e k))
          (fun k => x7 (ix3 3 j ⟨k.val, by omega⟩)) (fun k => x7 (ix3 3 j ⟨64 + k.val, by omega⟩)) := by
  rw [val_main_v135_apply, val_main_v132_apply, val_main_v134_apply, val_main_v131_apply, val_main_v133_apply, val_main_cst_21_apply, val_main_cst_22_apply]
  exact edge_gen (val_main_v125 (F := Ideal) x0 x1 x2 x3 x4 x5 x6 x7 x8 x9) (val_main_v3 (F := Ideal) x3 x4 x5) (val_main_v129 (F := Ideal) x7) x7 3 (val_main_v130 (F := Ideal) x0 x1 x2 x3 x4 x5 x6 x7 x8 x9) lidx_main_v130 ridx_main_v130
    (fun _ _ => rfl) (fun _ _ => rfl) (fun _ _ => rfl) (fun _ _ => rfl) (w7_3 x7) (val_main_v130_apply x0 x1 x2 x3 x4 x5 x6 x7 x8 x9) e j

/-- Layer 4's edge weights as the reference reads them (a slice of layer 4, reshaped, transposed): at (k, j), row `j`,
    column `k` of the layer's weight matrix. -/
theorem w7_4 (x7 : V S5x64x67) (i : S67x64.Idx) (k : Fin 67) (j : Fin 64) (h0 : (i 0).val = k.val) (h1 : (i 1).val = j.val) :
    val_main_v162 (F := Ideal) x7 i = x7 (ix3 4 j k) := by
  rw [val_main_v162_apply, val_main_v161_apply, val_main_v160_apply]
  refine congrArg x7 (funext fun a => ?_)
  have hj := j.isLt; have hk := k.isLt
  match a with
  | ⟨0, _⟩ => exact Fin.ext (by show 4 + 0 = 4; rfl)
  | ⟨1, _⟩ => exact Fin.ext (by show ((i 1).val * 67 + (i 0).val) / 67 % 64 = j.val; omega)
  | ⟨2, _⟩ => exact Fin.ext (by show ((i 1).val * 67 + (i 0).val) % 67 = k.val; omega)

/-- Layer 4's message entry (e, j) is the edge cell of the gathered source row, the edge's features and row `j` of
    the layer's weights. -/
theorem edge_4 (x0 : V' S100000 .i32) (x1 : V' S800000 .i32) (x2 : V' S800000 .i32) (x3 : V S800000) (x4 : V S800000) (x5 : V S800000) (x6 : V S64x64) (x7 : V S5x64x67) (x8 : V S5x64x128) (x9 : V S5x64) (e : Fin 800000) (j : Fin 64) :
    val_main_v168 (F := Ideal) x0 x1 x2 x3 x4 x5 x6 x7 x8 x9 (ix2 e j)
      = Cert.Net.edgeCell (fun k => val_main_v158 (F := Ideal) x0 x1 x2 x3 x4 x5 x6 x7 x8 x9 (ix2 e k)) (fun k => val_main_v3 (F := Ideal) x3 x4 x5 (ix2 e k))
          (fun k => x7 (ix3 4 j ⟨k.val, by omega⟩)) (fun k => x7 (ix3 4 j ⟨64 + k.val, by omega⟩)) := by
  rw [val_main_v168_apply, val_main_v165_apply, val_main_v167_apply, val_main_v164_apply, val_main_v166_apply, val_main_cst_26_apply, val_main_cst_27_apply]
  exact edge_gen (val_main_v158 (F := Ideal) x0 x1 x2 x3 x4 x5 x6 x7 x8 x9) (val_main_v3 (F := Ideal) x3 x4 x5) (val_main_v162 (F := Ideal) x7) x7 4 (val_main_v163 (F := Ideal) x0 x1 x2 x3 x4 x5 x6 x7 x8 x9) lidx_main_v163 ridx_main_v163
    (fun _ _ => rfl) (fun _ _ => rfl) (fun _ _ => rfl) (fun _ _ => rfl) (w7_4 x7) (val_main_v163_apply x0 x1 x2 x3 x4 x5 x6 x7 x8 x9) e j

end Cert.Net.Ref

end
-- ==== Proof.RefNode.lean ====
/-
  The reference's five node stages (mailbox sum scaled by the reciprocal in-degree, concatenate, contraction against a
  slice of the node weights, bias, rectifier), each read at an index into the specification's node cell.
-/
import proofs.«149571_j25649544692292_2_alg».proof.Proof.RefReadP
import proofs.«149571_j25649544692292_2_alg».proof.Proof.RefGen

noncomputable section

namespace Cert.Net.Ref

open Cert.ReferenceIdeal Cert.ReferenceIdeal.Gen Cert.ReferenceIdeal.Read Idealize.ShloMosaic Idealize.ShloMosaic.ValueIdx
open scoped BigOperators

/-- Layer 0's node weights as the reference reads them (a slice of layer 0, reshaped, transposed): at (k, j), row `j`,
    column `k` of the layer's weight matrix. -/
theorem w8_0 (x8 : V S5x64x128) (i : S128x64.Idx) (k : Fin 128) (j : Fin 64) (h0 : (i 0).val = k.val) (h1 : (i 1).val = j.val) :
    val_main_v45 (F := Ideal) x8 i = x8 (ix3 0 j k) := by
  rw [val_main_v45_apply, val_main_v44_apply, val_main_v43_apply]
  refine congrArg x8 (funext fun a => ?_)
  have hj := j.isLt; have hk := k.isLt
  match a with
  | ⟨0, _⟩ => exact Fin.ext (by show (0 : Nat) = 0; rfl)
  | ⟨1, _⟩ => exact Fin.ext (by show ((i 1).val * 128 + (i 0).val) / 128 % 64 = j.val; omega)
  | ⟨2, _⟩ => exact Fin.ext (by show ((i 1).val * 128 + (i 0).val) % 128 = k.val; omega)

/-- Layer 0's bias as the reference reads it (a slice of layer 0, reshaped, broadcast along the nodes): entry `j`. -/
theorem b9_0 (x9 : V S5x64) (i : S100000x64.Idx) (j : Fin 64) (h1 : (i 1).val = j.val) :
    val_main_v50 (F := Ideal) x9 i = x9 (ix2 0 j) := by
  rw [val_main_v50_apply, val_main_v49_apply, val_main_v48_apply, val_main_v47_apply]
  refine congrArg x9 (funext fun a => ?_)
  have hj := j.isLt
  match a with
  | ⟨0, _⟩ => exact Fin.ext (by show (0 : Nat) = 0; rfl)
  | ⟨1, _⟩ => exact Fin.ext (by show ((i 1).val) % 64 = j.val; omega)

/-- The reciprocal in-degree broadcast along a node's row, in layer 0: the node's own. -/
theorem iv_0 (x2 : V' S800000 .i32) (i : S100000x64.Idx) (n : Fin 100000) (h0 : (i 0).val = n.val) :
    val_main_v40 (F := Ideal) x2 i = val_main_v12 (F := Ideal) x2 (ix2 n 0) := by
  rw [val_main_v40_apply]
  refine congrArg (val_main_v12 (F := Ideal) x2) (funext fun a => ?_)
  match a with
  | ⟨0, _⟩ => exact Fin.ext h0
  | ⟨1, _⟩ => exact Fin.ext rfl

/-- Layer 0's new feature (n, j) is the node cell of the node's features, its mailbox sum, its reciprocal in-degree,
    row `j` of the layer's weights and entry `j` of its bias. -/
theorem node_0 (x0 : V' S100000 .i32) (x1 : V' S800000 .i32) (x2 : V' S800000 .i32) (x3 : V S800000) (x4 : V S800000) (x5 : V S800000) (x6 : V S64x64) (x7 : V S5x64x67) (x8 : V S5x64x128) (x9 : V S5x64) (n : Fin 100000) (j : Fin 64) :
    val_main_v52 (F := Ideal) x0 x1 x2 x3 x4 x5 x6 x7 x8 x9 (ix2 n j)
      = Cert.Net.nodeCell (fun k => val_main_v19 (F := Ideal) x0 x6 (ix2 n k)) (fun k => val_main_v39 (F := Ideal) x0 x1 x2 x3 x4 x5 x6 x7 (ix2 n k)) (val_main_v12 (F := Ideal) x2 (ix2 n 0))
          (fun k => x8 (ix3 0 j ⟨k.val, by omega⟩)) (fun k => x8 (ix3 0 j ⟨64 + k.val, by omega⟩)) (x9 (ix2 0 j)) := by
  rw [val_main_v52_apply, val_main_v51_apply, val_main_call1_v0_apply, val_main_call1_cst_apply]
  exact node_gen (val_main_v19 (F := Ideal) x0 x6) (val_main_v39 (F := Ideal) x0 x1 x2 x3 x4 x5 x6 x7) (val_main_v41 (F := Ideal) x0 x1 x2 x3 x4 x5 x6 x7) (val_main_v40 (F := Ideal) x2) (val_main_v50 (F := Ideal) x9) (val_main_v46 (F := Ideal) x0 x1 x2 x3 x4 x5 x6 x7 x8) (val_main_v12 (F := Ideal) x2) (val_main_v45 (F := Ideal) x8) x8 x9 0
    lidx_main_v46 ridx_main_v46 (fun _ _ => rfl) (fun _ _ => rfl) (fun _ _ => rfl) (fun _ _ => rfl)
    (fun i => val_main_v41_apply x0 x1 x2 x3 x4 x5 x6 x7 i) (iv_0 x2) (w8_0 x8) (b9_0 x9) (val_main_v46_apply x0 x1 x2 x3 x4 x5 x6 x7 x8) n j

/-- Layer 1's node weights as the reference reads them (a slice of layer 1, reshaped, transposed): at (k, j), row `j`,
    column `k` of the layer's weight matrix. -/
theorem w8_1 (x8 : V S5x64x128) (i : S128x64.Idx) (k : Fin 128) (j : Fin 64) (h0 : (i 0).val = k.val) (h1 : (i 1).val = j.val) :
    val_main_v78 (F := Ideal) x8 i = x8 (ix3 1 j k) := by
  rw [val_main_v78_apply, val_main_v77_apply, val_main_v76_apply]
  refine congrArg x8 (funext fun a => ?_)
  have hj := j.isLt; have hk := k.isLt
  match a with
  | ⟨0, _⟩ => exact Fin.ext (by show 1 + 0 = 1; rfl)
  | ⟨1, _⟩ => exact Fin.ext (by show ((i 1).val * 128 + (i 0).val) / 128 % 64 = j.val; omega)
  | ⟨2, _⟩ => exact Fin.ext (by show ((i 1).val * 128 + (i 0).val) % 128 = k.val; omega)

/-- Layer 1's bias as the reference reads it (a slice of layer 1, reshaped, broadcast along the nodes): entry `j`. -/
theorem b9_1 (x9 : V S5x64) (i : S100000x64.Idx) (j : Fin 64) (h1 : (i 1).val = j.val) :
    val_main_v83 (F := Ideal) x9 i = x9 (ix2 1 j) := by
  rw [val_main_v83_apply, val_main_v82_apply, val_main_v81_apply, val_main_v80_apply]
  refine congrArg x9 (funext fun a => ?_)
  have hj := j.isLt
  match a with
  | ⟨0, _⟩ => exact Fin.ext (by show 1 + 0 = 1; rfl)
  | ⟨1, _⟩ => exact Fin.ext (by show ((i 1).val) % 64 = j.val; omega)

/-- The reciprocal in-degree broadcast along a node's row, in layer 1: the node's own. -/
theorem iv_1 (x2 : V' S800000 .i32) (i : S100000x64.Idx) (n : Fin 100000) (h0 : (i 0).val = n.val) :
    val_main_v73 (F := Ideal) x2 i = val_main_v12 (F := Ideal) x2 (ix2 n 0) := by
  rw [val_main_v73_apply]
  refine congrArg (val_main_v12 (F := Ideal) x2) (funext fun a => ?_)
  match a with
  | ⟨0, _⟩ => exact Fin.ext h0
  | ⟨1, _⟩ => exact Fin.ext rfl

/-- Layer 1's new feature (n, j) is the node cell of the node's features, its mailbox sum, its reciprocal in-degree,
    row `j` of the layer's weights and entry `j` of its bias. -/
theorem node_1 (x0 : V' S100000 .i32) (x1 : V' S800000 .i32) (x2 : V' S800000 .i32) (x3 : V S800000) (x4 : V S800000) (x5 : V S800000) (x6 : V S64x64) (x7 : V S5x64x67) (x8 : V S5x64x128) (x9 : V S5x64) (n : Fin 100000) (j : Fin 64) :
    val_main_v85 (F := Ideal) x0 x1 x2 x3 x4 x5 x6 x7 x8 x9 (ix2 n j)
      = Cert.Net.nodeCell (fun k => val_main_v52 (F := Ideal) x0 x1 x2 x3 x4 x5 x6 x7 x8 x9 (ix2 n k)) (fun k => val_main_v72 (F := Ideal) x0 x1 x2 x3 x4 x5 x6 x7 x8 x9 (ix2 n k)) (val_main_v12 (F := Ideal) x2 (ix2 n 0))
          (fun k => x8 (ix3 1 j ⟨k.val, by omega⟩)) (fun k => x8 (ix3 1 j ⟨64 + k.val, by omega⟩)) (x9 (ix2 1 j)) := by
  rw [val_main_v85_apply, val_main_v84_apply, val_main_call3_v0_apply, val_main_call3_cst_apply]
  exact node_gen (val_main_v52 (F := Ideal) x0 x1 x2 x3 x4 x5 x6 x7 x8 x9) (val_main_v72 (F := Ideal) x0 x1 x2 x3 x4 x5 x6 x7 x8 x9) (val_main_v74 (F := Ideal) x0 x1 x2 x3 x4 x5 x6 x7 x8 x9) (val_main_v73 (F := Ideal) x2) (val_main_v83 (F := Ideal) x9) (val_main_v79 (F := Ideal) x0 x1 x2 x3 x4 x5 x6 x7 x8 x9) (val_main_v12 (F := Ideal) x2) (val_main_v78 (F := Ideal) x8) x8 x9 1
    lidx_main_v79 ridx_main_v79 (fun _ _ => rfl) (fun _ _ => rfl) (fun _ _ => rfl) (fun _ _ => rfl)
    (fun i => val_main_v74_apply x0 x1 x2 x3 x4 x5 x6 x7 x8 x9 i) (iv_1 x2) (w8_1 x8) (b9_1 x9) (val_main_v79_apply x0 x1 x2 x3 x4 x5 x6 x7 x8 x9) n j

/-- Layer 2's node weights as the reference reads them (a slice of layer 2, reshaped, transposed): at (k, j), row `j`,
    column `k` of the layer's weight matrix. -/
theorem w8_2 (x8 : V S5x64x128) (i : S128x64.Idx) (k : Fin 128) (j : Fin 64) (h0 : (i 0).val = k.val) (h1 : (i 1).val = j.val) :
    val_main_v111 (F := Ideal) x8 i = x8 (ix3 2 j k) := by
  rw [val_main_v111_apply, val_main_v110_apply, val_main_v109_apply]
  refine congrArg x8 (funext fun a => ?_)
  have hj := j.isLt; have hk := k.isLt
  match a with
  | ⟨0, _⟩ => exact Fin.ext (by show 2 + 0 = 2; rfl)
  | ⟨1, _⟩ => exact Fin.ext (by show ((i 1).val * 128 + (i 0).val) / 128 % 64 = j.val; omega)
  | ⟨2, _⟩ => exact Fin.ext (by show ((i 1).val * 128 + (i 0).val) % 128 = k.val; omega)

/-- Layer 2's bias as the reference reads it (a slice of layer 2, reshaped, broadcast along the nodes): entry `j`. -/
theorem b9_2 (x9 : V S5x64) (i : S100000x64.Idx) (j : Fin 64) (h1 : (i 1).val = j.val) :
    val_main_v116 (F := Ideal) x9 i = x9 (ix2 2 j) := by
  rw [val_main_v116_apply, val_main_v115_apply, val_main_v114_apply, val_main_v113_apply]
  refine congrArg x9 (funext fun a => ?_)
  have hj := j.isLt
  match a with
  | ⟨0, _⟩ => exact Fin.ext (by show 2 + 0 = 2; rfl)
  | ⟨1, _⟩ => exact Fin.ext (by show ((i 1).val) % 64 = j.val; omega)

/-- The reciprocal in-degree broadcast along a node's row, in layer 2: the node's own. -/
theorem iv_2 (x2 : V' S800000 .i32) (i : S100000x64.Idx) (n : Fin 100000) (h0 : (i 0).val = n.val) :
    val_main_v106 (F := Ideal) x2 i = val_main_v12 (F := Ideal) x2 (ix2 n 0) := by
  rw [val_main_v106_apply]
  refine congrArg (val_main_v12 (F := Ideal) x2) (funext fun a => ?_)
  match a with
  | ⟨0, _⟩ => exact Fin.ext h0
  | ⟨1, _⟩ => exact Fin.ext rfl

/-- Layer 2's new feature (n, j) is the node cell of the node's features, its mailbox sum, its reciprocal in-degree,
    row `j` of the layer's weights and entry `j` of its bias. -/
theorem node_2 (x0 : V' S100000 .i32) (x1 : V' S800000 .i32) (x2 : V' S800000 .i32) (x3 : V S800000) (x4 : V S800000) (x5 : V S800000) (x6 : V S64x64) (x7 : V S5x64x67) (x8 : V S5x64x128) (x9 : V S5x64) (n : Fin 100000) (j : Fin 64) :
    val_main_v118 (F := Ideal) x0 x1 x2 x3 x4 x5 x6 x7 x8 x9 (ix2 n j)
      = Cert.Net.nodeCell (fun k => val_main_v85 (F := Ideal) x0 x1 x2 x3 x4 x5 x6 x7 x8 x9 (ix2 n k)) (fun k => val_main_v105 (F := Ideal) x0 x1 x2 x3 x4 x5 x6 x7 x8 x9 (ix2 n k)) (val_main_v12 (F := Ideal) x2 (ix2 n 0))
          (fun k => x8 (ix3 2 j ⟨k.val, by omega⟩)) (fun k => x8 (ix3 2 j ⟨64 + k.val, by omega⟩)) (x9 (ix2 2 j)) := by
  rw [val_main_v118_apply, val_main_v117_apply, val_main_call5_v0_apply, val_main_call5_cst_apply]
  exact node_gen (val_main_v85 (F := Ideal) x0 x1 x2 x3 x4 x5 x6 x7 x8 x9) (val_main_v105 (F := Ideal) x0 x1 x2 x3 x4 x5 x6 x7 x8 x9) (val_main_v107 (F := Ideal) x0 x1 x2 x3 x4 x5 x6 x7 x8 x9) (val_main_v106 (F := Ideal) x2) (val_main_v116 (F := Ideal) x9) (val_main_v112 (F := Ideal) x0 x1 x2 x3 x4 x5 x6 x7 x8 x9) (val_main_v12 (F := Ideal) x2) (val_main_v111 (F := Ideal) x8) x8 x9 2
    lidx_main_v112 ridx_main_v112 (fun _ _ => rfl) (fun _ _ => rfl) (fun _ _ => rfl) (fun _ _ => rfl)
    (fun i => val_main_v107_apply x0 x1 x2 x3 x4 x5 x6 x7 x8 x9 i) (iv_2 x2) (w8_2 x8) (b9_2 x9) (val_main_v112_apply x0 x1 x2 x3 x4 x5 x6 x7 x8 x9) n j

/-- Layer 3's node weights as the reference reads them (a slice of layer 3, reshaped, transposed): at (k, j), row `j`,
    column `k` of the layer's weight matrix. -/
theorem w8_3 (x8 : V S5x64x128) (i : S128x64.Idx) (k : Fin 128) (j : Fin 64) (h0 : (i 0).val = k.val) (h1 : (i 1).val = j.val) :
    val_main_v144 (F := Ideal) x8 i = x8 (ix3 3 j k) := by
  rw [val_main_v144_apply, val_main_v143_apply, val_main_v142_apply]
  refine congrArg x8 (funext fun a => ?_)
  have hj := j.isLt; have hk := k.isLt
  match a with
  | ⟨0, _⟩ => exact Fin.ext (by show 3 + 0 = 3; rfl)
  | ⟨1, _⟩ => exact Fin.ext (by show ((i 1).val * 128 + (i 0).val) / 128 % 64 = j.val; omega)
  | ⟨2, _⟩ => exact Fin.ext (by show ((i 1).val * 128 + (i 0).val) % 128 = k.val; omega)

/-- Layer 3's bias as the reference reads it (a slice of layer 3, reshaped, broadcast along the nodes): entry `j`. -/
theorem b9_3 (x9 : V S5x64) (i : S100000x64.Idx) (j : Fin 64) (h1 : (i 1).val = j.val) :
    val_main_v149 (F := Ideal) x9 i = x9 (ix2 3 j) := by
  rw [val_main_v149_apply, val_main_v148_apply, val_main_v147_apply, val_main_v146_apply]
  refine congrArg x9 (funext fun a => ?_)
  have hj := j.isLt
  match a with
  | ⟨0, _⟩ => exact Fin.ext (by show 3 + 0 = 3; rfl)
  | ⟨1, _⟩ => exact Fin.ext (by show ((i 1).val) % 64 = j.val; omega)

/-- The reciprocal in-degree broadcast along a node's row, in layer 3: the node's own. -/
theorem iv_3 (x2 : V' S800000 .i32) (i : S100000x64.Idx) (n : Fin 100000) (h0 : (i 0).val = n.val) :
    val_main_v139 (F := Ideal) x2 i = val_main_v12 (F := Ideal) x2 (ix2 n 0) := by
  rw [val_main_v139_apply]
  refine congrArg (val_main_v12 (F := Ideal) x2) (funext fun a => ?_)
  match a with
  | ⟨0, _⟩ => exact Fin.ext h0
  | ⟨1, _⟩ => exact Fin.ext rfl

/-- Layer 3's new feature (n, j) is the node cell of the node's features, its mailbox sum, its reciprocal in-degree,
    row `j` of the layer's weights and entry `j` of its bias. -/
theorem node_3 (x0 : V' S100000 .i32) (x1 : V' S800000 .i32) (x2 : V' S800000 .i32) (x3 : V S800000) (x4 : V S800000) (x5 : V S800000) (x6 : V S64x64) (x7 : V S5x64x67) (x8 : V S5x64x128) (x9 : V S5x64) (n : Fin 100000) (j : Fin 64) :
    val_main_v151 (F := Ideal) x0 x1 x2 x3 x4 x5 x6 x7 x8 x9 (ix2 n j)
      = Cert.Net.nodeCell (fun k => val_main_v118 (F := Ideal) x0 x1 x2 x3 x4 x5 x6 x7 x8 x9 (ix2 n k)) (fun k => val_main_v138 (F := Ideal) x0 x1 x2 x3 x4 x5 x6 x7 x8 x9 (ix2 n k)) (val_main_v12 (F := Ideal) x2 (ix2 n 0))
          (fun k => x8 (ix3 3 j ⟨k.val, by omega⟩)) (fun k => x8 (ix3 3 j ⟨64 + k.val, by omega⟩)) (x9 (ix2 3 j)) := by
  rw [val_main_v151_apply, val_main_v150_apply, val_main_call7_v0_apply, val_main_call7_cst_apply]
  exact node_gen (val_main_v118 (F := Ideal) x0 x1 x2 x3 x4 x5 x6 x7 x8 x9) (val_main_v138 (F := Ideal) x0 x1 x2 x3 x4 x5 x6 x7 x8 x9) (val_main_v140 (F := Ideal) x0 x1 x2 x3 x4 x5 x6 x7 x8 x9) (val_main_v139 (F := Ideal) x2) (val_main_v149 (F := Ideal) x9) (val_main_v145 (F := Ideal) x0 x1 x2 x3 x4 x5 x6 x7 x8 x9) (val_main_v12 (F := Ideal) x2) (val_main_v144 (F := Ideal) x8) x8 x9 3
    lidx_main_v145 ridx_main_v145 (fun _ _ => rfl) (fun _ _ => rfl) (fun _ _ => rfl) (fun _ _ => rfl)
    (fun i => val_main_v140_apply x0 x1 x2 x3 x4 x5 x6 x7 x8 x9 i) (iv_3 x2) (w8_3 x8) (b9_3 x9) (val_main_v145_apply x0 x1 x2 x3 x4 x5 x6 x7 x8 x9) n j

/-- Layer 4's node weights as the reference reads them (a slice of layer 4, reshaped, transposed): at (k, j), row `j`,
    column `k` of the layer's weight matrix. -/
theorem w8_4 (x8 : V S5x64x128) (i : S128x64.Idx) (k : Fin 128) (j : Fin 64) (h0 : (i 0).val = k.val) (h1 : (i 1).val = j.val) :
    val_main_v177 (F := Ideal) x8 i = x8 (ix3 4 j k) := by
  rw [val_main_v177_apply, val_main_v176_apply, val_main_v175_apply]
  refine congrArg x8 (funext fun a => ?_)
  have hj := j.isLt; have hk := k.isLt
  match a with
  | ⟨0, _⟩ => exact Fin.ext (by show 4 + 0 = 4; rfl)
  | ⟨1, _⟩ => exact Fin.ext (by show ((i 1).val * 128 + (i 0).val) / 128 % 64 = j.val; omega)
  | ⟨2, _⟩ => exact Fin.ext (by show ((i 1).val * 128 + (i 0).val) % 128 = k.val; omega)

/-- Layer 4's bias as the reference reads it (a slice of layer 4, reshaped, broadcast along the nodes): entry `j`. -/
theorem b9_4 (x9 : V S5x64) (i : S100000x64.Idx) (j : Fin 64) (h1 : (i 1).val = j.val) :
    val_main_v182 (F := Ideal) x9 i = x9 (ix2 4 j) := by
  rw [val_main_v182_apply, val_main_v181_apply, val_main_v180_apply, val_main_v179_apply]
  refine congrArg x9 (funext fun a => ?_)
  have hj := j.isLt
  match a with
  | ⟨0, _⟩ => exact Fin.ext (by show 4 + 0 = 4; rfl)
  | ⟨1, _⟩ => exact Fin.ext (by show ((i 1).val) % 64 = j.val; omega)

/-- The reciprocal in-degree broadcast along a node's row, in layer 4: the node's own. -/
theorem iv_4 (x2 : V' S800000 .i32) (i : S100000x64.Idx) (n : Fin 100000) (h0 : (i 0).val = n.val) :
    val_main_v172 (F := Ideal) x2 i = val_main_v12 (F := Ideal) x2 (ix2 n 0) := by
  rw [val_main_v172_apply]
  refine congrArg (val_main_v12 (F := Ideal) x2) (funext fun a => ?_)
  match a with
  | ⟨0, _⟩ => exact Fin.ext h0
  | ⟨1, _⟩ => exact Fin.ext rfl

/-- Layer 4's new feature (n, j) is the node cell of the node's features, its mailbox sum, its reciprocal in-degree,
    row `j` of the layer's weights and entry `j` of its bias. -/
theorem node_4 (x0 : V' S100000 .i32) (x1 : V' S800000 .i32) (x2 : V' S800000 .i32) (x3 : V S800000) (x4 : V S800000) (x5 : V S800000) (x6 : V S64x64) (x7 : V S5x64x67) (x8 : V S5x64x128) (x9 : V S5x64) (n : Fin 100000) (j : Fin 64) :
    val_main_v184 (F := Ideal) x0 x1 x2 x3 x4 x5 x6 x7 x8 x9 (ix2 n j)
      = Cert.Net.nodeCell (fun k => val_main_v151 (F := Ideal) x0 x1 x2 x3 x4 x5 x6 x7 x8 x9 (ix2 n k)) (fun k => val_main_v171 (F := Ideal) x0 x1 x2 x3 x4 x5 x6 x7 x8 x9 (ix2 n k)) (val_main_v12 (F := Ideal) x2 (ix2 n 0))
          (fun k => x8 (ix3 4 j ⟨k.val, by omega⟩)) (fun k => x8 (ix3 4 j ⟨64 + k.val, by omega⟩)) (x9 (ix2 4 j)) := by
  rw [val_main_v184_apply, val_main_v183_apply, val_main_call9_v0_apply, val_main_call9_cst_apply]
  exact node_gen (val_main_v151 (F := Ideal) x0 x1 x2 x3 x4 x5 x6 x7 x8 x9) (val_main_v171 (F := Ideal) x0 x1 x2 x3 x4 x5 x6 x7 x8 x9) (val_main_v173 (F := Ideal) x0 x1 x2 x3 x4 x5 x6 x7 x8 x9) (val_main_v172 (F := Ideal) x2) (val_main_v182 (F := Ideal) x9) (val_main_v178 (F := Ideal) x0 x1 x2 x3 x4 x5 x6 x7 x8 x9) (val_main_v12 (F := Ideal) x2) (val_main_v177 (F := Ideal) x8) x8 x9 4
    lidx_main_v178 ridx_main_v178 (fun _ _ => rfl) (fun _ _ => rfl) (fun _ _ => rfl) (fun _ _ => rfl)
    (fun i => val_main_v173_apply x0 x1 x2 x3 x4 x5 x6 x7 x8 x9 i) (iv_4 x2) (w8_4 x8) (b9_4 x9) (val_main_v178_apply x0 x1 x2 x3 x4 x5 x6 x7 x8 x9) n j

end Cert.Net.Ref

end
-- ==== Proof.RefFinal.lean ====
/-
  The reference's head (a 64-unit rectified layer and a 32-class linear layer on the last node features), read at an
  index into the specification's final cell.
-/
import proofs.«149571_j25649544692292_2_alg».proof.Proof.RefReadP
import proofs.«149571_j25649544692292_2_alg».proof.Proof.RefGen

noncomputable section

namespace Cert.Net.Ref

open Cert.ReferenceIdeal Cert.ReferenceIdeal.Gen Cert.ReferenceIdeal.Read Idealize.ShloMosaic Idealize.ShloMosaic.ValueIdx
open scoped BigOperators

/-- A rank-2 index with known coordinates. -/
theorem idx2_of {n0 n1 : Nat} (i : (⟨2, ![n0, n1]⟩ : Shape).Idx) (a : Fin n0) (b : Fin n1) (h0 : (i 0).val = a.val) (h1 : (i 1).val = b.val) :
    i = ix2 a b := by
  funext c
  match c with
  | ⟨0, _⟩ => exact Fin.ext h0
  | ⟨1, _⟩ => exact Fin.ext h1

/-- A rank-1 index with a known coordinate. -/
theorem idx1_of {n0 : Nat} (i : (⟨1, ![n0]⟩ : Shape).Idx) (a : Fin n0) (h0 : (i 0).val = a.val) : i = ix1 a := by
  funext c
  match c with
  | ⟨0, _⟩ => exact Fin.ext h0

/-- One hidden unit of the head: entry (n, j) of the rectified first layer. -/
theorem hidden_ref (x0 : V' S100000 .i32) (x1 : V' S800000 .i32) (x2 : V' S800000 .i32) (x3 : V S800000) (x4 : V S800000) (x5 : V S800000) (x6 : V S64x64) (x7 : V S5x64x67) (x8 : V S5x64x128) (x9 : V S5x64) (x10 : V S64x64) (x11 : V S64) (i : S100000x64.Idx) (n : Fin 100000) (j : Fin 64)
    (h0 : (i 0).val = n.val) (h1 : (i 1).val = j.val) :
    val_main_v190 (F := Ideal) x0 x1 x2 x3 x4 x5 x6 x7 x8 x9 x10 x11 i
      = Cert.Net.hidden (fun k => val_main_v184 (F := Ideal) x0 x1 x2 x3 x4 x5 x6 x7 x8 x9 (ix2 n k)) (fun k => x10 (ix2 j k)) (x11 (ix1 j)) := by
  rw [val_main_v190_apply, val_main_v189_apply, val_main_call10_v0_apply, val_main_call10_cst_apply, val_main_v186_apply]
  show max ((∑ k : Fin 64, _) + _) zeroLit = max ((∑ k : Fin 64, _) + _) zeroLit
  refine congrArg (max · zeroLit) (congrArg₂ (· + ·) (Finset.sum_congr rfl fun k _ => congrArg₂ (· * ·) ?_ ?_) ?_)
  · exact congrArg _ (idx2_of _ n k h0 rfl)
  · rw [val_main_v185_apply]
    exact congrArg x10 (idx2_of _ j k h1 rfl)
  · rw [val_main_v188_apply, val_main_v187_apply]
    exact congrArg x11 (idx1_of _ j h1)

/-- A class score (n, q) is the final cell of the node's last features, the hidden layer's weights and biases, row `q`
    of the class weights and entry `q` of the class biases. -/
theorem final (x0 : V' S100000 .i32) (x1 : V' S800000 .i32) (x2 : V' S800000 .i32) (x3 : V S800000) (x4 : V S800000) (x5 : V S800000) (x6 : V S64x64) (x7 : V S5x64x67) (x8 : V S5x64x128) (x9 : V S5x64) (x10 : V S64x64) (x11 : V S64) (x12 : V S32x64) (x13 : V S32) (n : Fin 100000) (q : Fin 32) :
    val_main_v195 (F := Ideal) x0 x1 x2 x3 x4 x5 x6 x7 x8 x9 x10 x11 x12 x13 (ix2 n q)
      = Cert.Net.finalCell (fun k => val_main_v184 (F := Ideal) x0 x1 x2 x3 x4 x5 x6 x7 x8 x9 (ix2 n k)) (fun j k => x10 (ix2 j k)) (fun j => x11 (ix1 j))
          (fun j => x12 (ix2 q j)) (x13 (ix1 q)) := by
  rw [val_main_v195_apply, val_main_v192_apply]
  show (∑ j : Fin 64, _) + _ = (∑ j : Fin 64, _) + _
  refine congrArg₂ (· + ·) (Finset.sum_congr rfl fun j _ => congrArg₂ (· * ·) ?_ ?_) ?_
  · exact hidden_ref x0 x1 x2 x3 x4 x5 x6 x7 x8 x9 x10 x11 _ n j rfl rfl
  · rw [val_main_v191_apply]
    exact congrArg x12 (idx2_of _ q j rfl rfl)
  · rw [val_main_v194_apply, val_main_v193_apply]
    exact congrArg x13 (idx1_of _ q rfl)

end Cert.Net.Ref

end
-- ==== Proof.GlueRead.lean ====
/-
  The host program's layout operations read at an index.  Each weight operand handed to a kernel is a window of
  a stacked argument: a column window of the stack, then one layer's block, then the block with its leading unit
  axis dropped; a bias is one row of the stack passed through a vector and back.  Read at an entry, each is the
  argument at the entry's coordinates shifted by the windows' offsets.  The layout facts are quantified over,
  so that the lemmas apply whatever proof term of the fact the program's text carries.
-/
import proofs.«149571_j25649544692292_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.Net.Glue

open Idealize.ShloMosaic Idealize.SL.Sem Idealize.ShloMosaic.ValueIdx Cert.KernelIdeal

/-- The first 64 columns of every layer's first weight. -/
theorem sl7a {α : Type} (x : S5x64x67.Idx → α) (h : S5x64x67.Slices ![0, 0, 0] S5x64x64) (l : Fin 5) (q : Fin 64) (k : Fin 64) :
    extractStridedSlice S5x64x64 ![0, 0, 0] x h (ix3 l q k) = x (ix3 l q ⟨k.val, by have := k.isLt; omega⟩) := by
  refine extractStridedSlice_apply _ x _ _ (ix3 l q ⟨k.val, by have := k.isLt; omega⟩) ?_
  intro a
  match a with
  | ⟨0, _⟩ => show _ = 0 + l.val; simp
  | ⟨1, _⟩ => show _ = 0 + q.val; simp
  | ⟨2, _⟩ => show _ = 0 + k.val; simp

/-- The last 3 columns of every layer's first weight. -/
theorem sl7b {α : Type} (x : S5x64x67.Idx → α) (h : S5x64x67.Slices ![0, 0, 64] S5x64x3) (l : Fin 5) (q : Fin 64) (k : Fin 3) :
    extractStridedSlice S5x64x3 ![0, 0, 64] x h (ix3 l q k) = x (ix3 l q ⟨64 + k.val, by have := k.isLt; omega⟩) := by
  refine extractStridedSlice_apply _ x _ _ (ix3 l q ⟨64 + k.val, by have := k.isLt; omega⟩) ?_
  intro a
  match a with
  | ⟨0, _⟩ => show _ = 0 + l.val; simp
  | ⟨1, _⟩ => show _ = 0 + q.val; simp
  | ⟨2, _⟩ => show _ = 64 + k.val; simp

/-- The first 64 columns of every layer's second weight. -/
theorem sl8a {α : Type} (x : S5x64x128.Idx → α) (h : S5x64x128.Slices ![0, 0, 0] S5x64x64) (l : Fin 5) (q : Fin 64) (k : Fin 64) :
    extractStridedSlice S5x64x64 ![0, 0, 0] x h (ix3 l q k) = x (ix3 l q ⟨k.val, by have := k.isLt; omega⟩) := by
  refine extractStridedSlice_apply _ x _ _ (ix3 l q ⟨k.val, by have := k.isLt; omega⟩) ?_
  intro a
  match a with
  | ⟨0, _⟩ => show _ = 0 + l.val; simp
  | ⟨1, _⟩ => show _ = 0 + q.val; simp
  | ⟨2, _⟩ => show _ = 0 + k.val; simp

/-- The last 64 columns of every layer's second weight. -/
theorem sl8b {α : Type} (x : S5x64x128.Idx → α) (h : S5x64x128.Slices ![0, 0, 64] S5x64x64) (l : Fin 5) (q : Fin 64) (k : Fin 64) :
    extractStridedSlice S5x64x64 ![0, 0, 64] x h (ix3 l q k) = x (ix3 l q ⟨64 + k.val, by have := k.isLt; omega⟩) := by
  refine extractStridedSlice_apply _ x _ _ (ix3 l q ⟨64 + k.val, by have := k.isLt; omega⟩) ?_
  intro a
  match a with
  | ⟨0, _⟩ => show _ = 0 + l.val; simp
  | ⟨1, _⟩ => show _ = 0 + q.val; simp
  | ⟨2, _⟩ => show _ = 64 + k.val; simp

/-- Dropping a leading unit axis of a 1×64×64 array. -/
theorem rs_64x64 {α : Type} (z : S1x64x64.Idx → α) (h : S1x64x64.ShapeCasts S64x64) (q k : Fin 64) :
    shapeCast S64x64 z h (ix2 q k) = z (ix3 0 q k) := by
  refine shapeCast_apply z _ _ (ix3 0 q k) ?_
  rw [Shape.rowMajor_val_three, Shape.rowMajor_val_two]
  show (0 * 64 + q.val) * 64 + k.val = q.val * 64 + k.val
  omega

/-- Dropping a leading unit axis of a 1×64×3 array. -/
theorem rs_64x3 {α : Type} (z : S1x64x3.Idx → α) (h : S1x64x3.ShapeCasts S64x3) (q : Fin 64) (k : Fin 3) :
    shapeCast S64x3 z h (ix2 q k) = z (ix3 0 q k) := by
  refine shapeCast_apply z _ _ (ix3 0 q k) ?_
  rw [Shape.rowMajor_val_three, Shape.rowMajor_val_two]
  show (0 * 64 + q.val) * 3 + k.val = q.val * 3 + k.val
  omega

/-- A 1×64 row as a vector. -/
theorem rs_1x64_64 {α : Type} (z : S1x64.Idx → α) (h : S1x64.ShapeCasts S64) (q : Fin 64) :
    shapeCast S64 z h (ix1 q) = z (ix2 0 q) := by
  refine shapeCast_apply z _ _ (ix2 0 q) ?_
  rw [Shape.rowMajor_val_two, Shape.rowMajor_val_one]
  show 0 * 64 + q.val = q.val
  omega

/-- A 64-vector as a 1×64 row. -/
theorem rs_64_1x64 {α : Type} (z : S64.Idx → α) (h : S64.ShapeCasts S1x64) (q : Fin 64) :
    shapeCast S1x64 z h (ix2 0 q) = z (ix1 q) := by
  refine shapeCast_apply z _ _ (ix1 q) ?_
  rw [Shape.rowMajor_val_two, Shape.rowMajor_val_one]
  show q.val = 0 * 64 + q.val
  omega

/-- A 32-vector as a 1×32 row. -/
theorem rs_32_1x32 {α : Type} (z : S32.Idx → α) (h : S32.ShapeCasts S1x32) (q : Fin 32) :
    shapeCast S1x32 z h (ix2 0 q) = z (ix1 q) := by
  refine shapeCast_apply z _ _ (ix1 q) ?_
  rw [Shape.rowMajor_val_two, Shape.rowMajor_val_one]
  show q.val = 0 * 32 + q.val
  omega

/-! ### Layer 0 -/

/-- Layer 0's 64×64 block of a stack of five. -/
theorem ly0_64x64 {α : Type} (y : S5x64x64.Idx → α) (h : S5x64x64.Slices ![0, 0, 0] S1x64x64) (q k : Fin 64) :
    extractStridedSlice S1x64x64 ![0, 0, 0] y h (ix3 0 q k) = y (ix3 0 q k) := by
  refine extractStridedSlice_apply _ y _ _ (ix3 0 q k) ?_
  intro a
  match a with
  | ⟨0, _⟩ => rfl
  | ⟨1, _⟩ => show _ = 0 + q.val; simp
  | ⟨2, _⟩ => show _ = 0 + k.val; simp

/-- Layer 0's 64×3 block of a stack of five. -/
theorem ly0_64x3 {α : Type} (y : S5x64x3.Idx → α) (h : S5x64x3.Slices ![0, 0, 0] S1x64x3) (q : Fin 64) (k : Fin 3) :
    extractStridedSlice S1x64x3 ![0, 0, 0] y h (ix3 0 q k) = y (ix3 0 q k) := by
  refine extractStridedSlice_apply _ y _ _ (ix3 0 q k) ?_
  intro a
  match a with
  | ⟨0, _⟩ => rfl
  | ⟨1, _⟩ => show _ = 0 + q.val; simp
  | ⟨2, _⟩ => show _ = 0 + k.val; simp

/-- Layer 0's row of the five biases. -/
theorem ly0_64 {α : Type} (y : S5x64.Idx → α) (h : S5x64.Slices ![0, 0] S1x64) (q : Fin 64) :
    extractStridedSlice S1x64 ![0, 0] y h (ix2 0 q) = y (ix2 0 q) := by
  refine extractStridedSlice_apply _ y _ _ (ix2 0 q) ?_
  intro a
  match a with
  | ⟨0, _⟩ => rfl
  | ⟨1, _⟩ => show _ = 0 + q.val; simp

/-- Layer 0's edge weight, node part, read at an entry. -/
theorem w1a_read_0 (x7 : (⟨S5x64x67, .f32⟩ : BufTy).Contents (Elt Ideal)) (h1 : S5x64x67.Slices ![0, 0, 0] S5x64x64) (h2 : S5x64x64.Slices ![0, 0, 0] S1x64x64) (h3 : S1x64x64.ShapeCasts S64x64) (q k : Fin 64) :
    shapeCast S64x64 (extractStridedSlice S1x64x64 ![0, 0, 0] (extractStridedSlice S5x64x64 ![0, 0, 0] x7 h1) h2) h3 (ix2 q k)
      = x7 (ix3 0 q ⟨k.val, by have := k.isLt; omega⟩) :=
  (rs_64x64 _ h3 q k).trans ((ly0_64x64 _ h2 q k).trans (sl7a x7 h1 0 q k))

/-- Layer 0's edge weight, edge-feature part, read at an entry. -/
theorem w1b_read_0 (x7 : (⟨S5x64x67, .f32⟩ : BufTy).Contents (Elt Ideal)) (h1 : S5x64x67.Slices ![0, 0, 64] S5x64x3) (h2 : S5x64x3.Slices ![0, 0, 0] S1x64x3) (h3 : S1x64x3.ShapeCasts S64x3) (q : Fin 64) (k : Fin 3) :
    shapeCast S64x3 (extractStridedSlice S1x64x3 ![0, 0, 0] (extractStridedSlice S5x64x3 ![0, 0, 64] x7 h1) h2) h3 (ix2 q k)
      = x7 (ix3 0 q ⟨64 + k.val, by have := k.isLt; omega⟩) :=
  (rs_64x3 _ h3 q k).trans ((ly0_64x3 _ h2 q k).trans (sl7b x7 h1 0 q k))

/-- Layer 0's node weight, own-feature half, read at an entry. -/
theorem w2a_read_0 (x8 : (⟨S5x64x128, .f32⟩ : BufTy).Contents (Elt Ideal)) (h1 : S5x64x128.Slices ![0, 0, 0] S5x64x64) (h2 : S5x64x64.Slices ![0, 0, 0] S1x64x64) (h3 : S1x64x64.ShapeCasts S64x64) (q k : Fin 64) :
    shapeCast S64x64 (extractStridedSlice S1x64x64 ![0, 0, 0] (extractStridedSlice S5x64x64 ![0, 0, 0] x8 h1) h2) h3 (ix2 q k)
      = x8 (ix3 0 q ⟨k.val, by have := k.isLt; omega⟩) :=
  (rs_64x64 _ h3 q k).trans ((ly0_64x64 _ h2 q k).trans (sl8a x8 h1 0 q k))

/-- Layer 0's node weight, mailbox half, read at an entry. -/
theorem w2b_read_0 (x8 : (⟨S5x64x128, .f32⟩ : BufTy).Contents (Elt Ideal)) (h1 : S5x64x128.Slices ![0, 0, 64] S5x64x64) (h2 : S5x64x64.Slices ![0, 0, 0] S1x64x64) (h3 : S1x64x64.ShapeCasts S64x64) (q k : Fin 64) :
    shapeCast S64x64 (extractStridedSlice S1x64x64 ![0, 0, 0] (extractStridedSlice S5x64x64 ![0, 0, 64] x8 h1) h2) h3 (ix2 q k)
      = x8 (ix3 0 q ⟨64 + k.val, by have := k.isLt; omega⟩) :=
  (rs_64x64 _ h3 q k).trans ((ly0_64x64 _ h2 q k).trans (sl8b x8 h1 0 q k))

/-- Layer 0's node bias read at an entry. -/
theorem b2_read_0 (x9 : (⟨S5x64, .f32⟩ : BufTy).Contents (Elt Ideal)) (h1 : S5x64.Slices ![0, 0] S1x64) (h2 : S1x64.ShapeCasts S64) (h3 : S64.ShapeCasts S1x64) (q : Fin 64) :
    shapeCast S1x64 (shapeCast S64 (extractStridedSlice S1x64 ![0, 0] x9 h1) h2) h3 (ix2 0 q)
      = x9 (ix2 0 q) :=
  (rs_64_1x64 _ h3 q).trans ((rs_1x64_64 _ h2 q).trans (ly0_64 x9 h1 q))

/-! ### Layer 1 -/

/-- Layer 1's 64×64 block of a stack of five. -/
theorem ly1_64x64 {α : Type} (y : S5x64x64.Idx → α) (h : S5x64x64.Slices ![1, 0, 0] S1x64x64) (q k : Fin 64) :
    extractStridedSlice S1x64x64 ![1, 0, 0] y h (ix3 0 q k) = y (ix3 1 q k) := by
  refine extractStridedSlice_apply _ y _ _ (ix3 1 q k) ?_
  intro a
  match a with
  | ⟨0, _⟩ => rfl
  | ⟨1, _⟩ => show _ = 0 + q.val; simp
  | ⟨2, _⟩ => show _ = 0 + k.val; simp

/-- Layer 1's 64×3 block of a stack of five. -/
theorem ly1_64x3 {α : Type} (y : S5x64x3.Idx → α) (h : S5x64x3.Slices ![1, 0, 0] S1x64x3) (q : Fin 64) (k : Fin 3) :
    extractStridedSlice S1x64x3 ![1, 0, 0] y h (ix3 0 q k) = y (ix3 1 q k) := by
  refine extractStridedSlice_apply _ y _ _ (ix3 1 q k) ?_
  intro a
  match a with
  | ⟨0, _⟩ => rfl
  | ⟨1, _⟩ => show _ = 0 + q.val; simp
  | ⟨2, _⟩ => show _ = 0 + k.val; simp

/-- Layer 1's row of the five biases. -/
theorem ly1_64 {α : Type} (y : S5x64.Idx → α) (h : S5x64.Slices ![1, 0] S1x64) (q : Fin 64) :
    extractStridedSlice S1x64 ![1, 0] y h (ix2 0 q) = y (ix2 1 q) := by
  refine extractStridedSlice_apply _ y _ _ (ix2 1 q) ?_
  intro a
  match a with
  | ⟨0, _⟩ => rfl
  | ⟨1, _⟩ => show _ = 0 + q.val; simp

/-- Layer 1's edge weight, node part, read at an entry. -/
theorem w1a_read_1 (x7 : (⟨S5x64x67, .f32⟩ : BufTy).Contents (Elt Ideal)) (h1 : S5x64x67.Slices ![0, 0, 0] S5x64x64) (h2 : S5x64x64.Slices ![1, 0, 0] S1x64x64) (h3 : S1x64x64.ShapeCasts S64x64) (q k : Fin 64) :
    shapeCast S64x64 (extractStridedSlice S1x64x64 ![1, 0, 0] (extractStridedSlice S5x64x64 ![0, 0, 0] x7 h1) h2) h3 (ix2 q k)
      = x7 (ix3 1 q ⟨k.val, by have := k.isLt; omega⟩) :=
  (rs_64x64 _ h3 q k).trans ((ly1_64x64 _ h2 q k).trans (sl7a x7 h1 1 q k))

/-- Layer 1's edge weight, edge-feature part, read at an entry. -/
theorem w1b_read_1 (x7 : (⟨S5x64x67, .f32⟩ : BufTy).Contents (Elt Ideal)) (h1 : S5x64x67.Slices ![0, 0, 64] S5x64x3) (h2 : S5x64x3.Slices ![1, 0, 0] S1x64x3) (h3 : S1x64x3.ShapeCasts S64x3) (q : Fin 64) (k : Fin 3) :
    shapeCast S64x3 (extractStridedSlice S1x64x3 ![1, 0, 0] (extractStridedSlice S5x64x3 ![0, 0, 64] x7 h1) h2) h3 (ix2 q k)
      = x7 (ix3 1 q ⟨64 + k.val, by have := k.isLt; omega⟩) :=
  (rs_64x3 _ h3 q k).trans ((ly1_64x3 _ h2 q k).trans (sl7b x7 h1 1 q k))

/-- Layer 1's node weight, own-feature half, read at an entry. -/
theorem w2a_read_1 (x8 : (⟨S5x64x128, .f32⟩ : BufTy).Contents (Elt Ideal)) (h1 : S5x64x128.Slices ![0, 0, 0] S5x64x64) (h2 : S5x64x64.Slices ![1, 0, 0] S1x64x64) (h3 : S1x64x64.ShapeCasts S64x64) (q k : Fin 64) :
    shapeCast S64x64 (extractStridedSlice S1x64x64 ![1, 0, 0] (extractStridedSlice S5x64x64 ![0, 0, 0] x8 h1) h2) h3 (ix2 q k)
      = x8 (ix3 1 q ⟨k.val, by have := k.isLt; omega⟩) :=
  (rs_64x64 _ h3 q k).trans ((ly1_64x64 _ h2 q k).trans (sl8a x8 h1 1 q k))

/-- Layer 1's node weight, mailbox half, read at an entry. -/
theorem w2b_read_1 (x8 : (⟨S5x64x128, .f32⟩ : BufTy).Contents (Elt Ideal)) (h1 : S5x64x128.Slices ![0, 0, 64] S5x64x64) (h2 : S5x64x64.Slices ![1, 0, 0] S1x64x64) (h3 : S1x64x64.ShapeCasts S64x64) (q k : Fin 64) :
    shapeCast S64x64 (extractStridedSlice S1x64x64 ![1, 0, 0] (extractStridedSlice S5x64x64 ![0, 0, 64] x8 h1) h2) h3 (ix2 q k)
      = x8 (ix3 1 q ⟨64 + k.val, by have := k.isLt; omega⟩) :=
  (rs_64x64 _ h3 q k).trans ((ly1_64x64 _ h2 q k).trans (sl8b x8 h1 1 q k))

/-- Layer 1's node bias read at an entry. -/
theorem b2_read_1 (x9 : (⟨S5x64, .f32⟩ : BufTy).Contents (Elt Ideal)) (h1 : S5x64.Slices ![1, 0] S1x64) (h2 : S1x64.ShapeCasts S64) (h3 : S64.ShapeCasts S1x64) (q : Fin 64) :
    shapeCast S1x64 (shapeCast S64 (extractStridedSlice S1x64 ![1, 0] x9 h1) h2) h3 (ix2 0 q)
      = x9 (ix2 1 q) :=
  (rs_64_1x64 _ h3 q).trans ((rs_1x64_64 _ h2 q).trans (ly1_64 x9 h1 q))

/-! ### Layer 2 -/

/-- Layer 2's 64×64 block of a stack of five. -/
theorem ly2_64x64 {α : Type} (y : S5x64x64.Idx → α) (h : S5x64x64.Slices ![2, 0, 0] S1x64x64) (q k : Fin 64) :
    extractStridedSlice S1x64x64 ![2, 0, 0] y h (ix3 0 q k) = y (ix3 2 q k) := by
  refine extractStridedSlice_apply _ y _ _ (ix3 2 q k) ?_
  intro a
  match a with
  | ⟨0, _⟩ => rfl
  | ⟨1, _⟩ => show _ = 0 + q.val; simp
  | ⟨2, _⟩ => show _ = 0 + k.val; simp

/-- Layer 2's 64×3 block of a stack of five. -/
theorem ly2_64x3 {α : Type} (y : S5x64x3.Idx → α) (h : S5x64x3.Slices ![2, 0, 0] S1x64x3) (q : Fin 64) (k : Fin 3) :
    extractStridedSlice S1x64x3 ![2, 0, 0] y h (ix3 0 q k) = y (ix3 2 q k) := by
  refine extractStridedSlice_apply _ y _ _ (ix3 2 q k) ?_
  intro a
  match a with
  | ⟨0, _⟩ => rfl
  | ⟨1, _⟩ => show _ = 0 + q.val; simp
  | ⟨2, _⟩ => show _ = 0 + k.val; simp

/-- Layer 2's row of the five biases. -/
theorem ly2_64 {α : Type} (y : S5x64.Idx → α) (h : S5x64.Slices ![2, 0] S1x64) (q : Fin 64) :
    extractStridedSlice S1x64 ![2, 0] y h (ix2 0 q) = y (ix2 2 q) := by
  refine extractStridedSlice_apply _ y _ _ (ix2 2 q) ?_
  intro a
  match a with
  | ⟨0, _⟩ => rfl
  | ⟨1, _⟩ => show _ = 0 + q.val; simp

/-- Layer 2's edge weight, node part, read at an entry. -/
theorem w1a_read_2 (x7 : (⟨S5x64x67, .f32⟩ : BufTy).Contents (Elt Ideal)) (h1 : S5x64x67.Slices ![0, 0, 0] S5x64x64) (h2 : S5x64x64.Slices ![2, 0, 0] S1x64x64) (h3 : S1x64x64.ShapeCasts S64x64) (q k : Fin 64) :
    shapeCast S64x64 (extractStridedSlice S1x64x64 ![2, 0, 0] (extractStridedSlice S5x64x64 ![0, 0, 0] x7 h1) h2) h3 (ix2 q k)
      = x7 (ix3 2 q ⟨k.val, by have := k.isLt; omega⟩) :=
  (rs_64x64 _ h3 q k).trans ((ly2_64x64 _ h2 q k).trans (sl7a x7 h1 2 q k))

/-- Layer 2's edge weight, edge-feature part, read at an entry. -/
theorem w1b_read_2 (x7 : (⟨S5x64x67, .f32⟩ : BufTy).Contents (Elt Ideal)) (h1 : S5x64x67.Slices ![0, 0, 64] S5x64x3) (h2 : S5x64x3.Slices ![2, 0, 0] S1x64x3) (h3 : S1x64x3.ShapeCasts S64x3) (q : Fin 64) (k : Fin 3) :
    shapeCast S64x3 (extractStridedSlice S1x64x3 ![2, 0, 0] (extractStridedSlice S5x64x3 ![0, 0, 64] x7 h1) h2) h3 (ix2 q k)
      = x7 (ix3 2 q ⟨64 + k.val, by have := k.isLt; omega⟩) :=
  (rs_64x3 _ h3 q k).trans ((ly2_64x3 _ h2 q k).trans (sl7b x7 h1 2 q k))

/-- Layer 2's node weight, own-feature half, read at an entry. -/
theorem w2a_read_2 (x8 : (⟨S5x64x128, .f32⟩ : BufTy).Contents (Elt Ideal)) (h1 : S5x64x128.Slices ![0, 0, 0] S5x64x64) (h2 : S5x64x64.Slices ![2, 0, 0] S1x64x64) (h3 : S1x64x64.ShapeCasts S64x64) (q k : Fin 64) :
    shapeCast S64x64 (extractStridedSlice S1x64x64 ![2, 0, 0] (extractStridedSlice S5x64x64 ![0, 0, 0] x8 h1) h2) h3 (ix2 q k)
      = x8 (ix3 2 q ⟨k.val, by have := k.isLt; omega⟩) :=
  (rs_64x64 _ h3 q k).trans ((ly2_64x64 _ h2 q k).trans (sl8a x8 h1 2 q k))

/-- Layer 2's node weight, mailbox half, read at an entry. -/
theorem w2b_read_2 (x8 : (⟨S5x64x128, .f32⟩ : BufTy).Contents (Elt Ideal)) (h1 : S5x64x128.Slices ![0, 0, 64] S5x64x64) (h2 : S5x64x64.Slices ![2, 0, 0] S1x64x64) (h3 : S1x64x64.ShapeCasts S64x64) (q k : Fin 64) :
    shapeCast S64x64 (extractStridedSlice S1x64x64 ![2, 0, 0] (extractStridedSlice S5x64x64 ![0, 0, 64] x8 h1) h2) h3 (ix2 q k)
      = x8 (ix3 2 q ⟨64 + k.val, by have := k.isLt; omega⟩) :=
  (rs_64x64 _ h3 q k).trans ((ly2_64x64 _ h2 q k).trans (sl8b x8 h1 2 q k))

/-- Layer 2's node bias read at an entry. -/
theorem b2_read_2 (x9 : (⟨S5x64, .f32⟩ : BufTy).Contents (Elt Ideal)) (h1 : S5x64.Slices ![2, 0] S1x64) (h2 : S1x64.ShapeCasts S64) (h3 : S64.ShapeCasts S1x64) (q : Fin 64) :
    shapeCast S1x64 (shapeCast S64 (extractStridedSlice S1x64 ![2, 0] x9 h1) h2) h3 (ix2 0 q)
      = x9 (ix2 2 q) :=
  (rs_64_1x64 _ h3 q).trans ((rs_1x64_64 _ h2 q).trans (ly2_64 x9 h1 q))

/-! ### Layer 3 -/

/-- Layer 3's 64×64 block of a stack of five. -/
theorem ly3_64x64 {α : Type} (y : S5x64x64.Idx → α) (h : S5x64x64.Slices ![3, 0, 0] S1x64x64) (q k : Fin 64) :
    extractStridedSlice S1x64x64 ![3, 0, 0] y h (ix3 0 q k) = y (ix3 3 q k) := by
  refine extractStridedSlice_apply _ y _ _ (ix3 3 q k) ?_
  intro a
  match a with
  | ⟨0, _⟩ => rfl
  | ⟨1, _⟩ => show _ = 0 + q.val; simp
  | ⟨2, _⟩ => show _ = 0 + k.val; simp

/-- Layer 3's 64×3 block of a stack of five. -/
theorem ly3_64x3 {α : Type} (y : S5x64x3.Idx → α) (h : S5x64x3.Slices ![3, 0, 0] S1x64x3) (q : Fin 64) (k : Fin 3) :
    extractStridedSlice S1x64x3 ![3, 0, 0] y h (ix3 0 q k) = y (ix3 3 q k) := by
  refine extractStridedSlice_apply _ y _ _ (ix3 3 q k) ?_
  intro a
  match a with
  | ⟨0, _⟩ => rfl
  | ⟨1, _⟩ => show _ = 0 + q.val; simp
  | ⟨2, _⟩ => show _ = 0 + k.val; simp

/-- Layer 3's row of the five biases. -/
theorem ly3_64 {α : Type} (y : S5x64.Idx → α) (h : S5x64.Slices ![3, 0] S1x64) (q : Fin 64) :
    extractStridedSlice S1x64 ![3, 0] y h (ix2 0 q) = y (ix2 3 q) := by
  refine extractStridedSlice_apply _ y _ _ (ix2 3 q) ?_
  intro a
  match a with
  | ⟨0, _⟩ => rfl
  | ⟨1, _⟩ => show _ = 0 + q.val; simp

/-- Layer 3's edge weight, node part, read at an entry. -/
theorem w1a_read_3 (x7 : (⟨S5x64x67, .f32⟩ : BufTy).Contents (Elt Ideal)) (h1 : S5x64x67.Slices ![0, 0, 0] S5x64x64) (h2 : S5x64x64.Slices ![3, 0, 0] S1x64x64) (h3 : S1x64x64.ShapeCasts S64x64) (q k : Fin 64) :
    shapeCast S64x64 (extractStridedSlice S1x64x64 ![3, 0, 0] (extractStridedSlice S5x64x64 ![0, 0, 0] x7 h1) h2) h3 (ix2 q k)
      = x7 (ix3 3 q ⟨k.val, by have := k.isLt; omega⟩) :=
  (rs_64x64 _ h3 q k).trans ((ly3_64x64 _ h2 q k).trans (sl7a x7 h1 3 q k))

/-- Layer 3's edge weight, edge-feature part, read at an entry. -/
theorem w1b_read_3 (x7 : (⟨S5x64x67, .f32⟩ : BufTy).Contents (Elt Ideal)) (h1 : S5x64x67.Slices ![0, 0, 64] S5x64x3) (h2 : S5x64x3.Slices ![3, 0, 0] S1x64x3) (h3 : S1x64x3.ShapeCasts S64x3) (q : Fin 64) (k : Fin 3) :
    shapeCast S64x3 (extractStridedSlice S1x64x3 ![3, 0, 0] (extractStridedSlice S5x64x3 ![0, 0, 64] x7 h1) h2) h3 (ix2 q k)
      = x7 (ix3 3 q ⟨64 + k.val, by have := k.isLt; omega⟩) :=
  (rs_64x3 _ h3 q k).trans ((ly3_64x3 _ h2 q k).trans (sl7b x7 h1 3 q k))

/-- Layer 3's node weight, own-feature half, read at an entry. -/
theorem w2a_read_3 (x8 : (⟨S5x64x128, .f32⟩ : BufTy).Contents (Elt Ideal)) (h1 : S5x64x128.Slices ![0, 0, 0] S5x64x64) (h2 : S5x64x64.Slices ![3, 0, 0] S1x64x64) (h3 : S1x64x64.ShapeCasts S64x64) (q k : Fin 64) :
    shapeCast S64x64 (extractStridedSlice S1x64x64 ![3, 0, 0] (extractStridedSlice S5x64x64 ![0, 0, 0] x8 h1) h2) h3 (ix2 q k)
      = x8 (ix3 3 q ⟨k.val, by have := k.isLt; omega⟩) :=
  (rs_64x64 _ h3 q k).trans ((ly3_64x64 _ h2 q k).trans (sl8a x8 h1 3 q k))

/-- Layer 3's node weight, mailbox half, read at an entry. -/
theorem w2b_read_3 (x8 : (⟨S5x64x128, .f32⟩ : BufTy).Contents (Elt Ideal)) (h1 : S5x64x128.Slices ![0, 0, 64] S5x64x64) (h2 : S5x64x64.Slices ![3, 0, 0] S1x64x64) (h3 : S1x64x64.ShapeCasts S64x64) (q k : Fin 64) :
    shapeCast S64x64 (extractStridedSlice S1x64x64 ![3, 0, 0] (extractStridedSlice S5x64x64 ![0, 0, 64] x8 h1) h2) h3 (ix2 q k)
      = x8 (ix3 3 q ⟨64 + k.val, by have := k.isLt; omega⟩) :=
  (rs_64x64 _ h3 q k).trans ((ly3_64x64 _ h2 q k).trans (sl8b x8 h1 3 q k))

/-- Layer 3's node bias read at an entry. -/
theorem b2_read_3 (x9 : (⟨S5x64, .f32⟩ : BufTy).Contents (Elt Ideal)) (h1 : S5x64.Slices ![3, 0] S1x64) (h2 : S1x64.ShapeCasts S64) (h3 : S64.ShapeCasts S1x64) (q : Fin 64) :
    shapeCast S1x64 (shapeCast S64 (extractStridedSlice S1x64 ![3, 0] x9 h1) h2) h3 (ix2 0 q)
      = x9 (ix2 3 q) :=
  (rs_64_1x64 _ h3 q).trans ((rs_1x64_64 _ h2 q).trans (ly3_64 x9 h1 q))

/-! ### Layer 4 -/

/-- Layer 4's 64×64 block of a stack of five. -/
theorem ly4_64x64 {α : Type} (y : S5x64x64.Idx → α) (h : S5x64x64.Slices ![4, 0, 0] S1x64x64) (q k : Fin 64) :
    extractStridedSlice S1x64x64 ![4, 0, 0] y h (ix3 0 q k) = y (ix3 4 q k) := by
  refine extractStridedSlice_apply _ y _ _ (ix3 4 q k) ?_
  intro a
  match a with
  | ⟨0, _⟩ => rfl
  | ⟨1, _⟩ => show _ = 0 + q.val; simp
  | ⟨2, _⟩ => show _ = 0 + k.val; simp

/-- Layer 4's 64×3 block of a stack of five. -/
theorem ly4_64x3 {α : Type} (y : S5x64x3.Idx → α) (h : S5x64x3.Slices ![4, 0, 0] S1x64x3) (q : Fin 64) (k : Fin 3) :
    extractStridedSlice S1x64x3 ![4, 0, 0] y h (ix3 0 q k) = y (ix3 4 q k) := by
  refine extractStridedSlice_apply _ y _ _ (ix3 4 q k) ?_
  intro a
  match a with
  | ⟨0, _⟩ => rfl
  | ⟨1, _⟩ => show _ = 0 + q.val; simp
  | ⟨2, _⟩ => show _ = 0 + k.val; simp

/-- Layer 4's row of the five biases. -/
theorem ly4_64 {α : Type} (y : S5x64.Idx → α) (h : S5x64.Slices ![4, 0] S1x64) (q : Fin 64) :
    extractStridedSlice S1x64 ![4, 0] y h (ix2 0 q) = y (ix2 4 q) := by
  refine extractStridedSlice_apply _ y _ _ (ix2 4 q) ?_
  intro a
  match a with
  | ⟨0, _⟩ => rfl
  | ⟨1, _⟩ => show _ = 0 + q.val; simp

/-- Layer 4's edge weight, node part, read at an entry. -/
theorem w1a_read_4 (x7 : (⟨S5x64x67, .f32⟩ : BufTy).Contents (Elt Ideal)) (h1 : S5x64x67.Slices ![0, 0, 0] S5x64x64) (h2 : S5x64x64.Slices ![4, 0, 0] S1x64x64) (h3 : S1x64x64.ShapeCasts S64x64) (q k : Fin 64) :
    shapeCast S64x64 (extractStridedSlice S1x64x64 ![4, 0, 0] (extractStridedSlice S5x64x64 ![0, 0, 0] x7 h1) h2) h3 (ix2 q k)
      = x7 (ix3 4 q ⟨k.val, by have := k.isLt; omega⟩) :=
  (rs_64x64 _ h3 q k).trans ((ly4_64x64 _ h2 q k).trans (sl7a x7 h1 4 q k))

/-- Layer 4's edge weight, edge-feature part, read at an entry. -/
theorem w1b_read_4 (x7 : (⟨S5x64x67, .f32⟩ : BufTy).Contents (Elt Ideal)) (h1 : S5x64x67.Slices ![0, 0, 64] S5x64x3) (h2 : S5x64x3.Slices ![4, 0, 0] S1x64x3) (h3 : S1x64x3.ShapeCasts S64x3) (q : Fin 64) (k : Fin 3) :
    shapeCast S64x3 (extractStridedSlice S1x64x3 ![4, 0, 0] (extractStridedSlice S5x64x3 ![0, 0, 64] x7 h1) h2) h3 (ix2 q k)
      = x7 (ix3 4 q ⟨64 + k.val, by have := k.isLt; omega⟩) :=
  (rs_64x3 _ h3 q k).trans ((ly4_64x3 _ h2 q k).trans (sl7b x7 h1 4 q k))

/-- Layer 4's node weight, own-feature half, read at an entry. -/
theorem w2a_read_4 (x8 : (⟨S5x64x128, .f32⟩ : BufTy).Contents (Elt Ideal)) (h1 : S5x64x128.Slices ![0, 0, 0] S5x64x64) (h2 : S5x64x64.Slices ![4, 0, 0] S1x64x64) (h3 : S1x64x64.ShapeCasts S64x64) (q k : Fin 64) :
    shapeCast S64x64 (extractStridedSlice S1x64x64 ![4, 0, 0] (extractStridedSlice S5x64x64 ![0, 0, 0] x8 h1) h2) h3 (ix2 q k)
      = x8 (ix3 4 q ⟨k.val, by have := k.isLt; omega⟩) :=
  (rs_64x64 _ h3 q k).trans ((ly4_64x64 _ h2 q k).trans (sl8a x8 h1 4 q k))

/-- Layer 4's node weight, mailbox half, read at an entry. -/
theorem w2b_read_4 (x8 : (⟨S5x64x128, .f32⟩ : BufTy).Contents (Elt Ideal)) (h1 : S5x64x128.Slices ![0, 0, 64] S5x64x64) (h2 : S5x64x64.Slices ![4, 0, 0] S1x64x64) (h3 : S1x64x64.ShapeCasts S64x64) (q k : Fin 64) :
    shapeCast S64x64 (extractStridedSlice S1x64x64 ![4, 0, 0] (extractStridedSlice S5x64x64 ![0, 0, 64] x8 h1) h2) h3 (ix2 q k)
      = x8 (ix3 4 q ⟨64 + k.val, by have := k.isLt; omega⟩) :=
  (rs_64x64 _ h3 q k).trans ((ly4_64x64 _ h2 q k).trans (sl8b x8 h1 4 q k))

/-- Layer 4's node bias read at an entry. -/
theorem b2_read_4 (x9 : (⟨S5x64, .f32⟩ : BufTy).Contents (Elt Ideal)) (h1 : S5x64.Slices ![4, 0] S1x64) (h2 : S1x64.ShapeCasts S64) (h3 : S64.ShapeCasts S1x64) (q : Fin 64) :
    shapeCast S1x64 (shapeCast S64 (extractStridedSlice S1x64 ![4, 0] x9 h1) h2) h3 (ix2 0 q)
      = x9 (ix2 4 q) :=
  (rs_64_1x64 _ h3 q).trans ((rs_1x64_64 _ h2 q).trans (ly4_64 x9 h1 q))

/-! ### The head's biases -/

/-- The hidden layer's bias read at an entry. -/
theorem bl1_read (x11 : (⟨S64, .f32⟩ : BufTy).Contents (Elt Ideal)) (h : S64.ShapeCasts S1x64) (q : Fin 64) :
    shapeCast S1x64 x11 h (ix2 0 q) = x11 (ix1 q) := rs_64_1x64 x11 h q

/-- The class bias read at an entry. -/
theorem bl2_read (x13 : (⟨S32, .f32⟩ : BufTy).Contents (Elt Ideal)) (h : S32.ShapeCasts S1x32) (q : Fin 32) :
    shapeCast S1x32 x13 h (ix2 0 q) = x13 (ix1 q) := rs_32_1x32 x13 h q

/-! ### The edge features -/

/-- A vector made a column: entry `e` of the column is entry `e` of the vector. -/
theorem col_read {α : Type} (x : S800000.Idx → α) (h : S800000.BroadcastsInDim S800000x1 (![0] : Fin 1 → Fin S800000x1.rank)) (e : Fin 800000) :
    broadcastInDim S800000x1 ![0] h x (ix2 e 0) = x (ix1 e) := by
  refine broadcastInDim_apply _ h x _ (ix1 e) ?_
  intro a
  match a with
  | ⟨0, _⟩ => rfl

/-- Column 0 of three unit-width columns joined side by side is the first column. -/
theorem cat3_0 {α : Type} (u0 u1 u2 : S800000x1.Idx → α) (h : Shape.Concatenates [S800000x1, S800000x1, S800000x1] S800000x3 1) (e : Fin 800000) :
    concatenate S800000x3 1 [⟨S800000x1, u0⟩, ⟨S800000x1, u1⟩, ⟨S800000x1, u2⟩] h (ix2 e 0) = u0 (ix2 e 0) := by
  refine concatenate_apply_piece (t := S800000x3) 1 [⟨S800000x1, u0⟩, ⟨S800000x1, u1⟩, ⟨S800000x1, u2⟩] h (ix2 e 0) 0 (by simp) S800000x1 u0 rfl rfl 0 rfl (ix2 e 0) ?_ rfl
  intro b hb
  match b with
  | ⟨0, _⟩ => rfl
  | ⟨1, _⟩ => exact absurd rfl hb

/-- Column 1 of three unit-width columns joined side by side is the second column. -/
theorem cat3_1 {α : Type} (u0 u1 u2 : S800000x1.Idx → α) (h : Shape.Concatenates [S800000x1, S800000x1, S800000x1] S800000x3 1) (e : Fin 800000) :
    concatenate S800000x3 1 [⟨S800000x1, u0⟩, ⟨S800000x1, u1⟩, ⟨S800000x1, u2⟩] h (ix2 e 1) = u1 (ix2 e 0) := by
  refine concatenate_apply_piece (t := S800000x3) 1 [⟨S800000x1, u0⟩, ⟨S800000x1, u1⟩, ⟨S800000x1, u2⟩] h (ix2 e 1) 1 (by simp) S800000x1 u1 rfl rfl 1 rfl (ix2 e 0) ?_ rfl
  intro b hb
  match b with
  | ⟨0, _⟩ => rfl
  | ⟨1, _⟩ => exact absurd rfl hb

/-- Column 2 of three unit-width columns joined side by side is the third column. -/
theorem cat3_2 {α : Type} (u0 u1 u2 : S800000x1.Idx → α) (h : Shape.Concatenates [S800000x1, S800000x1, S800000x1] S800000x3 1) (e : Fin 800000) :
    concatenate S800000x3 1 [⟨S800000x1, u0⟩, ⟨S800000x1, u1⟩, ⟨S800000x1, u2⟩] h (ix2 e 2) = u2 (ix2 e 0) := by
  refine concatenate_apply_piece (t := S800000x3) 1 [⟨S800000x1, u0⟩, ⟨S800000x1, u1⟩, ⟨S800000x1, u2⟩] h (ix2 e 2) 2 (by simp) S800000x1 u2 rfl rfl 2 rfl (ix2 e 0) ?_ rfl
  intro b hb
  match b with
  | ⟨0, _⟩ => rfl
  | ⟨1, _⟩ => exact absurd rfl hb

/-- Edge `e`'s feature 0 is entry `e` of the first feature vector. -/
theorem feat_read_0 (x3 x4 x5 : (⟨S800000, .f32⟩ : BufTy).Contents (Elt Ideal)) (hb : S800000.BroadcastsInDim S800000x1 (![0] : Fin 1 → Fin S800000x1.rank))
    (hc : Shape.Concatenates [S800000x1, S800000x1, S800000x1] S800000x3 1) (e : Fin 800000) :
    concatenate S800000x3 1 [⟨S800000x1, broadcastInDim S800000x1 ![0] hb x3⟩, ⟨S800000x1, broadcastInDim S800000x1 ![0] hb x4⟩, ⟨S800000x1, broadcastInDim S800000x1 ![0] hb x5⟩] hc (ix2 e 0)
      = x3 (ix1 e) :=
  (cat3_0 _ _ _ hc e).trans (col_read _ hb e)

/-- Edge `e`'s feature 1 is entry `e` of the second feature vector. -/
theorem feat_read_1 (x3 x4 x5 : (⟨S800000, .f32⟩ : BufTy).Contents (Elt Ideal)) (hb : S800000.BroadcastsInDim S800000x1 (![0] : Fin 1 → Fin S800000x1.rank))
    (hc : Shape.Concatenates [S800000x1, S800000x1, S800000x1] S800000x3 1) (e : Fin 800000) :
    concatenate S800000x3 1 [⟨S800000x1, broadcastInDim S800000x1 ![0] hb x3⟩, ⟨S800000x1, broadcastInDim S800000x1 ![0] hb x4⟩, ⟨S800000x1, broadcastInDim S800000x1 ![0] hb x5⟩] hc (ix2 e 1)
      = x4 (ix1 e) :=
  (cat3_1 _ _ _ hc e).trans (col_read _ hb e)

/-- Edge `e`'s feature 2 is entry `e` of the third feature vector. -/
theorem feat_read_2 (x3 x4 x5 : (⟨S800000, .f32⟩ : BufTy).Contents (Elt Ideal)) (hb : S800000.BroadcastsInDim S800000x1 (![0] : Fin 1 → Fin S800000x1.rank))
    (hc : Shape.Concatenates [S800000x1, S800000x1, S800000x1] S800000x3 1) (e : Fin 800000) :
    concatenate S800000x3 1 [⟨S800000x1, broadcastInDim S800000x1 ![0] hb x3⟩, ⟨S800000x1, broadcastInDim S800000x1 ![0] hb x4⟩, ⟨S800000x1, broadcastInDim S800000x1 ![0] hb x5⟩] hc (ix2 e 2)
      = x5 (ix1 e) :=
  (cat3_2 _ _ _ hc e).trans (col_read _ hb e)

end Cert.Net.Glue
end
-- ==== Proof.KRead0.lean ====
/-
  The kernel program's first host stretch read at the ideal values: what it leaves in the buffers the regions take,
  as the reference's stage functions of the arguments where the operations are the same, and the weight and bias
  operands at an index.
-/
import proofs.«149571_j25649544692292_2_alg».proof.Proof.Gen.KernelIdeal.Regions
import proofs.«149571_j25649544692292_2_alg».proof.Proof.RefReadP
import proofs.«149571_j25649544692292_2_alg».proof.Proof.GlueRead
import Idealize.ShloMosaic.Lib.Pipeline.Value
import Idealize.ShloMosaic.Lib.ValueIdx
import Idealize.ShloMosaic.PureOps.Ideal.Laws

set_option maxRecDepth 1656

noncomputable section

namespace Cert.Net.KRead

open Cert.KernelIdeal Cert.KernelIdeal.Gen Idealize.ShloMosaic Idealize.ShloMosaic.ValueIdx Idealize.ShloMosaic.TcCoe
open scoped BigOperators

variable (m : (ℓ : Loc nD τ sig) → Buf (Elt Ideal) ℓ) (outs : Outs (F := Ideal)) (c : Dev nD)

/-- Argument 0 of the program on core `c`, as launched. -/
abbrev x0 : S100000.Idx → BitVec 32 := m ((c.tc : Thread nD τ).loc main_arg0)
/-- Argument 1 of the program on core `c`, as launched. -/
abbrev x1 : S800000.Idx → BitVec 32 := m ((c.tc : Thread nD τ).loc main_arg1)
/-- Argument 2 of the program on core `c`, as launched. -/
abbrev x2 : S800000.Idx → BitVec 32 := m ((c.tc : Thread nD τ).loc main_arg2)
/-- Argument 3 of the program on core `c`, as launched. -/
abbrev x3 : S800000.Idx → EReal := m ((c.tc : Thread nD τ).loc main_arg3)
/-- Argument 4 of the program on core `c`, as launched. -/
abbrev x4 : S800000.Idx → EReal := m ((c.tc : Thread nD τ).loc main_arg4)
/-- Argument 5 of the program on core `c`, as launched. -/
abbrev x5 : S800000.Idx → EReal := m ((c.tc : Thread nD τ).loc main_arg5)
/-- Argument 6 of the program on core `c`, as launched. -/
abbrev x6 : S64x64.Idx → EReal := m ((c.tc : Thread nD τ).loc main_arg6)
/-- Argument 7 of the program on core `c`, as launched. -/
abbrev x7 : S5x64x67.Idx → EReal := m ((c.tc : Thread nD τ).loc main_arg7)
/-- Argument 8 of the program on core `c`, as launched. -/
abbrev x8 : S5x64x128.Idx → EReal := m ((c.tc : Thread nD τ).loc main_arg8)
/-- Argument 9 of the program on core `c`, as launched. -/
abbrev x9 : S5x64.Idx → EReal := m ((c.tc : Thread nD τ).loc main_arg9)
/-- Argument 10 of the program on core `c`, as launched. -/
abbrev x10 : S64x64.Idx → EReal := m ((c.tc : Thread nD τ).loc main_arg10)
/-- Argument 11 of the program on core `c`, as launched. -/
abbrev x11 : S64.Idx → EReal := m ((c.tc : Thread nD τ).loc main_arg11)
/-- Argument 12 of the program on core `c`, as launched. -/
abbrev x12 : S32x64.Idx → EReal := m ((c.tc : Thread nD τ).loc main_arg12)
/-- Argument 13 of the program on core `c`, as launched. -/
abbrev x13 : S32.Idx → EReal := m ((c.tc : Thread nD τ).loc main_arg13)

/-! ## The shape records of the two programs are the same -/

theorem gdim1 : gather_S64x64_S100000x1_S100000x64_1_0_n_n_0_1_164 = Cert.ReferenceIdeal.gather_S64x64_S100000x1_S100000x64_1_0_n_n_0_1_164 := rfl
theorem gdim2 : gather_S100000x64_S800000x1_S800000x64_1_0_n_n_0_1_164 = Cert.ReferenceIdeal.gather_S100000x64_S800000x1_S800000x64_1_0_n_n_0_1_164 := rfl
theorem sdim2 : scatter_S100000x64_S800000x1_S800000x64_1_0_0_1 = Cert.ReferenceIdeal.scatter_S100000x64_S800000x1_S800000x64_1_0_0_1 := rfl

/-- A narrowing format change is the identity on extended reals. -/
theorem trunc_id {s : Shape} (a : FVec Ideal s .f32) (h : FTy.bits .bf16 < FTy.bits .f32) : (truncf .bf16 a h : s.Idx → EReal) = a :=
  funext fun i => truncf_apply a h i
/-- A widening format change is the identity on extended reals. -/
theorem ext_id {s : Shape} (a : FVec Ideal s .bf16) (h : FTy.bits .bf16 < FTy.bits .f32) : (extf .f32 a h : s.Idx → EReal) = a :=
  funext fun i => extf_apply a h i

/-! ## What the first host stretch leaves, as the reference's stage functions of the arguments -/

/-- The edge features: the three feature vectors side by side. -/
theorem v3_read :
    (V1 m c main_v3 : S800000x3.Idx → EReal) = Cert.ReferenceIdeal.Read.val_main_v3 (F := Ideal) (x3 m c) (x4 m c) (x5 m c) := by
  dsimp only [V1, V0, hostOps0]
  after_results_simp <;> rfl

/-- The reciprocal in-degree column. -/
theorem v12_read :
    (V1 m c main_v12 : S100000x1.Idx → EReal) = Cert.ReferenceIdeal.Read.val_main_v12 (F := Ideal) (x2 m c) := by
  dsimp only [V1, V0, hostOps0]
  after_results_simp <;> rfl

set_option maxHeartbeats 1600000 in
/-- The embedded node features. -/
theorem v20_read :
    (V1 m c main_v20 : S100000x64.Idx → EReal) = Cert.ReferenceIdeal.Read.val_main_v19 (F := Ideal) (x0 m c) (x6 m c) := by
  have e : (V1 m c main_v20 : S100000x64.Idx → EReal) = (truncf (F := Ideal) .bf16 (Host.gather gather_S64x64_S100000x1_S100000x64_1_0_n_n_0_1_164 (x6 m c) (broadcastInDim S100000x1 ![0] bcast_S100000_S100000x1_0 (select (cmpi .slt (x0 m c) (broadcastInDim S100000 ![] bcast_S_S100000 (constantI S_ 32 0#32))) (addi (x0 m c) (broadcastInDim S100000 ![] bcast_S_S100000 (constantI S_ 32 64#32))) (x0 m c)))) bitsLt_bf16_f32) := by
    dsimp only [V1, V0, hostOps0]
    after_results_simp <;> rfl
  have hi : (broadcastInDim S100000x1 ![0] bcast_S100000_S100000x1_0 (select (cmpi .slt (x0 m c) (broadcastInDim S100000 ![] bcast_S_S100000 (constantI S_ 32 0#32))) (addi (x0 m c) (broadcastInDim S100000 ![] bcast_S_S100000 (constantI S_ 32 64#32))) (x0 m c))) = Cert.ReferenceIdeal.Read.val_main_v18 (F := Ideal) (x0 m c) := rfl
  rw [e, trunc_id, hi, gdim1]
  rfl

set_option maxHeartbeats 1600000 in
/-- Layer 0's gathered source features. -/
theorem v33_read :
    (V1 m c main_v33 : S800000x64.Idx → EReal) = Cert.ReferenceIdeal.Read.val_main_v26 (F := Ideal) (x0 m c) (x1 m c) (x6 m c) := by
  have e : (V1 m c main_v33 : S800000x64.Idx → EReal) = (Host.gather gather_S100000x64_S800000x1_S800000x64_1_0_n_n_0_1_164 (truncf (F := Ideal) .bf16 (Host.gather gather_S64x64_S100000x1_S100000x64_1_0_n_n_0_1_164 (x6 m c) (broadcastInDim S100000x1 ![0] bcast_S100000_S100000x1_0 (select (cmpi .slt (x0 m c) (broadcastInDim S100000 ![] bcast_S_S100000 (constantI S_ 32 0#32))) (addi (x0 m c) (broadcastInDim S100000 ![] bcast_S_S100000 (constantI S_ 32 64#32))) (x0 m c)))) bitsLt_bf16_f32) (broadcastInDim S800000x1 ![0] bcast_S800000_S800000x1_0 (select (cmpi .slt (x1 m c) (broadcastInDim S800000 ![] bcast_S_S800000 (constantI S_ 32 0#32))) (addi (x1 m c) (broadcastInDim S800000 ![] bcast_S_S800000 (constantI S_ 32 100000#32))) (x1 m c)))) := by
    dsimp only [V1, V0, hostOps0]
    after_results_simp <;> rfl
  have hi0 : (broadcastInDim S100000x1 ![0] bcast_S100000_S100000x1_0 (select (cmpi .slt (x0 m c) (broadcastInDim S100000 ![] bcast_S_S100000 (constantI S_ 32 0#32))) (addi (x0 m c) (broadcastInDim S100000 ![] bcast_S_S100000 (constantI S_ 32 64#32))) (x0 m c))) = Cert.ReferenceIdeal.Read.val_main_v18 (F := Ideal) (x0 m c) := rfl
  have hi1 : (broadcastInDim S800000x1 ![0] bcast_S800000_S800000x1_0 (select (cmpi .slt (x1 m c) (broadcastInDim S800000 ![] bcast_S_S800000 (constantI S_ 32 0#32))) (addi (x1 m c) (broadcastInDim S800000 ![] bcast_S_S800000 (constantI S_ 32 100000#32))) (x1 m c))) = Cert.ReferenceIdeal.Read.val_main_v25 (F := Ideal) (x1 m c) := rfl
  rw [e, trunc_id, hi0, hi1, gdim1, gdim2]
  rfl

/-! ## The column blocks of the weights, for every layer -/

/-- Columns 0 … 63 of the edge weights. -/
theorem v21_term :
    (V1 m c main_v21 : S5x64x64.Idx → EReal) = (extractStridedSlice S5x64x64 ![0, 0, 0] (x7 m c) slices_S5x64x67_S5x64x64_0_0_0) := by
  dsimp only [V1, V0, hostOps0]
  after_results_simp <;> rfl

/-- Columns 64 … 66 of the edge weights. -/
theorem v22_term :
    (V1 m c main_v22 : S5x64x3.Idx → EReal) = (extractStridedSlice S5x64x3 ![0, 0, 64] (x7 m c) slices_S5x64x67_S5x64x3_0_0_64) := by
  dsimp only [V1, V0, hostOps0]
  after_results_simp <;> rfl

/-- Columns 0 … 63 of the node weights. -/
theorem v23_term :
    (V1 m c main_v23 : S5x64x64.Idx → EReal) = (extractStridedSlice S5x64x64 ![0, 0, 0] (x8 m c) slices_S5x64x128_S5x64x64_0_0_0) := by
  dsimp only [V1, V0, hostOps0]
  after_results_simp <;> rfl

/-- Columns 64 … 127 of the node weights. -/
theorem v24_term :
    (V1 m c main_v24 : S5x64x64.Idx → EReal) = (extractStridedSlice S5x64x64 ![0, 0, 64] (x8 m c) slices_S5x64x128_S5x64x64_0_0_64) := by
  dsimp only [V1, V0, hostOps0]
  after_results_simp <;> rfl

/-! ## The head's biases and layer 0's edge weights at an index -/

/-- The hidden layer's bias as a row. -/
theorem v25_read (j : Fin 64) : (V1 m c main_v25 : S1x64.Idx → EReal) (ix2 0 j) = x11 m c (ix1 j) := by
  have e : (V1 m c main_v25 : S1x64.Idx → EReal) = (shapeCast S1x64 (x11 m c) shapeCasts_S64_S1x64) := by
    dsimp only [V1, V0, hostOps0]
    after_results_simp <;> rfl
  rw [e]
  exact Cert.Net.Glue.bl1_read (x11 m c) _ j

/-- The class bias as a row. -/
theorem v26_read (q : Fin 32) : (V1 m c main_v26 : S1x32.Idx → EReal) (ix2 0 q) = x13 m c (ix1 q) := by
  have e : (V1 m c main_v26 : S1x32.Idx → EReal) = (shapeCast S1x32 (x13 m c) shapeCasts_S32_S1x32) := by
    dsimp only [V1, V0, hostOps0]
    after_results_simp <;> rfl
  rw [e]
  exact Cert.Net.Glue.bl2_read (x13 m c) _ q

/-- Layer 0's edge weights, columns 0 … 63. -/
theorem v35_read (q k : Fin 64) : (V1 m c main_v35 : S64x64.Idx → EReal) (ix2 q k) = x7 m c (ix3 0 q ⟨k.val, by omega⟩) := by
  have e : (V1 m c main_v35 : S64x64.Idx → EReal) = (shapeCast S64x64 (extractStridedSlice S1x64x64 ![0, 0, 0] (extractStridedSlice S5x64x64 ![0, 0, 0] (x7 m c) slices_S5x64x67_S5x64x64_0_0_0) slices_S5x64x64_S1x64x64_0_0_0) shapeCasts_S1x64x64_S64x64) := by
    dsimp only [V1, V0, hostOps0]
    after_results_simp <;> rfl
  rw [e]
  exact Cert.Net.Glue.w1a_read_0 (x7 m c) _ _ _ q k

/-- Layer 0's edge weights, columns 64 … 66. -/
theorem v37_read (q : Fin 64) (k : Fin 3) : (V1 m c main_v37 : S64x3.Idx → EReal) (ix2 q k) = x7 m c (ix3 0 q ⟨64 + k.val, by omega⟩) := by
  have e : (V1 m c main_v37 : S64x3.Idx → EReal) = (shapeCast S64x3 (extractStridedSlice S1x64x3 ![0, 0, 0] (extractStridedSlice S5x64x3 ![0, 0, 64] (x7 m c) slices_S5x64x67_S5x64x3_0_0_64) slices_S5x64x3_S1x64x3_0_0_0) shapeCasts_S1x64x3_S64x3) := by
    dsimp only [V1, V0, hostOps0]
    after_results_simp <;> rfl
  rw [e]
  exact Cert.Net.Glue.w1b_read_0 (x7 m c) _ _ _ q k

end Cert.Net.KRead

end
-- ==== Proof.KReadW.lean ====
/-
  The kernel program's buffers between its items: a buffer no later item writes still holds what the first host
  stretch left (or, for a region's output, what the region left), read at the entry of every later region and
  before every later host stretch.
-/
import proofs.«149571_j25649544692292_2_alg».proof.Proof.Gen.KernelIdeal.Regions
import proofs.«149571_j25649544692292_2_alg».proof.Proof.RefReadP
import proofs.«149571_j25649544692292_2_alg».proof.Proof.GlueRead
import proofs.«149571_j25649544692292_2_alg».proof.Proof.KRead0
import Idealize.ShloMosaic.Lib.Pipeline.Value
import Idealize.ShloMosaic.Lib.ValueIdx
import Idealize.ShloMosaic.PureOps.Ideal.Laws

set_option maxRecDepth 1656

noncomputable section

namespace Cert.Net.KRead

open Cert.KernelIdeal Cert.KernelIdeal.Gen Idealize.ShloMosaic Idealize.ShloMosaic.ValueIdx Idealize.ShloMosaic.TcCoe
open scoped BigOperators

variable (m : (ℓ : Loc nD τ sig) → Buf (Elt Ideal) ℓ) (outs : Outs (F := Ideal)) (c : Dev nD)

/-! ## Buffers the first stretch wrote, unchanged at the later regions -/

/-- The edge features when the edge region of layer 1 is entered. -/
theorem v3_at5 : (V5 m outs c main_v3 : S800000x3.Idx → EReal) = Cert.ReferenceIdeal.Read.val_main_v3 (F := Ideal) (x3 m c) (x4 m c) (x5 m c) :=
  ((V5_of m outs c main_v3 (by decide)).trans ((V4_of m outs c main_v3 (by decide)).trans ((V3_of m outs c main_v3 (by decide)).trans (V2_of m outs c main_v3 (by decide))))).trans (v3_read m c)

/-- The edge features when the edge region of layer 2 is entered. -/
theorem v3_at9 : (V9 m outs c main_v3 : S800000x3.Idx → EReal) = Cert.ReferenceIdeal.Read.val_main_v3 (F := Ideal) (x3 m c) (x4 m c) (x5 m c) :=
  ((V9_of m outs c main_v3 (by decide)).trans ((V8_of m outs c main_v3 (by decide)).trans ((V7_of m outs c main_v3 (by decide)).trans ((V6_of m outs c main_v3 (by decide)).trans ((V5_of m outs c main_v3 (by decide)).trans ((V4_of m outs c main_v3 (by decide)).trans ((V3_of m outs c main_v3 (by decide)).trans (V2_of m outs c main_v3 (by decide))))))))).trans (v3_read m c)

/-- The edge features when the edge region of layer 3 is entered. -/
theorem v3_at13 : (V13 m outs c main_v3 : S800000x3.Idx → EReal) = Cert.ReferenceIdeal.Read.val_main_v3 (F := Ideal) (x3 m c) (x4 m c) (x5 m c) :=
  ((V13_of m outs c main_v3 (by decide)).trans ((V12_of m outs c main_v3 (by decide)).trans ((V11_of m outs c main_v3 (by decide)).trans ((V10_of m outs c main_v3 (by decide)).trans ((V9_of m outs c main_v3 (by decide)).trans ((V8_of m outs c main_v3 (by decide)).trans ((V7_of m outs c main_v3 (by decide)).trans ((V6_of m outs c main_v3 (by decide)).trans ((V5_of m outs c main_v3 (by decide)).trans ((V4_of m outs c main_v3 (by decide)).trans ((V3_of m outs c main_v3 (by decide)).trans (V2_of m outs c main_v3 (by decide))))))))))))).trans (v3_read m c)

/-- The edge features when the edge region of layer 4 is entered. -/
theorem v3_at17 : (V17 m outs c main_v3 : S800000x3.Idx → EReal) = Cert.ReferenceIdeal.Read.val_main_v3 (F := Ideal) (x3 m c) (x4 m c) (x5 m c) :=
  ((V17_of m outs c main_v3 (by decide)).trans ((V16_of m outs c main_v3 (by decide)).trans ((V15_of m outs c main_v3 (by decide)).trans ((V14_of m outs c main_v3 (by decide)).trans ((V13_of m outs c main_v3 (by decide)).trans ((V12_of m outs c main_v3 (by decide)).trans ((V11_of m outs c main_v3 (by decide)).trans ((V10_of m outs c main_v3 (by decide)).trans ((V9_of m outs c main_v3 (by decide)).trans ((V8_of m outs c main_v3 (by decide)).trans ((V7_of m outs c main_v3 (by decide)).trans ((V6_of m outs c main_v3 (by decide)).trans ((V5_of m outs c main_v3 (by decide)).trans ((V4_of m outs c main_v3 (by decide)).trans ((V3_of m outs c main_v3 (by decide)).trans (V2_of m outs c main_v3 (by decide))))))))))))))))).trans (v3_read m c)

/-- The reciprocal in-degree column when the node region of layer 0 is entered. -/
theorem v12_at3 : (V3 m outs c main_v12 : S100000x1.Idx → EReal) = Cert.ReferenceIdeal.Read.val_main_v12 (F := Ideal) (x2 m c) :=
  ((V3_of m outs c main_v12 (by decide)).trans (V2_of m outs c main_v12 (by decide))).trans (v12_read m c)

/-- The reciprocal in-degree column when the node region of layer 1 is entered. -/
theorem v12_at7 : (V7 m outs c main_v12 : S100000x1.Idx → EReal) = Cert.ReferenceIdeal.Read.val_main_v12 (F := Ideal) (x2 m c) :=
  ((V7_of m outs c main_v12 (by decide)).trans ((V6_of m outs c main_v12 (by decide)).trans ((V5_of m outs c main_v12 (by decide)).trans ((V4_of m outs c main_v12 (by decide)).trans ((V3_of m outs c main_v12 (by decide)).trans (V2_of m outs c main_v12 (by decide))))))).trans (v12_read m c)

/-- The reciprocal in-degree column when the node region of layer 2 is entered. -/
theorem v12_at11 : (V11 m outs c main_v12 : S100000x1.Idx → EReal) = Cert.ReferenceIdeal.Read.val_main_v12 (F := Ideal) (x2 m c) :=
  ((V11_of m outs c main_v12 (by decide)).trans ((V10_of m outs c main_v12 (by decide)).trans ((V9_of m outs c main_v12 (by decide)).trans ((V8_of m outs c main_v12 (by decide)).trans ((V7_of m outs c main_v12 (by decide)).trans ((V6_of m outs c main_v12 (by decide)).trans ((V5_of m outs c main_v12 (by decide)).trans ((V4_of m outs c main_v12 (by decide)).trans ((V3_of m outs c main_v12 (by decide)).trans (V2_of m outs c main_v12 (by decide))))))))))).trans (v12_read m c)

/-- The reciprocal in-degree column when the node region of layer 3 is entered. -/
theorem v12_at15 : (V15 m outs c main_v12 : S100000x1.Idx → EReal) = Cert.ReferenceIdeal.Read.val_main_v12 (F := Ideal) (x2 m c) :=
  ((V15_of m outs c main_v12 (by decide)).trans ((V14_of m outs c main_v12 (by decide)).trans ((V13_of m outs c main_v12 (by decide)).trans ((V12_of m outs c main_v12 (by decide)).trans ((V11_of m outs c main_v12 (by decide)).trans ((V10_of m outs c main_v12 (by decide)).trans ((V9_of m outs c main_v12 (by decide)).trans ((V8_of m outs c main_v12 (by decide)).trans ((V7_of m outs c main_v12 (by decide)).trans ((V6_of m outs c main_v12 (by decide)).trans ((V5_of m outs c main_v12 (by decide)).trans ((V4_of m outs c main_v12 (by decide)).trans ((V3_of m outs c main_v12 (by decide)).trans (V2_of m outs c main_v12 (by decide))))))))))))))).trans (v12_read m c)

/-- The reciprocal in-degree column when the node region of layer 4 is entered. -/
theorem v12_at19 : (V19 m outs c main_v12 : S100000x1.Idx → EReal) = Cert.ReferenceIdeal.Read.val_main_v12 (F := Ideal) (x2 m c) :=
  ((V19_of m outs c main_v12 (by decide)).trans ((V18_of m outs c main_v12 (by decide)).trans ((V17_of m outs c main_v12 (by decide)).trans ((V16_of m outs c main_v12 (by decide)).trans ((V15_of m outs c main_v12 (by decide)).trans ((V14_of m outs c main_v12 (by decide)).trans ((V13_of m outs c main_v12 (by decide)).trans ((V12_of m outs c main_v12 (by decide)).trans ((V11_of m outs c main_v12 (by decide)).trans ((V10_of m outs c main_v12 (by decide)).trans ((V9_of m outs c main_v12 (by decide)).trans ((V8_of m outs c main_v12 (by decide)).trans ((V7_of m outs c main_v12 (by decide)).trans ((V6_of m outs c main_v12 (by decide)).trans ((V5_of m outs c main_v12 (by decide)).trans ((V4_of m outs c main_v12 (by decide)).trans ((V3_of m outs c main_v12 (by decide)).trans (V2_of m outs c main_v12 (by decide))))))))))))))))))).trans (v12_read m c)

/-- The embedded node features when the node region of layer 0 is entered. -/
theorem v20_at3 : (V3 m outs c main_v20 : S100000x64.Idx → EReal) = Cert.ReferenceIdeal.Read.val_main_v19 (F := Ideal) (x0 m c) (x6 m c) :=
  ((V3_of m outs c main_v20 (by decide)).trans (V2_of m outs c main_v20 (by decide))).trans (v20_read m c)

/-! ## A node region's output, read again as the next node region's features -/

/-- What the node region of layer 0 left, when the node region of layer 1 is entered. -/
theorem v50_at7 : (V7 m outs c main_v50 : S100000x64.Idx → EReal) = outs 4 main_v50 c :=
  ((V7_of m outs c main_v50 (by decide)).trans ((V6_of m outs c main_v50 (by decide)).trans (V5_of m outs c main_v50 (by decide)))).trans (Function.update_self _ _ _)

/-- What the node region of layer 1 left, when the node region of layer 2 is entered. -/
theorem v74_at11 : (V11 m outs c main_v74 : S100000x64.Idx → EReal) = outs 8 main_v74 c :=
  ((V11_of m outs c main_v74 (by decide)).trans ((V10_of m outs c main_v74 (by decide)).trans (V9_of m outs c main_v74 (by decide)))).trans (Function.update_self _ _ _)

/-- What the node region of layer 2 left, when the node region of layer 3 is entered. -/
theorem v98_at15 : (V15 m outs c main_v98 : S100000x64.Idx → EReal) = outs 12 main_v98 c :=
  ((V15_of m outs c main_v98 (by decide)).trans ((V14_of m outs c main_v98 (by decide)).trans (V13_of m outs c main_v98 (by decide)))).trans (Function.update_self _ _ _)

/-- What the node region of layer 3 left, when the node region of layer 4 is entered. -/
theorem v122_at19 : (V19 m outs c main_v122 : S100000x64.Idx → EReal) = outs 16 main_v122 c :=
  ((V19_of m outs c main_v122 (by decide)).trans ((V18_of m outs c main_v122 (by decide)).trans (V17_of m outs c main_v122 (by decide)))).trans (Function.update_self _ _ _)

/-- What the last node region left, when the head region is entered. -/
theorem v146_at20 : (V20 m outs c main_v146 : S100000x64.Idx → EReal) = outs 20 main_v146 c :=
  Function.update_self _ _ _

/-! ## The head region's other operands -/

/-- The hidden layer's weights. -/
theorem arg10_at20 : (V20 m outs c main_arg10 : S64x64.Idx → EReal) = x10 m c :=
  ((V20_of m outs c main_arg10 (by decide)).trans ((V19_of m outs c main_arg10 (by decide)).trans ((V18_of m outs c main_arg10 (by decide)).trans ((V17_of m outs c main_arg10 (by decide)).trans ((V16_of m outs c main_arg10 (by decide)).trans ((V15_of m outs c main_arg10 (by decide)).trans ((V14_of m outs c main_arg10 (by decide)).trans ((V13_of m outs c main_arg10 (by decide)).trans ((V12_of m outs c main_arg10 (by decide)).trans ((V11_of m outs c main_arg10 (by decide)).trans ((V10_of m outs c main_arg10 (by decide)).trans ((V9_of m outs c main_arg10 (by decide)).trans ((V8_of m outs c main_arg10 (by decide)).trans ((V7_of m outs c main_arg10 (by decide)).trans ((V6_of m outs c main_arg10 (by decide)).trans ((V5_of m outs c main_arg10 (by decide)).trans ((V4_of m outs c main_arg10 (by decide)).trans ((V3_of m outs c main_arg10 (by decide)).trans ((V2_of m outs c main_arg10 (by decide)).trans (V1_of m c main_arg10 (by decide)))))))))))))))))))))

/-- The class weights. -/
theorem arg12_at20 : (V20 m outs c main_arg12 : S32x64.Idx → EReal) = x12 m c :=
  ((V20_of m outs c main_arg12 (by decide)).trans ((V19_of m outs c main_arg12 (by decide)).trans ((V18_of m outs c main_arg12 (by decide)).trans ((V17_of m outs c main_arg12 (by decide)).trans ((V16_of m outs c main_arg12 (by decide)).trans ((V15_of m outs c main_arg12 (by decide)).trans ((V14_of m outs c main_arg12 (by decide)).trans ((V13_of m outs c main_arg12 (by decide)).trans ((V12_of m outs c main_arg12 (by decide)).trans ((V11_of m outs c main_arg12 (by decide)).trans ((V10_of m outs c main_arg12 (by decide)).trans ((V9_of m outs c main_arg12 (by decide)).trans ((V8_of m outs c main_arg12 (by decide)).trans ((V7_of m outs c main_arg12 (by decide)).trans ((V6_of m outs c main_arg12 (by decide)).trans ((V5_of m outs c main_arg12 (by decide)).trans ((V4_of m outs c main_arg12 (by decide)).trans ((V3_of m outs c main_arg12 (by decide)).trans ((V2_of m outs c main_arg12 (by decide)).trans (V1_of m c main_arg12 (by decide)))))))))))))))))))))

/-- The hidden layer's bias row. -/
theorem v25_at20 (j : Fin 64) : (V20 m outs c main_v25 : S1x64.Idx → EReal) (ix2 0 j) = x11 m c (ix1 j) :=
  (congrFun ((V20_of m outs c main_v25 (by decide)).trans ((V19_of m outs c main_v25 (by decide)).trans ((V18_of m outs c main_v25 (by decide)).trans ((V17_of m outs c main_v25 (by decide)).trans ((V16_of m outs c main_v25 (by decide)).trans ((V15_of m outs c main_v25 (by decide)).trans ((V14_of m outs c main_v25 (by decide)).trans ((V13_of m outs c main_v25 (by decide)).trans ((V12_of m outs c main_v25 (by decide)).trans ((V11_of m outs c main_v25 (by decide)).trans ((V10_of m outs c main_v25 (by decide)).trans ((V9_of m outs c main_v25 (by decide)).trans ((V8_of m outs c main_v25 (by decide)).trans ((V7_of m outs c main_v25 (by decide)).trans ((V6_of m outs c main_v25 (by decide)).trans ((V5_of m outs c main_v25 (by decide)).trans ((V4_of m outs c main_v25 (by decide)).trans ((V3_of m outs c main_v25 (by decide)).trans (V2_of m outs c main_v25 (by decide)))))))))))))))))))) (ix2 0 j)).trans (v25_read m c j)

/-- The class bias row. -/
theorem v26_at20 (q : Fin 32) : (V20 m outs c main_v26 : S1x32.Idx → EReal) (ix2 0 q) = x13 m c (ix1 q) :=
  (congrFun ((V20_of m outs c main_v26 (by decide)).trans ((V19_of m outs c main_v26 (by decide)).trans ((V18_of m outs c main_v26 (by decide)).trans ((V17_of m outs c main_v26 (by decide)).trans ((V16_of m outs c main_v26 (by decide)).trans ((V15_of m outs c main_v26 (by decide)).trans ((V14_of m outs c main_v26 (by decide)).trans ((V13_of m outs c main_v26 (by decide)).trans ((V12_of m outs c main_v26 (by decide)).trans ((V11_of m outs c main_v26 (by decide)).trans ((V10_of m outs c main_v26 (by decide)).trans ((V9_of m outs c main_v26 (by decide)).trans ((V8_of m outs c main_v26 (by decide)).trans ((V7_of m outs c main_v26 (by decide)).trans ((V6_of m outs c main_v26 (by decide)).trans ((V5_of m outs c main_v26 (by decide)).trans ((V4_of m outs c main_v26 (by decide)).trans ((V3_of m outs c main_v26 (by decide)).trans (V2_of m outs c main_v26 (by decide)))))))))))))))))))) (ix2 0 q)).trans (v26_read m c q)

/-! ## What the later stretches read: the arguments and the weights' column blocks, unchanged -/

/-- The destination indices before stretch 1. -/
theorem arg2_at2 : (V2 m outs c main_arg2 : S800000.Idx → BitVec 32) = x2 m c :=
  ((V2_of m outs c main_arg2 (by decide)).trans (V1_of m c main_arg2 (by decide)))

/-- The node biases before stretch 1. -/
theorem arg9_at2 : (V2 m outs c main_arg9 : S5x64.Idx → EReal) = x9 m c :=
  ((V2_of m outs c main_arg9 (by decide)).trans (V1_of m c main_arg9 (by decide)))

/-- Columns 0 … 63 of the node weights before stretch 1. -/
theorem v23_at2 : (V2 m outs c main_v23 : S5x64x64.Idx → EReal) = (extractStridedSlice S5x64x64 ![0, 0, 0] (x8 m c) slices_S5x64x128_S5x64x64_0_0_0) :=
  (V2_of m outs c main_v23 (by decide)).trans (v23_term m c)

/-- Columns 64 … 127 of the node weights before stretch 1. -/
theorem v24_at2 : (V2 m outs c main_v24 : S5x64x64.Idx → EReal) = (extractStridedSlice S5x64x64 ![0, 0, 64] (x8 m c) slices_S5x64x128_S5x64x64_0_0_64) :=
  (V2_of m outs c main_v24 (by decide)).trans (v24_term m c)

/-- The source indices before stretch 2. -/
theorem arg1_at4 : (V4 m outs c main_arg1 : S800000.Idx → BitVec 32) = x1 m c :=
  ((V4_of m outs c main_arg1 (by decide)).trans ((V3_of m outs c main_arg1 (by decide)).trans ((V2_of m outs c main_arg1 (by decide)).trans (V1_of m c main_arg1 (by decide)))))

/-- Columns 0 … 63 of the edge weights before stretch 2. -/
theorem v21_at4 : (V4 m outs c main_v21 : S5x64x64.Idx → EReal) = (extractStridedSlice S5x64x64 ![0, 0, 0] (x7 m c) slices_S5x64x67_S5x64x64_0_0_0) :=
  ((V4_of m outs c main_v21 (by decide)).trans ((V3_of m outs c main_v21 (by decide)).trans (V2_of m outs c main_v21 (by decide)))).trans (v21_term m c)

/-- Columns 64 … 66 of the edge weights before stretch 2. -/
theorem v22_at4 : (V4 m outs c main_v22 : S5x64x3.Idx → EReal) = (extractStridedSlice S5x64x3 ![0, 0, 64] (x7 m c) slices_S5x64x67_S5x64x3_0_0_64) :=
  ((V4_of m outs c main_v22 (by decide)).trans ((V3_of m outs c main_v22 (by decide)).trans (V2_of m outs c main_v22 (by decide)))).trans (v22_term m c)

/-- The destination indices before stretch 3. -/
theorem arg2_at6 : (V6 m outs c main_arg2 : S800000.Idx → BitVec 32) = x2 m c :=
  ((V6_of m outs c main_arg2 (by decide)).trans ((V5_of m outs c main_arg2 (by decide)).trans ((V4_of m outs c main_arg2 (by decide)).trans ((V3_of m outs c main_arg2 (by decide)).trans ((V2_of m outs c main_arg2 (by decide)).trans (V1_of m c main_arg2 (by decide)))))))

/-- The node biases before stretch 3. -/
theorem arg9_at6 : (V6 m outs c main_arg9 : S5x64.Idx → EReal) = x9 m c :=
  ((V6_of m outs c main_arg9 (by decide)).trans ((V5_of m outs c main_arg9 (by decide)).trans ((V4_of m outs c main_arg9 (by decide)).trans ((V3_of m outs c main_arg9 (by decide)).trans ((V2_of m outs c main_arg9 (by decide)).trans (V1_of m c main_arg9 (by decide)))))))

/-- Columns 0 … 63 of the node weights before stretch 3. -/
theorem v23_at6 : (V6 m outs c main_v23 : S5x64x64.Idx → EReal) = (extractStridedSlice S5x64x64 ![0, 0, 0] (x8 m c) slices_S5x64x128_S5x64x64_0_0_0) :=
  ((V6_of m outs c main_v23 (by decide)).trans ((V5_of m outs c main_v23 (by decide)).trans ((V4_of m outs c main_v23 (by decide)).trans ((V3_of m outs c main_v23 (by decide)).trans (V2_of m outs c main_v23 (by decide)))))).trans (v23_term m c)

/-- Columns 64 … 127 of the node weights before stretch 3. -/
theorem v24_at6 : (V6 m outs c main_v24 : S5x64x64.Idx → EReal) = (extractStridedSlice S5x64x64 ![0, 0, 64] (x8 m c) slices_S5x64x128_S5x64x64_0_0_64) :=
  ((V6_of m outs c main_v24 (by decide)).trans ((V5_of m outs c main_v24 (by decide)).trans ((V4_of m outs c main_v24 (by decide)).trans ((V3_of m outs c main_v24 (by decide)).trans (V2_of m outs c main_v24 (by decide)))))).trans (v24_term m c)

/-- The source indices before stretch 4. -/
theorem arg1_at8 : (V8 m outs c main_arg1 : S800000.Idx → BitVec 32) = x1 m c :=
  ((V8_of m outs c main_arg1 (by decide)).trans ((V7_of m outs c main_arg1 (by decide)).trans ((V6_of m outs c main_arg1 (by decide)).trans ((V5_of m outs c main_arg1 (by decide)).trans ((V4_of m outs c main_arg1 (by decide)).trans ((V3_of m outs c main_arg1 (by decide)).trans ((V2_of m outs c main_arg1 (by decide)).trans (V1_of m c main_arg1 (by decide)))))))))

/-- Columns 0 … 63 of the edge weights before stretch 4. -/
theorem v21_at8 : (V8 m outs c main_v21 : S5x64x64.Idx → EReal) = (extractStridedSlice S5x64x64 ![0, 0, 0] (x7 m c) slices_S5x64x67_S5x64x64_0_0_0) :=
  ((V8_of m outs c main_v21 (by decide)).trans ((V7_of m outs c main_v21 (by decide)).trans ((V6_of m outs c main_v21 (by decide)).trans ((V5_of m outs c main_v21 (by decide)).trans ((V4_of m outs c main_v21 (by decide)).trans ((V3_of m outs c main_v21 (by decide)).trans (V2_of m outs c main_v21 (by decide)))))))).trans (v21_term m c)

/-- Columns 64 … 66 of the edge weights before stretch 4. -/
theorem v22_at8 : (V8 m outs c main_v22 : S5x64x3.Idx → EReal) = (extractStridedSlice S5x64x3 ![0, 0, 64] (x7 m c) slices_S5x64x67_S5x64x3_0_0_64) :=
  ((V8_of m outs c main_v22 (by decide)).trans ((V7_of m outs c main_v22 (by decide)).trans ((V6_of m outs c main_v22 (by decide)).trans ((V5_of m outs c main_v22 (by decide)).trans ((V4_of m outs c main_v22 (by decide)).trans ((V3_of m outs c main_v22 (by decide)).trans (V2_of m outs c main_v22 (by decide)))))))).trans (v22_term m c)

/-- The destination indices before stretch 5. -/
theorem arg2_at10 : (V10 m outs c main_arg2 : S800000.Idx → BitVec 32) = x2 m c :=
  ((V10_of m outs c main_arg2 (by decide)).trans ((V9_of m outs c main_arg2 (by decide)).trans ((V8_of m outs c main_arg2 (by decide)).trans ((V7_of m outs c main_arg2 (by decide)).trans ((V6_of m outs c main_arg2 (by decide)).trans ((V5_of m outs c main_arg2 (by decide)).trans ((V4_of m outs c main_arg2 (by decide)).trans ((V3_of m outs c main_arg2 (by decide)).trans ((V2_of m outs c main_arg2 (by decide)).trans (V1_of m c main_arg2 (by decide)))))))))))

/-- The node biases before stretch 5. -/
theorem arg9_at10 : (V10 m outs c main_arg9 : S5x64.Idx → EReal) = x9 m c :=
  ((V10_of m outs c main_arg9 (by decide)).trans ((V9_of m outs c main_arg9 (by decide)).trans ((V8_of m outs c main_arg9 (by decide)).trans ((V7_of m outs c main_arg9 (by decide)).trans ((V6_of m outs c main_arg9 (by decide)).trans ((V5_of m outs c main_arg9 (by decide)).trans ((V4_of m outs c main_arg9 (by decide)).trans ((V3_of m outs c main_arg9 (by decide)).trans ((V2_of m outs c main_arg9 (by decide)).trans (V1_of m c main_arg9 (by decide)))))))))))

/-- Columns 0 … 63 of the node weights before stretch 5. -/
theorem v23_at10 : (V10 m outs c main_v23 : S5x64x64.Idx → EReal) = (extractStridedSlice S5x64x64 ![0, 0, 0] (x8 m c) slices_S5x64x128_S5x64x64_0_0_0) :=
  ((V10_of m outs c main_v23 (by decide)).trans ((V9_of m outs c main_v23 (by decide)).trans ((V8_of m outs c main_v23 (by decide)).trans ((V7_of m outs c main_v23 (by decide)).trans ((V6_of m outs c main_v23 (by decide)).trans ((V5_of m outs c main_v23 (by decide)).trans ((V4_of m outs c main_v23 (by decide)).trans ((V3_of m outs c main_v23 (by decide)).trans (V2_of m outs c main_v23 (by decide)))))))))).trans (v23_term m c)

/-- Columns 64 … 127 of the node weights before stretch 5. -/
theorem v24_at10 : (V10 m outs c main_v24 : S5x64x64.Idx → EReal) = (extractStridedSlice S5x64x64 ![0, 0, 64] (x8 m c) slices_S5x64x128_S5x64x64_0_0_64) :=
  ((V10_of m outs c main_v24 (by decide)).trans ((V9_of m outs c main_v24 (by decide)).trans ((V8_of m outs c main_v24 (by decide)).trans ((V7_of m outs c main_v24 (by decide)).trans ((V6_of m outs c main_v24 (by decide)).trans ((V5_of m outs c main_v24 (by decide)).trans ((V4_of m outs c main_v24 (by decide)).trans ((V3_of m outs c main_v24 (by decide)).trans (V2_of m outs c main_v24 (by decide)))))))))).trans (v24_term m c)

/-- The source indices before stretch 6. -/
theorem arg1_at12 : (V12 m outs c main_arg1 : S800000.Idx → BitVec 32) = x1 m c :=
  ((V12_of m outs c main_arg1 (by decide)).trans ((V11_of m outs c main_arg1 (by decide)).trans ((V10_of m outs c main_arg1 (by decide)).trans ((V9_of m outs c main_arg1 (by decide)).trans ((V8_of m outs c main_arg1 (by decide)).trans ((V7_of m outs c main_arg1 (by decide)).trans ((V6_of m outs c main_arg1 (by decide)).trans ((V5_of m outs c main_arg1 (by decide)).trans ((V4_of m outs c main_arg1 (by decide)).trans ((V3_of m outs c main_arg1 (by decide)).trans ((V2_of m outs c main_arg1 (by decide)).trans (V1_of m c main_arg1 (by decide)))))))))))))

/-- Columns 0 … 63 of the edge weights before stretch 6. -/
theorem v21_at12 : (V12 m outs c main_v21 : S5x64x64.Idx → EReal) = (extractStridedSlice S5x64x64 ![0, 0, 0] (x7 m c) slices_S5x64x67_S5x64x64_0_0_0) :=
  ((V12_of m outs c main_v21 (by decide)).trans ((V11_of m outs c main_v21 (by decide)).trans ((V10_of m outs c main_v21 (by decide)).trans ((V9_of m outs c main_v21 (by decide)).trans ((V8_of m outs c main_v21 (by decide)).trans ((V7_of m outs c main_v21 (by decide)).trans ((V6_of m outs c main_v21 (by decide)).trans ((V5_of m outs c main_v21 (by decide)).trans ((V4_of m outs c main_v21 (by decide)).trans ((V3_of m outs c main_v21 (by decide)).trans (V2_of m outs c main_v21 (by decide)))))))))))).trans (v21_term m c)

/-- Columns 64 … 66 of the edge weights before stretch 6. -/
theorem v22_at12 : (V12 m outs c main_v22 : S5x64x3.Idx → EReal) = (extractStridedSlice S5x64x3 ![0, 0, 64] (x7 m c) slices_S5x64x67_S5x64x3_0_0_64) :=
  ((V12_of m outs c main_v22 (by decide)).trans ((V11_of m outs c main_v22 (by decide)).trans ((V10_of m outs c main_v22 (by decide)).trans ((V9_of m outs c main_v22 (by decide)).trans ((V8_of m outs c main_v22 (by decide)).trans ((V7_of m outs c main_v22 (by decide)).trans ((V6_of m outs c main_v22 (by decide)).trans ((V5_of m outs c main_v22 (by decide)).trans ((V4_of m outs c main_v22 (by decide)).trans ((V3_of m outs c main_v22 (by decide)).trans (V2_of m outs c main_v22 (by decide)))))))))))).trans (v22_term m c)

/-- The destination indices before stretch 7. -/
theorem arg2_at14 : (V14 m outs c main_arg2 : S800000.Idx → BitVec 32) = x2 m c :=
  ((V14_of m outs c main_arg2 (by decide)).trans ((V13_of m outs c main_arg2 (by decide)).trans ((V12_of m outs c main_arg2 (by decide)).trans ((V11_of m outs c main_arg2 (by decide)).trans ((V10_of m outs c main_arg2 (by decide)).trans ((V9_of m outs c main_arg2 (by decide)).trans ((V8_of m outs c main_arg2 (by decide)).trans ((V7_of m outs c main_arg2 (by decide)).trans ((V6_of m outs c main_arg2 (by decide)).trans ((V5_of m outs c main_arg2 (by decide)).trans ((V4_of m outs c main_arg2 (by decide)).trans ((V3_of m outs c main_arg2 (by decide)).trans ((V2_of m outs c main_arg2 (by decide)).trans (V1_of m c main_arg2 (by decide)))))))))))))))

/-- The node biases before stretch 7. -/
theorem arg9_at14 : (V14 m outs c main_arg9 : S5x64.Idx → EReal) = x9 m c :=
  ((V14_of m outs c main_arg9 (by decide)).trans ((V13_of m outs c main_arg9 (by decide)).trans ((V12_of m outs c main_arg9 (by decide)).trans ((V11_of m outs c main_arg9 (by decide)).trans ((V10_of m outs c main_arg9 (by decide)).trans ((V9_of m outs c main_arg9 (by decide)).trans ((V8_of m outs c main_arg9 (by decide)).trans ((V7_of m outs c main_arg9 (by decide)).trans ((V6_of m outs c main_arg9 (by decide)).trans ((V5_of m outs c main_arg9 (by decide)).trans ((V4_of m outs c main_arg9 (by decide)).trans ((V3_of m outs c main_arg9 (by decide)).trans ((V2_of m outs c main_arg9 (by decide)).trans (V1_of m c main_arg9 (by decide)))))))))))))))

/-- Columns 0 … 63 of the node weights before stretch 7. -/
theorem v23_at14 : (V14 m outs c main_v23 : S5x64x64.Idx → EReal) = (extractStridedSlice S5x64x64 ![0, 0, 0] (x8 m c) slices_S5x64x128_S5x64x64_0_0_0) :=
  ((V14_of m outs c main_v23 (by decide)).trans ((V13_of m outs c main_v23 (by decide)).trans ((V12_of m outs c main_v23 (by decide)).trans ((V11_of m outs c main_v23 (by decide)).trans ((V10_of m outs c main_v23 (by decide)).trans ((V9_of m outs c main_v23 (by decide)).trans ((V8_of m outs c main_v23 (by decide)).trans ((V7_of m outs c main_v23 (by decide)).trans ((V6_of m outs c main_v23 (by decide)).trans ((V5_of m outs c main_v23 (by decide)).trans ((V4_of m outs c main_v23 (by decide)).trans ((V3_of m outs c main_v23 (by decide)).trans (V2_of m outs c main_v23 (by decide)))))))))))))).trans (v23_term m c)

/-- Columns 64 … 127 of the node weights before stretch 7. -/
theorem v24_at14 : (V14 m outs c main_v24 : S5x64x64.Idx → EReal) = (extractStridedSlice S5x64x64 ![0, 0, 64] (x8 m c) slices_S5x64x128_S5x64x64_0_0_64) :=
  ((V14_of m outs c main_v24 (by decide)).trans ((V13_of m outs c main_v24 (by decide)).trans ((V12_of m outs c main_v24 (by decide)).trans ((V11_of m outs c main_v24 (by decide)).trans ((V10_of m outs c main_v24 (by decide)).trans ((V9_of m outs c main_v24 (by decide)).trans ((V8_of m outs c main_v24 (by decide)).trans ((V7_of m outs c main_v24 (by decide)).trans ((V6_of m outs c main_v24 (by decide)).trans ((V5_of m outs c main_v24 (by decide)).trans ((V4_of m outs c main_v24 (by decide)).trans ((V3_of m outs c main_v24 (by decide)).trans (V2_of m outs c main_v24 (by decide)))))))))))))).trans (v24_term m c)

/-- The source indices before stretch 8. -/
theorem arg1_at16 : (V16 m outs c main_arg1 : S800000.Idx → BitVec 32) = x1 m c :=
  ((V16_of m outs c main_arg1 (by decide)).trans ((V15_of m outs c main_arg1 (by decide)).trans ((V14_of m outs c main_arg1 (by decide)).trans ((V13_of m outs c main_arg1 (by decide)).trans ((V12_of m outs c main_arg1 (by decide)).trans ((V11_of m outs c main_arg1 (by decide)).trans ((V10_of m outs c main_arg1 (by decide)).trans ((V9_of m outs c main_arg1 (by decide)).trans ((V8_of m outs c main_arg1 (by decide)).trans ((V7_of m outs c main_arg1 (by decide)).trans ((V6_of m outs c main_arg1 (by decide)).trans ((V5_of m outs c main_arg1 (by decide)).trans ((V4_of m outs c main_arg1 (by decide)).trans ((V3_of m outs c main_arg1 (by decide)).trans ((V2_of m outs c main_arg1 (by decide)).trans (V1_of m c main_arg1 (by decide)))))))))))))))))

/-- Columns 0 … 63 of the edge weights before stretch 8. -/
theorem v21_at16 : (V16 m outs c main_v21 : S5x64x64.Idx → EReal) = (extractStridedSlice S5x64x64 ![0, 0, 0] (x7 m c) slices_S5x64x67_S5x64x64_0_0_0) :=
  ((V16_of m outs c main_v21 (by decide)).trans ((V15_of m outs c main_v21 (by decide)).trans ((V14_of m outs c main_v21 (by decide)).trans ((V13_of m outs c main_v21 (by decide)).trans ((V12_of m outs c main_v21 (by decide)).trans ((V11_of m outs c main_v21 (by decide)).trans ((V10_of m outs c main_v21 (by decide)).trans ((V9_of m outs c main_v21 (by decide)).trans ((V8_of m outs c main_v21 (by decide)).trans ((V7_of m outs c main_v21 (by decide)).trans ((V6_of m outs c main_v21 (by decide)).trans ((V5_of m outs c main_v21 (by decide)).trans ((V4_of m outs c main_v21 (by decide)).trans ((V3_of m outs c main_v21 (by decide)).trans (V2_of m outs c main_v21 (by decide)))))))))))))))).trans (v21_term m c)

/-- Columns 64 … 66 of the edge weights before stretch 8. -/
theorem v22_at16 : (V16 m outs c main_v22 : S5x64x3.Idx → EReal) = (extractStridedSlice S5x64x3 ![0, 0, 64] (x7 m c) slices_S5x64x67_S5x64x3_0_0_64) :=
  ((V16_of m outs c main_v22 (by decide)).trans ((V15_of m outs c main_v22 (by decide)).trans ((V14_of m outs c main_v22 (by decide)).trans ((V13_of m outs c main_v22 (by decide)).trans ((V12_of m outs c main_v22 (by decide)).trans ((V11_of m outs c main_v22 (by decide)).trans ((V10_of m outs c main_v22 (by decide)).trans ((V9_of m outs c main_v22 (by decide)).trans ((V8_of m outs c main_v22 (by decide)).trans ((V7_of m outs c main_v22 (by decide)).trans ((V6_of m outs c main_v22 (by decide)).trans ((V5_of m outs c main_v22 (by decide)).trans ((V4_of m outs c main_v22 (by decide)).trans ((V3_of m outs c main_v22 (by decide)).trans (V2_of m outs c main_v22 (by decide)))))))))))))))).trans (v22_term m c)

/-- The destination indices before stretch 9. -/
theorem arg2_at18 : (V18 m outs c main_arg2 : S800000.Idx → BitVec 32) = x2 m c :=
  ((V18_of m outs c main_arg2 (by decide)).trans ((V17_of m outs c main_arg2 (by decide)).trans ((V16_of m outs c main_arg2 (by decide)).trans ((V15_of m outs c main_arg2 (by decide)).trans ((V14_of m outs c main_arg2 (by decide)).trans ((V13_of m outs c main_arg2 (by decide)).trans ((V12_of m outs c main_arg2 (by decide)).trans ((V11_of m outs c main_arg2 (by decide)).trans ((V10_of m outs c main_arg2 (by decide)).trans ((V9_of m outs c main_arg2 (by decide)).trans ((V8_of m outs c main_arg2 (by decide)).trans ((V7_of m outs c main_arg2 (by decide)).trans ((V6_of m outs c main_arg2 (by decide)).trans ((V5_of m outs c main_arg2 (by decide)).trans ((V4_of m outs c main_arg2 (by decide)).trans ((V3_of m outs c main_arg2 (by decide)).trans ((V2_of m outs c main_arg2 (by decide)).trans (V1_of m c main_arg2 (by decide)))))))))))))))))))

/-- The node biases before stretch 9. -/
theorem arg9_at18 : (V18 m outs c main_arg9 : S5x64.Idx → EReal) = x9 m c :=
  ((V18_of m outs c main_arg9 (by decide)).trans ((V17_of m outs c main_arg9 (by decide)).trans ((V16_of m outs c main_arg9 (by decide)).trans ((V15_of m outs c main_arg9 (by decide)).trans ((V14_of m outs c main_arg9 (by decide)).trans ((V13_of m outs c main_arg9 (by decide)).trans ((V12_of m outs c main_arg9 (by decide)).trans ((V11_of m outs c main_arg9 (by decide)).trans ((V10_of m outs c main_arg9 (by decide)).trans ((V9_of m outs c main_arg9 (by decide)).trans ((V8_of m outs c main_arg9 (by decide)).trans ((V7_of m outs c main_arg9 (by decide)).trans ((V6_of m outs c main_arg9 (by decide)).trans ((V5_of m outs c main_arg9 (by decide)).trans ((V4_of m outs c main_arg9 (by decide)).trans ((V3_of m outs c main_arg9 (by decide)).trans ((V2_of m outs c main_arg9 (by decide)).trans (V1_of m c main_arg9 (by decide)))))))))))))))))))

/-- Columns 0 … 63 of the node weights before stretch 9. -/
theorem v23_at18 : (V18 m outs c main_v23 : S5x64x64.Idx → EReal) = (extractStridedSlice S5x64x64 ![0, 0, 0] (x8 m c) slices_S5x64x128_S5x64x64_0_0_0) :=
  ((V18_of m outs c main_v23 (by decide)).trans ((V17_of m outs c main_v23 (by decide)).trans ((V16_of m outs c main_v23 (by decide)).trans ((V15_of m outs c main_v23 (by decide)).trans ((V14_of m outs c main_v23 (by decide)).trans ((V13_of m outs c main_v23 (by decide)).trans ((V12_of m outs c main_v23 (by decide)).trans ((V11_of m outs c main_v23 (by decide)).trans ((V10_of m outs c main_v23 (by decide)).trans ((V9_of m outs c main_v23 (by decide)).trans ((V8_of m outs c main_v23 (by decide)).trans ((V7_of m outs c main_v23 (by decide)).trans ((V6_of m outs c main_v23 (by decide)).trans ((V5_of m outs c main_v23 (by decide)).trans ((V4_of m outs c main_v23 (by decide)).trans ((V3_of m outs c main_v23 (by decide)).trans (V2_of m outs c main_v23 (by decide)))))))))))))))))).trans (v23_term m c)

/-- Columns 64 … 127 of the node weights before stretch 9. -/
theorem v24_at18 : (V18 m outs c main_v24 : S5x64x64.Idx → EReal) = (extractStridedSlice S5x64x64 ![0, 0, 64] (x8 m c) slices_S5x64x128_S5x64x64_0_0_64) :=
  ((V18_of m outs c main_v24 (by decide)).trans ((V17_of m outs c main_v24 (by decide)).trans ((V16_of m outs c main_v24 (by decide)).trans ((V15_of m outs c main_v24 (by decide)).trans ((V14_of m outs c main_v24 (by decide)).trans ((V13_of m outs c main_v24 (by decide)).trans ((V12_of m outs c main_v24 (by decide)).trans ((V11_of m outs c main_v24 (by decide)).trans ((V10_of m outs c main_v24 (by decide)).trans ((V9_of m outs c main_v24 (by decide)).trans ((V8_of m outs c main_v24 (by decide)).trans ((V7_of m outs c main_v24 (by decide)).trans ((V6_of m outs c main_v24 (by decide)).trans ((V5_of m outs c main_v24 (by decide)).trans ((V4_of m outs c main_v24 (by decide)).trans ((V3_of m outs c main_v24 (by decide)).trans (V2_of m outs c main_v24 (by decide)))))))))))))))))).trans (v24_term m c)

end Cert.Net.KRead

end
-- ==== Proof.KReadOdd.lean ====
/-
  The kernel program's host stretches before the node regions, read at the ideal values: each leaves the mailbox sum
  (the scatter-add of what the edge region left, spelt as the reference's scatter stage), and the layer's node weight
  blocks and bias row, which are read at an index.
-/
import proofs.«149571_j25649544692292_2_alg».proof.Proof.Gen.KernelIdeal.Regions
import proofs.«149571_j25649544692292_2_alg».proof.Proof.RefReadP
import proofs.«149571_j25649544692292_2_alg».proof.Proof.GlueRead
import proofs.«149571_j25649544692292_2_alg».proof.Proof.KRead0
import proofs.«149571_j25649544692292_2_alg».proof.Proof.KReadW
import Idealize.ShloMosaic.Lib.Pipeline.Value
import Idealize.ShloMosaic.Lib.ValueIdx
import Idealize.ShloMosaic.PureOps.Ideal.Laws

set_option maxRecDepth 1656

noncomputable section

namespace Cert.Net.KRead

open Cert.KernelIdeal Cert.KernelIdeal.Gen Idealize.ShloMosaic Idealize.ShloMosaic.ValueIdx Idealize.ShloMosaic.TcCoe
open scoped BigOperators

variable (m : (ℓ : Loc nD τ sig) → Buf (Elt Ideal) ℓ) (outs : Outs (F := Ideal)) (c : Dev nD)

/-! ## Stretch 1: before the node region of layer 0 -/

/-- The mailbox sum: the scatter-add of what the edge region left, as the reference's scatter stage spells it. -/
theorem s1_v42 (X : Valuation τ sig (Elt Ideal)) (a2 : S800000.Idx → BitVec 32) (u : S800000x64.Idx → EReal)
    (h2 : (X main_arg2 : S800000.Idx → BitVec 32) = a2) (hu : (X main_v38 : S800000x64.Idx → EReal) = u) :
    (StableHlo.after (hostOps1 (F := Ideal)) X main_v42 : S100000x64.Idx → EReal)
      = Host.scatterAdd (F := Ideal) (φ := .f32) Cert.ReferenceIdeal.scatter_S100000x64_S800000x1_S800000x64_1_0_0_1 (Cert.ReferenceIdeal.Read.val_main_v37 (F := Ideal)) (Cert.ReferenceIdeal.Read.val_main_v38 (F := Ideal) a2) u := by
  subst h2 hu
  have e : (StableHlo.after (hostOps1 (F := Ideal)) X main_v42 : S100000x64.Idx → EReal) = (Host.scatterAdd (F := Ideal) (φ := .f32) scatter_S100000x64_S800000x1_S800000x64_1_0_0_1 (broadcastInDim S100000x64 ![] bcast_S_S100000x64 (constant (F := Ideal) S_ .f32 0x00000000#32)) (broadcastInDim S800000x1 ![0] bcast_S800000_S800000x1_0 (X main_arg2)) (extf (F := Ideal) .f32 (X main_v38) bitsLt_bf16_f32)) := by
    dsimp only [hostOps1]
    after_results <;> rfl
  rw [e, ext_id, sdim2]
  rfl

/-- The node weights' first block as the stretch leaves it. -/
theorem s1_v47 (X : Valuation τ sig (Elt Ideal)) (w : S5x64x64.Idx → EReal) (hw : (X main_v23 : S5x64x64.Idx → EReal) = w) :
    (StableHlo.after (hostOps1 (F := Ideal)) X main_v47 : S64x64.Idx → EReal) = (shapeCast S64x64 (extractStridedSlice S1x64x64 ![0, 0, 0] w slices_S5x64x64_S1x64x64_0_0_0) shapeCasts_S1x64x64_S64x64) := by
  subst hw
  dsimp only [hostOps1]
  after_results <;> rfl

/-- The node weights' second block as the stretch leaves it. -/
theorem s1_v49 (X : Valuation τ sig (Elt Ideal)) (w : S5x64x64.Idx → EReal) (hw : (X main_v24 : S5x64x64.Idx → EReal) = w) :
    (StableHlo.after (hostOps1 (F := Ideal)) X main_v49 : S64x64.Idx → EReal) = (shapeCast S64x64 (extractStridedSlice S1x64x64 ![0, 0, 0] w slices_S5x64x64_S1x64x64_0_0_0) shapeCasts_S1x64x64_S64x64) := by
  subst hw
  dsimp only [hostOps1]
  after_results <;> rfl

/-- The bias row as the stretch leaves it. -/
theorem s1_v45 (X : Valuation τ sig (Elt Ideal)) (b : S5x64.Idx → EReal) (hb : (X main_arg9 : S5x64.Idx → EReal) = b) :
    (StableHlo.after (hostOps1 (F := Ideal)) X main_v45 : S1x64.Idx → EReal) = (shapeCast S1x64 (shapeCast S64 (extractStridedSlice S1x64 ![0, 0] b slices_S5x64_S1x64_0_0) shapeCasts_S1x64_S64) shapeCasts_S64_S1x64) := by
  subst hb
  dsimp only [hostOps1]
  after_results <;> rfl

/-- The node region of layer 0 is entered with the mailbox sum of what the edge region of layer 0 left. -/
theorem r1_v42 :
    (V3 m outs c main_v42 : S100000x64.Idx → EReal)
      = Host.scatterAdd (F := Ideal) (φ := .f32) Cert.ReferenceIdeal.scatter_S100000x64_S800000x1_S800000x64_1_0_0_1 (Cert.ReferenceIdeal.Read.val_main_v37 (F := Ideal)) (Cert.ReferenceIdeal.Read.val_main_v38 (F := Ideal) (x2 m c)) (outs 2 main_v38 c) :=
  s1_v42 (V2 m outs c) (x2 m c) (outs 2 main_v38 c) (arg2_at2 m outs c) (Function.update_self _ _ _)

/-- … with row `q`, columns 0 … 63 of layer 0's node weights, … -/
theorem r1_v47 (q k : Fin 64) :
    (V3 m outs c main_v47 : S64x64.Idx → EReal) (ix2 q k) = x8 m c (ix3 0 q ⟨k.val, by omega⟩) :=
  (congrFun (s1_v47 (V2 m outs c) _ (v23_at2 m outs c)) (ix2 q k)).trans (Cert.Net.Glue.w2a_read_0 (x8 m c) _ _ _ q k)

/-- … columns 64 … 127 of them, … -/
theorem r1_v49 (q k : Fin 64) :
    (V3 m outs c main_v49 : S64x64.Idx → EReal) (ix2 q k) = x8 m c (ix3 0 q ⟨64 + k.val, by omega⟩) :=
  (congrFun (s1_v49 (V2 m outs c) _ (v24_at2 m outs c)) (ix2 q k)).trans (Cert.Net.Glue.w2b_read_0 (x8 m c) _ _ _ q k)

/-- … and entry `q` of layer 0's bias. -/
theorem r1_v45 (q : Fin 64) :
    (V3 m outs c main_v45 : S1x64.Idx → EReal) (ix2 0 q) = x9 m c (ix2 0 q) :=
  (congrFun (s1_v45 (V2 m outs c) _ (arg9_at2 m outs c)) (ix2 0 q)).trans (Cert.Net.Glue.b2_read_0 (x9 m c) _ _ _ q)

/-! ## Stretch 3: before the node region of layer 1 -/

/-- The mailbox sum: the scatter-add of what the edge region left, as the reference's scatter stage spells it. -/
theorem s3_v66 (X : Valuation τ sig (Elt Ideal)) (a2 : S800000.Idx → BitVec 32) (u : S800000x64.Idx → EReal)
    (h2 : (X main_arg2 : S800000.Idx → BitVec 32) = a2) (hu : (X main_v62 : S800000x64.Idx → EReal) = u) :
    (StableHlo.after (hostOps3 (F := Ideal)) X main_v66 : S100000x64.Idx → EReal)
      = Host.scatterAdd (F := Ideal) (φ := .f32) Cert.ReferenceIdeal.scatter_S100000x64_S800000x1_S800000x64_1_0_0_1 (Cert.ReferenceIdeal.Read.val_main_v70 (F := Ideal)) (Cert.ReferenceIdeal.Read.val_main_v71 (F := Ideal) a2) u := by
  subst h2 hu
  have e : (StableHlo.after (hostOps3 (F := Ideal)) X main_v66 : S100000x64.Idx → EReal) = (Host.scatterAdd (F := Ideal) (φ := .f32) scatter_S100000x64_S800000x1_S800000x64_1_0_0_1 (broadcastInDim S100000x64 ![] bcast_S_S100000x64 (constant (F := Ideal) S_ .f32 0x00000000#32)) (broadcastInDim S800000x1 ![0] bcast_S800000_S800000x1_0 (X main_arg2)) (extf (F := Ideal) .f32 (X main_v62) bitsLt_bf16_f32)) := by
    dsimp only [hostOps3]
    after_results <;> rfl
  rw [e, ext_id, sdim2]
  rfl

/-- The node weights' first block as the stretch leaves it. -/
theorem s3_v71 (X : Valuation τ sig (Elt Ideal)) (w : S5x64x64.Idx → EReal) (hw : (X main_v23 : S5x64x64.Idx → EReal) = w) :
    (StableHlo.after (hostOps3 (F := Ideal)) X main_v71 : S64x64.Idx → EReal) = (shapeCast S64x64 (extractStridedSlice S1x64x64 ![1, 0, 0] w slices_S5x64x64_S1x64x64_1_0_0) shapeCasts_S1x64x64_S64x64) := by
  subst hw
  dsimp only [hostOps3]
  after_results <;> rfl

/-- The node weights' second block as the stretch leaves it. -/
theorem s3_v73 (X : Valuation τ sig (Elt Ideal)) (w : S5x64x64.Idx → EReal) (hw : (X main_v24 : S5x64x64.Idx → EReal) = w) :
    (StableHlo.after (hostOps3 (F := Ideal)) X main_v73 : S64x64.Idx → EReal) = (shapeCast S64x64 (extractStridedSlice S1x64x64 ![1, 0, 0] w slices_S5x64x64_S1x64x64_1_0_0) shapeCasts_S1x64x64_S64x64) := by
  subst hw
  dsimp only [hostOps3]
  after_results <;> rfl

/-- The bias row as the stretch leaves it. -/
theorem s3_v69 (X : Valuation τ sig (Elt Ideal)) (b : S5x64.Idx → EReal) (hb : (X main_arg9 : S5x64.Idx → EReal) = b) :
    (StableHlo.after (hostOps3 (F := Ideal)) X main_v69 : S1x64.Idx → EReal) = (shapeCast S1x64 (shapeCast S64 (extractStridedSlice S1x64 ![1, 0] b slices_S5x64_S1x64_1_0) shapeCasts_S1x64_S64) shapeCasts_S64_S1x64) := by
  subst hb
  dsimp only [hostOps3]
  after_results <;> rfl

/-- The node region of layer 1 is entered with the mailbox sum of what the edge region of layer 1 left. -/
theorem r3_v66 :
    (V7 m outs c main_v66 : S100000x64.Idx → EReal)
      = Host.scatterAdd (F := Ideal) (φ := .f32) Cert.ReferenceIdeal.scatter_S100000x64_S800000x1_S800000x64_1_0_0_1 (Cert.ReferenceIdeal.Read.val_main_v70 (F := Ideal)) (Cert.ReferenceIdeal.Read.val_main_v71 (F := Ideal) (x2 m c)) (outs 6 main_v62 c) :=
  s3_v66 (V6 m outs c) (x2 m c) (outs 6 main_v62 c) (arg2_at6 m outs c) (Function.update_self _ _ _)

/-- … with row `q`, columns 0 … 63 of layer 1's node weights, … -/
theorem r3_v71 (q k : Fin 64) :
    (V7 m outs c main_v71 : S64x64.Idx → EReal) (ix2 q k) = x8 m c (ix3 1 q ⟨k.val, by omega⟩) :=
  (congrFun (s3_v71 (V6 m outs c) _ (v23_at6 m outs c)) (ix2 q k)).trans (Cert.Net.Glue.w2a_read_1 (x8 m c) _ _ _ q k)

/-- … columns 64 … 127 of them, … -/
theorem r3_v73 (q k : Fin 64) :
    (V7 m outs c main_v73 : S64x64.Idx → EReal) (ix2 q k) = x8 m c (ix3 1 q ⟨64 + k.val, by omega⟩) :=
  (congrFun (s3_v73 (V6 m outs c) _ (v24_at6 m outs c)) (ix2 q k)).trans (Cert.Net.Glue.w2b_read_1 (x8 m c) _ _ _ q k)

/-- … and entry `q` of layer 1's bias. -/
theorem r3_v69 (q : Fin 64) :
    (V7 m outs c main_v69 : S1x64.Idx → EReal) (ix2 0 q) = x9 m c (ix2 1 q) :=
  (congrFun (s3_v69 (V6 m outs c) _ (arg9_at6 m outs c)) (ix2 0 q)).trans (Cert.Net.Glue.b2_read_1 (x9 m c) _ _ _ q)

/-! ## Stretch 5: before the node region of layer 2 -/

/-- The mailbox sum: the scatter-add of what the edge region left, as the reference's scatter stage spells it. -/
theorem s5_v90 (X : Valuation τ sig (Elt Ideal)) (a2 : S800000.Idx → BitVec 32) (u : S800000x64.Idx → EReal)
    (h2 : (X main_arg2 : S800000.Idx → BitVec 32) = a2) (hu : (X main_v86 : S800000x64.Idx → EReal) = u) :
    (StableHlo.after (hostOps5 (F := Ideal)) X main_v90 : S100000x64.Idx → EReal)
      = Host.scatterAdd (F := Ideal) (φ := .f32) Cert.ReferenceIdeal.scatter_S100000x64_S800000x1_S800000x64_1_0_0_1 (Cert.ReferenceIdeal.Read.val_main_v103 (F := Ideal)) (Cert.ReferenceIdeal.Read.val_main_v104 (F := Ideal) a2) u := by
  subst h2 hu
  have e : (StableHlo.after (hostOps5 (F := Ideal)) X main_v90 : S100000x64.Idx → EReal) = (Host.scatterAdd (F := Ideal) (φ := .f32) scatter_S100000x64_S800000x1_S800000x64_1_0_0_1 (broadcastInDim S100000x64 ![] bcast_S_S100000x64 (constant (F := Ideal) S_ .f32 0x00000000#32)) (broadcastInDim S800000x1 ![0] bcast_S800000_S800000x1_0 (X main_arg2)) (extf (F := Ideal) .f32 (X main_v86) bitsLt_bf16_f32)) := by
    dsimp only [hostOps5]
    after_results <;> rfl
  rw [e, ext_id, sdim2]
  rfl

/-- The node weights' first block as the stretch leaves it. -/
theorem s5_v95 (X : Valuation τ sig (Elt Ideal)) (w : S5x64x64.Idx → EReal) (hw : (X main_v23 : S5x64x64.Idx → EReal) = w) :
    (StableHlo.after (hostOps5 (F := Ideal)) X main_v95 : S64x64.Idx → EReal) = (shapeCast S64x64 (extractStridedSlice S1x64x64 ![2, 0, 0] w slices_S5x64x64_S1x64x64_2_0_0) shapeCasts_S1x64x64_S64x64) := by
  subst hw
  dsimp only [hostOps5]
  after_results <;> rfl

/-- The node weights' second block as the stretch leaves it. -/
theorem s5_v97 (X : Valuation τ sig (Elt Ideal)) (w : S5x64x64.Idx → EReal) (hw : (X main_v24 : S5x64x64.Idx → EReal) = w) :
    (StableHlo.after (hostOps5 (F := Ideal)) X main_v97 : S64x64.Idx → EReal) = (shapeCast S64x64 (extractStridedSlice S1x64x64 ![2, 0, 0] w slices_S5x64x64_S1x64x64_2_0_0) shapeCasts_S1x64x64_S64x64) := by
  subst hw
  dsimp only [hostOps5]
  after_results <;> rfl

/-- The bias row as the stretch leaves it. -/
theorem s5_v93 (X : Valuation τ sig (Elt Ideal)) (b : S5x64.Idx → EReal) (hb : (X main_arg9 : S5x64.Idx → EReal) = b) :
    (StableHlo.after (hostOps5 (F := Ideal)) X main_v93 : S1x64.Idx → EReal) = (shapeCast S1x64 (shapeCast S64 (extractStridedSlice S1x64 ![2, 0] b slices_S5x64_S1x64_2_0) shapeCasts_S1x64_S64) shapeCasts_S64_S1x64) := by
  subst hb
  dsimp only [hostOps5]
  after_results <;> rfl

/-- The node region of layer 2 is entered with the mailbox sum of what the edge region of layer 2 left. -/
theorem r5_v90 :
    (V11 m outs c main_v90 : S100000x64.Idx → EReal)
      = Host.scatterAdd (F := Ideal) (φ := .f32) Cert.ReferenceIdeal.scatter_S100000x64_S800000x1_S800000x64_1_0_0_1 (Cert.ReferenceIdeal.Read.val_main_v103 (F := Ideal)) (Cert.ReferenceIdeal.Read.val_main_v104 (F := Ideal) (x2 m c)) (outs 10 main_v86 c) :=
  s5_v90 (V10 m outs c) (x2 m c) (outs 10 main_v86 c) (arg2_at10 m outs c) (Function.update_self _ _ _)

/-- … with row `q`, columns 0 … 63 of layer 2's node weights, … -/
theorem r5_v95 (q k : Fin 64) :
    (V11 m outs c main_v95 : S64x64.Idx → EReal) (ix2 q k) = x8 m c (ix3 2 q ⟨k.val, by omega⟩) :=
  (congrFun (s5_v95 (V10 m outs c) _ (v23_at10 m outs c)) (ix2 q k)).trans (Cert.Net.Glue.w2a_read_2 (x8 m c) _ _ _ q k)

/-- … columns 64 … 127 of them, … -/
theorem r5_v97 (q k : Fin 64) :
    (V11 m outs c main_v97 : S64x64.Idx → EReal) (ix2 q k) = x8 m c (ix3 2 q ⟨64 + k.val, by omega⟩) :=
  (congrFun (s5_v97 (V10 m outs c) _ (v24_at10 m outs c)) (ix2 q k)).trans (Cert.Net.Glue.w2b_read_2 (x8 m c) _ _ _ q k)

/-- … and entry `q` of layer 2's bias. -/
theorem r5_v93 (q : Fin 64) :
    (V11 m outs c main_v93 : S1x64.Idx → EReal) (ix2 0 q) = x9 m c (ix2 2 q) :=
  (congrFun (s5_v93 (V10 m outs c) _ (arg9_at10 m outs c)) (ix2 0 q)).trans (Cert.Net.Glue.b2_read_2 (x9 m c) _ _ _ q)

/-! ## Stretch 7: before the node region of layer 3 -/

/-- The mailbox sum: the scatter-add of what the edge region left, as the reference's scatter stage spells it. -/
theorem s7_v114 (X : Valuation τ sig (Elt Ideal)) (a2 : S800000.Idx → BitVec 32) (u : S800000x64.Idx → EReal)
    (h2 : (X main_arg2 : S800000.Idx → BitVec 32) = a2) (hu : (X main_v110 : S800000x64.Idx → EReal) = u) :
    (StableHlo.after (hostOps7 (F := Ideal)) X main_v114 : S100000x64.Idx → EReal)
      = Host.scatterAdd (F := Ideal) (φ := .f32) Cert.ReferenceIdeal.scatter_S100000x64_S800000x1_S800000x64_1_0_0_1 (Cert.ReferenceIdeal.Read.val_main_v136 (F := Ideal)) (Cert.ReferenceIdeal.Read.val_main_v137 (F := Ideal) a2) u := by
  subst h2 hu
  have e : (StableHlo.after (hostOps7 (F := Ideal)) X main_v114 : S100000x64.Idx → EReal) = (Host.scatterAdd (F := Ideal) (φ := .f32) scatter_S100000x64_S800000x1_S800000x64_1_0_0_1 (broadcastInDim S100000x64 ![] bcast_S_S100000x64 (constant (F := Ideal) S_ .f32 0x00000000#32)) (broadcastInDim S800000x1 ![0] bcast_S800000_S800000x1_0 (X main_arg2)) (extf (F := Ideal) .f32 (X main_v110) bitsLt_bf16_f32)) := by
    dsimp only [hostOps7]
    after_results <;> rfl
  rw [e, ext_id, sdim2]
  rfl

/-- The node weights' first block as the stretch leaves it. -/
theorem s7_v119 (X : Valuation τ sig (Elt Ideal)) (w : S5x64x64.Idx → EReal) (hw : (X main_v23 : S5x64x64.Idx → EReal) = w) :
    (StableHlo.after (hostOps7 (F := Ideal)) X main_v119 : S64x64.Idx → EReal) = (shapeCast S64x64 (extractStridedSlice S1x64x64 ![3, 0, 0] w slices_S5x64x64_S1x64x64_3_0_0) shapeCasts_S1x64x64_S64x64) := by
  subst hw
  dsimp only [hostOps7]
  after_results <;> rfl

/-- The node weights' second block as the stretch leaves it. -/
theorem s7_v121 (X : Valuation τ sig (Elt Ideal)) (w : S5x64x64.Idx → EReal) (hw : (X main_v24 : S5x64x64.Idx → EReal) = w) :
    (StableHlo.after (hostOps7 (F := Ideal)) X main_v121 : S64x64.Idx → EReal) = (shapeCast S64x64 (extractStridedSlice S1x64x64 ![3, 0, 0] w slices_S5x64x64_S1x64x64_3_0_0) shapeCasts_S1x64x64_S64x64) := by
  subst hw
  dsimp only [hostOps7]
  after_results <;> rfl

/-- The bias row as the stretch leaves it. -/
theorem s7_v117 (X : Valuation τ sig (Elt Ideal)) (b : S5x64.Idx → EReal) (hb : (X main_arg9 : S5x64.Idx → EReal) = b) :
    (StableHlo.after (hostOps7 (F := Ideal)) X main_v117 : S1x64.Idx → EReal) = (shapeCast S1x64 (shapeCast S64 (extractStridedSlice S1x64 ![3, 0] b slices_S5x64_S1x64_3_0) shapeCasts_S1x64_S64) shapeCasts_S64_S1x64) := by
  subst hb
  dsimp only [hostOps7]
  after_results <;> rfl

/-- The node region of layer 3 is entered with the mailbox sum of what the edge region of layer 3 left. -/
theorem r7_v114 :
    (V15 m outs c main_v114 : S100000x64.Idx → EReal)
      = Host.scatterAdd (F := Ideal) (φ := .f32) Cert.ReferenceIdeal.scatter_S100000x64_S800000x1_S800000x64_1_0_0_1 (Cert.ReferenceIdeal.Read.val_main_v136 (F := Ideal)) (Cert.ReferenceIdeal.Read.val_main_v137 (F := Ideal) (x2 m c)) (outs 14 main_v110 c) :=
  s7_v114 (V14 m outs c) (x2 m c) (outs 14 main_v110 c) (arg2_at14 m outs c) (Function.update_self _ _ _)

/-- … with row `q`, columns 0 … 63 of layer 3's node weights, … -/
theorem r7_v119 (q k : Fin 64) :
    (V15 m outs c main_v119 : S64x64.Idx → EReal) (ix2 q k) = x8 m c (ix3 3 q ⟨k.val, by omega⟩) :=
  (congrFun (s7_v119 (V14 m outs c) _ (v23_at14 m outs c)) (ix2 q k)).trans (Cert.Net.Glue.w2a_read_3 (x8 m c) _ _ _ q k)

/-- … columns 64 … 127 of them, … -/
theorem r7_v121 (q k : Fin 64) :
    (V15 m outs c main_v121 : S64x64.Idx → EReal) (ix2 q k) = x8 m c (ix3 3 q ⟨64 + k.val, by omega⟩) :=
  (congrFun (s7_v121 (V14 m outs c) _ (v24_at14 m outs c)) (ix2 q k)).trans (Cert.Net.Glue.w2b_read_3 (x8 m c) _ _ _ q k)

/-- … and entry `q` of layer 3's bias. -/
theorem r7_v117 (q : Fin 64) :
    (V15 m outs c main_v117 : S1x64.Idx → EReal) (ix2 0 q) = x9 m c (ix2 3 q) :=
  (congrFun (s7_v117 (V14 m outs c) _ (arg9_at14 m outs c)) (ix2 0 q)).trans (Cert.Net.Glue.b2_read_3 (x9 m c) _ _ _ q)

/-! ## Stretch 9: before the node region of layer 4 -/

/-- The mailbox sum: the scatter-add of what the edge region left, as the reference's scatter stage spells it. -/
theorem s9_v138 (X : Valuation τ sig (Elt Ideal)) (a2 : S800000.Idx → BitVec 32) (u : S800000x64.Idx → EReal)
    (h2 : (X main_arg2 : S800000.Idx → BitVec 32) = a2) (hu : (X main_v134 : S800000x64.Idx → EReal) = u) :
    (StableHlo.after (hostOps9 (F := Ideal)) X main_v138 : S100000x64.Idx → EReal)
      = Host.scatterAdd (F := Ideal) (φ := .f32) Cert.ReferenceIdeal.scatter_S100000x64_S800000x1_S800000x64_1_0_0_1 (Cert.ReferenceIdeal.Read.val_main_v169 (F := Ideal)) (Cert.ReferenceIdeal.Read.val_main_v170 (F := Ideal) a2) u := by
  subst h2 hu
  have e : (StableHlo.after (hostOps9 (F := Ideal)) X main_v138 : S100000x64.Idx → EReal) = (Host.scatterAdd (F := Ideal) (φ := .f32) scatter_S100000x64_S800000x1_S800000x64_1_0_0_1 (broadcastInDim S100000x64 ![] bcast_S_S100000x64 (constant (F := Ideal) S_ .f32 0x00000000#32)) (broadcastInDim S800000x1 ![0] bcast_S800000_S800000x1_0 (X main_arg2)) (extf (F := Ideal) .f32 (X main_v134) bitsLt_bf16_f32)) := by
    dsimp only [hostOps9]
    after_results <;> rfl
  rw [e, ext_id, sdim2]
  rfl

/-- The node weights' first block as the stretch leaves it. -/
theorem s9_v143 (X : Valuation τ sig (Elt Ideal)) (w : S5x64x64.Idx → EReal) (hw : (X main_v23 : S5x64x64.Idx → EReal) = w) :
    (StableHlo.after (hostOps9 (F := Ideal)) X main_v143 : S64x64.Idx → EReal) = (shapeCast S64x64 (extractStridedSlice S1x64x64 ![4, 0, 0] w slices_S5x64x64_S1x64x64_4_0_0) shapeCasts_S1x64x64_S64x64) := by
  subst hw
  dsimp only [hostOps9]
  after_results <;> rfl

/-- The node weights' second block as the stretch leaves it. -/
theorem s9_v145 (X : Valuation τ sig (Elt Ideal)) (w : S5x64x64.Idx → EReal) (hw : (X main_v24 : S5x64x64.Idx → EReal) = w) :
    (StableHlo.after (hostOps9 (F := Ideal)) X main_v145 : S64x64.Idx → EReal) = (shapeCast S64x64 (extractStridedSlice S1x64x64 ![4, 0, 0] w slices_S5x64x64_S1x64x64_4_0_0) shapeCasts_S1x64x64_S64x64) := by
  subst hw
  dsimp only [hostOps9]
  after_results <;> rfl

/-- The bias row as the stretch leaves it. -/
theorem s9_v141 (X : Valuation τ sig (Elt Ideal)) (b : S5x64.Idx → EReal) (hb : (X main_arg9 : S5x64.Idx → EReal) = b) :
    (StableHlo.after (hostOps9 (F := Ideal)) X main_v141 : S1x64.Idx → EReal) = (shapeCast S1x64 (shapeCast S64 (extractStridedSlice S1x64 ![4, 0] b slices_S5x64_S1x64_4_0) shapeCasts_S1x64_S64) shapeCasts_S64_S1x64) := by
  subst hb
  dsimp only [hostOps9]
  after_results <;> rfl

/-- The node region of layer 4 is entered with the mailbox sum of what the edge region of layer 4 left. -/
theorem r9_v138 :
    (V19 m outs c main_v138 : S100000x64.Idx → EReal)
      = Host.scatterAdd (F := Ideal) (φ := .f32) Cert.ReferenceIdeal.scatter_S100000x64_S800000x1_S800000x64_1_0_0_1 (Cert.ReferenceIdeal.Read.val_main_v169 (F := Ideal)) (Cert.ReferenceIdeal.Read.val_main_v170 (F := Ideal) (x2 m c)) (outs 18 main_v134 c) :=
  s9_v138 (V18 m outs c) (x2 m c) (outs 18 main_v134 c) (arg2_at18 m outs c) (Function.update_self _ _ _)

/-- … with row `q`, columns 0 … 63 of layer 4's node weights, … -/
theorem r9_v143 (q k : Fin 64) :
    (V19 m outs c main_v143 : S64x64.Idx → EReal) (ix2 q k) = x8 m c (ix3 4 q ⟨k.val, by omega⟩) :=
  (congrFun (s9_v143 (V18 m outs c) _ (v23_at18 m outs c)) (ix2 q k)).trans (Cert.Net.Glue.w2a_read_4 (x8 m c) _ _ _ q k)

/-- … columns 64 … 127 of them, … -/
theorem r9_v145 (q k : Fin 64) :
    (V19 m outs c main_v145 : S64x64.Idx → EReal) (ix2 q k) = x8 m c (ix3 4 q ⟨64 + k.val, by omega⟩) :=
  (congrFun (s9_v145 (V18 m outs c) _ (v24_at18 m outs c)) (ix2 q k)).trans (Cert.Net.Glue.w2b_read_4 (x8 m c) _ _ _ q k)

/-- … and entry `q` of layer 4's bias. -/
theorem r9_v141 (q : Fin 64) :
    (V19 m outs c main_v141 : S1x64.Idx → EReal) (ix2 0 q) = x9 m c (ix2 4 q) :=
  (congrFun (s9_v141 (V18 m outs c) _ (arg9_at18 m outs c)) (ix2 0 q)).trans (Cert.Net.Glue.b2_read_4 (x9 m c) _ _ _ q)

end Cert.Net.KRead

end
-- ==== Proof.KReadEven.lean ====
/-
  The kernel program's host stretches before the edge regions of layers 1 … 4, read at the ideal values: each leaves
  the gathered source features (the gather of what the node region left, spelt as the reference's gather stage) and
  the layer's edge weight blocks, which are read at an index.
-/
import proofs.«149571_j25649544692292_2_alg».proof.Proof.Gen.KernelIdeal.Regions
import proofs.«149571_j25649544692292_2_alg».proof.Proof.RefReadP
import proofs.«149571_j25649544692292_2_alg».proof.Proof.GlueRead
import proofs.«149571_j25649544692292_2_alg».proof.Proof.KRead0
import proofs.«149571_j25649544692292_2_alg».proof.Proof.KReadW
import Idealize.ShloMosaic.Lib.Pipeline.Value
import Idealize.ShloMosaic.Lib.ValueIdx
import Idealize.ShloMosaic.PureOps.Ideal.Laws

set_option maxRecDepth 1656

noncomputable section

namespace Cert.Net.KRead

open Cert.KernelIdeal Cert.KernelIdeal.Gen Idealize.ShloMosaic Idealize.ShloMosaic.ValueIdx Idealize.ShloMosaic.TcCoe
open scoped BigOperators

variable (m : (ℓ : Loc nD τ sig) → Buf (Elt Ideal) ℓ) (outs : Outs (F := Ideal)) (c : Dev nD)

/-! ## Stretch 2: before the edge region of layer 1 -/

/-- The gathered source features: the gather of what the node region left, as the reference's gather stage spells it. -/
theorem s2_v57 (X : Valuation τ sig (Elt Ideal)) (a1 : S800000.Idx → BitVec 32) (h : S100000x64.Idx → EReal)
    (h1 : (X main_arg1 : S800000.Idx → BitVec 32) = a1) (hh : (X main_v50 : S100000x64.Idx → EReal) = h) :
    (StableHlo.after (hostOps2 (F := Ideal)) X main_v57 : S800000x64.Idx → EReal)
      = Host.gather Cert.ReferenceIdeal.gather_S100000x64_S800000x1_S800000x64_1_0_n_n_0_1_164 h (Cert.ReferenceIdeal.Read.val_main_v58 (F := Ideal) a1) := by
  subst h1 hh
  have e : (StableHlo.after (hostOps2 (F := Ideal)) X main_v57 : S800000x64.Idx → EReal) = (Host.gather gather_S100000x64_S800000x1_S800000x64_1_0_n_n_0_1_164 (X main_v50) (broadcastInDim S800000x1 ![0] bcast_S800000_S800000x1_0 (select (cmpi .slt (X main_arg1) (broadcastInDim S800000 ![] bcast_S_S800000 (constantI S_ 32 0#32))) (addi (X main_arg1) (broadcastInDim S800000 ![] bcast_S_S800000 (constantI S_ 32 100000#32))) (X main_arg1)))) := by
    dsimp only [hostOps2]
    after_results <;> rfl
  rw [e, gdim2]
  rfl

/-- The edge weights' first block as the stretch leaves it. -/
theorem s2_v59 (X : Valuation τ sig (Elt Ideal)) (w : S5x64x64.Idx → EReal) (hw : (X main_v21 : S5x64x64.Idx → EReal) = w) :
    (StableHlo.after (hostOps2 (F := Ideal)) X main_v59 : S64x64.Idx → EReal) = (shapeCast S64x64 (extractStridedSlice S1x64x64 ![1, 0, 0] w slices_S5x64x64_S1x64x64_1_0_0) shapeCasts_S1x64x64_S64x64) := by
  subst hw
  dsimp only [hostOps2]
  after_results <;> rfl

/-- The edge weights' second block as the stretch leaves it. -/
theorem s2_v61 (X : Valuation τ sig (Elt Ideal)) (w : S5x64x3.Idx → EReal) (hw : (X main_v22 : S5x64x3.Idx → EReal) = w) :
    (StableHlo.after (hostOps2 (F := Ideal)) X main_v61 : S64x3.Idx → EReal) = (shapeCast S64x3 (extractStridedSlice S1x64x3 ![1, 0, 0] w slices_S5x64x3_S1x64x3_1_0_0) shapeCasts_S1x64x3_S64x3) := by
  subst hw
  dsimp only [hostOps2]
  after_results <;> rfl

/-- The edge region of layer 1 is entered with the gather of what the node region of layer 0 left. -/
theorem r2_v57 :
    (V5 m outs c main_v57 : S800000x64.Idx → EReal)
      = Host.gather Cert.ReferenceIdeal.gather_S100000x64_S800000x1_S800000x64_1_0_n_n_0_1_164 (outs 4 main_v50 c) (Cert.ReferenceIdeal.Read.val_main_v58 (F := Ideal) (x1 m c)) :=
  s2_v57 (V4 m outs c) (x1 m c) (outs 4 main_v50 c) (arg1_at4 m outs c) (Function.update_self _ _ _)

/-- … with row `q`, columns 0 … 63 of layer 1's edge weights, … -/
theorem r2_v59 (q k : Fin 64) :
    (V5 m outs c main_v59 : S64x64.Idx → EReal) (ix2 q k) = x7 m c (ix3 1 q ⟨k.val, by omega⟩) :=
  (congrFun (s2_v59 (V4 m outs c) _ (v21_at4 m outs c)) (ix2 q k)).trans (Cert.Net.Glue.w1a_read_1 (x7 m c) _ _ _ q k)

/-- … and columns 64 … 66 of them. -/
theorem r2_v61 (q : Fin 64) (k : Fin 3) :
    (V5 m outs c main_v61 : S64x3.Idx → EReal) (ix2 q k) = x7 m c (ix3 1 q ⟨64 + k.val, by omega⟩) :=
  (congrFun (s2_v61 (V4 m outs c) _ (v22_at4 m outs c)) (ix2 q k)).trans (Cert.Net.Glue.w1b_read_1 (x7 m c) _ _ _ q k)

/-! ## Stretch 4: before the edge region of layer 2 -/

/-- The gathered source features: the gather of what the node region left, as the reference's gather stage spells it. -/
theorem s4_v81 (X : Valuation τ sig (Elt Ideal)) (a1 : S800000.Idx → BitVec 32) (h : S100000x64.Idx → EReal)
    (h1 : (X main_arg1 : S800000.Idx → BitVec 32) = a1) (hh : (X main_v74 : S100000x64.Idx → EReal) = h) :
    (StableHlo.after (hostOps4 (F := Ideal)) X main_v81 : S800000x64.Idx → EReal)
      = Host.gather Cert.ReferenceIdeal.gather_S100000x64_S800000x1_S800000x64_1_0_n_n_0_1_164 h (Cert.ReferenceIdeal.Read.val_main_v91 (F := Ideal) a1) := by
  subst h1 hh
  have e : (StableHlo.after (hostOps4 (F := Ideal)) X main_v81 : S800000x64.Idx → EReal) = (Host.gather gather_S100000x64_S800000x1_S800000x64_1_0_n_n_0_1_164 (X main_v74) (broadcastInDim S800000x1 ![0] bcast_S800000_S800000x1_0 (select (cmpi .slt (X main_arg1) (broadcastInDim S800000 ![] bcast_S_S800000 (constantI S_ 32 0#32))) (addi (X main_arg1) (broadcastInDim S800000 ![] bcast_S_S800000 (constantI S_ 32 100000#32))) (X main_arg1)))) := by
    dsimp only [hostOps4]
    after_results <;> rfl
  rw [e, gdim2]
  rfl

/-- The edge weights' first block as the stretch leaves it. -/
theorem s4_v83 (X : Valuation τ sig (Elt Ideal)) (w : S5x64x64.Idx → EReal) (hw : (X main_v21 : S5x64x64.Idx → EReal) = w) :
    (StableHlo.after (hostOps4 (F := Ideal)) X main_v83 : S64x64.Idx → EReal) = (shapeCast S64x64 (extractStridedSlice S1x64x64 ![2, 0, 0] w slices_S5x64x64_S1x64x64_2_0_0) shapeCasts_S1x64x64_S64x64) := by
  subst hw
  dsimp only [hostOps4]
  after_results <;> rfl

/-- The edge weights' second block as the stretch leaves it. -/
theorem s4_v85 (X : Valuation τ sig (Elt Ideal)) (w : S5x64x3.Idx → EReal) (hw : (X main_v22 : S5x64x3.Idx → EReal) = w) :
    (StableHlo.after (hostOps4 (F := Ideal)) X main_v85 : S64x3.Idx → EReal) = (shapeCast S64x3 (extractStridedSlice S1x64x3 ![2, 0, 0] w slices_S5x64x3_S1x64x3_2_0_0) shapeCasts_S1x64x3_S64x3) := by
  subst hw
  dsimp only [hostOps4]
  after_results <;> rfl

/-- The edge region of layer 2 is entered with the gather of what the node region of layer 1 left. -/
theorem r4_v81 :
    (V9 m outs c main_v81 : S800000x64.Idx → EReal)
      = Host.gather Cert.ReferenceIdeal.gather_S100000x64_S800000x1_S800000x64_1_0_n_n_0_1_164 (outs 8 main_v74 c) (Cert.ReferenceIdeal.Read.val_main_v91 (F := Ideal) (x1 m c)) :=
  s4_v81 (V8 m outs c) (x1 m c) (outs 8 main_v74 c) (arg1_at8 m outs c) (Function.update_self _ _ _)

/-- … with row `q`, columns 0 … 63 of layer 2's edge weights, … -/
theorem r4_v83 (q k : Fin 64) :
    (V9 m outs c main_v83 : S64x64.Idx → EReal) (ix2 q k) = x7 m c (ix3 2 q ⟨k.val, by omega⟩) :=
  (congrFun (s4_v83 (V8 m outs c) _ (v21_at8 m outs c)) (ix2 q k)).trans (Cert.Net.Glue.w1a_read_2 (x7 m c) _ _ _ q k)

/-- … and columns 64 … 66 of them. -/
theorem r4_v85 (q : Fin 64) (k : Fin 3) :
    (V9 m outs c main_v85 : S64x3.Idx → EReal) (ix2 q k) = x7 m c (ix3 2 q ⟨64 + k.val, by omega⟩) :=
  (congrFun (s4_v85 (V8 m outs c) _ (v22_at8 m outs c)) (ix2 q k)).trans (Cert.Net.Glue.w1b_read_2 (x7 m c) _ _ _ q k)

/-! ## Stretch 6: before the edge region of layer 3 -/

/-- The gathered source features: the gather of what the node region left, as the reference's gather stage spells it. -/
theorem s6_v105 (X : Valuation τ sig (Elt Ideal)) (a1 : S800000.Idx → BitVec 32) (h : S100000x64.Idx → EReal)
    (h1 : (X main_arg1 : S800000.Idx → BitVec 32) = a1) (hh : (X main_v98 : S100000x64.Idx → EReal) = h) :
    (StableHlo.after (hostOps6 (F := Ideal)) X main_v105 : S800000x64.Idx → EReal)
      = Host.gather Cert.ReferenceIdeal.gather_S100000x64_S800000x1_S800000x64_1_0_n_n_0_1_164 h (Cert.ReferenceIdeal.Read.val_main_v124 (F := Ideal) a1) := by
  subst h1 hh
  have e : (StableHlo.after (hostOps6 (F := Ideal)) X main_v105 : S800000x64.Idx → EReal) = (Host.gather gather_S100000x64_S800000x1_S800000x64_1_0_n_n_0_1_164 (X main_v98) (broadcastInDim S800000x1 ![0] bcast_S800000_S800000x1_0 (select (cmpi .slt (X main_arg1) (broadcastInDim S800000 ![] bcast_S_S800000 (constantI S_ 32 0#32))) (addi (X main_arg1) (broadcastInDim S800000 ![] bcast_S_S800000 (constantI S_ 32 100000#32))) (X main_arg1)))) := by
    dsimp only [hostOps6]
    after_results <;> rfl
  rw [e, gdim2]
  rfl

/-- The edge weights' first block as the stretch leaves it. -/
theorem s6_v107 (X : Valuation τ sig (Elt Ideal)) (w : S5x64x64.Idx → EReal) (hw : (X main_v21 : S5x64x64.Idx → EReal) = w) :
    (StableHlo.after (hostOps6 (F := Ideal)) X main_v107 : S64x64.Idx → EReal) = (shapeCast S64x64 (extractStridedSlice S1x64x64 ![3, 0, 0] w slices_S5x64x64_S1x64x64_3_0_0) shapeCasts_S1x64x64_S64x64) := by
  subst hw
  dsimp only [hostOps6]
  after_results <;> rfl

/-- The edge weights' second block as the stretch leaves it. -/
theorem s6_v109 (X : Valuation τ sig (Elt Ideal)) (w : S5x64x3.Idx → EReal) (hw : (X main_v22 : S5x64x3.Idx → EReal) = w) :
    (StableHlo.after (hostOps6 (F := Ideal)) X main_v109 : S64x3.Idx → EReal) = (shapeCast S64x3 (extractStridedSlice S1x64x3 ![3, 0, 0] w slices_S5x64x3_S1x64x3_3_0_0) shapeCasts_S1x64x3_S64x3) := by
  subst hw
  dsimp only [hostOps6]
  after_results <;> rfl

/-- The edge region of layer 3 is entered with the gather of what the node region of layer 2 left. -/
theorem r6_v105 :
    (V13 m outs c main_v105 : S800000x64.Idx → EReal)
      = Host.gather Cert.ReferenceIdeal.gather_S100000x64_S800000x1_S800000x64_1_0_n_n_0_1_164 (outs 12 main_v98 c) (Cert.ReferenceIdeal.Read.val_main_v124 (F := Ideal) (x1 m c)) :=
  s6_v105 (V12 m outs c) (x1 m c) (outs 12 main_v98 c) (arg1_at12 m outs c) (Function.update_self _ _ _)

/-- … with row `q`, columns 0 … 63 of layer 3's edge weights, … -/
theorem r6_v107 (q k : Fin 64) :
    (V13 m outs c main_v107 : S64x64.Idx → EReal) (ix2 q k) = x7 m c (ix3 3 q ⟨k.val, by omega⟩) :=
  (congrFun (s6_v107 (V12 m outs c) _ (v21_at12 m outs c)) (ix2 q k)).trans (Cert.Net.Glue.w1a_read_3 (x7 m c) _ _ _ q k)

/-- … and columns 64 … 66 of them. -/
theorem r6_v109 (q : Fin 64) (k : Fin 3) :
    (V13 m outs c main_v109 : S64x3.Idx → EReal) (ix2 q k) = x7 m c (ix3 3 q ⟨64 + k.val, by omega⟩) :=
  (congrFun (s6_v109 (V12 m outs c) _ (v22_at12 m outs c)) (ix2 q k)).trans (Cert.Net.Glue.w1b_read_3 (x7 m c) _ _ _ q k)

/-! ## Stretch 8: before the edge region of layer 4 -/

/-- The gathered source features: the gather of what the node region left, as the reference's gather stage spells it. -/
theorem s8_v129 (X : Valuation τ sig (Elt Ideal)) (a1 : S800000.Idx → BitVec 32) (h : S100000x64.Idx → EReal)
    (h1 : (X main_arg1 : S800000.Idx → BitVec 32) = a1) (hh : (X main_v122 : S100000x64.Idx → EReal) = h) :
    (StableHlo.after (hostOps8 (F := Ideal)) X main_v129 : S800000x64.Idx → EReal)
      = Host.gather Cert.ReferenceIdeal.gather_S100000x64_S800000x1_S800000x64_1_0_n_n_0_1_164 h (Cert.ReferenceIdeal.Read.val_main_v157 (F := Ideal) a1) := by
  subst h1 hh
  have e : (StableHlo.after (hostOps8 (F := Ideal)) X main_v129 : S800000x64.Idx → EReal) = (Host.gather gather_S100000x64_S800000x1_S800000x64_1_0_n_n_0_1_164 (X main_v122) (broadcastInDim S800000x1 ![0] bcast_S800000_S800000x1_0 (select (cmpi .slt (X main_arg1) (broadcastInDim S800000 ![] bcast_S_S800000 (constantI S_ 32 0#32))) (addi (X main_arg1) (broadcastInDim S800000 ![] bcast_S_S800000 (constantI S_ 32 100000#32))) (X main_arg1)))) := by
    dsimp only [hostOps8]
    after_results <;> rfl
  rw [e, gdim2]
  rfl

/-- The edge weights' first block as the stretch leaves it. -/
theorem s8_v131 (X : Valuation τ sig (Elt Ideal)) (w : S5x64x64.Idx → EReal) (hw : (X main_v21 : S5x64x64.Idx → EReal) = w) :
    (StableHlo.after (hostOps8 (F := Ideal)) X main_v131 : S64x64.Idx → EReal) = (shapeCast S64x64 (extractStridedSlice S1x64x64 ![4, 0, 0] w slices_S5x64x64_S1x64x64_4_0_0) shapeCasts_S1x64x64_S64x64) := by
  subst hw
  dsimp only [hostOps8]
  after_results <;> rfl

/-- The edge weights' second block as the stretch leaves it. -/
theorem s8_v133 (X : Valuation τ sig (Elt Ideal)) (w : S5x64x3.Idx → EReal) (hw : (X main_v22 : S5x64x3.Idx → EReal) = w) :
    (StableHlo.after (hostOps8 (F := Ideal)) X main_v133 : S64x3.Idx → EReal) = (shapeCast S64x3 (extractStridedSlice S1x64x3 ![4, 0, 0] w slices_S5x64x3_S1x64x3_4_0_0) shapeCasts_S1x64x3_S64x3) := by
  subst hw
  dsimp only [hostOps8]
  after_results <;> rfl

/-- The edge region of layer 4 is entered with the gather of what the node region of layer 3 left. -/
theorem r8_v129 :
    (V17 m outs c main_v129 : S800000x64.Idx → EReal)
      = Host.gather Cert.ReferenceIdeal.gather_S100000x64_S800000x1_S800000x64_1_0_n_n_0_1_164 (outs 16 main_v122 c) (Cert.ReferenceIdeal.Read.val_main_v157 (F := Ideal) (x1 m c)) :=
  s8_v129 (V16 m outs c) (x1 m c) (outs 16 main_v122 c) (arg1_at16 m outs c) (Function.update_self _ _ _)

/-- … with row `q`, columns 0 … 63 of layer 4's edge weights, … -/
theorem r8_v131 (q k : Fin 64) :
    (V17 m outs c main_v131 : S64x64.Idx → EReal) (ix2 q k) = x7 m c (ix3 4 q ⟨k.val, by omega⟩) :=
  (congrFun (s8_v131 (V16 m outs c) _ (v21_at16 m outs c)) (ix2 q k)).trans (Cert.Net.Glue.w1a_read_4 (x7 m c) _ _ _ q k)

/-- … and columns 64 … 66 of them. -/
theorem r8_v133 (q : Fin 64) (k : Fin 3) :
    (V17 m outs c main_v133 : S64x3.Idx → EReal) (ix2 q k) = x7 m c (ix3 4 q ⟨64 + k.val, by omega⟩) :=
  (congrFun (s8_v133 (V16 m outs c) _ (v22_at16 m outs c)) (ix2 q k)).trans (Cert.Net.Glue.w1b_read_4 (x7 m c) _ _ _ q k)

end Cert.Net.KRead

end
-- ==== Proof.KI.Value.lean ====
/-
  The idealized kernel program's result is the reference's. Layer by layer, over the extended reals: the embedded
  node features agree (a change of float format is the identity); an edge region's output array is the reference's
  leaky-rectified messages, because each entry is the same cell function of the same rows — the gathered features
  by the previous stage's equality under the same gather, the edge features, and the two parts of the layer's
  weight row —, the reference's 67-term contraction being the two sums regrouped; a node region's output is the
  reference's rectified update, its mailbox sum the same scatter-add of equal messages; and the head region's
  output is the reference's scores.
-/
import proofs.«149571_j25649544692292_2_alg».proof.Proof.KI.Outs
import proofs.«149571_j25649544692292_2_alg».proof.Proof.KI.Val0
import proofs.«149571_j25649544692292_2_alg».proof.Proof.KI.Val1
import proofs.«149571_j25649544692292_2_alg».proof.Proof.KI.Val2
import proofs.«149571_j25649544692292_2_alg».proof.Proof.KI.Val3
import proofs.«149571_j25649544692292_2_alg».proof.Proof.KI.Val4
import proofs.«149571_j25649544692292_2_alg».proof.Proof.KI.Val5
import proofs.«149571_j25649544692292_2_alg».proof.Proof.KI.Val6
import proofs.«149571_j25649544692292_2_alg».proof.Proof.KI.Val7
import proofs.«149571_j25649544692292_2_alg».proof.Proof.KI.Val8
import proofs.«149571_j25649544692292_2_alg».proof.Proof.KI.Val9
import proofs.«149571_j25649544692292_2_alg».proof.Proof.KI.Val10
import proofs.«149571_j25649544692292_2_alg».proof.Proof.RefEdge
import proofs.«149571_j25649544692292_2_alg».proof.Proof.RefNode
import proofs.«149571_j25649544692292_2_alg».proof.Proof.RefFinal
import proofs.«149571_j25649544692292_2_alg».proof.Proof.KRead0
import proofs.«149571_j25649544692292_2_alg».proof.Proof.KReadOdd
import proofs.«149571_j25649544692292_2_alg».proof.Proof.KReadEven
import proofs.«149571_j25649544692292_2_alg».proof.Proof.KReadW

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Cert.Net.KRead

variable (m : (ℓ : Loc nD τ sig) → Buf (Elt Ideal) ℓ) (c : Dev nD)

theorem atU3 (r : Ref sig .tc) : V3 m (outsF m) c r = U3 m c r := congrFun (V3_eq m c) r
theorem atU5 (r : Ref sig .tc) : V5 m (outsF m) c r = U5 m c r := congrFun (V5_eq m c) r
theorem atU7 (r : Ref sig .tc) : V7 m (outsF m) c r = U7 m c r := congrFun (V7_eq m c) r
theorem atU9 (r : Ref sig .tc) : V9 m (outsF m) c r = U9 m c r := congrFun (V9_eq m c) r
theorem atU11 (r : Ref sig .tc) : V11 m (outsF m) c r = U11 m c r := congrFun (V11_eq m c) r
theorem atU13 (r : Ref sig .tc) : V13 m (outsF m) c r = U13 m c r := congrFun (V13_eq m c) r
theorem atU15 (r : Ref sig .tc) : V15 m (outsF m) c r = U15 m c r := congrFun (V15_eq m c) r
theorem atU17 (r : Ref sig .tc) : V17 m (outsF m) c r = U17 m c r := congrFun (V17_eq m c) r
theorem atU19 (r : Ref sig .tc) : V19 m (outsF m) c r = U19 m c r := congrFun (V19_eq m c) r
theorem atU20 (r : Ref sig .tc) : V20 m (outsF m) c r = U20 m c r := congrFun (V20_eq m c) r

set_option maxHeartbeats 4000000 in
/-- Layer 0's messages: the edge region's output array is the reference's. -/
theorem stageE0 : (o2 m c : S800000x64.Idx → EReal) = Cert.ReferenceIdeal.Read.val_main_v36 (F := Ideal) (x0 m c) (x1 m c) (x3 m c) (x4 m c) (x5 m c) (x6 m c) (x7 m c) := by
  funext i
  obtain ⟨e, j, rfl⟩ : ∃ (e : Fin 800000) (j : Fin 64), i = ix2 e j := ⟨i 0, i 1, eq_ix2 i⟩
  refine (congrFun (final0 (Ur1 m) c) (ix2 e j)).trans ?_
  rw [Cert.Net.Ref.edge_0]
  show Cert.Net.edgeCell _ _ _ _ = _
  refine congr (congr (congr (congrArg Cert.Net.edgeCell ?_) ?_) ?_) ?_
  · funext k; exact congrFun (v33_read m c) (ix2 e k)
  · funext k; exact congrFun (v3_read m c) (ix2 e k)
  · funext k; exact v35_read m c j k
  · funext k; exact v37_read m c j k

set_option maxHeartbeats 4000000 in
/-- Layer 0's mailbox sums: the same scatter-add of equal messages. -/
theorem stageS0 : (U3 m c main_v42 : S100000x64.Idx → EReal) = Cert.ReferenceIdeal.Read.val_main_v39 (F := Ideal) (x0 m c) (x1 m c) (x2 m c) (x3 m c) (x4 m c) (x5 m c) (x6 m c) (x7 m c) :=
  ((atU3 m c main_v42).symm.trans (r1_v42 m (outsF m) c)).trans
    ((congrArg (fun u => Host.scatterAdd (F := Ideal) Cert.ReferenceIdeal.scatter_S100000x64_S800000x1_S800000x64_1_0_0_1 (Cert.ReferenceIdeal.Read.val_main_v37 (F := Ideal)) (Cert.ReferenceIdeal.Read.val_main_v38 (F := Ideal) (x2 m c)) u)
      ((outs_at2 m c).trans (stageE0 m c))).trans rfl)

set_option maxHeartbeats 4000000 in
/-- Layer 0's node features: the node region's output array is the reference's. -/
theorem stageN0 : (o4 m c : S100000x64.Idx → EReal) = Cert.ReferenceIdeal.Read.val_main_v52 (F := Ideal) (x0 m c) (x1 m c) (x2 m c) (x3 m c) (x4 m c) (x5 m c) (x6 m c) (x7 m c) (x8 m c) (x9 m c) := by
  funext i
  obtain ⟨n, j, rfl⟩ : ∃ (n : Fin 100000) (j : Fin 64), i = ix2 n j := ⟨i 0, i 1, eq_ix2 i⟩
  refine (congrFun (final1 (Ur3 m) c) (ix2 n j)).trans ?_
  rw [Cert.Net.Ref.node_0]
  show Cert.Net.nodeCell _ _ _ _ _ _ = _
  refine congr (congr (congr (congr (congr (congrArg Cert.Net.nodeCell ?_) ?_) ?_) ?_) ?_) ?_
  · funext k; exact congrFun ((atU3 m c main_v20).symm.trans (v20_at3 m (outsF m) c)) (ix2 n k)
  · funext k; exact congrFun (stageS0 m c) (ix2 n k)
  · exact congrFun ((atU3 m c main_v12).symm.trans (v12_at3 m (outsF m) c)) (ix2 n 0)
  · funext k; exact (congrFun (atU3 m c main_v47) _).symm.trans (r1_v47 m (outsF m) c j k)
  · funext k; exact (congrFun (atU3 m c main_v49) _).symm.trans (r1_v49 m (outsF m) c j k)
  · exact (congrFun (atU3 m c main_v45) _).symm.trans (r1_v45 m (outsF m) c j)

set_option maxHeartbeats 4000000 in
/-- Layer 1's messages: the edge region's output array is the reference's. -/
theorem stageE1 : (o6 m c : S800000x64.Idx → EReal) = Cert.ReferenceIdeal.Read.val_main_v69 (F := Ideal) (x0 m c) (x1 m c) (x2 m c) (x3 m c) (x4 m c) (x5 m c) (x6 m c) (x7 m c) (x8 m c) (x9 m c) := by
  funext i
  obtain ⟨e, j, rfl⟩ : ∃ (e : Fin 800000) (j : Fin 64), i = ix2 e j := ⟨i 0, i 1, eq_ix2 i⟩
  refine (congrFun (final2 (Ur5 m) c) (ix2 e j)).trans ?_
  rw [Cert.Net.Ref.edge_1]
  show Cert.Net.edgeCell _ _ _ _ = _
  refine congr (congr (congr (congrArg Cert.Net.edgeCell ?_) ?_) ?_) ?_
  · funext k; exact congrFun (((atU5 m c main_v57).symm.trans (r2_v57 m (outsF m) c)).trans
        ((congrArg (fun h => Host.gather Cert.ReferenceIdeal.gather_S100000x64_S800000x1_S800000x64_1_0_n_n_0_1_164 h (Cert.ReferenceIdeal.Read.val_main_v58 (F := Ideal) (x1 m c)))
          ((outs_at4 m c).trans (stageN0 m c))).trans rfl)) (ix2 e k)
  · funext k; exact congrFun ((atU5 m c main_v3).symm.trans (v3_at5 m (outsF m) c)) (ix2 e k)
  · funext k; exact (congrFun (atU5 m c main_v59) _).symm.trans (r2_v59 m (outsF m) c j k)
  · funext k; exact (congrFun (atU5 m c main_v61) _).symm.trans (r2_v61 m (outsF m) c j k)

set_option maxHeartbeats 4000000 in
/-- Layer 1's mailbox sums: the same scatter-add of equal messages. -/
theorem stageS1 : (U7 m c main_v66 : S100000x64.Idx → EReal) = Cert.ReferenceIdeal.Read.val_main_v72 (F := Ideal) (x0 m c) (x1 m c) (x2 m c) (x3 m c) (x4 m c) (x5 m c) (x6 m c) (x7 m c) (x8 m c) (x9 m c) :=
  ((atU7 m c main_v66).symm.trans (r3_v66 m (outsF m) c)).trans
    ((congrArg (fun u => Host.scatterAdd (F := Ideal) Cert.ReferenceIdeal.scatter_S100000x64_S800000x1_S800000x64_1_0_0_1 (Cert.ReferenceIdeal.Read.val_main_v70 (F := Ideal)) (Cert.ReferenceIdeal.Read.val_main_v71 (F := Ideal) (x2 m c)) u)
      ((outs_at6 m c).trans (stageE1 m c))).trans rfl)

set_option maxHeartbeats 4000000 in
/-- Layer 1's node features: the node region's output array is the reference's. -/
theorem stageN1 : (o8 m c : S100000x64.Idx → EReal) = Cert.ReferenceIdeal.Read.val_main_v85 (F := Ideal) (x0 m c) (x1 m c) (x2 m c) (x3 m c) (x4 m c) (x5 m c) (x6 m c) (x7 m c) (x8 m c) (x9 m c) := by
  funext i
  obtain ⟨n, j, rfl⟩ : ∃ (n : Fin 100000) (j : Fin 64), i = ix2 n j := ⟨i 0, i 1, eq_ix2 i⟩
  refine (congrFun (final3 (Ur7 m) c) (ix2 n j)).trans ?_
  rw [Cert.Net.Ref.node_1]
  show Cert.Net.nodeCell _ _ _ _ _ _ = _
  refine congr (congr (congr (congr (congr (congrArg Cert.Net.nodeCell ?_) ?_) ?_) ?_) ?_) ?_
  · funext k; exact congrFun ((((atU7 m c main_v50).symm.trans (v50_at7 m (outsF m) c)).trans (outs_at4 m c)).trans (stageN0 m c)) (ix2 n k)
  · funext k; exact congrFun (stageS1 m c) (ix2 n k)
  · exact congrFun ((atU7 m c main_v12).symm.trans (v12_at7 m (outsF m) c)) (ix2 n 0)
  · funext k; exact (congrFun (atU7 m c main_v71) _).symm.trans (r3_v71 m (outsF m) c j k)
  · funext k; exact (congrFun (atU7 m c main_v73) _).symm.trans (r3_v73 m (outsF m) c j k)
  · exact (congrFun (atU7 m c main_v69) _).symm.trans (r3_v69 m (outsF m) c j)

set_option maxHeartbeats 4000000 in
/-- Layer 2's messages: the edge region's output array is the reference's. -/
theorem stageE2 : (o10 m c : S800000x64.Idx → EReal) = Cert.ReferenceIdeal.Read.val_main_v102 (F := Ideal) (x0 m c) (x1 m c) (x2 m c) (x3 m c) (x4 m c) (x5 m c) (x6 m c) (x7 m c) (x8 m c) (x9 m c) := by
  funext i
  obtain ⟨e, j, rfl⟩ : ∃ (e : Fin 800000) (j : Fin 64), i = ix2 e j := ⟨i 0, i 1, eq_ix2 i⟩
  refine (congrFun (final4 (Ur9 m) c) (ix2 e j)).trans ?_
  rw [Cert.Net.Ref.edge_2]
  show Cert.Net.edgeCell _ _ _ _ = _
  refine congr (congr (congr (congrArg Cert.Net.edgeCell ?_) ?_) ?_) ?_
  · funext k; exact congrFun (((atU9 m c main_v81).symm.trans (r4_v81 m (outsF m) c)).trans
        ((congrArg (fun h => Host.gather Cert.ReferenceIdeal.gather_S100000x64_S800000x1_S800000x64_1_0_n_n_0_1_164 h (Cert.ReferenceIdeal.Read.val_main_v91 (F := Ideal) (x1 m c)))
          ((outs_at8 m c).trans (stageN1 m c))).trans rfl)) (ix2 e k)
  · funext k; exact congrFun ((atU9 m c main_v3).symm.trans (v3_at9 m (outsF m) c)) (ix2 e k)
  · funext k; exact (congrFun (atU9 m c main_v83) _).symm.trans (r4_v83 m (outsF m) c j k)
  · funext k; exact (congrFun (atU9 m c main_v85) _).symm.trans (r4_v85 m (outsF m) c j k)

set_option maxHeartbeats 4000000 in
/-- Layer 2's mailbox sums: the same scatter-add of equal messages. -/
theorem stageS2 : (U11 m c main_v90 : S100000x64.Idx → EReal) = Cert.ReferenceIdeal.Read.val_main_v105 (F := Ideal) (x0 m c) (x1 m c) (x2 m c) (x3 m c) (x4 m c) (x5 m c) (x6 m c) (x7 m c) (x8 m c) (x9 m c) :=
  ((atU11 m c main_v90).symm.trans (r5_v90 m (outsF m) c)).trans
    ((congrArg (fun u => Host.scatterAdd (F := Ideal) Cert.ReferenceIdeal.scatter_S100000x64_S800000x1_S800000x64_1_0_0_1 (Cert.ReferenceIdeal.Read.val_main_v103 (F := Ideal)) (Cert.ReferenceIdeal.Read.val_main_v104 (F := Ideal) (x2 m c)) u)
      ((outs_at10 m c).trans (stageE2 m c))).trans rfl)

set_option maxHeartbeats 4000000 in
/-- Layer 2's node features: the node region's output array is the reference's. -/
theorem stageN2 : (o12 m c : S100000x64.Idx → EReal) = Cert.ReferenceIdeal.Read.val_main_v118 (F := Ideal) (x0 m c) (x1 m c) (x2 m c) (x3 m c) (x4 m c) (x5 m c) (x6 m c) (x7 m c) (x8 m c) (x9 m c) := by
  funext i
  obtain ⟨n, j, rfl⟩ : ∃ (n : Fin 100000) (j : Fin 64), i = ix2 n j := ⟨i 0, i 1, eq_ix2 i⟩
  refine (congrFun (final5 (Ur11 m) c) (ix2 n j)).trans ?_
  rw [Cert.Net.Ref.node_2]
  show Cert.Net.nodeCell _ _ _ _ _ _ = _
  refine congr (congr (congr (congr (congr (congrArg Cert.Net.nodeCell ?_) ?_) ?_) ?_) ?_) ?_
  · funext k; exact congrFun ((((atU11 m c main_v74).symm.trans (v74_at11 m (outsF m) c)).trans (outs_at8 m c)).trans (stageN1 m c)) (ix2 n k)
  · funext k; exact congrFun (stageS2 m c) (ix2 n k)
  · exact congrFun ((atU11 m c main_v12).symm.trans (v12_at11 m (outsF m) c)) (ix2 n 0)
  · funext k; exact (congrFun (atU11 m c main_v95) _).symm.trans (r5_v95 m (outsF m) c j k)
  · funext k; exact (congrFun (atU11 m c main_v97) _).symm.trans (r5_v97 m (outsF m) c j k)
  · exact (congrFun (atU11 m c main_v93) _).symm.trans (r5_v93 m (outsF m) c j)

set_option maxHeartbeats 4000000 in
/-- Layer 3's messages: the edge region's output array is the reference's. -/
theorem stageE3 : (o14 m c : S800000x64.Idx → EReal) = Cert.ReferenceIdeal.Read.val_main_v135 (F := Ideal) (x0 m c) (x1 m c) (x2 m c) (x3 m c) (x4 m c) (x5 m c) (x6 m c) (x7 m c) (x8 m c) (x9 m c) := by
  funext i
  obtain ⟨e, j, rfl⟩ : ∃ (e : Fin 800000) (j : Fin 64), i = ix2 e j := ⟨i 0, i 1, eq_ix2 i⟩
  refine (congrFun (final6 (Ur13 m) c) (ix2 e j)).trans ?_
  rw [Cert.Net.Ref.edge_3]
  show Cert.Net.edgeCell _ _ _ _ = _
  refine congr (congr (congr (congrArg Cert.Net.edgeCell ?_) ?_) ?_) ?_
  · funext k; exact congrFun (((atU13 m c main_v105).symm.trans (r6_v105 m (outsF m) c)).trans
        ((congrArg (fun h => Host.gather Cert.ReferenceIdeal.gather_S100000x64_S800000x1_S800000x64_1_0_n_n_0_1_164 h (Cert.ReferenceIdeal.Read.val_main_v124 (F := Ideal) (x1 m c)))
          ((outs_at12 m c).trans (stageN2 m c))).trans rfl)) (ix2 e k)
  · funext k; exact congrFun ((atU13 m c main_v3).symm.trans (v3_at13 m (outsF m) c)) (ix2 e k)
  · funext k; exact (congrFun (atU13 m c main_v107) _).symm.trans (r6_v107 m (outsF m) c j k)
  · funext k; exact (congrFun (atU13 m c main_v109) _).symm.trans (r6_v109 m (outsF m) c j k)

set_option maxHeartbeats 4000000 in
/-- Layer 3's mailbox sums: the same scatter-add of equal messages. -/
theorem stageS3 : (U15 m c main_v114 : S100000x64.Idx → EReal) = Cert.ReferenceIdeal.Read.val_main_v138 (F := Ideal) (x0 m c) (x1 m c) (x2 m c) (x3 m c) (x4 m c) (x5 m c) (x6 m c) (x7 m c) (x8 m c) (x9 m c) :=
  ((atU15 m c main_v114).symm.trans (r7_v114 m (outsF m) c)).trans
    ((congrArg (fun u => Host.scatterAdd (F := Ideal) Cert.ReferenceIdeal.scatter_S100000x64_S800000x1_S800000x64_1_0_0_1 (Cert.ReferenceIdeal.Read.val_main_v136 (F := Ideal)) (Cert.ReferenceIdeal.Read.val_main_v137 (F := Ideal) (x2 m c)) u)
      ((outs_at14 m c).trans (stageE3 m c))).trans rfl)

set_option maxHeartbeats 4000000 in
/-- Layer 3's node features: the node region's output array is the reference's. -/
theorem stageN3 : (o16 m c : S100000x64.Idx → EReal) = Cert.ReferenceIdeal.Read.val_main_v151 (F := Ideal) (x0 m c) (x1 m c) (x2 m c) (x3 m c) (x4 m c) (x5 m c) (x6 m c) (x7 m c) (x8 m c) (x9 m c) := by
  funext i
  obtain ⟨n, j, rfl⟩ : ∃ (n : Fin 100000) (j : Fin 64), i = ix2 n j := ⟨i 0, i 1, eq_ix2 i⟩
  refine (congrFun (final7 (Ur15 m) c) (ix2 n j)).trans ?_
  rw [Cert.Net.Ref.node_3]
  show Cert.Net.nodeCell _ _ _ _ _ _ = _
  refine congr (congr (congr (congr (congr (congrArg Cert.Net.nodeCell ?_) ?_) ?_) ?_) ?_) ?_
  · funext k; exact congrFun ((((atU15 m c main_v98).symm.trans (v98_at15 m (outsF m) c)).trans (outs_at12 m c)).trans (stageN2 m c)) (ix2 n k)
  · funext k; exact congrFun (stageS3 m c) (ix2 n k)
  · exact congrFun ((atU15 m c main_v12).symm.trans (v12_at15 m (outsF m) c)) (ix2 n 0)
  · funext k; exact (congrFun (atU15 m c main_v119) _).symm.trans (r7_v119 m (outsF m) c j k)
  · funext k; exact (congrFun (atU15 m c main_v121) _).symm.trans (r7_v121 m (outsF m) c j k)
  · exact (congrFun (atU15 m c main_v117) _).symm.trans (r7_v117 m (outsF m) c j)

set_option maxHeartbeats 4000000 in
/-- Layer 4's messages: the edge region's output array is the reference's. -/
theorem stageE4 : (o18 m c : S800000x64.Idx → EReal) = Cert.ReferenceIdeal.Read.val_main_v168 (F := Ideal) (x0 m c) (x1 m c) (x2 m c) (x3 m c) (x4 m c) (x5 m c) (x6 m c) (x7 m c) (x8 m c) (x9 m c) := by
  funext i
  obtain ⟨e, j, rfl⟩ : ∃ (e : Fin 800000) (j : Fin 64), i = ix2 e j := ⟨i 0, i 1, eq_ix2 i⟩
  refine (congrFun (final8 (Ur17 m) c) (ix2 e j)).trans ?_
  rw [Cert.Net.Ref.edge_4]
  show Cert.Net.edgeCell _ _ _ _ = _
  refine congr (congr (congr (congrArg Cert.Net.edgeCell ?_) ?_) ?_) ?_
  · funext k; exact congrFun (((atU17 m c main_v129).symm.trans (r8_v129 m (outsF m) c)).trans
        ((congrArg (fun h => Host.gather Cert.ReferenceIdeal.gather_S100000x64_S800000x1_S800000x64_1_0_n_n_0_1_164 h (Cert.ReferenceIdeal.Read.val_main_v157 (F := Ideal) (x1 m c)))
          ((outs_at16 m c).trans (stageN3 m c))).trans rfl)) (ix2 e k)
  · funext k; exact congrFun ((atU17 m c main_v3).symm.trans (v3_at17 m (outsF m) c)) (ix2 e k)
  · funext k; exact (congrFun (atU17 m c main_v131) _).symm.trans (r8_v131 m (outsF m) c j k)
  · funext k; exact (congrFun (atU17 m c main_v133) _).symm.trans (r8_v133 m (outsF m) c j k)

set_option maxHeartbeats 4000000 in
/-- Layer 4's mailbox sums: the same scatter-add of equal messages. -/
theorem stageS4 : (U19 m c main_v138 : S100000x64.Idx → EReal) = Cert.ReferenceIdeal.Read.val_main_v171 (F := Ideal) (x0 m c) (x1 m c) (x2 m c) (x3 m c) (x4 m c) (x5 m c) (x6 m c) (x7 m c) (x8 m c) (x9 m c) :=
  ((atU19 m c main_v138).symm.trans (r9_v138 m (outsF m) c)).trans
    ((congrArg (fun u => Host.scatterAdd (F := Ideal) Cert.ReferenceIdeal.scatter_S100000x64_S800000x1_S800000x64_1_0_0_1 (Cert.ReferenceIdeal.Read.val_main_v169 (F := Ideal)) (Cert.ReferenceIdeal.Read.val_main_v170 (F := Ideal) (x2 m c)) u)
      ((outs_at18 m c).trans (stageE4 m c))).trans rfl)

set_option maxHeartbeats 4000000 in
/-- Layer 4's node features: the node region's output array is the reference's. -/
theorem stageN4 : (o20 m c : S100000x64.Idx → EReal) = Cert.ReferenceIdeal.Read.val_main_v184 (F := Ideal) (x0 m c) (x1 m c) (x2 m c) (x3 m c) (x4 m c) (x5 m c) (x6 m c) (x7 m c) (x8 m c) (x9 m c) := by
  funext i
  obtain ⟨n, j, rfl⟩ : ∃ (n : Fin 100000) (j : Fin 64), i = ix2 n j := ⟨i 0, i 1, eq_ix2 i⟩
  refine (congrFun (final9 (Ur19 m) c) (ix2 n j)).trans ?_
  rw [Cert.Net.Ref.node_4]
  show Cert.Net.nodeCell _ _ _ _ _ _ = _
  refine congr (congr (congr (congr (congr (congrArg Cert.Net.nodeCell ?_) ?_) ?_) ?_) ?_) ?_
  · funext k; exact congrFun ((((atU19 m c main_v122).symm.trans (v122_at19 m (outsF m) c)).trans (outs_at16 m c)).trans (stageN3 m c)) (ix2 n k)
  · funext k; exact congrFun (stageS4 m c) (ix2 n k)
  · exact congrFun ((atU19 m c main_v12).symm.trans (v12_at19 m (outsF m) c)) (ix2 n 0)
  · funext k; exact (congrFun (atU19 m c main_v143) _).symm.trans (r9_v143 m (outsF m) c j k)
  · funext k; exact (congrFun (atU19 m c main_v145) _).symm.trans (r9_v145 m (outsF m) c j k)
  · exact (congrFun (atU19 m c main_v141) _).symm.trans (r9_v141 m (outsF m) c j)

set_option maxHeartbeats 4000000 in
/-- The scores: the head region's output array is the reference's result. -/
theorem stageF : (o21 m c : S100000x32.Idx → EReal) = Cert.ReferenceIdeal.Read.val_main_v195 (F := Ideal) (x0 m c) (x1 m c) (x2 m c) (x3 m c) (x4 m c) (x5 m c) (x6 m c) (x7 m c) (x8 m c) (x9 m c) (x10 m c) (x11 m c) (x12 m c) (x13 m c) := by
  funext i
  obtain ⟨n, q, rfl⟩ : ∃ (n : Fin 100000) (q : Fin 32), i = ix2 n q := ⟨i 0, i 1, eq_ix2 i⟩
  refine (congrFun (final10 (Ur20 m) c) (ix2 n q)).trans ?_
  rw [Cert.Net.Ref.final]
  show Cert.Net.finalCell _ _ _ _ _ = _
  refine congr (congr (congr (congr (congrArg Cert.Net.finalCell ?_) ?_) ?_) ?_) ?_
  · funext k; exact congrFun ((((atU20 m c main_v146).symm.trans (v146_at20 m (outsF m) c)).trans (outs_at20 m c)).trans (stageN4 m c)) (ix2 n k)
  · funext j k; exact congrFun ((atU20 m c main_arg10).symm.trans (arg10_at20 m (outsF m) c)) (ix2 j k)
  · funext j; exact (congrFun (atU20 m c main_v25) _).symm.trans (v25_at20 m (outsF m) c j)
  · funext j; exact congrFun ((atU20 m c main_arg12).symm.trans (arg12_at20 m (outsF m) c)) (ix2 q j)
  · exact (congrFun (atU20 m c main_v26) _).symm.trans (v26_at20 m (outsF m) c q)

/-- The result array at the end of the fold is the reference's result term. -/
theorem result_eq : (U21 m c main_v147 : S100000x32.Idx → EReal) = Cert.ReferenceIdeal.Read.val_main_v195 (F := Ideal) (x0 m c) (x1 m c) (x2 m c) (x3 m c) (x4 m c) (x5 m c) (x6 m c) (x7 m c) (x8 m c) (x9 m c) (x10 m c) (x11 m c) (x12 m c) (x13 m c) :=
  (show (U21 m c main_v147 : S100000x32.Idx → EReal) = o21 m c from Function.update_self _ _ _).trans (stageF m c)

/-- The program's run at the ideal values, with the result named: the result array ends at the fold's last contents
    and every argument array as launched. -/
theorem run_val (ρ : Dev nD → PrngReg) :
    θ_run defs (onTc (τ := τ) (main (F := Ideal))) ⟨m, fun _ => 0, ρ⟩ (fun r => ∀ c : Dev nD,
      r.2.mem ((c.tc : Thread nD τ).loc main_v147) = U21 m c main_v147
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c _ (mem_uc main_v147 (by decide))).trans (congrFun (V21_eq m c) _),
      (h c _ (mem_uc main_arg0 (by decide))).trans (V21_main_arg0 m (outsF m) c),
      (h c _ (mem_uc main_arg1 (by decide))).trans (V21_main_arg1 m (outsF m) c),
      (h c _ (mem_uc main_arg2 (by decide))).trans (V21_main_arg2 m (outsF m) c),
      (h c _ (mem_uc main_arg3 (by decide))).trans (V21_main_arg3 m (outsF m) c),
      (h c _ (mem_uc main_arg4 (by decide))).trans (V21_main_arg4 m (outsF m) c),
      (h c _ (mem_uc main_arg5 (by decide))).trans (V21_main_arg5 m (outsF m) c),
      (h c _ (mem_uc main_arg6 (by decide))).trans (V21_main_arg6 m (outsF m) c),
      (h c _ (mem_uc main_arg7 (by decide))).trans (V21_main_arg7 m (outsF m) c),
      (h c _ (mem_uc main_arg8 (by decide))).trans (V21_main_arg8 m (outsF m) c),
      (h c _ (mem_uc main_arg9 (by decide))).trans (V21_main_arg9 m (outsF m) c),
      (h c _ (mem_uc main_arg10 (by decide))).trans (V21_main_arg10 m (outsF m) c),
      (h c _ (mem_uc main_arg11 (by decide))).trans (V21_main_arg11 m (outsF m) c),
      (h c _ (mem_uc main_arg12 (by decide))).trans (V21_main_arg12 m (outsF m) c),
      (h c _ (mem_uc main_arg13 (by decide))).trans (V21_main_arg13 m (outsF m) c)⟩)
    (run_all m ρ (outsF m) (hyp0 m) (hyp1 m) (hyp2 m) (hyp3 m) (hyp4 m) (hyp5 m) (hyp6 m) (hyp7 m) (hyp8 m) (hyp9 m) (hyp10 m))

end Cert.KernelIdeal.Fr

end
-- ==== Proof.RefChunks.lean ====
/-
  The reference program's 239 host operations cut into seven stretches: the prologue: edge features, reciprocal in-degree, embedded node features; layer 0; layer 1; layer 2; layer 3; layer 4; the head. Each layer's
  stretch gathers the source features, forms the messages, scatter-adds them, and updates the node features.
-/
import proofs.«149571_j25649544692292_2_alg».proof.Proof.Gen.ReferenceIdeal
import Idealize.ShloMosaic.Lib.StableHlo.Run

noncomputable section

namespace Cert.Net.RefRun

open Cert.ReferenceIdeal Cert.ReferenceIdeal.Gen Idealize.ShloMosaic Idealize.ShloMosaic.TcCoe Idealize.SL.Sem Idealize.ShloMosaic.StableHlo

variable {F : FTy → Type} [FloatOps F]

/-- Stretch 0 (the prologue: edge features, reciprocal in-degree, embedded node features): operations 1 … 26. -/
abbrev c0 : List (HloOp τ sig (Elt F)) :=
  [ unary main_arg3 main_v0 (broadcastInDim S800000x1 ![0] bcast_S800000_S800000x1_0 : (⟨S800000, .f32⟩ : BufTy).Contents (Elt F) → (⟨S800000x1, .f32⟩ : BufTy).Contents (Elt F)),
    unary main_arg4 main_v1 (broadcastInDim S800000x1 ![0] bcast_S800000_S800000x1_0 : (⟨S800000, .f32⟩ : BufTy).Contents (Elt F) → (⟨S800000x1, .f32⟩ : BufTy).Contents (Elt F)),
    unary main_arg5 main_v2 (broadcastInDim S800000x1 ![0] bcast_S800000_S800000x1_0 : (⟨S800000, .f32⟩ : BufTy).Contents (Elt F) → (⟨S800000x1, .f32⟩ : BufTy).Contents (Elt F)),
    nary ![main_v0, main_v1, main_v2] main_v3 (fun u => concatenate S800000x3 1 [⟨S800000x1, u 0⟩, ⟨S800000x1, u 1⟩, ⟨S800000x1, u 2⟩] concatenates_S800000x1_S800000x1_S800000x1_S800000x3_d1),
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_arg2 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (maximumf : (⟨S100000, .f32⟩ : BufTy).Contents (Elt F) → (⟨S100000, .f32⟩ : BufTy).Contents (Elt F) → (⟨S100000, .f32⟩ : BufTy).Contents (Elt F)),
    nullary main_cst_2 (constant S_ .f32 0x3F800000#32),
    unary main_cst_2 main_v10 (broadcastInDim S100000 ![] bcast_S_S100000 : (⟨S_, .f32⟩ : BufTy).Contents (Elt F) → (⟨S100000, .f32⟩ : BufTy).Contents (Elt F)),
    binary main_v10 main_v9 main_v11 (Host.divf : (⟨S100000, .f32⟩ : BufTy).Contents (Elt F) → (⟨S100000, .f32⟩ : BufTy).Contents (Elt F) → (⟨S100000, .f32⟩ : BufTy).Contents (Elt F)),
    unary main_v11 main_v12 (broadcastInDim S100000x1 ![0] bcast_S100000_S100000x1_0 : (⟨S100000, .f32⟩ : BufTy).Contents (Elt F) → (⟨S100000x1, .f32⟩ : BufTy).Contents (Elt F)),
    nullary main_c (constantI S_ 32 0#32),
    unary main_c main_v13 (broadcastInDim S100000 ![] bcast_S_S100000 : (⟨S_, .i32⟩ : BufTy).Contents (Elt F) → (⟨S100000, .i32⟩ : BufTy).Contents (Elt F)),
    binary main_arg0 main_v13 main_v14 (cmpi .slt : (⟨S100000, .i32⟩ : BufTy).Contents (Elt F) → (⟨S100000, .i32⟩ : BufTy).Contents (Elt F) → (⟨S100000, .i1⟩ : BufTy).Contents (Elt F)),
    nullary main_c_3 (constantI S_ 32 64#32),
    unary main_c_3 main_v15 (broadcastInDim S100000 ![] bcast_S_S100000 : (⟨S_, .i32⟩ : BufTy).Contents (Elt F) → (⟨S100000, .i32⟩ : BufTy).Contents (Elt F)),
    binary main_arg0 main_v15 main_v16 (addi : (⟨S100000, .i32⟩ : BufTy).Contents (Elt F) → (⟨S100000, .i32⟩ : BufTy).Contents (Elt F) → (⟨S100000, .i32⟩ : BufTy).Contents (Elt F)),
    ternary main_v14 main_v16 main_arg0 main_v17 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v17 main_v18 (broadcastInDim S100000x1 ![0] bcast_S100000_S100000x1_0 : (⟨S100000, .i32⟩ : BufTy).Contents (Elt F) → (⟨S100000x1, .i32⟩ : BufTy).Contents (Elt F)),
    binary main_arg6 main_v18 main_v19 ((fun x i => Host.gather gather_S64x64_S100000x1_S100000x64_1_0_n_n_0_1_164 x i) : (⟨S64x64, .f32⟩ : BufTy).Contents (Elt F) → (⟨S100000x1, .i32⟩ : BufTy).Contents (Elt F) → (⟨S100000x64, .f32⟩ : BufTy).Contents (Elt F)) ]

/-- Stretch 1 (layer 0): operations 27 … 66. -/
abbrev c1 : List (HloOp τ sig (Elt F)) :=
  [ nullary main_c_4 (constantI S_ 32 0#32),
    unary main_c_4 main_v20 (broadcastInDim S800000 ![] bcast_S_S800000 : (⟨S_, .i32⟩ : BufTy).Contents (Elt F) → (⟨S800000, .i32⟩ : BufTy).Contents (Elt F)),
    binary main_arg1 main_v20 main_v21 (cmpi .slt : (⟨S800000, .i32⟩ : BufTy).Contents (Elt F) → (⟨S800000, .i32⟩ : BufTy).Contents (Elt F) → (⟨S800000, .i1⟩ : BufTy).Contents (Elt F)),
    nullary main_c_5 (constantI S_ 32 100000#32),
    unary main_c_5 main_v22 (broadcastInDim S800000 ![] bcast_S_S800000 : (⟨S_, .i32⟩ : BufTy).Contents (Elt F) → (⟨S800000, .i32⟩ : BufTy).Contents (Elt F)),
    binary main_arg1 main_v22 main_v23 (addi : (⟨S800000, .i32⟩ : BufTy).Contents (Elt F) → (⟨S800000, .i32⟩ : BufTy).Contents (Elt F) → (⟨S800000, .i32⟩ : BufTy).Contents (Elt F)),
    ternary main_v21 main_v23 main_arg1 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v24 main_v25 (broadcastInDim S800000x1 ![0] bcast_S800000_S800000x1_0 : (⟨S800000, .i32⟩ : BufTy).Contents (Elt F) → (⟨S800000x1, .i32⟩ : BufTy).Contents (Elt F)),
    binary main_v19 main_v25 main_v26 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    binary main_v26 main_v3 main_v27 ((fun a b => concatenate S800000x67 1 [⟨S800000x64, a⟩, ⟨S800000x3, b⟩] concatenates_S800000x64_S800000x3_S800000x67_d1) : (⟨S800000x64, .f32⟩ : BufTy).Contents (Elt F) → (⟨S800000x3, .f32⟩ : BufTy).Contents (Elt F) → (⟨S800000x67, .f32⟩ : BufTy).Contents (Elt F)),
    unary main_arg7 main_v28 ((extractStridedSlice S1x64x67 ![0, 0, 0] · slices_S5x64x67_S1x64x67_0_0_0) : (⟨S5x64x67, .f32⟩ : BufTy).Contents (Elt F) → (⟨S1x64x67, .f32⟩ : BufTy).Contents (Elt F)),
    reshape main_v28 main_v29 rfl shapeCasts_S1x64x67_S64x67,
    unary main_v29 main_v30 ((transpose S67x64 [1, 0] · transposes_S64x67_S67x64_1_0) : (⟨S64x67, .f32⟩ : BufTy).Contents (Elt F) → (⟨S67x64, .f32⟩ : BufTy).Contents (Elt F)),
    binary main_v27 main_v30 main_v31 ((fun l r => Host.dotGeneral dot_S800000x67_S67x64_S800000x64_1_0_0_1_n_n none l r) : (⟨S800000x67, .f32⟩ : BufTy).Contents (Elt F) → (⟨S67x64, .f32⟩ : BufTy).Contents (Elt F) → (⟨S800000x64, .f32⟩ : BufTy).Contents (Elt F)),
    nullary main_cst_6 (constant S_ .f32 0x00000000#32),
    unary main_cst_6 main_v32 (broadcastInDim S800000x64 ![] bcast_S_S800000x64 : (⟨S_, .f32⟩ : BufTy).Contents (Elt F) → (⟨S800000x64, .f32⟩ : BufTy).Contents (Elt F)),
    binary main_v31 main_v32 main_v33 (cmpf .oge : (⟨S800000x64, .f32⟩ : BufTy).Contents (Elt F) → (⟨S800000x64, .f32⟩ : BufTy).Contents (Elt F) → (⟨S800000x64, .i1⟩ : BufTy).Contents (Elt F)),
    nullary main_cst_7 (constant S_ .f32 0x3C23D70A#32),
    unary main_cst_7 main_v34 (broadcastInDim S800000x64 ![] bcast_S_S800000x64 : (⟨S_, .f32⟩ : BufTy).Contents (Elt F) → (⟨S800000x64, .f32⟩ : BufTy).Contents (Elt F)),
    binary main_v34 main_v31 main_v35 (mulf : (⟨S800000x64, .f32⟩ : BufTy).Contents (Elt F) → (⟨S800000x64, .f32⟩ : BufTy).Contents (Elt F) → (⟨S800000x64, .f32⟩ : BufTy).Contents (Elt F)),
    TRef.ternary (TRef.of (T := ⟨S800000x64, .i1⟩) main_v33) (TRef.of (T := ⟨S800000x64, .f32⟩) main_v31) (TRef.of (T := ⟨S800000x64, .f32⟩) main_v35) (TRef.of (T := ⟨S800000x64, .f32⟩) main_v36) select,
    nullary main_cst_8 (constant S_ .f32 0x00000000#32),
    unary main_cst_8 main_v37 (broadcastInDim S100000x64 ![] bcast_S_S100000x64 : (⟨S_, .f32⟩ : BufTy).Contents (Elt F) → (⟨S100000x64, .f32⟩ : BufTy).Contents (Elt F)),
    unary main_arg2 main_v38 (broadcastInDim S800000x1 ![0] bcast_S800000_S800000x1_0 : (⟨S800000, .i32⟩ : BufTy).Contents (Elt F) → (⟨S800000x1, .i32⟩ : BufTy).Contents (Elt F)),
    ternary main_v37 main_v38 main_v36 main_v39 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    unary main_v12 main_v40 (broadcastInDim S100000x64 ![0, 1] bcast_S100000x1_S100000x64_0_1 : (⟨S100000x1, .f32⟩ : BufTy).Contents (Elt F) → (⟨S100000x64, .f32⟩ : BufTy).Contents (Elt F)),
    binary main_v39 main_v40 main_v41 (mulf : (⟨S100000x64, .f32⟩ : BufTy).Contents (Elt F) → (⟨S100000x64, .f32⟩ : BufTy).Contents (Elt F) → (⟨S100000x64, .f32⟩ : BufTy).Contents (Elt F)),
    binary main_v19 main_v41 main_v42 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    unary main_arg8 main_v43 ((extractStridedSlice S1x64x128 ![0, 0, 0] · slices_S5x64x128_S1x64x128_0_0_0) : (⟨S5x64x128, .f32⟩ : BufTy).Contents (Elt F) → (⟨S1x64x128, .f32⟩ : BufTy).Contents (Elt F)),
    reshape main_v43 main_v44 rfl shapeCasts_S1x64x128_S64x128,
    unary main_v44 main_v45 ((transpose S128x64 [1, 0] · transposes_S64x128_S128x64_1_0) : (⟨S64x128, .f32⟩ : BufTy).Contents (Elt F) → (⟨S128x64, .f32⟩ : BufTy).Contents (Elt F)),
    binary main_v42 main_v45 main_v46 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg9 main_v47 ((extractStridedSlice S1x64 ![0, 0] · slices_S5x64_S1x64_0_0) : (⟨S5x64, .f32⟩ : BufTy).Contents (Elt F) → (⟨S1x64, .f32⟩ : BufTy).Contents (Elt F)),
    reshape main_v47 main_v48 rfl shapeCasts_S1x64_S64,
    unary main_v48 main_v49 (broadcastInDim S1x64 ![1] bcast_S64_S1x64_1 : (⟨S64, .f32⟩ : BufTy).Contents (Elt F) → (⟨S1x64, .f32⟩ : BufTy).Contents (Elt F)),
    unary main_v49 main_v50 (broadcastInDim S100000x64 ![0, 1] bcast_S1x64_S100000x64_0_1 : (⟨S1x64, .f32⟩ : BufTy).Contents (Elt F) → (⟨S100000x64, .f32⟩ : BufTy).Contents (Elt F)),
    binary main_v46 main_v50 main_v51 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v51) (TRef.of (T := ⟨S100000x64, .f32⟩) main_call1_v0) (TRef.of (T := ⟨S100000x64, .f32⟩) main_v52) maximumf ]

/-- Stretch 2 (layer 1): operations 67 … 106. -/
abbrev c2 : List (HloOp τ sig (Elt F)) :=
  [ nullary main_c_9 (constantI S_ 32 0#32),
    unary main_c_9 main_v53 (broadcastInDim S800000 ![] bcast_S_S800000 : (⟨S_, .i32⟩ : BufTy).Contents (Elt F) → (⟨S800000, .i32⟩ : BufTy).Contents (Elt F)),
    binary main_arg1 main_v53 main_v54 (cmpi .slt : (⟨S800000, .i32⟩ : BufTy).Contents (Elt F) → (⟨S800000, .i32⟩ : BufTy).Contents (Elt F) → (⟨S800000, .i1⟩ : BufTy).Contents (Elt F)),
    nullary main_c_10 (constantI S_ 32 100000#32),
    unary main_c_10 main_v55 (broadcastInDim S800000 ![] bcast_S_S800000 : (⟨S_, .i32⟩ : BufTy).Contents (Elt F) → (⟨S800000, .i32⟩ : BufTy).Contents (Elt F)),
    binary main_arg1 main_v55 main_v56 (addi : (⟨S800000, .i32⟩ : BufTy).Contents (Elt F) → (⟨S800000, .i32⟩ : BufTy).Contents (Elt F) → (⟨S800000, .i32⟩ : BufTy).Contents (Elt F)),
    ternary main_v54 main_v56 main_arg1 main_v57 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v57 main_v58 (broadcastInDim S800000x1 ![0] bcast_S800000_S800000x1_0 : (⟨S800000, .i32⟩ : BufTy).Contents (Elt F) → (⟨S800000x1, .i32⟩ : BufTy).Contents (Elt F)),
    binary main_v52 main_v58 main_v59 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    binary main_v59 main_v3 main_v60 ((fun a b => concatenate S800000x67 1 [⟨S800000x64, a⟩, ⟨S800000x3, b⟩] concatenates_S800000x64_S800000x3_S800000x67_d1) : (⟨S800000x64, .f32⟩ : BufTy).Contents (Elt F) → (⟨S800000x3, .f32⟩ : BufTy).Contents (Elt F) → (⟨S800000x67, .f32⟩ : BufTy).Contents (Elt F)),
    unary main_arg7 main_v61 ((extractStridedSlice S1x64x67 ![1, 0, 0] · slices_S5x64x67_S1x64x67_1_0_0) : (⟨S5x64x67, .f32⟩ : BufTy).Contents (Elt F) → (⟨S1x64x67, .f32⟩ : BufTy).Contents (Elt F)),
    reshape main_v61 main_v62 rfl shapeCasts_S1x64x67_S64x67,
    unary main_v62 main_v63 ((transpose S67x64 [1, 0] · transposes_S64x67_S67x64_1_0) : (⟨S64x67, .f32⟩ : BufTy).Contents (Elt F) → (⟨S67x64, .f32⟩ : BufTy).Contents (Elt F)),
    binary main_v60 main_v63 main_v64 ((fun l r => Host.dotGeneral dot_S800000x67_S67x64_S800000x64_1_0_0_1_n_n none l r) : (⟨S800000x67, .f32⟩ : BufTy).Contents (Elt F) → (⟨S67x64, .f32⟩ : BufTy).Contents (Elt F) → (⟨S800000x64, .f32⟩ : BufTy).Contents (Elt F)),
    nullary main_cst_11 (constant S_ .f32 0x00000000#32),
    unary main_cst_11 main_v65 (broadcastInDim S800000x64 ![] bcast_S_S800000x64 : (⟨S_, .f32⟩ : BufTy).Contents (Elt F) → (⟨S800000x64, .f32⟩ : BufTy).Contents (Elt F)),
    binary main_v64 main_v65 main_v66 (cmpf .oge : (⟨S800000x64, .f32⟩ : BufTy).Contents (Elt F) → (⟨S800000x64, .f32⟩ : BufTy).Contents (Elt F) → (⟨S800000x64, .i1⟩ : BufTy).Contents (Elt F)),
    nullary main_cst_12 (constant S_ .f32 0x3C23D70A#32),
    unary main_cst_12 main_v67 (broadcastInDim S800000x64 ![] bcast_S_S800000x64 : (⟨S_, .f32⟩ : BufTy).Contents (Elt F) → (⟨S800000x64, .f32⟩ : BufTy).Contents (Elt F)),
    binary main_v67 main_v64 main_v68 (mulf : (⟨S800000x64, .f32⟩ : BufTy).Contents (Elt F) → (⟨S800000x64, .f32⟩ : BufTy).Contents (Elt F) → (⟨S800000x64, .f32⟩ : BufTy).Contents (Elt F)),
    TRef.ternary (TRef.of (T := ⟨S800000x64, .i1⟩) main_v66) (TRef.of (T := ⟨S800000x64, .f32⟩) main_v64) (TRef.of (T := ⟨S800000x64, .f32⟩) main_v68) (TRef.of (T := ⟨S800000x64, .f32⟩) main_v69) select,
    nullary main_cst_13 (constant S_ .f32 0x00000000#32),
    unary main_cst_13 main_v70 (broadcastInDim S100000x64 ![] bcast_S_S100000x64 : (⟨S_, .f32⟩ : BufTy).Contents (Elt F) → (⟨S100000x64, .f32⟩ : BufTy).Contents (Elt F)),
    unary main_arg2 main_v71 (broadcastInDim S800000x1 ![0] bcast_S800000_S800000x1_0 : (⟨S800000, .i32⟩ : BufTy).Contents (Elt F) → (⟨S800000x1, .i32⟩ : BufTy).Contents (Elt F)),
    ternary main_v70 main_v71 main_v69 main_v72 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    unary main_v12 main_v73 (broadcastInDim S100000x64 ![0, 1] bcast_S100000x1_S100000x64_0_1 : (⟨S100000x1, .f32⟩ : BufTy).Contents (Elt F) → (⟨S100000x64, .f32⟩ : BufTy).Contents (Elt F)),
    binary main_v72 main_v73 main_v74 (mulf : (⟨S100000x64, .f32⟩ : BufTy).Contents (Elt F) → (⟨S100000x64, .f32⟩ : BufTy).Contents (Elt F) → (⟨S100000x64, .f32⟩ : BufTy).Contents (Elt F)),
    binary main_v52 main_v74 main_v75 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    unary main_arg8 main_v76 ((extractStridedSlice S1x64x128 ![1, 0, 0] · slices_S5x64x128_S1x64x128_1_0_0) : (⟨S5x64x128, .f32⟩ : BufTy).Contents (Elt F) → (⟨S1x64x128, .f32⟩ : BufTy).Contents (Elt F)),
    reshape main_v76 main_v77 rfl shapeCasts_S1x64x128_S64x128,
    unary main_v77 main_v78 ((transpose S128x64 [1, 0] · transposes_S64x128_S128x64_1_0) : (⟨S64x128, .f32⟩ : BufTy).Contents (Elt F) → (⟨S128x64, .f32⟩ : BufTy).Contents (Elt F)),
    binary main_v75 main_v78 main_v79 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg9 main_v80 ((extractStridedSlice S1x64 ![1, 0] · slices_S5x64_S1x64_1_0) : (⟨S5x64, .f32⟩ : BufTy).Contents (Elt F) → (⟨S1x64, .f32⟩ : BufTy).Contents (Elt F)),
    reshape main_v80 main_v81 rfl shapeCasts_S1x64_S64,
    unary main_v81 main_v82 (broadcastInDim S1x64 ![1] bcast_S64_S1x64_1 : (⟨S64, .f32⟩ : BufTy).Contents (Elt F) → (⟨S1x64, .f32⟩ : BufTy).Contents (Elt F)),
    unary main_v82 main_v83 (broadcastInDim S100000x64 ![0, 1] bcast_S1x64_S100000x64_0_1 : (⟨S1x64, .f32⟩ : BufTy).Contents (Elt F) → (⟨S100000x64, .f32⟩ : BufTy).Contents (Elt F)),
    binary main_v79 main_v83 main_v84 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v84) (TRef.of (T := ⟨S100000x64, .f32⟩) main_call3_v0) (TRef.of (T := ⟨S100000x64, .f32⟩) main_v85) maximumf ]

/-- Stretch 3 (layer 2): operations 107 … 146. -/
abbrev c3 : List (HloOp τ sig (Elt F)) :=
  [ nullary main_c_14 (constantI S_ 32 0#32),
    unary main_c_14 main_v86 (broadcastInDim S800000 ![] bcast_S_S800000 : (⟨S_, .i32⟩ : BufTy).Contents (Elt F) → (⟨S800000, .i32⟩ : BufTy).Contents (Elt F)),
    binary main_arg1 main_v86 main_v87 (cmpi .slt : (⟨S800000, .i32⟩ : BufTy).Contents (Elt F) → (⟨S800000, .i32⟩ : BufTy).Contents (Elt F) → (⟨S800000, .i1⟩ : BufTy).Contents (Elt F)),
    nullary main_c_15 (constantI S_ 32 100000#32),
    unary main_c_15 main_v88 (broadcastInDim S800000 ![] bcast_S_S800000 : (⟨S_, .i32⟩ : BufTy).Contents (Elt F) → (⟨S800000, .i32⟩ : BufTy).Contents (Elt F)),
    binary main_arg1 main_v88 main_v89 (addi : (⟨S800000, .i32⟩ : BufTy).Contents (Elt F) → (⟨S800000, .i32⟩ : BufTy).Contents (Elt F) → (⟨S800000, .i32⟩ : BufTy).Contents (Elt F)),
    ternary main_v87 main_v89 main_arg1 main_v90 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v90 main_v91 (broadcastInDim S800000x1 ![0] bcast_S800000_S800000x1_0 : (⟨S800000, .i32⟩ : BufTy).Contents (Elt F) → (⟨S800000x1, .i32⟩ : BufTy).Contents (Elt F)),
    binary main_v85 main_v91 main_v92 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    binary main_v92 main_v3 main_v93 ((fun a b => concatenate S800000x67 1 [⟨S800000x64, a⟩, ⟨S800000x3, b⟩] concatenates_S800000x64_S800000x3_S800000x67_d1) : (⟨S800000x64, .f32⟩ : BufTy).Contents (Elt F) → (⟨S800000x3, .f32⟩ : BufTy).Contents (Elt F) → (⟨S800000x67, .f32⟩ : BufTy).Contents (Elt F)),
    unary main_arg7 main_v94 ((extractStridedSlice S1x64x67 ![2, 0, 0] · slices_S5x64x67_S1x64x67_2_0_0) : (⟨S5x64x67, .f32⟩ : BufTy).Contents (Elt F) → (⟨S1x64x67, .f32⟩ : BufTy).Contents (Elt F)),
    reshape main_v94 main_v95 rfl shapeCasts_S1x64x67_S64x67,
    unary main_v95 main_v96 ((transpose S67x64 [1, 0] · transposes_S64x67_S67x64_1_0) : (⟨S64x67, .f32⟩ : BufTy).Contents (Elt F) → (⟨S67x64, .f32⟩ : BufTy).Contents (Elt F)),
    binary main_v93 main_v96 main_v97 ((fun l r => Host.dotGeneral dot_S800000x67_S67x64_S800000x64_1_0_0_1_n_n none l r) : (⟨S800000x67, .f32⟩ : BufTy).Contents (Elt F) → (⟨S67x64, .f32⟩ : BufTy).Contents (Elt F) → (⟨S800000x64, .f32⟩ : BufTy).Contents (Elt F)),
    nullary main_cst_16 (constant S_ .f32 0x00000000#32),
    unary main_cst_16 main_v98 (broadcastInDim S800000x64 ![] bcast_S_S800000x64 : (⟨S_, .f32⟩ : BufTy).Contents (Elt F) → (⟨S800000x64, .f32⟩ : BufTy).Contents (Elt F)),
    binary main_v97 main_v98 main_v99 (cmpf .oge : (⟨S800000x64, .f32⟩ : BufTy).Contents (Elt F) → (⟨S800000x64, .f32⟩ : BufTy).Contents (Elt F) → (⟨S800000x64, .i1⟩ : BufTy).Contents (Elt F)),
    nullary main_cst_17 (constant S_ .f32 0x3C23D70A#32),
    unary main_cst_17 main_v100 (broadcastInDim S800000x64 ![] bcast_S_S800000x64 : (⟨S_, .f32⟩ : BufTy).Contents (Elt F) → (⟨S800000x64, .f32⟩ : BufTy).Contents (Elt F)),
    binary main_v100 main_v97 main_v101 (mulf : (⟨S800000x64, .f32⟩ : BufTy).Contents (Elt F) → (⟨S800000x64, .f32⟩ : BufTy).Contents (Elt F) → (⟨S800000x64, .f32⟩ : BufTy).Contents (Elt F)),
    TRef.ternary (TRef.of (T := ⟨S800000x64, .i1⟩) main_v99) (TRef.of (T := ⟨S800000x64, .f32⟩) main_v97) (TRef.of (T := ⟨S800000x64, .f32⟩) main_v101) (TRef.of (T := ⟨S800000x64, .f32⟩) main_v102) select,
    nullary main_cst_18 (constant S_ .f32 0x00000000#32),
    unary main_cst_18 main_v103 (broadcastInDim S100000x64 ![] bcast_S_S100000x64 : (⟨S_, .f32⟩ : BufTy).Contents (Elt F) → (⟨S100000x64, .f32⟩ : BufTy).Contents (Elt F)),
    unary main_arg2 main_v104 (broadcastInDim S800000x1 ![0] bcast_S800000_S800000x1_0 : (⟨S800000, .i32⟩ : BufTy).Contents (Elt F) → (⟨S800000x1, .i32⟩ : BufTy).Contents (Elt F)),
    ternary main_v103 main_v104 main_v102 main_v105 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    unary main_v12 main_v106 (broadcastInDim S100000x64 ![0, 1] bcast_S100000x1_S100000x64_0_1 : (⟨S100000x1, .f32⟩ : BufTy).Contents (Elt F) → (⟨S100000x64, .f32⟩ : BufTy).Contents (Elt F)),
    binary main_v105 main_v106 main_v107 (mulf : (⟨S100000x64, .f32⟩ : BufTy).Contents (Elt F) → (⟨S100000x64, .f32⟩ : BufTy).Contents (Elt F) → (⟨S100000x64, .f32⟩ : BufTy).Contents (Elt F)),
    binary main_v85 main_v107 main_v108 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    unary main_arg8 main_v109 ((extractStridedSlice S1x64x128 ![2, 0, 0] · slices_S5x64x128_S1x64x128_2_0_0) : (⟨S5x64x128, .f32⟩ : BufTy).Contents (Elt F) → (⟨S1x64x128, .f32⟩ : BufTy).Contents (Elt F)),
    reshape main_v109 main_v110 rfl shapeCasts_S1x64x128_S64x128,
    unary main_v110 main_v111 ((transpose S128x64 [1, 0] · transposes_S64x128_S128x64_1_0) : (⟨S64x128, .f32⟩ : BufTy).Contents (Elt F) → (⟨S128x64, .f32⟩ : BufTy).Contents (Elt F)),
    binary main_v108 main_v111 main_v112 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg9 main_v113 ((extractStridedSlice S1x64 ![2, 0] · slices_S5x64_S1x64_2_0) : (⟨S5x64, .f32⟩ : BufTy).Contents (Elt F) → (⟨S1x64, .f32⟩ : BufTy).Contents (Elt F)),
    reshape main_v113 main_v114 rfl shapeCasts_S1x64_S64,
    unary main_v114 main_v115 (broadcastInDim S1x64 ![1] bcast_S64_S1x64_1 : (⟨S64, .f32⟩ : BufTy).Contents (Elt F) → (⟨S1x64, .f32⟩ : BufTy).Contents (Elt F)),
    unary main_v115 main_v116 (broadcastInDim S100000x64 ![0, 1] bcast_S1x64_S100000x64_0_1 : (⟨S1x64, .f32⟩ : BufTy).Contents (Elt F) → (⟨S100000x64, .f32⟩ : BufTy).Contents (Elt F)),
    binary main_v112 main_v116 main_v117 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v117) (TRef.of (T := ⟨S100000x64, .f32⟩) main_call5_v0) (TRef.of (T := ⟨S100000x64, .f32⟩) main_v118) maximumf ]

/-- Stretch 4 (layer 3): operations 147 … 186. -/
abbrev c4 : List (HloOp τ sig (Elt F)) :=
  [ nullary main_c_19 (constantI S_ 32 0#32),
    unary main_c_19 main_v119 (broadcastInDim S800000 ![] bcast_S_S800000 : (⟨S_, .i32⟩ : BufTy).Contents (Elt F) → (⟨S800000, .i32⟩ : BufTy).Contents (Elt F)),
    binary main_arg1 main_v119 main_v120 (cmpi .slt : (⟨S800000, .i32⟩ : BufTy).Contents (Elt F) → (⟨S800000, .i32⟩ : BufTy).Contents (Elt F) → (⟨S800000, .i1⟩ : BufTy).Contents (Elt F)),
    nullary main_c_20 (constantI S_ 32 100000#32),
    unary main_c_20 main_v121 (broadcastInDim S800000 ![] bcast_S_S800000 : (⟨S_, .i32⟩ : BufTy).Contents (Elt F) → (⟨S800000, .i32⟩ : BufTy).Contents (Elt F)),
    binary main_arg1 main_v121 main_v122 (addi : (⟨S800000, .i32⟩ : BufTy).Contents (Elt F) → (⟨S800000, .i32⟩ : BufTy).Contents (Elt F) → (⟨S800000, .i32⟩ : BufTy).Contents (Elt F)),
    ternary main_v120 main_v122 main_arg1 main_v123 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v123 main_v124 (broadcastInDim S800000x1 ![0] bcast_S800000_S800000x1_0 : (⟨S800000, .i32⟩ : BufTy).Contents (Elt F) → (⟨S800000x1, .i32⟩ : BufTy).Contents (Elt F)),
    binary main_v118 main_v124 main_v125 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    binary main_v125 main_v3 main_v126 ((fun a b => concatenate S800000x67 1 [⟨S800000x64, a⟩, ⟨S800000x3, b⟩] concatenates_S800000x64_S800000x3_S800000x67_d1) : (⟨S800000x64, .f32⟩ : BufTy).Contents (Elt F) → (⟨S800000x3, .f32⟩ : BufTy).Contents (Elt F) → (⟨S800000x67, .f32⟩ : BufTy).Contents (Elt F)),
    unary main_arg7 main_v127 ((extractStridedSlice S1x64x67 ![3, 0, 0] · slices_S5x64x67_S1x64x67_3_0_0) : (⟨S5x64x67, .f32⟩ : BufTy).Contents (Elt F) → (⟨S1x64x67, .f32⟩ : BufTy).Contents (Elt F)),
    reshape main_v127 main_v128 rfl shapeCasts_S1x64x67_S64x67,
    unary main_v128 main_v129 ((transpose S67x64 [1, 0] · transposes_S64x67_S67x64_1_0) : (⟨S64x67, .f32⟩ : BufTy).Contents (Elt F) → (⟨S67x64, .f32⟩ : BufTy).Contents (Elt F)),
    binary main_v126 main_v129 main_v130 ((fun l r => Host.dotGeneral dot_S800000x67_S67x64_S800000x64_1_0_0_1_n_n none l r) : (⟨S800000x67, .f32⟩ : BufTy).Contents (Elt F) → (⟨S67x64, .f32⟩ : BufTy).Contents (Elt F) → (⟨S800000x64, .f32⟩ : BufTy).Contents (Elt F)),
    nullary main_cst_21 (constant S_ .f32 0x00000000#32),
    unary main_cst_21 main_v131 (broadcastInDim S800000x64 ![] bcast_S_S800000x64 : (⟨S_, .f32⟩ : BufTy).Contents (Elt F) → (⟨S800000x64, .f32⟩ : BufTy).Contents (Elt F)),
    binary main_v130 main_v131 main_v132 (cmpf .oge : (⟨S800000x64, .f32⟩ : BufTy).Contents (Elt F) → (⟨S800000x64, .f32⟩ : BufTy).Contents (Elt F) → (⟨S800000x64, .i1⟩ : BufTy).Contents (Elt F)),
    nullary main_cst_22 (constant S_ .f32 0x3C23D70A#32),
    unary main_cst_22 main_v133 (broadcastInDim S800000x64 ![] bcast_S_S800000x64 : (⟨S_, .f32⟩ : BufTy).Contents (Elt F) → (⟨S800000x64, .f32⟩ : BufTy).Contents (Elt F)),
    binary main_v133 main_v130 main_v134 (mulf : (⟨S800000x64, .f32⟩ : BufTy).Contents (Elt F) → (⟨S800000x64, .f32⟩ : BufTy).Contents (Elt F) → (⟨S800000x64, .f32⟩ : BufTy).Contents (Elt F)),
    TRef.ternary (TRef.of (T := ⟨S800000x64, .i1⟩) main_v132) (TRef.of (T := ⟨S800000x64, .f32⟩) main_v130) (TRef.of (T := ⟨S800000x64, .f32⟩) main_v134) (TRef.of (T := ⟨S800000x64, .f32⟩) main_v135) select,
    nullary main_cst_23 (constant S_ .f32 0x00000000#32),
    unary main_cst_23 main_v136 (broadcastInDim S100000x64 ![] bcast_S_S100000x64 : (⟨S_, .f32⟩ : BufTy).Contents (Elt F) → (⟨S100000x64, .f32⟩ : BufTy).Contents (Elt F)),
    unary main_arg2 main_v137 (broadcastInDim S800000x1 ![0] bcast_S800000_S800000x1_0 : (⟨S800000, .i32⟩ : BufTy).Contents (Elt F) → (⟨S800000x1, .i32⟩ : BufTy).Contents (Elt F)),
    ternary main_v136 main_v137 main_v135 main_v138 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    unary main_v12 main_v139 (broadcastInDim S100000x64 ![0, 1] bcast_S100000x1_S100000x64_0_1 : (⟨S100000x1, .f32⟩ : BufTy).Contents (Elt F) → (⟨S100000x64, .f32⟩ : BufTy).Contents (Elt F)),
    binary main_v138 main_v139 main_v140 (mulf : (⟨S100000x64, .f32⟩ : BufTy).Contents (Elt F) → (⟨S100000x64, .f32⟩ : BufTy).Contents (Elt F) → (⟨S100000x64, .f32⟩ : BufTy).Contents (Elt F)),
    binary main_v118 main_v140 main_v141 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    unary main_arg8 main_v142 ((extractStridedSlice S1x64x128 ![3, 0, 0] · slices_S5x64x128_S1x64x128_3_0_0) : (⟨S5x64x128, .f32⟩ : BufTy).Contents (Elt F) → (⟨S1x64x128, .f32⟩ : BufTy).Contents (Elt F)),
    reshape main_v142 main_v143 rfl shapeCasts_S1x64x128_S64x128,
    unary main_v143 main_v144 ((transpose S128x64 [1, 0] · transposes_S64x128_S128x64_1_0) : (⟨S64x128, .f32⟩ : BufTy).Contents (Elt F) → (⟨S128x64, .f32⟩ : BufTy).Contents (Elt F)),
    binary main_v141 main_v144 main_v145 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg9 main_v146 ((extractStridedSlice S1x64 ![3, 0] · slices_S5x64_S1x64_3_0) : (⟨S5x64, .f32⟩ : BufTy).Contents (Elt F) → (⟨S1x64, .f32⟩ : BufTy).Contents (Elt F)),
    reshape main_v146 main_v147 rfl shapeCasts_S1x64_S64,
    unary main_v147 main_v148 (broadcastInDim S1x64 ![1] bcast_S64_S1x64_1 : (⟨S64, .f32⟩ : BufTy).Contents (Elt F) → (⟨S1x64, .f32⟩ : BufTy).Contents (Elt F)),
    unary main_v148 main_v149 (broadcastInDim S100000x64 ![0, 1] bcast_S1x64_S100000x64_0_1 : (⟨S1x64, .f32⟩ : BufTy).Contents (Elt F) → (⟨S100000x64, .f32⟩ : BufTy).Contents (Elt F)),
    binary main_v145 main_v149 main_v150 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S100000x64, .f32⟩) main_call7_v0) (broadcastInDim S100000x64 ![] bcast_S_S100000x64),
    TRef.binary (TRef.of (T := ⟨S100000x64, .f32⟩) main_v150) (TRef.of (T := ⟨S100000x64, .f32⟩) main_call7_v0) (TRef.of (T := ⟨S100000x64, .f32⟩) main_v151) maximumf ]

/-- Stretch 5 (layer 4): operations 187 … 226. -/
abbrev c5 : List (HloOp τ sig (Elt F)) :=
  [ nullary main_c_24 (constantI S_ 32 0#32),
    unary main_c_24 main_v152 (broadcastInDim S800000 ![] bcast_S_S800000 : (⟨S_, .i32⟩ : BufTy).Contents (Elt F) → (⟨S800000, .i32⟩ : BufTy).Contents (Elt F)),
    binary main_arg1 main_v152 main_v153 (cmpi .slt : (⟨S800000, .i32⟩ : BufTy).Contents (Elt F) → (⟨S800000, .i32⟩ : BufTy).Contents (Elt F) → (⟨S800000, .i1⟩ : BufTy).Contents (Elt F)),
    nullary main_c_25 (constantI S_ 32 100000#32),
    unary main_c_25 main_v154 (broadcastInDim S800000 ![] bcast_S_S800000 : (⟨S_, .i32⟩ : BufTy).Contents (Elt F) → (⟨S800000, .i32⟩ : BufTy).Contents (Elt F)),
    binary main_arg1 main_v154 main_v155 (addi : (⟨S800000, .i32⟩ : BufTy).Contents (Elt F) → (⟨S800000, .i32⟩ : BufTy).Contents (Elt F) → (⟨S800000, .i32⟩ : BufTy).Contents (Elt F)),
    ternary main_v153 main_v155 main_arg1 main_v156 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v156 main_v157 (broadcastInDim S800000x1 ![0] bcast_S800000_S800000x1_0 : (⟨S800000, .i32⟩ : BufTy).Contents (Elt F) → (⟨S800000x1, .i32⟩ : BufTy).Contents (Elt F)),
    binary main_v151 main_v157 main_v158 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    binary main_v158 main_v3 main_v159 ((fun a b => concatenate S800000x67 1 [⟨S800000x64, a⟩, ⟨S800000x3, b⟩] concatenates_S800000x64_S800000x3_S800000x67_d1) : (⟨S800000x64, .f32⟩ : BufTy).Contents (Elt F) → (⟨S800000x3, .f32⟩ : BufTy).Contents (Elt F) → (⟨S800000x67, .f32⟩ : BufTy).Contents (Elt F)),
    unary main_arg7 main_v160 ((extractStridedSlice S1x64x67 ![4, 0, 0] · slices_S5x64x67_S1x64x67_4_0_0) : (⟨S5x64x67, .f32⟩ : BufTy).Contents (Elt F) → (⟨S1x64x67, .f32⟩ : BufTy).Contents (Elt F)),
    reshape main_v160 main_v161 rfl shapeCasts_S1x64x67_S64x67,
    unary main_v161 main_v162 ((transpose S67x64 [1, 0] · transposes_S64x67_S67x64_1_0) : (⟨S64x67, .f32⟩ : BufTy).Contents (Elt F) → (⟨S67x64, .f32⟩ : BufTy).Contents (Elt F)),
    binary main_v159 main_v162 main_v163 ((fun l r => Host.dotGeneral dot_S800000x67_S67x64_S800000x64_1_0_0_1_n_n none l r) : (⟨S800000x67, .f32⟩ : BufTy).Contents (Elt F) → (⟨S67x64, .f32⟩ : BufTy).Contents (Elt F) → (⟨S800000x64, .f32⟩ : BufTy).Contents (Elt F)),
    nullary main_cst_26 (constant S_ .f32 0x00000000#32),
    unary main_cst_26 main_v164 (broadcastInDim S800000x64 ![] bcast_S_S800000x64 : (⟨S_, .f32⟩ : BufTy).Contents (Elt F) → (⟨S800000x64, .f32⟩ : BufTy).Contents (Elt F)),
    binary main_v163 main_v164 main_v165 (cmpf .oge : (⟨S800000x64, .f32⟩ : BufTy).Contents (Elt F) → (⟨S800000x64, .f32⟩ : BufTy).Contents (Elt F) → (⟨S800000x64, .i1⟩ : BufTy).Contents (Elt F)),
    nullary main_cst_27 (constant S_ .f32 0x3C23D70A#32),
    unary main_cst_27 main_v166 (broadcastInDim S800000x64 ![] bcast_S_S800000x64 : (⟨S_, .f32⟩ : BufTy).Contents (Elt F) → (⟨S800000x64, .f32⟩ : BufTy).Contents (Elt F)),
    binary main_v166 main_v163 main_v167 (mulf : (⟨S800000x64, .f32⟩ : BufTy).Contents (Elt F) → (⟨S800000x64, .f32⟩ : BufTy).Contents (Elt F) → (⟨S800000x64, .f32⟩ : BufTy).Contents (Elt F)),
    TRef.ternary (TRef.of (T := ⟨S800000x64, .i1⟩) main_v165) (TRef.of (T := ⟨S800000x64, .f32⟩) main_v163) (TRef.of (T := ⟨S800000x64, .f32⟩) main_v167) (TRef.of (T := ⟨S800000x64, .f32⟩) main_v168) select,
    nullary main_cst_28 (constant S_ .f32 0x00000000#32),
    unary main_cst_28 main_v169 (broadcastInDim S100000x64 ![] bcast_S_S100000x64 : (⟨S_, .f32⟩ : BufTy).Contents (Elt F) → (⟨S100000x64, .f32⟩ : BufTy).Contents (Elt F)),
    unary main_arg2 main_v170 (broadcastInDim S800000x1 ![0] bcast_S800000_S800000x1_0 : (⟨S800000, .i32⟩ : BufTy).Contents (Elt F) → (⟨S800000x1, .i32⟩ : BufTy).Contents (Elt F)),
    ternary main_v169 main_v170 main_v168 main_v171 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    unary main_v12 main_v172 (broadcastInDim S100000x64 ![0, 1] bcast_S100000x1_S100000x64_0_1 : (⟨S100000x1, .f32⟩ : BufTy).Contents (Elt F) → (⟨S100000x64, .f32⟩ : BufTy).Contents (Elt F)),
    binary main_v171 main_v172 main_v173 (mulf : (⟨S100000x64, .f32⟩ : BufTy).Contents (Elt F) → (⟨S100000x64, .f32⟩ : BufTy).Contents (Elt F) → (⟨S100000x64, .f32⟩ : BufTy).Contents (Elt F)),
    binary main_v151 main_v173 main_v174 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    unary main_arg8 main_v175 ((extractStridedSlice S1x64x128 ![4, 0, 0] · slices_S5x64x128_S1x64x128_4_0_0) : (⟨S5x64x128, .f32⟩ : BufTy).Contents (Elt F) → (⟨S1x64x128, .f32⟩ : BufTy).Contents (Elt F)),
    reshape main_v175 main_v176 rfl shapeCasts_S1x64x128_S64x128,
    unary main_v176 main_v177 ((transpose S128x64 [1, 0] · transposes_S64x128_S128x64_1_0) : (⟨S64x128, .f32⟩ : BufTy).Contents (Elt F) → (⟨S128x64, .f32⟩ : BufTy).Contents (Elt F)),
    binary main_v174 main_v177 main_v178 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg9 main_v179 ((extractStridedSlice S1x64 ![4, 0] · slices_S5x64_S1x64_4_0) : (⟨S5x64, .f32⟩ : BufTy).Contents (Elt F) → (⟨S1x64, .f32⟩ : BufTy).Contents (Elt F)),
    reshape main_v179 main_v180 rfl shapeCasts_S1x64_S64,
    unary main_v180 main_v181 (broadcastInDim S1x64 ![1] bcast_S64_S1x64_1 : (⟨S64, .f32⟩ : BufTy).Contents (Elt F) → (⟨S1x64, .f32⟩ : BufTy).Contents (Elt F)),
    unary main_v181 main_v182 (broadcastInDim S100000x64 ![0, 1] bcast_S1x64_S100000x64_0_1 : (⟨S1x64, .f32⟩ : BufTy).Contents (Elt F) → (⟨S100000x64, .f32⟩ : BufTy).Contents (Elt F)),
    binary main_v178 main_v182 main_v183 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S100000x64, .f32⟩) main_call9_v0) (broadcastInDim S100000x64 ![] bcast_S_S100000x64),
    TRef.binary (TRef.of (T := ⟨S100000x64, .f32⟩) main_v183) (TRef.of (T := ⟨S100000x64, .f32⟩) main_call9_v0) (TRef.of (T := ⟨S100000x64, .f32⟩) main_v184) maximumf ]

/-- Stretch 6 (the head): operations 227 … 239. -/
abbrev c6 : List (HloOp τ sig (Elt F)) :=
  [ unary main_arg10 main_v185 ((transpose S64x64 [1, 0] · transposes_S64x64_S64x64_1_0) : (⟨S64x64, .f32⟩ : BufTy).Contents (Elt F) → (⟨S64x64, .f32⟩ : BufTy).Contents (Elt F)),
    binary main_v184 main_v185 main_v186 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg11 main_v187 (broadcastInDim S1x64 ![1] bcast_S64_S1x64_1 : (⟨S64, .f32⟩ : BufTy).Contents (Elt F) → (⟨S1x64, .f32⟩ : BufTy).Contents (Elt F)),
    unary main_v187 main_v188 (broadcastInDim S100000x64 ![0, 1] bcast_S1x64_S100000x64_0_1 : (⟨S1x64, .f32⟩ : BufTy).Contents (Elt F) → (⟨S100000x64, .f32⟩ : BufTy).Contents (Elt F)),
    binary main_v186 main_v188 main_v189 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S100000x64, .f32⟩) main_call10_v0) (broadcastInDim S100000x64 ![] bcast_S_S100000x64),
    TRef.binary (TRef.of (T := ⟨S100000x64, .f32⟩) main_v189) (TRef.of (T := ⟨S100000x64, .f32⟩) main_call10_v0) (TRef.of (T := ⟨S100000x64, .f32⟩) main_v190) maximumf,
    unary main_arg12 main_v191 ((transpose S64x32 [1, 0] · transposes_S32x64_S64x32_1_0) : (⟨S32x64, .f32⟩ : BufTy).Contents (Elt F) → (⟨S64x32, .f32⟩ : BufTy).Contents (Elt F)),
    binary main_v190 main_v191 main_v192 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg13 main_v193 (broadcastInDim S1x32 ![1] bcast_S32_S1x32_1 : (⟨S32, .f32⟩ : BufTy).Contents (Elt F) → (⟨S1x32, .f32⟩ : BufTy).Contents (Elt F)),
    unary main_v193 main_v194 (broadcastInDim S100000x32 ![0, 1] bcast_S1x32_S100000x32_0_1 : (⟨S1x32, .f32⟩ : BufTy).Contents (Elt F) → (⟨S100000x32, .f32⟩ : BufTy).Contents (Elt F)),
    binary main_v192 main_v194 main_v195 (addf : (⟨S100000x32, .f32⟩ : BufTy).Contents (Elt F) → (⟨S100000x32, .f32⟩ : BufTy).Contents (Elt F) → (⟨S100000x32, .f32⟩ : BufTy).Contents (Elt F)) ]

end Cert.Net.RefRun

end
-- ==== Proof.RefSplit.lean ====
/-
  The reference program's list of operations is the seven stretches laid end to end.
-/
import proofs.«149571_j25649544692292_2_alg».proof.Proof.RefChunks
import proofs.«149571_j25649544692292_2_alg».proof.Proof.RefRunP

noncomputable section

namespace Cert.Net.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations, in order, are the seven stretches in order. -/
theorem ops_split : (Cert.ReferenceIdeal.Value.ops : List (HloOp τ sig (Elt F))) = c0 ++ c1 ++ c2 ++ c3 ++ c4 ++ c5 ++ c6 := rfl

end Cert.Net.RefRun
end
-- ==== Proof.RefFrame.lean ====
/-
  What each stretch of the reference program leaves alone.  An operation writes one buffer, its result; a stretch
  writes the results of its operations and nothing else, so a buffer that is not one of them — every argument, and
  every value an earlier stretch produced — holds after the stretch what it held before it.
-/
import proofs.«149571_j25649544692292_2_alg».proof.Proof.RefChunks

noncomputable section

namespace Cert.Net.RefRun

open Cert.ReferenceIdeal Cert.ReferenceIdeal.Gen Idealize.ShloMosaic Idealize.ShloMosaic.TcCoe Idealize.SL.Sem Idealize.ShloMosaic.StableHlo

variable {F : FTy → Type} [FloatOps F]

/-- Running one list of operations after another is running their concatenation. -/
theorem after_append (a b : List (HloOp τ sig (Elt F))) (X : Valuation τ sig (Elt F)) :
    StableHlo.after (a ++ b) X = StableHlo.after b (StableHlo.after a X) := by
  induction a generalizing X with
  | nil => rfl
  | cons op ops ih => exact ih (op.result X)

/-- The references stretch 0's operations write. -/
abbrev c0_W : List (Ref sig .tc) := [main_v0, main_v1, main_v2, main_v3, main_cst, main_v4, main_cst_0, main_v5, main_v6, main_v7, main_cst_1, main_v8, main_v9, main_cst_2, main_v10, main_v11, main_v12, main_c, main_v13, main_v14, main_c_3, main_v15, main_v16, main_v17, main_v18, main_v19]

/-- Every operation of stretch 0 writes one of them. -/
theorem c0_writes : (c0 : List (HloOp τ sig (Elt F))).Forall fun op => op.writes ⊆ (c0_W.map (Proc.devRef (τ := τ) .tc)).toFinset := by
  simp only [c0, List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- A buffer stretch 0 does not write keeps its contents through it. -/
theorem c0_of (X : Valuation τ sig (Elt F)) (b : Ref sig .tc) (h : b ∉ c0_W) :
    StableHlo.after (c0 (F := F)) X (Proc.devRef .tc b) = X (Proc.devRef .tc b) :=
  StableHlo.after_of_writes_sub c0 X c0_writes h

/-- The references stretch 1's operations write. -/
abbrev c1_W : List (Ref sig .tc) := [main_c_4, main_v20, main_v21, main_c_5, main_v22, main_v23, main_v24, main_v25, main_v26, main_v27, main_v28, main_v29, main_v30, main_v31, main_cst_6, main_v32, main_v33, main_cst_7, main_v34, main_v35, main_v36, main_cst_8, main_v37, main_v38, main_v39, main_v40, main_v41, main_v42, main_v43, main_v44, main_v45, main_v46, main_v47, main_v48, main_v49, main_v50, main_v51, main_call1_cst, main_call1_v0, main_v52]

/-- Every operation of stretch 1 writes one of them. -/
theorem c1_writes : (c1 : List (HloOp τ sig (Elt F))).Forall fun op => op.writes ⊆ (c1_W.map (Proc.devRef (τ := τ) .tc)).toFinset := by
  simp only [c1, List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- A buffer stretch 1 does not write keeps its contents through it. -/
theorem c1_of (X : Valuation τ sig (Elt F)) (b : Ref sig .tc) (h : b ∉ c1_W) :
    StableHlo.after (c1 (F := F)) X (Proc.devRef .tc b) = X (Proc.devRef .tc b) :=
  StableHlo.after_of_writes_sub c1 X c1_writes h

/-- The references stretch 2's operations write. -/
abbrev c2_W : List (Ref sig .tc) := [main_c_9, main_v53, main_v54, main_c_10, main_v55, main_v56, main_v57, main_v58, main_v59, main_v60, main_v61, main_v62, main_v63, main_v64, main_cst_11, main_v65, main_v66, main_cst_12, main_v67, main_v68, main_v69, main_cst_13, main_v70, main_v71, main_v72, main_v73, main_v74, main_v75, main_v76, main_v77, main_v78, main_v79, main_v80, main_v81, main_v82, main_v83, main_v84, main_call3_cst, main_call3_v0, main_v85]

/-- Every operation of stretch 2 writes one of them. -/
theorem c2_writes : (c2 : List (HloOp τ sig (Elt F))).Forall fun op => op.writes ⊆ (c2_W.map (Proc.devRef (τ := τ) .tc)).toFinset := by
  simp only [c2, List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- A buffer stretch 2 does not write keeps its contents through it. -/
theorem c2_of (X : Valuation τ sig (Elt F)) (b : Ref sig .tc) (h : b ∉ c2_W) :
    StableHlo.after (c2 (F := F)) X (Proc.devRef .tc b) = X (Proc.devRef .tc b) :=
  StableHlo.after_of_writes_sub c2 X c2_writes h

/-- The references stretch 3's operations write. -/
abbrev c3_W : List (Ref sig .tc) := [main_c_14, main_v86, main_v87, main_c_15, main_v88, main_v89, main_v90, main_v91, main_v92, main_v93, main_v94, main_v95, main_v96, main_v97, main_cst_16, main_v98, main_v99, main_cst_17, main_v100, main_v101, main_v102, main_cst_18, main_v103, main_v104, main_v105, main_v106, main_v107, main_v108, main_v109, main_v110, main_v111, main_v112, main_v113, main_v114, main_v115, main_v116, main_v117, main_call5_cst, main_call5_v0, main_v118]

/-- Every operation of stretch 3 writes one of them. -/
theorem c3_writes : (c3 : List (HloOp τ sig (Elt F))).Forall fun op => op.writes ⊆ (c3_W.map (Proc.devRef (τ := τ) .tc)).toFinset := by
  simp only [c3, List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- A buffer stretch 3 does not write keeps its contents through it. -/
theorem c3_of (X : Valuation τ sig (Elt F)) (b : Ref sig .tc) (h : b ∉ c3_W) :
    StableHlo.after (c3 (F := F)) X (Proc.devRef .tc b) = X (Proc.devRef .tc b) :=
  StableHlo.after_of_writes_sub c3 X c3_writes h

/-- The references stretch 4's operations write. -/
abbrev c4_W : List (Ref sig .tc) := [main_c_19, main_v119, main_v120, main_c_20, main_v121, main_v122, main_v123, main_v124, main_v125, main_v126, main_v127, main_v128, main_v129, main_v130, main_cst_21, main_v131, main_v132, main_cst_22, main_v133, main_v134, main_v135, main_cst_23, main_v136, main_v137, main_v138, main_v139, main_v140, main_v141, main_v142, main_v143, main_v144, main_v145, main_v146, main_v147, main_v148, main_v149, main_v150, main_call7_cst, main_call7_v0, main_v151]

/-- Every operation of stretch 4 writes one of them. -/
theorem c4_writes : (c4 : List (HloOp τ sig (Elt F))).Forall fun op => op.writes ⊆ (c4_W.map (Proc.devRef (τ := τ) .tc)).toFinset := by
  simp only [c4, List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- A buffer stretch 4 does not write keeps its contents through it. -/
theorem c4_of (X : Valuation τ sig (Elt F)) (b : Ref sig .tc) (h : b ∉ c4_W) :
    StableHlo.after (c4 (F := F)) X (Proc.devRef .tc b) = X (Proc.devRef .tc b) :=
  StableHlo.after_of_writes_sub c4 X c4_writes h

/-- The references stretch 5's operations write. -/
abbrev c5_W : List (Ref sig .tc) := [main_c_24, main_v152, main_v153, main_c_25, main_v154, main_v155, main_v156, main_v157, main_v158, main_v159, main_v160, main_v161, main_v162, main_v163, main_cst_26, main_v164, main_v165, main_cst_27, main_v166, main_v167, main_v168, main_cst_28, main_v169, main_v170, main_v171, main_v172, main_v173, main_v174, main_v175, main_v176, main_v177, main_v178, main_v179, main_v180, main_v181, main_v182, main_v183, main_call9_cst, main_call9_v0, main_v184]

/-- Every operation of stretch 5 writes one of them. -/
theorem c5_writes : (c5 : List (HloOp τ sig (Elt F))).Forall fun op => op.writes ⊆ (c5_W.map (Proc.devRef (τ := τ) .tc)).toFinset := by
  simp only [c5, List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- A buffer stretch 5 does not write keeps its contents through it. -/
theorem c5_of (X : Valuation τ sig (Elt F)) (b : Ref sig .tc) (h : b ∉ c5_W) :
    StableHlo.after (c5 (F := F)) X (Proc.devRef .tc b) = X (Proc.devRef .tc b) :=
  StableHlo.after_of_writes_sub c5 X c5_writes h

/-- The references stretch 6's operations write. -/
abbrev c6_W : List (Ref sig .tc) := [main_v185, main_v186, main_v187, main_v188, main_v189, main_call10_cst, main_call10_v0, main_v190, main_v191, main_v192, main_v193, main_v194, main_v195]

/-- Every operation of stretch 6 writes one of them. -/
theorem c6_writes : (c6 : List (HloOp τ sig (Elt F))).Forall fun op => op.writes ⊆ (c6_W.map (Proc.devRef (τ := τ) .tc)).toFinset := by
  simp only [c6, List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- A buffer stretch 6 does not write keeps its contents through it. -/
theorem c6_of (X : Valuation τ sig (Elt F)) (b : Ref sig .tc) (h : b ∉ c6_W) :
    StableHlo.after (c6 (F := F)) X (Proc.devRef .tc b) = X (Proc.devRef .tc b) :=
  StableHlo.after_of_writes_sub c6 X c6_writes h

end Cert.Net.RefRun
end
-- ==== Proof.RefStretch1.lean ====
/-
  The reference program's layer-0 stretch run at the ideal values over a variable valuation: what it leaves in its
  last buffer is the reference's stage function of the arguments.
-/
import proofs.«149571_j25649544692292_2_alg».proof.Proof.RefChunks
import proofs.«149571_j25649544692292_2_alg».proof.Proof.RefReadP

set_option maxRecDepth 4096

noncomputable section

namespace Cert.Net.RefRun

open Cert.ReferenceIdeal Cert.ReferenceIdeal.Gen Cert.ReferenceIdeal.Read Idealize.ShloMosaic Idealize.ShloMosaic.TcCoe Idealize.ShloMosaic.StableHlo

variable (X : Valuation τ sig (Elt Ideal))
  (x0 : S100000.Idx → BitVec 32) (x1 x2 : S800000.Idx → BitVec 32) (x3 x4 x5 : S800000.Idx → EReal)
  (x6 : S64x64.Idx → EReal) (x7 : S5x64x67.Idx → EReal) (x8 : S5x64x128.Idx → EReal) (x9 : S5x64.Idx → EReal)
  (x10 : S64x64.Idx → EReal) (x11 : S64.Idx → EReal) (x12 : S32x64.Idx → EReal) (x13 : S32.Idx → EReal)

set_option maxHeartbeats 4000000 in
/-- Layer 0: from the previous features, the edge features and the reciprocal in-degree, the stretch leaves the reference's layer-0 features. -/
theorem st1
    (hh : (X main_v19 : S100000x64.Idx → EReal) = val_main_v19 (F := Ideal) x0 x6)
    (hw : (X main_v3 : S800000x3.Idx → EReal) = val_main_v3 (F := Ideal) x3 x4 x5)
    (hi : (X main_v12 : S100000x1.Idx → EReal) = val_main_v12 (F := Ideal) x2)
    (h1 : (X main_arg1 : S800000.Idx → BitVec 32) = x1) (h2 : (X main_arg2 : S800000.Idx → BitVec 32) = x2)
    (h7 : (X main_arg7 : S5x64x67.Idx → EReal) = x7) (h8 : (X main_arg8 : S5x64x128.Idx → EReal) = x8)
    (h9 : (X main_arg9 : S5x64.Idx → EReal) = x9) :
    (StableHlo.after (c1 (F := Ideal)) X main_v52 : S100000x64.Idx → EReal) = val_main_v52 (F := Ideal) x0 x1 x2 x3 x4 x5 x6 x7 x8 x9 := by
  subst h1 h2 h7 h8 h9
  -- the two pieces of the 67-column concatenation, after the operations before it
  have e1 : (StableHlo.after ((c1 (F := Ideal)).take 9) X main_v26 : S800000x64.Idx → EReal) = val_main_v26 (F := Ideal) x0 (X main_arg1) x6 := by
    dsimp only [c1, List.take, TRef.ternary, TRef.binary, TRef.unary, TRef.nullary, TRef.of]
    after_results_simp
    rw [hh]
    rfl
  have e2 : (StableHlo.after ((c1 (F := Ideal)).take 9) X main_v3 : S800000x3.Idx → EReal) = val_main_v3 (F := Ideal) x3 x4 x5 := by
    dsimp only [c1, List.take, TRef.ternary, TRef.binary, TRef.unary, TRef.nullary, TRef.of]
    after_results_simp
    exact hw
  dsimp only [c1, List.take, TRef.ternary, TRef.binary, TRef.unary, TRef.nullary, TRef.of] at e1 e2
  simp only [after_cons, after_nil] at e1 e2
  -- the two pieces of the 128-column concatenation, after the operations before it
  have e3 : (StableHlo.after ((c1 (F := Ideal)).take 27) X main_v19 : S100000x64.Idx → EReal) = val_main_v19 (F := Ideal) x0 x6 := by
    dsimp only [c1, List.take, TRef.ternary, TRef.binary, TRef.unary, TRef.nullary, TRef.of]
    after_results_simp
    exact hh
  have e4 : (StableHlo.after ((c1 (F := Ideal)).take 27) X main_v41 : S100000x64.Idx → EReal) = val_main_v41 (F := Ideal) x0 (X main_arg1) (X main_arg2) x3 x4 x5 x6 (X main_arg7) := by
    dsimp only [c1, List.take, TRef.ternary, TRef.binary, TRef.unary, TRef.nullary, TRef.of]
    after_results_simp
    rw [e1, e2, hi]
    rfl
  dsimp only [c1, List.take, TRef.ternary, TRef.binary, TRef.unary, TRef.nullary, TRef.of] at e3 e4
  simp only [after_cons, after_nil] at e3 e4
  dsimp only [c1, TRef.ternary, TRef.binary, TRef.unary, TRef.nullary, TRef.of]
  after_results_simp
  rw [e3, e4]
  rfl

end Cert.Net.RefRun

end
-- ==== Proof.RefStretch2.lean ====
/-
  The reference program's layer-1 stretch run at the ideal values over a variable valuation: what it leaves in its
  last buffer is the reference's stage function of the arguments.
-/
import proofs.«149571_j25649544692292_2_alg».proof.Proof.RefChunks
import proofs.«149571_j25649544692292_2_alg».proof.Proof.RefReadP

set_option maxRecDepth 4096

noncomputable section

namespace Cert.Net.RefRun

open Cert.ReferenceIdeal Cert.ReferenceIdeal.Gen Cert.ReferenceIdeal.Read Idealize.ShloMosaic Idealize.ShloMosaic.TcCoe Idealize.ShloMosaic.StableHlo

variable (X : Valuation τ sig (Elt Ideal))
  (x0 : S100000.Idx → BitVec 32) (x1 x2 : S800000.Idx → BitVec 32) (x3 x4 x5 : S800000.Idx → EReal)
  (x6 : S64x64.Idx → EReal) (x7 : S5x64x67.Idx → EReal) (x8 : S5x64x128.Idx → EReal) (x9 : S5x64.Idx → EReal)
  (x10 : S64x64.Idx → EReal) (x11 : S64.Idx → EReal) (x12 : S32x64.Idx → EReal) (x13 : S32.Idx → EReal)

set_option maxHeartbeats 4000000 in
/-- Layer 1: from the previous features, the edge features and the reciprocal in-degree, the stretch leaves the reference's layer-1 features. -/
theorem st2
    (hh : (X main_v52 : S100000x64.Idx → EReal) = val_main_v52 (F := Ideal) x0 x1 x2 x3 x4 x5 x6 x7 x8 x9)
    (hw : (X main_v3 : S800000x3.Idx → EReal) = val_main_v3 (F := Ideal) x3 x4 x5)
    (hi : (X main_v12 : S100000x1.Idx → EReal) = val_main_v12 (F := Ideal) x2)
    (h1 : (X main_arg1 : S800000.Idx → BitVec 32) = x1) (h2 : (X main_arg2 : S800000.Idx → BitVec 32) = x2)
    (h7 : (X main_arg7 : S5x64x67.Idx → EReal) = x7) (h8 : (X main_arg8 : S5x64x128.Idx → EReal) = x8)
    (h9 : (X main_arg9 : S5x64.Idx → EReal) = x9) :
    (StableHlo.after (c2 (F := Ideal)) X main_v85 : S100000x64.Idx → EReal) = val_main_v85 (F := Ideal) x0 x1 x2 x3 x4 x5 x6 x7 x8 x9 := by
  subst h1 h2 h7 h8 h9
  -- the two pieces of the 67-column concatenation, after the operations before it
  have e1 : (StableHlo.after ((c2 (F := Ideal)).take 9) X main_v59 : S800000x64.Idx → EReal) = val_main_v59 (F := Ideal) x0 (X main_arg1) (X main_arg2) x3 x4 x5 x6 (X main_arg7) (X main_arg8) (X main_arg9) := by
    dsimp only [c2, List.take, TRef.ternary, TRef.binary, TRef.unary, TRef.nullary, TRef.of]
    after_results_simp
    rw [hh]
    rfl
  have e2 : (StableHlo.after ((c2 (F := Ideal)).take 9) X main_v3 : S800000x3.Idx → EReal) = val_main_v3 (F := Ideal) x3 x4 x5 := by
    dsimp only [c2, List.take, TRef.ternary, TRef.binary, TRef.unary, TRef.nullary, TRef.of]
    after_results_simp
    exact hw
  dsimp only [c2, List.take, TRef.ternary, TRef.binary, TRef.unary, TRef.nullary, TRef.of] at e1 e2
  simp only [after_cons, after_nil] at e1 e2
  -- the two pieces of the 128-column concatenation, after the operations before it
  have e3 : (StableHlo.after ((c2 (F := Ideal)).take 27) X main_v52 : S100000x64.Idx → EReal) = val_main_v52 (F := Ideal) x0 (X main_arg1) (X main_arg2) x3 x4 x5 x6 (X main_arg7) (X main_arg8) (X main_arg9) := by
    dsimp only [c2, List.take, TRef.ternary, TRef.binary, TRef.unary, TRef.nullary, TRef.of]
    after_results_simp
    exact hh
  have e4 : (StableHlo.after ((c2 (F := Ideal)).take 27) X main_v74 : S100000x64.Idx → EReal) = val_main_v74 (F := Ideal) x0 (X main_arg1) (X main_arg2) x3 x4 x5 x6 (X main_arg7) (X main_arg8) (X main_arg9) := by
    dsimp only [c2, List.take, TRef.ternary, TRef.binary, TRef.unary, TRef.nullary, TRef.of]
    after_results_simp
    rw [e1, e2, hi]
    rfl
  dsimp only [c2, List.take, TRef.ternary, TRef.binary, TRef.unary, TRef.nullary, TRef.of] at e3 e4
  simp only [after_cons, after_nil] at e3 e4
  dsimp only [c2, TRef.ternary, TRef.binary, TRef.unary, TRef.nullary, TRef.of]
  after_results_simp
  rw [e3, e4]
  rfl

end Cert.Net.RefRun

end
-- ==== Proof.RefStretch3.lean ====
/-
  The reference program's layer-2 stretch run at the ideal values over a variable valuation: what it leaves in its
  last buffer is the reference's stage function of the arguments.
-/
import proofs.«149571_j25649544692292_2_alg».proof.Proof.RefChunks
import proofs.«149571_j25649544692292_2_alg».proof.Proof.RefReadP

set_option maxRecDepth 4096

noncomputable section

namespace Cert.Net.RefRun

open Cert.ReferenceIdeal Cert.ReferenceIdeal.Gen Cert.ReferenceIdeal.Read Idealize.ShloMosaic Idealize.ShloMosaic.TcCoe Idealize.ShloMosaic.StableHlo

variable (X : Valuation τ sig (Elt Ideal))
  (x0 : S100000.Idx → BitVec 32) (x1 x2 : S800000.Idx → BitVec 32) (x3 x4 x5 : S800000.Idx → EReal)
  (x6 : S64x64.Idx → EReal) (x7 : S5x64x67.Idx → EReal) (x8 : S5x64x128.Idx → EReal) (x9 : S5x64.Idx → EReal)
  (x10 : S64x64.Idx → EReal) (x11 : S64.Idx → EReal) (x12 : S32x64.Idx → EReal) (x13 : S32.Idx → EReal)

set_option maxHeartbeats 4000000 in
/-- Layer 2: from the previous features, the edge features and the reciprocal in-degree, the stretch leaves the reference's layer-2 features. -/
theorem st3
    (hh : (X main_v85 : S100000x64.Idx → EReal) = val_main_v85 (F := Ideal) x0 x1 x2 x3 x4 x5 x6 x7 x8 x9)
    (hw : (X main_v3 : S800000x3.Idx → EReal) = val_main_v3 (F := Ideal) x3 x4 x5)
    (hi : (X main_v12 : S100000x1.Idx → EReal) = val_main_v12 (F := Ideal) x2)
    (h1 : (X main_arg1 : S800000.Idx → BitVec 32) = x1) (h2 : (X main_arg2 : S800000.Idx → BitVec 32) = x2)
    (h7 : (X main_arg7 : S5x64x67.Idx → EReal) = x7) (h8 : (X main_arg8 : S5x64x128.Idx → EReal) = x8)
    (h9 : (X main_arg9 : S5x64.Idx → EReal) = x9) :
    (StableHlo.after (c3 (F := Ideal)) X main_v118 : S100000x64.Idx → EReal) = val_main_v118 (F := Ideal) x0 x1 x2 x3 x4 x5 x6 x7 x8 x9 := by
  subst h1 h2 h7 h8 h9
  -- the two pieces of the 67-column concatenation, after the operations before it
  have e1 : (StableHlo.after ((c3 (F := Ideal)).take 9) X main_v92 : S800000x64.Idx → EReal) = val_main_v92 (F := Ideal) x0 (X main_arg1) (X main_arg2) x3 x4 x5 x6 (X main_arg7) (X main_arg8) (X main_arg9) := by
    dsimp only [c3, List.take, TRef.ternary, TRef.binary, TRef.unary, TRef.nullary, TRef.of]
    after_results_simp
    rw [hh]
    rfl
  have e2 : (StableHlo.after ((c3 (F := Ideal)).take 9) X main_v3 : S800000x3.Idx → EReal) = val_main_v3 (F := Ideal) x3 x4 x5 := by
    dsimp only [c3, List.take, TRef.ternary, TRef.binary, TRef.unary, TRef.nullary, TRef.of]
    after_results_simp
    exact hw
  dsimp only [c3, List.take, TRef.ternary, TRef.binary, TRef.unary, TRef.nullary, TRef.of] at e1 e2
  simp only [after_cons, after_nil] at e1 e2
  -- the two pieces of the 128-column concatenation, after the operations before it
  have e3 : (StableHlo.after ((c3 (F := Ideal)).take 27) X main_v85 : S100000x64.Idx → EReal) = val_main_v85 (F := Ideal) x0 (X main_arg1) (X main_arg2) x3 x4 x5 x6 (X main_arg7) (X main_arg8) (X main_arg9) := by
    dsimp only [c3, List.take, TRef.ternary, TRef.binary, TRef.unary, TRef.nullary, TRef.of]
    after_results_simp
    exact hh
  have e4 : (StableHlo.after ((c3 (F := Ideal)).take 27) X main_v107 : S100000x64.Idx → EReal) = val_main_v107 (F := Ideal) x0 (X main_arg1) (X main_arg2) x3 x4 x5 x6 (X main_arg7) (X main_arg8) (X main_arg9) := by
    dsimp only [c3, List.take, TRef.ternary, TRef.binary, TRef.unary, TRef.nullary, TRef.of]
    after_results_simp
    rw [e1, e2, hi]
    rfl
  dsimp only [c3, List.take, TRef.ternary, TRef.binary, TRef.unary, TRef.nullary, TRef.of] at e3 e4
  simp only [after_cons, after_nil] at e3 e4
  dsimp only [c3, TRef.ternary, TRef.binary, TRef.unary, TRef.nullary, TRef.of]
  after_results_simp
  rw [e3, e4]
  rfl

end Cert.Net.RefRun

end
-- ==== Proof.RefStretch4.lean ====
/-
  The reference program's layer-3 stretch run at the ideal values over a variable valuation: what it leaves in its
  last buffer is the reference's stage function of the arguments.
-/
import proofs.«149571_j25649544692292_2_alg».proof.Proof.RefChunks
import proofs.«149571_j25649544692292_2_alg».proof.Proof.RefReadP

set_option maxRecDepth 4096

noncomputable section

namespace Cert.Net.RefRun

open Cert.ReferenceIdeal Cert.ReferenceIdeal.Gen Cert.ReferenceIdeal.Read Idealize.ShloMosaic Idealize.ShloMosaic.TcCoe Idealize.ShloMosaic.StableHlo

variable (X : Valuation τ sig (Elt Ideal))
  (x0 : S100000.Idx → BitVec 32) (x1 x2 : S800000.Idx → BitVec 32) (x3 x4 x5 : S800000.Idx → EReal)
  (x6 : S64x64.Idx → EReal) (x7 : S5x64x67.Idx → EReal) (x8 : S5x64x128.Idx → EReal) (x9 : S5x64.Idx → EReal)
  (x10 : S64x64.Idx → EReal) (x11 : S64.Idx → EReal) (x12 : S32x64.Idx → EReal) (x13 : S32.Idx → EReal)

set_option maxHeartbeats 4000000 in
/-- Layer 3: from the previous features, the edge features and the reciprocal in-degree, the stretch leaves the reference's layer-3 features. -/
theorem st4
    (hh : (X main_v118 : S100000x64.Idx → EReal) = val_main_v118 (F := Ideal) x0 x1 x2 x3 x4 x5 x6 x7 x8 x9)
    (hw : (X main_v3 : S800000x3.Idx → EReal) = val_main_v3 (F := Ideal) x3 x4 x5)
    (hi : (X main_v12 : S100000x1.Idx → EReal) = val_main_v12 (F := Ideal) x2)
    (h1 : (X main_arg1 : S800000.Idx → BitVec 32) = x1) (h2 : (X main_arg2 : S800000.Idx → BitVec 32) = x2)
    (h7 : (X main_arg7 : S5x64x67.Idx → EReal) = x7) (h8 : (X main_arg8 : S5x64x128.Idx → EReal) = x8)
    (h9 : (X main_arg9 : S5x64.Idx → EReal) = x9) :
    (StableHlo.after (c4 (F := Ideal)) X main_v151 : S100000x64.Idx → EReal) = val_main_v151 (F := Ideal) x0 x1 x2 x3 x4 x5 x6 x7 x8 x9 := by
  subst h1 h2 h7 h8 h9
  -- the two pieces of the 67-column concatenation, after the operations before it
  have e1 : (StableHlo.after ((c4 (F := Ideal)).take 9) X main_v125 : S800000x64.Idx → EReal) = val_main_v125 (F := Ideal) x0 (X main_arg1) (X main_arg2) x3 x4 x5 x6 (X main_arg7) (X main_arg8) (X main_arg9) := by
    dsimp only [c4, List.take, TRef.ternary, TRef.binary, TRef.unary, TRef.nullary, TRef.of]
    after_results_simp
    rw [hh]
    rfl
  have e2 : (StableHlo.after ((c4 (F := Ideal)).take 9) X main_v3 : S800000x3.Idx → EReal) = val_main_v3 (F := Ideal) x3 x4 x5 := by
    dsimp only [c4, List.take, TRef.ternary, TRef.binary, TRef.unary, TRef.nullary, TRef.of]
    after_results_simp
    exact hw
  dsimp only [c4, List.take, TRef.ternary, TRef.binary, TRef.unary, TRef.nullary, TRef.of] at e1 e2
  simp only [after_cons, after_nil] at e1 e2
  -- the two pieces of the 128-column concatenation, after the operations before it
  have e3 : (StableHlo.after ((c4 (F := Ideal)).take 27) X main_v118 : S100000x64.Idx → EReal) = val_main_v118 (F := Ideal) x0 (X main_arg1) (X main_arg2) x3 x4 x5 x6 (X main_arg7) (X main_arg8) (X main_arg9) := by
    dsimp only [c4, List.take, TRef.ternary, TRef.binary, TRef.unary, TRef.nullary, TRef.of]
    after_results_simp
    exact hh
  have e4 : (StableHlo.after ((c4 (F := Ideal)).take 27) X main_v140 : S100000x64.Idx → EReal) = val_main_v140 (F := Ideal) x0 (X main_arg1) (X main_arg2) x3 x4 x5 x6 (X main_arg7) (X main_arg8) (X main_arg9) := by
    dsimp only [c4, List.take, TRef.ternary, TRef.binary, TRef.unary, TRef.nullary, TRef.of]
    after_results_simp
    rw [e1, e2, hi]
    rfl
  dsimp only [c4, List.take, TRef.ternary, TRef.binary, TRef.unary, TRef.nullary, TRef.of] at e3 e4
  simp only [after_cons, after_nil] at e3 e4
  dsimp only [c4, TRef.ternary, TRef.binary, TRef.unary, TRef.nullary, TRef.of]
  after_results_simp
  rw [e3, e4]
  rfl

end Cert.Net.RefRun

end
-- ==== Proof.RefStretch5.lean ====
/-
  The reference program's layer-4 stretch run at the ideal values over a variable valuation: what it leaves in its
  last buffer is the reference's stage function of the arguments.
-/
import proofs.«149571_j25649544692292_2_alg».proof.Proof.RefChunks
import proofs.«149571_j25649544692292_2_alg».proof.Proof.RefReadP

set_option maxRecDepth 4096

noncomputable section

namespace Cert.Net.RefRun

open Cert.ReferenceIdeal Cert.ReferenceIdeal.Gen Cert.ReferenceIdeal.Read Idealize.ShloMosaic Idealize.ShloMosaic.TcCoe Idealize.ShloMosaic.StableHlo

variable (X : Valuation τ sig (Elt Ideal))
  (x0 : S100000.Idx → BitVec 32) (x1 x2 : S800000.Idx → BitVec 32) (x3 x4 x5 : S800000.Idx → EReal)
  (x6 : S64x64.Idx → EReal) (x7 : S5x64x67.Idx → EReal) (x8 : S5x64x128.Idx → EReal) (x9 : S5x64.Idx → EReal)
  (x10 : S64x64.Idx → EReal) (x11 : S64.Idx → EReal) (x12 : S32x64.Idx → EReal) (x13 : S32.Idx → EReal)

set_option maxHeartbeats 4000000 in
/-- Layer 4: from the previous features, the edge features and the reciprocal in-degree, the stretch leaves the reference's layer-4 features. -/
theorem st5
    (hh : (X main_v151 : S100000x64.Idx → EReal) = val_main_v151 (F := Ideal) x0 x1 x2 x3 x4 x5 x6 x7 x8 x9)
    (hw : (X main_v3 : S800000x3.Idx → EReal) = val_main_v3 (F := Ideal) x3 x4 x5)
    (hi : (X main_v12 : S100000x1.Idx → EReal) = val_main_v12 (F := Ideal) x2)
    (h1 : (X main_arg1 : S800000.Idx → BitVec 32) = x1) (h2 : (X main_arg2 : S800000.Idx → BitVec 32) = x2)
    (h7 : (X main_arg7 : S5x64x67.Idx → EReal) = x7) (h8 : (X main_arg8 : S5x64x128.Idx → EReal) = x8)
    (h9 : (X main_arg9 : S5x64.Idx → EReal) = x9) :
    (StableHlo.after (c5 (F := Ideal)) X main_v184 : S100000x64.Idx → EReal) = val_main_v184 (F := Ideal) x0 x1 x2 x3 x4 x5 x6 x7 x8 x9 := by
  subst h1 h2 h7 h8 h9
  -- the two pieces of the 67-column concatenation, after the operations before it
  have e1 : (StableHlo.after ((c5 (F := Ideal)).take 9) X main_v158 : S800000x64.Idx → EReal) = val_main_v158 (F := Ideal) x0 (X main_arg1) (X main_arg2) x3 x4 x5 x6 (X main_arg7) (X main_arg8) (X main_arg9) := by
    dsimp only [c5, List.take, TRef.ternary, TRef.binary, TRef.unary, TRef.nullary, TRef.of]
    after_results_simp
    rw [hh]
    rfl
  have e2 : (StableHlo.after ((c5 (F := Ideal)).take 9) X main_v3 : S800000x3.Idx → EReal) = val_main_v3 (F := Ideal) x3 x4 x5 := by
    dsimp only [c5, List.take, TRef.ternary, TRef.binary, TRef.unary, TRef.nullary, TRef.of]
    after_results_simp
    exact hw
  dsimp only [c5, List.take, TRef.ternary, TRef.binary, TRef.unary, TRef.nullary, TRef.of] at e1 e2
  simp only [after_cons, after_nil] at e1 e2
  -- the two pieces of the 128-column concatenation, after the operations before it
  have e3 : (StableHlo.after ((c5 (F := Ideal)).take 27) X main_v151 : S100000x64.Idx → EReal) = val_main_v151 (F := Ideal) x0 (X main_arg1) (X main_arg2) x3 x4 x5 x6 (X main_arg7) (X main_arg8) (X main_arg9) := by
    dsimp only [c5, List.take, TRef.ternary, TRef.binary, TRef.unary, TRef.nullary, TRef.of]
    after_results_simp
    exact hh
  have e4 : (StableHlo.after ((c5 (F := Ideal)).take 27) X main_v173 : S100000x64.Idx → EReal) = val_main_v173 (F := Ideal) x0 (X main_arg1) (X main_arg2) x3 x4 x5 x6 (X main_arg7) (X main_arg8) (X main_arg9) := by
    dsimp only [c5, List.take, TRef.ternary, TRef.binary, TRef.unary, TRef.nullary, TRef.of]
    after_results_simp
    rw [e1, e2, hi]
    rfl
  dsimp only [c5, List.take, TRef.ternary, TRef.binary, TRef.unary, TRef.nullary, TRef.of] at e3 e4
  simp only [after_cons, after_nil] at e3 e4
  dsimp only [c5, TRef.ternary, TRef.binary, TRef.unary, TRef.nullary, TRef.of]
  after_results_simp
  rw [e3, e4]
  rfl

end Cert.Net.RefRun

end
-- ==== Proof.RefStretch.lean ====
/-
  The reference program's five layer stretches run at the ideal values: the five lemmas together.
-/
import proofs.«149571_j25649544692292_2_alg».proof.Proof.RefStretch1
import proofs.«149571_j25649544692292_2_alg».proof.Proof.RefStretch2
import proofs.«149571_j25649544692292_2_alg».proof.Proof.RefStretch3
import proofs.«149571_j25649544692292_2_alg».proof.Proof.RefStretch4
import proofs.«149571_j25649544692292_2_alg».proof.Proof.RefStretch5
-- ==== Proof.RefStretchB.lean ====
/-
  The reference program's first and last stretches as values.  The prologue leaves the edge-feature array, the
  reciprocal in-degree column and the embedded node features, each the reference's own term over the arguments;
  the head leaves the class scores, the reference's term over the last layer's node features and the head's
  arguments.  Each is read off the stretch's operations, one result at a time.
-/
import proofs.«149571_j25649544692292_2_alg».proof.Proof.RefChunks
import proofs.«149571_j25649544692292_2_alg».proof.Proof.RefReadP

set_option maxRecDepth 1656

noncomputable section

namespace Cert.Net.RefRun

open Cert.ReferenceIdeal Cert.ReferenceIdeal.Gen Idealize.ShloMosaic Idealize.ShloMosaic.TcCoe Idealize.SL.Sem Idealize.ShloMosaic.StableHlo

set_option maxHeartbeats 1000000 in
/-- The prologue's edge features: the three feature vectors as the columns of one array. -/
theorem st0_v3 (X : Valuation τ sig (Elt Ideal)) (x3 x4 x5 : S800000.Idx → EReal)
    (h3 : (X main_arg3 : S800000.Idx → EReal) = x3) (h4 : (X main_arg4 : S800000.Idx → EReal) = x4) (h5 : (X main_arg5 : S800000.Idx → EReal) = x5) :
    (StableHlo.after (c0 (F := Ideal)) X main_v3 : S800000x3.Idx → EReal) = Cert.ReferenceIdeal.Read.val_main_v3 (F := Ideal) x3 x4 x5 := by
  subst h3 h4 h5
  dsimp only [c0]
  after_results
  rfl

set_option maxHeartbeats 1000000 in
/-- The prologue's reciprocal in-degree column. -/
theorem st0_v12 (X : Valuation τ sig (Elt Ideal)) (x2 : S800000.Idx → BitVec 32)
    (h2 : (X main_arg2 : S800000.Idx → BitVec 32) = x2) :
    (StableHlo.after (c0 (F := Ideal)) X main_v12 : S100000x1.Idx → EReal) = Cert.ReferenceIdeal.Read.val_main_v12 (F := Ideal) x2 := by
  subst h2
  dsimp only [c0]
  after_results
  rfl

set_option maxHeartbeats 1000000 in
/-- The prologue's embedded node features. -/
theorem st0_v19 (X : Valuation τ sig (Elt Ideal)) (x0 : S100000.Idx → BitVec 32) (x6 : S64x64.Idx → EReal)
    (h0 : (X main_arg0 : S100000.Idx → BitVec 32) = x0) (h6 : (X main_arg6 : S64x64.Idx → EReal) = x6) :
    (StableHlo.after (c0 (F := Ideal)) X main_v19 : S100000x64.Idx → EReal) = Cert.ReferenceIdeal.Read.val_main_v19 (F := Ideal) x0 x6 := by
  subst h0 h6
  dsimp only [c0]
  after_results
  rfl

set_option maxHeartbeats 1000000 in
/-- The head: from the last layer's node features and the head's four arguments, the class scores. -/
theorem st6 (X : Valuation τ sig (Elt Ideal))
    (x0 : S100000.Idx → BitVec 32) (x1 x2 : S800000.Idx → BitVec 32) (x3 x4 x5 : S800000.Idx → EReal) (x6 : S64x64.Idx → EReal)
    (x7 : S5x64x67.Idx → EReal) (x8 : S5x64x128.Idx → EReal) (x9 : S5x64.Idx → EReal) (x10 : S64x64.Idx → EReal)
    (x11 : S64.Idx → EReal) (x12 : S32x64.Idx → EReal) (x13 : S32.Idx → EReal)
    (hh : (X main_v184 : S100000x64.Idx → EReal) = Cert.ReferenceIdeal.Read.val_main_v184 (F := Ideal) x0 x1 x2 x3 x4 x5 x6 x7 x8 x9)
    (h10 : (X main_arg10 : S64x64.Idx → EReal) = x10) (h11 : (X main_arg11 : S64.Idx → EReal) = x11)
    (h12 : (X main_arg12 : S32x64.Idx → EReal) = x12) (h13 : (X main_arg13 : S32.Idx → EReal) = x13) :
    (StableHlo.after (c6 (F := Ideal)) X main_v195 : S100000x32.Idx → EReal)
      = Cert.ReferenceIdeal.Read.val_main_v195 (F := Ideal) x0 x1 x2 x3 x4 x5 x6 x7 x8 x9 x10 x11 x12 x13 := by
  subst h10 h11 h12 h13
  dsimp only [c6]
  after_results
  rw [hh]
  rfl

end Cert.Net.RefRun
end
-- ==== Proof.RefRunH.lean ====
/-
  The reference program's run, by hand. Its @main is 239 host operations in a line, so every weakly fair execution
  terminates with each buffer at the fold of the operations' results over the launch memory. The fold is read
  stretch by stretch — the prologue, the five layers, the head —: each stretch leaves the argument arrays (and the
  edge features and reciprocal degrees it only reads) untouched, and writes its layer's node features as the
  stage function of the arguments; so the result array ends at the last stage function of the arguments and every
  argument array as launched.
-/
import proofs.«149571_j25649544692292_2_alg».proof.Proof.RefRunP
import proofs.«149571_j25649544692292_2_alg».proof.Proof.RefSplit
import proofs.«149571_j25649544692292_2_alg».proof.Proof.RefFrame
import proofs.«149571_j25649544692292_2_alg».proof.Proof.RefStretch
import proofs.«149571_j25649544692292_2_alg».proof.Proof.RefStretchB

set_option maxRecDepth 16384

noncomputable section

namespace Cert.Net.RefRun

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

abbrev x0 : S100000.Idx → BitVec 32 := m ((c.tc : Thread nD τ).loc main_arg0)
abbrev x1 : S800000.Idx → BitVec 32 := m ((c.tc : Thread nD τ).loc main_arg1)
abbrev x2 : S800000.Idx → BitVec 32 := m ((c.tc : Thread nD τ).loc main_arg2)
abbrev x3 : S800000.Idx → EReal := m ((c.tc : Thread nD τ).loc main_arg3)
abbrev x4 : S800000.Idx → EReal := m ((c.tc : Thread nD τ).loc main_arg4)
abbrev x5 : S800000.Idx → EReal := m ((c.tc : Thread nD τ).loc main_arg5)
abbrev x6 : S64x64.Idx → EReal := m ((c.tc : Thread nD τ).loc main_arg6)
abbrev x7 : S5x64x67.Idx → EReal := m ((c.tc : Thread nD τ).loc main_arg7)
abbrev x8 : S5x64x128.Idx → EReal := m ((c.tc : Thread nD τ).loc main_arg8)
abbrev x9 : S5x64.Idx → EReal := m ((c.tc : Thread nD τ).loc main_arg9)
abbrev x10 : S64x64.Idx → EReal := m ((c.tc : Thread nD τ).loc main_arg10)
abbrev x11 : S64.Idx → EReal := m ((c.tc : Thread nD τ).loc main_arg11)
abbrev x12 : S32x64.Idx → EReal := m ((c.tc : Thread nD τ).loc main_arg12)
abbrev x13 : S32.Idx → EReal := m ((c.tc : Thread nD τ).loc main_arg13)

/-- The buffers at launch, and after each stretch. -/
abbrev W0 : Valuation τ sig (Elt Ideal) := launchContents m c
abbrev W1 : Valuation τ sig (Elt Ideal) := after (c0 (F := Ideal)) (W0 m c)
abbrev W2 : Valuation τ sig (Elt Ideal) := after (c1 (F := Ideal)) (W1 m c)
abbrev W3 : Valuation τ sig (Elt Ideal) := after (c2 (F := Ideal)) (W2 m c)
abbrev W4 : Valuation τ sig (Elt Ideal) := after (c3 (F := Ideal)) (W3 m c)
abbrev W5 : Valuation τ sig (Elt Ideal) := after (c4 (F := Ideal)) (W4 m c)
abbrev W6 : Valuation τ sig (Elt Ideal) := after (c5 (F := Ideal)) (W5 m c)
abbrev W7 : Valuation τ sig (Elt Ideal) := after (c6 (F := Ideal)) (W6 m c)

theorem fold_eq : after (Cert.ReferenceIdeal.Value.ops (F := Ideal)) (launchContents m c) = W7 m c := by
  rw [ops_split]
  simp only [after_append]

/-- The prologue's three results. -/
theorem w1_v3 : (W1 m c main_v3 : S800000x3.Idx → EReal) = Cert.ReferenceIdeal.Read.val_main_v3 (F := Ideal) (x3 m c) (x4 m c) (x5 m c) := st0_v3 (W0 m c) _ _ _ rfl rfl rfl
theorem w1_v12 : (W1 m c main_v12 : S100000x1.Idx → EReal) = Cert.ReferenceIdeal.Read.val_main_v12 (F := Ideal) (x2 m c) := st0_v12 (W0 m c) _ rfl
theorem w1_v19 : (W1 m c main_v19 : S100000x64.Idx → EReal) = Cert.ReferenceIdeal.Read.val_main_v19 (F := Ideal) (x0 m c) (x6 m c) := st0_v19 (W0 m c) _ _ rfl rfl

/-- Layer 0's node features. -/
theorem w2_h : (W2 m c main_v52 : S100000x64.Idx → EReal) = Cert.ReferenceIdeal.Read.val_main_v52 (F := Ideal) (x0 m c) (x1 m c) (x2 m c) (x3 m c) (x4 m c) (x5 m c) (x6 m c) (x7 m c) (x8 m c) (x9 m c) :=
  st1 (W1 m c) _ _ _ _ _ _ _ _ _ _ (w1_v19 m c) (w1_v3 m c) (w1_v12 m c)
    ((c0_of (W0 m c) main_arg1 (by decide)).trans (rfl : W0 m c main_arg1 = x1 m c))
    ((c0_of (W0 m c) main_arg2 (by decide)).trans (rfl : W0 m c main_arg2 = x2 m c))
    ((c0_of (W0 m c) main_arg7 (by decide)).trans (rfl : W0 m c main_arg7 = x7 m c))
    ((c0_of (W0 m c) main_arg8 (by decide)).trans (rfl : W0 m c main_arg8 = x8 m c))
    ((c0_of (W0 m c) main_arg9 (by decide)).trans (rfl : W0 m c main_arg9 = x9 m c))

/-- Layer 1's node features. -/
theorem w3_h : (W3 m c main_v85 : S100000x64.Idx → EReal) = Cert.ReferenceIdeal.Read.val_main_v85 (F := Ideal) (x0 m c) (x1 m c) (x2 m c) (x3 m c) (x4 m c) (x5 m c) (x6 m c) (x7 m c) (x8 m c) (x9 m c) :=
  st2 (W2 m c) _ _ _ _ _ _ _ _ _ _ (w2_h m c) ((c1_of (W1 m c) main_v3 (by decide)).trans (w1_v3 m c)) ((c1_of (W1 m c) main_v12 (by decide)).trans (w1_v12 m c))
    ((c1_of (W1 m c) main_arg1 (by decide)).trans ((c0_of (W0 m c) main_arg1 (by decide)).trans (rfl : W0 m c main_arg1 = x1 m c)))
    ((c1_of (W1 m c) main_arg2 (by decide)).trans ((c0_of (W0 m c) main_arg2 (by decide)).trans (rfl : W0 m c main_arg2 = x2 m c)))
    ((c1_of (W1 m c) main_arg7 (by decide)).trans ((c0_of (W0 m c) main_arg7 (by decide)).trans (rfl : W0 m c main_arg7 = x7 m c)))
    ((c1_of (W1 m c) main_arg8 (by decide)).trans ((c0_of (W0 m c) main_arg8 (by decide)).trans (rfl : W0 m c main_arg8 = x8 m c)))
    ((c1_of (W1 m c) main_arg9 (by decide)).trans ((c0_of (W0 m c) main_arg9 (by decide)).trans (rfl : W0 m c main_arg9 = x9 m c)))

/-- Layer 2's node features. -/
theorem w4_h : (W4 m c main_v118 : S100000x64.Idx → EReal) = Cert.ReferenceIdeal.Read.val_main_v118 (F := Ideal) (x0 m c) (x1 m c) (x2 m c) (x3 m c) (x4 m c) (x5 m c) (x6 m c) (x7 m c) (x8 m c) (x9 m c) :=
  st3 (W3 m c) _ _ _ _ _ _ _ _ _ _ (w3_h m c) ((c2_of (W2 m c) main_v3 (by decide)).trans ((c1_of (W1 m c) main_v3 (by decide)).trans (w1_v3 m c))) ((c2_of (W2 m c) main_v12 (by decide)).trans ((c1_of (W1 m c) main_v12 (by decide)).trans (w1_v12 m c)))
    ((c2_of (W2 m c) main_arg1 (by decide)).trans ((c1_of (W1 m c) main_arg1 (by decide)).trans ((c0_of (W0 m c) main_arg1 (by decide)).trans (rfl : W0 m c main_arg1 = x1 m c))))
    ((c2_of (W2 m c) main_arg2 (by decide)).trans ((c1_of (W1 m c) main_arg2 (by decide)).trans ((c0_of (W0 m c) main_arg2 (by decide)).trans (rfl : W0 m c main_arg2 = x2 m c))))
    ((c2_of (W2 m c) main_arg7 (by decide)).trans ((c1_of (W1 m c) main_arg7 (by decide)).trans ((c0_of (W0 m c) main_arg7 (by decide)).trans (rfl : W0 m c main_arg7 = x7 m c))))
    ((c2_of (W2 m c) main_arg8 (by decide)).trans ((c1_of (W1 m c) main_arg8 (by decide)).trans ((c0_of (W0 m c) main_arg8 (by decide)).trans (rfl : W0 m c main_arg8 = x8 m c))))
    ((c2_of (W2 m c) main_arg9 (by decide)).trans ((c1_of (W1 m c) main_arg9 (by decide)).trans ((c0_of (W0 m c) main_arg9 (by decide)).trans (rfl : W0 m c main_arg9 = x9 m c))))

/-- Layer 3's node features. -/
theorem w5_h : (W5 m c main_v151 : S100000x64.Idx → EReal) = Cert.ReferenceIdeal.Read.val_main_v151 (F := Ideal) (x0 m c) (x1 m c) (x2 m c) (x3 m c) (x4 m c) (x5 m c) (x6 m c) (x7 m c) (x8 m c) (x9 m c) :=
  st4 (W4 m c) _ _ _ _ _ _ _ _ _ _ (w4_h m c) ((c3_of (W3 m c) main_v3 (by decide)).trans ((c2_of (W2 m c) main_v3 (by decide)).trans ((c1_of (W1 m c) main_v3 (by decide)).trans (w1_v3 m c)))) ((c3_of (W3 m c) main_v12 (by decide)).trans ((c2_of (W2 m c) main_v12 (by decide)).trans ((c1_of (W1 m c) main_v12 (by decide)).trans (w1_v12 m c))))
    ((c3_of (W3 m c) main_arg1 (by decide)).trans ((c2_of (W2 m c) main_arg1 (by decide)).trans ((c1_of (W1 m c) main_arg1 (by decide)).trans ((c0_of (W0 m c) main_arg1 (by decide)).trans (rfl : W0 m c main_arg1 = x1 m c)))))
    ((c3_of (W3 m c) main_arg2 (by decide)).trans ((c2_of (W2 m c) main_arg2 (by decide)).trans ((c1_of (W1 m c) main_arg2 (by decide)).trans ((c0_of (W0 m c) main_arg2 (by decide)).trans (rfl : W0 m c main_arg2 = x2 m c)))))
    ((c3_of (W3 m c) main_arg7 (by decide)).trans ((c2_of (W2 m c) main_arg7 (by decide)).trans ((c1_of (W1 m c) main_arg7 (by decide)).trans ((c0_of (W0 m c) main_arg7 (by decide)).trans (rfl : W0 m c main_arg7 = x7 m c)))))
    ((c3_of (W3 m c) main_arg8 (by decide)).trans ((c2_of (W2 m c) main_arg8 (by decide)).trans ((c1_of (W1 m c) main_arg8 (by decide)).trans ((c0_of (W0 m c) main_arg8 (by decide)).trans (rfl : W0 m c main_arg8 = x8 m c)))))
    ((c3_of (W3 m c) main_arg9 (by decide)).trans ((c2_of (W2 m c) main_arg9 (by decide)).trans ((c1_of (W1 m c) main_arg9 (by decide)).trans ((c0_of (W0 m c) main_arg9 (by decide)).trans (rfl : W0 m c main_arg9 = x9 m c)))))

/-- Layer 4's node features. -/
theorem w6_h : (W6 m c main_v184 : S100000x64.Idx → EReal) = Cert.ReferenceIdeal.Read.val_main_v184 (F := Ideal) (x0 m c) (x1 m c) (x2 m c) (x3 m c) (x4 m c) (x5 m c) (x6 m c) (x7 m c) (x8 m c) (x9 m c) :=
  st5 (W5 m c) _ _ _ _ _ _ _ _ _ _ (w5_h m c) ((c4_of (W4 m c) main_v3 (by decide)).trans ((c3_of (W3 m c) main_v3 (by decide)).trans ((c2_of (W2 m c) main_v3 (by decide)).trans ((c1_of (W1 m c) main_v3 (by decide)).trans (w1_v3 m c))))) ((c4_of (W4 m c) main_v12 (by decide)).trans ((c3_of (W3 m c) main_v12 (by decide)).trans ((c2_of (W2 m c) main_v12 (by decide)).trans ((c1_of (W1 m c) main_v12 (by decide)).trans (w1_v12 m c)))))
    ((c4_of (W4 m c) main_arg1 (by decide)).trans ((c3_of (W3 m c) main_arg1 (by decide)).trans ((c2_of (W2 m c) main_arg1 (by decide)).trans ((c1_of (W1 m c) main_arg1 (by decide)).trans ((c0_of (W0 m c) main_arg1 (by decide)).trans (rfl : W0 m c main_arg1 = x1 m c))))))
    ((c4_of (W4 m c) main_arg2 (by decide)).trans ((c3_of (W3 m c) main_arg2 (by decide)).trans ((c2_of (W2 m c) main_arg2 (by decide)).trans ((c1_of (W1 m c) main_arg2 (by decide)).trans ((c0_of (W0 m c) main_arg2 (by decide)).trans (rfl : W0 m c main_arg2 = x2 m c))))))
    ((c4_of (W4 m c) main_arg7 (by decide)).trans ((c3_of (W3 m c) main_arg7 (by decide)).trans ((c2_of (W2 m c) main_arg7 (by decide)).trans ((c1_of (W1 m c) main_arg7 (by decide)).trans ((c0_of (W0 m c) main_arg7 (by decide)).trans (rfl : W0 m c main_arg7 = x7 m c))))))
    ((c4_of (W4 m c) main_arg8 (by decide)).trans ((c3_of (W3 m c) main_arg8 (by decide)).trans ((c2_of (W2 m c) main_arg8 (by decide)).trans ((c1_of (W1 m c) main_arg8 (by decide)).trans ((c0_of (W0 m c) main_arg8 (by decide)).trans (rfl : W0 m c main_arg8 = x8 m c))))))
    ((c4_of (W4 m c) main_arg9 (by decide)).trans ((c3_of (W3 m c) main_arg9 (by decide)).trans ((c2_of (W2 m c) main_arg9 (by decide)).trans ((c1_of (W1 m c) main_arg9 (by decide)).trans ((c0_of (W0 m c) main_arg9 (by decide)).trans (rfl : W0 m c main_arg9 = x9 m c))))))

/-- The scores. -/
theorem w7_out : (W7 m c main_v195 : S100000x32.Idx → EReal) = Cert.ReferenceIdeal.Read.val_main_v195 (F := Ideal) (x0 m c) (x1 m c) (x2 m c) (x3 m c) (x4 m c) (x5 m c) (x6 m c) (x7 m c) (x8 m c) (x9 m c) (x10 m c) (x11 m c) (x12 m c) (x13 m c) :=
  st6 (W6 m c) _ _ _ _ _ _ _ _ _ _ _ _ _ _ (w6_h m c)
    ((c5_of (W5 m c) main_arg10 (by decide)).trans ((c4_of (W4 m c) main_arg10 (by decide)).trans ((c3_of (W3 m c) main_arg10 (by decide)).trans ((c2_of (W2 m c) main_arg10 (by decide)).trans ((c1_of (W1 m c) main_arg10 (by decide)).trans ((c0_of (W0 m c) main_arg10 (by decide)).trans (rfl : W0 m c main_arg10 = x10 m c)))))))
    ((c5_of (W5 m c) main_arg11 (by decide)).trans ((c4_of (W4 m c) main_arg11 (by decide)).trans ((c3_of (W3 m c) main_arg11 (by decide)).trans ((c2_of (W2 m c) main_arg11 (by decide)).trans ((c1_of (W1 m c) main_arg11 (by decide)).trans ((c0_of (W0 m c) main_arg11 (by decide)).trans (rfl : W0 m c main_arg11 = x11 m c)))))))
    ((c5_of (W5 m c) main_arg12 (by decide)).trans ((c4_of (W4 m c) main_arg12 (by decide)).trans ((c3_of (W3 m c) main_arg12 (by decide)).trans ((c2_of (W2 m c) main_arg12 (by decide)).trans ((c1_of (W1 m c) main_arg12 (by decide)).trans ((c0_of (W0 m c) main_arg12 (by decide)).trans (rfl : W0 m c main_arg12 = x12 m c)))))))
    ((c5_of (W5 m c) main_arg13 (by decide)).trans ((c4_of (W4 m c) main_arg13 (by decide)).trans ((c3_of (W3 m c) main_arg13 (by decide)).trans ((c2_of (W2 m c) main_arg13 (by decide)).trans ((c1_of (W1 m c) main_arg13 (by decide)).trans ((c0_of (W0 m c) main_arg13 (by decide)).trans (rfl : W0 m c main_arg13 = x13 m c)))))))

/-- The reference's run: the result array ends at the last stage function of the arguments, every argument array as launched. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v195) = Cert.ReferenceIdeal.Read.val_main_v195 (F := Ideal) (x0 m c) (x1 m c) (x2 m c) (x3 m c) (x4 m c) (x5 m c) (x6 m c) (x7 m c) (x8 m c) (x9 m c) (x10 m c) (x11 m c) (x12 m c) (x13 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨((h c main_v195).trans (congrFun (fold_eq m c) _)).trans (w7_out m c),
      ((h c main_arg0).trans (congrFun (fold_eq m c) _)).trans ((c6_of (W6 m c) main_arg0 (by decide)).trans ((c5_of (W5 m c) main_arg0 (by decide)).trans ((c4_of (W4 m c) main_arg0 (by decide)).trans ((c3_of (W3 m c) main_arg0 (by decide)).trans ((c2_of (W2 m c) main_arg0 (by decide)).trans ((c1_of (W1 m c) main_arg0 (by decide)).trans ((c0_of (W0 m c) main_arg0 (by decide)).trans (rfl : W0 m c main_arg0 = x0 m c)))))))),
      ((h c main_arg1).trans (congrFun (fold_eq m c) _)).trans ((c6_of (W6 m c) main_arg1 (by decide)).trans ((c5_of (W5 m c) main_arg1 (by decide)).trans ((c4_of (W4 m c) main_arg1 (by decide)).trans ((c3_of (W3 m c) main_arg1 (by decide)).trans ((c2_of (W2 m c) main_arg1 (by decide)).trans ((c1_of (W1 m c) main_arg1 (by decide)).trans ((c0_of (W0 m c) main_arg1 (by decide)).trans (rfl : W0 m c main_arg1 = x1 m c)))))))),
      ((h c main_arg2).trans (congrFun (fold_eq m c) _)).trans ((c6_of (W6 m c) main_arg2 (by decide)).trans ((c5_of (W5 m c) main_arg2 (by decide)).trans ((c4_of (W4 m c) main_arg2 (by decide)).trans ((c3_of (W3 m c) main_arg2 (by decide)).trans ((c2_of (W2 m c) main_arg2 (by decide)).trans ((c1_of (W1 m c) main_arg2 (by decide)).trans ((c0_of (W0 m c) main_arg2 (by decide)).trans (rfl : W0 m c main_arg2 = x2 m c)))))))),
      ((h c main_arg3).trans (congrFun (fold_eq m c) _)).trans ((c6_of (W6 m c) main_arg3 (by decide)).trans ((c5_of (W5 m c) main_arg3 (by decide)).trans ((c4_of (W4 m c) main_arg3 (by decide)).trans ((c3_of (W3 m c) main_arg3 (by decide)).trans ((c2_of (W2 m c) main_arg3 (by decide)).trans ((c1_of (W1 m c) main_arg3 (by decide)).trans ((c0_of (W0 m c) main_arg3 (by decide)).trans (rfl : W0 m c main_arg3 = x3 m c)))))))),
      ((h c main_arg4).trans (congrFun (fold_eq m c) _)).trans ((c6_of (W6 m c) main_arg4 (by decide)).trans ((c5_of (W5 m c) main_arg4 (by decide)).trans ((c4_of (W4 m c) main_arg4 (by decide)).trans ((c3_of (W3 m c) main_arg4 (by decide)).trans ((c2_of (W2 m c) main_arg4 (by decide)).trans ((c1_of (W1 m c) main_arg4 (by decide)).trans ((c0_of (W0 m c) main_arg4 (by decide)).trans (rfl : W0 m c main_arg4 = x4 m c)))))))),
      ((h c main_arg5).trans (congrFun (fold_eq m c) _)).trans ((c6_of (W6 m c) main_arg5 (by decide)).trans ((c5_of (W5 m c) main_arg5 (by decide)).trans ((c4_of (W4 m c) main_arg5 (by decide)).trans ((c3_of (W3 m c) main_arg5 (by decide)).trans ((c2_of (W2 m c) main_arg5 (by decide)).trans ((c1_of (W1 m c) main_arg5 (by decide)).trans ((c0_of (W0 m c) main_arg5 (by decide)).trans (rfl : W0 m c main_arg5 = x5 m c)))))))),
      ((h c main_arg6).trans (congrFun (fold_eq m c) _)).trans ((c6_of (W6 m c) main_arg6 (by decide)).trans ((c5_of (W5 m c) main_arg6 (by decide)).trans ((c4_of (W4 m c) main_arg6 (by decide)).trans ((c3_of (W3 m c) main_arg6 (by decide)).trans ((c2_of (W2 m c) main_arg6 (by decide)).trans ((c1_of (W1 m c) main_arg6 (by decide)).trans ((c0_of (W0 m c) main_arg6 (by decide)).trans (rfl : W0 m c main_arg6 = x6 m c)))))))),
      ((h c main_arg7).trans (congrFun (fold_eq m c) _)).trans ((c6_of (W6 m c) main_arg7 (by decide)).trans ((c5_of (W5 m c) main_arg7 (by decide)).trans ((c4_of (W4 m c) main_arg7 (by decide)).trans ((c3_of (W3 m c) main_arg7 (by decide)).trans ((c2_of (W2 m c) main_arg7 (by decide)).trans ((c1_of (W1 m c) main_arg7 (by decide)).trans ((c0_of (W0 m c) main_arg7 (by decide)).trans (rfl : W0 m c main_arg7 = x7 m c)))))))),
      ((h c main_arg8).trans (congrFun (fold_eq m c) _)).trans ((c6_of (W6 m c) main_arg8 (by decide)).trans ((c5_of (W5 m c) main_arg8 (by decide)).trans ((c4_of (W4 m c) main_arg8 (by decide)).trans ((c3_of (W3 m c) main_arg8 (by decide)).trans ((c2_of (W2 m c) main_arg8 (by decide)).trans ((c1_of (W1 m c) main_arg8 (by decide)).trans ((c0_of (W0 m c) main_arg8 (by decide)).trans (rfl : W0 m c main_arg8 = x8 m c)))))))),
      ((h c main_arg9).trans (congrFun (fold_eq m c) _)).trans ((c6_of (W6 m c) main_arg9 (by decide)).trans ((c5_of (W5 m c) main_arg9 (by decide)).trans ((c4_of (W4 m c) main_arg9 (by decide)).trans ((c3_of (W3 m c) main_arg9 (by decide)).trans ((c2_of (W2 m c) main_arg9 (by decide)).trans ((c1_of (W1 m c) main_arg9 (by decide)).trans ((c0_of (W0 m c) main_arg9 (by decide)).trans (rfl : W0 m c main_arg9 = x9 m c)))))))),
      ((h c main_arg10).trans (congrFun (fold_eq m c) _)).trans ((c6_of (W6 m c) main_arg10 (by decide)).trans ((c5_of (W5 m c) main_arg10 (by decide)).trans ((c4_of (W4 m c) main_arg10 (by decide)).trans ((c3_of (W3 m c) main_arg10 (by decide)).trans ((c2_of (W2 m c) main_arg10 (by decide)).trans ((c1_of (W1 m c) main_arg10 (by decide)).trans ((c0_of (W0 m c) main_arg10 (by decide)).trans (rfl : W0 m c main_arg10 = x10 m c)))))))),
      ((h c main_arg11).trans (congrFun (fold_eq m c) _)).trans ((c6_of (W6 m c) main_arg11 (by decide)).trans ((c5_of (W5 m c) main_arg11 (by decide)).trans ((c4_of (W4 m c) main_arg11 (by decide)).trans ((c3_of (W3 m c) main_arg11 (by decide)).trans ((c2_of (W2 m c) main_arg11 (by decide)).trans ((c1_of (W1 m c) main_arg11 (by decide)).trans ((c0_of (W0 m c) main_arg11 (by decide)).trans (rfl : W0 m c main_arg11 = x11 m c)))))))),
      ((h c main_arg12).trans (congrFun (fold_eq m c) _)).trans ((c6_of (W6 m c) main_arg12 (by decide)).trans ((c5_of (W5 m c) main_arg12 (by decide)).trans ((c4_of (W4 m c) main_arg12 (by decide)).trans ((c3_of (W3 m c) main_arg12 (by decide)).trans ((c2_of (W2 m c) main_arg12 (by decide)).trans ((c1_of (W1 m c) main_arg12 (by decide)).trans ((c0_of (W0 m c) main_arg12 (by decide)).trans (rfl : W0 m c main_arg12 = x12 m c)))))))),
      ((h c main_arg13).trans (congrFun (fold_eq m c) _)).trans ((c6_of (W6 m c) main_arg13 (by decide)).trans ((c5_of (W5 m c) main_arg13 (by decide)).trans ((c4_of (W4 m c) main_arg13 (by decide)).trans ((c3_of (W3 m c) main_arg13 (by decide)).trans ((c2_of (W2 m c) main_arg13 (by decide)).trans ((c1_of (W1 m c) main_arg13 (by decide)).trans ((c0_of (W0 m c) main_arg13 (by decide)).trans (rfl : W0 m c main_arg13 = x13 m c))))))))⟩)
    (run_seq Cert.ReferenceIdeal.Value.scopedRefs_eq Cert.ReferenceIdeal.Value.scopedSems_eq defs main (fun _ => Cert.ReferenceIdeal.Value.ops) Cert.ReferenceIdeal.Value.main_eq (fun _ => Cert.ReferenceIdeal.Value.ops_sub) m ρ)

end Cert.Net.RefRun

end
-- ==== Proof.lean ====
/-
  The certificate of a five-layer graph network with a two-layer head: three Pallas kernels (an edge kernel, a
  node kernel and the head), the first two launched once per layer, between gathers and scatter-adds on the host,
  against the plain jnp program.

  Frames. Each kernel body loads its whole input blocks, computes, and stores its whole output block, so each of
  the eleven regions runs to the end at every grid point, faults nowhere and writes only its own output array; the
  host operations between regions write only their own results; chained from the launch memory, every argument
  array ends as launched. The same argument serves the word-level program and its idealization, whose printed
  texts coincide (the ideal pass rewrote nothing, so the preservation claim is empty). The reference is host
  operations only: a line of operations runs to the end, and its fold over the launch memory, read stretch by
  stretch, leaves the arguments untouched.

  Values, over the extended reals. An edge kernel computes leaky(h[src] · Wa + w · Wb) where the reference computes
  leaky(concat(h[src], w) · W): the 67-term contraction is the 64-term and the 3-term sums regrouped. A node kernel
  computes max(h · Wa + (hN · inv) · Wb + b, 0) where the reference contracts concat(h, hN · inv) over 128 terms:
  again a regrouping. The head is the same two contractions on both sides. Changes of float format are the
  identity, the gathers and scatter-adds are the same operations of equal operands, and sums and products of
  extended reals commute and associate, so no finiteness is used. Stage by stage the two programs hold equal
  arrays, hence equal results.
-/
import proofs.«149571_j25649544692292_2_alg».proof.Defs
import proofs.«149571_j25649544692292_2_alg».proof.Proof.Gen.Kernel
import proofs.«149571_j25649544692292_2_alg».proof.Proof.Gen.Kernel.Skeleton
import proofs.«149571_j25649544692292_2_alg».proof.Proof.Gen.Kernel.Launch
import proofs.«149571_j25649544692292_2_alg».proof.Proof.Gen.Kernel.Regions
import proofs.«149571_j25649544692292_2_alg».proof.Proof.Gen.Kernel.Points
import proofs.«149571_j25649544692292_2_alg».proof.Proof.Gen.KernelIdeal
import proofs.«149571_j25649544692292_2_alg».proof.Proof.Gen.KernelIdeal.Skeleton
import proofs.«149571_j25649544692292_2_alg».proof.Proof.Gen.KernelIdeal.Launch
import proofs.«149571_j25649544692292_2_alg».proof.Proof.Gen.KernelIdeal.Regions
import proofs.«149571_j25649544692292_2_alg».proof.Proof.Gen.KernelIdeal.Points
import proofs.«149571_j25649544692292_2_alg».proof.Proof.Gen.ReferenceIdeal
import proofs.«149571_j25649544692292_2_alg».proof.Proof.Gen.Pre_finite_inputs
import proofs.«149571_j25649544692292_2_alg».proof.Proof.KW.Outs
import proofs.«149571_j25649544692292_2_alg».proof.Proof.KI.Value
import proofs.«149571_j25649544692292_2_alg».proof.Proof.RefRunH
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_p : Cert.frame_Kernel := fun m ρ _ => Cert.Kernel.Fr.frame m ρ

/-- So does its idealization. -/
theorem frame_pi : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.Net.RefRun.ref_run m ρ)

/-- The ideal pass rewrote nothing. -/
theorem preserves : Cert.preserves_Kernel_KernelIdeal := trivial

/-- From memories agreeing on the arguments both idealized programs run, and end with equal results. -/
theorem algebraic : Cert.algebraic_KernelIdeal_ReferenceIdeal := by
  intro m ρ m' ρ' _ hagree
  refine ⟨fun c => Cert.KernelIdeal.Fr.U21 m c Cert.KernelIdeal.main_v147, Cert.KernelIdeal.Fr.run_val m ρ, ?_⟩
  refine (θ_run Cert.ReferenceIdeal.defs _ _).mono (fun _ h c => ⟨(h c).1.trans ?_, (h c).2⟩)
    (Cert.Net.RefRun.ref_run m' ρ')
  show Cert.ReferenceIdeal.Read.val_main_v195 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) = _
  obtain ⟨a0, a1, a2, a3, a4, a5, a6, a7, a8, a9, a10, a11, a12, a13⟩ := hagree c
  rw [a0, a1, a2, a3, a4, a5, a6, a7, a8, a9, a10, a11, a12, a13]
  exact (Cert.KernelIdeal.Fr.result_eq m c).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
